-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v146)) (v1 : (c : Dev Cert.KernelIdeal.nD) → Buf (Elt Ideal) ((c.tc : Thread Cert.KernelIdeal.nD Cert.KernelIdeal.τ).loc Cert.KernelIdeal.main_v151)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v146) = v0 c
          ∧ r.2.mem ((c.tc : Thread Cert.KernelIdeal.nD Cert.KernelIdeal.τ).loc Cert.KernelIdeal.main_v151) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v170) = v0 c
          ∧ r.2.mem ((c.tc : Thread Cert.ReferenceIdeal.nD Cert.ReferenceIdeal.τ).loc Cert.ReferenceIdeal.main_v175) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part3 {F : FTy → Type} [FloatOps F] (main_arg13 : FVec F S64 .f32) (main_arg14 : FVec F S64 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  main_v63

def fn_part2 {F : FTy → Type} [FloatOps F] (main_arg9 : FVec F S64 .f32) (main_arg10 : FVec F S64 .f32) (main_arg11 : FVec F S64x64 .f32) (main_arg12 : FVec F S64 .f32) (main_arg13 : FVec F S64 .f32) (main_arg14 : FVec F S64 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg11
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg13 main_arg14 main_v48 main_v49 main_v50

def fn_part1 {F : FTy → Type} [FloatOps F] (main_arg6 : FVec F S64 .f32) (main_arg7 : FVec F S64x64 .f32) (main_arg8 : FVec F S64 .f32) (main_arg9 : FVec F S64 .f32) (main_arg10 : FVec F S64 .f32) (main_arg11 : FVec F S64x64 .f32) (main_arg12 : FVec F S64 .f32) (main_arg13 : FVec F S64 .f32) (main_arg14 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S50000x128 .f32) (main_arg1 : IVec S2x800000 32) (main_arg2 : IVec S50000 32) (main_arg3 : FVec F S128x64 .f32) (main_arg4 : FVec F S64 .f32) (main_arg5 : FVec F S64 .f32) (main_arg6 : FVec F S64 .f32) (main_arg7 : FVec F S64x64 .f32) (main_arg8 : FVec F S64 .f32) (main_arg9 : FVec F S64 .f32) (main_arg10 : FVec F S64 .f32) (main_arg11 : FVec F S64x64 .f32) (main_arg12 : FVec F S64 .f32) (main_arg13 : FVec F S64 .f32) (main_arg14 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_arg12 main_arg13 main_arg14 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x64 : Shape := ⟨2, ![128, 64]⟩
abbrev S64 : Shape := ⟨1, ![64]⟩
abbrev S64x64 : Shape := ⟨2, ![64, 64]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x64 : Shape := ⟨2, ![50000, 64]⟩
abbrev S2000x128 : Shape := ⟨2, ![2000, 128]⟩
abbrev S2000x64 : Shape := ⟨2, ![2000, 64]⟩
abbrev S850000x64 : Shape := ⟨2, ![850000, 64]⟩
abbrev S1x64 : Shape := ⟨2, ![1, 64]⟩
abbrev S256 : Shape := ⟨1, ![256]⟩
abbrev S50000x1 : Shape := ⟨2, ![50000, 1]⟩
abbrev S256x64 : Shape := ⟨2, ![256, 64]⟩
abbrev S256x1 : Shape := ⟨2, ![256, 1]⟩
abbrev S50000x192 : Shape := ⟨2, ![50000, 192]⟩
abbrev S256x192 : Shape := ⟨2, ![256, 192]⟩

abbrev nBuf : Space → Nat
  | .hbm => 211
  | .vmem => 60
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x64, .f32⟩
  | 4 => ⟨S64, .f32⟩
  | 5 => ⟨S64, .f32⟩
  | 6 => ⟨S64, .f32⟩
  | 7 => ⟨S64x64, .f32⟩
  | 8 => ⟨S64, .f32⟩
  | 9 => ⟨S64, .f32⟩
  | 10 => ⟨S64, .f32⟩
  | 11 => ⟨S64x64, .f32⟩
  | 12 => ⟨S64, .f32⟩
  | 13 => ⟨S64, .f32⟩
  | 14 => ⟨S64, .f32⟩
  | 15 => ⟨S50000, .i32⟩
  | 16 => ⟨S1x800000, .i32⟩
  | 17 => ⟨S800000, .i32⟩
  | 18 => ⟨S850000, .i32⟩
  | 19 => ⟨S1x800000, .i32⟩
  | 20 => ⟨S800000, .i32⟩
  | 21 => ⟨S850000, .i32⟩
  | 22 => ⟨S_, .f32⟩
  | 23 => ⟨S850000, .f32⟩
  | 24 => ⟨S_, .f32⟩
  | 25 => ⟨S50000, .f32⟩
  | 26 => ⟨S850000x1, .i32⟩
  | 27 => ⟨S50000, .f32⟩
  | 28 => ⟨S_, .f32⟩
  | 29 => ⟨S50000, .f32⟩
  | 30 => ⟨S50000, .f32⟩
  | 31 => ⟨S50000, .f32⟩
  | 32 => ⟨S_, .i32⟩
  | 33 => ⟨S850000, .i32⟩
  | 34 => ⟨S850000, .i1⟩
  | 35 => ⟨S_, .i32⟩
  | 36 => ⟨S850000, .i32⟩
  | 37 => ⟨S850000, .i32⟩
  | 38 => ⟨S850000, .i32⟩
  | 39 => ⟨S850000x1, .i32⟩
  | 40 => ⟨S850000, .f32⟩
  | 41 => ⟨S_, .i32⟩
  | 42 => ⟨S850000, .i32⟩
  | 43 => ⟨S850000, .i1⟩
  | 44 => ⟨S_, .i32⟩
  | 45 => ⟨S850000, .i32⟩
  | 46 => ⟨S850000, .i32⟩
  | 47 => ⟨S850000, .i32⟩
  | 48 => ⟨S850000x1, .i32⟩
  | 49 => ⟨S850000, .f32⟩
  | 50 => ⟨S850000, .f32⟩
  | 51 => ⟨S50000x64, .f32⟩
  | 52 => ⟨S_, .i32⟩
  | 53 => ⟨S850000, .i32⟩
  | 54 => ⟨S850000, .i1⟩
  | 55 => ⟨S_, .i32⟩
  | 56 => ⟨S850000, .i32⟩
  | 57 => ⟨S850000, .i32⟩
  | 58 => ⟨S850000, .i32⟩
  | 59 => ⟨S850000x1, .i32⟩
  | 60 => ⟨S850000x64, .f32⟩
  | 61 => ⟨S850000x1, .f32⟩
  | 62 => ⟨S850000x64, .f32⟩
  | 63 => ⟨S850000x64, .f32⟩
  | 64 => ⟨S_, .f32⟩
  | 65 => ⟨S50000x64, .f32⟩
  | 66 => ⟨S850000x1, .i32⟩
  | 67 => ⟨S50000x64, .f32⟩
  | 68 => ⟨S1x64, .f32⟩
  | 69 => ⟨S50000x64, .f32⟩
  | 70 => ⟨S1x64, .f32⟩
  | 71 => ⟨S1x64, .f32⟩
  | 72 => ⟨S64, .f32⟩
  | 73 => ⟨S64, .f32⟩
  | 74 => ⟨S_, .f32⟩
  | 75 => ⟨S64, .f32⟩
  | 76 => ⟨S64, .f32⟩
  | 77 => ⟨S_, .f32⟩
  | 78 => ⟨S64, .f32⟩
  | 79 => ⟨S64, .f32⟩
  | 80 => ⟨S64, .f32⟩
  | 81 => ⟨S64, .f32⟩
  | 82 => ⟨S1x64, .f32⟩
  | 83 => ⟨S1x64, .f32⟩
  | 84 => ⟨S1x64, .f32⟩
  | 85 => ⟨S1x64, .f32⟩
  | 86 => ⟨S50000x64, .f32⟩
  | 87 => ⟨S50000x64, .f32⟩
  | 88 => ⟨S_, .i32⟩
  | 89 => ⟨S850000, .i32⟩
  | 90 => ⟨S850000, .i1⟩
  | 91 => ⟨S_, .i32⟩
  | 92 => ⟨S850000, .i32⟩
  | 93 => ⟨S850000, .i32⟩
  | 94 => ⟨S850000, .i32⟩
  | 95 => ⟨S850000x1, .i32⟩
  | 96 => ⟨S850000x64, .f32⟩
  | 97 => ⟨S850000x1, .f32⟩
  | 98 => ⟨S850000x64, .f32⟩
  | 99 => ⟨S850000x64, .f32⟩
  | 100 => ⟨S_, .f32⟩
  | 101 => ⟨S50000x64, .f32⟩
  | 102 => ⟨S850000x1, .i32⟩
  | 103 => ⟨S50000x64, .f32⟩
  | 104 => ⟨S1x64, .f32⟩
  | 105 => ⟨S50000x64, .f32⟩
  | 106 => ⟨S1x64, .f32⟩
  | 107 => ⟨S1x64, .f32⟩
  | 108 => ⟨S64, .f32⟩
  | 109 => ⟨S64, .f32⟩
  | 110 => ⟨S_, .f32⟩
  | 111 => ⟨S64, .f32⟩
  | 112 => ⟨S64, .f32⟩
  | 113 => ⟨S_, .f32⟩
  | 114 => ⟨S64, .f32⟩
  | 115 => ⟨S64, .f32⟩
  | 116 => ⟨S64, .f32⟩
  | 117 => ⟨S64, .f32⟩
  | 118 => ⟨S1x64, .f32⟩
  | 119 => ⟨S1x64, .f32⟩
  | 120 => ⟨S1x64, .f32⟩
  | 121 => ⟨S1x64, .f32⟩
  | 122 => ⟨S50000x64, .f32⟩
  | 123 => ⟨S50000x64, .f32⟩
  | 124 => ⟨S_, .i32⟩
  | 125 => ⟨S850000, .i32⟩
  | 126 => ⟨S850000, .i1⟩
  | 127 => ⟨S_, .i32⟩
  | _ => ⟨S50000x128, .f32⟩

abbrev hbmTy0_1 (i : Nat) : BufTy := match i % 128 with
  | 0 => ⟨S850000, .i32⟩
  | 1 => ⟨S850000, .i32⟩
  | 2 => ⟨S850000, .i32⟩
  | 3 => ⟨S850000x1, .i32⟩
  | 4 => ⟨S850000x64, .f32⟩
  | 5 => ⟨S850000x1, .f32⟩
  | 6 => ⟨S850000x64, .f32⟩
  | 7 => ⟨S850000x64, .f32⟩
  | 8 => ⟨S_, .f32⟩
  | 9 => ⟨S50000x64, .f32⟩
  | 10 => ⟨S850000x1, .i32⟩
  | 11 => ⟨S50000x64, .f32⟩
  | 12 => ⟨S1x64, .f32⟩
  | 13 => ⟨S50000x64, .f32⟩
  | 14 => ⟨S1x64, .f32⟩
  | 15 => ⟨S1x64, .f32⟩
  | 16 => ⟨S64, .f32⟩
  | 17 => ⟨S64, .f32⟩
  | 18 => ⟨S_, .f32⟩
  | 19 => ⟨S64, .f32⟩
  | 20 => ⟨S64, .f32⟩
  | 21 => ⟨S_, .f32⟩
  | 22 => ⟨S64, .f32⟩
  | 23 => ⟨S64, .f32⟩
  | 24 => ⟨S64, .f32⟩
  | 25 => ⟨S64, .f32⟩
  | 26 => ⟨S1x64, .f32⟩
  | 27 => ⟨S1x64, .f32⟩
  | 28 => ⟨S1x64, .f32⟩
  | 29 => ⟨S1x64, .f32⟩
  | 30 => ⟨S50000x64, .f32⟩
  | 31 => ⟨S_, .f32⟩
  | 32 => ⟨S50000, .f32⟩
  | 33 => ⟨S_, .f32⟩
  | 34 => ⟨S256, .f32⟩
  | 35 => ⟨S50000x1, .i32⟩
  | 36 => ⟨S256, .f32⟩
  | 37 => ⟨S_, .f32⟩
  | 38 => ⟨S256, .f32⟩
  | 39 => ⟨S256, .f32⟩
  | 40 => ⟨S_, .f32⟩
  | 41 => ⟨S256x64, .f32⟩
  | 42 => ⟨S50000x1, .i32⟩
  | 43 => ⟨S256x64, .f32⟩
  | 44 => ⟨S256x1, .f32⟩
  | 45 => ⟨S256x64, .f32⟩
  | 46 => ⟨S256x64, .f32⟩
  | 47 => ⟨S_, .f32⟩
  | 48 => ⟨S256x64, .f32⟩
  | 49 => ⟨S50000x1, .i32⟩
  | 50 => ⟨S256x64, .f32⟩
  | 51 => ⟨S256x1, .f32⟩
  | 52 => ⟨S256x64, .f32⟩
  | 53 => ⟨S256x64, .f32⟩
  | 54 => ⟨S_, .f32⟩
  | 55 => ⟨S256x64, .f32⟩
  | 56 => ⟨S50000x1, .i32⟩
  | 57 => ⟨S256x64, .f32⟩
  | 58 => ⟨S256x1, .f32⟩
  | 59 => ⟨S256x64, .f32⟩
  | 60 => ⟨S256x64, .f32⟩
  | 61 => ⟨S50000x192, .f32⟩
  | 62 => ⟨S256x192, .f32⟩
  | 63 => ⟨S50000x192, .f32⟩
  | 64 => ⟨S_, .f32⟩
  | 65 => ⟨S50000, .f32⟩
  | 66 => ⟨S50000x1, .f32⟩
  | 67 => ⟨S50000x1, .f32⟩
  | 68 => ⟨S_, .f32⟩
  | 69 => ⟨S50000x1, .f32⟩
  | 70 => ⟨S50000x1, .f32⟩
  | 71 => ⟨S50000x192, .f32⟩
  | 72 => ⟨S50000x192, .f32⟩
  | 73 => ⟨S256x192, .f32⟩
  | 74 => ⟨S_, .f32⟩
  | 75 => ⟨S256, .f32⟩
  | 76 => ⟨S256x1, .f32⟩
  | 77 => ⟨S256x1, .f32⟩
  | 78 => ⟨S_, .f32⟩
  | 79 => ⟨S256x1, .f32⟩
  | 80 => ⟨S256x1, .f32⟩
  | 81 => ⟨S256x192, .f32⟩
  | 82 => ⟨S256x192, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x64, .f32⟩
  | .local _ .vmem, ⟨3, _⟩ => ⟨S2000x64, .f32⟩
  | .local _ .vmem, ⟨4, _⟩ => ⟨S2000x64, .f32⟩
  | .local _ .vmem, ⟨5, _⟩ => ⟨S2000x64, .f32⟩
  | .local _ .vmem, ⟨6, _⟩ => ⟨S2000x64, .f32⟩
  | .local _ .vmem, ⟨7, _⟩ => ⟨S1x64, .f32⟩
  | .local _ .vmem, ⟨8, _⟩ => ⟨S2000x64, .f32⟩
  | .local _ .vmem, ⟨9, _⟩ => ⟨S2000x64, .f32⟩
  | .local _ .vmem, ⟨10, _⟩ => ⟨S1x64, .f32⟩
  | .local _ .vmem, ⟨11, _⟩ => ⟨S1x64, .f32⟩
  | .local _ .vmem, ⟨12, _⟩ => ⟨S2000x64, .f32⟩
  | .local _ .vmem, ⟨13, _⟩ => ⟨S2000x64, .f32⟩
  | .local _ .vmem, ⟨14, _⟩ => ⟨S1x64, .f32⟩
  | .local _ .vmem, ⟨15, _⟩ => ⟨S1x64, .f32⟩
  | .local _ .vmem, ⟨16, _⟩ => ⟨S1x64, .f32⟩
  | .local _ .vmem, ⟨17, _⟩ => ⟨S1x64, .f32⟩
  | .local _ .vmem, ⟨18, _⟩ => ⟨S2000x64, .f32⟩
  | .local _ .vmem, ⟨19, _⟩ => ⟨S2000x64, .f32⟩
  | .local _ .vmem, ⟨20, _⟩ => ⟨S2000x64, .f32⟩
  | .local _ .vmem, ⟨21, _⟩ => ⟨S2000x64, .f32⟩
  | .local _ .vmem, ⟨22, _⟩ => ⟨S64x64, .f32⟩
  | .local _ .vmem, ⟨23, _⟩ => ⟨S2000x64, .f32⟩
  | .local _ .vmem, ⟨24, _⟩ => ⟨S2000x64, .f32⟩
  | .local _ .vmem, ⟨25, _⟩ => ⟨S2000x64, .f32⟩
  | .local _ .vmem, ⟨26, _⟩ => ⟨S2000x64, .f32⟩
  | .local _ .vmem, ⟨27, _⟩ => ⟨S1x64, .f32⟩
  | .local _ .vmem, ⟨28, _⟩ => ⟨S2000x64, .f32⟩
  | .local _ .vmem, ⟨29, _⟩ => ⟨S2000x64, .f32⟩
  | .local _ .vmem, ⟨30, _⟩ => ⟨S1x64, .f32⟩
  | .local _ .vmem, ⟨31, _⟩ => ⟨S1x64, .f32⟩
  | .local _ .vmem, ⟨32, _⟩ => ⟨S2000x64, .f32⟩
  | .local _ .vmem, ⟨33, _⟩ => ⟨S2000x64, .f32⟩
  | .local _ .vmem, ⟨34, _⟩ => ⟨S1x64, .f32⟩
  | .local _ .vmem, ⟨35, _⟩ => ⟨S1x64, .f32⟩
  | .local _ .vmem, ⟨36, _⟩ => ⟨S1x64, .f32⟩
  | .local _ .vmem, ⟨37, _⟩ => ⟨S1x64, .f32⟩
  | .local _ .vmem, ⟨38, _⟩ => ⟨S2000x64, .f32⟩
  | .local _ .vmem, ⟨39, _⟩ => ⟨S2000x64, .f32⟩
  | .local _ .vmem, ⟨40, _⟩ => ⟨S2000x64, .f32⟩
  | .local _ .vmem, ⟨41, _⟩ => ⟨S2000x64, .f32⟩
  | .local _ .vmem, ⟨42, _⟩ => ⟨S64x64, .f32⟩
  | .local _ .vmem, ⟨43, _⟩ => ⟨S2000x64, .f32⟩
  | .local _ .vmem, ⟨44, _⟩ => ⟨S2000x64, .f32⟩
  | .local _ .vmem, ⟨45, _⟩ => ⟨S2000x64, .f32⟩
  | .local _ .vmem, ⟨46, _⟩ => ⟨S2000x64, .f32⟩
  | .local _ .vmem, ⟨47, _⟩ => ⟨S1x64, .f32⟩
  | .local _ .vmem, ⟨48, _⟩ => ⟨S2000x64, .f32⟩
  | .local _ .vmem, ⟨49, _⟩ => ⟨S2000x64, .f32⟩
  | .local _ .vmem, ⟨50, _⟩ => ⟨S1x64, .f32⟩
  | .local _ .vmem, ⟨51, _⟩ => ⟨S1x64, .f32⟩
  | .local _ .vmem, ⟨52, _⟩ => ⟨S2000x64, .f32⟩
  | .local _ .vmem, ⟨53, _⟩ => ⟨S2000x64, .f32⟩
  | .local _ .vmem, ⟨54, _⟩ => ⟨S1x64, .f32⟩
  | .local _ .vmem, ⟨55, _⟩ => ⟨S1x64, .f32⟩
  | .local _ .vmem, ⟨56, _⟩ => ⟨S1x64, .f32⟩
  | .local _ .vmem, ⟨57, _⟩ => ⟨S1x64, .f32⟩
  | .local _ .vmem, ⟨58, _⟩ => ⟨S2000x64, .f32⟩
  | .local _ .vmem, ⟨59, _⟩ => ⟨S2000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_cst_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_1 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_c : Ref sig .tc := ⟨.hbm, 32, rfl⟩
abbrev main_v14 : Ref sig .tc := ⟨.hbm, 33, rfl⟩
abbrev main_v15 : Ref sig .tc := ⟨.hbm, 34, rfl⟩
abbrev main_c_2 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_c_3 : Ref sig .tc := ⟨.hbm, 41, rfl⟩
abbrev main_v21 : Ref sig .tc := ⟨.hbm, 42, rfl⟩
abbrev main_v22 : Ref sig .tc := ⟨.hbm, 43, rfl⟩
abbrev main_c_4 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_c_5 : Ref sig .tc := ⟨.hbm, 52, rfl⟩
abbrev main_v30 : Ref sig .tc := ⟨.hbm, 53, rfl⟩
abbrev main_v31 : Ref sig .tc := ⟨.hbm, 54, rfl⟩
abbrev main_c_6 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_7 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44_0 : Ref sig .tc := ⟨.hbm, 69, rfl⟩
abbrev main_v44_1 : Ref sig .tc := ⟨.hbm, 70, rfl⟩
abbrev main_v44_2 : Ref sig .tc := ⟨.hbm, 71, rfl⟩
abbrev main_v45 : Ref sig .tc := ⟨.hbm, 72, rfl⟩
abbrev main_v46 : Ref sig .tc := ⟨.hbm, 73, rfl⟩
abbrev main_cst_8 : Ref sig .tc := ⟨.hbm, 74, rfl⟩
abbrev main_v47 : Ref sig .tc := ⟨.hbm, 75, rfl⟩
abbrev main_v48 : Ref sig .tc := ⟨.hbm, 76, rfl⟩
abbrev main_cst_9 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_c_10 : Ref sig .tc := ⟨.hbm, 88, rfl⟩
abbrev main_v59 : Ref sig .tc := ⟨.hbm, 89, rfl⟩
abbrev main_v60 : Ref sig .tc := ⟨.hbm, 90, rfl⟩
abbrev main_c_11 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_cst_12 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73_0 : Ref sig .tc := ⟨.hbm, 105, rfl⟩
abbrev main_v73_1 : Ref sig .tc := ⟨.hbm, 106, rfl⟩
abbrev main_v73_2 : Ref sig .tc := ⟨.hbm, 107, rfl⟩
abbrev main_v74 : Ref sig .tc := ⟨.hbm, 108, rfl⟩
abbrev main_v75 : Ref sig .tc := ⟨.hbm, 109, rfl⟩
abbrev main_cst_13 : Ref sig .tc := ⟨.hbm, 110, rfl⟩
abbrev main_v76 : Ref sig .tc := ⟨.hbm, 111, rfl⟩
abbrev main_v77 : Ref sig .tc := ⟨.hbm, 112, rfl⟩
abbrev main_cst_14 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_c_15 : Ref sig .tc := ⟨.hbm, 124, rfl⟩
abbrev main_v88 : Ref sig .tc := ⟨.hbm, 125, rfl⟩
abbrev main_v89 : Ref sig .tc := ⟨.hbm, 126, rfl⟩
abbrev main_c_16 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_cst_17 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102_0 : Ref sig .tc := ⟨.hbm, 141, rfl⟩
abbrev main_v102_1 : Ref sig .tc := ⟨.hbm, 142, rfl⟩
abbrev main_v102_2 : Ref sig .tc := ⟨.hbm, 143, rfl⟩
abbrev main_v103 : Ref sig .tc := ⟨.hbm, 144, rfl⟩
abbrev main_v104 : Ref sig .tc := ⟨.hbm, 145, rfl⟩
abbrev main_cst_18 : Ref sig .tc := ⟨.hbm, 146, rfl⟩
abbrev main_v105 : Ref sig .tc := ⟨.hbm, 147, rfl⟩
abbrev main_v106 : Ref sig .tc := ⟨.hbm, 148, rfl⟩
abbrev main_cst_19 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_cst_20 : Ref sig .tc := ⟨.hbm, 159, rfl⟩
abbrev main_v116 : Ref sig .tc := ⟨.hbm, 160, rfl⟩
abbrev main_cst_21 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_cst_22 : Ref sig .tc := ⟨.hbm, 165, rfl⟩
abbrev main_v120 : Ref sig .tc := ⟨.hbm, 166, rfl⟩
abbrev main_v121 : Ref sig .tc := ⟨.hbm, 167, rfl⟩
abbrev main_cst_23 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_cst_24 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_cst_25 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_call0_v0 : Ref sig .tc := ⟨.hbm, 191, rfl⟩
abbrev main_call0_cst : Ref sig .tc := ⟨.hbm, 192, rfl⟩
abbrev main_call0_v1 : Ref sig .tc := ⟨.hbm, 193, rfl⟩
abbrev main_call0_v2 : Ref sig .tc := ⟨.hbm, 194, rfl⟩
abbrev main_v142 : Ref sig .tc := ⟨.hbm, 195, rfl⟩
abbrev main_cst_26 : Ref sig .tc := ⟨.hbm, 196, rfl⟩
abbrev main_v143 : Ref sig .tc := ⟨.hbm, 197, rfl⟩
abbrev main_v144 : Ref sig .tc := ⟨.hbm, 198, rfl⟩
abbrev main_v145 : Ref sig .tc := ⟨.hbm, 199, rfl⟩
abbrev main_v146 : Ref sig .tc := ⟨.hbm, 200, rfl⟩
abbrev main_call1_v0 : Ref sig .tc := ⟨.hbm, 201, rfl⟩
abbrev main_call1_cst : Ref sig .tc := ⟨.hbm, 202, rfl⟩
abbrev main_call1_v1 : Ref sig .tc := ⟨.hbm, 203, rfl⟩
abbrev main_call1_v2 : Ref sig .tc := ⟨.hbm, 204, rfl⟩
abbrev main_v147 : Ref sig .tc := ⟨.hbm, 205, rfl⟩
abbrev main_cst_27 : Ref sig .tc := ⟨.hbm, 206, rfl⟩
abbrev main_v148 : Ref sig .tc := ⟨.hbm, 207, rfl⟩
abbrev main_v149 : Ref sig .tc := ⟨.hbm, 208, rfl⟩
abbrev main_v150 : Ref sig .tc := ⟨.hbm, 209, rfl⟩
abbrev main_v151 : Ref sig .tc := ⟨.hbm, 210, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg4_0 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg5_0 : Ref sig .tc := ⟨.vmem, 18, rfl⟩
abbrev cc2_stg5_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg2_1 : Ref sig .tc := ⟨.vmem, 24, rfl⟩
abbrev cc4_stg0_0 : Ref sig .tc := ⟨.vmem, 25, rfl⟩
abbrev cc4_stg0_1 : Ref sig .tc := ⟨.vmem, 26, rfl⟩
abbrev cc4_stg1_0 : Ref sig .tc := ⟨.vmem, 27, rfl⟩
abbrev cc4_stg2_0 : Ref sig .tc := ⟨.vmem, 28, rfl⟩
abbrev cc4_stg2_1 : Ref sig .tc := ⟨.vmem, 29, rfl⟩
abbrev cc4_stg3_0 : Ref sig .tc := ⟨.vmem, 30, rfl⟩
abbrev cc4_stg4_0 : Ref sig .tc := ⟨.vmem, 31, rfl⟩
abbrev cc5_stg0_0 : Ref sig .tc := ⟨.vmem, 32, rfl⟩
abbrev cc5_stg0_1 : Ref sig .tc := ⟨.vmem, 33, rfl⟩
abbrev cc5_stg1_0 : Ref sig .tc := ⟨.vmem, 34, rfl⟩
abbrev cc5_stg2_0 : Ref sig .tc := ⟨.vmem, 35, rfl⟩
abbrev cc5_stg3_0 : Ref sig .tc := ⟨.vmem, 36, rfl⟩
abbrev cc5_stg4_0 : Ref sig .tc := ⟨.vmem, 37, rfl⟩
abbrev cc5_stg5_0 : Ref sig .tc := ⟨.vmem, 38, rfl⟩
abbrev cc5_stg5_1 : Ref sig .tc := ⟨.vmem, 39, rfl⟩
abbrev cc6_stg0_0 : Ref sig .tc := ⟨.vmem, 40, rfl⟩
abbrev cc6_stg0_1 : Ref sig .tc := ⟨.vmem, 41, rfl⟩
abbrev cc6_stg1_0 : Ref sig .tc := ⟨.vmem, 42, rfl⟩
abbrev cc6_stg2_0 : Ref sig .tc := ⟨.vmem, 43, rfl⟩
abbrev cc6_stg2_1 : Ref sig .tc := ⟨.vmem, 44, rfl⟩
abbrev cc7_stg0_0 : Ref sig .tc := ⟨.vmem, 45, rfl⟩
abbrev cc7_stg0_1 : Ref sig .tc := ⟨.vmem, 46, rfl⟩
abbrev cc7_stg1_0 : Ref sig .tc := ⟨.vmem, 47, rfl⟩
abbrev cc7_stg2_0 : Ref sig .tc := ⟨.vmem, 48, rfl⟩
abbrev cc7_stg2_1 : Ref sig .tc := ⟨.vmem, 49, rfl⟩
abbrev cc7_stg3_0 : Ref sig .tc := ⟨.vmem, 50, rfl⟩
abbrev cc7_stg4_0 : Ref sig .tc := ⟨.vmem, 51, rfl⟩
abbrev cc8_stg0_0 : Ref sig .tc := ⟨.vmem, 52, rfl⟩
abbrev cc8_stg0_1 : Ref sig .tc := ⟨.vmem, 53, rfl⟩
abbrev cc8_stg1_0 : Ref sig .tc := ⟨.vmem, 54, rfl⟩
abbrev cc8_stg2_0 : Ref sig .tc := ⟨.vmem, 55, rfl⟩
abbrev cc8_stg3_0 : Ref sig .tc := ⟨.vmem, 56, rfl⟩
abbrev cc8_stg4_0 : Ref sig .tc := ⟨.vmem, 57, rfl⟩
abbrev cc8_stg5_0 : Ref sig .tc := ⟨.vmem, 58, rfl⟩
abbrev cc8_stg5_1 : Ref sig .tc := ⟨.vmem, 59, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem4_0 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem4_0 : DmaSem sig := 17
abbrev cc2_sem5_0 : DmaSem sig := 18
abbrev cc2_sem5_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem2_1 : DmaSem sig := 24
abbrev cc4_sem0_0 : DmaSem sig := 25
abbrev cc4_sem0_1 : DmaSem sig := 26
abbrev cc4_sem1_0 : DmaSem sig := 27
abbrev cc4_sem2_0 : DmaSem sig := 28
abbrev cc4_sem2_1 : DmaSem sig := 29
abbrev cc4_sem3_0 : DmaSem sig := 30
abbrev cc4_sem4_0 : DmaSem sig := 31
abbrev cc5_sem0_0 : DmaSem sig := 32
abbrev cc5_sem0_1 : DmaSem sig := 33
abbrev cc5_sem1_0 : DmaSem sig := 34
abbrev cc5_sem2_0 : DmaSem sig := 35
abbrev cc5_sem3_0 : DmaSem sig := 36
abbrev cc5_sem4_0 : DmaSem sig := 37
abbrev cc5_sem5_0 : DmaSem sig := 38
abbrev cc5_sem5_1 : DmaSem sig := 39
abbrev cc6_sem0_0 : DmaSem sig := 40
abbrev cc6_sem0_1 : DmaSem sig := 41
abbrev cc6_sem1_0 : DmaSem sig := 42
abbrev cc6_sem2_0 : DmaSem sig := 43
abbrev cc6_sem2_1 : DmaSem sig := 44
abbrev cc7_sem0_0 : DmaSem sig := 45
abbrev cc7_sem0_1 : DmaSem sig := 46
abbrev cc7_sem1_0 : DmaSem sig := 47
abbrev cc7_sem2_0 : DmaSem sig := 48
abbrev cc7_sem2_1 : DmaSem sig := 49
abbrev cc7_sem3_0 : DmaSem sig := 50
abbrev cc7_sem4_0 : DmaSem sig := 51
abbrev cc8_sem0_0 : DmaSem sig := 52
abbrev cc8_sem0_1 : DmaSem sig := 53
abbrev cc8_sem1_0 : DmaSem sig := 54
abbrev cc8_sem2_0 : DmaSem sig := 55
abbrev cc8_sem3_0 : DmaSem sig := 56
abbrev cc8_sem4_0 : DmaSem sig := 57
abbrev cc8_sem5_0 : DmaSem sig := 58
abbrev cc8_sem5_1 : DmaSem sig := 59

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S2000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S2000x64 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S2000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S2000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S2000x64 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S1x64 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x64 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev grid8 : Pipeline.Grid := ⟨1, ![25], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S2000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x64 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x64 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x64 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x64 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S2000x64 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S2000x64_S2000x64 : S2000x64.ShapeCasts S2000x64
  shapeCasts_S1x64_S1x64 : S1x64.ShapeCasts S1x64
  broadcasts_S1x64_S2000x64 : S1x64.Broadcasts S2000x64
  reduces_S2000x64_S64 : S2000x64.Reduces [0] S64
  shapeCasts_S1x64_S64 : S1x64.ShapeCasts S64
  bcast_S_S64 : S_.BroadcastsInDim S64 (![] : Fin 0 → Fin S64.rank)
  inb_S64x64_S64x64_0_0 : ∀ a, (![0, 0] : Fin 2 → Nat) a + S64x64.size a ≤ S64x64.size a
  h_S64x64 : 0 < S64x64.numel
  bcast_S_S256 : S_.BroadcastsInDim S256 (![] : Fin 0 → Fin S256.rank)
  bcast_S50000_S50000x1_0 : S50000.BroadcastsInDim S50000x1 (![0] : Fin 1 → Fin S50000x1.rank)
  bcast_S_S256x64 : S_.BroadcastsInDim S256x64 (![] : Fin 0 → Fin S256x64.rank)
  bcast_S256_S256x1_0 : S256.BroadcastsInDim S256x1 (![0] : Fin 1 → Fin S256x1.rank)
  bcast_S256x1_S256x64_0_1 : S256x1.BroadcastsInDim S256x64 (![0, 1] : Fin 2 → Fin S256x64.rank)
  concatenates_S50000x64_S50000x64_S50000x64_S50000x192_d1 : Shape.Concatenates [S50000x64, S50000x64, S50000x64] S50000x192 1
  concatenates_S256x64_S256x64_S256x64_S256x192_d1 : Shape.Concatenates [S256x64, S256x64, S256x64] S256x192 1
  reducesTo_S50000x192_S50000_d1 : S50000x192.ReducesTo [1] S50000
  h_S_ : 0 < S_.numel
  bcast_S_S50000x1 : S_.BroadcastsInDim S50000x1 (![] : Fin 0 → Fin S50000x1.rank)
  bcast_S50000x1_S50000x192_0_1 : S50000x1.BroadcastsInDim S50000x192 (![0, 1] : Fin 2 → Fin S50000x192.rank)
  reducesTo_S256x192_S256_d1 : S256x192.ReducesTo [1] S256
  bcast_S_S256x1 : S_.BroadcastsInDim S256x1 (![] : Fin 0 → Fin S256x1.rank)
  bcast_S256x1_S256x192_0_1 : S256x1.BroadcastsInDim S256x192 (![0, 1] : Fin 2 → Fin S256x192.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x128_S128x64_S2000x64_1_0_0_1_n_n_wf : DotDims.WF S2000x128 S128x64 S2000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S2000x64_S64x64_S2000x64_1_0_0_1_n_n_wf : DotDims.WF S2000x64 S64x64 S2000x64 [1] [0] [0] [1] [] []
  scatter_S256_S50000x1_S50000_n_0_0_1_wf : ScatterDims.WF S256 S50000x1 S50000 [] [0] [0] 1
  scatter_S256x64_S50000x1_S50000x64_1_0_0_1_wf : ScatterDims.WF S256x64 S50000x1 S50000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S50000x64.size a
  hwx0_2 : ∀ i : grid0.Coords, EltTy.bits .f32 = 32 ∨ (Rect.block (s := S50000x64) S2000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S50000x64.size a
  hwx1_0 : ∀ i : grid1.Coords, EltTy.bits .f32 = 32 ∨ (Rect.block (s := S50000x64) S2000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x64.size a ≤ S50000x64.size a
  hwx1_2 : ∀ i : grid1.Coords, EltTy.bits .f32 = 32 ∨ (Rect.block (s := S50000x64) S2000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S50000x64.size a
  hwx2_0 : ∀ i : grid2.Coords, EltTy.bits .f32 = 32 ∨ (Rect.block (s := S50000x64) S2000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x64.size a ≤ S50000x64.size a
  hwx2_5 : ∀ i : grid2.Coords, EltTy.bits .f32 = 32 ∨ (Rect.block (s := S50000x64) S2000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S50000x64.size a
  hwx3_0 : ∀ i : grid3.Coords, EltTy.bits .f32 = 32 ∨ (Rect.block (s := S50000x64) S2000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x64.size a ≤ S50000x64.size a
  hwx3_2 : ∀ i : grid3.Coords, EltTy.bits .f32 = 32 ∨ (Rect.block (s := S50000x64) S2000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x64.size a ≤ S50000x64.size a
  hwx4_0 : ∀ i : grid4.Coords, EltTy.bits .f32 = 32 ∨ (Rect.block (s := S50000x64) S2000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x64.size a ≤ S1x64.size a
  hwx4_1 : ∀ i : grid4.Coords, EltTy.bits .f32 = 32 ∨ (Rect.block (s := S1x64) S1x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x64.size a ≤ S50000x64.size a
  hwx4_2 : ∀ i : grid4.Coords, EltTy.bits .f32 = 32 ∨ (Rect.block (s := S50000x64) S2000x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x64.size a ≤ S50000x64.size a
  hwx5_0 : ∀ i : grid5.Coords, EltTy.bits .f32 = 32 ∨ (Rect.block (s := S50000x64) S2000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S2000x64.size a ≤ S50000x64.size a
  hwx5_5 : ∀ i : grid5.Coords, EltTy.bits .f32 = 32 ∨ (Rect.block (s := S50000x64) S2000x64.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x64.size a ≤ S50000x64.size a
  hwx6_0 : ∀ i : grid6.Coords, EltTy.bits .f32 = 32 ∨ (Rect.block (s := S50000x64) S2000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x64.size a ≤ S64x64.size a
  hwx6_1 : ∀ i : grid6.Coords, EltTy.bits .f32 = 32 ∨ (Rect.block (s := S64x64) S64x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2000x64.size a ≤ S50000x64.size a
  hwx6_2 : ∀ i : grid6.Coords, EltTy.bits .f32 = 32 ∨ (Rect.block (s := S50000x64) S2000x64.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x64.size a ≤ S50000x64.size a
  hwx7_0 : ∀ i : grid7.Coords, EltTy.bits .f32 = 32 ∨ (Rect.block (s := S50000x64) S2000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x64.size a ≤ S1x64.size a
  hwx7_1 : ∀ i : grid7.Coords, EltTy.bits .f32 = 32 ∨ (Rect.block (s := S1x64) S1x64.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S2000x64.size a ≤ S50000x64.size a
  hwx7_2 : ∀ i : grid7.Coords, EltTy.bits .f32 = 32 ∨ (Rect.block (s := S50000x64) S2000x64.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x64.size a ≤ S1x64.size a
  hwx7_3 : ∀ i : grid7.Coords, EltTy.bits .f32 = 32 ∨ (Rect.block (s := S1x64) S1x64.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x64.size a ≤ S1x64.size a
  hwx7_4 : ∀ i : grid7.Coords, EltTy.bits .f32 = 32 ∨ (Rect.block (s := S1x64) S1x64.size (cc7_transform_4 i) (hinb7_4 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2000x64.size a ≤ S50000x64.size a
  hwx8_0 : ∀ i : grid8.Coords, EltTy.bits .f32 = 32 ∨ (Rect.block (s := S50000x64) S2000x64.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x64.size a ≤ S1x64.size a
  hwx8_1 : ∀ i : grid8.Coords, EltTy.bits .f32 = 32 ∨ (Rect.block (s := S1x64) S1x64.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x64.size a ≤ S1x64.size a
  hwx8_2 : ∀ i : grid8.Coords, EltTy.bits .f32 = 32 ∨ (Rect.block (s := S1x64) S1x64.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x64.size a ≤ S1x64.size a
  hwx8_3 : ∀ i : grid8.Coords, EltTy.bits .f32 = 32 ∨ (Rect.block (s := S1x64) S1x64.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x64.size a ≤ S1x64.size a
  hwx8_4 : ∀ i : grid8.Coords, EltTy.bits .f32 = 32 ∨ (Rect.block (s := S1x64) S1x64.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S2000x64.size a ≤ S50000x64.size a
  hwx8_5 : ∀ i : grid8.Coords, EltTy.bits .f32 = 32 ∨ (Rect.block (s := S50000x64) S2000x64.size (cc8_transform_5 i) (hinb8_5 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def scatter_S256_S50000x1_S50000_n_0_0_1 : ScatterDims S256 S50000x1 S50000 where
  updateWindowDims := []
  insertedWindowDims := [0]
  scatterDimsToOperandDims := [0]
  indexVectorDim := 1
  wf := scatter_S256_S50000x1_S50000_n_0_0_1_wf
def scatter_S256x64_S50000x1_S50000x64_1_0_0_1 : ScatterDims S256x64 S50000x1 S50000x64 where
  updateWindowDims := [1]
  insertedWindowDims := [0]
  scatterDimsToOperandDims := [0]
  indexVectorDim := 1
  wf := scatter_S256x64_S50000x1_S50000x64_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S2000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v44_0) S2000x64.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v44_1) S1x64.size cc1_transform_3 reads1_3 true true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44_2) S1x64.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v44_0) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v53) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v54) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v55) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v56) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v57) S2000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v57) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v58) S2000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v71) S2000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v72) S1x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v73_0) S2000x64.size cc4_transform_2 reads4_2 true false 2 stage4_2 sem4_2
    hrank4 hreads4_2 hinb4_2 nbuf4_2 (Memref.isWhole_whole _) hwx4_2 hstage4_2

abbrev win4_3 : Pipeline.Window sig grid4 :=
  Pipeline.Window.ofSpec (Memref.whole main_v73_1) S1x64.size cc4_transform_3 reads4_3 true true 1 stage4_3 sem4_3
    hrank4 hreads4_3 hinb4_3 nbuf4_3 (Memref.isWhole_whole _) hwx4_3 hstage4_3

abbrev win4_4 : Pipeline.Window sig grid4 :=
  Pipeline.Window.ofSpec (Memref.whole main_v73_2) S1x64.size cc4_transform_4 reads4_4 true true 1 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v73_0) S2000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v82) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v83) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v84) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v85) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v86) S2000x64.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v86) S2000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg11) S64x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v87) S2000x64.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v100) S2000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v101) S1x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v102_0) S2000x64.size cc7_transform_2 reads7_2 true false 2 stage7_2 sem7_2
    hrank7 hreads7_2 hinb7_2 nbuf7_2 (Memref.isWhole_whole _) hwx7_2 hstage7_2

abbrev win7_3 : Pipeline.Window sig grid7 :=
  Pipeline.Window.ofSpec (Memref.whole main_v102_1) S1x64.size cc7_transform_3 reads7_3 true true 1 stage7_3 sem7_3
    hrank7 hreads7_3 hinb7_3 nbuf7_3 (Memref.isWhole_whole _) hwx7_3 hstage7_3

abbrev win7_4 : Pipeline.Window sig grid7 :=
  Pipeline.Window.ofSpec (Memref.whole main_v102_2) S1x64.size cc7_transform_4 reads7_4 true true 1 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

abbrev win8_0 : Pipeline.Window sig grid8 :=
  Pipeline.Window.ofSpec (Memref.whole main_v102_0) S2000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v111) S1x64.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v112) S1x64.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v113) S1x64.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v114) S1x64.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v115) S2000x64.size cc8_transform_5 reads8_5 true false 2 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x64 : Shape := ⟨2, ![128, 64]⟩
abbrev S64 : Shape := ⟨1, ![64]⟩
abbrev S64x64 : Shape := ⟨2, ![64, 64]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x64 : Shape := ⟨2, ![50000, 64]⟩
abbrev S850000x64 : Shape := ⟨2, ![850000, 64]⟩
abbrev S1x64 : Shape := ⟨2, ![1, 64]⟩
abbrev S256 : Shape := ⟨1, ![256]⟩
abbrev S50000x1 : Shape := ⟨2, ![50000, 1]⟩
abbrev S256x64 : Shape := ⟨2, ![256, 64]⟩
abbrev S256x1 : Shape := ⟨2, ![256, 1]⟩
abbrev S50000x192 : Shape := ⟨2, ![50000, 192]⟩
abbrev S256x192 : Shape := ⟨2, ![256, 192]⟩

abbrev nBuf : Space → Nat
  | .hbm => 304
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x64, .f32⟩
  | 4 => ⟨S64, .f32⟩
  | 5 => ⟨S64, .f32⟩
  | 6 => ⟨S64, .f32⟩
  | 7 => ⟨S64x64, .f32⟩
  | 8 => ⟨S64, .f32⟩
  | 9 => ⟨S64, .f32⟩
  | 10 => ⟨S64, .f32⟩
  | 11 => ⟨S64x64, .f32⟩
  | 12 => ⟨S64, .f32⟩
  | 13 => ⟨S64, .f32⟩
  | 14 => ⟨S64, .f32⟩
  | 15 => ⟨S50000, .i32⟩
  | 16 => ⟨S1x800000, .i32⟩
  | 17 => ⟨S800000, .i32⟩
  | 18 => ⟨S850000, .i32⟩
  | 19 => ⟨S1x800000, .i32⟩
  | 20 => ⟨S800000, .i32⟩
  | 21 => ⟨S850000, .i32⟩
  | 22 => ⟨S_, .f32⟩
  | 23 => ⟨S850000, .f32⟩
  | 24 => ⟨S_, .f32⟩
  | 25 => ⟨S50000, .f32⟩
  | 26 => ⟨S850000x1, .i32⟩
  | 27 => ⟨S50000, .f32⟩
  | 28 => ⟨S_, .f32⟩
  | 29 => ⟨S50000, .f32⟩
  | 30 => ⟨S50000, .f32⟩
  | 31 => ⟨S50000, .f32⟩
  | 32 => ⟨S_, .i32⟩
  | 33 => ⟨S850000, .i32⟩
  | 34 => ⟨S850000, .i1⟩
  | 35 => ⟨S_, .i32⟩
  | 36 => ⟨S850000, .i32⟩
  | 37 => ⟨S850000, .i32⟩
  | 38 => ⟨S850000, .i32⟩
  | 39 => ⟨S850000x1, .i32⟩
  | 40 => ⟨S850000, .f32⟩
  | 41 => ⟨S_, .i32⟩
  | 42 => ⟨S850000, .i32⟩
  | 43 => ⟨S850000, .i1⟩
  | 44 => ⟨S_, .i32⟩
  | 45 => ⟨S850000, .i32⟩
  | 46 => ⟨S850000, .i32⟩
  | 47 => ⟨S850000, .i32⟩
  | 48 => ⟨S850000x1, .i32⟩
  | 49 => ⟨S850000, .f32⟩
  | 50 => ⟨S850000, .f32⟩
  | 51 => ⟨S50000x64, .f32⟩
  | 52 => ⟨S_, .i32⟩
  | 53 => ⟨S850000, .i32⟩
  | 54 => ⟨S850000, .i1⟩
  | 55 => ⟨S_, .i32⟩
  | 56 => ⟨S850000, .i32⟩
  | 57 => ⟨S850000, .i32⟩
  | 58 => ⟨S850000, .i32⟩
  | 59 => ⟨S850000x1, .i32⟩
  | 60 => ⟨S850000x64, .f32⟩
  | 61 => ⟨S850000x1, .f32⟩
  | 62 => ⟨S850000x64, .f32⟩
  | 63 => ⟨S850000x64, .f32⟩
  | 64 => ⟨S_, .f32⟩
  | 65 => ⟨S50000x64, .f32⟩
  | 66 => ⟨S850000x1, .i32⟩
  | 67 => ⟨S50000x64, .f32⟩
  | 68 => ⟨S1x64, .f32⟩
  | 69 => ⟨S50000x64, .f32⟩
  | 70 => ⟨S50000x64, .f32⟩
  | 71 => ⟨S_, .f32⟩
  | 72 => ⟨S50000x64, .f32⟩
  | 73 => ⟨S50000x64, .f32⟩
  | 74 => ⟨S_, .f32⟩
  | 75 => ⟨S64, .f32⟩
  | 76 => ⟨S_, .f32⟩
  | 77 => ⟨S64, .f32⟩
  | 78 => ⟨S64, .f32⟩
  | 79 => ⟨S_, .i32⟩
  | 80 => ⟨S_, .f32⟩
  | 81 => ⟨S64, .f32⟩
  | 82 => ⟨S1x64, .f32⟩
  | 83 => ⟨S_, .f32⟩
  | 84 => ⟨S1x64, .f32⟩
  | 85 => ⟨S1x64, .f32⟩
  | 86 => ⟨S50000x64, .f32⟩
  | 87 => ⟨S50000x64, .f32⟩
  | 88 => ⟨S50000x64, .f32⟩
  | 89 => ⟨S_, .f32⟩
  | 90 => ⟨S_, .f32⟩
  | 91 => ⟨S_, .f32⟩
  | 92 => ⟨S_, .f32⟩
  | 93 => ⟨S64, .f32⟩
  | 94 => ⟨S64, .f32⟩
  | 95 => ⟨S64, .f32⟩
  | 96 => ⟨S_, .f32⟩
  | 97 => ⟨S_, .i1⟩
  | 98 => ⟨S_, .f32⟩
  | 99 => ⟨S_, .f32⟩
  | 100 => ⟨S64, .f32⟩
  | 101 => ⟨S64, .f32⟩
  | 102 => ⟨S1x64, .f32⟩
  | 103 => ⟨S50000x64, .f32⟩
  | 104 => ⟨S50000x64, .f32⟩
  | 105 => ⟨S_, .f32⟩
  | 106 => ⟨S64, .f32⟩
  | 107 => ⟨S64, .f32⟩
  | 108 => ⟨S64, .f32⟩
  | 109 => ⟨S1x64, .f32⟩
  | 110 => ⟨S50000x64, .f32⟩
  | 111 => ⟨S50000x64, .f32⟩
  | 112 => ⟨S1x64, .f32⟩
  | 113 => ⟨S50000x64, .f32⟩
  | 114 => ⟨S50000x64, .f32⟩
  | 115 => ⟨S1x64, .f32⟩
  | 116 => ⟨S50000x64, .f32⟩
  | 117 => ⟨S50000x64, .f32⟩
  | 118 => ⟨S50000x64, .f32⟩
  | 119 => ⟨S_, .i32⟩
  | 120 => ⟨S850000, .i32⟩
  | 121 => ⟨S850000, .i1⟩
  | 122 => ⟨S_, .i32⟩
  | 123 => ⟨S850000, .i32⟩
  | 124 => ⟨S850000, .i32⟩
  | 125 => ⟨S850000, .i32⟩
  | 126 => ⟨S850000x1, .i32⟩
  | 127 => ⟨S850000x64, .f32⟩
  | _ => ⟨S50000x128, .f32⟩

abbrev hbmTy0_1 (i : Nat) : BufTy := match i % 128 with
  | 0 => ⟨S850000x1, .f32⟩
  | 1 => ⟨S850000x64, .f32⟩
  | 2 => ⟨S850000x64, .f32⟩
  | 3 => ⟨S_, .f32⟩
  | 4 => ⟨S50000x64, .f32⟩
  | 5 => ⟨S850000x1, .i32⟩
  | 6 => ⟨S50000x64, .f32⟩
  | 7 => ⟨S1x64, .f32⟩
  | 8 => ⟨S50000x64, .f32⟩
  | 9 => ⟨S50000x64, .f32⟩
  | 10 => ⟨S_, .f32⟩
  | 11 => ⟨S50000x64, .f32⟩
  | 12 => ⟨S50000x64, .f32⟩
  | 13 => ⟨S_, .f32⟩
  | 14 => ⟨S64, .f32⟩
  | 15 => ⟨S_, .f32⟩
  | 16 => ⟨S64, .f32⟩
  | 17 => ⟨S64, .f32⟩
  | 18 => ⟨S_, .i32⟩
  | 19 => ⟨S_, .f32⟩
  | 20 => ⟨S64, .f32⟩
  | 21 => ⟨S1x64, .f32⟩
  | 22 => ⟨S_, .f32⟩
  | 23 => ⟨S1x64, .f32⟩
  | 24 => ⟨S1x64, .f32⟩
  | 25 => ⟨S50000x64, .f32⟩
  | 26 => ⟨S50000x64, .f32⟩
  | 27 => ⟨S50000x64, .f32⟩
  | 28 => ⟨S_, .f32⟩
  | 29 => ⟨S_, .f32⟩
  | 30 => ⟨S_, .f32⟩
  | 31 => ⟨S_, .f32⟩
  | 32 => ⟨S64, .f32⟩
  | 33 => ⟨S64, .f32⟩
  | 34 => ⟨S64, .f32⟩
  | 35 => ⟨S_, .f32⟩
  | 36 => ⟨S_, .i1⟩
  | 37 => ⟨S_, .f32⟩
  | 38 => ⟨S_, .f32⟩
  | 39 => ⟨S64, .f32⟩
  | 40 => ⟨S64, .f32⟩
  | 41 => ⟨S1x64, .f32⟩
  | 42 => ⟨S50000x64, .f32⟩
  | 43 => ⟨S50000x64, .f32⟩
  | 44 => ⟨S_, .f32⟩
  | 45 => ⟨S64, .f32⟩
  | 46 => ⟨S64, .f32⟩
  | 47 => ⟨S64, .f32⟩
  | 48 => ⟨S1x64, .f32⟩
  | 49 => ⟨S50000x64, .f32⟩
  | 50 => ⟨S50000x64, .f32⟩
  | 51 => ⟨S1x64, .f32⟩
  | 52 => ⟨S50000x64, .f32⟩
  | 53 => ⟨S50000x64, .f32⟩
  | 54 => ⟨S1x64, .f32⟩
  | 55 => ⟨S50000x64, .f32⟩
  | 56 => ⟨S50000x64, .f32⟩
  | 57 => ⟨S50000x64, .f32⟩
  | 58 => ⟨S_, .i32⟩
  | 59 => ⟨S850000, .i32⟩
  | 60 => ⟨S850000, .i1⟩
  | 61 => ⟨S_, .i32⟩
  | 62 => ⟨S850000, .i32⟩
  | 63 => ⟨S850000, .i32⟩
  | 64 => ⟨S850000, .i32⟩
  | 65 => ⟨S850000x1, .i32⟩
  | 66 => ⟨S850000x64, .f32⟩
  | 67 => ⟨S850000x1, .f32⟩
  | 68 => ⟨S850000x64, .f32⟩
  | 69 => ⟨S850000x64, .f32⟩
  | 70 => ⟨S_, .f32⟩
  | 71 => ⟨S50000x64, .f32⟩
  | 72 => ⟨S850000x1, .i32⟩
  | 73 => ⟨S50000x64, .f32⟩
  | 74 => ⟨S1x64, .f32⟩
  | 75 => ⟨S50000x64, .f32⟩
  | 76 => ⟨S50000x64, .f32⟩
  | 77 => ⟨S_, .f32⟩
  | 78 => ⟨S50000x64, .f32⟩
  | 79 => ⟨S50000x64, .f32⟩
  | 80 => ⟨S_, .f32⟩
  | 81 => ⟨S64, .f32⟩
  | 82 => ⟨S_, .f32⟩
  | 83 => ⟨S64, .f32⟩
  | 84 => ⟨S64, .f32⟩
  | 85 => ⟨S_, .i32⟩
  | 86 => ⟨S_, .f32⟩
  | 87 => ⟨S64, .f32⟩
  | 88 => ⟨S1x64, .f32⟩
  | 89 => ⟨S_, .f32⟩
  | 90 => ⟨S1x64, .f32⟩
  | 91 => ⟨S1x64, .f32⟩
  | 92 => ⟨S50000x64, .f32⟩
  | 93 => ⟨S50000x64, .f32⟩
  | 94 => ⟨S50000x64, .f32⟩
  | 95 => ⟨S_, .f32⟩
  | 96 => ⟨S_, .f32⟩
  | 97 => ⟨S_, .f32⟩
  | 98 => ⟨S_, .f32⟩
  | 99 => ⟨S64, .f32⟩
  | 100 => ⟨S64, .f32⟩
  | 101 => ⟨S64, .f32⟩
  | 102 => ⟨S_, .f32⟩
  | 103 => ⟨S_, .i1⟩
  | 104 => ⟨S_, .f32⟩
  | 105 => ⟨S_, .f32⟩
  | 106 => ⟨S64, .f32⟩
  | 107 => ⟨S64, .f32⟩
  | 108 => ⟨S1x64, .f32⟩
  | 109 => ⟨S50000x64, .f32⟩
  | 110 => ⟨S50000x64, .f32⟩
  | 111 => ⟨S_, .f32⟩
  | 112 => ⟨S64, .f32⟩
  | 113 => ⟨S64, .f32⟩
  | 114 => ⟨S64, .f32⟩
  | 115 => ⟨S1x64, .f32⟩
  | 116 => ⟨S50000x64, .f32⟩
  | 117 => ⟨S50000x64, .f32⟩
  | 118 => ⟨S1x64, .f32⟩
  | 119 => ⟨S50000x64, .f32⟩
  | 120 => ⟨S50000x64, .f32⟩
  | 121 => ⟨S1x64, .f32⟩
  | 122 => ⟨S50000x64, .f32⟩
  | 123 => ⟨S50000x64, .f32⟩
  | 124 => ⟨S_, .f32⟩
  | 125 => ⟨S50000, .f32⟩
  | 126 => ⟨S_, .f32⟩
  | 127 => ⟨S256, .f32⟩
  | _ => ⟨S50000x128, .f32⟩

abbrev hbmTy0_2 (i : Nat) : BufTy := match i % 128 with
  | 0 => ⟨S50000x1, .i32⟩
  | 1 => ⟨S256, .f32⟩
  | 2 => ⟨S_, .f32⟩
  | 3 => ⟨S256, .f32⟩
  | 4 => ⟨S256, .f32⟩
  | 5 => ⟨S_, .f32⟩
  | 6 => ⟨S256x64, .f32⟩
  | 7 => ⟨S50000x1, .i32⟩
  | 8 => ⟨S256x64, .f32⟩
  | 9 => ⟨S256x1, .f32⟩
  | 10 => ⟨S256x64, .f32⟩
  | 11 => ⟨S256x64, .f32⟩
  | 12 => ⟨S_, .f32⟩
  | 13 => ⟨S256x64, .f32⟩
  | 14 => ⟨S50000x1, .i32⟩
  | 15 => ⟨S256x64, .f32⟩
  | 16 => ⟨S256x1, .f32⟩
  | 17 => ⟨S256x64, .f32⟩
  | 18 => ⟨S256x64, .f32⟩
  | 19 => ⟨S_, .f32⟩
  | 20 => ⟨S256x64, .f32⟩
  | 21 => ⟨S50000x1, .i32⟩
  | 22 => ⟨S256x64, .f32⟩
  | 23 => ⟨S256x1, .f32⟩
  | 24 => ⟨S256x64, .f32⟩
  | 25 => ⟨S256x64, .f32⟩
  | 26 => ⟨S50000x192, .f32⟩
  | 27 => ⟨S256x192, .f32⟩
  | 28 => ⟨S50000x192, .f32⟩
  | 29 => ⟨S_, .f32⟩
  | 30 => ⟨S50000, .f32⟩
  | 31 => ⟨S50000x1, .f32⟩
  | 32 => ⟨S50000x1, .f32⟩
  | 33 => ⟨S_, .f32⟩
  | 34 => ⟨S50000x1, .f32⟩
  | 35 => ⟨S50000x1, .f32⟩
  | 36 => ⟨S50000x192, .f32⟩
  | 37 => ⟨S50000x192, .f32⟩
  | 38 => ⟨S256x192, .f32⟩
  | 39 => ⟨S_, .f32⟩
  | 40 => ⟨S256, .f32⟩
  | 41 => ⟨S256x1, .f32⟩
  | 42 => ⟨S256x1, .f32⟩
  | 43 => ⟨S_, .f32⟩
  | 44 => ⟨S256x1, .f32⟩
  | 45 => ⟨S256x1, .f32⟩
  | 46 => ⟨S256x192, .f32⟩
  | 47 => ⟨S256x192, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_cst_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_1 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_c : Ref sig .tc := ⟨.hbm, 32, rfl⟩
abbrev main_v14 : Ref sig .tc := ⟨.hbm, 33, rfl⟩
abbrev main_v15 : Ref sig .tc := ⟨.hbm, 34, rfl⟩
abbrev main_c_2 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_c_3 : Ref sig .tc := ⟨.hbm, 41, rfl⟩
abbrev main_v21 : Ref sig .tc := ⟨.hbm, 42, rfl⟩
abbrev main_v22 : Ref sig .tc := ⟨.hbm, 43, rfl⟩
abbrev main_c_4 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_c_5 : Ref sig .tc := ⟨.hbm, 52, rfl⟩
abbrev main_v30 : Ref sig .tc := ⟨.hbm, 53, rfl⟩
abbrev main_v31 : Ref sig .tc := ⟨.hbm, 54, rfl⟩
abbrev main_c_6 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_7 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_call0_cst : Ref sig .tc := ⟨.hbm, 71, rfl⟩
abbrev main_call0_v0 : Ref sig .tc := ⟨.hbm, 72, rfl⟩
abbrev main_v46 : Ref sig .tc := ⟨.hbm, 73, rfl⟩
abbrev main_cst_8 : Ref sig .tc := ⟨.hbm, 74, rfl⟩
abbrev main_v47 : Ref sig .tc := ⟨.hbm, 75, rfl⟩
abbrev main_cst_9 : Ref sig .tc := ⟨.hbm, 76, rfl⟩
abbrev main_v48 : Ref sig .tc := ⟨.hbm, 77, rfl⟩
abbrev main_v49 : Ref sig .tc := ⟨.hbm, 78, rfl⟩
abbrev main_c_10 : Ref sig .tc := ⟨.hbm, 79, rfl⟩
abbrev main_call1_cst : Ref sig .tc := ⟨.hbm, 80, rfl⟩
abbrev main_call1_v0 : Ref sig .tc := ⟨.hbm, 81, rfl⟩
abbrev main_call1_v1 : Ref sig .tc := ⟨.hbm, 82, rfl⟩
abbrev main_call1_cst_0 : Ref sig .tc := ⟨.hbm, 83, rfl⟩
abbrev main_call1_v2 : Ref sig .tc := ⟨.hbm, 84, rfl⟩
abbrev main_call1_v3 : Ref sig .tc := ⟨.hbm, 85, rfl⟩
abbrev main_call1_v4 : Ref sig .tc := ⟨.hbm, 86, rfl⟩
abbrev main_call1_v5 : Ref sig .tc := ⟨.hbm, 87, rfl⟩
abbrev main_call1_v6 : Ref sig .tc := ⟨.hbm, 88, rfl⟩
abbrev main_call1_v7 : Ref sig .tc := ⟨.hbm, 89, rfl⟩
abbrev main_call1_cst_1 : Ref sig .tc := ⟨.hbm, 90, rfl⟩
abbrev main_call1_v8 : Ref sig .tc := ⟨.hbm, 91, rfl⟩
abbrev main_call1_cst_2 : Ref sig .tc := ⟨.hbm, 92, rfl⟩
abbrev main_call1_v9 : Ref sig .tc := ⟨.hbm, 93, rfl⟩
abbrev main_call1_v10 : Ref sig .tc := ⟨.hbm, 94, rfl⟩
abbrev main_call1_v11 : Ref sig .tc := ⟨.hbm, 95, rfl⟩
abbrev main_call1_cst_3 : Ref sig .tc := ⟨.hbm, 96, rfl⟩
abbrev main_call1_v12 : Ref sig .tc := ⟨.hbm, 97, rfl⟩
abbrev main_call1_cst_4 : Ref sig .tc := ⟨.hbm, 98, rfl⟩
abbrev main_call1_call0_v0 : Ref sig .tc := ⟨.hbm, 99, rfl⟩
abbrev main_call1_call0_v1 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩
abbrev main_v53 : Ref sig .tc := ⟨.hbm, 104, rfl⟩
abbrev main_cst_11 : Ref sig .tc := ⟨.hbm, 105, rfl⟩
abbrev main_v54 : Ref sig .tc := ⟨.hbm, 106, rfl⟩
abbrev main_v55 : Ref sig .tc := ⟨.hbm, 107, rfl⟩
abbrev main_v56 : Ref sig .tc := ⟨.hbm, 108, rfl⟩
abbrev main_v57 : Ref sig .tc := ⟨.hbm, 109, rfl⟩
abbrev main_v58 : Ref sig .tc := ⟨.hbm, 110, rfl⟩
abbrev main_v59 : Ref sig .tc := ⟨.hbm, 111, rfl⟩
abbrev main_v60 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_v64 : Ref sig .tc := ⟨.hbm, 116, rfl⟩
abbrev main_v65 : Ref sig .tc := ⟨.hbm, 117, rfl⟩
abbrev main_v66 : Ref sig .tc := ⟨.hbm, 118, rfl⟩
abbrev main_c_12 : Ref sig .tc := ⟨.hbm, 119, rfl⟩
abbrev main_v67 : Ref sig .tc := ⟨.hbm, 120, rfl⟩
abbrev main_v68 : Ref sig .tc := ⟨.hbm, 121, rfl⟩
abbrev main_c_13 : Ref sig .tc := ⟨.hbm, 122, rfl⟩
abbrev main_v69 : Ref sig .tc := ⟨.hbm, 123, rfl⟩
abbrev main_v70 : Ref sig .tc := ⟨.hbm, 124, rfl⟩
abbrev main_v71 : Ref sig .tc := ⟨.hbm, 125, rfl⟩
abbrev main_v72 : Ref sig .tc := ⟨.hbm, 126, rfl⟩
abbrev main_v73 : Ref sig .tc := ⟨.hbm, 127, rfl⟩
abbrev main_v74 : Ref sig .tc := ⟨.hbm, 128, rfl⟩
abbrev main_v75 : Ref sig .tc := ⟨.hbm, 129, rfl⟩
abbrev main_v76 : Ref sig .tc := ⟨.hbm, 130, rfl⟩
abbrev main_cst_14 : Ref sig .tc := ⟨.hbm, 131, rfl⟩
abbrev main_v77 : Ref sig .tc := ⟨.hbm, 132, rfl⟩
abbrev main_v78 : Ref sig .tc := ⟨.hbm, 133, rfl⟩
abbrev main_v79 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_call2_cst : Ref sig .tc := ⟨.hbm, 138, rfl⟩
abbrev main_call2_v0 : Ref sig .tc := ⟨.hbm, 139, rfl⟩
abbrev main_v83 : Ref sig .tc := ⟨.hbm, 140, rfl⟩
abbrev main_cst_15 : Ref sig .tc := ⟨.hbm, 141, rfl⟩
abbrev main_v84 : Ref sig .tc := ⟨.hbm, 142, rfl⟩
abbrev main_cst_16 : Ref sig .tc := ⟨.hbm, 143, rfl⟩
abbrev main_v85 : Ref sig .tc := ⟨.hbm, 144, rfl⟩
abbrev main_v86 : Ref sig .tc := ⟨.hbm, 145, rfl⟩
abbrev main_c_17 : Ref sig .tc := ⟨.hbm, 146, rfl⟩
abbrev main_call3_cst : Ref sig .tc := ⟨.hbm, 147, rfl⟩
abbrev main_call3_v0 : Ref sig .tc := ⟨.hbm, 148, rfl⟩
abbrev main_call3_v1 : Ref sig .tc := ⟨.hbm, 149, rfl⟩
abbrev main_call3_cst_0 : Ref sig .tc := ⟨.hbm, 150, rfl⟩
abbrev main_call3_v2 : Ref sig .tc := ⟨.hbm, 151, rfl⟩
abbrev main_call3_v3 : Ref sig .tc := ⟨.hbm, 152, rfl⟩
abbrev main_call3_v4 : Ref sig .tc := ⟨.hbm, 153, rfl⟩
abbrev main_call3_v5 : Ref sig .tc := ⟨.hbm, 154, rfl⟩
abbrev main_call3_v6 : Ref sig .tc := ⟨.hbm, 155, rfl⟩
abbrev main_call3_v7 : Ref sig .tc := ⟨.hbm, 156, rfl⟩
abbrev main_call3_cst_1 : Ref sig .tc := ⟨.hbm, 157, rfl⟩
abbrev main_call3_v8 : Ref sig .tc := ⟨.hbm, 158, rfl⟩
abbrev main_call3_cst_2 : Ref sig .tc := ⟨.hbm, 159, rfl⟩
abbrev main_call3_v9 : Ref sig .tc := ⟨.hbm, 160, rfl⟩
abbrev main_call3_v10 : Ref sig .tc := ⟨.hbm, 161, rfl⟩
abbrev main_call3_v11 : Ref sig .tc := ⟨.hbm, 162, rfl⟩
abbrev main_call3_cst_3 : Ref sig .tc := ⟨.hbm, 163, rfl⟩
abbrev main_call3_v12 : Ref sig .tc := ⟨.hbm, 164, rfl⟩
abbrev main_call3_cst_4 : Ref sig .tc := ⟨.hbm, 165, rfl⟩
abbrev main_call3_call0_v0 : Ref sig .tc := ⟨.hbm, 166, rfl⟩
abbrev main_call3_call0_v1 : Ref sig .tc := ⟨.hbm, 167, rfl⟩
abbrev main_v87 : Ref sig .tc := ⟨.hbm, 168, rfl⟩
abbrev main_v88 : Ref sig .tc := ⟨.hbm, 169, rfl⟩
abbrev main_v89 : Ref sig .tc := ⟨.hbm, 170, rfl⟩
abbrev main_v90 : Ref sig .tc := ⟨.hbm, 171, rfl⟩
abbrev main_cst_18 : Ref sig .tc := ⟨.hbm, 172, rfl⟩
abbrev main_v91 : Ref sig .tc := ⟨.hbm, 173, rfl⟩
abbrev main_v92 : Ref sig .tc := ⟨.hbm, 174, rfl⟩
abbrev main_v93 : Ref sig .tc := ⟨.hbm, 175, rfl⟩
abbrev main_v94 : Ref sig .tc := ⟨.hbm, 176, rfl⟩
abbrev main_v95 : Ref sig .tc := ⟨.hbm, 177, rfl⟩
abbrev main_v96 : Ref sig .tc := ⟨.hbm, 178, rfl⟩
abbrev main_v97 : Ref sig .tc := ⟨.hbm, 179, rfl⟩
abbrev main_v98 : Ref sig .tc := ⟨.hbm, 180, rfl⟩
abbrev main_v99 : Ref sig .tc := ⟨.hbm, 181, rfl⟩
abbrev main_v100 : Ref sig .tc := ⟨.hbm, 182, rfl⟩
abbrev main_v101 : Ref sig .tc := ⟨.hbm, 183, rfl⟩
abbrev main_v102 : Ref sig .tc := ⟨.hbm, 184, rfl⟩
abbrev main_v103 : Ref sig .tc := ⟨.hbm, 185, rfl⟩
abbrev main_c_19 : Ref sig .tc := ⟨.hbm, 186, rfl⟩
abbrev main_v104 : Ref sig .tc := ⟨.hbm, 187, rfl⟩
abbrev main_v105 : Ref sig .tc := ⟨.hbm, 188, rfl⟩
abbrev main_c_20 : Ref sig .tc := ⟨.hbm, 189, rfl⟩
abbrev main_v106 : Ref sig .tc := ⟨.hbm, 190, rfl⟩
abbrev main_v107 : Ref sig .tc := ⟨.hbm, 191, rfl⟩
abbrev main_v108 : Ref sig .tc := ⟨.hbm, 192, rfl⟩
abbrev main_v109 : Ref sig .tc := ⟨.hbm, 193, rfl⟩
abbrev main_v110 : Ref sig .tc := ⟨.hbm, 194, rfl⟩
abbrev main_v111 : Ref sig .tc := ⟨.hbm, 195, rfl⟩
abbrev main_v112 : Ref sig .tc := ⟨.hbm, 196, rfl⟩
abbrev main_v113 : Ref sig .tc := ⟨.hbm, 197, rfl⟩
abbrev main_cst_21 : Ref sig .tc := ⟨.hbm, 198, rfl⟩
abbrev main_v114 : Ref sig .tc := ⟨.hbm, 199, rfl⟩
abbrev main_v115 : Ref sig .tc := ⟨.hbm, 200, rfl⟩
abbrev main_v116 : Ref sig .tc := ⟨.hbm, 201, rfl⟩
abbrev main_v117 : Ref sig .tc := ⟨.hbm, 202, rfl⟩
abbrev main_v118 : Ref sig .tc := ⟨.hbm, 203, rfl⟩
abbrev main_v119 : Ref sig .tc := ⟨.hbm, 204, rfl⟩
abbrev main_call4_cst : Ref sig .tc := ⟨.hbm, 205, rfl⟩
abbrev main_call4_v0 : Ref sig .tc := ⟨.hbm, 206, rfl⟩
abbrev main_v120 : Ref sig .tc := ⟨.hbm, 207, rfl⟩
abbrev main_cst_22 : Ref sig .tc := ⟨.hbm, 208, rfl⟩
abbrev main_v121 : Ref sig .tc := ⟨.hbm, 209, rfl⟩
abbrev main_cst_23 : Ref sig .tc := ⟨.hbm, 210, rfl⟩
abbrev main_v122 : Ref sig .tc := ⟨.hbm, 211, rfl⟩
abbrev main_v123 : Ref sig .tc := ⟨.hbm, 212, rfl⟩
abbrev main_c_24 : Ref sig .tc := ⟨.hbm, 213, rfl⟩
abbrev main_call5_cst : Ref sig .tc := ⟨.hbm, 214, rfl⟩
abbrev main_call5_v0 : Ref sig .tc := ⟨.hbm, 215, rfl⟩
abbrev main_call5_v1 : Ref sig .tc := ⟨.hbm, 216, rfl⟩
abbrev main_call5_cst_0 : Ref sig .tc := ⟨.hbm, 217, rfl⟩
abbrev main_call5_v2 : Ref sig .tc := ⟨.hbm, 218, rfl⟩
abbrev main_call5_v3 : Ref sig .tc := ⟨.hbm, 219, rfl⟩
abbrev main_call5_v4 : Ref sig .tc := ⟨.hbm, 220, rfl⟩
abbrev main_call5_v5 : Ref sig .tc := ⟨.hbm, 221, rfl⟩
abbrev main_call5_v6 : Ref sig .tc := ⟨.hbm, 222, rfl⟩
abbrev main_call5_v7 : Ref sig .tc := ⟨.hbm, 223, rfl⟩
abbrev main_call5_cst_1 : Ref sig .tc := ⟨.hbm, 224, rfl⟩
abbrev main_call5_v8 : Ref sig .tc := ⟨.hbm, 225, rfl⟩
abbrev main_call5_cst_2 : Ref sig .tc := ⟨.hbm, 226, rfl⟩
abbrev main_call5_v9 : Ref sig .tc := ⟨.hbm, 227, rfl⟩
abbrev main_call5_v10 : Ref sig .tc := ⟨.hbm, 228, rfl⟩
abbrev main_call5_v11 : Ref sig .tc := ⟨.hbm, 229, rfl⟩
abbrev main_call5_cst_3 : Ref sig .tc := ⟨.hbm, 230, rfl⟩
abbrev main_call5_v12 : Ref sig .tc := ⟨.hbm, 231, rfl⟩
abbrev main_call5_cst_4 : Ref sig .tc := ⟨.hbm, 232, rfl⟩
abbrev main_call5_call0_v0 : Ref sig .tc := ⟨.hbm, 233, rfl⟩
abbrev main_call5_call0_v1 : Ref sig .tc := ⟨.hbm, 234, rfl⟩
abbrev main_v124 : Ref sig .tc := ⟨.hbm, 235, rfl⟩
abbrev main_v125 : Ref sig .tc := ⟨.hbm, 236, rfl⟩
abbrev main_v126 : Ref sig .tc := ⟨.hbm, 237, rfl⟩
abbrev main_v127 : Ref sig .tc := ⟨.hbm, 238, rfl⟩
abbrev main_cst_25 : Ref sig .tc := ⟨.hbm, 239, rfl⟩
abbrev main_v128 : Ref sig .tc := ⟨.hbm, 240, rfl⟩
abbrev main_v129 : Ref sig .tc := ⟨.hbm, 241, rfl⟩
abbrev main_v130 : Ref sig .tc := ⟨.hbm, 242, rfl⟩
abbrev main_v131 : Ref sig .tc := ⟨.hbm, 243, rfl⟩
abbrev main_v132 : Ref sig .tc := ⟨.hbm, 244, rfl⟩
abbrev main_v133 : Ref sig .tc := ⟨.hbm, 245, rfl⟩
abbrev main_v134 : Ref sig .tc := ⟨.hbm, 246, rfl⟩
abbrev main_v135 : Ref sig .tc := ⟨.hbm, 247, rfl⟩
abbrev main_v136 : Ref sig .tc := ⟨.hbm, 248, rfl⟩
abbrev main_v137 : Ref sig .tc := ⟨.hbm, 249, rfl⟩
abbrev main_v138 : Ref sig .tc := ⟨.hbm, 250, rfl⟩
abbrev main_v139 : Ref sig .tc := ⟨.hbm, 251, rfl⟩
abbrev main_cst_26 : Ref sig .tc := ⟨.hbm, 252, rfl⟩
abbrev main_v140 : Ref sig .tc := ⟨.hbm, 253, rfl⟩
abbrev main_cst_27 : Ref sig .tc := ⟨.hbm, 254, rfl⟩
abbrev main_v141 : Ref sig .tc := ⟨.hbm, 255, rfl⟩
abbrev main_v142 : Ref sig .tc := ⟨.hbm, 256, rfl⟩
abbrev main_v143 : Ref sig .tc := ⟨.hbm, 257, rfl⟩
abbrev main_cst_28 : Ref sig .tc := ⟨.hbm, 258, rfl⟩
abbrev main_v144 : Ref sig .tc := ⟨.hbm, 259, rfl⟩
abbrev main_v145 : Ref sig .tc := ⟨.hbm, 260, rfl⟩
abbrev main_cst_29 : Ref sig .tc := ⟨.hbm, 261, rfl⟩
abbrev main_v146 : Ref sig .tc := ⟨.hbm, 262, rfl⟩
abbrev main_v147 : Ref sig .tc := ⟨.hbm, 263, rfl⟩
abbrev main_v148 : Ref sig .tc := ⟨.hbm, 264, rfl⟩
abbrev main_v149 : Ref sig .tc := ⟨.hbm, 265, rfl⟩
abbrev main_v150 : Ref sig .tc := ⟨.hbm, 266, rfl⟩
abbrev main_v151 : Ref sig .tc := ⟨.hbm, 267, rfl⟩
abbrev main_cst_30 : Ref sig .tc := ⟨.hbm, 268, rfl⟩
abbrev main_v152 : Ref sig .tc := ⟨.hbm, 269, rfl⟩
abbrev main_v153 : Ref sig .tc := ⟨.hbm, 270, rfl⟩
abbrev main_v154 : Ref sig .tc := ⟨.hbm, 271, rfl⟩
abbrev main_v155 : Ref sig .tc := ⟨.hbm, 272, rfl⟩
abbrev main_v156 : Ref sig .tc := ⟨.hbm, 273, rfl⟩
abbrev main_v157 : Ref sig .tc := ⟨.hbm, 274, rfl⟩
abbrev main_cst_31 : Ref sig .tc := ⟨.hbm, 275, rfl⟩
abbrev main_v158 : Ref sig .tc := ⟨.hbm, 276, rfl⟩
abbrev main_v159 : Ref sig .tc := ⟨.hbm, 277, rfl⟩
abbrev main_v160 : Ref sig .tc := ⟨.hbm, 278, rfl⟩
abbrev main_v161 : Ref sig .tc := ⟨.hbm, 279, rfl⟩
abbrev main_v162 : Ref sig .tc := ⟨.hbm, 280, rfl⟩
abbrev main_v163 : Ref sig .tc := ⟨.hbm, 281, rfl⟩
abbrev main_v164 : Ref sig .tc := ⟨.hbm, 282, rfl⟩
abbrev main_v165 : Ref sig .tc := ⟨.hbm, 283, rfl⟩
abbrev main_call6_v0 : Ref sig .tc := ⟨.hbm, 284, rfl⟩
abbrev main_call6_cst : Ref sig .tc := ⟨.hbm, 285, rfl⟩
abbrev main_call6_v1 : Ref sig .tc := ⟨.hbm, 286, rfl⟩
abbrev main_call6_v2 : Ref sig .tc := ⟨.hbm, 287, rfl⟩
abbrev main_v166 : Ref sig .tc := ⟨.hbm, 288, rfl⟩
abbrev main_cst_32 : Ref sig .tc := ⟨.hbm, 289, rfl⟩
abbrev main_v167 : Ref sig .tc := ⟨.hbm, 290, rfl⟩
abbrev main_v168 : Ref sig .tc := ⟨.hbm, 291, rfl⟩
abbrev main_v169 : Ref sig .tc := ⟨.hbm, 292, rfl⟩
abbrev main_v170 : Ref sig .tc := ⟨.hbm, 293, rfl⟩
abbrev main_call7_v0 : Ref sig .tc := ⟨.hbm, 294, rfl⟩
abbrev main_call7_cst : Ref sig .tc := ⟨.hbm, 295, rfl⟩
abbrev main_call7_v1 : Ref sig .tc := ⟨.hbm, 296, rfl⟩
abbrev main_call7_v2 : Ref sig .tc := ⟨.hbm, 297, rfl⟩
abbrev main_v171 : Ref sig .tc := ⟨.hbm, 298, rfl⟩
abbrev main_cst_33 : Ref sig .tc := ⟨.hbm, 299, rfl⟩
abbrev main_v172 : Ref sig .tc := ⟨.hbm, 300, rfl⟩
abbrev main_v173 : Ref sig .tc := ⟨.hbm, 301, rfl⟩
abbrev main_v174 : Ref sig .tc := ⟨.hbm, 302, rfl⟩
abbrev main_v175 : Ref sig .tc := ⟨.hbm, 303, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S64_d0 : S50000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  bcast_S_S256 : S_.BroadcastsInDim S256 (![] : Fin 0 → Fin S256.rank)
  bcast_S50000_S50000x1_0 : S50000.BroadcastsInDim S50000x1 (![0] : Fin 1 → Fin S50000x1.rank)
  bcast_S_S256x64 : S_.BroadcastsInDim S256x64 (![] : Fin 0 → Fin S256x64.rank)
  bcast_S256_S256x1_0 : S256.BroadcastsInDim S256x1 (![0] : Fin 1 → Fin S256x1.rank)
  bcast_S256x1_S256x64_0_1 : S256x1.BroadcastsInDim S256x64 (![0, 1] : Fin 2 → Fin S256x64.rank)
  concatenates_S50000x64_S50000x64_S50000x64_S50000x192_d1 : Shape.Concatenates [S50000x64, S50000x64, S50000x64] S50000x192 1
  concatenates_S256x64_S256x64_S256x64_S256x192_d1 : Shape.Concatenates [S256x64, S256x64, S256x64] S256x192 1
  reducesTo_S50000x192_S50000_d1 : S50000x192.ReducesTo [1] S50000
  bcast_S_S50000x1 : S_.BroadcastsInDim S50000x1 (![] : Fin 0 → Fin S50000x1.rank)
  bcast_S50000x1_S50000x192_0_1 : S50000x1.BroadcastsInDim S50000x192 (![0, 1] : Fin 2 → Fin S50000x192.rank)
  reducesTo_S256x192_S256_d1 : S256x192.ReducesTo [1] S256
  bcast_S_S256x1 : S_.BroadcastsInDim S256x1 (![] : Fin 0 → Fin S256x1.rank)
  bcast_S256x1_S256x192_0_1 : S256x1.BroadcastsInDim S256x192 (![0, 1] : Fin 2 → Fin S256x192.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x64_S50000x64_1_0_0_1_n_n_wf : DotDims.WF S50000x64 S64x64 S50000x64 [1] [0] [0] [1] [] []
  scatter_S256_S50000x1_S50000_n_0_0_1_wf : ScatterDims.WF S256 S50000x1 S50000 [] [0] [0] 1
  scatter_S256x64_S50000x1_S50000x64_1_0_0_1_wf : ScatterDims.WF S256x64 S50000x1 S50000x64 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def scatter_S256_S50000x1_S50000_n_0_0_1 : ScatterDims S256 S50000x1 S50000 where
  updateWindowDims := []
  insertedWindowDims := [0]
  scatterDimsToOperandDims := [0]
  indexVectorDim := 1
  wf := scatter_S256_S50000x1_S50000_n_0_0_1_wf
def scatter_S256x64_S50000x1_S50000x64_1_0_0_1 : ScatterDims S256x64 S50000x1 S50000x64 where
  updateWindowDims := [1]
  insertedWindowDims := [0]
  scatterDimsToOperandDims := [0]
  indexVectorDim := 1
  wf := scatter_S256x64_S50000x1_S50000x64_1_0_0_1_wf

class Facts : Prop extends Facts₀ where

variable [Facts]
-- ==== Proof.RegionA0.lean ====
/-
  The dense-transform region 0: at grid point t the body reads the [2000, ·] row block of the activations and the
  whole weight matrix, and leaves their product in the output block. Stated at the buffer contents V the region is
  entered with: the windows' blocks, the body's triple, the pipeline's proof data and the body obligation.
-/
import proofs.«100384_j8693013807615_2_alg».proof.Proof.Gen.KernelIdeal.Launch
import proofs.«100384_j8693013807615_2_alg».proof.Proof.Gen.KernelIdeal.Skeleton
import proofs.«100384_j8693013807615_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activations' staging buffer holds the point's row block, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weights' staging buffer holds the whole matrix at every point (its block index never moves). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_z : Rect S2000x128 := Rect.unit (s := S2000x128) ![0, 0] S2000x128.size inb_S2000x128_S2000x128_0_0
abbrev r0_w : Rect S128x64 := Rect.unit (s := S128x64) ![0, 0] S128x64.size inb_S128x64_S128x64_0_0
abbrev r0_o : Rect S2000x64 := Rect.unit (s := S2000x64) ![0, 0] S2000x64.size inb_S2000x64_S2000x64_0_0

/-- The output block after the body: its one whole-block store of the product of the two loaded blocks. -/
def out0_2 (x0 : Vec F S2000x128 .f32) (x1 : Vec F S128x64 .f32) : Vec F S2000x64 .f32 :=
  View.canon [⟨r0_o, k0_pay1 (View.ld x0 r0_z) (View.ld x1 r0_w)⟩]

theorem cover0_2 (p0 : Vec F S2000x64 .f32) (y : S2000x64.Idx) :
    ∃ pc ∈ ([⟨r0_o, p0⟩] : List (View.Piece (Elt F) S2000x64 .f32)), y ∈ pc.1.set :=
  View.cover_of_tiled [⟨r0_o, p0⟩] S2000x64.size (by rfl) y

set_option maxHeartbeats 1000000 in
/-- The body on whole staging memrefs: the two inputs keep their contents, the output ends at the product. -/
theorem sound_kernel0 (c : Dev nD) (E : Set ℕ) (i : grid0.Coords)
    (arg1 : Memref sig .tc .vmem S2000x128 .f32) (harg1 : arg1.IsWhole) (arg2 : Memref sig .tc .vmem S128x64 .f32) (harg2 : arg2.IsWhole)
    (arg3 : Memref sig .tc .vmem S2000x64 .f32) (harg3 : arg3.IsWhole)
    (x0 : Vec F S2000x128 .f32) (x1 : Vec F S128x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The pipeline's proof data on core c: the arrays as the region finds them; after the body at point t each input's
    buffer at its block and the output's at the product of the two blocks; the class invariant; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.RegionStats1Runs.lean ====
/- The bias + rectifier + running-statistics region (pipeline 1), stated at the buffer contents `V` the region
   is entered with: the windows' blocks, the input windows' staging contents at every point, the body's one
   branch condition in closed form, and the staging memrefs the body is called with. Shared by the two
   whole-body runs (the first grid point, which zeroes the two accumulators, and every later point). -/
import proofs.«100384_j8693013807615_2_alg».proof.Proof.Gen.KernelIdeal.Launch
import proofs.«100384_j8693013807615_2_alg».proof.Proof.Gen.KernelIdeal.Skeleton
import proofs.«100384_j8693013807615_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (the aggregate's row block) holds its block at every point, for any proof data whose array is
    `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (the bias row; one block, fetched once) holds its block at every point, fetched there or not:
    unfetched, its block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end Region

/-! ## The body's branch condition -/

/-- The condition of the body's one conditional (the accumulators' reset), from the grid coordinates. -/
abbrev cond1_0 (i : grid1.Coords) : Prop := (Scalar.cmpi .ne (Scalar.extui (Scalar.cmpi .eq (BitVec.ofNat 32 (i 0).val) 0#32)) 0#32) = 1#1
/-- It holds at the first point only — decided over the grid's 25 points. -/
theorem hcond1_0 : ∀ t : Fin cfg1.N, cond1_0 (grid1.coords t) ↔ t.val % 25 = 0 :=
  (by decide +kernel : ∀ t : Fin grid1.N, cond1_0 (grid1.coords t) ↔ t.val % 25 = 0)

/-! ## The staging memrefs -/

/-- One staging buffer of each output window, through which its contents are stated (the choice does not matter). -/
abbrev VO1_2 : View sig .tc .vmem S2000x64 .f32 := (Memref.whole cc1_stg2_0 : Memref sig .tc .vmem S2000x64 .f32).view
abbrev VO1_3 : View sig .tc .vmem S1x64 .f32 := (Memref.whole cc1_stg3_0 : Memref sig .tc .vmem S1x64 .f32).view
abbrev VO1_4 : View sig .tc .vmem S1x64 .f32 := (Memref.whole cc1_stg4_0 : Memref sig .tc .vmem S1x64 .f32).view
/-- Each window's current staging memref at point `t`, spelled as the pipeline passes it (`bodyAt1`), and its wholeness. -/
abbrev ms1_0 (t : Fin cfg1.N) : Memref sig .tc .vmem S2000x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2000x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x64 .f32 := win1_4.stage (cfg1.slots t 4)
abbrev hs1_4 (t : Fin cfg1.N) : (ms1_4 t).IsWhole := hstage1_4 ((cfg1.slots t 4).cast nbuf1_4)

end Cert.KernelIdeal.Hand

end
-- ==== Proof.RegionStats1RunA.lean ====
/- The whole-body run of the bias + rectifier + running-statistics kernel at the FIRST grid point: the reset
   is taken, so both accumulators are zeroed, read back, and the point's column sums added. -/
import proofs.«100384_j8693013807615_2_alg».proof.Proof.RegionStats1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in each output's staging memref, as pieces (last first), at the first point
    (the reset taken), with the proof that on whole staging memrefs — the inputs' at their contents `x0`, `x1`, the
    outputs' at anything — the body runs to the continuation holding the inputs' as they were and each output's
    buffer with its pieces written. The pieces are found by the run. -/
noncomputable def kernelRun1_A (c : Dev nD) (i : grid1.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (hc0 : cond1_0 i)
    (x0 : Vec F S2000x64 .f32) (x1 : Vec F S1x64 .f32) :
    Σ' (L2 : List (View.Piece (Elt F) S2000x64 .f32)), Σ' (L3 : List (View.Piece (Elt F) S1x64 .f32)), { L4 : List (View.Piece (Elt F) S1x64 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4)) -∗ K ⟨⟩))
          ⊢ wp frame (wpE (defs₀ (F := F)) Variants.none c none) E (cc1__bias_relu_stats_kernel i arg1 harg1 arg2 harg2 arg3 harg3 arg4 harg4 arg5 harg5) K } := by
  refine ⟨?_, ?_, ?_, fun E K => ?run⟩
  case run =>
    simp only [cc1__bias_relu_stats_kernel_eq_skeleton]; unfold cc1__bias_relu_stats_kernel_skel
    unfold owns
    iintro ⟨⟨%f0, %hf0, H0⟩, ⟨%f1, %hf1, H1⟩, ⟨%d2, %f2, -, H2⟩, ⟨%d3, %f3, -, H3⟩, ⟨%d4, %f4, -, H4⟩, Hk⟩
    obtain rfl := harg1.eq_unread hf0; obtain rfl := harg2.eq_unread hf1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; iexact H2
    isplitl [H3]
    · iexists _; iexact H3
    iexists _; iexact H4

end Cert.KernelIdeal.Hand

end
-- ==== Proof.RegionStats1RunB.lean ====
/- The whole-body run of the bias + rectifier + running-statistics kernel at a LATER grid point: the reset is
   not taken, so the two accumulators are read at their running contents and the point's column sums added. -/
import proofs.«100384_j8693013807615_2_alg».proof.Proof.RegionStats1RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in each output's staging memref, as pieces (last first), at a point after the
    first (the reset not taken), with the proof that on whole staging memrefs — the inputs' at their contents `x0`,
    `x1`, the two accumulators' at their running contents `xo3`, `xo4`, the rectified block's at anything — the body
    runs to the continuation holding the inputs' as they were and each output's buffer with its pieces written. -/
noncomputable def kernelRun1_B (c : Dev nD) (i : grid1.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i)
    (x0 : Vec F S2000x64 .f32) (x1 : Vec F S1x64 .f32) (xo3 : Vec F S1x64 .f32) (xo4 : Vec F S1x64 .f32) :
    Σ' (L2 : List (View.Piece (Elt F) S2000x64 .f32)), Σ' (L3 : List (View.Piece (Elt F) S1x64 .f32)), { L4 : List (View.Piece (Elt F) S1x64 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xo3 ∗ owns (c : Thread nD τ) arg5 fullShare xo4
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4)) -∗ K ⟨⟩))
          ⊢ wp frame (wpE (defs₀ (F := F)) Variants.none c none) E (cc1__bias_relu_stats_kernel i arg1 harg1 arg2 harg2 arg3 harg3 arg4 harg4 arg5 harg5) K } := by
  refine ⟨?_, ?_, ?_, fun E K => ?run⟩
  case run =>
    simp only [cc1__bias_relu_stats_kernel_eq_skeleton]; unfold cc1__bias_relu_stats_kernel_skel
    unfold owns
    iintro ⟨⟨%f0, %hf0, H0⟩, ⟨%f1, %hf1, H1⟩, ⟨%d2, %f2, -, H2⟩, ⟨%f3, %hf3, H3⟩, ⟨%f4, %hf4, H4⟩, Hk⟩
    obtain rfl := harg1.eq_unread hf0; obtain rfl := harg2.eq_unread hf1; obtain rfl := harg4.eq_unread hf3; obtain rfl := harg5.eq_unread hf4
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; iexact H2
    isplitl [H3]
    · iexists _; iexact H3
    iexists _; iexact H4

end Cert.KernelIdeal.Hand

end
-- ==== Proof.RegionStats1.lean ====
/- The bias + rectifier + running-statistics region (pipeline 1) at the entry contents `V`: what each output's
   staging buffer holds after every grid point — the rectified block is rewritten at each point; the two
   statistics rows are zeroed at the first point and accumulated across the grid, their buffers never written
   back in between —, the pipeline's proof data over those contents, and the body obligation at every point. -/
import proofs.«100384_j8693013807615_2_alg».proof.Proof.RegionStats1RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The covers, and what each case leaves -/

/-- The pieces the first point leaves in output 2 (the rectified block) tile its block, so they cover it. -/
theorem cover1_A_2 (c : Dev nD) (i : grid1.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (hc0 : cond1_0 i)
    (x0 : Vec F S2000x64 .f32) (x1 : Vec F S1x64 .f32) (y : S2000x64.Idx) :
    ∃ pc ∈ (kernelRun1_A c i arg1 harg1 arg2 harg2 arg3 harg3 arg4 harg4 arg5 harg5 hc0 x0 x1).1, y ∈ pc.1.set :=
  View.cover_of_tiledL (kernelRun1_A c i arg1 harg1 arg2 harg2 arg3 harg3 arg4 harg4 arg5 harg5 hc0 x0 x1).1 S2000x64.size (by sl_kernel_rfl) y

/-- What that case leaves in output 2's staging buffer: its pieces read back over anything. -/
def out1_A_2 (c : Dev nD) (i : grid1.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (hc0 : cond1_0 i)
    (x0 : Vec F S2000x64 .f32) (x1 : Vec F S1x64 .f32) : Vec F S2000x64 .f32 :=
  VO1_2.read (Elt F) (VO1_2.writes (Elt F) VO1_2.junk (kernelRun1_A c i arg1 harg1 arg2 harg2 arg3 harg3 arg4 harg4 arg5 harg5 hc0 x0 x1).1)

/-- The pieces the first point leaves in output 3 (the column sums) tile its block, so they cover it. -/
theorem cover1_A_3 (c : Dev nD) (i : grid1.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (hc0 : cond1_0 i)
    (x0 : Vec F S2000x64 .f32) (x1 : Vec F S1x64 .f32) (y : S1x64.Idx) :
    ∃ pc ∈ (kernelRun1_A c i arg1 harg1 arg2 harg2 arg3 harg3 arg4 harg4 arg5 harg5 hc0 x0 x1).2.1, y ∈ pc.1.set :=
  View.cover_of_tiledL (kernelRun1_A c i arg1 harg1 arg2 harg2 arg3 harg3 arg4 harg4 arg5 harg5 hc0 x0 x1).2.1 S1x64.size (by sl_kernel_rfl) y

/-- What that case leaves in output 3's staging buffer: its pieces read back over anything. -/
def out1_A_3 (c : Dev nD) (i : grid1.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (hc0 : cond1_0 i)
    (x0 : Vec F S2000x64 .f32) (x1 : Vec F S1x64 .f32) : Vec F S1x64 .f32 :=
  VO1_3.read (Elt F) (VO1_3.writes (Elt F) VO1_3.junk (kernelRun1_A c i arg1 harg1 arg2 harg2 arg3 harg3 arg4 harg4 arg5 harg5 hc0 x0 x1).2.1)

/-- The pieces the first point leaves in output 4 (the column sums of squares) tile its block, so they cover it. -/
theorem cover1_A_4 (c : Dev nD) (i : grid1.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (hc0 : cond1_0 i)
    (x0 : Vec F S2000x64 .f32) (x1 : Vec F S1x64 .f32) (y : S1x64.Idx) :
    ∃ pc ∈ (kernelRun1_A c i arg1 harg1 arg2 harg2 arg3 harg3 arg4 harg4 arg5 harg5 hc0 x0 x1).2.2.1, y ∈ pc.1.set :=
  View.cover_of_tiledL (kernelRun1_A c i arg1 harg1 arg2 harg2 arg3 harg3 arg4 harg4 arg5 harg5 hc0 x0 x1).2.2.1 S1x64.size (by sl_kernel_rfl) y

/-- What that case leaves in output 4's staging buffer: its pieces read back over anything. -/
def out1_A_4 (c : Dev nD) (i : grid1.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (hc0 : cond1_0 i)
    (x0 : Vec F S2000x64 .f32) (x1 : Vec F S1x64 .f32) : Vec F S1x64 .f32 :=
  VO1_4.read (Elt F) (VO1_4.writes (Elt F) VO1_4.junk (kernelRun1_A c i arg1 harg1 arg2 harg2 arg3 harg3 arg4 harg4 arg5 harg5 hc0 x0 x1).2.2.1)

/-- The pieces the later points leave in output 2 (the rectified block) tile its block, so they cover it. -/
theorem cover1_B_2 (c : Dev nD) (i : grid1.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i)
    (x0 : Vec F S2000x64 .f32) (x1 : Vec F S1x64 .f32) (xo3 : Vec F S1x64 .f32) (xo4 : Vec F S1x64 .f32) (y : S2000x64.Idx) :
    ∃ pc ∈ (kernelRun1_B c i arg1 harg1 arg2 harg2 arg3 harg3 arg4 harg4 arg5 harg5 hc0 x0 x1 xo3 xo4).1, y ∈ pc.1.set :=
  View.cover_of_tiledL (kernelRun1_B c i arg1 harg1 arg2 harg2 arg3 harg3 arg4 harg4 arg5 harg5 hc0 x0 x1 xo3 xo4).1 S2000x64.size (by sl_kernel_rfl) y

/-- What that case leaves in output 2's staging buffer: its pieces read back over anything. -/
def out1_B_2 (c : Dev nD) (i : grid1.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i)
    (x0 : Vec F S2000x64 .f32) (x1 : Vec F S1x64 .f32) (xo3 : Vec F S1x64 .f32) (xo4 : Vec F S1x64 .f32) : Vec F S2000x64 .f32 :=
  VO1_2.read (Elt F) (VO1_2.writes (Elt F) VO1_2.junk (kernelRun1_B c i arg1 harg1 arg2 harg2 arg3 harg3 arg4 harg4 arg5 harg5 hc0 x0 x1 xo3 xo4).1)

/-- The pieces the later points leave in output 3 (the column sums) tile its block, so they cover it. -/
theorem cover1_B_3 (c : Dev nD) (i : grid1.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i)
    (x0 : Vec F S2000x64 .f32) (x1 : Vec F S1x64 .f32) (xo3 : Vec F S1x64 .f32) (xo4 : Vec F S1x64 .f32) (y : S1x64.Idx) :
    ∃ pc ∈ (kernelRun1_B c i arg1 harg1 arg2 harg2 arg3 harg3 arg4 harg4 arg5 harg5 hc0 x0 x1 xo3 xo4).2.1, y ∈ pc.1.set :=
  View.cover_of_tiledL (kernelRun1_B c i arg1 harg1 arg2 harg2 arg3 harg3 arg4 harg4 arg5 harg5 hc0 x0 x1 xo3 xo4).2.1 S1x64.size (by sl_kernel_rfl) y

/-- What that case leaves in output 3's staging buffer: its pieces read back over anything. -/
def out1_B_3 (c : Dev nD) (i : grid1.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i)
    (x0 : Vec F S2000x64 .f32) (x1 : Vec F S1x64 .f32) (xo3 : Vec F S1x64 .f32) (xo4 : Vec F S1x64 .f32) : Vec F S1x64 .f32 :=
  VO1_3.read (Elt F) (VO1_3.writes (Elt F) VO1_3.junk (kernelRun1_B c i arg1 harg1 arg2 harg2 arg3 harg3 arg4 harg4 arg5 harg5 hc0 x0 x1 xo3 xo4).2.1)

/-- The pieces the later points leave in output 4 (the column sums of squares) tile its block, so they cover it. -/
theorem cover1_B_4 (c : Dev nD) (i : grid1.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i)
    (x0 : Vec F S2000x64 .f32) (x1 : Vec F S1x64 .f32) (xo3 : Vec F S1x64 .f32) (xo4 : Vec F S1x64 .f32) (y : S1x64.Idx) :
    ∃ pc ∈ (kernelRun1_B c i arg1 harg1 arg2 harg2 arg3 harg3 arg4 harg4 arg5 harg5 hc0 x0 x1 xo3 xo4).2.2.1, y ∈ pc.1.set :=
  View.cover_of_tiledL (kernelRun1_B c i arg1 harg1 arg2 harg2 arg3 harg3 arg4 harg4 arg5 harg5 hc0 x0 x1 xo3 xo4).2.2.1 S1x64.size (by sl_kernel_rfl) y

/-- What that case leaves in output 4's staging buffer: its pieces read back over anything. -/
def out1_B_4 (c : Dev nD) (i : grid1.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i)
    (x0 : Vec F S2000x64 .f32) (x1 : Vec F S1x64 .f32) (xo3 : Vec F S1x64 .f32) (xo4 : Vec F S1x64 .f32) : Vec F S1x64 .f32 :=
  VO1_4.read (Elt F) (VO1_4.writes (Elt F) VO1_4.junk (kernelRun1_B c i arg1 harg1 arg2 harg2 arg3 harg3 arg4 harg4 arg5 harg5 hc0 x0 x1 xo3 xo4).2.2.1)

section Region
variable (V : (c : Dev nD) → (b : Ref sig .tc) → Buf (Elt F) ((c : Thread nD τ).loc b))

/-! ## What the outputs hold after each point -/

/-- THE ACCUMULATION. What the three outputs' staging buffers hold after the body at position `n` (the
    rectified block, the column sums, the column sums of squares): at the first point the reset case on the
    point's input blocks; at a later point the accumulating case on the point's input blocks over what this
    leaves in the two statistics rows at `n - 1` (their buffers are not written back in between). -/
def outsAt1 (c : Dev nD) : (n : ℕ) → n < cfg1.N → Vec F S2000x64 .f32 × Vec F S1x64 .f32 × Vec F S1x64 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) ((hcond1_0 ⟨0, hn⟩).mpr (Nat.zero_mod _)) (iblk1 V c 0 ⟨0, hn⟩) (iblk1 V c 1 ⟨0, hn⟩),
      out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) ((hcond1_0 ⟨0, hn⟩).mpr (Nat.zero_mod _)) (iblk1 V c 0 ⟨0, hn⟩) (iblk1 V c 1 ⟨0, hn⟩),
      out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) ((hcond1_0 ⟨0, hn⟩).mpr (Nat.zero_mod _)) (iblk1 V c 0 ⟨0, hn⟩) (iblk1 V c 1 ⟨0, hn⟩))
  | n + 1, hn =>
    if h0 : (n + 1) % 25 = 0 then
      (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) ((hcond1_0 ⟨n + 1, hn⟩).mpr h0) (iblk1 V c 0 ⟨n + 1, hn⟩) (iblk1 V c 1 ⟨n + 1, hn⟩),
      out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) ((hcond1_0 ⟨n + 1, hn⟩).mpr h0) (iblk1 V c 0 ⟨n + 1, hn⟩) (iblk1 V c 1 ⟨n + 1, hn⟩),
      out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) ((hcond1_0 ⟨n + 1, hn⟩).mpr h0) (iblk1 V c 0 ⟨n + 1, hn⟩) (iblk1 V c 1 ⟨n + 1, hn⟩))
    else
      (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (fun h => h0 ((hcond1_0 ⟨n + 1, hn⟩).mp h)) (iblk1 V c 0 ⟨n + 1, hn⟩) (iblk1 V c 1 ⟨n + 1, hn⟩) (outsAt1 c n (Nat.lt_of_succ_lt hn)).2.1 (outsAt1 c n (Nat.lt_of_succ_lt hn)).2.2,
      out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (fun h => h0 ((hcond1_0 ⟨n + 1, hn⟩).mp h)) (iblk1 V c 0 ⟨n + 1, hn⟩) (iblk1 V c 1 ⟨n + 1, hn⟩) (outsAt1 c n (Nat.lt_of_succ_lt hn)).2.1 (outsAt1 c n (Nat.lt_of_succ_lt hn)).2.2,
      out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (fun h => h0 ((hcond1_0 ⟨n + 1, hn⟩).mp h)) (iblk1 V c 0 ⟨n + 1, hn⟩) (iblk1 V c 1 ⟨n + 1, hn⟩) (outsAt1 c n (Nat.lt_of_succ_lt hn)).2.1 (outsAt1 c n (Nat.lt_of_succ_lt hn)).2.2)

/-- `outsAt1` at the first point: the reset case's contents. -/
theorem outsAt1_A (c : Dev nD) (t : Fin cfg1.N) (h0 : t.val % 25 = 0) :
    outsAt1 V c t.val t.isLt = (out1_A_2 c (grid1.coords t) (ms1_0 t) (hs1_0 t) (ms1_1 t) (hs1_1 t) (ms1_2 t) (hs1_2 t) (ms1_3 t) (hs1_3 t) (ms1_4 t) (hs1_4 t) ((hcond1_0 t).mpr h0) (iblk1 V c 0 t) (iblk1 V c 1 t),
      out1_A_3 c (grid1.coords t) (ms1_0 t) (hs1_0 t) (ms1_1 t) (hs1_1 t) (ms1_2 t) (hs1_2 t) (ms1_3 t) (hs1_3 t) (ms1_4 t) (hs1_4 t) ((hcond1_0 t).mpr h0) (iblk1 V c 0 t) (iblk1 V c 1 t),
      out1_A_4 c (grid1.coords t) (ms1_0 t) (hs1_0 t) (ms1_1 t) (hs1_1 t) (ms1_2 t) (hs1_2 t) (ms1_3 t) (hs1_3 t) (ms1_4 t) (hs1_4 t) ((hcond1_0 t).mpr h0) (iblk1 V c 0 t) (iblk1 V c 1 t)) := by
  obtain ⟨n, hn⟩ := t
  cases n with
  | zero => exact rfl
  | succ n => exact (dif_pos h0).trans rfl

/-- `outsAt1` at a later point: the accumulating case's contents, over what the point before left. -/
theorem outsAt1_B (c : Dev nD) (t : Fin cfg1.N) (h0 : ¬t.val % 25 = 0) :
    outsAt1 V c t.val t.isLt = (out1_B_2 c (grid1.coords t) (ms1_0 t) (hs1_0 t) (ms1_1 t) (hs1_1 t) (ms1_2 t) (hs1_2 t) (ms1_3 t) (hs1_3 t) (ms1_4 t) (hs1_4 t) (fun h => h0 ((hcond1_0 t).mp h)) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2,
      out1_B_3 c (grid1.coords t) (ms1_0 t) (hs1_0 t) (ms1_1 t) (hs1_1 t) (ms1_2 t) (hs1_2 t) (ms1_3 t) (hs1_3 t) (ms1_4 t) (hs1_4 t) (fun h => h0 ((hcond1_0 t).mp h)) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2,
      out1_B_4 c (grid1.coords t) (ms1_0 t) (hs1_0 t) (ms1_1 t) (hs1_1 t) (ms1_2 t) (hs1_2 t) (ms1_3 t) (hs1_3 t) (ms1_4 t) (hs1_4 t) (fun h => h0 ((hcond1_0 t).mp h)) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-! ## The pipeline's proof data -/

/-- The proof data of pipeline 1 on core `c`: the arrays as the region finds them (`V`); after the body at point
    `t` each input's buffer at its block and the outputs' at `outsAt1`'s components; the invariant the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
    | ⟨3, _⟩ => (outsAt1 V c t.val t.isLt).2.1
    | ⟨4, _⟩ => (outsAt1 V c t.val t.isLt).2.2
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem after1_3 (c : Dev nD) (t : Fin cfg1.N) : (dat1 V c).after 3 t = (outsAt1 V c t.val t.isLt).2.1 := by dsimp only [dat1]
theorem after1_4 (c : Dev nD) (t : Fin cfg1.N) : (dat1 V c).after 4 t = (outsAt1 V c t.val t.isLt).2.2 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- At a later point the column sums' staging buffer holds what the body left at the point before: the point is not
    the first and the buffer was not written back in between (it is written back after the last point only). -/
theorem before1_3_B (c : Dev nD) (t : Fin cfg1.N) (h0 : ¬t.val % 25 = 0) (d) :
    (dat1 V c).before 3 t d = (outsAt1 V c (t.val - 1) (Nat.lt_of_le_of_lt (Nat.sub_le _ _) t.isLt)).2.1 := by
  have hN : t.val < 25 := lt_of_lt_of_eq t.isLt (show cfg1.N = 25 from N_1)
  rw [Dat.before_out_kept _ 3 rfl t (by omega) (Bool.eq_false_iff.mpr fun h => by have := (flush1_3 _).mp h; dsimp only at this; omega)
    (fun _ => rfl) (fun _ _ => rfl)]
  dsimp only [dat1]

/-- Likewise the column sums of squares'. -/
theorem before1_4_B (c : Dev nD) (t : Fin cfg1.N) (h0 : ¬t.val % 25 = 0) (d) :
    (dat1 V c).before 4 t d = (outsAt1 V c (t.val - 1) (Nat.lt_of_le_of_lt (Nat.sub_le _ _) t.isLt)).2.2 := by
  have hN : t.val < 25 := lt_of_lt_of_eq t.isLt (show cfg1.N = 25 from N_1)
  rw [Dat.before_out_kept _ 4 rfl t (by omega) (Bool.eq_false_iff.mpr fun h => by have := (flush1_4 _).mp h; dsimp only at this; omega)
    (fun _ => rfl) (fun _ _ => rfl)]
  dsimp only [dat1]

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t))

set_option maxHeartbeats 2000000 in
/-- The body at any point: the inputs' memrefs hold their blocks; the closed form says which case the point is in;
    at a later point the two statistics rows hold what the point before left; so the case's run applies. The
    invariant passes through unread; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2, after1_3, after1_4]
  have hN : t.val < 25 := lt_of_lt_of_eq t.isLt (show cfg1.N = 25 from N_1)
  by_cases h0 : t.val % 25 = 0
  · rw [outsAt1_A V c t h0]
    unfold out1_A_2 out1_A_3 out1_A_4; (try dsimp only)
    iintro ⟨HΦ, Ho, ⟨%d0, H0⟩, ⟨%d1, H1⟩, ⟨%d2, H2⟩, ⟨%d3, H3⟩, ⟨%d4, H4⟩⟩
    iapply ((kernelRun1_A c (grid1.coords t) _ _ _ _ _ _ _ _ _ _ ((hcond1_0 t).mpr h0) (iblk1 V c 0 t) (iblk1 V c 1 t)).2.2.2 Set.univ _)
    isplitl [H0]; · iexact H0
    isplitl [H1]; · iexact H1
    isplitl [H2]; · iexists _; iexact H2
    isplitl [H3]; · iexists _; iexact H3
    isplitl [H4]; · iexists _; iexact H4
    iintro ⟨H0, H1, ⟨%e2, H2⟩, ⟨%e3, H3⟩, ⟨%e4, H4⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover1_A_2 c _ _ _ _ _ _ _ _ _ _ _ _ _ _)
    isplitl [H3]
    · unfold owns; iexists _; isplitr
      swap; · iexact H3
      ipureintro; exact View.read_writes_of_cover _ _ _ _ _ (cover1_A_3 c _ _ _ _ _ _ _ _ _ _ _ _ _ _)
    unfold owns; iexists _; isplitr
    swap; · iexact H4
    ipureintro; exact View.read_writes_of_cover _ _ _ _ _ (cover1_A_4 c _ _ _ _ _ _ _ _ _ _ _ _ _ _)
  · rw [outsAt1_B V c t h0]
    simp only [before1_3_B V c t h0, before1_4_B V c t h0]
    unfold out1_B_2 out1_B_3 out1_B_4; (try dsimp only)
    iintro ⟨HΦ, Ho, ⟨%d0, H0⟩, ⟨%d1, H1⟩, ⟨%d2, H2⟩, ⟨%d3, H3⟩, ⟨%d4, H4⟩⟩
    iapply ((kernelRun1_B c (grid1.coords t) _ _ _ _ _ _ _ _ _ _ (fun h => h0 ((hcond1_0 t).mp h)) (iblk1 V c 0 t) (iblk1 V c 1 t) _ _).2.2.2 Set.univ _)
    isplitl [H0]; · iexact H0
    isplitl [H1]; · iexact H1
    isplitl [H2]; · iexists _; iexact H2
    isplitl [H3]; · iexact H3
    isplitl [H4]; · iexact H4
    iintro ⟨H0, H1, ⟨%e2, H2⟩, ⟨%e3, H3⟩, ⟨%e4, H4⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover1_B_2 c _ _ _ _ _ _ _ _ _ _ _ _ _ _ _ _)
    isplitl [H3]
    · unfold owns; iexists _; isplitr
      swap; · iexact H3
      ipureintro; exact View.read_writes_of_cover _ _ _ _ _ (cover1_B_3 c _ _ _ _ _ _ _ _ _ _ _ _ _ _ _ _)
    unfold owns; iexists _; isplitr
    swap; · iexact H4
    ipureintro; exact View.read_writes_of_cover _ _ _ _ _ (cover1_B_4 c _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region

end Cert.KernelIdeal.Hand

end
-- ==== Proof.RegionA2.lean ====
/-
  The normalization region 2: at grid point t the body reads a [2000, 64] row block of the rectified activations and
  the four [1, 64] rows (mean, variance, gain, offset) and leaves (z - mean) * rsqrt(variance + eps) * gain + offset in
  the output block. Stated at the buffer contents V the region is entered with.
-/
import proofs.«100384_j8693013807615_2_alg».proof.Proof.Gen.KernelIdeal.Launch
import proofs.«100384_j8693013807615_2_alg».proof.Proof.Gen.KernelIdeal.Skeleton
import proofs.«100384_j8693013807615_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's staging buffer holds its block at every point, fetched there or not. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's staging buffer holds its block at every point, fetched there or not. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

abbrev r2_z : Rect S2000x64 := Rect.unit (s := S2000x64) ![0, 0] S2000x64.size inb_S2000x64_S2000x64_0_0
abbrev r2_r : Rect S1x64 := Rect.unit (s := S1x64) ![0, 0] S1x64.size inb_S1x64_S1x64_0_0

/-- The output block after the body: one whole-block store of the normalized block. -/
def out2_5 (x0 : Vec F S2000x64 .f32) (x1 x2 x3 x4 : Vec F S1x64 .f32) : Vec F S2000x64 .f32 :=
  View.canon [⟨r2_z, k2_pay1 (View.ld x2 r2_r) (View.ld x0 r2_z) (View.ld x1 r2_r) (View.ld x3 r2_r) (View.ld x4 r2_r)⟩]

theorem cover2_5 (p0 : Vec F S2000x64 .f32) (y : S2000x64.Idx) :
    ∃ pc ∈ ([⟨r2_z, p0⟩] : List (View.Piece (Elt F) S2000x64 .f32)), y ∈ pc.1.set :=
  View.cover_of_tiled [⟨r2_z, p0⟩] S2000x64.size (by rfl) y

set_option maxHeartbeats 1000000 in
/-- The body on whole staging memrefs: the five inputs keep their contents, the output ends at the normalized block. -/
theorem sound_kernel2 (c : Dev nD) (E : Set ℕ) (i : grid2.Coords)
    (arg1 : Memref sig .tc .vmem S2000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S2000x64 .f32) (harg6 : arg6.IsWhole)
    (x0 : Vec F S2000x64 .f32) (x1 x2 x3 x4 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out2_5 x0 x1 x2 x3 x4)) -∗ K ⟨⟩))
      ⊢ wp frame (wpE (defs₀ (F := F)) Variants.none c none) E (cc2__bn_apply_kernel i arg1 harg1 arg2 harg2 arg3 harg3 arg4 harg4 arg5 harg5 arg6 harg6) K := by
  simp only [cc2__bn_apply_kernel_eq_skeleton]; unfold cc2__bn_apply_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0
  subst hf1
  subst hf2
  subst hf3
  subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-- The pipeline's proof data on core c: the arrays as the region finds them; after the body at point t each input's
    buffer at its block and the output's at the normalized block; the class invariant; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.RegionA3.lean ====
/-
  The dense-transform region 3: at grid point t the body reads the [2000, ·] row block of the activations and the
  whole weight matrix, and leaves their product in the output block. Stated at the buffer contents V the region is
  entered with: the windows' blocks, the body's triple, the pipeline's proof data and the body obligation.
-/
import proofs.«100384_j8693013807615_2_alg».proof.Proof.Gen.KernelIdeal.Launch
import proofs.«100384_j8693013807615_2_alg».proof.Proof.Gen.KernelIdeal.Skeleton
import proofs.«100384_j8693013807615_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The activations' staging buffer holds the point's row block, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The weights' staging buffer holds the whole matrix at every point (its block index never moves). -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

abbrev r3_z : Rect S2000x64 := Rect.unit (s := S2000x64) ![0, 0] S2000x64.size inb_S2000x64_S2000x64_0_0
abbrev r3_w : Rect S64x64 := Rect.unit (s := S64x64) ![0, 0] S64x64.size inb_S64x64_S64x64_0_0
abbrev r3_o : Rect S2000x64 := Rect.unit (s := S2000x64) ![0, 0] S2000x64.size inb_S2000x64_S2000x64_0_0

/-- The output block after the body: its one whole-block store of the product of the two loaded blocks. -/
def out3_2 (x0 : Vec F S2000x64 .f32) (x1 : Vec F S64x64 .f32) : Vec F S2000x64 .f32 :=
  View.canon [⟨r3_o, k3_pay1 (View.ld x0 r3_z) (View.ld x1 r3_w)⟩]

theorem cover3_2 (p0 : Vec F S2000x64 .f32) (y : S2000x64.Idx) :
    ∃ pc ∈ ([⟨r3_o, p0⟩] : List (View.Piece (Elt F) S2000x64 .f32)), y ∈ pc.1.set :=
  View.cover_of_tiled [⟨r3_o, p0⟩] S2000x64.size (by rfl) y

set_option maxHeartbeats 1000000 in
/-- The body on whole staging memrefs: the two inputs keep their contents, the output ends at the product. -/
theorem sound_kernel3 (c : Dev nD) (E : Set ℕ) (i : grid3.Coords)
    (arg1 : Memref sig .tc .vmem S2000x64 .f32) (harg1 : arg1.IsWhole) (arg2 : Memref sig .tc .vmem S64x64 .f32) (harg2 : arg2.IsWhole)
    (arg3 : Memref sig .tc .vmem S2000x64 .f32) (harg3 : arg3.IsWhole)
    (x0 : Vec F S2000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3__matmul_kernel i arg1 harg1 arg2 harg2 arg3 harg3) K := by
  simp only [cc3__matmul_kernel_eq_skeleton]; unfold cc3__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-- The pipeline's proof data on core c: the arrays as the region finds them; after the body at point t each input's
    buffer at its block and the output's at the product of the two blocks; the class invariant; nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.RegionStats4Runs.lean ====
/- The bias + rectifier + running-statistics region (pipeline 4), stated at the buffer contents `V` the region
   is entered with: the windows' blocks, the input windows' staging contents at every point, the body's one
   branch condition in closed form, and the staging memrefs the body is called with. Shared by the two
   whole-body runs (the first grid point, which zeroes the two accumulators, and every later point). -/
import proofs.«100384_j8693013807615_2_alg».proof.Proof.Gen.KernelIdeal.Launch
import proofs.«100384_j8693013807615_2_alg».proof.Proof.Gen.KernelIdeal.Skeleton
import proofs.«100384_j8693013807615_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0 (the aggregate's row block) holds its block at every point, for any proof data whose array is
    `V`'s and whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1 (the bias row; one block, fetched once) holds its block at every point, fetched there or not:
    unfetched, its block index has not moved. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

end Region

/-! ## The body's branch condition -/

/-- The condition of the body's one conditional (the accumulators' reset), from the grid coordinates. -/
abbrev cond4_0 (i : grid4.Coords) : Prop := (Scalar.cmpi .ne (Scalar.extui (Scalar.cmpi .eq (BitVec.ofNat 32 (i 0).val) 0#32)) 0#32) = 1#1
/-- It holds at the first point only — decided over the grid's 25 points. -/
theorem hcond4_0 : ∀ t : Fin cfg4.N, cond4_0 (grid4.coords t) ↔ t.val % 25 = 0 :=
  (by decide +kernel : ∀ t : Fin grid4.N, cond4_0 (grid4.coords t) ↔ t.val % 25 = 0)

/-! ## The staging memrefs -/

/-- One staging buffer of each output window, through which its contents are stated (the choice does not matter). -/
abbrev VO4_2 : View sig .tc .vmem S2000x64 .f32 := (Memref.whole cc4_stg2_0 : Memref sig .tc .vmem S2000x64 .f32).view
abbrev VO4_3 : View sig .tc .vmem S1x64 .f32 := (Memref.whole cc4_stg3_0 : Memref sig .tc .vmem S1x64 .f32).view
abbrev VO4_4 : View sig .tc .vmem S1x64 .f32 := (Memref.whole cc4_stg4_0 : Memref sig .tc .vmem S1x64 .f32).view
/-- Each window's current staging memref at point `t`, spelled as the pipeline passes it (`bodyAt4`), and its wholeness. -/
abbrev ms4_0 (t : Fin cfg4.N) : Memref sig .tc .vmem S2000x64 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1x64 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S2000x64 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x64 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S1x64 .f32 := win4_4.stage (cfg4.slots t 4)
abbrev hs4_4 (t : Fin cfg4.N) : (ms4_4 t).IsWhole := hstage4_4 ((cfg4.slots t 4).cast nbuf4_4)

end Cert.KernelIdeal.Hand

end
-- ==== Proof.RegionStats4RunA.lean ====
/- The whole-body run of the bias + rectifier + running-statistics kernel at the FIRST grid point: the reset
   is taken, so both accumulators are zeroed, read back, and the point's column sums added. -/
import proofs.«100384_j8693013807615_2_alg».proof.Proof.RegionStats4Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in each output's staging memref, as pieces (last first), at the first point
    (the reset taken), with the proof that on whole staging memrefs — the inputs' at their contents `x0`, `x1`, the
    outputs' at anything — the body runs to the continuation holding the inputs' as they were and each output's
    buffer with its pieces written. The pieces are found by the run. -/
noncomputable def kernelRun4_A (c : Dev nD) (i : grid4.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (hc0 : cond4_0 i)
    (x0 : Vec F S2000x64 .f32) (x1 : Vec F S1x64 .f32) :
    Σ' (L2 : List (View.Piece (Elt F) S2000x64 .f32)), Σ' (L3 : List (View.Piece (Elt F) S1x64 .f32)), { L4 : List (View.Piece (Elt F) S1x64 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4)) -∗ K ⟨⟩))
          ⊢ wp frame (wpE (defs₀ (F := F)) Variants.none c none) E (cc4__bias_relu_stats_kernel i arg1 harg1 arg2 harg2 arg3 harg3 arg4 harg4 arg5 harg5) K } := by
  refine ⟨?_, ?_, ?_, fun E K => ?run⟩
  case run =>
    simp only [cc4__bias_relu_stats_kernel_eq_skeleton]; unfold cc4__bias_relu_stats_kernel_skel
    unfold owns
    iintro ⟨⟨%f0, %hf0, H0⟩, ⟨%f1, %hf1, H1⟩, ⟨%d2, %f2, -, H2⟩, ⟨%d3, %f3, -, H3⟩, ⟨%d4, %f4, -, H4⟩, Hk⟩
    obtain rfl := harg1.eq_unread hf0; obtain rfl := harg2.eq_unread hf1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; iexact H2
    isplitl [H3]
    · iexists _; iexact H3
    iexists _; iexact H4

end Cert.KernelIdeal.Hand

end
-- ==== Proof.RegionStats4RunB.lean ====
/- The whole-body run of the bias + rectifier + running-statistics kernel at a LATER grid point: the reset is
   not taken, so the two accumulators are read at their running contents and the point's column sums added. -/
import proofs.«100384_j8693013807615_2_alg».proof.Proof.RegionStats4RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in each output's staging memref, as pieces (last first), at a point after the
    first (the reset not taken), with the proof that on whole staging memrefs — the inputs' at their contents `x0`,
    `x1`, the two accumulators' at their running contents `xo3`, `xo4`, the rectified block's at anything — the body
    runs to the continuation holding the inputs' as they were and each output's buffer with its pieces written. -/
noncomputable def kernelRun4_B (c : Dev nD) (i : grid4.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (hc0 : ¬cond4_0 i)
    (x0 : Vec F S2000x64 .f32) (x1 : Vec F S1x64 .f32) (xo3 : Vec F S1x64 .f32) (xo4 : Vec F S1x64 .f32) :
    Σ' (L2 : List (View.Piece (Elt F) S2000x64 .f32)), Σ' (L3 : List (View.Piece (Elt F) S1x64 .f32)), { L4 : List (View.Piece (Elt F) S1x64 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xo3 ∗ owns (c : Thread nD τ) arg5 fullShare xo4
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4)) -∗ K ⟨⟩))
          ⊢ wp frame (wpE (defs₀ (F := F)) Variants.none c none) E (cc4__bias_relu_stats_kernel i arg1 harg1 arg2 harg2 arg3 harg3 arg4 harg4 arg5 harg5) K } := by
  refine ⟨?_, ?_, ?_, fun E K => ?run⟩
  case run =>
    simp only [cc4__bias_relu_stats_kernel_eq_skeleton]; unfold cc4__bias_relu_stats_kernel_skel
    unfold owns
    iintro ⟨⟨%f0, %hf0, H0⟩, ⟨%f1, %hf1, H1⟩, ⟨%d2, %f2, -, H2⟩, ⟨%f3, %hf3, H3⟩, ⟨%f4, %hf4, H4⟩, Hk⟩
    obtain rfl := harg1.eq_unread hf0; obtain rfl := harg2.eq_unread hf1; obtain rfl := harg4.eq_unread hf3; obtain rfl := harg5.eq_unread hf4
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; iexact H2
    isplitl [H3]
    · iexists _; iexact H3
    iexists _; iexact H4

end Cert.KernelIdeal.Hand

end
-- ==== Proof.RegionStats4.lean ====
/- The bias + rectifier + running-statistics region (pipeline 4) at the entry contents `V`: what each output's
   staging buffer holds after every grid point — the rectified block is rewritten at each point; the two
   statistics rows are zeroed at the first point and accumulated across the grid, their buffers never written
   back in between —, the pipeline's proof data over those contents, and the body obligation at every point. -/
import proofs.«100384_j8693013807615_2_alg».proof.Proof.RegionStats4RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The covers, and what each case leaves -/

/-- The pieces the first point leaves in output 2 (the rectified block) tile its block, so they cover it. -/
theorem cover4_A_2 (c : Dev nD) (i : grid4.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (hc0 : cond4_0 i)
    (x0 : Vec F S2000x64 .f32) (x1 : Vec F S1x64 .f32) (y : S2000x64.Idx) :
    ∃ pc ∈ (kernelRun4_A c i arg1 harg1 arg2 harg2 arg3 harg3 arg4 harg4 arg5 harg5 hc0 x0 x1).1, y ∈ pc.1.set :=
  View.cover_of_tiledL (kernelRun4_A c i arg1 harg1 arg2 harg2 arg3 harg3 arg4 harg4 arg5 harg5 hc0 x0 x1).1 S2000x64.size (by sl_kernel_rfl) y

/-- What that case leaves in output 2's staging buffer: its pieces read back over anything. -/
def out4_A_2 (c : Dev nD) (i : grid4.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (hc0 : cond4_0 i)
    (x0 : Vec F S2000x64 .f32) (x1 : Vec F S1x64 .f32) : Vec F S2000x64 .f32 :=
  VO4_2.read (Elt F) (VO4_2.writes (Elt F) VO4_2.junk (kernelRun4_A c i arg1 harg1 arg2 harg2 arg3 harg3 arg4 harg4 arg5 harg5 hc0 x0 x1).1)

/-- The pieces the first point leaves in output 3 (the column sums) tile its block, so they cover it. -/
theorem cover4_A_3 (c : Dev nD) (i : grid4.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (hc0 : cond4_0 i)
    (x0 : Vec F S2000x64 .f32) (x1 : Vec F S1x64 .f32) (y : S1x64.Idx) :
    ∃ pc ∈ (kernelRun4_A c i arg1 harg1 arg2 harg2 arg3 harg3 arg4 harg4 arg5 harg5 hc0 x0 x1).2.1, y ∈ pc.1.set :=
  View.cover_of_tiledL (kernelRun4_A c i arg1 harg1 arg2 harg2 arg3 harg3 arg4 harg4 arg5 harg5 hc0 x0 x1).2.1 S1x64.size (by sl_kernel_rfl) y

/-- What that case leaves in output 3's staging buffer: its pieces read back over anything. -/
def out4_A_3 (c : Dev nD) (i : grid4.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (hc0 : cond4_0 i)
    (x0 : Vec F S2000x64 .f32) (x1 : Vec F S1x64 .f32) : Vec F S1x64 .f32 :=
  VO4_3.read (Elt F) (VO4_3.writes (Elt F) VO4_3.junk (kernelRun4_A c i arg1 harg1 arg2 harg2 arg3 harg3 arg4 harg4 arg5 harg5 hc0 x0 x1).2.1)

/-- The pieces the first point leaves in output 4 (the column sums of squares) tile its block, so they cover it. -/
theorem cover4_A_4 (c : Dev nD) (i : grid4.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (hc0 : cond4_0 i)
    (x0 : Vec F S2000x64 .f32) (x1 : Vec F S1x64 .f32) (y : S1x64.Idx) :
    ∃ pc ∈ (kernelRun4_A c i arg1 harg1 arg2 harg2 arg3 harg3 arg4 harg4 arg5 harg5 hc0 x0 x1).2.2.1, y ∈ pc.1.set :=
  View.cover_of_tiledL (kernelRun4_A c i arg1 harg1 arg2 harg2 arg3 harg3 arg4 harg4 arg5 harg5 hc0 x0 x1).2.2.1 S1x64.size (by sl_kernel_rfl) y

/-- What that case leaves in output 4's staging buffer: its pieces read back over anything. -/
def out4_A_4 (c : Dev nD) (i : grid4.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (hc0 : cond4_0 i)
    (x0 : Vec F S2000x64 .f32) (x1 : Vec F S1x64 .f32) : Vec F S1x64 .f32 :=
  VO4_4.read (Elt F) (VO4_4.writes (Elt F) VO4_4.junk (kernelRun4_A c i arg1 harg1 arg2 harg2 arg3 harg3 arg4 harg4 arg5 harg5 hc0 x0 x1).2.2.1)

/-- The pieces the later points leave in output 2 (the rectified block) tile its block, so they cover it. -/
theorem cover4_B_2 (c : Dev nD) (i : grid4.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (hc0 : ¬cond4_0 i)
    (x0 : Vec F S2000x64 .f32) (x1 : Vec F S1x64 .f32) (xo3 : Vec F S1x64 .f32) (xo4 : Vec F S1x64 .f32) (y : S2000x64.Idx) :
    ∃ pc ∈ (kernelRun4_B c i arg1 harg1 arg2 harg2 arg3 harg3 arg4 harg4 arg5 harg5 hc0 x0 x1 xo3 xo4).1, y ∈ pc.1.set :=
  View.cover_of_tiledL (kernelRun4_B c i arg1 harg1 arg2 harg2 arg3 harg3 arg4 harg4 arg5 harg5 hc0 x0 x1 xo3 xo4).1 S2000x64.size (by sl_kernel_rfl) y

/-- What that case leaves in output 2's staging buffer: its pieces read back over anything. -/
def out4_B_2 (c : Dev nD) (i : grid4.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (hc0 : ¬cond4_0 i)
    (x0 : Vec F S2000x64 .f32) (x1 : Vec F S1x64 .f32) (xo3 : Vec F S1x64 .f32) (xo4 : Vec F S1x64 .f32) : Vec F S2000x64 .f32 :=
  VO4_2.read (Elt F) (VO4_2.writes (Elt F) VO4_2.junk (kernelRun4_B c i arg1 harg1 arg2 harg2 arg3 harg3 arg4 harg4 arg5 harg5 hc0 x0 x1 xo3 xo4).1)

/-- The pieces the later points leave in output 3 (the column sums) tile its block, so they cover it. -/
theorem cover4_B_3 (c : Dev nD) (i : grid4.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (hc0 : ¬cond4_0 i)
    (x0 : Vec F S2000x64 .f32) (x1 : Vec F S1x64 .f32) (xo3 : Vec F S1x64 .f32) (xo4 : Vec F S1x64 .f32) (y : S1x64.Idx) :
    ∃ pc ∈ (kernelRun4_B c i arg1 harg1 arg2 harg2 arg3 harg3 arg4 harg4 arg5 harg5 hc0 x0 x1 xo3 xo4).2.1, y ∈ pc.1.set :=
  View.cover_of_tiledL (kernelRun4_B c i arg1 harg1 arg2 harg2 arg3 harg3 arg4 harg4 arg5 harg5 hc0 x0 x1 xo3 xo4).2.1 S1x64.size (by sl_kernel_rfl) y

/-- What that case leaves in output 3's staging buffer: its pieces read back over anything. -/
def out4_B_3 (c : Dev nD) (i : grid4.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (hc0 : ¬cond4_0 i)
    (x0 : Vec F S2000x64 .f32) (x1 : Vec F S1x64 .f32) (xo3 : Vec F S1x64 .f32) (xo4 : Vec F S1x64 .f32) : Vec F S1x64 .f32 :=
  VO4_3.read (Elt F) (VO4_3.writes (Elt F) VO4_3.junk (kernelRun4_B c i arg1 harg1 arg2 harg2 arg3 harg3 arg4 harg4 arg5 harg5 hc0 x0 x1 xo3 xo4).2.1)

/-- The pieces the later points leave in output 4 (the column sums of squares) tile its block, so they cover it. -/
theorem cover4_B_4 (c : Dev nD) (i : grid4.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (hc0 : ¬cond4_0 i)
    (x0 : Vec F S2000x64 .f32) (x1 : Vec F S1x64 .f32) (xo3 : Vec F S1x64 .f32) (xo4 : Vec F S1x64 .f32) (y : S1x64.Idx) :
    ∃ pc ∈ (kernelRun4_B c i arg1 harg1 arg2 harg2 arg3 harg3 arg4 harg4 arg5 harg5 hc0 x0 x1 xo3 xo4).2.2.1, y ∈ pc.1.set :=
  View.cover_of_tiledL (kernelRun4_B c i arg1 harg1 arg2 harg2 arg3 harg3 arg4 harg4 arg5 harg5 hc0 x0 x1 xo3 xo4).2.2.1 S1x64.size (by sl_kernel_rfl) y

/-- What that case leaves in output 4's staging buffer: its pieces read back over anything. -/
def out4_B_4 (c : Dev nD) (i : grid4.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (hc0 : ¬cond4_0 i)
    (x0 : Vec F S2000x64 .f32) (x1 : Vec F S1x64 .f32) (xo3 : Vec F S1x64 .f32) (xo4 : Vec F S1x64 .f32) : Vec F S1x64 .f32 :=
  VO4_4.read (Elt F) (VO4_4.writes (Elt F) VO4_4.junk (kernelRun4_B c i arg1 harg1 arg2 harg2 arg3 harg3 arg4 harg4 arg5 harg5 hc0 x0 x1 xo3 xo4).2.2.1)

section Region
variable (V : (c : Dev nD) → (b : Ref sig .tc) → Buf (Elt F) ((c : Thread nD τ).loc b))

/-! ## What the outputs hold after each point -/

/-- THE ACCUMULATION. What the three outputs' staging buffers hold after the body at position `n` (the
    rectified block, the column sums, the column sums of squares): at the first point the reset case on the
    point's input blocks; at a later point the accumulating case on the point's input blocks over what this
    leaves in the two statistics rows at `n - 1` (their buffers are not written back in between). -/
def outsAt4 (c : Dev nD) : (n : ℕ) → n < cfg4.N → Vec F S2000x64 .f32 × Vec F S1x64 .f32 × Vec F S1x64 .f32
  | 0, hn => (out4_A_2 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) ((hcond4_0 ⟨0, hn⟩).mpr (Nat.zero_mod _)) (iblk4 V c 0 ⟨0, hn⟩) (iblk4 V c 1 ⟨0, hn⟩),
      out4_A_3 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) ((hcond4_0 ⟨0, hn⟩).mpr (Nat.zero_mod _)) (iblk4 V c 0 ⟨0, hn⟩) (iblk4 V c 1 ⟨0, hn⟩),
      out4_A_4 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) ((hcond4_0 ⟨0, hn⟩).mpr (Nat.zero_mod _)) (iblk4 V c 0 ⟨0, hn⟩) (iblk4 V c 1 ⟨0, hn⟩))
  | n + 1, hn =>
    if h0 : (n + 1) % 25 = 0 then
      (out4_A_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) ((hcond4_0 ⟨n + 1, hn⟩).mpr h0) (iblk4 V c 0 ⟨n + 1, hn⟩) (iblk4 V c 1 ⟨n + 1, hn⟩),
      out4_A_3 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) ((hcond4_0 ⟨n + 1, hn⟩).mpr h0) (iblk4 V c 0 ⟨n + 1, hn⟩) (iblk4 V c 1 ⟨n + 1, hn⟩),
      out4_A_4 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) ((hcond4_0 ⟨n + 1, hn⟩).mpr h0) (iblk4 V c 0 ⟨n + 1, hn⟩) (iblk4 V c 1 ⟨n + 1, hn⟩))
    else
      (out4_B_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (fun h => h0 ((hcond4_0 ⟨n + 1, hn⟩).mp h)) (iblk4 V c 0 ⟨n + 1, hn⟩) (iblk4 V c 1 ⟨n + 1, hn⟩) (outsAt4 c n (Nat.lt_of_succ_lt hn)).2.1 (outsAt4 c n (Nat.lt_of_succ_lt hn)).2.2,
      out4_B_3 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (fun h => h0 ((hcond4_0 ⟨n + 1, hn⟩).mp h)) (iblk4 V c 0 ⟨n + 1, hn⟩) (iblk4 V c 1 ⟨n + 1, hn⟩) (outsAt4 c n (Nat.lt_of_succ_lt hn)).2.1 (outsAt4 c n (Nat.lt_of_succ_lt hn)).2.2,
      out4_B_4 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (fun h => h0 ((hcond4_0 ⟨n + 1, hn⟩).mp h)) (iblk4 V c 0 ⟨n + 1, hn⟩) (iblk4 V c 1 ⟨n + 1, hn⟩) (outsAt4 c n (Nat.lt_of_succ_lt hn)).2.1 (outsAt4 c n (Nat.lt_of_succ_lt hn)).2.2)

/-- `outsAt4` at the first point: the reset case's contents. -/
theorem outsAt4_A (c : Dev nD) (t : Fin cfg4.N) (h0 : t.val % 25 = 0) :
    outsAt4 V c t.val t.isLt = (out4_A_2 c (grid4.coords t) (ms4_0 t) (hs4_0 t) (ms4_1 t) (hs4_1 t) (ms4_2 t) (hs4_2 t) (ms4_3 t) (hs4_3 t) (ms4_4 t) (hs4_4 t) ((hcond4_0 t).mpr h0) (iblk4 V c 0 t) (iblk4 V c 1 t),
      out4_A_3 c (grid4.coords t) (ms4_0 t) (hs4_0 t) (ms4_1 t) (hs4_1 t) (ms4_2 t) (hs4_2 t) (ms4_3 t) (hs4_3 t) (ms4_4 t) (hs4_4 t) ((hcond4_0 t).mpr h0) (iblk4 V c 0 t) (iblk4 V c 1 t),
      out4_A_4 c (grid4.coords t) (ms4_0 t) (hs4_0 t) (ms4_1 t) (hs4_1 t) (ms4_2 t) (hs4_2 t) (ms4_3 t) (hs4_3 t) (ms4_4 t) (hs4_4 t) ((hcond4_0 t).mpr h0) (iblk4 V c 0 t) (iblk4 V c 1 t)) := by
  obtain ⟨n, hn⟩ := t
  cases n with
  | zero => exact rfl
  | succ n => exact (dif_pos h0).trans rfl

/-- `outsAt4` at a later point: the accumulating case's contents, over what the point before left. -/
theorem outsAt4_B (c : Dev nD) (t : Fin cfg4.N) (h0 : ¬t.val % 25 = 0) :
    outsAt4 V c t.val t.isLt = (out4_B_2 c (grid4.coords t) (ms4_0 t) (hs4_0 t) (ms4_1 t) (hs4_1 t) (ms4_2 t) (hs4_2 t) (ms4_3 t) (hs4_3 t) (ms4_4 t) (hs4_4 t) (fun h => h0 ((hcond4_0 t).mp h)) (iblk4 V c 0 t) (iblk4 V c 1 t) (outsAt4 V c (t.val - 1) (Nat.lt_of_le_of_lt (Nat.sub_le _ _) t.isLt)).2.1 (outsAt4 V c (t.val - 1) (Nat.lt_of_le_of_lt (Nat.sub_le _ _) t.isLt)).2.2,
      out4_B_3 c (grid4.coords t) (ms4_0 t) (hs4_0 t) (ms4_1 t) (hs4_1 t) (ms4_2 t) (hs4_2 t) (ms4_3 t) (hs4_3 t) (ms4_4 t) (hs4_4 t) (fun h => h0 ((hcond4_0 t).mp h)) (iblk4 V c 0 t) (iblk4 V c 1 t) (outsAt4 V c (t.val - 1) (Nat.lt_of_le_of_lt (Nat.sub_le _ _) t.isLt)).2.1 (outsAt4 V c (t.val - 1) (Nat.lt_of_le_of_lt (Nat.sub_le _ _) t.isLt)).2.2,
      out4_B_4 c (grid4.coords t) (ms4_0 t) (hs4_0 t) (ms4_1 t) (hs4_1 t) (ms4_2 t) (hs4_2 t) (ms4_3 t) (hs4_3 t) (ms4_4 t) (hs4_4 t) (fun h => h0 ((hcond4_0 t).mp h)) (iblk4 V c 0 t) (iblk4 V c 1 t) (outsAt4 V c (t.val - 1) (Nat.lt_of_le_of_lt (Nat.sub_le _ _) t.isLt)).2.1 (outsAt4 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-! ## The pipeline's proof data -/

/-- The proof data of pipeline 4 on core `c`: the arrays as the region finds them (`V`); after the body at point
    `t` each input's buffer at its block and the outputs' at `outsAt4`'s components; the invariant the scoped rest
    and the generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => (outsAt4 V c t.val t.isLt).1
    | ⟨3, _⟩ => (outsAt4 V c t.val t.isLt).2.1
    | ⟨4, _⟩ => (outsAt4 V c t.val t.isLt).2.2
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = (outsAt4 V c t.val t.isLt).1 := by dsimp only [dat4]
theorem after4_3 (c : Dev nD) (t : Fin cfg4.N) : (dat4 V c).after 3 t = (outsAt4 V c t.val t.isLt).2.1 := by dsimp only [dat4]
theorem after4_4 (c : Dev nD) (t : Fin cfg4.N) : (dat4 V c).after 4 t = (outsAt4 V c t.val t.isLt).2.2 := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-- At a later point the column sums' staging buffer holds what the body left at the point before: the point is not
    the first and the buffer was not written back in between (it is written back after the last point only). -/
theorem before4_3_B (c : Dev nD) (t : Fin cfg4.N) (h0 : ¬t.val % 25 = 0) (d) :
    (dat4 V c).before 3 t d = (outsAt4 V c (t.val - 1) (Nat.lt_of_le_of_lt (Nat.sub_le _ _) t.isLt)).2.1 := by
  have hN : t.val < 25 := lt_of_lt_of_eq t.isLt (show cfg4.N = 25 from N_4)
  rw [Dat.before_out_kept _ 3 rfl t (by omega) (Bool.eq_false_iff.mpr fun h => by have := (flush4_3 _).mp h; dsimp only at this; omega)
    (fun _ => rfl) (fun _ _ => rfl)]
  dsimp only [dat4]

/-- Likewise the column sums of squares'. -/
theorem before4_4_B (c : Dev nD) (t : Fin cfg4.N) (h0 : ¬t.val % 25 = 0) (d) :
    (dat4 V c).before 4 t d = (outsAt4 V c (t.val - 1) (Nat.lt_of_le_of_lt (Nat.sub_le _ _) t.isLt)).2.2 := by
  have hN : t.val < 25 := lt_of_lt_of_eq t.isLt (show cfg4.N = 25 from N_4)
  rw [Dat.before_out_kept _ 4 rfl t (by omega) (Bool.eq_false_iff.mpr fun h => by have := (flush4_4 _).mp h; dsimp only at this; omega)
    (fun _ => rfl) (fun _ _ => rfl)]
  dsimp only [dat4]

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d)))

/-- and what it returns. -/
def bodyPost4 (c : Dev nD) (t : Fin cfg4.N) : sProp 𝕄 :=
  iprop((dat4 V c).Φ t.succ ∗ (dat4 V c).owesAt () t.succ
    ∗ owns (c : Thread nD τ) (ms4_0 t) fullShare ((dat4 V c).after 0 t)
    ∗ owns (c : Thread nD τ) (ms4_1 t) fullShare ((dat4 V c).after 1 t)
    ∗ owns (c : Thread nD τ) (ms4_2 t) fullShare ((dat4 V c).after 2 t)
    ∗ owns (c : Thread nD τ) (ms4_3 t) fullShare ((dat4 V c).after 3 t)
    ∗ owns (c : Thread nD τ) (ms4_4 t) fullShare ((dat4 V c).after 4 t))

set_option maxHeartbeats 2000000 in
/-- The body at any point: the inputs' memrefs hold their blocks; the closed form says which case the point is in;
    at a later point the two statistics rows hold what the point before left; so the case's run applies. The
    invariant passes through unread; the core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2, after4_3, after4_4]
  have hN : t.val < 25 := lt_of_lt_of_eq t.isLt (show cfg4.N = 25 from N_4)
  by_cases h0 : t.val % 25 = 0
  · rw [outsAt4_A V c t h0]
    unfold out4_A_2 out4_A_3 out4_A_4; (try dsimp only)
    iintro ⟨HΦ, Ho, ⟨%d0, H0⟩, ⟨%d1, H1⟩, ⟨%d2, H2⟩, ⟨%d3, H3⟩, ⟨%d4, H4⟩⟩
    iapply ((kernelRun4_A c (grid4.coords t) _ _ _ _ _ _ _ _ _ _ ((hcond4_0 t).mpr h0) (iblk4 V c 0 t) (iblk4 V c 1 t)).2.2.2 Set.univ _)
    isplitl [H0]; · iexact H0
    isplitl [H1]; · iexact H1
    isplitl [H2]; · iexists _; iexact H2
    isplitl [H3]; · iexists _; iexact H3
    isplitl [H4]; · iexists _; iexact H4
    iintro ⟨H0, H1, ⟨%e2, H2⟩, ⟨%e3, H3⟩, ⟨%e4, H4⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover4_A_2 c _ _ _ _ _ _ _ _ _ _ _ _ _ _)
    isplitl [H3]
    · unfold owns; iexists _; isplitr
      swap; · iexact H3
      ipureintro; exact View.read_writes_of_cover _ _ _ _ _ (cover4_A_3 c _ _ _ _ _ _ _ _ _ _ _ _ _ _)
    unfold owns; iexists _; isplitr
    swap; · iexact H4
    ipureintro; exact View.read_writes_of_cover _ _ _ _ _ (cover4_A_4 c _ _ _ _ _ _ _ _ _ _ _ _ _ _)
  · rw [outsAt4_B V c t h0]
    simp only [before4_3_B V c t h0, before4_4_B V c t h0]
    unfold out4_B_2 out4_B_3 out4_B_4; (try dsimp only)
    iintro ⟨HΦ, Ho, ⟨%d0, H0⟩, ⟨%d1, H1⟩, ⟨%d2, H2⟩, ⟨%d3, H3⟩, ⟨%d4, H4⟩⟩
    iapply ((kernelRun4_B c (grid4.coords t) _ _ _ _ _ _ _ _ _ _ (fun h => h0 ((hcond4_0 t).mp h)) (iblk4 V c 0 t) (iblk4 V c 1 t) _ _).2.2.2 Set.univ _)
    isplitl [H0]; · iexact H0
    isplitl [H1]; · iexact H1
    isplitl [H2]; · iexists _; iexact H2
    isplitl [H3]; · iexact H3
    isplitl [H4]; · iexact H4
    iintro ⟨H0, H1, ⟨%e2, H2⟩, ⟨%e3, H3⟩, ⟨%e4, H4⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover4_B_2 c _ _ _ _ _ _ _ _ _ _ _ _ _ _ _ _)
    isplitl [H3]
    · unfold owns; iexists _; isplitr
      swap; · iexact H3
      ipureintro; exact View.read_writes_of_cover _ _ _ _ _ (cover4_B_3 c _ _ _ _ _ _ _ _ _ _ _ _ _ _ _ _)
    unfold owns; iexists _; isplitr
    swap; · iexact H4
    ipureintro; exact View.read_writes_of_cover _ _ _ _ _ (cover4_B_4 c _ _ _ _ _ _ _ _ _ _ _ _ _ _ _ _)

/-- The library's body obligation, at every point. -/
theorem body_obligation4 (c : Dev nD) : BodyObligation (dat4 (F := F) V c) (defs₀ (F := F)) Variants.none () Set.univ := fun t => by
  rw [bigSep_W4, bigSep_W4]
  exact sound_body4 V c t

end Region

end Cert.KernelIdeal.Hand

end
-- ==== Proof.RegionA5.lean ====
/-
  The normalization region 5: at grid point t the body reads a [2000, 64] row block of the rectified activations and
  the four [1, 64] rows (mean, variance, gain, offset) and leaves (z - mean) * rsqrt(variance + eps) * gain + offset in
  the output block. Stated at the buffer contents V the region is entered with.
-/
import proofs.«100384_j8693013807615_2_alg».proof.Proof.Gen.KernelIdeal.Launch
import proofs.«100384_j8693013807615_2_alg».proof.Proof.Gen.KernelIdeal.Skeleton
import proofs.«100384_j8693013807615_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's staging buffer holds its block at every point, fetched there or not. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's staging buffer holds its block at every point, fetched there or not. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's staging buffer holds its block at every point, fetched there or not. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's staging buffer holds its block at every point, fetched there or not. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's staging buffer holds its block at every point, fetched there or not. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

abbrev r5_z : Rect S2000x64 := Rect.unit (s := S2000x64) ![0, 0] S2000x64.size inb_S2000x64_S2000x64_0_0
abbrev r5_r : Rect S1x64 := Rect.unit (s := S1x64) ![0, 0] S1x64.size inb_S1x64_S1x64_0_0

/-- The output block after the body: one whole-block store of the normalized block. -/
def out5_5 (x0 : Vec F S2000x64 .f32) (x1 x2 x3 x4 : Vec F S1x64 .f32) : Vec F S2000x64 .f32 :=
  View.canon [⟨r5_z, k5_pay1 (View.ld x2 r5_r) (View.ld x0 r5_z) (View.ld x1 r5_r) (View.ld x3 r5_r) (View.ld x4 r5_r)⟩]

theorem cover5_5 (p0 : Vec F S2000x64 .f32) (y : S2000x64.Idx) :
    ∃ pc ∈ ([⟨r5_z, p0⟩] : List (View.Piece (Elt F) S2000x64 .f32)), y ∈ pc.1.set :=
  View.cover_of_tiled [⟨r5_z, p0⟩] S2000x64.size (by rfl) y

set_option maxHeartbeats 1000000 in
/-- The body on whole staging memrefs: the five inputs keep their contents, the output ends at the normalized block. -/
theorem sound_kernel5 (c : Dev nD) (E : Set ℕ) (i : grid5.Coords)
    (arg1 : Memref sig .tc .vmem S2000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S2000x64 .f32) (harg6 : arg6.IsWhole)
    (x0 : Vec F S2000x64 .f32) (x1 x2 x3 x4 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out5_5 x0 x1 x2 x3 x4)) -∗ K ⟨⟩))
      ⊢ wp frame (wpE (defs₀ (F := F)) Variants.none c none) E (cc5__bn_apply_kernel i arg1 harg1 arg2 harg2 arg3 harg3 arg4 harg4 arg5 harg5 arg6 harg6) K := by
  simp only [cc5__bn_apply_kernel_eq_skeleton]; unfold cc5__bn_apply_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0
  subst hf1
  subst hf2
  subst hf3
  subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

/-- The pipeline's proof data on core c: the arrays as the region finds them; after the body at point t each input's
    buffer at its block and the output's at the normalized block; the class invariant; nothing owed. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = out5_5 (iblk5 V c 0 t) (iblk5 V c 1 t) (iblk5 V c 2 t) (iblk5 V c 3 t) (iblk5 V c 4 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ _ _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.RegionA6.lean ====
/-
  The dense-transform region 6: at grid point t the body reads the [2000, ·] row block of the activations and the
  whole weight matrix, and leaves their product in the output block. Stated at the buffer contents V the region is
  entered with: the windows' blocks, the body's triple, the pipeline's proof data and the body obligation.
-/
import proofs.«100384_j8693013807615_2_alg».proof.Proof.Gen.KernelIdeal.Launch
import proofs.«100384_j8693013807615_2_alg».proof.Proof.Gen.KernelIdeal.Skeleton
import proofs.«100384_j8693013807615_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The activations' staging buffer holds the point's row block, fetched there or not. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- The weights' staging buffer holds the whole matrix at every point (its block index never moves). -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

abbrev r6_z : Rect S2000x64 := Rect.unit (s := S2000x64) ![0, 0] S2000x64.size inb_S2000x64_S2000x64_0_0
abbrev r6_w : Rect S64x64 := Rect.unit (s := S64x64) ![0, 0] S64x64.size inb_S64x64_S64x64_0_0
abbrev r6_o : Rect S2000x64 := Rect.unit (s := S2000x64) ![0, 0] S2000x64.size inb_S2000x64_S2000x64_0_0

/-- The output block after the body: its one whole-block store of the product of the two loaded blocks. -/
def out6_2 (x0 : Vec F S2000x64 .f32) (x1 : Vec F S64x64 .f32) : Vec F S2000x64 .f32 :=
  View.canon [⟨r6_o, k6_pay1 (View.ld x0 r6_z) (View.ld x1 r6_w)⟩]

theorem cover6_2 (p0 : Vec F S2000x64 .f32) (y : S2000x64.Idx) :
    ∃ pc ∈ ([⟨r6_o, p0⟩] : List (View.Piece (Elt F) S2000x64 .f32)), y ∈ pc.1.set :=
  View.cover_of_tiled [⟨r6_o, p0⟩] S2000x64.size (by rfl) y

set_option maxHeartbeats 1000000 in
/-- The body on whole staging memrefs: the two inputs keep their contents, the output ends at the product. -/
theorem sound_kernel6 (c : Dev nD) (E : Set ℕ) (i : grid6.Coords)
    (arg1 : Memref sig .tc .vmem S2000x64 .f32) (harg1 : arg1.IsWhole) (arg2 : Memref sig .tc .vmem S64x64 .f32) (harg2 : arg2.IsWhole)
    (arg3 : Memref sig .tc .vmem S2000x64 .f32) (harg3 : arg3.IsWhole)
    (x0 : Vec F S2000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out6_2 x0 x1)) -∗ K ⟨⟩))
      ⊢ wp frame (wpE (defs₀ (F := F)) Variants.none c none) E (cc6__matmul_kernel i arg1 harg1 arg2 harg2 arg3 harg3) K := by
  simp only [cc6__matmul_kernel_eq_skeleton]; unfold cc6__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover6_2 _)

/-- The pipeline's proof data on core c: the arrays as the region finds them; after the body at point t each input's
    buffer at its block and the output's at the product of the two blocks; the class invariant; nothing owed. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = out6_2 (iblk6 V c 0 t) (iblk6 V c 1 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t))

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).Φ t.succ = (dat6 V c).Φ t.castSucc from rfl,
    show (dat6 V c).owesAt () t.succ = (dat6 V c).owesAt () t.castSucc from rfl,
    after6_0, after6_1, after6_2]
  iintro ⟨HΦ, Ho, ⟨%d0, H0⟩, ⟨%d1, H1⟩, ⟨%d2, H2⟩⟩
  iapply (sound_kernel6 c Set.univ _ _ _ _ _ _ _ (iblk6 V c 0 t) (iblk6 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation6 (c : Dev nD) : BodyObligation (dat6 (F := F) V c) (defs₀ (F := F)) Variants.none () Set.univ := fun t => by
  rw [bigSep_W6, bigSep_W6]
  exact sound_body6 V c t

end Cert.KernelIdeal.Hand

end
-- ==== Proof.RegionStats7Runs.lean ====
/- The bias + rectifier + running-statistics region (pipeline 7), stated at the buffer contents `V` the region
   is entered with: the windows' blocks, the input windows' staging contents at every point, the body's one
   branch condition in closed form, and the staging memrefs the body is called with. Shared by the two
   whole-body runs (the first grid point, which zeroes the two accumulators, and every later point). -/
import proofs.«100384_j8693013807615_2_alg».proof.Proof.Gen.KernelIdeal.Launch
import proofs.«100384_j8693013807615_2_alg».proof.Proof.Gen.KernelIdeal.Skeleton
import proofs.«100384_j8693013807615_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-! ## The windows' blocks -/

/-- Window `w`'s block at point `t`, read off its array as the region finds it (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0 (the aggregate's row block) holds its block at every point, for any proof data whose array is
    `V`'s and whose body leaves the block in place. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1 (the bias row; one block, fetched once) holds its block at every point, fetched there or not:
    unfetched, its block index has not moved. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

end Region

/-! ## The body's branch condition -/

/-- The condition of the body's one conditional (the accumulators' reset), from the grid coordinates. -/
abbrev cond7_0 (i : grid7.Coords) : Prop := (Scalar.cmpi .ne (Scalar.extui (Scalar.cmpi .eq (BitVec.ofNat 32 (i 0).val) 0#32)) 0#32) = 1#1
/-- It holds at the first point only — decided over the grid's 25 points. -/
theorem hcond7_0 : ∀ t : Fin cfg7.N, cond7_0 (grid7.coords t) ↔ t.val % 25 = 0 :=
  (by decide +kernel : ∀ t : Fin grid7.N, cond7_0 (grid7.coords t) ↔ t.val % 25 = 0)

/-! ## The staging memrefs -/

/-- One staging buffer of each output window, through which its contents are stated (the choice does not matter). -/
abbrev VO7_2 : View sig .tc .vmem S2000x64 .f32 := (Memref.whole cc7_stg2_0 : Memref sig .tc .vmem S2000x64 .f32).view
abbrev VO7_3 : View sig .tc .vmem S1x64 .f32 := (Memref.whole cc7_stg3_0 : Memref sig .tc .vmem S1x64 .f32).view
abbrev VO7_4 : View sig .tc .vmem S1x64 .f32 := (Memref.whole cc7_stg4_0 : Memref sig .tc .vmem S1x64 .f32).view
/-- Each window's current staging memref at point `t`, spelled as the pipeline passes it (`bodyAt7`), and its wholeness. -/
abbrev ms7_0 (t : Fin cfg7.N) : Memref sig .tc .vmem S2000x64 .f32 := win7_0.stage (cfg7.slots t 0)
abbrev hs7_0 (t : Fin cfg7.N) : (ms7_0 t).IsWhole := hstage7_0 ((cfg7.slots t 0).cast nbuf7_0)
abbrev ms7_1 (t : Fin cfg7.N) : Memref sig .tc .vmem S1x64 .f32 := win7_1.stage (cfg7.slots t 1)
abbrev hs7_1 (t : Fin cfg7.N) : (ms7_1 t).IsWhole := hstage7_1 ((cfg7.slots t 1).cast nbuf7_1)
abbrev ms7_2 (t : Fin cfg7.N) : Memref sig .tc .vmem S2000x64 .f32 := win7_2.stage (cfg7.slots t 2)
abbrev hs7_2 (t : Fin cfg7.N) : (ms7_2 t).IsWhole := hstage7_2 ((cfg7.slots t 2).cast nbuf7_2)
abbrev ms7_3 (t : Fin cfg7.N) : Memref sig .tc .vmem S1x64 .f32 := win7_3.stage (cfg7.slots t 3)
abbrev hs7_3 (t : Fin cfg7.N) : (ms7_3 t).IsWhole := hstage7_3 ((cfg7.slots t 3).cast nbuf7_3)
abbrev ms7_4 (t : Fin cfg7.N) : Memref sig .tc .vmem S1x64 .f32 := win7_4.stage (cfg7.slots t 4)
abbrev hs7_4 (t : Fin cfg7.N) : (ms7_4 t).IsWhole := hstage7_4 ((cfg7.slots t 4).cast nbuf7_4)

end Cert.KernelIdeal.Hand

end
-- ==== Proof.RegionStats7RunA.lean ====
/- The whole-body run of the bias + rectifier + running-statistics kernel at the FIRST grid point: the reset
   is taken, so both accumulators are zeroed, read back, and the point's column sums added. -/
import proofs.«100384_j8693013807615_2_alg».proof.Proof.RegionStats7Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in each output's staging memref, as pieces (last first), at the first point
    (the reset taken), with the proof that on whole staging memrefs — the inputs' at their contents `x0`, `x1`, the
    outputs' at anything — the body runs to the continuation holding the inputs' as they were and each output's
    buffer with its pieces written. The pieces are found by the run. -/
noncomputable def kernelRun7_A (c : Dev nD) (i : grid7.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (hc0 : cond7_0 i)
    (x0 : Vec F S2000x64 .f32) (x1 : Vec F S1x64 .f32) :
    Σ' (L2 : List (View.Piece (Elt F) S2000x64 .f32)), Σ' (L3 : List (View.Piece (Elt F) S1x64 .f32)), { L4 : List (View.Piece (Elt F) S1x64 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4)) -∗ K ⟨⟩))
          ⊢ wp frame (wpE (defs₀ (F := F)) Variants.none c none) E (cc7__bias_relu_stats_kernel i arg1 harg1 arg2 harg2 arg3 harg3 arg4 harg4 arg5 harg5) K } := by
  refine ⟨?_, ?_, ?_, fun E K => ?run⟩
  case run =>
    simp only [cc7__bias_relu_stats_kernel_eq_skeleton]; unfold cc7__bias_relu_stats_kernel_skel
    unfold owns
    iintro ⟨⟨%f0, %hf0, H0⟩, ⟨%f1, %hf1, H1⟩, ⟨%d2, %f2, -, H2⟩, ⟨%d3, %f3, -, H3⟩, ⟨%d4, %f4, -, H4⟩, Hk⟩
    obtain rfl := harg1.eq_unread hf0; obtain rfl := harg2.eq_unread hf1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; iexact H2
    isplitl [H3]
    · iexists _; iexact H3
    iexists _; iexact H4

end Cert.KernelIdeal.Hand

end
-- ==== Proof.RegionStats7RunB.lean ====
/- The whole-body run of the bias + rectifier + running-statistics kernel at a LATER grid point: the reset is
   not taken, so the two accumulators are read at their running contents and the point's column sums added. -/
import proofs.«100384_j8693013807615_2_alg».proof.Proof.RegionStats7RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in each output's staging memref, as pieces (last first), at a point after the
    first (the reset not taken), with the proof that on whole staging memrefs — the inputs' at their contents `x0`,
    `x1`, the two accumulators' at their running contents `xo3`, `xo4`, the rectified block's at anything — the body
    runs to the continuation holding the inputs' as they were and each output's buffer with its pieces written. -/
noncomputable def kernelRun7_B (c : Dev nD) (i : grid7.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (hc0 : ¬cond7_0 i)
    (x0 : Vec F S2000x64 .f32) (x1 : Vec F S1x64 .f32) (xo3 : Vec F S1x64 .f32) (xo4 : Vec F S1x64 .f32) :
    Σ' (L2 : List (View.Piece (Elt F) S2000x64 .f32)), Σ' (L3 : List (View.Piece (Elt F) S1x64 .f32)), { L4 : List (View.Piece (Elt F) S1x64 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xo3 ∗ owns (c : Thread nD τ) arg5 fullShare xo4
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4)) -∗ K ⟨⟩))
          ⊢ wp frame (wpE (defs₀ (F := F)) Variants.none c none) E (cc7__bias_relu_stats_kernel i arg1 harg1 arg2 harg2 arg3 harg3 arg4 harg4 arg5 harg5) K } := by
  refine ⟨?_, ?_, ?_, fun E K => ?run⟩
  case run =>
    simp only [cc7__bias_relu_stats_kernel_eq_skeleton]; unfold cc7__bias_relu_stats_kernel_skel
    unfold owns
    iintro ⟨⟨%f0, %hf0, H0⟩, ⟨%f1, %hf1, H1⟩, ⟨%d2, %f2, -, H2⟩, ⟨%f3, %hf3, H3⟩, ⟨%f4, %hf4, H4⟩, Hk⟩
    obtain rfl := harg1.eq_unread hf0; obtain rfl := harg2.eq_unread hf1; obtain rfl := harg4.eq_unread hf3; obtain rfl := harg5.eq_unread hf4
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; iexact H2
    isplitl [H3]
    · iexists _; iexact H3
    iexists _; iexact H4

end Cert.KernelIdeal.Hand

end
-- ==== Proof.RegionStats7.lean ====
/- The bias + rectifier + running-statistics region (pipeline 7) at the entry contents `V`: what each output's
   staging buffer holds after every grid point — the rectified block is rewritten at each point; the two
   statistics rows are zeroed at the first point and accumulated across the grid, their buffers never written
   back in between —, the pipeline's proof data over those contents, and the body obligation at every point. -/
import proofs.«100384_j8693013807615_2_alg».proof.Proof.RegionStats7RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The covers, and what each case leaves -/

/-- The pieces the first point leaves in output 2 (the rectified block) tile its block, so they cover it. -/
theorem cover7_A_2 (c : Dev nD) (i : grid7.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (hc0 : cond7_0 i)
    (x0 : Vec F S2000x64 .f32) (x1 : Vec F S1x64 .f32) (y : S2000x64.Idx) :
    ∃ pc ∈ (kernelRun7_A c i arg1 harg1 arg2 harg2 arg3 harg3 arg4 harg4 arg5 harg5 hc0 x0 x1).1, y ∈ pc.1.set :=
  View.cover_of_tiledL (kernelRun7_A c i arg1 harg1 arg2 harg2 arg3 harg3 arg4 harg4 arg5 harg5 hc0 x0 x1).1 S2000x64.size (by sl_kernel_rfl) y

/-- What that case leaves in output 2's staging buffer: its pieces read back over anything. -/
def out7_A_2 (c : Dev nD) (i : grid7.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (hc0 : cond7_0 i)
    (x0 : Vec F S2000x64 .f32) (x1 : Vec F S1x64 .f32) : Vec F S2000x64 .f32 :=
  VO7_2.read (Elt F) (VO7_2.writes (Elt F) VO7_2.junk (kernelRun7_A c i arg1 harg1 arg2 harg2 arg3 harg3 arg4 harg4 arg5 harg5 hc0 x0 x1).1)

/-- The pieces the first point leaves in output 3 (the column sums) tile its block, so they cover it. -/
theorem cover7_A_3 (c : Dev nD) (i : grid7.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (hc0 : cond7_0 i)
    (x0 : Vec F S2000x64 .f32) (x1 : Vec F S1x64 .f32) (y : S1x64.Idx) :
    ∃ pc ∈ (kernelRun7_A c i arg1 harg1 arg2 harg2 arg3 harg3 arg4 harg4 arg5 harg5 hc0 x0 x1).2.1, y ∈ pc.1.set :=
  View.cover_of_tiledL (kernelRun7_A c i arg1 harg1 arg2 harg2 arg3 harg3 arg4 harg4 arg5 harg5 hc0 x0 x1).2.1 S1x64.size (by sl_kernel_rfl) y

/-- What that case leaves in output 3's staging buffer: its pieces read back over anything. -/
def out7_A_3 (c : Dev nD) (i : grid7.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (hc0 : cond7_0 i)
    (x0 : Vec F S2000x64 .f32) (x1 : Vec F S1x64 .f32) : Vec F S1x64 .f32 :=
  VO7_3.read (Elt F) (VO7_3.writes (Elt F) VO7_3.junk (kernelRun7_A c i arg1 harg1 arg2 harg2 arg3 harg3 arg4 harg4 arg5 harg5 hc0 x0 x1).2.1)

/-- The pieces the first point leaves in output 4 (the column sums of squares) tile its block, so they cover it. -/
theorem cover7_A_4 (c : Dev nD) (i : grid7.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (hc0 : cond7_0 i)
    (x0 : Vec F S2000x64 .f32) (x1 : Vec F S1x64 .f32) (y : S1x64.Idx) :
    ∃ pc ∈ (kernelRun7_A c i arg1 harg1 arg2 harg2 arg3 harg3 arg4 harg4 arg5 harg5 hc0 x0 x1).2.2.1, y ∈ pc.1.set :=
  View.cover_of_tiledL (kernelRun7_A c i arg1 harg1 arg2 harg2 arg3 harg3 arg4 harg4 arg5 harg5 hc0 x0 x1).2.2.1 S1x64.size (by sl_kernel_rfl) y

/-- What that case leaves in output 4's staging buffer: its pieces read back over anything. -/
def out7_A_4 (c : Dev nD) (i : grid7.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (hc0 : cond7_0 i)
    (x0 : Vec F S2000x64 .f32) (x1 : Vec F S1x64 .f32) : Vec F S1x64 .f32 :=
  VO7_4.read (Elt F) (VO7_4.writes (Elt F) VO7_4.junk (kernelRun7_A c i arg1 harg1 arg2 harg2 arg3 harg3 arg4 harg4 arg5 harg5 hc0 x0 x1).2.2.1)

/-- The pieces the later points leave in output 2 (the rectified block) tile its block, so they cover it. -/
theorem cover7_B_2 (c : Dev nD) (i : grid7.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (hc0 : ¬cond7_0 i)
    (x0 : Vec F S2000x64 .f32) (x1 : Vec F S1x64 .f32) (xo3 : Vec F S1x64 .f32) (xo4 : Vec F S1x64 .f32) (y : S2000x64.Idx) :
    ∃ pc ∈ (kernelRun7_B c i arg1 harg1 arg2 harg2 arg3 harg3 arg4 harg4 arg5 harg5 hc0 x0 x1 xo3 xo4).1, y ∈ pc.1.set :=
  View.cover_of_tiledL (kernelRun7_B c i arg1 harg1 arg2 harg2 arg3 harg3 arg4 harg4 arg5 harg5 hc0 x0 x1 xo3 xo4).1 S2000x64.size (by sl_kernel_rfl) y

/-- What that case leaves in output 2's staging buffer: its pieces read back over anything. -/
def out7_B_2 (c : Dev nD) (i : grid7.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (hc0 : ¬cond7_0 i)
    (x0 : Vec F S2000x64 .f32) (x1 : Vec F S1x64 .f32) (xo3 : Vec F S1x64 .f32) (xo4 : Vec F S1x64 .f32) : Vec F S2000x64 .f32 :=
  VO7_2.read (Elt F) (VO7_2.writes (Elt F) VO7_2.junk (kernelRun7_B c i arg1 harg1 arg2 harg2 arg3 harg3 arg4 harg4 arg5 harg5 hc0 x0 x1 xo3 xo4).1)

/-- The pieces the later points leave in output 3 (the column sums) tile its block, so they cover it. -/
theorem cover7_B_3 (c : Dev nD) (i : grid7.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (hc0 : ¬cond7_0 i)
    (x0 : Vec F S2000x64 .f32) (x1 : Vec F S1x64 .f32) (xo3 : Vec F S1x64 .f32) (xo4 : Vec F S1x64 .f32) (y : S1x64.Idx) :
    ∃ pc ∈ (kernelRun7_B c i arg1 harg1 arg2 harg2 arg3 harg3 arg4 harg4 arg5 harg5 hc0 x0 x1 xo3 xo4).2.1, y ∈ pc.1.set :=
  View.cover_of_tiledL (kernelRun7_B c i arg1 harg1 arg2 harg2 arg3 harg3 arg4 harg4 arg5 harg5 hc0 x0 x1 xo3 xo4).2.1 S1x64.size (by sl_kernel_rfl) y

/-- What that case leaves in output 3's staging buffer: its pieces read back over anything. -/
def out7_B_3 (c : Dev nD) (i : grid7.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (hc0 : ¬cond7_0 i)
    (x0 : Vec F S2000x64 .f32) (x1 : Vec F S1x64 .f32) (xo3 : Vec F S1x64 .f32) (xo4 : Vec F S1x64 .f32) : Vec F S1x64 .f32 :=
  VO7_3.read (Elt F) (VO7_3.writes (Elt F) VO7_3.junk (kernelRun7_B c i arg1 harg1 arg2 harg2 arg3 harg3 arg4 harg4 arg5 harg5 hc0 x0 x1 xo3 xo4).2.1)

/-- The pieces the later points leave in output 4 (the column sums of squares) tile its block, so they cover it. -/
theorem cover7_B_4 (c : Dev nD) (i : grid7.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (hc0 : ¬cond7_0 i)
    (x0 : Vec F S2000x64 .f32) (x1 : Vec F S1x64 .f32) (xo3 : Vec F S1x64 .f32) (xo4 : Vec F S1x64 .f32) (y : S1x64.Idx) :
    ∃ pc ∈ (kernelRun7_B c i arg1 harg1 arg2 harg2 arg3 harg3 arg4 harg4 arg5 harg5 hc0 x0 x1 xo3 xo4).2.2.1, y ∈ pc.1.set :=
  View.cover_of_tiledL (kernelRun7_B c i arg1 harg1 arg2 harg2 arg3 harg3 arg4 harg4 arg5 harg5 hc0 x0 x1 xo3 xo4).2.2.1 S1x64.size (by sl_kernel_rfl) y

/-- What that case leaves in output 4's staging buffer: its pieces read back over anything. -/
def out7_B_4 (c : Dev nD) (i : grid7.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (hc0 : ¬cond7_0 i)
    (x0 : Vec F S2000x64 .f32) (x1 : Vec F S1x64 .f32) (xo3 : Vec F S1x64 .f32) (xo4 : Vec F S1x64 .f32) : Vec F S1x64 .f32 :=
  VO7_4.read (Elt F) (VO7_4.writes (Elt F) VO7_4.junk (kernelRun7_B c i arg1 harg1 arg2 harg2 arg3 harg3 arg4 harg4 arg5 harg5 hc0 x0 x1 xo3 xo4).2.2.1)

section Region
variable (V : (c : Dev nD) → (b : Ref sig .tc) → Buf (Elt F) ((c : Thread nD τ).loc b))

/-! ## What the outputs hold after each point -/

/-- THE ACCUMULATION. What the three outputs' staging buffers hold after the body at position `n` (the
    rectified block, the column sums, the column sums of squares): at the first point the reset case on the
    point's input blocks; at a later point the accumulating case on the point's input blocks over what this
    leaves in the two statistics rows at `n - 1` (their buffers are not written back in between). -/
def outsAt7 (c : Dev nD) : (n : ℕ) → n < cfg7.N → Vec F S2000x64 .f32 × Vec F S1x64 .f32 × Vec F S1x64 .f32
  | 0, hn => (out7_A_2 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) (ms7_4 ⟨0, hn⟩) (hs7_4 ⟨0, hn⟩) ((hcond7_0 ⟨0, hn⟩).mpr (Nat.zero_mod _)) (iblk7 V c 0 ⟨0, hn⟩) (iblk7 V c 1 ⟨0, hn⟩),
      out7_A_3 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) (ms7_4 ⟨0, hn⟩) (hs7_4 ⟨0, hn⟩) ((hcond7_0 ⟨0, hn⟩).mpr (Nat.zero_mod _)) (iblk7 V c 0 ⟨0, hn⟩) (iblk7 V c 1 ⟨0, hn⟩),
      out7_A_4 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) (ms7_4 ⟨0, hn⟩) (hs7_4 ⟨0, hn⟩) ((hcond7_0 ⟨0, hn⟩).mpr (Nat.zero_mod _)) (iblk7 V c 0 ⟨0, hn⟩) (iblk7 V c 1 ⟨0, hn⟩))
  | n + 1, hn =>
    if h0 : (n + 1) % 25 = 0 then
      (out7_A_2 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) ((hcond7_0 ⟨n + 1, hn⟩).mpr h0) (iblk7 V c 0 ⟨n + 1, hn⟩) (iblk7 V c 1 ⟨n + 1, hn⟩),
      out7_A_3 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) ((hcond7_0 ⟨n + 1, hn⟩).mpr h0) (iblk7 V c 0 ⟨n + 1, hn⟩) (iblk7 V c 1 ⟨n + 1, hn⟩),
      out7_A_4 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) ((hcond7_0 ⟨n + 1, hn⟩).mpr h0) (iblk7 V c 0 ⟨n + 1, hn⟩) (iblk7 V c 1 ⟨n + 1, hn⟩))
    else
      (out7_B_2 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (fun h => h0 ((hcond7_0 ⟨n + 1, hn⟩).mp h)) (iblk7 V c 0 ⟨n + 1, hn⟩) (iblk7 V c 1 ⟨n + 1, hn⟩) (outsAt7 c n (Nat.lt_of_succ_lt hn)).2.1 (outsAt7 c n (Nat.lt_of_succ_lt hn)).2.2,
      out7_B_3 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (fun h => h0 ((hcond7_0 ⟨n + 1, hn⟩).mp h)) (iblk7 V c 0 ⟨n + 1, hn⟩) (iblk7 V c 1 ⟨n + 1, hn⟩) (outsAt7 c n (Nat.lt_of_succ_lt hn)).2.1 (outsAt7 c n (Nat.lt_of_succ_lt hn)).2.2,
      out7_B_4 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (fun h => h0 ((hcond7_0 ⟨n + 1, hn⟩).mp h)) (iblk7 V c 0 ⟨n + 1, hn⟩) (iblk7 V c 1 ⟨n + 1, hn⟩) (outsAt7 c n (Nat.lt_of_succ_lt hn)).2.1 (outsAt7 c n (Nat.lt_of_succ_lt hn)).2.2)

/-- `outsAt7` at the first point: the reset case's contents. -/
theorem outsAt7_A (c : Dev nD) (t : Fin cfg7.N) (h0 : t.val % 25 = 0) :
    outsAt7 V c t.val t.isLt = (out7_A_2 c (grid7.coords t) (ms7_0 t) (hs7_0 t) (ms7_1 t) (hs7_1 t) (ms7_2 t) (hs7_2 t) (ms7_3 t) (hs7_3 t) (ms7_4 t) (hs7_4 t) ((hcond7_0 t).mpr h0) (iblk7 V c 0 t) (iblk7 V c 1 t),
      out7_A_3 c (grid7.coords t) (ms7_0 t) (hs7_0 t) (ms7_1 t) (hs7_1 t) (ms7_2 t) (hs7_2 t) (ms7_3 t) (hs7_3 t) (ms7_4 t) (hs7_4 t) ((hcond7_0 t).mpr h0) (iblk7 V c 0 t) (iblk7 V c 1 t),
      out7_A_4 c (grid7.coords t) (ms7_0 t) (hs7_0 t) (ms7_1 t) (hs7_1 t) (ms7_2 t) (hs7_2 t) (ms7_3 t) (hs7_3 t) (ms7_4 t) (hs7_4 t) ((hcond7_0 t).mpr h0) (iblk7 V c 0 t) (iblk7 V c 1 t)) := by
  obtain ⟨n, hn⟩ := t
  cases n with
  | zero => exact rfl
  | succ n => exact (dif_pos h0).trans rfl

/-- `outsAt7` at a later point: the accumulating case's contents, over what the point before left. -/
theorem outsAt7_B (c : Dev nD) (t : Fin cfg7.N) (h0 : ¬t.val % 25 = 0) :
    outsAt7 V c t.val t.isLt = (out7_B_2 c (grid7.coords t) (ms7_0 t) (hs7_0 t) (ms7_1 t) (hs7_1 t) (ms7_2 t) (hs7_2 t) (ms7_3 t) (hs7_3 t) (ms7_4 t) (hs7_4 t) (fun h => h0 ((hcond7_0 t).mp h)) (iblk7 V c 0 t) (iblk7 V c 1 t) (outsAt7 V c (t.val - 1) (Nat.lt_of_le_of_lt (Nat.sub_le _ _) t.isLt)).2.1 (outsAt7 V c (t.val - 1) (Nat.lt_of_le_of_lt (Nat.sub_le _ _) t.isLt)).2.2,
      out7_B_3 c (grid7.coords t) (ms7_0 t) (hs7_0 t) (ms7_1 t) (hs7_1 t) (ms7_2 t) (hs7_2 t) (ms7_3 t) (hs7_3 t) (ms7_4 t) (hs7_4 t) (fun h => h0 ((hcond7_0 t).mp h)) (iblk7 V c 0 t) (iblk7 V c 1 t) (outsAt7 V c (t.val - 1) (Nat.lt_of_le_of_lt (Nat.sub_le _ _) t.isLt)).2.1 (outsAt7 V c (t.val - 1) (Nat.lt_of_le_of_lt (Nat.sub_le _ _) t.isLt)).2.2,
      out7_B_4 c (grid7.coords t) (ms7_0 t) (hs7_0 t) (ms7_1 t) (hs7_1 t) (ms7_2 t) (hs7_2 t) (ms7_3 t) (hs7_3 t) (ms7_4 t) (hs7_4 t) (fun h => h0 ((hcond7_0 t).mp h)) (iblk7 V c 0 t) (iblk7 V c 1 t) (outsAt7 V c (t.val - 1) (Nat.lt_of_le_of_lt (Nat.sub_le _ _) t.isLt)).2.1 (outsAt7 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-! ## The pipeline's proof data -/

/-- The proof data of pipeline 7 on core `c`: the arrays as the region finds them (`V`); after the body at point
    `t` each input's buffer at its block and the outputs' at `outsAt7`'s components; the invariant the scoped rest
    and the generator register, untouched; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => (outsAt7 V c t.val t.isLt).1
    | ⟨3, _⟩ => (outsAt7 V c t.val t.isLt).2.1
    | ⟨4, _⟩ => (outsAt7 V c t.val t.isLt).2.2
  Φ _ := Pipeline.ΦA spec7 c
  q _ := fullShare
  owed _ := 0

/-- The proof data's arrays are the region-entry contents. -/
theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = (outsAt7 V c t.val t.isLt).1 := by dsimp only [dat7]
theorem after7_3 (c : Dev nD) (t : Fin cfg7.N) : (dat7 V c).after 3 t = (outsAt7 V c t.val t.isLt).2.1 := by dsimp only [dat7]
theorem after7_4 (c : Dev nD) (t : Fin cfg7.N) : (dat7 V c).after 4 t = (outsAt7 V c t.val t.isLt).2.2 := by dsimp only [dat7]

/-- Each input's current staging buffer holds its block at every point, fetched there or not. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d

/-- At a later point the column sums' staging buffer holds what the body left at the point before: the point is not
    the first and the buffer was not written back in between (it is written back after the last point only). -/
theorem before7_3_B (c : Dev nD) (t : Fin cfg7.N) (h0 : ¬t.val % 25 = 0) (d) :
    (dat7 V c).before 3 t d = (outsAt7 V c (t.val - 1) (Nat.lt_of_le_of_lt (Nat.sub_le _ _) t.isLt)).2.1 := by
  have hN : t.val < 25 := lt_of_lt_of_eq t.isLt (show cfg7.N = 25 from N_7)
  rw [Dat.before_out_kept _ 3 rfl t (by omega) (Bool.eq_false_iff.mpr fun h => by have := (flush7_3 _).mp h; dsimp only at this; omega)
    (fun _ => rfl) (fun _ _ => rfl)]
  dsimp only [dat7]

/-- Likewise the column sums of squares'. -/
theorem before7_4_B (c : Dev nD) (t : Fin cfg7.N) (h0 : ¬t.val % 25 = 0) (d) :
    (dat7 V c).before 4 t d = (outsAt7 V c (t.val - 1) (Nat.lt_of_le_of_lt (Nat.sub_le _ _) t.isLt)).2.2 := by
  have hN : t.val < 25 := lt_of_lt_of_eq t.isLt (show cfg7.N = 25 from N_7)
  rw [Dat.before_out_kept _ 4 rfl t (by omega) (Bool.eq_false_iff.mpr fun h => by have := (flush7_4 _).mp h; dsimp only at this; omega)
    (fun _ => rfl) (fun _ _ => rfl)]
  dsimp only [dat7]

/-! ## The body obligation, at a generic point -/

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (ms7_0 t) fullShare ((dat7 V c).before 0 t d))
    ∗ (∃ d, owns (c : Thread nD τ) (ms7_1 t) fullShare ((dat7 V c).before 1 t d))
    ∗ (∃ d, owns (c : Thread nD τ) (ms7_2 t) fullShare ((dat7 V c).before 2 t d))
    ∗ (∃ d, owns (c : Thread nD τ) (ms7_3 t) fullShare ((dat7 V c).before 3 t d))
    ∗ (∃ d, owns (c : Thread nD τ) (ms7_4 t) fullShare ((dat7 V c).before 4 t d)))

/-- and what it returns. -/
def bodyPost7 (c : Dev nD) (t : Fin cfg7.N) : sProp 𝕄 :=
  iprop((dat7 V c).Φ t.succ ∗ (dat7 V c).owesAt () t.succ
    ∗ owns (c : Thread nD τ) (ms7_0 t) fullShare ((dat7 V c).after 0 t)
    ∗ owns (c : Thread nD τ) (ms7_1 t) fullShare ((dat7 V c).after 1 t)
    ∗ owns (c : Thread nD τ) (ms7_2 t) fullShare ((dat7 V c).after 2 t)
    ∗ owns (c : Thread nD τ) (ms7_3 t) fullShare ((dat7 V c).after 3 t)
    ∗ owns (c : Thread nD τ) (ms7_4 t) fullShare ((dat7 V c).after 4 t))

set_option maxHeartbeats 2000000 in
/-- The body at any point: the inputs' memrefs hold their blocks; the closed form says which case the point is in;
    at a later point the two statistics rows hold what the point before left; so the case's run applies. The
    invariant passes through unread; the core owes nothing throughout. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1]
  rw [show (dat7 V c).Φ t.succ = (dat7 V c).Φ t.castSucc from rfl,
    show (dat7 V c).owesAt () t.succ = (dat7 V c).owesAt () t.castSucc from rfl,
    after7_0, after7_1, after7_2, after7_3, after7_4]
  have hN : t.val < 25 := lt_of_lt_of_eq t.isLt (show cfg7.N = 25 from N_7)
  by_cases h0 : t.val % 25 = 0
  · rw [outsAt7_A V c t h0]
    unfold out7_A_2 out7_A_3 out7_A_4; (try dsimp only)
    iintro ⟨HΦ, Ho, ⟨%d0, H0⟩, ⟨%d1, H1⟩, ⟨%d2, H2⟩, ⟨%d3, H3⟩, ⟨%d4, H4⟩⟩
    iapply ((kernelRun7_A c (grid7.coords t) _ _ _ _ _ _ _ _ _ _ ((hcond7_0 t).mpr h0) (iblk7 V c 0 t) (iblk7 V c 1 t)).2.2.2 Set.univ _)
    isplitl [H0]; · iexact H0
    isplitl [H1]; · iexact H1
    isplitl [H2]; · iexists _; iexact H2
    isplitl [H3]; · iexists _; iexact H3
    isplitl [H4]; · iexists _; iexact H4
    iintro ⟨H0, H1, ⟨%e2, H2⟩, ⟨%e3, H3⟩, ⟨%e4, H4⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover7_A_2 c _ _ _ _ _ _ _ _ _ _ _ _ _ _)
    isplitl [H3]
    · unfold owns; iexists _; isplitr
      swap; · iexact H3
      ipureintro; exact View.read_writes_of_cover _ _ _ _ _ (cover7_A_3 c _ _ _ _ _ _ _ _ _ _ _ _ _ _)
    unfold owns; iexists _; isplitr
    swap; · iexact H4
    ipureintro; exact View.read_writes_of_cover _ _ _ _ _ (cover7_A_4 c _ _ _ _ _ _ _ _ _ _ _ _ _ _)
  · rw [outsAt7_B V c t h0]
    simp only [before7_3_B V c t h0, before7_4_B V c t h0]
    unfold out7_B_2 out7_B_3 out7_B_4; (try dsimp only)
    iintro ⟨HΦ, Ho, ⟨%d0, H0⟩, ⟨%d1, H1⟩, ⟨%d2, H2⟩, ⟨%d3, H3⟩, ⟨%d4, H4⟩⟩
    iapply ((kernelRun7_B c (grid7.coords t) _ _ _ _ _ _ _ _ _ _ (fun h => h0 ((hcond7_0 t).mp h)) (iblk7 V c 0 t) (iblk7 V c 1 t) _ _).2.2.2 Set.univ _)
    isplitl [H0]; · iexact H0
    isplitl [H1]; · iexact H1
    isplitl [H2]; · iexists _; iexact H2
    isplitl [H3]; · iexact H3
    isplitl [H4]; · iexact H4
    iintro ⟨H0, H1, ⟨%e2, H2⟩, ⟨%e3, H3⟩, ⟨%e4, H4⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover7_B_2 c _ _ _ _ _ _ _ _ _ _ _ _ _ _ _ _)
    isplitl [H3]
    · unfold owns; iexists _; isplitr
      swap; · iexact H3
      ipureintro; exact View.read_writes_of_cover _ _ _ _ _ (cover7_B_3 c _ _ _ _ _ _ _ _ _ _ _ _ _ _ _ _)
    unfold owns; iexists _; isplitr
    swap; · iexact H4
    ipureintro; exact View.read_writes_of_cover _ _ _ _ _ (cover7_B_4 c _ _ _ _ _ _ _ _ _ _ _ _ _ _ _ _)

/-- The library's body obligation, at every point. -/
theorem body_obligation7 (c : Dev nD) : BodyObligation (dat7 (F := F) V c) (defs₀ (F := F)) Variants.none () Set.univ := fun t => by
  rw [bigSep_W7, bigSep_W7]
  exact sound_body7 V c t

end Region

end Cert.KernelIdeal.Hand

end
-- ==== Proof.RegionA8.lean ====
/-
  The normalization region 8: at grid point t the body reads a [2000, 64] row block of the rectified activations and
  the four [1, 64] rows (mean, variance, gain, offset) and leaves (z - mean) * rsqrt(variance + eps) * gain + offset in
  the output block. Stated at the buffer contents V the region is entered with.
-/
import proofs.«100384_j8693013807615_2_alg».proof.Proof.Gen.KernelIdeal.Launch
import proofs.«100384_j8693013807615_2_alg».proof.Proof.Gen.KernelIdeal.Skeleton
import proofs.«100384_j8693013807615_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's staging buffer holds its block at every point, fetched there or not. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- Input window 1's staging buffer holds its block at every point, fetched there or not. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- Input window 2's staging buffer holds its block at every point, fetched there or not. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-- Input window 3's staging buffer holds its block at every point, fetched there or not. -/
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

/-- Input window 4's staging buffer holds its block at every point, fetched there or not. -/
theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)

abbrev r8_z : Rect S2000x64 := Rect.unit (s := S2000x64) ![0, 0] S2000x64.size inb_S2000x64_S2000x64_0_0
abbrev r8_r : Rect S1x64 := Rect.unit (s := S1x64) ![0, 0] S1x64.size inb_S1x64_S1x64_0_0

/-- The output block after the body: one whole-block store of the normalized block. -/
def out8_5 (x0 : Vec F S2000x64 .f32) (x1 x2 x3 x4 : Vec F S1x64 .f32) : Vec F S2000x64 .f32 :=
  View.canon [⟨r8_z, k8_pay1 (View.ld x2 r8_r) (View.ld x0 r8_z) (View.ld x1 r8_r) (View.ld x3 r8_r) (View.ld x4 r8_r)⟩]

theorem cover8_5 (p0 : Vec F S2000x64 .f32) (y : S2000x64.Idx) :
    ∃ pc ∈ ([⟨r8_z, p0⟩] : List (View.Piece (Elt F) S2000x64 .f32)), y ∈ pc.1.set :=
  View.cover_of_tiled [⟨r8_z, p0⟩] S2000x64.size (by rfl) y

set_option maxHeartbeats 1000000 in
/-- The body on whole staging memrefs: the five inputs keep their contents, the output ends at the normalized block. -/
theorem sound_kernel8 (c : Dev nD) (E : Set ℕ) (i : grid8.Coords)
    (arg1 : Memref sig .tc .vmem S2000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S2000x64 .f32) (harg6 : arg6.IsWhole)
    (x0 : Vec F S2000x64 .f32) (x1 x2 x3 x4 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out8_5 x0 x1 x2 x3 x4)) -∗ K ⟨⟩))
      ⊢ wp frame (wpE (defs₀ (F := F)) Variants.none c none) E (cc8__bn_apply_kernel i arg1 harg1 arg2 harg2 arg3 harg3 arg4 harg4 arg5 harg5 arg6 harg6) K := by
  simp only [cc8__bn_apply_kernel_eq_skeleton]; unfold cc8__bn_apply_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0
  subst hf1
  subst hf2
  subst hf3
  subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover8_5 _)

/-- The pipeline's proof data on core c: the arrays as the region finds them; after the body at point t each input's
    buffer at its block and the output's at the normalized block; the class invariant; nothing owed. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => out8_5 (iblk8 V c 0 t) (iblk8 V c 1 t) (iblk8 V c 2 t) (iblk8 V c 3 t) (iblk8 V c 4 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = out8_5 (iblk8 V c 0 t) (iblk8 V c 1 t) (iblk8 V c 2 t) (iblk8 V c 3 t) (iblk8 V c 4 t) := by dsimp only [dat8]

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d

def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d)))

def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t))

theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4]
  rw [show (dat8 V c).Φ t.succ = (dat8 V c).Φ t.castSucc from rfl,
    show (dat8 V c).owesAt () t.succ = (dat8 V c).owesAt () t.castSucc from rfl,
    after8_0, after8_1, after8_2, after8_3, after8_4, after8_5]
  iintro ⟨HΦ, Ho, ⟨%d0, H0⟩, ⟨%d1, H1⟩, ⟨%d2, H2⟩, ⟨%d3, H3⟩, ⟨%d4, H4⟩, ⟨%d5, H5⟩⟩
  iapply (sound_kernel8 c Set.univ _ _ _ _ _ _ _ _ _ _ _ _ _ (iblk8 V c 0 t) (iblk8 V c 1 t) (iblk8 V c 2 t) (iblk8 V c 3 t) (iblk8 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation8 (c : Dev nD) : BodyObligation (dat8 (F := F) V c) (defs₀ (F := F)) Variants.none () Set.univ := fun t => by
  rw [bigSep_W8, bigSep_W8]
  exact sound_body8 V c t

end Cert.KernelIdeal.Hand

end
-- ==== Proof.RunFold.lean ====
/-
  The buffer contents at every boundary between two items of the program's entry function, as a fold from the launch
  memory: a stretch of host operations applies them in order; a kernel region leaves each of its arrays at what the
  pipeline's write-backs leave and every other buffer untouched. Each argument array is read back through the fold to
  its launch contents. Then the proof data of the nine pipelines, each at its region's entry contents.
-/
import proofs.«100384_j8693013807615_2_alg».proof.Proof.Gen.KernelIdeal.Regions
import proofs.«100384_j8693013807615_2_alg».proof.Proof.RegionA0
import proofs.«100384_j8693013807615_2_alg».proof.Proof.RegionStats1
import proofs.«100384_j8693013807615_2_alg».proof.Proof.RegionA2
import proofs.«100384_j8693013807615_2_alg».proof.Proof.RegionA3
import proofs.«100384_j8693013807615_2_alg».proof.Proof.RegionStats4
import proofs.«100384_j8693013807615_2_alg».proof.Proof.RegionA5
import proofs.«100384_j8693013807615_2_alg».proof.Proof.RegionA6
import proofs.«100384_j8693013807615_2_alg».proof.Proof.RegionStats7
import proofs.«100384_j8693013807615_2_alg».proof.Proof.RegionA8
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core c's buffers at launch. -/
abbrev Wv0 : Dev nD → Valuation τ sig (Elt F) := fun c b => (s₀ m ρ).mem ((c : Dev nD), b)
/-- After the host stretch hostOps0. -/
abbrev Wv1 : Dev nD → Valuation τ sig (Elt F) := fun c => StableHlo.after hostOps0 (Wv0 m ρ c)
abbrev Vw1 : (c : Dev nD) → (b : Ref sig .tc) → Buf (Elt F) ((c : Thread nD τ).loc b) := fun c b => Wv1 m ρ c b
theorem Wv1_of (c : Dev nD) (r : Ref sig .tc) (h : r ∉ hostOps0_W) : Wv1 m ρ c (Proc.devRef .tc r) = Wv0 m ρ c (Proc.devRef .tc r) :=
  StableHlo.after_of_writes_sub hostOps0 _ hostOps0_writes h
/-- At region 0's exit: its arrays at what the pipeline leaves, every other buffer as entered. -/
def Wv2 (c : Dev nD) : Valuation τ sig (Elt F) :=
  Pipeline.withArrays spec0 c (Wv1 m ρ c) fun w => (dat0 (Vw1 m ρ) c).arrAt w cfg0.N
theorem Wv2_arr (c : Dev nD) (w : Fin cfg0.W) :
    Wv2 m ρ c (Proc.devRef .tc (Pipeline.arrRef spec0 w)) = (dat0 (Vw1 m ρ) c).arrAt w cfg0.N := by
  unfold Wv2; exact Pipeline.withArrays_arr spec0 launch0.win.arr_inj c _ _ w
theorem Wv2_of_ne (c : Dev nD) (b : Ref sig .tc) (hb : ∀ w, Pipeline.arrRef spec0 w ≠ b) :
    Wv2 m ρ c (Proc.devRef .tc b) = Wv1 m ρ c (Proc.devRef .tc b) := by
  unfold Wv2; exact Pipeline.withArrays_of_ne spec0 c _ _ b hb
abbrev Vw2 : (c : Dev nD) → (b : Ref sig .tc) → Buf (Elt F) ((c : Thread nD τ).loc b) := fun c b => Wv2 m ρ c b
theorem hF0 (c : Dev nD) (w : Fin cfg0.W) : (dat0 (Vw1 m ρ) c).arrAt w cfg0.N = Vw2 m ρ c (Pipeline.arrRef spec0 w) :=
  (Wv2_arr m ρ c w).symm
theorem hrest0 (c : Dev nD) : ∀ b, b ∉ Finset.univ.image (Pipeline.arrRef spec0) → Vw2 m ρ c b = Vw1 m ρ c b :=
  fun b hb => Wv2_of_ne m ρ c b fun w e => hb (Finset.mem_image.mpr ⟨w, Finset.mem_univ _, e⟩)
/-- After the host stretch hostOps1. -/
abbrev Wv3 : Dev nD → Valuation τ sig (Elt F) := fun c => StableHlo.after hostOps1 (Wv2 m ρ c)
abbrev Vw3 : (c : Dev nD) → (b : Ref sig .tc) → Buf (Elt F) ((c : Thread nD τ).loc b) := fun c b => Wv3 m ρ c b
theorem Wv3_of (c : Dev nD) (r : Ref sig .tc) (h : r ∉ hostOps1_W) : Wv3 m ρ c (Proc.devRef .tc r) = Wv2 m ρ c (Proc.devRef .tc r) :=
  StableHlo.after_of_writes_sub hostOps1 _ hostOps1_writes h
/-- At region 1's exit: its arrays at what the pipeline leaves, every other buffer as entered. -/
def Wv4 (c : Dev nD) : Valuation τ sig (Elt F) :=
  Pipeline.withArrays spec1 c (Wv3 m ρ c) fun w => (dat1 (Vw3 m ρ) c).arrAt w cfg1.N
theorem Wv4_arr (c : Dev nD) (w : Fin cfg1.W) :
    Wv4 m ρ c (Proc.devRef .tc (Pipeline.arrRef spec1 w)) = (dat1 (Vw3 m ρ) c).arrAt w cfg1.N := by
  unfold Wv4; exact Pipeline.withArrays_arr spec1 launch1.win.arr_inj c _ _ w
theorem Wv4_of_ne (c : Dev nD) (b : Ref sig .tc) (hb : ∀ w, Pipeline.arrRef spec1 w ≠ b) :
    Wv4 m ρ c (Proc.devRef .tc b) = Wv3 m ρ c (Proc.devRef .tc b) := by
  unfold Wv4; exact Pipeline.withArrays_of_ne spec1 c _ _ b hb
abbrev Vw4 : (c : Dev nD) → (b : Ref sig .tc) → Buf (Elt F) ((c : Thread nD τ).loc b) := fun c b => Wv4 m ρ c b
theorem hF1 (c : Dev nD) (w : Fin cfg1.W) : (dat1 (Vw3 m ρ) c).arrAt w cfg1.N = Vw4 m ρ c (Pipeline.arrRef spec1 w) :=
  (Wv4_arr m ρ c w).symm
theorem hrest1 (c : Dev nD) : ∀ b, b ∉ Finset.univ.image (Pipeline.arrRef spec1) → Vw4 m ρ c b = Vw3 m ρ c b :=
  fun b hb => Wv4_of_ne m ρ c b fun w e => hb (Finset.mem_image.mpr ⟨w, Finset.mem_univ _, e⟩)
/-- After the host stretch hostOps2. -/
abbrev Wv5 : Dev nD → Valuation τ sig (Elt F) := fun c => StableHlo.after hostOps2 (Wv4 m ρ c)
abbrev Vw5 : (c : Dev nD) → (b : Ref sig .tc) → Buf (Elt F) ((c : Thread nD τ).loc b) := fun c b => Wv5 m ρ c b
theorem Wv5_of (c : Dev nD) (r : Ref sig .tc) (h : r ∉ hostOps2_W) : Wv5 m ρ c (Proc.devRef .tc r) = Wv4 m ρ c (Proc.devRef .tc r) :=
  StableHlo.after_of_writes_sub hostOps2 _ hostOps2_writes h
/-- At region 2's exit: its arrays at what the pipeline leaves, every other buffer as entered. -/
def Wv6 (c : Dev nD) : Valuation τ sig (Elt F) :=
  Pipeline.withArrays spec2 c (Wv5 m ρ c) fun w => (dat2 (Vw5 m ρ) c).arrAt w cfg2.N
theorem Wv6_arr (c : Dev nD) (w : Fin cfg2.W) :
    Wv6 m ρ c (Proc.devRef .tc (Pipeline.arrRef spec2 w)) = (dat2 (Vw5 m ρ) c).arrAt w cfg2.N := by
  unfold Wv6; exact Pipeline.withArrays_arr spec2 launch2.win.arr_inj c _ _ w
theorem Wv6_of_ne (c : Dev nD) (b : Ref sig .tc) (hb : ∀ w, Pipeline.arrRef spec2 w ≠ b) :
    Wv6 m ρ c (Proc.devRef .tc b) = Wv5 m ρ c (Proc.devRef .tc b) := by
  unfold Wv6; exact Pipeline.withArrays_of_ne spec2 c _ _ b hb
abbrev Vw6 : (c : Dev nD) → (b : Ref sig .tc) → Buf (Elt F) ((c : Thread nD τ).loc b) := fun c b => Wv6 m ρ c b
theorem hF2 (c : Dev nD) (w : Fin cfg2.W) : (dat2 (Vw5 m ρ) c).arrAt w cfg2.N = Vw6 m ρ c (Pipeline.arrRef spec2 w) :=
  (Wv6_arr m ρ c w).symm
theorem hrest2 (c : Dev nD) : ∀ b, b ∉ Finset.univ.image (Pipeline.arrRef spec2) → Vw6 m ρ c b = Vw5 m ρ c b :=
  fun b hb => Wv6_of_ne m ρ c b fun w e => hb (Finset.mem_image.mpr ⟨w, Finset.mem_univ _, e⟩)
/-- At region 3's exit: its arrays at what the pipeline leaves, every other buffer as entered. -/
def Wv7 (c : Dev nD) : Valuation τ sig (Elt F) :=
  Pipeline.withArrays spec3 c (Wv6 m ρ c) fun w => (dat3 (Vw6 m ρ) c).arrAt w cfg3.N
theorem Wv7_arr (c : Dev nD) (w : Fin cfg3.W) :
    Wv7 m ρ c (Proc.devRef .tc (Pipeline.arrRef spec3 w)) = (dat3 (Vw6 m ρ) c).arrAt w cfg3.N := by
  unfold Wv7; exact Pipeline.withArrays_arr spec3 launch3.win.arr_inj c _ _ w
theorem Wv7_of_ne (c : Dev nD) (b : Ref sig .tc) (hb : ∀ w, Pipeline.arrRef spec3 w ≠ b) :
    Wv7 m ρ c (Proc.devRef .tc b) = Wv6 m ρ c (Proc.devRef .tc b) := by
  unfold Wv7; exact Pipeline.withArrays_of_ne spec3 c _ _ b hb
abbrev Vw7 : (c : Dev nD) → (b : Ref sig .tc) → Buf (Elt F) ((c : Thread nD τ).loc b) := fun c b => Wv7 m ρ c b
theorem hF3 (c : Dev nD) (w : Fin cfg3.W) : (dat3 (Vw6 m ρ) c).arrAt w cfg3.N = Vw7 m ρ c (Pipeline.arrRef spec3 w) :=
  (Wv7_arr m ρ c w).symm
theorem hrest3 (c : Dev nD) : ∀ b, b ∉ Finset.univ.image (Pipeline.arrRef spec3) → Vw7 m ρ c b = Vw6 m ρ c b :=
  fun b hb => Wv7_of_ne m ρ c b fun w e => hb (Finset.mem_image.mpr ⟨w, Finset.mem_univ _, e⟩)
/-- After the host stretch hostOps4. -/
abbrev Wv8 : Dev nD → Valuation τ sig (Elt F) := fun c => StableHlo.after hostOps4 (Wv7 m ρ c)
abbrev Vw8 : (c : Dev nD) → (b : Ref sig .tc) → Buf (Elt F) ((c : Thread nD τ).loc b) := fun c b => Wv8 m ρ c b
theorem Wv8_of (c : Dev nD) (r : Ref sig .tc) (h : r ∉ hostOps4_W) : Wv8 m ρ c (Proc.devRef .tc r) = Wv7 m ρ c (Proc.devRef .tc r) :=
  StableHlo.after_of_writes_sub hostOps4 _ hostOps4_writes h
/-- At region 4's exit: its arrays at what the pipeline leaves, every other buffer as entered. -/
def Wv9 (c : Dev nD) : Valuation τ sig (Elt F) :=
  Pipeline.withArrays spec4 c (Wv8 m ρ c) fun w => (dat4 (Vw8 m ρ) c).arrAt w cfg4.N
theorem Wv9_arr (c : Dev nD) (w : Fin cfg4.W) :
    Wv9 m ρ c (Proc.devRef .tc (Pipeline.arrRef spec4 w)) = (dat4 (Vw8 m ρ) c).arrAt w cfg4.N := by
  unfold Wv9; exact Pipeline.withArrays_arr spec4 launch4.win.arr_inj c _ _ w
theorem Wv9_of_ne (c : Dev nD) (b : Ref sig .tc) (hb : ∀ w, Pipeline.arrRef spec4 w ≠ b) :
    Wv9 m ρ c (Proc.devRef .tc b) = Wv8 m ρ c (Proc.devRef .tc b) := by
  unfold Wv9; exact Pipeline.withArrays_of_ne spec4 c _ _ b hb
abbrev Vw9 : (c : Dev nD) → (b : Ref sig .tc) → Buf (Elt F) ((c : Thread nD τ).loc b) := fun c b => Wv9 m ρ c b
theorem hF4 (c : Dev nD) (w : Fin cfg4.W) : (dat4 (Vw8 m ρ) c).arrAt w cfg4.N = Vw9 m ρ c (Pipeline.arrRef spec4 w) :=
  (Wv9_arr m ρ c w).symm
theorem hrest4 (c : Dev nD) : ∀ b, b ∉ Finset.univ.image (Pipeline.arrRef spec4) → Vw9 m ρ c b = Vw8 m ρ c b :=
  fun b hb => Wv9_of_ne m ρ c b fun w e => hb (Finset.mem_image.mpr ⟨w, Finset.mem_univ _, e⟩)
/-- After the host stretch hostOps5. -/
abbrev Wv10 : Dev nD → Valuation τ sig (Elt F) := fun c => StableHlo.after hostOps5 (Wv9 m ρ c)
abbrev Vw10 : (c : Dev nD) → (b : Ref sig .tc) → Buf (Elt F) ((c : Thread nD τ).loc b) := fun c b => Wv10 m ρ c b
theorem Wv10_of (c : Dev nD) (r : Ref sig .tc) (h : r ∉ hostOps5_W) : Wv10 m ρ c (Proc.devRef .tc r) = Wv9 m ρ c (Proc.devRef .tc r) :=
  StableHlo.after_of_writes_sub hostOps5 _ hostOps5_writes h
/-- At region 5's exit: its arrays at what the pipeline leaves, every other buffer as entered. -/
def Wv11 (c : Dev nD) : Valuation τ sig (Elt F) :=
  Pipeline.withArrays spec5 c (Wv10 m ρ c) fun w => (dat5 (Vw10 m ρ) c).arrAt w cfg5.N
theorem Wv11_arr (c : Dev nD) (w : Fin cfg5.W) :
    Wv11 m ρ c (Proc.devRef .tc (Pipeline.arrRef spec5 w)) = (dat5 (Vw10 m ρ) c).arrAt w cfg5.N := by
  unfold Wv11; exact Pipeline.withArrays_arr spec5 launch5.win.arr_inj c _ _ w
theorem Wv11_of_ne (c : Dev nD) (b : Ref sig .tc) (hb : ∀ w, Pipeline.arrRef spec5 w ≠ b) :
    Wv11 m ρ c (Proc.devRef .tc b) = Wv10 m ρ c (Proc.devRef .tc b) := by
  unfold Wv11; exact Pipeline.withArrays_of_ne spec5 c _ _ b hb
abbrev Vw11 : (c : Dev nD) → (b : Ref sig .tc) → Buf (Elt F) ((c : Thread nD τ).loc b) := fun c b => Wv11 m ρ c b
theorem hF5 (c : Dev nD) (w : Fin cfg5.W) : (dat5 (Vw10 m ρ) c).arrAt w cfg5.N = Vw11 m ρ c (Pipeline.arrRef spec5 w) :=
  (Wv11_arr m ρ c w).symm
theorem hrest5 (c : Dev nD) : ∀ b, b ∉ Finset.univ.image (Pipeline.arrRef spec5) → Vw11 m ρ c b = Vw10 m ρ c b :=
  fun b hb => Wv11_of_ne m ρ c b fun w e => hb (Finset.mem_image.mpr ⟨w, Finset.mem_univ _, e⟩)
/-- At region 6's exit: its arrays at what the pipeline leaves, every other buffer as entered. -/
def Wv12 (c : Dev nD) : Valuation τ sig (Elt F) :=
  Pipeline.withArrays spec6 c (Wv11 m ρ c) fun w => (dat6 (Vw11 m ρ) c).arrAt w cfg6.N
theorem Wv12_arr (c : Dev nD) (w : Fin cfg6.W) :
    Wv12 m ρ c (Proc.devRef .tc (Pipeline.arrRef spec6 w)) = (dat6 (Vw11 m ρ) c).arrAt w cfg6.N := by
  unfold Wv12; exact Pipeline.withArrays_arr spec6 launch6.win.arr_inj c _ _ w
theorem Wv12_of_ne (c : Dev nD) (b : Ref sig .tc) (hb : ∀ w, Pipeline.arrRef spec6 w ≠ b) :
    Wv12 m ρ c (Proc.devRef .tc b) = Wv11 m ρ c (Proc.devRef .tc b) := by
  unfold Wv12; exact Pipeline.withArrays_of_ne spec6 c _ _ b hb
abbrev Vw12 : (c : Dev nD) → (b : Ref sig .tc) → Buf (Elt F) ((c : Thread nD τ).loc b) := fun c b => Wv12 m ρ c b
theorem hF6 (c : Dev nD) (w : Fin cfg6.W) : (dat6 (Vw11 m ρ) c).arrAt w cfg6.N = Vw12 m ρ c (Pipeline.arrRef spec6 w) :=
  (Wv12_arr m ρ c w).symm
theorem hrest6 (c : Dev nD) : ∀ b, b ∉ Finset.univ.image (Pipeline.arrRef spec6) → Vw12 m ρ c b = Vw11 m ρ c b :=
  fun b hb => Wv12_of_ne m ρ c b fun w e => hb (Finset.mem_image.mpr ⟨w, Finset.mem_univ _, e⟩)
/-- After the host stretch hostOps7. -/
abbrev Wv13 : Dev nD → Valuation τ sig (Elt F) := fun c => StableHlo.after hostOps7 (Wv12 m ρ c)
abbrev Vw13 : (c : Dev nD) → (b : Ref sig .tc) → Buf (Elt F) ((c : Thread nD τ).loc b) := fun c b => Wv13 m ρ c b
theorem Wv13_of (c : Dev nD) (r : Ref sig .tc) (h : r ∉ hostOps7_W) : Wv13 m ρ c (Proc.devRef .tc r) = Wv12 m ρ c (Proc.devRef .tc r) :=
  StableHlo.after_of_writes_sub hostOps7 _ hostOps7_writes h
/-- At region 7's exit: its arrays at what the pipeline leaves, every other buffer as entered. -/
def Wv14 (c : Dev nD) : Valuation τ sig (Elt F) :=
  Pipeline.withArrays spec7 c (Wv13 m ρ c) fun w => (dat7 (Vw13 m ρ) c).arrAt w cfg7.N
theorem Wv14_arr (c : Dev nD) (w : Fin cfg7.W) :
    Wv14 m ρ c (Proc.devRef .tc (Pipeline.arrRef spec7 w)) = (dat7 (Vw13 m ρ) c).arrAt w cfg7.N := by
  unfold Wv14; exact Pipeline.withArrays_arr spec7 launch7.win.arr_inj c _ _ w
theorem Wv14_of_ne (c : Dev nD) (b : Ref sig .tc) (hb : ∀ w, Pipeline.arrRef spec7 w ≠ b) :
    Wv14 m ρ c (Proc.devRef .tc b) = Wv13 m ρ c (Proc.devRef .tc b) := by
  unfold Wv14; exact Pipeline.withArrays_of_ne spec7 c _ _ b hb
abbrev Vw14 : (c : Dev nD) → (b : Ref sig .tc) → Buf (Elt F) ((c : Thread nD τ).loc b) := fun c b => Wv14 m ρ c b
theorem hF7 (c : Dev nD) (w : Fin cfg7.W) : (dat7 (Vw13 m ρ) c).arrAt w cfg7.N = Vw14 m ρ c (Pipeline.arrRef spec7 w) :=
  (Wv14_arr m ρ c w).symm
theorem hrest7 (c : Dev nD) : ∀ b, b ∉ Finset.univ.image (Pipeline.arrRef spec7) → Vw14 m ρ c b = Vw13 m ρ c b :=
  fun b hb => Wv14_of_ne m ρ c b fun w e => hb (Finset.mem_image.mpr ⟨w, Finset.mem_univ _, e⟩)
/-- After the host stretch hostOps8. -/
abbrev Wv15 : Dev nD → Valuation τ sig (Elt F) := fun c => StableHlo.after hostOps8 (Wv14 m ρ c)
abbrev Vw15 : (c : Dev nD) → (b : Ref sig .tc) → Buf (Elt F) ((c : Thread nD τ).loc b) := fun c b => Wv15 m ρ c b
theorem Wv15_of (c : Dev nD) (r : Ref sig .tc) (h : r ∉ hostOps8_W) : Wv15 m ρ c (Proc.devRef .tc r) = Wv14 m ρ c (Proc.devRef .tc r) :=
  StableHlo.after_of_writes_sub hostOps8 _ hostOps8_writes h
/-- At region 8's exit: its arrays at what the pipeline leaves, every other buffer as entered. -/
def Wv16 (c : Dev nD) : Valuation τ sig (Elt F) :=
  Pipeline.withArrays spec8 c (Wv15 m ρ c) fun w => (dat8 (Vw15 m ρ) c).arrAt w cfg8.N
theorem Wv16_arr (c : Dev nD) (w : Fin cfg8.W) :
    Wv16 m ρ c (Proc.devRef .tc (Pipeline.arrRef spec8 w)) = (dat8 (Vw15 m ρ) c).arrAt w cfg8.N := by
  unfold Wv16; exact Pipeline.withArrays_arr spec8 launch8.win.arr_inj c _ _ w
theorem Wv16_of_ne (c : Dev nD) (b : Ref sig .tc) (hb : ∀ w, Pipeline.arrRef spec8 w ≠ b) :
    Wv16 m ρ c (Proc.devRef .tc b) = Wv15 m ρ c (Proc.devRef .tc b) := by
  unfold Wv16; exact Pipeline.withArrays_of_ne spec8 c _ _ b hb
abbrev Vw16 : (c : Dev nD) → (b : Ref sig .tc) → Buf (Elt F) ((c : Thread nD τ).loc b) := fun c b => Wv16 m ρ c b
theorem hF8 (c : Dev nD) (w : Fin cfg8.W) : (dat8 (Vw15 m ρ) c).arrAt w cfg8.N = Vw16 m ρ c (Pipeline.arrRef spec8 w) :=
  (Wv16_arr m ρ c w).symm
theorem hrest8 (c : Dev nD) : ∀ b, b ∉ Finset.univ.image (Pipeline.arrRef spec8) → Vw16 m ρ c b = Vw15 m ρ c b :=
  fun b hb => Wv16_of_ne m ρ c b fun w e => hb (Finset.mem_image.mpr ⟨w, Finset.mem_univ _, e⟩)
/-- After the host stretch hostOps9. -/
abbrev Wv17 : Dev nD → Valuation τ sig (Elt F) := fun c => StableHlo.after hostOps9 (Wv16 m ρ c)
abbrev Vw17 : (c : Dev nD) → (b : Ref sig .tc) → Buf (Elt F) ((c : Thread nD τ).loc b) := fun c b => Wv17 m ρ c b
theorem Wv17_of (c : Dev nD) (r : Ref sig .tc) (h : r ∉ hostOps9_W) : Wv17 m ρ c (Proc.devRef .tc r) = Wv16 m ρ c (Proc.devRef .tc r) :=
  StableHlo.after_of_writes_sub hostOps9 _ hostOps9_writes h
/-- After the host stretch hostOps9_1. -/
abbrev Wv18 : Dev nD → Valuation τ sig (Elt F) := fun c => StableHlo.after hostOps9_1 (Wv17 m ρ c)
abbrev Vw18 : (c : Dev nD) → (b : Ref sig .tc) → Buf (Elt F) ((c : Thread nD τ).loc b) := fun c b => Wv18 m ρ c b
theorem Wv18_of (c : Dev nD) (r : Ref sig .tc) (h : r ∉ hostOps9_1_W) : Wv18 m ρ c (Proc.devRef .tc r) = Wv17 m ρ c (Proc.devRef .tc r) :=
  StableHlo.after_of_writes_sub hostOps9_1 _ hostOps9_1_writes h
/-- After the host stretch hostOps9_2. -/
abbrev Wv19 : Dev nD → Valuation τ sig (Elt F) := fun c => StableHlo.after hostOps9_2 (Wv18 m ρ c)
abbrev Vw19 : (c : Dev nD) → (b : Ref sig .tc) → Buf (Elt F) ((c : Thread nD τ).loc b) := fun c b => Wv19 m ρ c b
theorem Wv19_of (c : Dev nD) (r : Ref sig .tc) (h : r ∉ hostOps9_2_W) : Wv19 m ρ c (Proc.devRef .tc r) = Wv18 m ρ c (Proc.devRef .tc r) :=
  StableHlo.after_of_writes_sub hostOps9_2 _ hostOps9_2_writes h
/-- After the host stretch hostOps9_3. -/
abbrev Wv20 : Dev nD → Valuation τ sig (Elt F) := fun c => StableHlo.after hostOps9_3 (Wv19 m ρ c)
abbrev Vw20 : (c : Dev nD) → (b : Ref sig .tc) → Buf (Elt F) ((c : Thread nD τ).loc b) := fun c b => Wv20 m ρ c b
theorem Wv20_of (c : Dev nD) (r : Ref sig .tc) (h : r ∉ hostOps9_3_W) : Wv20 m ρ c (Proc.devRef .tc r) = Wv19 m ρ c (Proc.devRef .tc r) :=
  StableHlo.after_of_writes_sub hostOps9_3 _ hostOps9_3_writes h
/-- After the host stretch hostOps9_4. -/
abbrev Wv21 : Dev nD → Valuation τ sig (Elt F) := fun c => StableHlo.after hostOps9_4 (Wv20 m ρ c)
abbrev Vw21 : (c : Dev nD) → (b : Ref sig .tc) → Buf (Elt F) ((c : Thread nD τ).loc b) := fun c b => Wv21 m ρ c b
theorem Wv21_of (c : Dev nD) (r : Ref sig .tc) (h : r ∉ hostOps9_4_W) : Wv21 m ρ c (Proc.devRef .tc r) = Wv20 m ρ c (Proc.devRef .tc r) :=
  StableHlo.after_of_writes_sub hostOps9_4 _ hostOps9_4_writes h

/-! ## The arguments end as launched -/
theorem Wv21_main_arg0 (c : Dev nD) : Wv21 m ρ c (Proc.devRef .tc main_arg0) = m ((c : Thread nD τ).loc main_arg0) :=
  (Wv21_of m ρ c main_arg0 (by decide)).trans <| (Wv20_of m ρ c main_arg0 (by decide)).trans <| (Wv19_of m ρ c main_arg0 (by decide)).trans <| (Wv18_of m ρ c main_arg0 (by decide)).trans <| (Wv17_of m ρ c main_arg0 (by decide)).trans <| (Wv16_of_ne m ρ c main_arg0 (by decide)).trans <| (Wv15_of m ρ c main_arg0 (by decide)).trans <| (Wv14_of_ne m ρ c main_arg0 (by decide)).trans <| (Wv13_of m ρ c main_arg0 (by decide)).trans <| (Wv12_of_ne m ρ c main_arg0 (by decide)).trans <| (Wv11_of_ne m ρ c main_arg0 (by decide)).trans <| (Wv10_of m ρ c main_arg0 (by decide)).trans <| (Wv9_of_ne m ρ c main_arg0 (by decide)).trans <| (Wv8_of m ρ c main_arg0 (by decide)).trans <| (Wv7_of_ne m ρ c main_arg0 (by decide)).trans <| (Wv6_of_ne m ρ c main_arg0 (by decide)).trans <| (Wv5_of m ρ c main_arg0 (by decide)).trans <| (Wv4_of_ne m ρ c main_arg0 (by decide)).trans <| (Wv3_of m ρ c main_arg0 (by decide)).trans <| ((Wv2_arr m ρ c 0).trans (((dat0 (Vw1 m ρ) c).arrAt_in 0 rfl _).trans (A_eq0 (Vw1 m ρ) c 0))).trans <| (Wv1_of m ρ c main_arg0 (by decide)).trans <| rfl
theorem Wv21_main_arg1 (c : Dev nD) : Wv21 m ρ c (Proc.devRef .tc main_arg1) = m ((c : Thread nD τ).loc main_arg1) :=
  (Wv21_of m ρ c main_arg1 (by decide)).trans <| (Wv20_of m ρ c main_arg1 (by decide)).trans <| (Wv19_of m ρ c main_arg1 (by decide)).trans <| (Wv18_of m ρ c main_arg1 (by decide)).trans <| (Wv17_of m ρ c main_arg1 (by decide)).trans <| (Wv16_of_ne m ρ c main_arg1 (by decide)).trans <| (Wv15_of m ρ c main_arg1 (by decide)).trans <| (Wv14_of_ne m ρ c main_arg1 (by decide)).trans <| (Wv13_of m ρ c main_arg1 (by decide)).trans <| (Wv12_of_ne m ρ c main_arg1 (by decide)).trans <| (Wv11_of_ne m ρ c main_arg1 (by decide)).trans <| (Wv10_of m ρ c main_arg1 (by decide)).trans <| (Wv9_of_ne m ρ c main_arg1 (by decide)).trans <| (Wv8_of m ρ c main_arg1 (by decide)).trans <| (Wv7_of_ne m ρ c main_arg1 (by decide)).trans <| (Wv6_of_ne m ρ c main_arg1 (by decide)).trans <| (Wv5_of m ρ c main_arg1 (by decide)).trans <| (Wv4_of_ne m ρ c main_arg1 (by decide)).trans <| (Wv3_of m ρ c main_arg1 (by decide)).trans <| (Wv2_of_ne m ρ c main_arg1 (by decide)).trans <| (Wv1_of m ρ c main_arg1 (by decide)).trans <| rfl
theorem Wv21_main_arg2 (c : Dev nD) : Wv21 m ρ c (Proc.devRef .tc main_arg2) = m ((c : Thread nD τ).loc main_arg2) :=
  (Wv21_of m ρ c main_arg2 (by decide)).trans <| (Wv20_of m ρ c main_arg2 (by decide)).trans <| (Wv19_of m ρ c main_arg2 (by decide)).trans <| (Wv18_of m ρ c main_arg2 (by decide)).trans <| (Wv17_of m ρ c main_arg2 (by decide)).trans <| (Wv16_of_ne m ρ c main_arg2 (by decide)).trans <| (Wv15_of m ρ c main_arg2 (by decide)).trans <| (Wv14_of_ne m ρ c main_arg2 (by decide)).trans <| (Wv13_of m ρ c main_arg2 (by decide)).trans <| (Wv12_of_ne m ρ c main_arg2 (by decide)).trans <| (Wv11_of_ne m ρ c main_arg2 (by decide)).trans <| (Wv10_of m ρ c main_arg2 (by decide)).trans <| (Wv9_of_ne m ρ c main_arg2 (by decide)).trans <| (Wv8_of m ρ c main_arg2 (by decide)).trans <| (Wv7_of_ne m ρ c main_arg2 (by decide)).trans <| (Wv6_of_ne m ρ c main_arg2 (by decide)).trans <| (Wv5_of m ρ c main_arg2 (by decide)).trans <| (Wv4_of_ne m ρ c main_arg2 (by decide)).trans <| (Wv3_of m ρ c main_arg2 (by decide)).trans <| (Wv2_of_ne m ρ c main_arg2 (by decide)).trans <| (Wv1_of m ρ c main_arg2 (by decide)).trans <| rfl
theorem Wv21_main_arg3 (c : Dev nD) : Wv21 m ρ c (Proc.devRef .tc main_arg3) = m ((c : Thread nD τ).loc main_arg3) :=
  (Wv21_of m ρ c main_arg3 (by decide)).trans <| (Wv20_of m ρ c main_arg3 (by decide)).trans <| (Wv19_of m ρ c main_arg3 (by decide)).trans <| (Wv18_of m ρ c main_arg3 (by decide)).trans <| (Wv17_of m ρ c main_arg3 (by decide)).trans <| (Wv16_of_ne m ρ c main_arg3 (by decide)).trans <| (Wv15_of m ρ c main_arg3 (by decide)).trans <| (Wv14_of_ne m ρ c main_arg3 (by decide)).trans <| (Wv13_of m ρ c main_arg3 (by decide)).trans <| (Wv12_of_ne m ρ c main_arg3 (by decide)).trans <| (Wv11_of_ne m ρ c main_arg3 (by decide)).trans <| (Wv10_of m ρ c main_arg3 (by decide)).trans <| (Wv9_of_ne m ρ c main_arg3 (by decide)).trans <| (Wv8_of m ρ c main_arg3 (by decide)).trans <| (Wv7_of_ne m ρ c main_arg3 (by decide)).trans <| (Wv6_of_ne m ρ c main_arg3 (by decide)).trans <| (Wv5_of m ρ c main_arg3 (by decide)).trans <| (Wv4_of_ne m ρ c main_arg3 (by decide)).trans <| (Wv3_of m ρ c main_arg3 (by decide)).trans <| ((Wv2_arr m ρ c 1).trans (((dat0 (Vw1 m ρ) c).arrAt_in 1 rfl _).trans (A_eq0 (Vw1 m ρ) c 1))).trans <| (Wv1_of m ρ c main_arg3 (by decide)).trans <| rfl
theorem Wv21_main_arg4 (c : Dev nD) : Wv21 m ρ c (Proc.devRef .tc main_arg4) = m ((c : Thread nD τ).loc main_arg4) :=
  (Wv21_of m ρ c main_arg4 (by decide)).trans <| (Wv20_of m ρ c main_arg4 (by decide)).trans <| (Wv19_of m ρ c main_arg4 (by decide)).trans <| (Wv18_of m ρ c main_arg4 (by decide)).trans <| (Wv17_of m ρ c main_arg4 (by decide)).trans <| (Wv16_of_ne m ρ c main_arg4 (by decide)).trans <| (Wv15_of m ρ c main_arg4 (by decide)).trans <| (Wv14_of_ne m ρ c main_arg4 (by decide)).trans <| (Wv13_of m ρ c main_arg4 (by decide)).trans <| (Wv12_of_ne m ρ c main_arg4 (by decide)).trans <| (Wv11_of_ne m ρ c main_arg4 (by decide)).trans <| (Wv10_of m ρ c main_arg4 (by decide)).trans <| (Wv9_of_ne m ρ c main_arg4 (by decide)).trans <| (Wv8_of m ρ c main_arg4 (by decide)).trans <| (Wv7_of_ne m ρ c main_arg4 (by decide)).trans <| (Wv6_of_ne m ρ c main_arg4 (by decide)).trans <| (Wv5_of m ρ c main_arg4 (by decide)).trans <| (Wv4_of_ne m ρ c main_arg4 (by decide)).trans <| (Wv3_of m ρ c main_arg4 (by decide)).trans <| (Wv2_of_ne m ρ c main_arg4 (by decide)).trans <| (Wv1_of m ρ c main_arg4 (by decide)).trans <| rfl
theorem Wv21_main_arg5 (c : Dev nD) : Wv21 m ρ c (Proc.devRef .tc main_arg5) = m ((c : Thread nD τ).loc main_arg5) :=
  (Wv21_of m ρ c main_arg5 (by decide)).trans <| (Wv20_of m ρ c main_arg5 (by decide)).trans <| (Wv19_of m ρ c main_arg5 (by decide)).trans <| (Wv18_of m ρ c main_arg5 (by decide)).trans <| (Wv17_of m ρ c main_arg5 (by decide)).trans <| (Wv16_of_ne m ρ c main_arg5 (by decide)).trans <| (Wv15_of m ρ c main_arg5 (by decide)).trans <| (Wv14_of_ne m ρ c main_arg5 (by decide)).trans <| (Wv13_of m ρ c main_arg5 (by decide)).trans <| (Wv12_of_ne m ρ c main_arg5 (by decide)).trans <| (Wv11_of_ne m ρ c main_arg5 (by decide)).trans <| (Wv10_of m ρ c main_arg5 (by decide)).trans <| (Wv9_of_ne m ρ c main_arg5 (by decide)).trans <| (Wv8_of m ρ c main_arg5 (by decide)).trans <| (Wv7_of_ne m ρ c main_arg5 (by decide)).trans <| (Wv6_of_ne m ρ c main_arg5 (by decide)).trans <| (Wv5_of m ρ c main_arg5 (by decide)).trans <| (Wv4_of_ne m ρ c main_arg5 (by decide)).trans <| (Wv3_of m ρ c main_arg5 (by decide)).trans <| (Wv2_of_ne m ρ c main_arg5 (by decide)).trans <| (Wv1_of m ρ c main_arg5 (by decide)).trans <| rfl
theorem Wv21_main_arg6 (c : Dev nD) : Wv21 m ρ c (Proc.devRef .tc main_arg6) = m ((c : Thread nD τ).loc main_arg6) :=
  (Wv21_of m ρ c main_arg6 (by decide)).trans <| (Wv20_of m ρ c main_arg6 (by decide)).trans <| (Wv19_of m ρ c main_arg6 (by decide)).trans <| (Wv18_of m ρ c main_arg6 (by decide)).trans <| (Wv17_of m ρ c main_arg6 (by decide)).trans <| (Wv16_of_ne m ρ c main_arg6 (by decide)).trans <| (Wv15_of m ρ c main_arg6 (by decide)).trans <| (Wv14_of_ne m ρ c main_arg6 (by decide)).trans <| (Wv13_of m ρ c main_arg6 (by decide)).trans <| (Wv12_of_ne m ρ c main_arg6 (by decide)).trans <| (Wv11_of_ne m ρ c main_arg6 (by decide)).trans <| (Wv10_of m ρ c main_arg6 (by decide)).trans <| (Wv9_of_ne m ρ c main_arg6 (by decide)).trans <| (Wv8_of m ρ c main_arg6 (by decide)).trans <| (Wv7_of_ne m ρ c main_arg6 (by decide)).trans <| (Wv6_of_ne m ρ c main_arg6 (by decide)).trans <| (Wv5_of m ρ c main_arg6 (by decide)).trans <| (Wv4_of_ne m ρ c main_arg6 (by decide)).trans <| (Wv3_of m ρ c main_arg6 (by decide)).trans <| (Wv2_of_ne m ρ c main_arg6 (by decide)).trans <| (Wv1_of m ρ c main_arg6 (by decide)).trans <| rfl
theorem Wv21_main_arg7 (c : Dev nD) : Wv21 m ρ c (Proc.devRef .tc main_arg7) = m ((c : Thread nD τ).loc main_arg7) :=
  (Wv21_of m ρ c main_arg7 (by decide)).trans <| (Wv20_of m ρ c main_arg7 (by decide)).trans <| (Wv19_of m ρ c main_arg7 (by decide)).trans <| (Wv18_of m ρ c main_arg7 (by decide)).trans <| (Wv17_of m ρ c main_arg7 (by decide)).trans <| (Wv16_of_ne m ρ c main_arg7 (by decide)).trans <| (Wv15_of m ρ c main_arg7 (by decide)).trans <| (Wv14_of_ne m ρ c main_arg7 (by decide)).trans <| (Wv13_of m ρ c main_arg7 (by decide)).trans <| (Wv12_of_ne m ρ c main_arg7 (by decide)).trans <| (Wv11_of_ne m ρ c main_arg7 (by decide)).trans <| (Wv10_of m ρ c main_arg7 (by decide)).trans <| (Wv9_of_ne m ρ c main_arg7 (by decide)).trans <| (Wv8_of m ρ c main_arg7 (by decide)).trans <| ((Wv7_arr m ρ c 1).trans (((dat3 (Vw6 m ρ) c).arrAt_in 1 rfl _).trans (A_eq3 (Vw6 m ρ) c 1))).trans <| (Wv6_of_ne m ρ c main_arg7 (by decide)).trans <| (Wv5_of m ρ c main_arg7 (by decide)).trans <| (Wv4_of_ne m ρ c main_arg7 (by decide)).trans <| (Wv3_of m ρ c main_arg7 (by decide)).trans <| (Wv2_of_ne m ρ c main_arg7 (by decide)).trans <| (Wv1_of m ρ c main_arg7 (by decide)).trans <| rfl
theorem Wv21_main_arg8 (c : Dev nD) : Wv21 m ρ c (Proc.devRef .tc main_arg8) = m ((c : Thread nD τ).loc main_arg8) :=
  (Wv21_of m ρ c main_arg8 (by decide)).trans <| (Wv20_of m ρ c main_arg8 (by decide)).trans <| (Wv19_of m ρ c main_arg8 (by decide)).trans <| (Wv18_of m ρ c main_arg8 (by decide)).trans <| (Wv17_of m ρ c main_arg8 (by decide)).trans <| (Wv16_of_ne m ρ c main_arg8 (by decide)).trans <| (Wv15_of m ρ c main_arg8 (by decide)).trans <| (Wv14_of_ne m ρ c main_arg8 (by decide)).trans <| (Wv13_of m ρ c main_arg8 (by decide)).trans <| (Wv12_of_ne m ρ c main_arg8 (by decide)).trans <| (Wv11_of_ne m ρ c main_arg8 (by decide)).trans <| (Wv10_of m ρ c main_arg8 (by decide)).trans <| (Wv9_of_ne m ρ c main_arg8 (by decide)).trans <| (Wv8_of m ρ c main_arg8 (by decide)).trans <| (Wv7_of_ne m ρ c main_arg8 (by decide)).trans <| (Wv6_of_ne m ρ c main_arg8 (by decide)).trans <| (Wv5_of m ρ c main_arg8 (by decide)).trans <| (Wv4_of_ne m ρ c main_arg8 (by decide)).trans <| (Wv3_of m ρ c main_arg8 (by decide)).trans <| (Wv2_of_ne m ρ c main_arg8 (by decide)).trans <| (Wv1_of m ρ c main_arg8 (by decide)).trans <| rfl
theorem Wv21_main_arg9 (c : Dev nD) : Wv21 m ρ c (Proc.devRef .tc main_arg9) = m ((c : Thread nD τ).loc main_arg9) :=
  (Wv21_of m ρ c main_arg9 (by decide)).trans <| (Wv20_of m ρ c main_arg9 (by decide)).trans <| (Wv19_of m ρ c main_arg9 (by decide)).trans <| (Wv18_of m ρ c main_arg9 (by decide)).trans <| (Wv17_of m ρ c main_arg9 (by decide)).trans <| (Wv16_of_ne m ρ c main_arg9 (by decide)).trans <| (Wv15_of m ρ c main_arg9 (by decide)).trans <| (Wv14_of_ne m ρ c main_arg9 (by decide)).trans <| (Wv13_of m ρ c main_arg9 (by decide)).trans <| (Wv12_of_ne m ρ c main_arg9 (by decide)).trans <| (Wv11_of_ne m ρ c main_arg9 (by decide)).trans <| (Wv10_of m ρ c main_arg9 (by decide)).trans <| (Wv9_of_ne m ρ c main_arg9 (by decide)).trans <| (Wv8_of m ρ c main_arg9 (by decide)).trans <| (Wv7_of_ne m ρ c main_arg9 (by decide)).trans <| (Wv6_of_ne m ρ c main_arg9 (by decide)).trans <| (Wv5_of m ρ c main_arg9 (by decide)).trans <| (Wv4_of_ne m ρ c main_arg9 (by decide)).trans <| (Wv3_of m ρ c main_arg9 (by decide)).trans <| (Wv2_of_ne m ρ c main_arg9 (by decide)).trans <| (Wv1_of m ρ c main_arg9 (by decide)).trans <| rfl
theorem Wv21_main_arg10 (c : Dev nD) : Wv21 m ρ c (Proc.devRef .tc main_arg10) = m ((c : Thread nD τ).loc main_arg10) :=
  (Wv21_of m ρ c main_arg10 (by decide)).trans <| (Wv20_of m ρ c main_arg10 (by decide)).trans <| (Wv19_of m ρ c main_arg10 (by decide)).trans <| (Wv18_of m ρ c main_arg10 (by decide)).trans <| (Wv17_of m ρ c main_arg10 (by decide)).trans <| (Wv16_of_ne m ρ c main_arg10 (by decide)).trans <| (Wv15_of m ρ c main_arg10 (by decide)).trans <| (Wv14_of_ne m ρ c main_arg10 (by decide)).trans <| (Wv13_of m ρ c main_arg10 (by decide)).trans <| (Wv12_of_ne m ρ c main_arg10 (by decide)).trans <| (Wv11_of_ne m ρ c main_arg10 (by decide)).trans <| (Wv10_of m ρ c main_arg10 (by decide)).trans <| (Wv9_of_ne m ρ c main_arg10 (by decide)).trans <| (Wv8_of m ρ c main_arg10 (by decide)).trans <| (Wv7_of_ne m ρ c main_arg10 (by decide)).trans <| (Wv6_of_ne m ρ c main_arg10 (by decide)).trans <| (Wv5_of m ρ c main_arg10 (by decide)).trans <| (Wv4_of_ne m ρ c main_arg10 (by decide)).trans <| (Wv3_of m ρ c main_arg10 (by decide)).trans <| (Wv2_of_ne m ρ c main_arg10 (by decide)).trans <| (Wv1_of m ρ c main_arg10 (by decide)).trans <| rfl
theorem Wv21_main_arg11 (c : Dev nD) : Wv21 m ρ c (Proc.devRef .tc main_arg11) = m ((c : Thread nD τ).loc main_arg11) :=
  (Wv21_of m ρ c main_arg11 (by decide)).trans <| (Wv20_of m ρ c main_arg11 (by decide)).trans <| (Wv19_of m ρ c main_arg11 (by decide)).trans <| (Wv18_of m ρ c main_arg11 (by decide)).trans <| (Wv17_of m ρ c main_arg11 (by decide)).trans <| (Wv16_of_ne m ρ c main_arg11 (by decide)).trans <| (Wv15_of m ρ c main_arg11 (by decide)).trans <| (Wv14_of_ne m ρ c main_arg11 (by decide)).trans <| (Wv13_of m ρ c main_arg11 (by decide)).trans <| ((Wv12_arr m ρ c 1).trans (((dat6 (Vw11 m ρ) c).arrAt_in 1 rfl _).trans (A_eq6 (Vw11 m ρ) c 1))).trans <| (Wv11_of_ne m ρ c main_arg11 (by decide)).trans <| (Wv10_of m ρ c main_arg11 (by decide)).trans <| (Wv9_of_ne m ρ c main_arg11 (by decide)).trans <| (Wv8_of m ρ c main_arg11 (by decide)).trans <| (Wv7_of_ne m ρ c main_arg11 (by decide)).trans <| (Wv6_of_ne m ρ c main_arg11 (by decide)).trans <| (Wv5_of m ρ c main_arg11 (by decide)).trans <| (Wv4_of_ne m ρ c main_arg11 (by decide)).trans <| (Wv3_of m ρ c main_arg11 (by decide)).trans <| (Wv2_of_ne m ρ c main_arg11 (by decide)).trans <| (Wv1_of m ρ c main_arg11 (by decide)).trans <| rfl
theorem Wv21_main_arg12 (c : Dev nD) : Wv21 m ρ c (Proc.devRef .tc main_arg12) = m ((c : Thread nD τ).loc main_arg12) :=
  (Wv21_of m ρ c main_arg12 (by decide)).trans <| (Wv20_of m ρ c main_arg12 (by decide)).trans <| (Wv19_of m ρ c main_arg12 (by decide)).trans <| (Wv18_of m ρ c main_arg12 (by decide)).trans <| (Wv17_of m ρ c main_arg12 (by decide)).trans <| (Wv16_of_ne m ρ c main_arg12 (by decide)).trans <| (Wv15_of m ρ c main_arg12 (by decide)).trans <| (Wv14_of_ne m ρ c main_arg12 (by decide)).trans <| (Wv13_of m ρ c main_arg12 (by decide)).trans <| (Wv12_of_ne m ρ c main_arg12 (by decide)).trans <| (Wv11_of_ne m ρ c main_arg12 (by decide)).trans <| (Wv10_of m ρ c main_arg12 (by decide)).trans <| (Wv9_of_ne m ρ c main_arg12 (by decide)).trans <| (Wv8_of m ρ c main_arg12 (by decide)).trans <| (Wv7_of_ne m ρ c main_arg12 (by decide)).trans <| (Wv6_of_ne m ρ c main_arg12 (by decide)).trans <| (Wv5_of m ρ c main_arg12 (by decide)).trans <| (Wv4_of_ne m ρ c main_arg12 (by decide)).trans <| (Wv3_of m ρ c main_arg12 (by decide)).trans <| (Wv2_of_ne m ρ c main_arg12 (by decide)).trans <| (Wv1_of m ρ c main_arg12 (by decide)).trans <| rfl
theorem Wv21_main_arg13 (c : Dev nD) : Wv21 m ρ c (Proc.devRef .tc main_arg13) = m ((c : Thread nD τ).loc main_arg13) :=
  (Wv21_of m ρ c main_arg13 (by decide)).trans <| (Wv20_of m ρ c main_arg13 (by decide)).trans <| (Wv19_of m ρ c main_arg13 (by decide)).trans <| (Wv18_of m ρ c main_arg13 (by decide)).trans <| (Wv17_of m ρ c main_arg13 (by decide)).trans <| (Wv16_of_ne m ρ c main_arg13 (by decide)).trans <| (Wv15_of m ρ c main_arg13 (by decide)).trans <| (Wv14_of_ne m ρ c main_arg13 (by decide)).trans <| (Wv13_of m ρ c main_arg13 (by decide)).trans <| (Wv12_of_ne m ρ c main_arg13 (by decide)).trans <| (Wv11_of_ne m ρ c main_arg13 (by decide)).trans <| (Wv10_of m ρ c main_arg13 (by decide)).trans <| (Wv9_of_ne m ρ c main_arg13 (by decide)).trans <| (Wv8_of m ρ c main_arg13 (by decide)).trans <| (Wv7_of_ne m ρ c main_arg13 (by decide)).trans <| (Wv6_of_ne m ρ c main_arg13 (by decide)).trans <| (Wv5_of m ρ c main_arg13 (by decide)).trans <| (Wv4_of_ne m ρ c main_arg13 (by decide)).trans <| (Wv3_of m ρ c main_arg13 (by decide)).trans <| (Wv2_of_ne m ρ c main_arg13 (by decide)).trans <| (Wv1_of m ρ c main_arg13 (by decide)).trans <| rfl
theorem Wv21_main_arg14 (c : Dev nD) : Wv21 m ρ c (Proc.devRef .tc main_arg14) = m ((c : Thread nD τ).loc main_arg14) :=
  (Wv21_of m ρ c main_arg14 (by decide)).trans <| (Wv20_of m ρ c main_arg14 (by decide)).trans <| (Wv19_of m ρ c main_arg14 (by decide)).trans <| (Wv18_of m ρ c main_arg14 (by decide)).trans <| (Wv17_of m ρ c main_arg14 (by decide)).trans <| (Wv16_of_ne m ρ c main_arg14 (by decide)).trans <| (Wv15_of m ρ c main_arg14 (by decide)).trans <| (Wv14_of_ne m ρ c main_arg14 (by decide)).trans <| (Wv13_of m ρ c main_arg14 (by decide)).trans <| (Wv12_of_ne m ρ c main_arg14 (by decide)).trans <| (Wv11_of_ne m ρ c main_arg14 (by decide)).trans <| (Wv10_of m ρ c main_arg14 (by decide)).trans <| (Wv9_of_ne m ρ c main_arg14 (by decide)).trans <| (Wv8_of m ρ c main_arg14 (by decide)).trans <| (Wv7_of_ne m ρ c main_arg14 (by decide)).trans <| (Wv6_of_ne m ρ c main_arg14 (by decide)).trans <| (Wv5_of m ρ c main_arg14 (by decide)).trans <| (Wv4_of_ne m ρ c main_arg14 (by decide)).trans <| (Wv3_of m ρ c main_arg14 (by decide)).trans <| (Wv2_of_ne m ρ c main_arg14 (by decide)).trans <| (Wv1_of m ρ c main_arg14 (by decide)).trans <| rfl

/-! ## The proof data family and what rides beside the buffers -/

/-- Every pipeline's proof data, each at its region's entry contents. -/
def pdats : (p : Fin 9) → (c : Dev nD) → Dat τ (Elt F) Unit ℕ (UR sig nD τ) ℕ (Pipeline.pin (pcfgs (F := F)) adm p) c
  | ⟨0, _⟩ => fun c => dat0 (Vw1 m ρ) c
  | ⟨1, _⟩ => fun c => dat1 (Vw3 m ρ) c
  | ⟨2, _⟩ => fun c => dat2 (Vw5 m ρ) c
  | ⟨3, _⟩ => fun c => dat3 (Vw6 m ρ) c
  | ⟨4, _⟩ => fun c => dat4 (Vw8 m ρ) c
  | ⟨5, _⟩ => fun c => dat5 (Vw10 m ρ) c
  | ⟨6, _⟩ => fun c => dat6 (Vw11 m ρ) c
  | ⟨7, _⟩ => fun c => dat7 (Vw13 m ρ) c
  | ⟨8, _⟩ => fun c => dat8 (Vw15 m ρ) c
abbrev Vr0 : Variants := Variants.none
abbrev Lx : GSem nD τ sig → Finset Unit := fun _ => ∅
abbrev lvx : GSem nD τ sig → Unit → ℕ := fun _ _ => 0
/-- The core's generator register at some state and its dues, at nothing. -/
abbrev Rst (c : Dev nD) : sProp 𝕄 := iprop((∃ r, prngReg c r) ∗ ∃ W, owes (c : Thread nD τ) (0 : CellTallies nD τ sig Unit) W)
/-- A host stretch as a segment over the unscoped references from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Vr0 Lx lvx :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rst
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tfin (c : Dev nD) : sProp 𝕄 := iprop(StableHlo.held (c : Thread nD τ) (Pipeline.ucRefs τ sig) (Wv21 m ρ c) ∗ ∃ r, prngReg c r)

end Cert.KernelIdeal.Hand

end
-- ==== Proof.RunReg0.lean ====
/-
  Region 0 as a segment of the run: entered with every unscoped buffer at the contents before it, left with them at
  the contents after it. Its arrays are split out of the unscoped buffers and put back at the exit contents; the
  generator register passes into the pipeline's invariant and out; nothing is owed; the kernel has no semaphore of its own.
-/
import proofs.«100384_j8693013807615_2_alg».proof.Proof.RunFold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg0 : Pipeline.RegionSeg (pcfgs (F := F)) adm (pdats m ρ) () defs₀ Vr0 Lx lvx 0 where
  win := launch0.win.to₀
  block_pos := launch0.block_pos
  stage_whole := launch0.stage_whole
  K := PEmpty
  osem k := k.elim
  ho := Pipeline.OwnSemFacts.none _
  hbody c := (body_obligation0 (Vw1 m ρ) c).loose
  hwaits := Pipeline.hwaits_of_owed_zero _ _ _ _ Lx lvx 0 fun _ _ => rfl
  pre c := iprop(StableHlo.held (c : Thread nD τ) (Pipeline.ucRefs τ sig) (Wv1 m ρ c) ∗ Rst c)
  post c := iprop(StableHlo.held (c : Thread nD τ) (Pipeline.ucRefs τ sig) (Wv2 m ρ c) ∗ Rst c)
  X c := iprop(∃ r, prngReg c r)
  Y c := iprop(∃ r, prngReg c r)
  Z c := Pipeline.unscopedRest (Ix := Unit) (Name := ℕ) (U := UR sig nD τ) (Lvl := ℕ) spec0 c (Vw1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Vw1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Vw1 m ρ c) (Vw2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.RunReg1.lean ====
/-
  Region 1 as a segment of the run: entered with every unscoped buffer at the contents before it, left with them at
  the contents after it. Its arrays are split out of the unscoped buffers and put back at the exit contents; the
  generator register passes into the pipeline's invariant and out; nothing is owed; the kernel has no semaphore of its own.
-/
import proofs.«100384_j8693013807615_2_alg».proof.Proof.RunFold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg1 : Pipeline.RegionSeg (pcfgs (F := F)) adm (pdats m ρ) () defs₀ Vr0 Lx lvx 1 where
  win := launch1.win.to₀
  block_pos := launch1.block_pos
  stage_whole := launch1.stage_whole
  K := PEmpty
  osem k := k.elim
  ho := Pipeline.OwnSemFacts.none _
  hbody c := (body_obligation1 (Vw3 m ρ) c).loose
  hwaits := Pipeline.hwaits_of_owed_zero _ _ _ _ Lx lvx 1 fun _ _ => rfl
  pre c := iprop(StableHlo.held (c : Thread nD τ) (Pipeline.ucRefs τ sig) (Wv3 m ρ c) ∗ Rst c)
  post c := iprop(StableHlo.held (c : Thread nD τ) (Pipeline.ucRefs τ sig) (Wv4 m ρ c) ∗ Rst c)
  X c := iprop(∃ r, prngReg c r)
  Y c := iprop(∃ r, prngReg c r)
  Z c := Pipeline.unscopedRest (Ix := Unit) (Name := ℕ) (U := UR sig nD τ) (Lvl := ℕ) spec1 c (Vw3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vw3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vw3 m ρ c) (Vw4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.RunReg2.lean ====
/-
  Region 2 as a segment of the run: entered with every unscoped buffer at the contents before it, left with them at
  the contents after it. Its arrays are split out of the unscoped buffers and put back at the exit contents; the
  generator register passes into the pipeline's invariant and out; nothing is owed; the kernel has no semaphore of its own.
-/
import proofs.«100384_j8693013807615_2_alg».proof.Proof.RunFold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg2 : Pipeline.RegionSeg (pcfgs (F := F)) adm (pdats m ρ) () defs₀ Vr0 Lx lvx 2 where
  win := launch2.win.to₀
  block_pos := launch2.block_pos
  stage_whole := launch2.stage_whole
  K := PEmpty
  osem k := k.elim
  ho := Pipeline.OwnSemFacts.none _
  hbody c := (body_obligation2 (Vw5 m ρ) c).loose
  hwaits := Pipeline.hwaits_of_owed_zero _ _ _ _ Lx lvx 2 fun _ _ => rfl
  pre c := iprop(StableHlo.held (c : Thread nD τ) (Pipeline.ucRefs τ sig) (Wv5 m ρ c) ∗ Rst c)
  post c := iprop(StableHlo.held (c : Thread nD τ) (Pipeline.ucRefs τ sig) (Wv6 m ρ c) ∗ Rst c)
  X c := iprop(∃ r, prngReg c r)
  Y c := iprop(∃ r, prngReg c r)
  Z c := Pipeline.unscopedRest (Ix := Unit) (Name := ℕ) (U := UR sig nD τ) (Lvl := ℕ) spec2 c (Vw5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (Vw5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (Vw5 m ρ c) (Vw6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.RunReg3.lean ====
/-
  Region 3 as a segment of the run: entered with every unscoped buffer at the contents before it, left with them at
  the contents after it. Its arrays are split out of the unscoped buffers and put back at the exit contents; the
  generator register passes into the pipeline's invariant and out; nothing is owed; the kernel has no semaphore of its own.
-/
import proofs.«100384_j8693013807615_2_alg».proof.Proof.RunFold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg3 : Pipeline.RegionSeg (pcfgs (F := F)) adm (pdats m ρ) () defs₀ Vr0 Lx lvx 3 where
  win := launch3.win.to₀
  block_pos := launch3.block_pos
  stage_whole := launch3.stage_whole
  K := PEmpty
  osem k := k.elim
  ho := Pipeline.OwnSemFacts.none _
  hbody c := (body_obligation3 (Vw6 m ρ) c).loose
  hwaits := Pipeline.hwaits_of_owed_zero _ _ _ _ Lx lvx 3 fun _ _ => rfl
  pre c := iprop(StableHlo.held (c : Thread nD τ) (Pipeline.ucRefs τ sig) (Wv6 m ρ c) ∗ Rst c)
  post c := iprop(StableHlo.held (c : Thread nD τ) (Pipeline.ucRefs τ sig) (Wv7 m ρ c) ∗ Rst c)
  X c := iprop(∃ r, prngReg c r)
  Y c := iprop(∃ r, prngReg c r)
  Z c := Pipeline.unscopedRest (Ix := Unit) (Name := ℕ) (U := UR sig nD τ) (Lvl := ℕ) spec3 c (Vw6 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (Vw6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (Vw6 m ρ c) (Vw7 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.RunReg4.lean ====
/-
  Region 4 as a segment of the run: entered with every unscoped buffer at the contents before it, left with them at
  the contents after it. Its arrays are split out of the unscoped buffers and put back at the exit contents; the
  generator register passes into the pipeline's invariant and out; nothing is owed; the kernel has no semaphore of its own.
-/
import proofs.«100384_j8693013807615_2_alg».proof.Proof.RunFold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg4 : Pipeline.RegionSeg (pcfgs (F := F)) adm (pdats m ρ) () defs₀ Vr0 Lx lvx 4 where
  win := launch4.win.to₀
  block_pos := launch4.block_pos
  stage_whole := launch4.stage_whole
  K := PEmpty
  osem k := k.elim
  ho := Pipeline.OwnSemFacts.none _
  hbody c := (body_obligation4 (Vw8 m ρ) c).loose
  hwaits := Pipeline.hwaits_of_owed_zero _ _ _ _ Lx lvx 4 fun _ _ => rfl
  pre c := iprop(StableHlo.held (c : Thread nD τ) (Pipeline.ucRefs τ sig) (Wv8 m ρ c) ∗ Rst c)
  post c := iprop(StableHlo.held (c : Thread nD τ) (Pipeline.ucRefs τ sig) (Wv9 m ρ c) ∗ Rst c)
  X c := iprop(∃ r, prngReg c r)
  Y c := iprop(∃ r, prngReg c r)
  Z c := Pipeline.unscopedRest (Ix := Unit) (Name := ℕ) (U := UR sig nD τ) (Lvl := ℕ) spec4 c (Vw8 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (Vw8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (Vw8 m ρ c) (Vw9 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.RunReg5.lean ====
/-
  Region 5 as a segment of the run: entered with every unscoped buffer at the contents before it, left with them at
  the contents after it. Its arrays are split out of the unscoped buffers and put back at the exit contents; the
  generator register passes into the pipeline's invariant and out; nothing is owed; the kernel has no semaphore of its own.
-/
import proofs.«100384_j8693013807615_2_alg».proof.Proof.RunFold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg5 : Pipeline.RegionSeg (pcfgs (F := F)) adm (pdats m ρ) () defs₀ Vr0 Lx lvx 5 where
  win := launch5.win.to₀
  block_pos := launch5.block_pos
  stage_whole := launch5.stage_whole
  K := PEmpty
  osem k := k.elim
  ho := Pipeline.OwnSemFacts.none _
  hbody c := (body_obligation5 (Vw10 m ρ) c).loose
  hwaits := Pipeline.hwaits_of_owed_zero _ _ _ _ Lx lvx 5 fun _ _ => rfl
  pre c := iprop(StableHlo.held (c : Thread nD τ) (Pipeline.ucRefs τ sig) (Wv10 m ρ c) ∗ Rst c)
  post c := iprop(StableHlo.held (c : Thread nD τ) (Pipeline.ucRefs τ sig) (Wv11 m ρ c) ∗ Rst c)
  X c := iprop(∃ r, prngReg c r)
  Y c := iprop(∃ r, prngReg c r)
  Z c := Pipeline.unscopedRest (Ix := Unit) (Name := ℕ) (U := UR sig nD τ) (Lvl := ℕ) spec5 c (Vw10 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (Vw10 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (Vw10 m ρ c) (Vw11 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.RunReg6.lean ====
/-
  Region 6 as a segment of the run: entered with every unscoped buffer at the contents before it, left with them at
  the contents after it. Its arrays are split out of the unscoped buffers and put back at the exit contents; the
  generator register passes into the pipeline's invariant and out; nothing is owed; the kernel has no semaphore of its own.
-/
import proofs.«100384_j8693013807615_2_alg».proof.Proof.RunFold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg6 : Pipeline.RegionSeg (pcfgs (F := F)) adm (pdats m ρ) () defs₀ Vr0 Lx lvx 6 where
  win := launch6.win.to₀
  block_pos := launch6.block_pos
  stage_whole := launch6.stage_whole
  K := PEmpty
  osem k := k.elim
  ho := Pipeline.OwnSemFacts.none _
  hbody c := (body_obligation6 (Vw11 m ρ) c).loose
  hwaits := Pipeline.hwaits_of_owed_zero _ _ _ _ Lx lvx 6 fun _ _ => rfl
  pre c := iprop(StableHlo.held (c : Thread nD τ) (Pipeline.ucRefs τ sig) (Wv11 m ρ c) ∗ Rst c)
  post c := iprop(StableHlo.held (c : Thread nD τ) (Pipeline.ucRefs τ sig) (Wv12 m ρ c) ∗ Rst c)
  X c := iprop(∃ r, prngReg c r)
  Y c := iprop(∃ r, prngReg c r)
  Z c := Pipeline.unscopedRest (Ix := Unit) (Name := ℕ) (U := UR sig nD τ) (Lvl := ℕ) spec6 c (Vw11 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (Vw11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (Vw11 m ρ c) (Vw12 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.RunReg7.lean ====
/-
  Region 7 as a segment of the run: entered with every unscoped buffer at the contents before it, left with them at
  the contents after it. Its arrays are split out of the unscoped buffers and put back at the exit contents; the
  generator register passes into the pipeline's invariant and out; nothing is owed; the kernel has no semaphore of its own.
-/
import proofs.«100384_j8693013807615_2_alg».proof.Proof.RunFold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg7 : Pipeline.RegionSeg (pcfgs (F := F)) adm (pdats m ρ) () defs₀ Vr0 Lx lvx 7 where
  win := launch7.win.to₀
  block_pos := launch7.block_pos
  stage_whole := launch7.stage_whole
  K := PEmpty
  osem k := k.elim
  ho := Pipeline.OwnSemFacts.none _
  hbody c := (body_obligation7 (Vw13 m ρ) c).loose
  hwaits := Pipeline.hwaits_of_owed_zero _ _ _ _ Lx lvx 7 fun _ _ => rfl
  pre c := iprop(StableHlo.held (c : Thread nD τ) (Pipeline.ucRefs τ sig) (Wv13 m ρ c) ∗ Rst c)
  post c := iprop(StableHlo.held (c : Thread nD τ) (Pipeline.ucRefs τ sig) (Wv14 m ρ c) ∗ Rst c)
  X c := iprop(∃ r, prngReg c r)
  Y c := iprop(∃ r, prngReg c r)
  Z c := Pipeline.unscopedRest (Ix := Unit) (Name := ℕ) (U := UR sig nD τ) (Lvl := ℕ) spec7 c (Vw13 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (Vw13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m ρ 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (Vw13 m ρ c) (Vw14 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.RunReg8.lean ====
/-
  Region 8 as a segment of the run: entered with every unscoped buffer at the contents before it, left with them at
  the contents after it. Its arrays are split out of the unscoped buffers and put back at the exit contents; the
  generator register passes into the pipeline's invariant and out; nothing is owed; the kernel has no semaphore of its own.
-/
import proofs.«100384_j8693013807615_2_alg».proof.Proof.RunFold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg8 : Pipeline.RegionSeg (pcfgs (F := F)) adm (pdats m ρ) () defs₀ Vr0 Lx lvx 8 where
  win := launch8.win.to₀
  block_pos := launch8.block_pos
  stage_whole := launch8.stage_whole
  K := PEmpty
  osem k := k.elim
  ho := Pipeline.OwnSemFacts.none _
  hbody c := (body_obligation8 (Vw15 m ρ) c).loose
  hwaits := Pipeline.hwaits_of_owed_zero _ _ _ _ Lx lvx 8 fun _ _ => rfl
  pre c := iprop(StableHlo.held (c : Thread nD τ) (Pipeline.ucRefs τ sig) (Wv15 m ρ c) ∗ Rst c)
  post c := iprop(StableHlo.held (c : Thread nD τ) (Pipeline.ucRefs τ sig) (Wv16 m ρ c) ∗ Rst c)
  X c := iprop(∃ r, prngReg c r)
  Y c := iprop(∃ r, prngReg c r)
  Z c := Pipeline.unscopedRest (Ix := Unit) (Name := ℕ) (U := UR sig nD τ) (Lvl := ℕ) spec8 c (Vw15 m ρ c)
  hentry c := by
    rw [Pipeline.ownSems0_none]
    have hsplit := Pipeline.arrays_of_unscopedBufs (p := 8) (pcfgs (F := F)) adm (pdats m ρ) launch8.win launch8.arr_whole c
      ((pdats m ρ 8 c).share_full fun _ => rfl) (Vw15 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m ρ 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m ρ) ((pdats m ρ 8 c).share_full fun _ => rfl)
      (Vw15 m ρ c) (Vw16 m ρ c) ((pdats m ρ 8 c).arrAt · cfg8.N) (hF8 m ρ c) (hrest8 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.Run.lean ====
/-
  The run of the whole entry function: its twenty-one items (twelve stretches of host operations, nine kernel regions)
  as segments, and the launch over them. Every weakly fair execution from any memory with zero counters terminates,
  nothing faulting, with the two results at the last boundary's contents and every argument array as launched.
-/
import proofs.«100384_j8693013807615_2_alg».proof.Proof.RunFold
import proofs.«100384_j8693013807615_2_alg».proof.Proof.RunReg0
import proofs.«100384_j8693013807615_2_alg».proof.Proof.RunReg1
import proofs.«100384_j8693013807615_2_alg».proof.Proof.RunReg2
import proofs.«100384_j8693013807615_2_alg».proof.Proof.RunReg3
import proofs.«100384_j8693013807615_2_alg».proof.Proof.RunReg4
import proofs.«100384_j8693013807615_2_alg».proof.Proof.RunReg5
import proofs.«100384_j8693013807615_2_alg».proof.Proof.RunReg6
import proofs.«100384_j8693013807615_2_alg».proof.Proof.RunReg7
import proofs.«100384_j8693013807615_2_alg».proof.Proof.RunReg8
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev segs : List (Pipeline.Seg (pcfgs (F := F)) adm (pdats m ρ) () defs₀ Vr0 Lx lvx) :=
  [ .host (hseg hostOps0 hostOps0_sub hostOps0_fresh (Wv0 m ρ)),
    .region (reg0 m ρ),
    .host (hseg hostOps1 hostOps1_sub hostOps1_fresh (Wv2 m ρ)),
    .region (reg1 m ρ),
    .host (hseg hostOps2 hostOps2_sub hostOps2_fresh (Wv4 m ρ)),
    .region (reg2 m ρ),
    .region (reg3 m ρ),
    .host (hseg hostOps4 hostOps4_sub hostOps4_fresh (Wv7 m ρ)),
    .region (reg4 m ρ),
    .host (hseg hostOps5 hostOps5_sub hostOps5_fresh (Wv9 m ρ)),
    .region (reg5 m ρ),
    .region (reg6 m ρ),
    .host (hseg hostOps7 hostOps7_sub hostOps7_fresh (Wv12 m ρ)),
    .region (reg7 m ρ),
    .host (hseg hostOps8 hostOps8_sub hostOps8_fresh (Wv14 m ρ)),
    .region (reg8 m ρ),
    .host (hseg hostOps9 hostOps9_sub hostOps9_fresh (Wv16 m ρ)),
    .host (hseg hostOps9_1 hostOps9_1_sub hostOps9_1_fresh (Wv17 m ρ)),
    .host (hseg hostOps9_2 hostOps9_2_sub hostOps9_2_fresh (Wv18 m ρ)),
    .host (hseg hostOps9_3 hostOps9_3_sub hostOps9_3_fresh (Wv19 m ρ)),
    .host (hseg hostOps9_4 hostOps9_4_sub hostOps9_4_fresh (Wv20 m ρ)) ]

/-- The entry function is the run of its segments. -/
theorem main_run (c : Dev nD) : main (F := F) c = Pipeline.Seg.run (segs m ρ) := (main_chain c).trans (by chain_rfl)

set_option backward.isDefEq.respectTransparency.types false in
theorem run : θ_run defs (onTc (τ := τ) (main (F := F))) ⟨m, fun _ => 0, ρ⟩ (fun r => ∀ c : Dev nD,
      r.2.mem ((c.tc : Thread nD τ).loc main_v146) = Wv21 m ρ c (Proc.devRef .tc main_v146)
      ∧ r.2.mem ((c.tc : Thread nD τ).loc main_v151) = Wv21 m ρ c (Proc.devRef .tc main_v151)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ Vr0 Lx lvx m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wv0 m ρ c) ∗ Rst c)) (Tₙ := Tfin m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => sep_assoc'⟩)
    (hinit := by
      refine Pipeline.initEach Lx lvx fun c => ?_
      rw [show unscopedBufs c (fun b => m ((c : Thread nD τ).loc b)) = StableHlo.held (c : Thread nD τ) (Pipeline.ucRefs τ sig) (Wv0 m ρ c)
        from Pipeline.unscopedBufs_held c (Wv0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wv21 m ρ c b)
    (hfin := fun c s' => by
      iintro ⟨⟨Hh, -⟩, HSI⟩
      unfold StableHlo.held
      imodintro
      iapply (pointsTo_read_all (Pipeline.ucRefs τ sig) (fun b => (((c : Thread nD τ)).1, b)) (Wv21 m ρ c) s')
      isplitl [Hh] <;> iassumption)
    (hQ := fun s h c =>
      ⟨h c _ (mem_uc main_v146 (by decide)), h c _ (mem_uc main_v151 (by decide)),
       (h c _ (mem_uc main_arg0 (by decide))).trans (Wv21_main_arg0 m ρ c),
       (h c _ (mem_uc main_arg1 (by decide))).trans (Wv21_main_arg1 m ρ c),
       (h c _ (mem_uc main_arg2 (by decide))).trans (Wv21_main_arg2 m ρ c),
       (h c _ (mem_uc main_arg3 (by decide))).trans (Wv21_main_arg3 m ρ c),
       (h c _ (mem_uc main_arg4 (by decide))).trans (Wv21_main_arg4 m ρ c),
       (h c _ (mem_uc main_arg5 (by decide))).trans (Wv21_main_arg5 m ρ c),
       (h c _ (mem_uc main_arg6 (by decide))).trans (Wv21_main_arg6 m ρ c),
       (h c _ (mem_uc main_arg7 (by decide))).trans (Wv21_main_arg7 m ρ c),
       (h c _ (mem_uc main_arg8 (by decide))).trans (Wv21_main_arg8 m ρ c),
       (h c _ (mem_uc main_arg9 (by decide))).trans (Wv21_main_arg9 m ρ c),
       (h c _ (mem_uc main_arg10 (by decide))).trans (Wv21_main_arg10 m ρ c),
       (h c _ (mem_uc main_arg11 (by decide))).trans (Wv21_main_arg11 m ρ c),
       (h c _ (mem_uc main_arg12 (by decide))).trans (Wv21_main_arg12 m ρ c),
       (h c _ (mem_uc main_arg13 (by decide))).trans (Wv21_main_arg13 m ρ c),
       (h c _ (mem_uc main_arg14 (by decide))).trans (Wv21_main_arg14 m ρ c)⟩)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => (h c).2.2) (run m ρ)

end Cert.KernelIdeal.Hand

end
-- ==== Proof.KRegionA0.lean ====
/-
  The dense-transform region 0: at grid point t the body reads the [2000, ·] row block of the activations and the
  whole weight matrix, and leaves their product in the output block. Stated at the buffer contents V the region is
  entered with: the windows' blocks, the body's triple, the pipeline's proof data and the body obligation.
-/
import proofs.«100384_j8693013807615_2_alg».proof.Proof.Gen.Kernel.Launch
import proofs.«100384_j8693013807615_2_alg».proof.Proof.Gen.Kernel.Skeleton
import proofs.«100384_j8693013807615_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activations' staging buffer holds the point's row block, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weights' staging buffer holds the whole matrix at every point (its block index never moves). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_z : Rect S2000x128 := Rect.unit (s := S2000x128) ![0, 0] S2000x128.size inb_S2000x128_S2000x128_0_0
abbrev r0_w : Rect S128x64 := Rect.unit (s := S128x64) ![0, 0] S128x64.size inb_S128x64_S128x64_0_0
abbrev r0_o : Rect S2000x64 := Rect.unit (s := S2000x64) ![0, 0] S2000x64.size inb_S2000x64_S2000x64_0_0

/-- The output block after the body: its one whole-block store of the product of the two loaded blocks. -/
def out0_2 (x0 : Vec F S2000x128 .f32) (x1 : Vec F S128x64 .f32) : Vec F S2000x64 .f32 :=
  View.canon [⟨r0_o, k0_pay1 (View.ld x0 r0_z) (View.ld x1 r0_w)⟩]

theorem cover0_2 (p0 : Vec F S2000x64 .f32) (y : S2000x64.Idx) :
    ∃ pc ∈ ([⟨r0_o, p0⟩] : List (View.Piece (Elt F) S2000x64 .f32)), y ∈ pc.1.set :=
  View.cover_of_tiled [⟨r0_o, p0⟩] S2000x64.size (by rfl) y

set_option maxHeartbeats 1000000 in
/-- The body on whole staging memrefs: the two inputs keep their contents, the output ends at the product. -/
theorem sound_kernel0 (c : Dev nD) (E : Set ℕ) (i : grid0.Coords)
    (arg1 : Memref sig .tc .vmem S2000x128 .f32) (harg1 : arg1.IsWhole) (arg2 : Memref sig .tc .vmem S128x64 .f32) (harg2 : arg2.IsWhole)
    (arg3 : Memref sig .tc .vmem S2000x64 .f32) (harg3 : arg3.IsWhole)
    (x0 : Vec F S2000x128 .f32) (x1 : Vec F S128x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The pipeline's proof data on core c: the arrays as the region finds them; after the body at point t each input's
    buffer at its block and the output's at the product of the two blocks; the class invariant; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KRegionStats1Runs.lean ====
/- The bias + rectifier + running-statistics region (pipeline 1), stated at the buffer contents `V` the region
   is entered with: the windows' blocks, the input windows' staging contents at every point, the body's one
   branch condition in closed form, and the staging memrefs the body is called with. Shared by the two
   whole-body runs (the first grid point, which zeroes the two accumulators, and every later point). -/
import proofs.«100384_j8693013807615_2_alg».proof.Proof.Gen.Kernel.Launch
import proofs.«100384_j8693013807615_2_alg».proof.Proof.Gen.Kernel.Skeleton
import proofs.«100384_j8693013807615_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (the aggregate's row block) holds its block at every point, for any proof data whose array is
    `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (the bias row; one block, fetched once) holds its block at every point, fetched there or not:
    unfetched, its block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end Region

/-! ## The body's branch condition -/

/-- The condition of the body's one conditional (the accumulators' reset), from the grid coordinates. -/
abbrev cond1_0 (i : grid1.Coords) : Prop := (Scalar.cmpi .ne (Scalar.extui (Scalar.cmpi .eq (BitVec.ofNat 32 (i 0).val) 0#32)) 0#32) = 1#1
/-- It holds at the first point only — decided over the grid's 25 points. -/
theorem hcond1_0 : ∀ t : Fin cfg1.N, cond1_0 (grid1.coords t) ↔ t.val % 25 = 0 :=
  (by decide +kernel : ∀ t : Fin grid1.N, cond1_0 (grid1.coords t) ↔ t.val % 25 = 0)

/-! ## The staging memrefs -/

/-- One staging buffer of each output window, through which its contents are stated (the choice does not matter). -/
abbrev VO1_2 : View sig .tc .vmem S2000x64 .f32 := (Memref.whole cc1_stg2_0 : Memref sig .tc .vmem S2000x64 .f32).view
abbrev VO1_3 : View sig .tc .vmem S1x64 .f32 := (Memref.whole cc1_stg3_0 : Memref sig .tc .vmem S1x64 .f32).view
abbrev VO1_4 : View sig .tc .vmem S1x64 .f32 := (Memref.whole cc1_stg4_0 : Memref sig .tc .vmem S1x64 .f32).view
/-- Each window's current staging memref at point `t`, spelled as the pipeline passes it (`bodyAt1`), and its wholeness. -/
abbrev ms1_0 (t : Fin cfg1.N) : Memref sig .tc .vmem S2000x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2000x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x64 .f32 := win1_4.stage (cfg1.slots t 4)
abbrev hs1_4 (t : Fin cfg1.N) : (ms1_4 t).IsWhole := hstage1_4 ((cfg1.slots t 4).cast nbuf1_4)

end Cert.Kernel.Hand

end
-- ==== Proof.KRegionStats1RunA.lean ====
/- The whole-body run of the bias + rectifier + running-statistics kernel at the FIRST grid point: the reset
   is taken, so both accumulators are zeroed, read back, and the point's column sums added. -/
import proofs.«100384_j8693013807615_2_alg».proof.Proof.KRegionStats1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in each output's staging memref, as pieces (last first), at the first point
    (the reset taken), with the proof that on whole staging memrefs — the inputs' at their contents `x0`, `x1`, the
    outputs' at anything — the body runs to the continuation holding the inputs' as they were and each output's
    buffer with its pieces written. The pieces are found by the run. -/
noncomputable def kernelRun1_A (c : Dev nD) (i : grid1.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (hc0 : cond1_0 i)
    (x0 : Vec F S2000x64 .f32) (x1 : Vec F S1x64 .f32) :
    Σ' (L2 : List (View.Piece (Elt F) S2000x64 .f32)), Σ' (L3 : List (View.Piece (Elt F) S1x64 .f32)), { L4 : List (View.Piece (Elt F) S1x64 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4)) -∗ K ⟨⟩))
          ⊢ wp frame (wpE (defs₀ (F := F)) Variants.none c none) E (cc1__bias_relu_stats_kernel i arg1 harg1 arg2 harg2 arg3 harg3 arg4 harg4 arg5 harg5) K } := by
  refine ⟨?_, ?_, ?_, fun E K => ?run⟩
  case run =>
    simp only [cc1__bias_relu_stats_kernel_eq_skeleton]; unfold cc1__bias_relu_stats_kernel_skel
    unfold owns
    iintro ⟨⟨%f0, %hf0, H0⟩, ⟨%f1, %hf1, H1⟩, ⟨%d2, %f2, -, H2⟩, ⟨%d3, %f3, -, H3⟩, ⟨%d4, %f4, -, H4⟩, Hk⟩
    obtain rfl := harg1.eq_unread hf0; obtain rfl := harg2.eq_unread hf1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; iexact H2
    isplitl [H3]
    · iexists _; iexact H3
    iexists _; iexact H4

end Cert.Kernel.Hand

end
-- ==== Proof.KRegionStats1RunB.lean ====
/- The whole-body run of the bias + rectifier + running-statistics kernel at a LATER grid point: the reset is
   not taken, so the two accumulators are read at their running contents and the point's column sums added. -/
import proofs.«100384_j8693013807615_2_alg».proof.Proof.KRegionStats1RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in each output's staging memref, as pieces (last first), at a point after the
    first (the reset not taken), with the proof that on whole staging memrefs — the inputs' at their contents `x0`,
    `x1`, the two accumulators' at their running contents `xo3`, `xo4`, the rectified block's at anything — the body
    runs to the continuation holding the inputs' as they were and each output's buffer with its pieces written. -/
noncomputable def kernelRun1_B (c : Dev nD) (i : grid1.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i)
    (x0 : Vec F S2000x64 .f32) (x1 : Vec F S1x64 .f32) (xo3 : Vec F S1x64 .f32) (xo4 : Vec F S1x64 .f32) :
    Σ' (L2 : List (View.Piece (Elt F) S2000x64 .f32)), Σ' (L3 : List (View.Piece (Elt F) S1x64 .f32)), { L4 : List (View.Piece (Elt F) S1x64 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xo3 ∗ owns (c : Thread nD τ) arg5 fullShare xo4
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4)) -∗ K ⟨⟩))
          ⊢ wp frame (wpE (defs₀ (F := F)) Variants.none c none) E (cc1__bias_relu_stats_kernel i arg1 harg1 arg2 harg2 arg3 harg3 arg4 harg4 arg5 harg5) K } := by
  refine ⟨?_, ?_, ?_, fun E K => ?run⟩
  case run =>
    simp only [cc1__bias_relu_stats_kernel_eq_skeleton]; unfold cc1__bias_relu_stats_kernel_skel
    unfold owns
    iintro ⟨⟨%f0, %hf0, H0⟩, ⟨%f1, %hf1, H1⟩, ⟨%d2, %f2, -, H2⟩, ⟨%f3, %hf3, H3⟩, ⟨%f4, %hf4, H4⟩, Hk⟩
    obtain rfl := harg1.eq_unread hf0; obtain rfl := harg2.eq_unread hf1; obtain rfl := harg4.eq_unread hf3; obtain rfl := harg5.eq_unread hf4
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; iexact H2
    isplitl [H3]
    · iexists _; iexact H3
    iexists _; iexact H4

end Cert.Kernel.Hand

end
-- ==== Proof.KRegionStats1.lean ====
/- The bias + rectifier + running-statistics region (pipeline 1) at the entry contents `V`: what each output's
   staging buffer holds after every grid point — the rectified block is rewritten at each point; the two
   statistics rows are zeroed at the first point and accumulated across the grid, their buffers never written
   back in between —, the pipeline's proof data over those contents, and the body obligation at every point. -/
import proofs.«100384_j8693013807615_2_alg».proof.Proof.KRegionStats1RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The covers, and what each case leaves -/

/-- The pieces the first point leaves in output 2 (the rectified block) tile its block, so they cover it. -/
theorem cover1_A_2 (c : Dev nD) (i : grid1.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (hc0 : cond1_0 i)
    (x0 : Vec F S2000x64 .f32) (x1 : Vec F S1x64 .f32) (y : S2000x64.Idx) :
    ∃ pc ∈ (kernelRun1_A c i arg1 harg1 arg2 harg2 arg3 harg3 arg4 harg4 arg5 harg5 hc0 x0 x1).1, y ∈ pc.1.set :=
  View.cover_of_tiledL (kernelRun1_A c i arg1 harg1 arg2 harg2 arg3 harg3 arg4 harg4 arg5 harg5 hc0 x0 x1).1 S2000x64.size (by sl_kernel_rfl) y

/-- What that case leaves in output 2's staging buffer: its pieces read back over anything. -/
def out1_A_2 (c : Dev nD) (i : grid1.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (hc0 : cond1_0 i)
    (x0 : Vec F S2000x64 .f32) (x1 : Vec F S1x64 .f32) : Vec F S2000x64 .f32 :=
  VO1_2.read (Elt F) (VO1_2.writes (Elt F) VO1_2.junk (kernelRun1_A c i arg1 harg1 arg2 harg2 arg3 harg3 arg4 harg4 arg5 harg5 hc0 x0 x1).1)

/-- The pieces the first point leaves in output 3 (the column sums) tile its block, so they cover it. -/
theorem cover1_A_3 (c : Dev nD) (i : grid1.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (hc0 : cond1_0 i)
    (x0 : Vec F S2000x64 .f32) (x1 : Vec F S1x64 .f32) (y : S1x64.Idx) :
    ∃ pc ∈ (kernelRun1_A c i arg1 harg1 arg2 harg2 arg3 harg3 arg4 harg4 arg5 harg5 hc0 x0 x1).2.1, y ∈ pc.1.set :=
  View.cover_of_tiledL (kernelRun1_A c i arg1 harg1 arg2 harg2 arg3 harg3 arg4 harg4 arg5 harg5 hc0 x0 x1).2.1 S1x64.size (by sl_kernel_rfl) y

/-- What that case leaves in output 3's staging buffer: its pieces read back over anything. -/
def out1_A_3 (c : Dev nD) (i : grid1.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (hc0 : cond1_0 i)
    (x0 : Vec F S2000x64 .f32) (x1 : Vec F S1x64 .f32) : Vec F S1x64 .f32 :=
  VO1_3.read (Elt F) (VO1_3.writes (Elt F) VO1_3.junk (kernelRun1_A c i arg1 harg1 arg2 harg2 arg3 harg3 arg4 harg4 arg5 harg5 hc0 x0 x1).2.1)

/-- The pieces the first point leaves in output 4 (the column sums of squares) tile its block, so they cover it. -/
theorem cover1_A_4 (c : Dev nD) (i : grid1.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (hc0 : cond1_0 i)
    (x0 : Vec F S2000x64 .f32) (x1 : Vec F S1x64 .f32) (y : S1x64.Idx) :
    ∃ pc ∈ (kernelRun1_A c i arg1 harg1 arg2 harg2 arg3 harg3 arg4 harg4 arg5 harg5 hc0 x0 x1).2.2.1, y ∈ pc.1.set :=
  View.cover_of_tiledL (kernelRun1_A c i arg1 harg1 arg2 harg2 arg3 harg3 arg4 harg4 arg5 harg5 hc0 x0 x1).2.2.1 S1x64.size (by sl_kernel_rfl) y

/-- What that case leaves in output 4's staging buffer: its pieces read back over anything. -/
def out1_A_4 (c : Dev nD) (i : grid1.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (hc0 : cond1_0 i)
    (x0 : Vec F S2000x64 .f32) (x1 : Vec F S1x64 .f32) : Vec F S1x64 .f32 :=
  VO1_4.read (Elt F) (VO1_4.writes (Elt F) VO1_4.junk (kernelRun1_A c i arg1 harg1 arg2 harg2 arg3 harg3 arg4 harg4 arg5 harg5 hc0 x0 x1).2.2.1)

/-- The pieces the later points leave in output 2 (the rectified block) tile its block, so they cover it. -/
theorem cover1_B_2 (c : Dev nD) (i : grid1.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i)
    (x0 : Vec F S2000x64 .f32) (x1 : Vec F S1x64 .f32) (xo3 : Vec F S1x64 .f32) (xo4 : Vec F S1x64 .f32) (y : S2000x64.Idx) :
    ∃ pc ∈ (kernelRun1_B c i arg1 harg1 arg2 harg2 arg3 harg3 arg4 harg4 arg5 harg5 hc0 x0 x1 xo3 xo4).1, y ∈ pc.1.set :=
  View.cover_of_tiledL (kernelRun1_B c i arg1 harg1 arg2 harg2 arg3 harg3 arg4 harg4 arg5 harg5 hc0 x0 x1 xo3 xo4).1 S2000x64.size (by sl_kernel_rfl) y

/-- What that case leaves in output 2's staging buffer: its pieces read back over anything. -/
def out1_B_2 (c : Dev nD) (i : grid1.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i)
    (x0 : Vec F S2000x64 .f32) (x1 : Vec F S1x64 .f32) (xo3 : Vec F S1x64 .f32) (xo4 : Vec F S1x64 .f32) : Vec F S2000x64 .f32 :=
  VO1_2.read (Elt F) (VO1_2.writes (Elt F) VO1_2.junk (kernelRun1_B c i arg1 harg1 arg2 harg2 arg3 harg3 arg4 harg4 arg5 harg5 hc0 x0 x1 xo3 xo4).1)

/-- The pieces the later points leave in output 3 (the column sums) tile its block, so they cover it. -/
theorem cover1_B_3 (c : Dev nD) (i : grid1.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i)
    (x0 : Vec F S2000x64 .f32) (x1 : Vec F S1x64 .f32) (xo3 : Vec F S1x64 .f32) (xo4 : Vec F S1x64 .f32) (y : S1x64.Idx) :
    ∃ pc ∈ (kernelRun1_B c i arg1 harg1 arg2 harg2 arg3 harg3 arg4 harg4 arg5 harg5 hc0 x0 x1 xo3 xo4).2.1, y ∈ pc.1.set :=
  View.cover_of_tiledL (kernelRun1_B c i arg1 harg1 arg2 harg2 arg3 harg3 arg4 harg4 arg5 harg5 hc0 x0 x1 xo3 xo4).2.1 S1x64.size (by sl_kernel_rfl) y

/-- What that case leaves in output 3's staging buffer: its pieces read back over anything. -/
def out1_B_3 (c : Dev nD) (i : grid1.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i)
    (x0 : Vec F S2000x64 .f32) (x1 : Vec F S1x64 .f32) (xo3 : Vec F S1x64 .f32) (xo4 : Vec F S1x64 .f32) : Vec F S1x64 .f32 :=
  VO1_3.read (Elt F) (VO1_3.writes (Elt F) VO1_3.junk (kernelRun1_B c i arg1 harg1 arg2 harg2 arg3 harg3 arg4 harg4 arg5 harg5 hc0 x0 x1 xo3 xo4).2.1)

/-- The pieces the later points leave in output 4 (the column sums of squares) tile its block, so they cover it. -/
theorem cover1_B_4 (c : Dev nD) (i : grid1.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i)
    (x0 : Vec F S2000x64 .f32) (x1 : Vec F S1x64 .f32) (xo3 : Vec F S1x64 .f32) (xo4 : Vec F S1x64 .f32) (y : S1x64.Idx) :
    ∃ pc ∈ (kernelRun1_B c i arg1 harg1 arg2 harg2 arg3 harg3 arg4 harg4 arg5 harg5 hc0 x0 x1 xo3 xo4).2.2.1, y ∈ pc.1.set :=
  View.cover_of_tiledL (kernelRun1_B c i arg1 harg1 arg2 harg2 arg3 harg3 arg4 harg4 arg5 harg5 hc0 x0 x1 xo3 xo4).2.2.1 S1x64.size (by sl_kernel_rfl) y

/-- What that case leaves in output 4's staging buffer: its pieces read back over anything. -/
def out1_B_4 (c : Dev nD) (i : grid1.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i)
    (x0 : Vec F S2000x64 .f32) (x1 : Vec F S1x64 .f32) (xo3 : Vec F S1x64 .f32) (xo4 : Vec F S1x64 .f32) : Vec F S1x64 .f32 :=
  VO1_4.read (Elt F) (VO1_4.writes (Elt F) VO1_4.junk (kernelRun1_B c i arg1 harg1 arg2 harg2 arg3 harg3 arg4 harg4 arg5 harg5 hc0 x0 x1 xo3 xo4).2.2.1)

section Region
variable (V : (c : Dev nD) → (b : Ref sig .tc) → Buf (Elt F) ((c : Thread nD τ).loc b))

/-! ## What the outputs hold after each point -/

/-- THE ACCUMULATION. What the three outputs' staging buffers hold after the body at position `n` (the
    rectified block, the column sums, the column sums of squares): at the first point the reset case on the
    point's input blocks; at a later point the accumulating case on the point's input blocks over what this
    leaves in the two statistics rows at `n - 1` (their buffers are not written back in between). -/
def outsAt1 (c : Dev nD) : (n : ℕ) → n < cfg1.N → Vec F S2000x64 .f32 × Vec F S1x64 .f32 × Vec F S1x64 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) ((hcond1_0 ⟨0, hn⟩).mpr (Nat.zero_mod _)) (iblk1 V c 0 ⟨0, hn⟩) (iblk1 V c 1 ⟨0, hn⟩),
      out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) ((hcond1_0 ⟨0, hn⟩).mpr (Nat.zero_mod _)) (iblk1 V c 0 ⟨0, hn⟩) (iblk1 V c 1 ⟨0, hn⟩),
      out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) ((hcond1_0 ⟨0, hn⟩).mpr (Nat.zero_mod _)) (iblk1 V c 0 ⟨0, hn⟩) (iblk1 V c 1 ⟨0, hn⟩))
  | n + 1, hn =>
    if h0 : (n + 1) % 25 = 0 then
      (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) ((hcond1_0 ⟨n + 1, hn⟩).mpr h0) (iblk1 V c 0 ⟨n + 1, hn⟩) (iblk1 V c 1 ⟨n + 1, hn⟩),
      out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) ((hcond1_0 ⟨n + 1, hn⟩).mpr h0) (iblk1 V c 0 ⟨n + 1, hn⟩) (iblk1 V c 1 ⟨n + 1, hn⟩),
      out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) ((hcond1_0 ⟨n + 1, hn⟩).mpr h0) (iblk1 V c 0 ⟨n + 1, hn⟩) (iblk1 V c 1 ⟨n + 1, hn⟩))
    else
      (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (fun h => h0 ((hcond1_0 ⟨n + 1, hn⟩).mp h)) (iblk1 V c 0 ⟨n + 1, hn⟩) (iblk1 V c 1 ⟨n + 1, hn⟩) (outsAt1 c n (Nat.lt_of_succ_lt hn)).2.1 (outsAt1 c n (Nat.lt_of_succ_lt hn)).2.2,
      out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (fun h => h0 ((hcond1_0 ⟨n + 1, hn⟩).mp h)) (iblk1 V c 0 ⟨n + 1, hn⟩) (iblk1 V c 1 ⟨n + 1, hn⟩) (outsAt1 c n (Nat.lt_of_succ_lt hn)).2.1 (outsAt1 c n (Nat.lt_of_succ_lt hn)).2.2,
      out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (fun h => h0 ((hcond1_0 ⟨n + 1, hn⟩).mp h)) (iblk1 V c 0 ⟨n + 1, hn⟩) (iblk1 V c 1 ⟨n + 1, hn⟩) (outsAt1 c n (Nat.lt_of_succ_lt hn)).2.1 (outsAt1 c n (Nat.lt_of_succ_lt hn)).2.2)

/-- `outsAt1` at the first point: the reset case's contents. -/
theorem outsAt1_A (c : Dev nD) (t : Fin cfg1.N) (h0 : t.val % 25 = 0) :
    outsAt1 V c t.val t.isLt = (out1_A_2 c (grid1.coords t) (ms1_0 t) (hs1_0 t) (ms1_1 t) (hs1_1 t) (ms1_2 t) (hs1_2 t) (ms1_3 t) (hs1_3 t) (ms1_4 t) (hs1_4 t) ((hcond1_0 t).mpr h0) (iblk1 V c 0 t) (iblk1 V c 1 t),
      out1_A_3 c (grid1.coords t) (ms1_0 t) (hs1_0 t) (ms1_1 t) (hs1_1 t) (ms1_2 t) (hs1_2 t) (ms1_3 t) (hs1_3 t) (ms1_4 t) (hs1_4 t) ((hcond1_0 t).mpr h0) (iblk1 V c 0 t) (iblk1 V c 1 t),
      out1_A_4 c (grid1.coords t) (ms1_0 t) (hs1_0 t) (ms1_1 t) (hs1_1 t) (ms1_2 t) (hs1_2 t) (ms1_3 t) (hs1_3 t) (ms1_4 t) (hs1_4 t) ((hcond1_0 t).mpr h0) (iblk1 V c 0 t) (iblk1 V c 1 t)) := by
  obtain ⟨n, hn⟩ := t
  cases n with
  | zero => exact rfl
  | succ n => exact (dif_pos h0).trans rfl

/-- `outsAt1` at a later point: the accumulating case's contents, over what the point before left. -/
theorem outsAt1_B (c : Dev nD) (t : Fin cfg1.N) (h0 : ¬t.val % 25 = 0) :
    outsAt1 V c t.val t.isLt = (out1_B_2 c (grid1.coords t) (ms1_0 t) (hs1_0 t) (ms1_1 t) (hs1_1 t) (ms1_2 t) (hs1_2 t) (ms1_3 t) (hs1_3 t) (ms1_4 t) (hs1_4 t) (fun h => h0 ((hcond1_0 t).mp h)) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2,
      out1_B_3 c (grid1.coords t) (ms1_0 t) (hs1_0 t) (ms1_1 t) (hs1_1 t) (ms1_2 t) (hs1_2 t) (ms1_3 t) (hs1_3 t) (ms1_4 t) (hs1_4 t) (fun h => h0 ((hcond1_0 t).mp h)) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2,
      out1_B_4 c (grid1.coords t) (ms1_0 t) (hs1_0 t) (ms1_1 t) (hs1_1 t) (ms1_2 t) (hs1_2 t) (ms1_3 t) (hs1_3 t) (ms1_4 t) (hs1_4 t) (fun h => h0 ((hcond1_0 t).mp h)) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-! ## The pipeline's proof data -/

/-- The proof data of pipeline 1 on core `c`: the arrays as the region finds them (`V`); after the body at point
    `t` each input's buffer at its block and the outputs' at `outsAt1`'s components; the invariant the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
    | ⟨3, _⟩ => (outsAt1 V c t.val t.isLt).2.1
    | ⟨4, _⟩ => (outsAt1 V c t.val t.isLt).2.2
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem after1_3 (c : Dev nD) (t : Fin cfg1.N) : (dat1 V c).after 3 t = (outsAt1 V c t.val t.isLt).2.1 := by dsimp only [dat1]
theorem after1_4 (c : Dev nD) (t : Fin cfg1.N) : (dat1 V c).after 4 t = (outsAt1 V c t.val t.isLt).2.2 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- At a later point the column sums' staging buffer holds what the body left at the point before: the point is not
    the first and the buffer was not written back in between (it is written back after the last point only). -/
theorem before1_3_B (c : Dev nD) (t : Fin cfg1.N) (h0 : ¬t.val % 25 = 0) (d) :
    (dat1 V c).before 3 t d = (outsAt1 V c (t.val - 1) (Nat.lt_of_le_of_lt (Nat.sub_le _ _) t.isLt)).2.1 := by
  have hN : t.val < 25 := lt_of_lt_of_eq t.isLt (show cfg1.N = 25 from N_1)
  rw [Dat.before_out_kept _ 3 rfl t (by omega) (Bool.eq_false_iff.mpr fun h => by have := (flush1_3 _).mp h; dsimp only at this; omega)
    (fun _ => rfl) (fun _ _ => rfl)]
  dsimp only [dat1]

/-- Likewise the column sums of squares'. -/
theorem before1_4_B (c : Dev nD) (t : Fin cfg1.N) (h0 : ¬t.val % 25 = 0) (d) :
    (dat1 V c).before 4 t d = (outsAt1 V c (t.val - 1) (Nat.lt_of_le_of_lt (Nat.sub_le _ _) t.isLt)).2.2 := by
  have hN : t.val < 25 := lt_of_lt_of_eq t.isLt (show cfg1.N = 25 from N_1)
  rw [Dat.before_out_kept _ 4 rfl t (by omega) (Bool.eq_false_iff.mpr fun h => by have := (flush1_4 _).mp h; dsimp only at this; omega)
    (fun _ => rfl) (fun _ _ => rfl)]
  dsimp only [dat1]

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t))

set_option maxHeartbeats 2000000 in
/-- The body at any point: the inputs' memrefs hold their blocks; the closed form says which case the point is in;
    at a later point the two statistics rows hold what the point before left; so the case's run applies. The
    invariant passes through unread; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2, after1_3, after1_4]
  have hN : t.val < 25 := lt_of_lt_of_eq t.isLt (show cfg1.N = 25 from N_1)
  by_cases h0 : t.val % 25 = 0
  · rw [outsAt1_A V c t h0]
    unfold out1_A_2 out1_A_3 out1_A_4; (try dsimp only)
    iintro ⟨HΦ, Ho, ⟨%d0, H0⟩, ⟨%d1, H1⟩, ⟨%d2, H2⟩, ⟨%d3, H3⟩, ⟨%d4, H4⟩⟩
    iapply ((kernelRun1_A c (grid1.coords t) _ _ _ _ _ _ _ _ _ _ ((hcond1_0 t).mpr h0) (iblk1 V c 0 t) (iblk1 V c 1 t)).2.2.2 Set.univ _)
    isplitl [H0]; · iexact H0
    isplitl [H1]; · iexact H1
    isplitl [H2]; · iexists _; iexact H2
    isplitl [H3]; · iexists _; iexact H3
    isplitl [H4]; · iexists _; iexact H4
    iintro ⟨H0, H1, ⟨%e2, H2⟩, ⟨%e3, H3⟩, ⟨%e4, H4⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover1_A_2 c _ _ _ _ _ _ _ _ _ _ _ _ _ _)
    isplitl [H3]
    · unfold owns; iexists _; isplitr
      swap; · iexact H3
      ipureintro; exact View.read_writes_of_cover _ _ _ _ _ (cover1_A_3 c _ _ _ _ _ _ _ _ _ _ _ _ _ _)
    unfold owns; iexists _; isplitr
    swap; · iexact H4
    ipureintro; exact View.read_writes_of_cover _ _ _ _ _ (cover1_A_4 c _ _ _ _ _ _ _ _ _ _ _ _ _ _)
  · rw [outsAt1_B V c t h0]
    simp only [before1_3_B V c t h0, before1_4_B V c t h0]
    unfold out1_B_2 out1_B_3 out1_B_4; (try dsimp only)
    iintro ⟨HΦ, Ho, ⟨%d0, H0⟩, ⟨%d1, H1⟩, ⟨%d2, H2⟩, ⟨%d3, H3⟩, ⟨%d4, H4⟩⟩
    iapply ((kernelRun1_B c (grid1.coords t) _ _ _ _ _ _ _ _ _ _ (fun h => h0 ((hcond1_0 t).mp h)) (iblk1 V c 0 t) (iblk1 V c 1 t) _ _).2.2.2 Set.univ _)
    isplitl [H0]; · iexact H0
    isplitl [H1]; · iexact H1
    isplitl [H2]; · iexists _; iexact H2
    isplitl [H3]; · iexact H3
    isplitl [H4]; · iexact H4
    iintro ⟨H0, H1, ⟨%e2, H2⟩, ⟨%e3, H3⟩, ⟨%e4, H4⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover1_B_2 c _ _ _ _ _ _ _ _ _ _ _ _ _ _ _ _)
    isplitl [H3]
    · unfold owns; iexists _; isplitr
      swap; · iexact H3
      ipureintro; exact View.read_writes_of_cover _ _ _ _ _ (cover1_B_3 c _ _ _ _ _ _ _ _ _ _ _ _ _ _ _ _)
    unfold owns; iexists _; isplitr
    swap; · iexact H4
    ipureintro; exact View.read_writes_of_cover _ _ _ _ _ (cover1_B_4 c _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region

end Cert.Kernel.Hand

end
-- ==== Proof.KRegionA2.lean ====
/-
  The normalization region 2: at grid point t the body reads a [2000, 64] row block of the rectified activations and
  the four [1, 64] rows (mean, variance, gain, offset) and leaves (z - mean) * rsqrt(variance + eps) * gain + offset in
  the output block. Stated at the buffer contents V the region is entered with.
-/
import proofs.«100384_j8693013807615_2_alg».proof.Proof.Gen.Kernel.Launch
import proofs.«100384_j8693013807615_2_alg».proof.Proof.Gen.Kernel.Skeleton
import proofs.«100384_j8693013807615_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's staging buffer holds its block at every point, fetched there or not. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's staging buffer holds its block at every point, fetched there or not. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

abbrev r2_z : Rect S2000x64 := Rect.unit (s := S2000x64) ![0, 0] S2000x64.size inb_S2000x64_S2000x64_0_0
abbrev r2_r : Rect S1x64 := Rect.unit (s := S1x64) ![0, 0] S1x64.size inb_S1x64_S1x64_0_0

/-- The output block after the body: one whole-block store of the normalized block. -/
def out2_5 (x0 : Vec F S2000x64 .f32) (x1 x2 x3 x4 : Vec F S1x64 .f32) : Vec F S2000x64 .f32 :=
  View.canon [⟨r2_z, k2_pay1 (View.ld x2 r2_r) (View.ld x0 r2_z) (View.ld x1 r2_r) (View.ld x3 r2_r) (View.ld x4 r2_r)⟩]

theorem cover2_5 (p0 : Vec F S2000x64 .f32) (y : S2000x64.Idx) :
    ∃ pc ∈ ([⟨r2_z, p0⟩] : List (View.Piece (Elt F) S2000x64 .f32)), y ∈ pc.1.set :=
  View.cover_of_tiled [⟨r2_z, p0⟩] S2000x64.size (by rfl) y

set_option maxHeartbeats 1000000 in
/-- The body on whole staging memrefs: the five inputs keep their contents, the output ends at the normalized block. -/
theorem sound_kernel2 (c : Dev nD) (E : Set ℕ) (i : grid2.Coords)
    (arg1 : Memref sig .tc .vmem S2000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S2000x64 .f32) (harg6 : arg6.IsWhole)
    (x0 : Vec F S2000x64 .f32) (x1 x2 x3 x4 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out2_5 x0 x1 x2 x3 x4)) -∗ K ⟨⟩))
      ⊢ wp frame (wpE (defs₀ (F := F)) Variants.none c none) E (cc2__bn_apply_kernel i arg1 harg1 arg2 harg2 arg3 harg3 arg4 harg4 arg5 harg5 arg6 harg6) K := by
  simp only [cc2__bn_apply_kernel_eq_skeleton]; unfold cc2__bn_apply_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0
  subst hf1
  subst hf2
  subst hf3
  subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-- The pipeline's proof data on core c: the arrays as the region finds them; after the body at point t each input's
    buffer at its block and the output's at the normalized block; the class invariant; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KRegionA3.lean ====
/-
  The dense-transform region 3: at grid point t the body reads the [2000, ·] row block of the activations and the
  whole weight matrix, and leaves their product in the output block. Stated at the buffer contents V the region is
  entered with: the windows' blocks, the body's triple, the pipeline's proof data and the body obligation.
-/
import proofs.«100384_j8693013807615_2_alg».proof.Proof.Gen.Kernel.Launch
import proofs.«100384_j8693013807615_2_alg».proof.Proof.Gen.Kernel.Skeleton
import proofs.«100384_j8693013807615_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The activations' staging buffer holds the point's row block, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The weights' staging buffer holds the whole matrix at every point (its block index never moves). -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

abbrev r3_z : Rect S2000x64 := Rect.unit (s := S2000x64) ![0, 0] S2000x64.size inb_S2000x64_S2000x64_0_0
abbrev r3_w : Rect S64x64 := Rect.unit (s := S64x64) ![0, 0] S64x64.size inb_S64x64_S64x64_0_0
abbrev r3_o : Rect S2000x64 := Rect.unit (s := S2000x64) ![0, 0] S2000x64.size inb_S2000x64_S2000x64_0_0

/-- The output block after the body: its one whole-block store of the product of the two loaded blocks. -/
def out3_2 (x0 : Vec F S2000x64 .f32) (x1 : Vec F S64x64 .f32) : Vec F S2000x64 .f32 :=
  View.canon [⟨r3_o, k3_pay1 (View.ld x0 r3_z) (View.ld x1 r3_w)⟩]

theorem cover3_2 (p0 : Vec F S2000x64 .f32) (y : S2000x64.Idx) :
    ∃ pc ∈ ([⟨r3_o, p0⟩] : List (View.Piece (Elt F) S2000x64 .f32)), y ∈ pc.1.set :=
  View.cover_of_tiled [⟨r3_o, p0⟩] S2000x64.size (by rfl) y

set_option maxHeartbeats 1000000 in
/-- The body on whole staging memrefs: the two inputs keep their contents, the output ends at the product. -/
theorem sound_kernel3 (c : Dev nD) (E : Set ℕ) (i : grid3.Coords)
    (arg1 : Memref sig .tc .vmem S2000x64 .f32) (harg1 : arg1.IsWhole) (arg2 : Memref sig .tc .vmem S64x64 .f32) (harg2 : arg2.IsWhole)
    (arg3 : Memref sig .tc .vmem S2000x64 .f32) (harg3 : arg3.IsWhole)
    (x0 : Vec F S2000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3__matmul_kernel i arg1 harg1 arg2 harg2 arg3 harg3) K := by
  simp only [cc3__matmul_kernel_eq_skeleton]; unfold cc3__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-- The pipeline's proof data on core c: the arrays as the region finds them; after the body at point t each input's
    buffer at its block and the output's at the product of the two blocks; the class invariant; nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.KRegionStats4Runs.lean ====
/- The bias + rectifier + running-statistics region (pipeline 4), stated at the buffer contents `V` the region
   is entered with: the windows' blocks, the input windows' staging contents at every point, the body's one
   branch condition in closed form, and the staging memrefs the body is called with. Shared by the two
   whole-body runs (the first grid point, which zeroes the two accumulators, and every later point). -/
import proofs.«100384_j8693013807615_2_alg».proof.Proof.Gen.Kernel.Launch
import proofs.«100384_j8693013807615_2_alg».proof.Proof.Gen.Kernel.Skeleton
import proofs.«100384_j8693013807615_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0 (the aggregate's row block) holds its block at every point, for any proof data whose array is
    `V`'s and whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1 (the bias row; one block, fetched once) holds its block at every point, fetched there or not:
    unfetched, its block index has not moved. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

end Region

/-! ## The body's branch condition -/

/-- The condition of the body's one conditional (the accumulators' reset), from the grid coordinates. -/
abbrev cond4_0 (i : grid4.Coords) : Prop := (Scalar.cmpi .ne (Scalar.extui (Scalar.cmpi .eq (BitVec.ofNat 32 (i 0).val) 0#32)) 0#32) = 1#1
/-- It holds at the first point only — decided over the grid's 25 points. -/
theorem hcond4_0 : ∀ t : Fin cfg4.N, cond4_0 (grid4.coords t) ↔ t.val % 25 = 0 :=
  (by decide +kernel : ∀ t : Fin grid4.N, cond4_0 (grid4.coords t) ↔ t.val % 25 = 0)

/-! ## The staging memrefs -/

/-- One staging buffer of each output window, through which its contents are stated (the choice does not matter). -/
abbrev VO4_2 : View sig .tc .vmem S2000x64 .f32 := (Memref.whole cc4_stg2_0 : Memref sig .tc .vmem S2000x64 .f32).view
abbrev VO4_3 : View sig .tc .vmem S1x64 .f32 := (Memref.whole cc4_stg3_0 : Memref sig .tc .vmem S1x64 .f32).view
abbrev VO4_4 : View sig .tc .vmem S1x64 .f32 := (Memref.whole cc4_stg4_0 : Memref sig .tc .vmem S1x64 .f32).view
/-- Each window's current staging memref at point `t`, spelled as the pipeline passes it (`bodyAt4`), and its wholeness. -/
abbrev ms4_0 (t : Fin cfg4.N) : Memref sig .tc .vmem S2000x64 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1x64 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S2000x64 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x64 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S1x64 .f32 := win4_4.stage (cfg4.slots t 4)
abbrev hs4_4 (t : Fin cfg4.N) : (ms4_4 t).IsWhole := hstage4_4 ((cfg4.slots t 4).cast nbuf4_4)

end Cert.Kernel.Hand

end
-- ==== Proof.KRegionStats4RunA.lean ====
/- The whole-body run of the bias + rectifier + running-statistics kernel at the FIRST grid point: the reset
   is taken, so both accumulators are zeroed, read back, and the point's column sums added. -/
import proofs.«100384_j8693013807615_2_alg».proof.Proof.KRegionStats4Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in each output's staging memref, as pieces (last first), at the first point
    (the reset taken), with the proof that on whole staging memrefs — the inputs' at their contents `x0`, `x1`, the
    outputs' at anything — the body runs to the continuation holding the inputs' as they were and each output's
    buffer with its pieces written. The pieces are found by the run. -/
noncomputable def kernelRun4_A (c : Dev nD) (i : grid4.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (hc0 : cond4_0 i)
    (x0 : Vec F S2000x64 .f32) (x1 : Vec F S1x64 .f32) :
    Σ' (L2 : List (View.Piece (Elt F) S2000x64 .f32)), Σ' (L3 : List (View.Piece (Elt F) S1x64 .f32)), { L4 : List (View.Piece (Elt F) S1x64 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4)) -∗ K ⟨⟩))
          ⊢ wp frame (wpE (defs₀ (F := F)) Variants.none c none) E (cc4__bias_relu_stats_kernel i arg1 harg1 arg2 harg2 arg3 harg3 arg4 harg4 arg5 harg5) K } := by
  refine ⟨?_, ?_, ?_, fun E K => ?run⟩
  case run =>
    simp only [cc4__bias_relu_stats_kernel_eq_skeleton]; unfold cc4__bias_relu_stats_kernel_skel
    unfold owns
    iintro ⟨⟨%f0, %hf0, H0⟩, ⟨%f1, %hf1, H1⟩, ⟨%d2, %f2, -, H2⟩, ⟨%d3, %f3, -, H3⟩, ⟨%d4, %f4, -, H4⟩, Hk⟩
    obtain rfl := harg1.eq_unread hf0; obtain rfl := harg2.eq_unread hf1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; iexact H2
    isplitl [H3]
    · iexists _; iexact H3
    iexists _; iexact H4

end Cert.Kernel.Hand

end
-- ==== Proof.KRegionStats4RunB.lean ====
/- The whole-body run of the bias + rectifier + running-statistics kernel at a LATER grid point: the reset is
   not taken, so the two accumulators are read at their running contents and the point's column sums added. -/
import proofs.«100384_j8693013807615_2_alg».proof.Proof.KRegionStats4RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in each output's staging memref, as pieces (last first), at a point after the
    first (the reset not taken), with the proof that on whole staging memrefs — the inputs' at their contents `x0`,
    `x1`, the two accumulators' at their running contents `xo3`, `xo4`, the rectified block's at anything — the body
    runs to the continuation holding the inputs' as they were and each output's buffer with its pieces written. -/
noncomputable def kernelRun4_B (c : Dev nD) (i : grid4.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (hc0 : ¬cond4_0 i)
    (x0 : Vec F S2000x64 .f32) (x1 : Vec F S1x64 .f32) (xo3 : Vec F S1x64 .f32) (xo4 : Vec F S1x64 .f32) :
    Σ' (L2 : List (View.Piece (Elt F) S2000x64 .f32)), Σ' (L3 : List (View.Piece (Elt F) S1x64 .f32)), { L4 : List (View.Piece (Elt F) S1x64 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xo3 ∗ owns (c : Thread nD τ) arg5 fullShare xo4
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4)) -∗ K ⟨⟩))
          ⊢ wp frame (wpE (defs₀ (F := F)) Variants.none c none) E (cc4__bias_relu_stats_kernel i arg1 harg1 arg2 harg2 arg3 harg3 arg4 harg4 arg5 harg5) K } := by
  refine ⟨?_, ?_, ?_, fun E K => ?run⟩
  case run =>
    simp only [cc4__bias_relu_stats_kernel_eq_skeleton]; unfold cc4__bias_relu_stats_kernel_skel
    unfold owns
    iintro ⟨⟨%f0, %hf0, H0⟩, ⟨%f1, %hf1, H1⟩, ⟨%d2, %f2, -, H2⟩, ⟨%f3, %hf3, H3⟩, ⟨%f4, %hf4, H4⟩, Hk⟩
    obtain rfl := harg1.eq_unread hf0; obtain rfl := harg2.eq_unread hf1; obtain rfl := harg4.eq_unread hf3; obtain rfl := harg5.eq_unread hf4
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; iexact H2
    isplitl [H3]
    · iexists _; iexact H3
    iexists _; iexact H4

end Cert.Kernel.Hand

end
-- ==== Proof.KRegionStats4.lean ====
/- The bias + rectifier + running-statistics region (pipeline 4) at the entry contents `V`: what each output's
   staging buffer holds after every grid point — the rectified block is rewritten at each point; the two
   statistics rows are zeroed at the first point and accumulated across the grid, their buffers never written
   back in between —, the pipeline's proof data over those contents, and the body obligation at every point. -/
import proofs.«100384_j8693013807615_2_alg».proof.Proof.KRegionStats4RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The covers, and what each case leaves -/

/-- The pieces the first point leaves in output 2 (the rectified block) tile its block, so they cover it. -/
theorem cover4_A_2 (c : Dev nD) (i : grid4.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (hc0 : cond4_0 i)
    (x0 : Vec F S2000x64 .f32) (x1 : Vec F S1x64 .f32) (y : S2000x64.Idx) :
    ∃ pc ∈ (kernelRun4_A c i arg1 harg1 arg2 harg2 arg3 harg3 arg4 harg4 arg5 harg5 hc0 x0 x1).1, y ∈ pc.1.set :=
  View.cover_of_tiledL (kernelRun4_A c i arg1 harg1 arg2 harg2 arg3 harg3 arg4 harg4 arg5 harg5 hc0 x0 x1).1 S2000x64.size (by sl_kernel_rfl) y

/-- What that case leaves in output 2's staging buffer: its pieces read back over anything. -/
def out4_A_2 (c : Dev nD) (i : grid4.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (hc0 : cond4_0 i)
    (x0 : Vec F S2000x64 .f32) (x1 : Vec F S1x64 .f32) : Vec F S2000x64 .f32 :=
  VO4_2.read (Elt F) (VO4_2.writes (Elt F) VO4_2.junk (kernelRun4_A c i arg1 harg1 arg2 harg2 arg3 harg3 arg4 harg4 arg5 harg5 hc0 x0 x1).1)

/-- The pieces the first point leaves in output 3 (the column sums) tile its block, so they cover it. -/
theorem cover4_A_3 (c : Dev nD) (i : grid4.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (hc0 : cond4_0 i)
    (x0 : Vec F S2000x64 .f32) (x1 : Vec F S1x64 .f32) (y : S1x64.Idx) :
    ∃ pc ∈ (kernelRun4_A c i arg1 harg1 arg2 harg2 arg3 harg3 arg4 harg4 arg5 harg5 hc0 x0 x1).2.1, y ∈ pc.1.set :=
  View.cover_of_tiledL (kernelRun4_A c i arg1 harg1 arg2 harg2 arg3 harg3 arg4 harg4 arg5 harg5 hc0 x0 x1).2.1 S1x64.size (by sl_kernel_rfl) y

/-- What that case leaves in output 3's staging buffer: its pieces read back over anything. -/
def out4_A_3 (c : Dev nD) (i : grid4.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (hc0 : cond4_0 i)
    (x0 : Vec F S2000x64 .f32) (x1 : Vec F S1x64 .f32) : Vec F S1x64 .f32 :=
  VO4_3.read (Elt F) (VO4_3.writes (Elt F) VO4_3.junk (kernelRun4_A c i arg1 harg1 arg2 harg2 arg3 harg3 arg4 harg4 arg5 harg5 hc0 x0 x1).2.1)

/-- The pieces the first point leaves in output 4 (the column sums of squares) tile its block, so they cover it. -/
theorem cover4_A_4 (c : Dev nD) (i : grid4.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (hc0 : cond4_0 i)
    (x0 : Vec F S2000x64 .f32) (x1 : Vec F S1x64 .f32) (y : S1x64.Idx) :
    ∃ pc ∈ (kernelRun4_A c i arg1 harg1 arg2 harg2 arg3 harg3 arg4 harg4 arg5 harg5 hc0 x0 x1).2.2.1, y ∈ pc.1.set :=
  View.cover_of_tiledL (kernelRun4_A c i arg1 harg1 arg2 harg2 arg3 harg3 arg4 harg4 arg5 harg5 hc0 x0 x1).2.2.1 S1x64.size (by sl_kernel_rfl) y

/-- What that case leaves in output 4's staging buffer: its pieces read back over anything. -/
def out4_A_4 (c : Dev nD) (i : grid4.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (hc0 : cond4_0 i)
    (x0 : Vec F S2000x64 .f32) (x1 : Vec F S1x64 .f32) : Vec F S1x64 .f32 :=
  VO4_4.read (Elt F) (VO4_4.writes (Elt F) VO4_4.junk (kernelRun4_A c i arg1 harg1 arg2 harg2 arg3 harg3 arg4 harg4 arg5 harg5 hc0 x0 x1).2.2.1)

/-- The pieces the later points leave in output 2 (the rectified block) tile its block, so they cover it. -/
theorem cover4_B_2 (c : Dev nD) (i : grid4.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (hc0 : ¬cond4_0 i)
    (x0 : Vec F S2000x64 .f32) (x1 : Vec F S1x64 .f32) (xo3 : Vec F S1x64 .f32) (xo4 : Vec F S1x64 .f32) (y : S2000x64.Idx) :
    ∃ pc ∈ (kernelRun4_B c i arg1 harg1 arg2 harg2 arg3 harg3 arg4 harg4 arg5 harg5 hc0 x0 x1 xo3 xo4).1, y ∈ pc.1.set :=
  View.cover_of_tiledL (kernelRun4_B c i arg1 harg1 arg2 harg2 arg3 harg3 arg4 harg4 arg5 harg5 hc0 x0 x1 xo3 xo4).1 S2000x64.size (by sl_kernel_rfl) y

/-- What that case leaves in output 2's staging buffer: its pieces read back over anything. -/
def out4_B_2 (c : Dev nD) (i : grid4.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (hc0 : ¬cond4_0 i)
    (x0 : Vec F S2000x64 .f32) (x1 : Vec F S1x64 .f32) (xo3 : Vec F S1x64 .f32) (xo4 : Vec F S1x64 .f32) : Vec F S2000x64 .f32 :=
  VO4_2.read (Elt F) (VO4_2.writes (Elt F) VO4_2.junk (kernelRun4_B c i arg1 harg1 arg2 harg2 arg3 harg3 arg4 harg4 arg5 harg5 hc0 x0 x1 xo3 xo4).1)

/-- The pieces the later points leave in output 3 (the column sums) tile its block, so they cover it. -/
theorem cover4_B_3 (c : Dev nD) (i : grid4.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (hc0 : ¬cond4_0 i)
    (x0 : Vec F S2000x64 .f32) (x1 : Vec F S1x64 .f32) (xo3 : Vec F S1x64 .f32) (xo4 : Vec F S1x64 .f32) (y : S1x64.Idx) :
    ∃ pc ∈ (kernelRun4_B c i arg1 harg1 arg2 harg2 arg3 harg3 arg4 harg4 arg5 harg5 hc0 x0 x1 xo3 xo4).2.1, y ∈ pc.1.set :=
  View.cover_of_tiledL (kernelRun4_B c i arg1 harg1 arg2 harg2 arg3 harg3 arg4 harg4 arg5 harg5 hc0 x0 x1 xo3 xo4).2.1 S1x64.size (by sl_kernel_rfl) y

/-- What that case leaves in output 3's staging buffer: its pieces read back over anything. -/
def out4_B_3 (c : Dev nD) (i : grid4.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (hc0 : ¬cond4_0 i)
    (x0 : Vec F S2000x64 .f32) (x1 : Vec F S1x64 .f32) (xo3 : Vec F S1x64 .f32) (xo4 : Vec F S1x64 .f32) : Vec F S1x64 .f32 :=
  VO4_3.read (Elt F) (VO4_3.writes (Elt F) VO4_3.junk (kernelRun4_B c i arg1 harg1 arg2 harg2 arg3 harg3 arg4 harg4 arg5 harg5 hc0 x0 x1 xo3 xo4).2.1)

/-- The pieces the later points leave in output 4 (the column sums of squares) tile its block, so they cover it. -/
theorem cover4_B_4 (c : Dev nD) (i : grid4.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (hc0 : ¬cond4_0 i)
    (x0 : Vec F S2000x64 .f32) (x1 : Vec F S1x64 .f32) (xo3 : Vec F S1x64 .f32) (xo4 : Vec F S1x64 .f32) (y : S1x64.Idx) :
    ∃ pc ∈ (kernelRun4_B c i arg1 harg1 arg2 harg2 arg3 harg3 arg4 harg4 arg5 harg5 hc0 x0 x1 xo3 xo4).2.2.1, y ∈ pc.1.set :=
  View.cover_of_tiledL (kernelRun4_B c i arg1 harg1 arg2 harg2 arg3 harg3 arg4 harg4 arg5 harg5 hc0 x0 x1 xo3 xo4).2.2.1 S1x64.size (by sl_kernel_rfl) y

/-- What that case leaves in output 4's staging buffer: its pieces read back over anything. -/
def out4_B_4 (c : Dev nD) (i : grid4.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (hc0 : ¬cond4_0 i)
    (x0 : Vec F S2000x64 .f32) (x1 : Vec F S1x64 .f32) (xo3 : Vec F S1x64 .f32) (xo4 : Vec F S1x64 .f32) : Vec F S1x64 .f32 :=
  VO4_4.read (Elt F) (VO4_4.writes (Elt F) VO4_4.junk (kernelRun4_B c i arg1 harg1 arg2 harg2 arg3 harg3 arg4 harg4 arg5 harg5 hc0 x0 x1 xo3 xo4).2.2.1)

section Region
variable (V : (c : Dev nD) → (b : Ref sig .tc) → Buf (Elt F) ((c : Thread nD τ).loc b))

/-! ## What the outputs hold after each point -/

/-- THE ACCUMULATION. What the three outputs' staging buffers hold after the body at position `n` (the
    rectified block, the column sums, the column sums of squares): at the first point the reset case on the
    point's input blocks; at a later point the accumulating case on the point's input blocks over what this
    leaves in the two statistics rows at `n - 1` (their buffers are not written back in between). -/
def outsAt4 (c : Dev nD) : (n : ℕ) → n < cfg4.N → Vec F S2000x64 .f32 × Vec F S1x64 .f32 × Vec F S1x64 .f32
  | 0, hn => (out4_A_2 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) ((hcond4_0 ⟨0, hn⟩).mpr (Nat.zero_mod _)) (iblk4 V c 0 ⟨0, hn⟩) (iblk4 V c 1 ⟨0, hn⟩),
      out4_A_3 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) ((hcond4_0 ⟨0, hn⟩).mpr (Nat.zero_mod _)) (iblk4 V c 0 ⟨0, hn⟩) (iblk4 V c 1 ⟨0, hn⟩),
      out4_A_4 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) ((hcond4_0 ⟨0, hn⟩).mpr (Nat.zero_mod _)) (iblk4 V c 0 ⟨0, hn⟩) (iblk4 V c 1 ⟨0, hn⟩))
  | n + 1, hn =>
    if h0 : (n + 1) % 25 = 0 then
      (out4_A_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) ((hcond4_0 ⟨n + 1, hn⟩).mpr h0) (iblk4 V c 0 ⟨n + 1, hn⟩) (iblk4 V c 1 ⟨n + 1, hn⟩),
      out4_A_3 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) ((hcond4_0 ⟨n + 1, hn⟩).mpr h0) (iblk4 V c 0 ⟨n + 1, hn⟩) (iblk4 V c 1 ⟨n + 1, hn⟩),
      out4_A_4 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) ((hcond4_0 ⟨n + 1, hn⟩).mpr h0) (iblk4 V c 0 ⟨n + 1, hn⟩) (iblk4 V c 1 ⟨n + 1, hn⟩))
    else
      (out4_B_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (fun h => h0 ((hcond4_0 ⟨n + 1, hn⟩).mp h)) (iblk4 V c 0 ⟨n + 1, hn⟩) (iblk4 V c 1 ⟨n + 1, hn⟩) (outsAt4 c n (Nat.lt_of_succ_lt hn)).2.1 (outsAt4 c n (Nat.lt_of_succ_lt hn)).2.2,
      out4_B_3 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (fun h => h0 ((hcond4_0 ⟨n + 1, hn⟩).mp h)) (iblk4 V c 0 ⟨n + 1, hn⟩) (iblk4 V c 1 ⟨n + 1, hn⟩) (outsAt4 c n (Nat.lt_of_succ_lt hn)).2.1 (outsAt4 c n (Nat.lt_of_succ_lt hn)).2.2,
      out4_B_4 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (fun h => h0 ((hcond4_0 ⟨n + 1, hn⟩).mp h)) (iblk4 V c 0 ⟨n + 1, hn⟩) (iblk4 V c 1 ⟨n + 1, hn⟩) (outsAt4 c n (Nat.lt_of_succ_lt hn)).2.1 (outsAt4 c n (Nat.lt_of_succ_lt hn)).2.2)

/-- `outsAt4` at the first point: the reset case's contents. -/
theorem outsAt4_A (c : Dev nD) (t : Fin cfg4.N) (h0 : t.val % 25 = 0) :
    outsAt4 V c t.val t.isLt = (out4_A_2 c (grid4.coords t) (ms4_0 t) (hs4_0 t) (ms4_1 t) (hs4_1 t) (ms4_2 t) (hs4_2 t) (ms4_3 t) (hs4_3 t) (ms4_4 t) (hs4_4 t) ((hcond4_0 t).mpr h0) (iblk4 V c 0 t) (iblk4 V c 1 t),
      out4_A_3 c (grid4.coords t) (ms4_0 t) (hs4_0 t) (ms4_1 t) (hs4_1 t) (ms4_2 t) (hs4_2 t) (ms4_3 t) (hs4_3 t) (ms4_4 t) (hs4_4 t) ((hcond4_0 t).mpr h0) (iblk4 V c 0 t) (iblk4 V c 1 t),
      out4_A_4 c (grid4.coords t) (ms4_0 t) (hs4_0 t) (ms4_1 t) (hs4_1 t) (ms4_2 t) (hs4_2 t) (ms4_3 t) (hs4_3 t) (ms4_4 t) (hs4_4 t) ((hcond4_0 t).mpr h0) (iblk4 V c 0 t) (iblk4 V c 1 t)) := by
  obtain ⟨n, hn⟩ := t
  cases n with
  | zero => exact rfl
  | succ n => exact (dif_pos h0).trans rfl

/-- `outsAt4` at a later point: the accumulating case's contents, over what the point before left. -/
theorem outsAt4_B (c : Dev nD) (t : Fin cfg4.N) (h0 : ¬t.val % 25 = 0) :
    outsAt4 V c t.val t.isLt = (out4_B_2 c (grid4.coords t) (ms4_0 t) (hs4_0 t) (ms4_1 t) (hs4_1 t) (ms4_2 t) (hs4_2 t) (ms4_3 t) (hs4_3 t) (ms4_4 t) (hs4_4 t) (fun h => h0 ((hcond4_0 t).mp h)) (iblk4 V c 0 t) (iblk4 V c 1 t) (outsAt4 V c (t.val - 1) (Nat.lt_of_le_of_lt (Nat.sub_le _ _) t.isLt)).2.1 (outsAt4 V c (t.val - 1) (Nat.lt_of_le_of_lt (Nat.sub_le _ _) t.isLt)).2.2,
      out4_B_3 c (grid4.coords t) (ms4_0 t) (hs4_0 t) (ms4_1 t) (hs4_1 t) (ms4_2 t) (hs4_2 t) (ms4_3 t) (hs4_3 t) (ms4_4 t) (hs4_4 t) (fun h => h0 ((hcond4_0 t).mp h)) (iblk4 V c 0 t) (iblk4 V c 1 t) (outsAt4 V c (t.val - 1) (Nat.lt_of_le_of_lt (Nat.sub_le _ _) t.isLt)).2.1 (outsAt4 V c (t.val - 1) (Nat.lt_of_le_of_lt (Nat.sub_le _ _) t.isLt)).2.2,
      out4_B_4 c (grid4.coords t) (ms4_0 t) (hs4_0 t) (ms4_1 t) (hs4_1 t) (ms4_2 t) (hs4_2 t) (ms4_3 t) (hs4_3 t) (ms4_4 t) (hs4_4 t) (fun h => h0 ((hcond4_0 t).mp h)) (iblk4 V c 0 t) (iblk4 V c 1 t) (outsAt4 V c (t.val - 1) (Nat.lt_of_le_of_lt (Nat.sub_le _ _) t.isLt)).2.1 (outsAt4 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-! ## The pipeline's proof data -/

/-- The proof data of pipeline 4 on core `c`: the arrays as the region finds them (`V`); after the body at point
    `t` each input's buffer at its block and the outputs' at `outsAt4`'s components; the invariant the scoped rest
    and the generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => (outsAt4 V c t.val t.isLt).1
    | ⟨3, _⟩ => (outsAt4 V c t.val t.isLt).2.1
    | ⟨4, _⟩ => (outsAt4 V c t.val t.isLt).2.2
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = (outsAt4 V c t.val t.isLt).1 := by dsimp only [dat4]
theorem after4_3 (c : Dev nD) (t : Fin cfg4.N) : (dat4 V c).after 3 t = (outsAt4 V c t.val t.isLt).2.1 := by dsimp only [dat4]
theorem after4_4 (c : Dev nD) (t : Fin cfg4.N) : (dat4 V c).after 4 t = (outsAt4 V c t.val t.isLt).2.2 := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-- At a later point the column sums' staging buffer holds what the body left at the point before: the point is not
    the first and the buffer was not written back in between (it is written back after the last point only). -/
theorem before4_3_B (c : Dev nD) (t : Fin cfg4.N) (h0 : ¬t.val % 25 = 0) (d) :
    (dat4 V c).before 3 t d = (outsAt4 V c (t.val - 1) (Nat.lt_of_le_of_lt (Nat.sub_le _ _) t.isLt)).2.1 := by
  have hN : t.val < 25 := lt_of_lt_of_eq t.isLt (show cfg4.N = 25 from N_4)
  rw [Dat.before_out_kept _ 3 rfl t (by omega) (Bool.eq_false_iff.mpr fun h => by have := (flush4_3 _).mp h; dsimp only at this; omega)
    (fun _ => rfl) (fun _ _ => rfl)]
  dsimp only [dat4]

/-- Likewise the column sums of squares'. -/
theorem before4_4_B (c : Dev nD) (t : Fin cfg4.N) (h0 : ¬t.val % 25 = 0) (d) :
    (dat4 V c).before 4 t d = (outsAt4 V c (t.val - 1) (Nat.lt_of_le_of_lt (Nat.sub_le _ _) t.isLt)).2.2 := by
  have hN : t.val < 25 := lt_of_lt_of_eq t.isLt (show cfg4.N = 25 from N_4)
  rw [Dat.before_out_kept _ 4 rfl t (by omega) (Bool.eq_false_iff.mpr fun h => by have := (flush4_4 _).mp h; dsimp only at this; omega)
    (fun _ => rfl) (fun _ _ => rfl)]
  dsimp only [dat4]

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d)))

/-- and what it returns. -/
def bodyPost4 (c : Dev nD) (t : Fin cfg4.N) : sProp 𝕄 :=
  iprop((dat4 V c).Φ t.succ ∗ (dat4 V c).owesAt () t.succ
    ∗ owns (c : Thread nD τ) (ms4_0 t) fullShare ((dat4 V c).after 0 t)
    ∗ owns (c : Thread nD τ) (ms4_1 t) fullShare ((dat4 V c).after 1 t)
    ∗ owns (c : Thread nD τ) (ms4_2 t) fullShare ((dat4 V c).after 2 t)
    ∗ owns (c : Thread nD τ) (ms4_3 t) fullShare ((dat4 V c).after 3 t)
    ∗ owns (c : Thread nD τ) (ms4_4 t) fullShare ((dat4 V c).after 4 t))

set_option maxHeartbeats 2000000 in
/-- The body at any point: the inputs' memrefs hold their blocks; the closed form says which case the point is in;
    at a later point the two statistics rows hold what the point before left; so the case's run applies. The
    invariant passes through unread; the core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2, after4_3, after4_4]
  have hN : t.val < 25 := lt_of_lt_of_eq t.isLt (show cfg4.N = 25 from N_4)
  by_cases h0 : t.val % 25 = 0
  · rw [outsAt4_A V c t h0]
    unfold out4_A_2 out4_A_3 out4_A_4; (try dsimp only)
    iintro ⟨HΦ, Ho, ⟨%d0, H0⟩, ⟨%d1, H1⟩, ⟨%d2, H2⟩, ⟨%d3, H3⟩, ⟨%d4, H4⟩⟩
    iapply ((kernelRun4_A c (grid4.coords t) _ _ _ _ _ _ _ _ _ _ ((hcond4_0 t).mpr h0) (iblk4 V c 0 t) (iblk4 V c 1 t)).2.2.2 Set.univ _)
    isplitl [H0]; · iexact H0
    isplitl [H1]; · iexact H1
    isplitl [H2]; · iexists _; iexact H2
    isplitl [H3]; · iexists _; iexact H3
    isplitl [H4]; · iexists _; iexact H4
    iintro ⟨H0, H1, ⟨%e2, H2⟩, ⟨%e3, H3⟩, ⟨%e4, H4⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover4_A_2 c _ _ _ _ _ _ _ _ _ _ _ _ _ _)
    isplitl [H3]
    · unfold owns; iexists _; isplitr
      swap; · iexact H3
      ipureintro; exact View.read_writes_of_cover _ _ _ _ _ (cover4_A_3 c _ _ _ _ _ _ _ _ _ _ _ _ _ _)
    unfold owns; iexists _; isplitr
    swap; · iexact H4
    ipureintro; exact View.read_writes_of_cover _ _ _ _ _ (cover4_A_4 c _ _ _ _ _ _ _ _ _ _ _ _ _ _)
  · rw [outsAt4_B V c t h0]
    simp only [before4_3_B V c t h0, before4_4_B V c t h0]
    unfold out4_B_2 out4_B_3 out4_B_4; (try dsimp only)
    iintro ⟨HΦ, Ho, ⟨%d0, H0⟩, ⟨%d1, H1⟩, ⟨%d2, H2⟩, ⟨%d3, H3⟩, ⟨%d4, H4⟩⟩
    iapply ((kernelRun4_B c (grid4.coords t) _ _ _ _ _ _ _ _ _ _ (fun h => h0 ((hcond4_0 t).mp h)) (iblk4 V c 0 t) (iblk4 V c 1 t) _ _).2.2.2 Set.univ _)
    isplitl [H0]; · iexact H0
    isplitl [H1]; · iexact H1
    isplitl [H2]; · iexists _; iexact H2
    isplitl [H3]; · iexact H3
    isplitl [H4]; · iexact H4
    iintro ⟨H0, H1, ⟨%e2, H2⟩, ⟨%e3, H3⟩, ⟨%e4, H4⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover4_B_2 c _ _ _ _ _ _ _ _ _ _ _ _ _ _ _ _)
    isplitl [H3]
    · unfold owns; iexists _; isplitr
      swap; · iexact H3
      ipureintro; exact View.read_writes_of_cover _ _ _ _ _ (cover4_B_3 c _ _ _ _ _ _ _ _ _ _ _ _ _ _ _ _)
    unfold owns; iexists _; isplitr
    swap; · iexact H4
    ipureintro; exact View.read_writes_of_cover _ _ _ _ _ (cover4_B_4 c _ _ _ _ _ _ _ _ _ _ _ _ _ _ _ _)

/-- The library's body obligation, at every point. -/
theorem body_obligation4 (c : Dev nD) : BodyObligation (dat4 (F := F) V c) (defs₀ (F := F)) Variants.none () Set.univ := fun t => by
  rw [bigSep_W4, bigSep_W4]
  exact sound_body4 V c t

end Region

end Cert.Kernel.Hand

end
-- ==== Proof.KRegionA5.lean ====
/-
  The normalization region 5: at grid point t the body reads a [2000, 64] row block of the rectified activations and
  the four [1, 64] rows (mean, variance, gain, offset) and leaves (z - mean) * rsqrt(variance + eps) * gain + offset in
  the output block. Stated at the buffer contents V the region is entered with.
-/
import proofs.«100384_j8693013807615_2_alg».proof.Proof.Gen.Kernel.Launch
import proofs.«100384_j8693013807615_2_alg».proof.Proof.Gen.Kernel.Skeleton
import proofs.«100384_j8693013807615_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's staging buffer holds its block at every point, fetched there or not. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's staging buffer holds its block at every point, fetched there or not. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's staging buffer holds its block at every point, fetched there or not. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's staging buffer holds its block at every point, fetched there or not. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's staging buffer holds its block at every point, fetched there or not. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

abbrev r5_z : Rect S2000x64 := Rect.unit (s := S2000x64) ![0, 0] S2000x64.size inb_S2000x64_S2000x64_0_0
abbrev r5_r : Rect S1x64 := Rect.unit (s := S1x64) ![0, 0] S1x64.size inb_S1x64_S1x64_0_0

/-- The output block after the body: one whole-block store of the normalized block. -/
def out5_5 (x0 : Vec F S2000x64 .f32) (x1 x2 x3 x4 : Vec F S1x64 .f32) : Vec F S2000x64 .f32 :=
  View.canon [⟨r5_z, k5_pay1 (View.ld x2 r5_r) (View.ld x0 r5_z) (View.ld x1 r5_r) (View.ld x3 r5_r) (View.ld x4 r5_r)⟩]

theorem cover5_5 (p0 : Vec F S2000x64 .f32) (y : S2000x64.Idx) :
    ∃ pc ∈ ([⟨r5_z, p0⟩] : List (View.Piece (Elt F) S2000x64 .f32)), y ∈ pc.1.set :=
  View.cover_of_tiled [⟨r5_z, p0⟩] S2000x64.size (by rfl) y

set_option maxHeartbeats 1000000 in
/-- The body on whole staging memrefs: the five inputs keep their contents, the output ends at the normalized block. -/
theorem sound_kernel5 (c : Dev nD) (E : Set ℕ) (i : grid5.Coords)
    (arg1 : Memref sig .tc .vmem S2000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S2000x64 .f32) (harg6 : arg6.IsWhole)
    (x0 : Vec F S2000x64 .f32) (x1 x2 x3 x4 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out5_5 x0 x1 x2 x3 x4)) -∗ K ⟨⟩))
      ⊢ wp frame (wpE (defs₀ (F := F)) Variants.none c none) E (cc5__bn_apply_kernel i arg1 harg1 arg2 harg2 arg3 harg3 arg4 harg4 arg5 harg5 arg6 harg6) K := by
  simp only [cc5__bn_apply_kernel_eq_skeleton]; unfold cc5__bn_apply_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0
  subst hf1
  subst hf2
  subst hf3
  subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

/-- The pipeline's proof data on core c: the arrays as the region finds them; after the body at point t each input's
    buffer at its block and the output's at the normalized block; the class invariant; nothing owed. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = out5_5 (iblk5 V c 0 t) (iblk5 V c 1 t) (iblk5 V c 2 t) (iblk5 V c 3 t) (iblk5 V c 4 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ _ _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.KRegionA6.lean ====
/-
  The dense-transform region 6: at grid point t the body reads the [2000, ·] row block of the activations and the
  whole weight matrix, and leaves their product in the output block. Stated at the buffer contents V the region is
  entered with: the windows' blocks, the body's triple, the pipeline's proof data and the body obligation.
-/
import proofs.«100384_j8693013807615_2_alg».proof.Proof.Gen.Kernel.Launch
import proofs.«100384_j8693013807615_2_alg».proof.Proof.Gen.Kernel.Skeleton
import proofs.«100384_j8693013807615_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The activations' staging buffer holds the point's row block, fetched there or not. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- The weights' staging buffer holds the whole matrix at every point (its block index never moves). -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

abbrev r6_z : Rect S2000x64 := Rect.unit (s := S2000x64) ![0, 0] S2000x64.size inb_S2000x64_S2000x64_0_0
abbrev r6_w : Rect S64x64 := Rect.unit (s := S64x64) ![0, 0] S64x64.size inb_S64x64_S64x64_0_0
abbrev r6_o : Rect S2000x64 := Rect.unit (s := S2000x64) ![0, 0] S2000x64.size inb_S2000x64_S2000x64_0_0

/-- The output block after the body: its one whole-block store of the product of the two loaded blocks. -/
def out6_2 (x0 : Vec F S2000x64 .f32) (x1 : Vec F S64x64 .f32) : Vec F S2000x64 .f32 :=
  View.canon [⟨r6_o, k6_pay1 (View.ld x0 r6_z) (View.ld x1 r6_w)⟩]

theorem cover6_2 (p0 : Vec F S2000x64 .f32) (y : S2000x64.Idx) :
    ∃ pc ∈ ([⟨r6_o, p0⟩] : List (View.Piece (Elt F) S2000x64 .f32)), y ∈ pc.1.set :=
  View.cover_of_tiled [⟨r6_o, p0⟩] S2000x64.size (by rfl) y

set_option maxHeartbeats 1000000 in
/-- The body on whole staging memrefs: the two inputs keep their contents, the output ends at the product. -/
theorem sound_kernel6 (c : Dev nD) (E : Set ℕ) (i : grid6.Coords)
    (arg1 : Memref sig .tc .vmem S2000x64 .f32) (harg1 : arg1.IsWhole) (arg2 : Memref sig .tc .vmem S64x64 .f32) (harg2 : arg2.IsWhole)
    (arg3 : Memref sig .tc .vmem S2000x64 .f32) (harg3 : arg3.IsWhole)
    (x0 : Vec F S2000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out6_2 x0 x1)) -∗ K ⟨⟩))
      ⊢ wp frame (wpE (defs₀ (F := F)) Variants.none c none) E (cc6__matmul_kernel i arg1 harg1 arg2 harg2 arg3 harg3) K := by
  simp only [cc6__matmul_kernel_eq_skeleton]; unfold cc6__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover6_2 _)

/-- The pipeline's proof data on core c: the arrays as the region finds them; after the body at point t each input's
    buffer at its block and the output's at the product of the two blocks; the class invariant; nothing owed. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = out6_2 (iblk6 V c 0 t) (iblk6 V c 1 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t))

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).Φ t.succ = (dat6 V c).Φ t.castSucc from rfl,
    show (dat6 V c).owesAt () t.succ = (dat6 V c).owesAt () t.castSucc from rfl,
    after6_0, after6_1, after6_2]
  iintro ⟨HΦ, Ho, ⟨%d0, H0⟩, ⟨%d1, H1⟩, ⟨%d2, H2⟩⟩
  iapply (sound_kernel6 c Set.univ _ _ _ _ _ _ _ (iblk6 V c 0 t) (iblk6 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation6 (c : Dev nD) : BodyObligation (dat6 (F := F) V c) (defs₀ (F := F)) Variants.none () Set.univ := fun t => by
  rw [bigSep_W6, bigSep_W6]
  exact sound_body6 V c t

end Cert.Kernel.Hand

end
-- ==== Proof.KRegionStats7Runs.lean ====
/- The bias + rectifier + running-statistics region (pipeline 7), stated at the buffer contents `V` the region
   is entered with: the windows' blocks, the input windows' staging contents at every point, the body's one
   branch condition in closed form, and the staging memrefs the body is called with. Shared by the two
   whole-body runs (the first grid point, which zeroes the two accumulators, and every later point). -/
import proofs.«100384_j8693013807615_2_alg».proof.Proof.Gen.Kernel.Launch
import proofs.«100384_j8693013807615_2_alg».proof.Proof.Gen.Kernel.Skeleton
import proofs.«100384_j8693013807615_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-! ## The windows' blocks -/

/-- Window `w`'s block at point `t`, read off its array as the region finds it (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0 (the aggregate's row block) holds its block at every point, for any proof data whose array is
    `V`'s and whose body leaves the block in place. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1 (the bias row; one block, fetched once) holds its block at every point, fetched there or not:
    unfetched, its block index has not moved. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

end Region

/-! ## The body's branch condition -/

/-- The condition of the body's one conditional (the accumulators' reset), from the grid coordinates. -/
abbrev cond7_0 (i : grid7.Coords) : Prop := (Scalar.cmpi .ne (Scalar.extui (Scalar.cmpi .eq (BitVec.ofNat 32 (i 0).val) 0#32)) 0#32) = 1#1
/-- It holds at the first point only — decided over the grid's 25 points. -/
theorem hcond7_0 : ∀ t : Fin cfg7.N, cond7_0 (grid7.coords t) ↔ t.val % 25 = 0 :=
  (by decide +kernel : ∀ t : Fin grid7.N, cond7_0 (grid7.coords t) ↔ t.val % 25 = 0)

/-! ## The staging memrefs -/

/-- One staging buffer of each output window, through which its contents are stated (the choice does not matter). -/
abbrev VO7_2 : View sig .tc .vmem S2000x64 .f32 := (Memref.whole cc7_stg2_0 : Memref sig .tc .vmem S2000x64 .f32).view
abbrev VO7_3 : View sig .tc .vmem S1x64 .f32 := (Memref.whole cc7_stg3_0 : Memref sig .tc .vmem S1x64 .f32).view
abbrev VO7_4 : View sig .tc .vmem S1x64 .f32 := (Memref.whole cc7_stg4_0 : Memref sig .tc .vmem S1x64 .f32).view
/-- Each window's current staging memref at point `t`, spelled as the pipeline passes it (`bodyAt7`), and its wholeness. -/
abbrev ms7_0 (t : Fin cfg7.N) : Memref sig .tc .vmem S2000x64 .f32 := win7_0.stage (cfg7.slots t 0)
abbrev hs7_0 (t : Fin cfg7.N) : (ms7_0 t).IsWhole := hstage7_0 ((cfg7.slots t 0).cast nbuf7_0)
abbrev ms7_1 (t : Fin cfg7.N) : Memref sig .tc .vmem S1x64 .f32 := win7_1.stage (cfg7.slots t 1)
abbrev hs7_1 (t : Fin cfg7.N) : (ms7_1 t).IsWhole := hstage7_1 ((cfg7.slots t 1).cast nbuf7_1)
abbrev ms7_2 (t : Fin cfg7.N) : Memref sig .tc .vmem S2000x64 .f32 := win7_2.stage (cfg7.slots t 2)
abbrev hs7_2 (t : Fin cfg7.N) : (ms7_2 t).IsWhole := hstage7_2 ((cfg7.slots t 2).cast nbuf7_2)
abbrev ms7_3 (t : Fin cfg7.N) : Memref sig .tc .vmem S1x64 .f32 := win7_3.stage (cfg7.slots t 3)
abbrev hs7_3 (t : Fin cfg7.N) : (ms7_3 t).IsWhole := hstage7_3 ((cfg7.slots t 3).cast nbuf7_3)
abbrev ms7_4 (t : Fin cfg7.N) : Memref sig .tc .vmem S1x64 .f32 := win7_4.stage (cfg7.slots t 4)
abbrev hs7_4 (t : Fin cfg7.N) : (ms7_4 t).IsWhole := hstage7_4 ((cfg7.slots t 4).cast nbuf7_4)

end Cert.Kernel.Hand

end
-- ==== Proof.KRegionStats7RunA.lean ====
/- The whole-body run of the bias + rectifier + running-statistics kernel at the FIRST grid point: the reset
   is taken, so both accumulators are zeroed, read back, and the point's column sums added. -/
import proofs.«100384_j8693013807615_2_alg».proof.Proof.KRegionStats7Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in each output's staging memref, as pieces (last first), at the first point
    (the reset taken), with the proof that on whole staging memrefs — the inputs' at their contents `x0`, `x1`, the
    outputs' at anything — the body runs to the continuation holding the inputs' as they were and each output's
    buffer with its pieces written. The pieces are found by the run. -/
noncomputable def kernelRun7_A (c : Dev nD) (i : grid7.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (hc0 : cond7_0 i)
    (x0 : Vec F S2000x64 .f32) (x1 : Vec F S1x64 .f32) :
    Σ' (L2 : List (View.Piece (Elt F) S2000x64 .f32)), Σ' (L3 : List (View.Piece (Elt F) S1x64 .f32)), { L4 : List (View.Piece (Elt F) S1x64 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4)) -∗ K ⟨⟩))
          ⊢ wp frame (wpE (defs₀ (F := F)) Variants.none c none) E (cc7__bias_relu_stats_kernel i arg1 harg1 arg2 harg2 arg3 harg3 arg4 harg4 arg5 harg5) K } := by
  refine ⟨?_, ?_, ?_, fun E K => ?run⟩
  case run =>
    simp only [cc7__bias_relu_stats_kernel_eq_skeleton]; unfold cc7__bias_relu_stats_kernel_skel
    unfold owns
    iintro ⟨⟨%f0, %hf0, H0⟩, ⟨%f1, %hf1, H1⟩, ⟨%d2, %f2, -, H2⟩, ⟨%d3, %f3, -, H3⟩, ⟨%d4, %f4, -, H4⟩, Hk⟩
    obtain rfl := harg1.eq_unread hf0; obtain rfl := harg2.eq_unread hf1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; iexact H2
    isplitl [H3]
    · iexists _; iexact H3
    iexists _; iexact H4

end Cert.Kernel.Hand

end
-- ==== Proof.KRegionStats7RunB.lean ====
/- The whole-body run of the bias + rectifier + running-statistics kernel at a LATER grid point: the reset is
   not taken, so the two accumulators are read at their running contents and the point's column sums added. -/
import proofs.«100384_j8693013807615_2_alg».proof.Proof.KRegionStats7RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in each output's staging memref, as pieces (last first), at a point after the
    first (the reset not taken), with the proof that on whole staging memrefs — the inputs' at their contents `x0`,
    `x1`, the two accumulators' at their running contents `xo3`, `xo4`, the rectified block's at anything — the body
    runs to the continuation holding the inputs' as they were and each output's buffer with its pieces written. -/
noncomputable def kernelRun7_B (c : Dev nD) (i : grid7.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (hc0 : ¬cond7_0 i)
    (x0 : Vec F S2000x64 .f32) (x1 : Vec F S1x64 .f32) (xo3 : Vec F S1x64 .f32) (xo4 : Vec F S1x64 .f32) :
    Σ' (L2 : List (View.Piece (Elt F) S2000x64 .f32)), Σ' (L3 : List (View.Piece (Elt F) S1x64 .f32)), { L4 : List (View.Piece (Elt F) S1x64 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xo3 ∗ owns (c : Thread nD τ) arg5 fullShare xo4
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4)) -∗ K ⟨⟩))
          ⊢ wp frame (wpE (defs₀ (F := F)) Variants.none c none) E (cc7__bias_relu_stats_kernel i arg1 harg1 arg2 harg2 arg3 harg3 arg4 harg4 arg5 harg5) K } := by
  refine ⟨?_, ?_, ?_, fun E K => ?run⟩
  case run =>
    simp only [cc7__bias_relu_stats_kernel_eq_skeleton]; unfold cc7__bias_relu_stats_kernel_skel
    unfold owns
    iintro ⟨⟨%f0, %hf0, H0⟩, ⟨%f1, %hf1, H1⟩, ⟨%d2, %f2, -, H2⟩, ⟨%f3, %hf3, H3⟩, ⟨%f4, %hf4, H4⟩, Hk⟩
    obtain rfl := harg1.eq_unread hf0; obtain rfl := harg2.eq_unread hf1; obtain rfl := harg4.eq_unread hf3; obtain rfl := harg5.eq_unread hf4
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; iexact H2
    isplitl [H3]
    · iexists _; iexact H3
    iexists _; iexact H4

end Cert.Kernel.Hand

end
-- ==== Proof.KRegionStats7.lean ====
/- The bias + rectifier + running-statistics region (pipeline 7) at the entry contents `V`: what each output's
   staging buffer holds after every grid point — the rectified block is rewritten at each point; the two
   statistics rows are zeroed at the first point and accumulated across the grid, their buffers never written
   back in between —, the pipeline's proof data over those contents, and the body obligation at every point. -/
import proofs.«100384_j8693013807615_2_alg».proof.Proof.KRegionStats7RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The covers, and what each case leaves -/

/-- The pieces the first point leaves in output 2 (the rectified block) tile its block, so they cover it. -/
theorem cover7_A_2 (c : Dev nD) (i : grid7.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (hc0 : cond7_0 i)
    (x0 : Vec F S2000x64 .f32) (x1 : Vec F S1x64 .f32) (y : S2000x64.Idx) :
    ∃ pc ∈ (kernelRun7_A c i arg1 harg1 arg2 harg2 arg3 harg3 arg4 harg4 arg5 harg5 hc0 x0 x1).1, y ∈ pc.1.set :=
  View.cover_of_tiledL (kernelRun7_A c i arg1 harg1 arg2 harg2 arg3 harg3 arg4 harg4 arg5 harg5 hc0 x0 x1).1 S2000x64.size (by sl_kernel_rfl) y

/-- What that case leaves in output 2's staging buffer: its pieces read back over anything. -/
def out7_A_2 (c : Dev nD) (i : grid7.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (hc0 : cond7_0 i)
    (x0 : Vec F S2000x64 .f32) (x1 : Vec F S1x64 .f32) : Vec F S2000x64 .f32 :=
  VO7_2.read (Elt F) (VO7_2.writes (Elt F) VO7_2.junk (kernelRun7_A c i arg1 harg1 arg2 harg2 arg3 harg3 arg4 harg4 arg5 harg5 hc0 x0 x1).1)

/-- The pieces the first point leaves in output 3 (the column sums) tile its block, so they cover it. -/
theorem cover7_A_3 (c : Dev nD) (i : grid7.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (hc0 : cond7_0 i)
    (x0 : Vec F S2000x64 .f32) (x1 : Vec F S1x64 .f32) (y : S1x64.Idx) :
    ∃ pc ∈ (kernelRun7_A c i arg1 harg1 arg2 harg2 arg3 harg3 arg4 harg4 arg5 harg5 hc0 x0 x1).2.1, y ∈ pc.1.set :=
  View.cover_of_tiledL (kernelRun7_A c i arg1 harg1 arg2 harg2 arg3 harg3 arg4 harg4 arg5 harg5 hc0 x0 x1).2.1 S1x64.size (by sl_kernel_rfl) y

/-- What that case leaves in output 3's staging buffer: its pieces read back over anything. -/
def out7_A_3 (c : Dev nD) (i : grid7.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (hc0 : cond7_0 i)
    (x0 : Vec F S2000x64 .f32) (x1 : Vec F S1x64 .f32) : Vec F S1x64 .f32 :=
  VO7_3.read (Elt F) (VO7_3.writes (Elt F) VO7_3.junk (kernelRun7_A c i arg1 harg1 arg2 harg2 arg3 harg3 arg4 harg4 arg5 harg5 hc0 x0 x1).2.1)

/-- The pieces the first point leaves in output 4 (the column sums of squares) tile its block, so they cover it. -/
theorem cover7_A_4 (c : Dev nD) (i : grid7.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (hc0 : cond7_0 i)
    (x0 : Vec F S2000x64 .f32) (x1 : Vec F S1x64 .f32) (y : S1x64.Idx) :
    ∃ pc ∈ (kernelRun7_A c i arg1 harg1 arg2 harg2 arg3 harg3 arg4 harg4 arg5 harg5 hc0 x0 x1).2.2.1, y ∈ pc.1.set :=
  View.cover_of_tiledL (kernelRun7_A c i arg1 harg1 arg2 harg2 arg3 harg3 arg4 harg4 arg5 harg5 hc0 x0 x1).2.2.1 S1x64.size (by sl_kernel_rfl) y

/-- What that case leaves in output 4's staging buffer: its pieces read back over anything. -/
def out7_A_4 (c : Dev nD) (i : grid7.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (hc0 : cond7_0 i)
    (x0 : Vec F S2000x64 .f32) (x1 : Vec F S1x64 .f32) : Vec F S1x64 .f32 :=
  VO7_4.read (Elt F) (VO7_4.writes (Elt F) VO7_4.junk (kernelRun7_A c i arg1 harg1 arg2 harg2 arg3 harg3 arg4 harg4 arg5 harg5 hc0 x0 x1).2.2.1)

/-- The pieces the later points leave in output 2 (the rectified block) tile its block, so they cover it. -/
theorem cover7_B_2 (c : Dev nD) (i : grid7.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (hc0 : ¬cond7_0 i)
    (x0 : Vec F S2000x64 .f32) (x1 : Vec F S1x64 .f32) (xo3 : Vec F S1x64 .f32) (xo4 : Vec F S1x64 .f32) (y : S2000x64.Idx) :
    ∃ pc ∈ (kernelRun7_B c i arg1 harg1 arg2 harg2 arg3 harg3 arg4 harg4 arg5 harg5 hc0 x0 x1 xo3 xo4).1, y ∈ pc.1.set :=
  View.cover_of_tiledL (kernelRun7_B c i arg1 harg1 arg2 harg2 arg3 harg3 arg4 harg4 arg5 harg5 hc0 x0 x1 xo3 xo4).1 S2000x64.size (by sl_kernel_rfl) y

/-- What that case leaves in output 2's staging buffer: its pieces read back over anything. -/
def out7_B_2 (c : Dev nD) (i : grid7.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (hc0 : ¬cond7_0 i)
    (x0 : Vec F S2000x64 .f32) (x1 : Vec F S1x64 .f32) (xo3 : Vec F S1x64 .f32) (xo4 : Vec F S1x64 .f32) : Vec F S2000x64 .f32 :=
  VO7_2.read (Elt F) (VO7_2.writes (Elt F) VO7_2.junk (kernelRun7_B c i arg1 harg1 arg2 harg2 arg3 harg3 arg4 harg4 arg5 harg5 hc0 x0 x1 xo3 xo4).1)

/-- The pieces the later points leave in output 3 (the column sums) tile its block, so they cover it. -/
theorem cover7_B_3 (c : Dev nD) (i : grid7.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (hc0 : ¬cond7_0 i)
    (x0 : Vec F S2000x64 .f32) (x1 : Vec F S1x64 .f32) (xo3 : Vec F S1x64 .f32) (xo4 : Vec F S1x64 .f32) (y : S1x64.Idx) :
    ∃ pc ∈ (kernelRun7_B c i arg1 harg1 arg2 harg2 arg3 harg3 arg4 harg4 arg5 harg5 hc0 x0 x1 xo3 xo4).2.1, y ∈ pc.1.set :=
  View.cover_of_tiledL (kernelRun7_B c i arg1 harg1 arg2 harg2 arg3 harg3 arg4 harg4 arg5 harg5 hc0 x0 x1 xo3 xo4).2.1 S1x64.size (by sl_kernel_rfl) y

/-- What that case leaves in output 3's staging buffer: its pieces read back over anything. -/
def out7_B_3 (c : Dev nD) (i : grid7.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (hc0 : ¬cond7_0 i)
    (x0 : Vec F S2000x64 .f32) (x1 : Vec F S1x64 .f32) (xo3 : Vec F S1x64 .f32) (xo4 : Vec F S1x64 .f32) : Vec F S1x64 .f32 :=
  VO7_3.read (Elt F) (VO7_3.writes (Elt F) VO7_3.junk (kernelRun7_B c i arg1 harg1 arg2 harg2 arg3 harg3 arg4 harg4 arg5 harg5 hc0 x0 x1 xo3 xo4).2.1)

/-- The pieces the later points leave in output 4 (the column sums of squares) tile its block, so they cover it. -/
theorem cover7_B_4 (c : Dev nD) (i : grid7.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (hc0 : ¬cond7_0 i)
    (x0 : Vec F S2000x64 .f32) (x1 : Vec F S1x64 .f32) (xo3 : Vec F S1x64 .f32) (xo4 : Vec F S1x64 .f32) (y : S1x64.Idx) :
    ∃ pc ∈ (kernelRun7_B c i arg1 harg1 arg2 harg2 arg3 harg3 arg4 harg4 arg5 harg5 hc0 x0 x1 xo3 xo4).2.2.1, y ∈ pc.1.set :=
  View.cover_of_tiledL (kernelRun7_B c i arg1 harg1 arg2 harg2 arg3 harg3 arg4 harg4 arg5 harg5 hc0 x0 x1 xo3 xo4).2.2.1 S1x64.size (by sl_kernel_rfl) y

/-- What that case leaves in output 4's staging buffer: its pieces read back over anything. -/
def out7_B_4 (c : Dev nD) (i : grid7.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (hc0 : ¬cond7_0 i)
    (x0 : Vec F S2000x64 .f32) (x1 : Vec F S1x64 .f32) (xo3 : Vec F S1x64 .f32) (xo4 : Vec F S1x64 .f32) : Vec F S1x64 .f32 :=
  VO7_4.read (Elt F) (VO7_4.writes (Elt F) VO7_4.junk (kernelRun7_B c i arg1 harg1 arg2 harg2 arg3 harg3 arg4 harg4 arg5 harg5 hc0 x0 x1 xo3 xo4).2.2.1)

section Region
variable (V : (c : Dev nD) → (b : Ref sig .tc) → Buf (Elt F) ((c : Thread nD τ).loc b))

/-! ## What the outputs hold after each point -/

/-- THE ACCUMULATION. What the three outputs' staging buffers hold after the body at position `n` (the
    rectified block, the column sums, the column sums of squares): at the first point the reset case on the
    point's input blocks; at a later point the accumulating case on the point's input blocks over what this
    leaves in the two statistics rows at `n - 1` (their buffers are not written back in between). -/
def outsAt7 (c : Dev nD) : (n : ℕ) → n < cfg7.N → Vec F S2000x64 .f32 × Vec F S1x64 .f32 × Vec F S1x64 .f32
  | 0, hn => (out7_A_2 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) (ms7_4 ⟨0, hn⟩) (hs7_4 ⟨0, hn⟩) ((hcond7_0 ⟨0, hn⟩).mpr (Nat.zero_mod _)) (iblk7 V c 0 ⟨0, hn⟩) (iblk7 V c 1 ⟨0, hn⟩),
      out7_A_3 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) (ms7_4 ⟨0, hn⟩) (hs7_4 ⟨0, hn⟩) ((hcond7_0 ⟨0, hn⟩).mpr (Nat.zero_mod _)) (iblk7 V c 0 ⟨0, hn⟩) (iblk7 V c 1 ⟨0, hn⟩),
      out7_A_4 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) (ms7_4 ⟨0, hn⟩) (hs7_4 ⟨0, hn⟩) ((hcond7_0 ⟨0, hn⟩).mpr (Nat.zero_mod _)) (iblk7 V c 0 ⟨0, hn⟩) (iblk7 V c 1 ⟨0, hn⟩))
  | n + 1, hn =>
    if h0 : (n + 1) % 25 = 0 then
      (out7_A_2 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) ((hcond7_0 ⟨n + 1, hn⟩).mpr h0) (iblk7 V c 0 ⟨n + 1, hn⟩) (iblk7 V c 1 ⟨n + 1, hn⟩),
      out7_A_3 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) ((hcond7_0 ⟨n + 1, hn⟩).mpr h0) (iblk7 V c 0 ⟨n + 1, hn⟩) (iblk7 V c 1 ⟨n + 1, hn⟩),
      out7_A_4 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) ((hcond7_0 ⟨n + 1, hn⟩).mpr h0) (iblk7 V c 0 ⟨n + 1, hn⟩) (iblk7 V c 1 ⟨n + 1, hn⟩))
    else
      (out7_B_2 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (fun h => h0 ((hcond7_0 ⟨n + 1, hn⟩).mp h)) (iblk7 V c 0 ⟨n + 1, hn⟩) (iblk7 V c 1 ⟨n + 1, hn⟩) (outsAt7 c n (Nat.lt_of_succ_lt hn)).2.1 (outsAt7 c n (Nat.lt_of_succ_lt hn)).2.2,
      out7_B_3 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (fun h => h0 ((hcond7_0 ⟨n + 1, hn⟩).mp h)) (iblk7 V c 0 ⟨n + 1, hn⟩) (iblk7 V c 1 ⟨n + 1, hn⟩) (outsAt7 c n (Nat.lt_of_succ_lt hn)).2.1 (outsAt7 c n (Nat.lt_of_succ_lt hn)).2.2,
      out7_B_4 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (fun h => h0 ((hcond7_0 ⟨n + 1, hn⟩).mp h)) (iblk7 V c 0 ⟨n + 1, hn⟩) (iblk7 V c 1 ⟨n + 1, hn⟩) (outsAt7 c n (Nat.lt_of_succ_lt hn)).2.1 (outsAt7 c n (Nat.lt_of_succ_lt hn)).2.2)

/-- `outsAt7` at the first point: the reset case's contents. -/
theorem outsAt7_A (c : Dev nD) (t : Fin cfg7.N) (h0 : t.val % 25 = 0) :
    outsAt7 V c t.val t.isLt = (out7_A_2 c (grid7.coords t) (ms7_0 t) (hs7_0 t) (ms7_1 t) (hs7_1 t) (ms7_2 t) (hs7_2 t) (ms7_3 t) (hs7_3 t) (ms7_4 t) (hs7_4 t) ((hcond7_0 t).mpr h0) (iblk7 V c 0 t) (iblk7 V c 1 t),
      out7_A_3 c (grid7.coords t) (ms7_0 t) (hs7_0 t) (ms7_1 t) (hs7_1 t) (ms7_2 t) (hs7_2 t) (ms7_3 t) (hs7_3 t) (ms7_4 t) (hs7_4 t) ((hcond7_0 t).mpr h0) (iblk7 V c 0 t) (iblk7 V c 1 t),
      out7_A_4 c (grid7.coords t) (ms7_0 t) (hs7_0 t) (ms7_1 t) (hs7_1 t) (ms7_2 t) (hs7_2 t) (ms7_3 t) (hs7_3 t) (ms7_4 t) (hs7_4 t) ((hcond7_0 t).mpr h0) (iblk7 V c 0 t) (iblk7 V c 1 t)) := by
  obtain ⟨n, hn⟩ := t
  cases n with
  | zero => exact rfl
  | succ n => exact (dif_pos h0).trans rfl

/-- `outsAt7` at a later point: the accumulating case's contents, over what the point before left. -/
theorem outsAt7_B (c : Dev nD) (t : Fin cfg7.N) (h0 : ¬t.val % 25 = 0) :
    outsAt7 V c t.val t.isLt = (out7_B_2 c (grid7.coords t) (ms7_0 t) (hs7_0 t) (ms7_1 t) (hs7_1 t) (ms7_2 t) (hs7_2 t) (ms7_3 t) (hs7_3 t) (ms7_4 t) (hs7_4 t) (fun h => h0 ((hcond7_0 t).mp h)) (iblk7 V c 0 t) (iblk7 V c 1 t) (outsAt7 V c (t.val - 1) (Nat.lt_of_le_of_lt (Nat.sub_le _ _) t.isLt)).2.1 (outsAt7 V c (t.val - 1) (Nat.lt_of_le_of_lt (Nat.sub_le _ _) t.isLt)).2.2,
      out7_B_3 c (grid7.coords t) (ms7_0 t) (hs7_0 t) (ms7_1 t) (hs7_1 t) (ms7_2 t) (hs7_2 t) (ms7_3 t) (hs7_3 t) (ms7_4 t) (hs7_4 t) (fun h => h0 ((hcond7_0 t).mp h)) (iblk7 V c 0 t) (iblk7 V c 1 t) (outsAt7 V c (t.val - 1) (Nat.lt_of_le_of_lt (Nat.sub_le _ _) t.isLt)).2.1 (outsAt7 V c (t.val - 1) (Nat.lt_of_le_of_lt (Nat.sub_le _ _) t.isLt)).2.2,
      out7_B_4 c (grid7.coords t) (ms7_0 t) (hs7_0 t) (ms7_1 t) (hs7_1 t) (ms7_2 t) (hs7_2 t) (ms7_3 t) (hs7_3 t) (ms7_4 t) (hs7_4 t) (fun h => h0 ((hcond7_0 t).mp h)) (iblk7 V c 0 t) (iblk7 V c 1 t) (outsAt7 V c (t.val - 1) (Nat.lt_of_le_of_lt (Nat.sub_le _ _) t.isLt)).2.1 (outsAt7 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-! ## The pipeline's proof data -/

/-- The proof data of pipeline 7 on core `c`: the arrays as the region finds them (`V`); after the body at point
    `t` each input's buffer at its block and the outputs' at `outsAt7`'s components; the invariant the scoped rest
    and the generator register, untouched; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => (outsAt7 V c t.val t.isLt).1
    | ⟨3, _⟩ => (outsAt7 V c t.val t.isLt).2.1
    | ⟨4, _⟩ => (outsAt7 V c t.val t.isLt).2.2
  Φ _ := Pipeline.ΦA spec7 c
  q _ := fullShare
  owed _ := 0

/-- The proof data's arrays are the region-entry contents. -/
theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = (outsAt7 V c t.val t.isLt).1 := by dsimp only [dat7]
theorem after7_3 (c : Dev nD) (t : Fin cfg7.N) : (dat7 V c).after 3 t = (outsAt7 V c t.val t.isLt).2.1 := by dsimp only [dat7]
theorem after7_4 (c : Dev nD) (t : Fin cfg7.N) : (dat7 V c).after 4 t = (outsAt7 V c t.val t.isLt).2.2 := by dsimp only [dat7]

/-- Each input's current staging buffer holds its block at every point, fetched there or not. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d

/-- At a later point the column sums' staging buffer holds what the body left at the point before: the point is not
    the first and the buffer was not written back in between (it is written back after the last point only). -/
theorem before7_3_B (c : Dev nD) (t : Fin cfg7.N) (h0 : ¬t.val % 25 = 0) (d) :
    (dat7 V c).before 3 t d = (outsAt7 V c (t.val - 1) (Nat.lt_of_le_of_lt (Nat.sub_le _ _) t.isLt)).2.1 := by
  have hN : t.val < 25 := lt_of_lt_of_eq t.isLt (show cfg7.N = 25 from N_7)
  rw [Dat.before_out_kept _ 3 rfl t (by omega) (Bool.eq_false_iff.mpr fun h => by have := (flush7_3 _).mp h; dsimp only at this; omega)
    (fun _ => rfl) (fun _ _ => rfl)]
  dsimp only [dat7]

/-- Likewise the column sums of squares'. -/
theorem before7_4_B (c : Dev nD) (t : Fin cfg7.N) (h0 : ¬t.val % 25 = 0) (d) :
    (dat7 V c).before 4 t d = (outsAt7 V c (t.val - 1) (Nat.lt_of_le_of_lt (Nat.sub_le _ _) t.isLt)).2.2 := by
  have hN : t.val < 25 := lt_of_lt_of_eq t.isLt (show cfg7.N = 25 from N_7)
  rw [Dat.before_out_kept _ 4 rfl t (by omega) (Bool.eq_false_iff.mpr fun h => by have := (flush7_4 _).mp h; dsimp only at this; omega)
    (fun _ => rfl) (fun _ _ => rfl)]
  dsimp only [dat7]

/-! ## The body obligation, at a generic point -/

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (ms7_0 t) fullShare ((dat7 V c).before 0 t d))
    ∗ (∃ d, owns (c : Thread nD τ) (ms7_1 t) fullShare ((dat7 V c).before 1 t d))
    ∗ (∃ d, owns (c : Thread nD τ) (ms7_2 t) fullShare ((dat7 V c).before 2 t d))
    ∗ (∃ d, owns (c : Thread nD τ) (ms7_3 t) fullShare ((dat7 V c).before 3 t d))
    ∗ (∃ d, owns (c : Thread nD τ) (ms7_4 t) fullShare ((dat7 V c).before 4 t d)))

/-- and what it returns. -/
def bodyPost7 (c : Dev nD) (t : Fin cfg7.N) : sProp 𝕄 :=
  iprop((dat7 V c).Φ t.succ ∗ (dat7 V c).owesAt () t.succ
    ∗ owns (c : Thread nD τ) (ms7_0 t) fullShare ((dat7 V c).after 0 t)
    ∗ owns (c : Thread nD τ) (ms7_1 t) fullShare ((dat7 V c).after 1 t)
    ∗ owns (c : Thread nD τ) (ms7_2 t) fullShare ((dat7 V c).after 2 t)
    ∗ owns (c : Thread nD τ) (ms7_3 t) fullShare ((dat7 V c).after 3 t)
    ∗ owns (c : Thread nD τ) (ms7_4 t) fullShare ((dat7 V c).after 4 t))

set_option maxHeartbeats 2000000 in
/-- The body at any point: the inputs' memrefs hold their blocks; the closed form says which case the point is in;
    at a later point the two statistics rows hold what the point before left; so the case's run applies. The
    invariant passes through unread; the core owes nothing throughout. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1]
  rw [show (dat7 V c).Φ t.succ = (dat7 V c).Φ t.castSucc from rfl,
    show (dat7 V c).owesAt () t.succ = (dat7 V c).owesAt () t.castSucc from rfl,
    after7_0, after7_1, after7_2, after7_3, after7_4]
  have hN : t.val < 25 := lt_of_lt_of_eq t.isLt (show cfg7.N = 25 from N_7)
  by_cases h0 : t.val % 25 = 0
  · rw [outsAt7_A V c t h0]
    unfold out7_A_2 out7_A_3 out7_A_4; (try dsimp only)
    iintro ⟨HΦ, Ho, ⟨%d0, H0⟩, ⟨%d1, H1⟩, ⟨%d2, H2⟩, ⟨%d3, H3⟩, ⟨%d4, H4⟩⟩
    iapply ((kernelRun7_A c (grid7.coords t) _ _ _ _ _ _ _ _ _ _ ((hcond7_0 t).mpr h0) (iblk7 V c 0 t) (iblk7 V c 1 t)).2.2.2 Set.univ _)
    isplitl [H0]; · iexact H0
    isplitl [H1]; · iexact H1
    isplitl [H2]; · iexists _; iexact H2
    isplitl [H3]; · iexists _; iexact H3
    isplitl [H4]; · iexists _; iexact H4
    iintro ⟨H0, H1, ⟨%e2, H2⟩, ⟨%e3, H3⟩, ⟨%e4, H4⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover7_A_2 c _ _ _ _ _ _ _ _ _ _ _ _ _ _)
    isplitl [H3]
    · unfold owns; iexists _; isplitr
      swap; · iexact H3
      ipureintro; exact View.read_writes_of_cover _ _ _ _ _ (cover7_A_3 c _ _ _ _ _ _ _ _ _ _ _ _ _ _)
    unfold owns; iexists _; isplitr
    swap; · iexact H4
    ipureintro; exact View.read_writes_of_cover _ _ _ _ _ (cover7_A_4 c _ _ _ _ _ _ _ _ _ _ _ _ _ _)
  · rw [outsAt7_B V c t h0]
    simp only [before7_3_B V c t h0, before7_4_B V c t h0]
    unfold out7_B_2 out7_B_3 out7_B_4; (try dsimp only)
    iintro ⟨HΦ, Ho, ⟨%d0, H0⟩, ⟨%d1, H1⟩, ⟨%d2, H2⟩, ⟨%d3, H3⟩, ⟨%d4, H4⟩⟩
    iapply ((kernelRun7_B c (grid7.coords t) _ _ _ _ _ _ _ _ _ _ (fun h => h0 ((hcond7_0 t).mp h)) (iblk7 V c 0 t) (iblk7 V c 1 t) _ _).2.2.2 Set.univ _)
    isplitl [H0]; · iexact H0
    isplitl [H1]; · iexact H1
    isplitl [H2]; · iexists _; iexact H2
    isplitl [H3]; · iexact H3
    isplitl [H4]; · iexact H4
    iintro ⟨H0, H1, ⟨%e2, H2⟩, ⟨%e3, H3⟩, ⟨%e4, H4⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover7_B_2 c _ _ _ _ _ _ _ _ _ _ _ _ _ _ _ _)
    isplitl [H3]
    · unfold owns; iexists _; isplitr
      swap; · iexact H3
      ipureintro; exact View.read_writes_of_cover _ _ _ _ _ (cover7_B_3 c _ _ _ _ _ _ _ _ _ _ _ _ _ _ _ _)
    unfold owns; iexists _; isplitr
    swap; · iexact H4
    ipureintro; exact View.read_writes_of_cover _ _ _ _ _ (cover7_B_4 c _ _ _ _ _ _ _ _ _ _ _ _ _ _ _ _)

/-- The library's body obligation, at every point. -/
theorem body_obligation7 (c : Dev nD) : BodyObligation (dat7 (F := F) V c) (defs₀ (F := F)) Variants.none () Set.univ := fun t => by
  rw [bigSep_W7, bigSep_W7]
  exact sound_body7 V c t

end Region

end Cert.Kernel.Hand

end
-- ==== Proof.KRegionA8.lean ====
/-
  The normalization region 8: at grid point t the body reads a [2000, 64] row block of the rectified activations and
  the four [1, 64] rows (mean, variance, gain, offset) and leaves (z - mean) * rsqrt(variance + eps) * gain + offset in
  the output block. Stated at the buffer contents V the region is entered with.
-/
import proofs.«100384_j8693013807615_2_alg».proof.Proof.Gen.Kernel.Launch
import proofs.«100384_j8693013807615_2_alg».proof.Proof.Gen.Kernel.Skeleton
import proofs.«100384_j8693013807615_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's staging buffer holds its block at every point, fetched there or not. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- Input window 1's staging buffer holds its block at every point, fetched there or not. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- Input window 2's staging buffer holds its block at every point, fetched there or not. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-- Input window 3's staging buffer holds its block at every point, fetched there or not. -/
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

/-- Input window 4's staging buffer holds its block at every point, fetched there or not. -/
theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)

abbrev r8_z : Rect S2000x64 := Rect.unit (s := S2000x64) ![0, 0] S2000x64.size inb_S2000x64_S2000x64_0_0
abbrev r8_r : Rect S1x64 := Rect.unit (s := S1x64) ![0, 0] S1x64.size inb_S1x64_S1x64_0_0

/-- The output block after the body: one whole-block store of the normalized block. -/
def out8_5 (x0 : Vec F S2000x64 .f32) (x1 x2 x3 x4 : Vec F S1x64 .f32) : Vec F S2000x64 .f32 :=
  View.canon [⟨r8_z, k8_pay1 (View.ld x2 r8_r) (View.ld x0 r8_z) (View.ld x1 r8_r) (View.ld x3 r8_r) (View.ld x4 r8_r)⟩]

theorem cover8_5 (p0 : Vec F S2000x64 .f32) (y : S2000x64.Idx) :
    ∃ pc ∈ ([⟨r8_z, p0⟩] : List (View.Piece (Elt F) S2000x64 .f32)), y ∈ pc.1.set :=
  View.cover_of_tiled [⟨r8_z, p0⟩] S2000x64.size (by rfl) y

set_option maxHeartbeats 1000000 in
/-- The body on whole staging memrefs: the five inputs keep their contents, the output ends at the normalized block. -/
theorem sound_kernel8 (c : Dev nD) (E : Set ℕ) (i : grid8.Coords)
    (arg1 : Memref sig .tc .vmem S2000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S2000x64 .f32) (harg6 : arg6.IsWhole)
    (x0 : Vec F S2000x64 .f32) (x1 x2 x3 x4 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out8_5 x0 x1 x2 x3 x4)) -∗ K ⟨⟩))
      ⊢ wp frame (wpE (defs₀ (F := F)) Variants.none c none) E (cc8__bn_apply_kernel i arg1 harg1 arg2 harg2 arg3 harg3 arg4 harg4 arg5 harg5 arg6 harg6) K := by
  simp only [cc8__bn_apply_kernel_eq_skeleton]; unfold cc8__bn_apply_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0
  subst hf1
  subst hf2
  subst hf3
  subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover8_5 _)

/-- The pipeline's proof data on core c: the arrays as the region finds them; after the body at point t each input's
    buffer at its block and the output's at the normalized block; the class invariant; nothing owed. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => out8_5 (iblk8 V c 0 t) (iblk8 V c 1 t) (iblk8 V c 2 t) (iblk8 V c 3 t) (iblk8 V c 4 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = out8_5 (iblk8 V c 0 t) (iblk8 V c 1 t) (iblk8 V c 2 t) (iblk8 V c 3 t) (iblk8 V c 4 t) := by dsimp only [dat8]

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d

def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d)))

def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t))

theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4]
  rw [show (dat8 V c).Φ t.succ = (dat8 V c).Φ t.castSucc from rfl,
    show (dat8 V c).owesAt () t.succ = (dat8 V c).owesAt () t.castSucc from rfl,
    after8_0, after8_1, after8_2, after8_3, after8_4, after8_5]
  iintro ⟨HΦ, Ho, ⟨%d0, H0⟩, ⟨%d1, H1⟩, ⟨%d2, H2⟩, ⟨%d3, H3⟩, ⟨%d4, H4⟩, ⟨%d5, H5⟩⟩
  iapply (sound_kernel8 c Set.univ _ _ _ _ _ _ _ _ _ _ _ _ _ (iblk8 V c 0 t) (iblk8 V c 1 t) (iblk8 V c 2 t) (iblk8 V c 3 t) (iblk8 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation8 (c : Dev nD) : BodyObligation (dat8 (F := F) V c) (defs₀ (F := F)) Variants.none () Set.univ := fun t => by
  rw [bigSep_W8, bigSep_W8]
  exact sound_body8 V c t

end Cert.Kernel.Hand

end
-- ==== Proof.KRunFold.lean ====
/-
  The buffer contents at every boundary between two items of the program's entry function, as a fold from the launch
  memory: a stretch of host operations applies them in order; a kernel region leaves each of its arrays at what the
  pipeline's write-backs leave and every other buffer untouched. Each argument array is read back through the fold to
  its launch contents. Then the proof data of the nine pipelines, each at its region's entry contents.
-/
import proofs.«100384_j8693013807615_2_alg».proof.Proof.Gen.Kernel.Regions
import proofs.«100384_j8693013807615_2_alg».proof.Proof.KRegionA0
import proofs.«100384_j8693013807615_2_alg».proof.Proof.KRegionStats1
import proofs.«100384_j8693013807615_2_alg».proof.Proof.KRegionA2
import proofs.«100384_j8693013807615_2_alg».proof.Proof.KRegionA3
import proofs.«100384_j8693013807615_2_alg».proof.Proof.KRegionStats4
import proofs.«100384_j8693013807615_2_alg».proof.Proof.KRegionA5
import proofs.«100384_j8693013807615_2_alg».proof.Proof.KRegionA6
import proofs.«100384_j8693013807615_2_alg».proof.Proof.KRegionStats7
import proofs.«100384_j8693013807615_2_alg».proof.Proof.KRegionA8
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core c's buffers at launch. -/
abbrev Wv0 : Dev nD → Valuation τ sig (Elt F) := fun c b => (s₀ m ρ).mem ((c : Dev nD), b)
/-- After the host stretch hostOps0. -/
abbrev Wv1 : Dev nD → Valuation τ sig (Elt F) := fun c => StableHlo.after hostOps0 (Wv0 m ρ c)
abbrev Vw1 : (c : Dev nD) → (b : Ref sig .tc) → Buf (Elt F) ((c : Thread nD τ).loc b) := fun c b => Wv1 m ρ c b
theorem Wv1_of (c : Dev nD) (r : Ref sig .tc) (h : r ∉ hostOps0_W) : Wv1 m ρ c (Proc.devRef .tc r) = Wv0 m ρ c (Proc.devRef .tc r) :=
  StableHlo.after_of_writes_sub hostOps0 _ hostOps0_writes h
/-- At region 0's exit: its arrays at what the pipeline leaves, every other buffer as entered. -/
def Wv2 (c : Dev nD) : Valuation τ sig (Elt F) :=
  Pipeline.withArrays spec0 c (Wv1 m ρ c) fun w => (dat0 (Vw1 m ρ) c).arrAt w cfg0.N
theorem Wv2_arr (c : Dev nD) (w : Fin cfg0.W) :
    Wv2 m ρ c (Proc.devRef .tc (Pipeline.arrRef spec0 w)) = (dat0 (Vw1 m ρ) c).arrAt w cfg0.N := by
  unfold Wv2; exact Pipeline.withArrays_arr spec0 launch0.win.arr_inj c _ _ w
theorem Wv2_of_ne (c : Dev nD) (b : Ref sig .tc) (hb : ∀ w, Pipeline.arrRef spec0 w ≠ b) :
    Wv2 m ρ c (Proc.devRef .tc b) = Wv1 m ρ c (Proc.devRef .tc b) := by
  unfold Wv2; exact Pipeline.withArrays_of_ne spec0 c _ _ b hb
abbrev Vw2 : (c : Dev nD) → (b : Ref sig .tc) → Buf (Elt F) ((c : Thread nD τ).loc b) := fun c b => Wv2 m ρ c b
theorem hF0 (c : Dev nD) (w : Fin cfg0.W) : (dat0 (Vw1 m ρ) c).arrAt w cfg0.N = Vw2 m ρ c (Pipeline.arrRef spec0 w) :=
  (Wv2_arr m ρ c w).symm
theorem hrest0 (c : Dev nD) : ∀ b, b ∉ Finset.univ.image (Pipeline.arrRef spec0) → Vw2 m ρ c b = Vw1 m ρ c b :=
  fun b hb => Wv2_of_ne m ρ c b fun w e => hb (Finset.mem_image.mpr ⟨w, Finset.mem_univ _, e⟩)
/-- After the host stretch hostOps1. -/
abbrev Wv3 : Dev nD → Valuation τ sig (Elt F) := fun c => StableHlo.after hostOps1 (Wv2 m ρ c)
abbrev Vw3 : (c : Dev nD) → (b : Ref sig .tc) → Buf (Elt F) ((c : Thread nD τ).loc b) := fun c b => Wv3 m ρ c b
theorem Wv3_of (c : Dev nD) (r : Ref sig .tc) (h : r ∉ hostOps1_W) : Wv3 m ρ c (Proc.devRef .tc r) = Wv2 m ρ c (Proc.devRef .tc r) :=
  StableHlo.after_of_writes_sub hostOps1 _ hostOps1_writes h
/-- At region 1's exit: its arrays at what the pipeline leaves, every other buffer as entered. -/
def Wv4 (c : Dev nD) : Valuation τ sig (Elt F) :=
  Pipeline.withArrays spec1 c (Wv3 m ρ c) fun w => (dat1 (Vw3 m ρ) c).arrAt w cfg1.N
theorem Wv4_arr (c : Dev nD) (w : Fin cfg1.W) :
    Wv4 m ρ c (Proc.devRef .tc (Pipeline.arrRef spec1 w)) = (dat1 (Vw3 m ρ) c).arrAt w cfg1.N := by
  unfold Wv4; exact Pipeline.withArrays_arr spec1 launch1.win.arr_inj c _ _ w
theorem Wv4_of_ne (c : Dev nD) (b : Ref sig .tc) (hb : ∀ w, Pipeline.arrRef spec1 w ≠ b) :
    Wv4 m ρ c (Proc.devRef .tc b) = Wv3 m ρ c (Proc.devRef .tc b) := by
  unfold Wv4; exact Pipeline.withArrays_of_ne spec1 c _ _ b hb
abbrev Vw4 : (c : Dev nD) → (b : Ref sig .tc) → Buf (Elt F) ((c : Thread nD τ).loc b) := fun c b => Wv4 m ρ c b
theorem hF1 (c : Dev nD) (w : Fin cfg1.W) : (dat1 (Vw3 m ρ) c).arrAt w cfg1.N = Vw4 m ρ c (Pipeline.arrRef spec1 w) :=
  (Wv4_arr m ρ c w).symm
theorem hrest1 (c : Dev nD) : ∀ b, b ∉ Finset.univ.image (Pipeline.arrRef spec1) → Vw4 m ρ c b = Vw3 m ρ c b :=
  fun b hb => Wv4_of_ne m ρ c b fun w e => hb (Finset.mem_image.mpr ⟨w, Finset.mem_univ _, e⟩)
/-- After the host stretch hostOps2. -/
abbrev Wv5 : Dev nD → Valuation τ sig (Elt F) := fun c => StableHlo.after hostOps2 (Wv4 m ρ c)
abbrev Vw5 : (c : Dev nD) → (b : Ref sig .tc) → Buf (Elt F) ((c : Thread nD τ).loc b) := fun c b => Wv5 m ρ c b
theorem Wv5_of (c : Dev nD) (r : Ref sig .tc) (h : r ∉ hostOps2_W) : Wv5 m ρ c (Proc.devRef .tc r) = Wv4 m ρ c (Proc.devRef .tc r) :=
  StableHlo.after_of_writes_sub hostOps2 _ hostOps2_writes h
/-- At region 2's exit: its arrays at what the pipeline leaves, every other buffer as entered. -/
def Wv6 (c : Dev nD) : Valuation τ sig (Elt F) :=
  Pipeline.withArrays spec2 c (Wv5 m ρ c) fun w => (dat2 (Vw5 m ρ) c).arrAt w cfg2.N
theorem Wv6_arr (c : Dev nD) (w : Fin cfg2.W) :
    Wv6 m ρ c (Proc.devRef .tc (Pipeline.arrRef spec2 w)) = (dat2 (Vw5 m ρ) c).arrAt w cfg2.N := by
  unfold Wv6; exact Pipeline.withArrays_arr spec2 launch2.win.arr_inj c _ _ w
theorem Wv6_of_ne (c : Dev nD) (b : Ref sig .tc) (hb : ∀ w, Pipeline.arrRef spec2 w ≠ b) :
    Wv6 m ρ c (Proc.devRef .tc b) = Wv5 m ρ c (Proc.devRef .tc b) := by
  unfold Wv6; exact Pipeline.withArrays_of_ne spec2 c _ _ b hb
abbrev Vw6 : (c : Dev nD) → (b : Ref sig .tc) → Buf (Elt F) ((c : Thread nD τ).loc b) := fun c b => Wv6 m ρ c b
theorem hF2 (c : Dev nD) (w : Fin cfg2.W) : (dat2 (Vw5 m ρ) c).arrAt w cfg2.N = Vw6 m ρ c (Pipeline.arrRef spec2 w) :=
  (Wv6_arr m ρ c w).symm
theorem hrest2 (c : Dev nD) : ∀ b, b ∉ Finset.univ.image (Pipeline.arrRef spec2) → Vw6 m ρ c b = Vw5 m ρ c b :=
  fun b hb => Wv6_of_ne m ρ c b fun w e => hb (Finset.mem_image.mpr ⟨w, Finset.mem_univ _, e⟩)
/-- At region 3's exit: its arrays at what the pipeline leaves, every other buffer as entered. -/
def Wv7 (c : Dev nD) : Valuation τ sig (Elt F) :=
  Pipeline.withArrays spec3 c (Wv6 m ρ c) fun w => (dat3 (Vw6 m ρ) c).arrAt w cfg3.N
theorem Wv7_arr (c : Dev nD) (w : Fin cfg3.W) :
    Wv7 m ρ c (Proc.devRef .tc (Pipeline.arrRef spec3 w)) = (dat3 (Vw6 m ρ) c).arrAt w cfg3.N := by
  unfold Wv7; exact Pipeline.withArrays_arr spec3 launch3.win.arr_inj c _ _ w
theorem Wv7_of_ne (c : Dev nD) (b : Ref sig .tc) (hb : ∀ w, Pipeline.arrRef spec3 w ≠ b) :
    Wv7 m ρ c (Proc.devRef .tc b) = Wv6 m ρ c (Proc.devRef .tc b) := by
  unfold Wv7; exact Pipeline.withArrays_of_ne spec3 c _ _ b hb
abbrev Vw7 : (c : Dev nD) → (b : Ref sig .tc) → Buf (Elt F) ((c : Thread nD τ).loc b) := fun c b => Wv7 m ρ c b
theorem hF3 (c : Dev nD) (w : Fin cfg3.W) : (dat3 (Vw6 m ρ) c).arrAt w cfg3.N = Vw7 m ρ c (Pipeline.arrRef spec3 w) :=
  (Wv7_arr m ρ c w).symm
theorem hrest3 (c : Dev nD) : ∀ b, b ∉ Finset.univ.image (Pipeline.arrRef spec3) → Vw7 m ρ c b = Vw6 m ρ c b :=
  fun b hb => Wv7_of_ne m ρ c b fun w e => hb (Finset.mem_image.mpr ⟨w, Finset.mem_univ _, e⟩)
/-- After the host stretch hostOps4. -/
abbrev Wv8 : Dev nD → Valuation τ sig (Elt F) := fun c => StableHlo.after hostOps4 (Wv7 m ρ c)
abbrev Vw8 : (c : Dev nD) → (b : Ref sig .tc) → Buf (Elt F) ((c : Thread nD τ).loc b) := fun c b => Wv8 m ρ c b
theorem Wv8_of (c : Dev nD) (r : Ref sig .tc) (h : r ∉ hostOps4_W) : Wv8 m ρ c (Proc.devRef .tc r) = Wv7 m ρ c (Proc.devRef .tc r) :=
  StableHlo.after_of_writes_sub hostOps4 _ hostOps4_writes h
/-- At region 4's exit: its arrays at what the pipeline leaves, every other buffer as entered. -/
def Wv9 (c : Dev nD) : Valuation τ sig (Elt F) :=
  Pipeline.withArrays spec4 c (Wv8 m ρ c) fun w => (dat4 (Vw8 m ρ) c).arrAt w cfg4.N
theorem Wv9_arr (c : Dev nD) (w : Fin cfg4.W) :
    Wv9 m ρ c (Proc.devRef .tc (Pipeline.arrRef spec4 w)) = (dat4 (Vw8 m ρ) c).arrAt w cfg4.N := by
  unfold Wv9; exact Pipeline.withArrays_arr spec4 launch4.win.arr_inj c _ _ w
theorem Wv9_of_ne (c : Dev nD) (b : Ref sig .tc) (hb : ∀ w, Pipeline.arrRef spec4 w ≠ b) :
    Wv9 m ρ c (Proc.devRef .tc b) = Wv8 m ρ c (Proc.devRef .tc b) := by
  unfold Wv9; exact Pipeline.withArrays_of_ne spec4 c _ _ b hb
abbrev Vw9 : (c : Dev nD) → (b : Ref sig .tc) → Buf (Elt F) ((c : Thread nD τ).loc b) := fun c b => Wv9 m ρ c b
theorem hF4 (c : Dev nD) (w : Fin cfg4.W) : (dat4 (Vw8 m ρ) c).arrAt w cfg4.N = Vw9 m ρ c (Pipeline.arrRef spec4 w) :=
  (Wv9_arr m ρ c w).symm
theorem hrest4 (c : Dev nD) : ∀ b, b ∉ Finset.univ.image (Pipeline.arrRef spec4) → Vw9 m ρ c b = Vw8 m ρ c b :=
  fun b hb => Wv9_of_ne m ρ c b fun w e => hb (Finset.mem_image.mpr ⟨w, Finset.mem_univ _, e⟩)
/-- After the host stretch hostOps5. -/
abbrev Wv10 : Dev nD → Valuation τ sig (Elt F) := fun c => StableHlo.after hostOps5 (Wv9 m ρ c)
abbrev Vw10 : (c : Dev nD) → (b : Ref sig .tc) → Buf (Elt F) ((c : Thread nD τ).loc b) := fun c b => Wv10 m ρ c b
theorem Wv10_of (c : Dev nD) (r : Ref sig .tc) (h : r ∉ hostOps5_W) : Wv10 m ρ c (Proc.devRef .tc r) = Wv9 m ρ c (Proc.devRef .tc r) :=
  StableHlo.after_of_writes_sub hostOps5 _ hostOps5_writes h
/-- At region 5's exit: its arrays at what the pipeline leaves, every other buffer as entered. -/
def Wv11 (c : Dev nD) : Valuation τ sig (Elt F) :=
  Pipeline.withArrays spec5 c (Wv10 m ρ c) fun w => (dat5 (Vw10 m ρ) c).arrAt w cfg5.N
theorem Wv11_arr (c : Dev nD) (w : Fin cfg5.W) :
    Wv11 m ρ c (Proc.devRef .tc (Pipeline.arrRef spec5 w)) = (dat5 (Vw10 m ρ) c).arrAt w cfg5.N := by
  unfold Wv11; exact Pipeline.withArrays_arr spec5 launch5.win.arr_inj c _ _ w
theorem Wv11_of_ne (c : Dev nD) (b : Ref sig .tc) (hb : ∀ w, Pipeline.arrRef spec5 w ≠ b) :
    Wv11 m ρ c (Proc.devRef .tc b) = Wv10 m ρ c (Proc.devRef .tc b) := by
  unfold Wv11; exact Pipeline.withArrays_of_ne spec5 c _ _ b hb
abbrev Vw11 : (c : Dev nD) → (b : Ref sig .tc) → Buf (Elt F) ((c : Thread nD τ).loc b) := fun c b => Wv11 m ρ c b
theorem hF5 (c : Dev nD) (w : Fin cfg5.W) : (dat5 (Vw10 m ρ) c).arrAt w cfg5.N = Vw11 m ρ c (Pipeline.arrRef spec5 w) :=
  (Wv11_arr m ρ c w).symm
theorem hrest5 (c : Dev nD) : ∀ b, b ∉ Finset.univ.image (Pipeline.arrRef spec5) → Vw11 m ρ c b = Vw10 m ρ c b :=
  fun b hb => Wv11_of_ne m ρ c b fun w e => hb (Finset.mem_image.mpr ⟨w, Finset.mem_univ _, e⟩)
/-- At region 6's exit: its arrays at what the pipeline leaves, every other buffer as entered. -/
def Wv12 (c : Dev nD) : Valuation τ sig (Elt F) :=
  Pipeline.withArrays spec6 c (Wv11 m ρ c) fun w => (dat6 (Vw11 m ρ) c).arrAt w cfg6.N
theorem Wv12_arr (c : Dev nD) (w : Fin cfg6.W) :
    Wv12 m ρ c (Proc.devRef .tc (Pipeline.arrRef spec6 w)) = (dat6 (Vw11 m ρ) c).arrAt w cfg6.N := by
  unfold Wv12; exact Pipeline.withArrays_arr spec6 launch6.win.arr_inj c _ _ w
theorem Wv12_of_ne (c : Dev nD) (b : Ref sig .tc) (hb : ∀ w, Pipeline.arrRef spec6 w ≠ b) :
    Wv12 m ρ c (Proc.devRef .tc b) = Wv11 m ρ c (Proc.devRef .tc b) := by
  unfold Wv12; exact Pipeline.withArrays_of_ne spec6 c _ _ b hb
abbrev Vw12 : (c : Dev nD) → (b : Ref sig .tc) → Buf (Elt F) ((c : Thread nD τ).loc b) := fun c b => Wv12 m ρ c b
theorem hF6 (c : Dev nD) (w : Fin cfg6.W) : (dat6 (Vw11 m ρ) c).arrAt w cfg6.N = Vw12 m ρ c (Pipeline.arrRef spec6 w) :=
  (Wv12_arr m ρ c w).symm
theorem hrest6 (c : Dev nD) : ∀ b, b ∉ Finset.univ.image (Pipeline.arrRef spec6) → Vw12 m ρ c b = Vw11 m ρ c b :=
  fun b hb => Wv12_of_ne m ρ c b fun w e => hb (Finset.mem_image.mpr ⟨w, Finset.mem_univ _, e⟩)
/-- After the host stretch hostOps7. -/
abbrev Wv13 : Dev nD → Valuation τ sig (Elt F) := fun c => StableHlo.after hostOps7 (Wv12 m ρ c)
abbrev Vw13 : (c : Dev nD) → (b : Ref sig .tc) → Buf (Elt F) ((c : Thread nD τ).loc b) := fun c b => Wv13 m ρ c b
theorem Wv13_of (c : Dev nD) (r : Ref sig .tc) (h : r ∉ hostOps7_W) : Wv13 m ρ c (Proc.devRef .tc r) = Wv12 m ρ c (Proc.devRef .tc r) :=
  StableHlo.after_of_writes_sub hostOps7 _ hostOps7_writes h
/-- At region 7's exit: its arrays at what the pipeline leaves, every other buffer as entered. -/
def Wv14 (c : Dev nD) : Valuation τ sig (Elt F) :=
  Pipeline.withArrays spec7 c (Wv13 m ρ c) fun w => (dat7 (Vw13 m ρ) c).arrAt w cfg7.N
theorem Wv14_arr (c : Dev nD) (w : Fin cfg7.W) :
    Wv14 m ρ c (Proc.devRef .tc (Pipeline.arrRef spec7 w)) = (dat7 (Vw13 m ρ) c).arrAt w cfg7.N := by
  unfold Wv14; exact Pipeline.withArrays_arr spec7 launch7.win.arr_inj c _ _ w
theorem Wv14_of_ne (c : Dev nD) (b : Ref sig .tc) (hb : ∀ w, Pipeline.arrRef spec7 w ≠ b) :
    Wv14 m ρ c (Proc.devRef .tc b) = Wv13 m ρ c (Proc.devRef .tc b) := by
  unfold Wv14; exact Pipeline.withArrays_of_ne spec7 c _ _ b hb
abbrev Vw14 : (c : Dev nD) → (b : Ref sig .tc) → Buf (Elt F) ((c : Thread nD τ).loc b) := fun c b => Wv14 m ρ c b
theorem hF7 (c : Dev nD) (w : Fin cfg7.W) : (dat7 (Vw13 m ρ) c).arrAt w cfg7.N = Vw14 m ρ c (Pipeline.arrRef spec7 w) :=
  (Wv14_arr m ρ c w).symm
theorem hrest7 (c : Dev nD) : ∀ b, b ∉ Finset.univ.image (Pipeline.arrRef spec7) → Vw14 m ρ c b = Vw13 m ρ c b :=
  fun b hb => Wv14_of_ne m ρ c b fun w e => hb (Finset.mem_image.mpr ⟨w, Finset.mem_univ _, e⟩)
/-- After the host stretch hostOps8. -/
abbrev Wv15 : Dev nD → Valuation τ sig (Elt F) := fun c => StableHlo.after hostOps8 (Wv14 m ρ c)
abbrev Vw15 : (c : Dev nD) → (b : Ref sig .tc) → Buf (Elt F) ((c : Thread nD τ).loc b) := fun c b => Wv15 m ρ c b
theorem Wv15_of (c : Dev nD) (r : Ref sig .tc) (h : r ∉ hostOps8_W) : Wv15 m ρ c (Proc.devRef .tc r) = Wv14 m ρ c (Proc.devRef .tc r) :=
  StableHlo.after_of_writes_sub hostOps8 _ hostOps8_writes h
/-- At region 8's exit: its arrays at what the pipeline leaves, every other buffer as entered. -/
def Wv16 (c : Dev nD) : Valuation τ sig (Elt F) :=
  Pipeline.withArrays spec8 c (Wv15 m ρ c) fun w => (dat8 (Vw15 m ρ) c).arrAt w cfg8.N
theorem Wv16_arr (c : Dev nD) (w : Fin cfg8.W) :
    Wv16 m ρ c (Proc.devRef .tc (Pipeline.arrRef spec8 w)) = (dat8 (Vw15 m ρ) c).arrAt w cfg8.N := by
  unfold Wv16; exact Pipeline.withArrays_arr spec8 launch8.win.arr_inj c _ _ w
theorem Wv16_of_ne (c : Dev nD) (b : Ref sig .tc) (hb : ∀ w, Pipeline.arrRef spec8 w ≠ b) :
    Wv16 m ρ c (Proc.devRef .tc b) = Wv15 m ρ c (Proc.devRef .tc b) := by
  unfold Wv16; exact Pipeline.withArrays_of_ne spec8 c _ _ b hb
abbrev Vw16 : (c : Dev nD) → (b : Ref sig .tc) → Buf (Elt F) ((c : Thread nD τ).loc b) := fun c b => Wv16 m ρ c b
theorem hF8 (c : Dev nD) (w : Fin cfg8.W) : (dat8 (Vw15 m ρ) c).arrAt w cfg8.N = Vw16 m ρ c (Pipeline.arrRef spec8 w) :=
  (Wv16_arr m ρ c w).symm
theorem hrest8 (c : Dev nD) : ∀ b, b ∉ Finset.univ.image (Pipeline.arrRef spec8) → Vw16 m ρ c b = Vw15 m ρ c b :=
  fun b hb => Wv16_of_ne m ρ c b fun w e => hb (Finset.mem_image.mpr ⟨w, Finset.mem_univ _, e⟩)
/-- After the host stretch hostOps9. -/
abbrev Wv17 : Dev nD → Valuation τ sig (Elt F) := fun c => StableHlo.after hostOps9 (Wv16 m ρ c)
abbrev Vw17 : (c : Dev nD) → (b : Ref sig .tc) → Buf (Elt F) ((c : Thread nD τ).loc b) := fun c b => Wv17 m ρ c b
theorem Wv17_of (c : Dev nD) (r : Ref sig .tc) (h : r ∉ hostOps9_W) : Wv17 m ρ c (Proc.devRef .tc r) = Wv16 m ρ c (Proc.devRef .tc r) :=
  StableHlo.after_of_writes_sub hostOps9 _ hostOps9_writes h
/-- After the host stretch hostOps9_1. -/
abbrev Wv18 : Dev nD → Valuation τ sig (Elt F) := fun c => StableHlo.after hostOps9_1 (Wv17 m ρ c)
abbrev Vw18 : (c : Dev nD) → (b : Ref sig .tc) → Buf (Elt F) ((c : Thread nD τ).loc b) := fun c b => Wv18 m ρ c b
theorem Wv18_of (c : Dev nD) (r : Ref sig .tc) (h : r ∉ hostOps9_1_W) : Wv18 m ρ c (Proc.devRef .tc r) = Wv17 m ρ c (Proc.devRef .tc r) :=
  StableHlo.after_of_writes_sub hostOps9_1 _ hostOps9_1_writes h
/-- After the host stretch hostOps9_2. -/
abbrev Wv19 : Dev nD → Valuation τ sig (Elt F) := fun c => StableHlo.after hostOps9_2 (Wv18 m ρ c)
abbrev Vw19 : (c : Dev nD) → (b : Ref sig .tc) → Buf (Elt F) ((c : Thread nD τ).loc b) := fun c b => Wv19 m ρ c b
theorem Wv19_of (c : Dev nD) (r : Ref sig .tc) (h : r ∉ hostOps9_2_W) : Wv19 m ρ c (Proc.devRef .tc r) = Wv18 m ρ c (Proc.devRef .tc r) :=
  StableHlo.after_of_writes_sub hostOps9_2 _ hostOps9_2_writes h
/-- After the host stretch hostOps9_3. -/
abbrev Wv20 : Dev nD → Valuation τ sig (Elt F) := fun c => StableHlo.after hostOps9_3 (Wv19 m ρ c)
abbrev Vw20 : (c : Dev nD) → (b : Ref sig .tc) → Buf (Elt F) ((c : Thread nD τ).loc b) := fun c b => Wv20 m ρ c b
theorem Wv20_of (c : Dev nD) (r : Ref sig .tc) (h : r ∉ hostOps9_3_W) : Wv20 m ρ c (Proc.devRef .tc r) = Wv19 m ρ c (Proc.devRef .tc r) :=
  StableHlo.after_of_writes_sub hostOps9_3 _ hostOps9_3_writes h
/-- After the host stretch hostOps9_4. -/
abbrev Wv21 : Dev nD → Valuation τ sig (Elt F) := fun c => StableHlo.after hostOps9_4 (Wv20 m ρ c)
abbrev Vw21 : (c : Dev nD) → (b : Ref sig .tc) → Buf (Elt F) ((c : Thread nD τ).loc b) := fun c b => Wv21 m ρ c b
theorem Wv21_of (c : Dev nD) (r : Ref sig .tc) (h : r ∉ hostOps9_4_W) : Wv21 m ρ c (Proc.devRef .tc r) = Wv20 m ρ c (Proc.devRef .tc r) :=
  StableHlo.after_of_writes_sub hostOps9_4 _ hostOps9_4_writes h

/-! ## The arguments end as launched -/
theorem Wv21_main_arg0 (c : Dev nD) : Wv21 m ρ c (Proc.devRef .tc main_arg0) = m ((c : Thread nD τ).loc main_arg0) :=
  (Wv21_of m ρ c main_arg0 (by decide)).trans <| (Wv20_of m ρ c main_arg0 (by decide)).trans <| (Wv19_of m ρ c main_arg0 (by decide)).trans <| (Wv18_of m ρ c main_arg0 (by decide)).trans <| (Wv17_of m ρ c main_arg0 (by decide)).trans <| (Wv16_of_ne m ρ c main_arg0 (by decide)).trans <| (Wv15_of m ρ c main_arg0 (by decide)).trans <| (Wv14_of_ne m ρ c main_arg0 (by decide)).trans <| (Wv13_of m ρ c main_arg0 (by decide)).trans <| (Wv12_of_ne m ρ c main_arg0 (by decide)).trans <| (Wv11_of_ne m ρ c main_arg0 (by decide)).trans <| (Wv10_of m ρ c main_arg0 (by decide)).trans <| (Wv9_of_ne m ρ c main_arg0 (by decide)).trans <| (Wv8_of m ρ c main_arg0 (by decide)).trans <| (Wv7_of_ne m ρ c main_arg0 (by decide)).trans <| (Wv6_of_ne m ρ c main_arg0 (by decide)).trans <| (Wv5_of m ρ c main_arg0 (by decide)).trans <| (Wv4_of_ne m ρ c main_arg0 (by decide)).trans <| (Wv3_of m ρ c main_arg0 (by decide)).trans <| ((Wv2_arr m ρ c 0).trans (((dat0 (Vw1 m ρ) c).arrAt_in 0 rfl _).trans (A_eq0 (Vw1 m ρ) c 0))).trans <| (Wv1_of m ρ c main_arg0 (by decide)).trans <| rfl
theorem Wv21_main_arg1 (c : Dev nD) : Wv21 m ρ c (Proc.devRef .tc main_arg1) = m ((c : Thread nD τ).loc main_arg1) :=
  (Wv21_of m ρ c main_arg1 (by decide)).trans <| (Wv20_of m ρ c main_arg1 (by decide)).trans <| (Wv19_of m ρ c main_arg1 (by decide)).trans <| (Wv18_of m ρ c main_arg1 (by decide)).trans <| (Wv17_of m ρ c main_arg1 (by decide)).trans <| (Wv16_of_ne m ρ c main_arg1 (by decide)).trans <| (Wv15_of m ρ c main_arg1 (by decide)).trans <| (Wv14_of_ne m ρ c main_arg1 (by decide)).trans <| (Wv13_of m ρ c main_arg1 (by decide)).trans <| (Wv12_of_ne m ρ c main_arg1 (by decide)).trans <| (Wv11_of_ne m ρ c main_arg1 (by decide)).trans <| (Wv10_of m ρ c main_arg1 (by decide)).trans <| (Wv9_of_ne m ρ c main_arg1 (by decide)).trans <| (Wv8_of m ρ c main_arg1 (by decide)).trans <| (Wv7_of_ne m ρ c main_arg1 (by decide)).trans <| (Wv6_of_ne m ρ c main_arg1 (by decide)).trans <| (Wv5_of m ρ c main_arg1 (by decide)).trans <| (Wv4_of_ne m ρ c main_arg1 (by decide)).trans <| (Wv3_of m ρ c main_arg1 (by decide)).trans <| (Wv2_of_ne m ρ c main_arg1 (by decide)).trans <| (Wv1_of m ρ c main_arg1 (by decide)).trans <| rfl
theorem Wv21_main_arg2 (c : Dev nD) : Wv21 m ρ c (Proc.devRef .tc main_arg2) = m ((c : Thread nD τ).loc main_arg2) :=
  (Wv21_of m ρ c main_arg2 (by decide)).trans <| (Wv20_of m ρ c main_arg2 (by decide)).trans <| (Wv19_of m ρ c main_arg2 (by decide)).trans <| (Wv18_of m ρ c main_arg2 (by decide)).trans <| (Wv17_of m ρ c main_arg2 (by decide)).trans <| (Wv16_of_ne m ρ c main_arg2 (by decide)).trans <| (Wv15_of m ρ c main_arg2 (by decide)).trans <| (Wv14_of_ne m ρ c main_arg2 (by decide)).trans <| (Wv13_of m ρ c main_arg2 (by decide)).trans <| (Wv12_of_ne m ρ c main_arg2 (by decide)).trans <| (Wv11_of_ne m ρ c main_arg2 (by decide)).trans <| (Wv10_of m ρ c main_arg2 (by decide)).trans <| (Wv9_of_ne m ρ c main_arg2 (by decide)).trans <| (Wv8_of m ρ c main_arg2 (by decide)).trans <| (Wv7_of_ne m ρ c main_arg2 (by decide)).trans <| (Wv6_of_ne m ρ c main_arg2 (by decide)).trans <| (Wv5_of m ρ c main_arg2 (by decide)).trans <| (Wv4_of_ne m ρ c main_arg2 (by decide)).trans <| (Wv3_of m ρ c main_arg2 (by decide)).trans <| (Wv2_of_ne m ρ c main_arg2 (by decide)).trans <| (Wv1_of m ρ c main_arg2 (by decide)).trans <| rfl
theorem Wv21_main_arg3 (c : Dev nD) : Wv21 m ρ c (Proc.devRef .tc main_arg3) = m ((c : Thread nD τ).loc main_arg3) :=
  (Wv21_of m ρ c main_arg3 (by decide)).trans <| (Wv20_of m ρ c main_arg3 (by decide)).trans <| (Wv19_of m ρ c main_arg3 (by decide)).trans <| (Wv18_of m ρ c main_arg3 (by decide)).trans <| (Wv17_of m ρ c main_arg3 (by decide)).trans <| (Wv16_of_ne m ρ c main_arg3 (by decide)).trans <| (Wv15_of m ρ c main_arg3 (by decide)).trans <| (Wv14_of_ne m ρ c main_arg3 (by decide)).trans <| (Wv13_of m ρ c main_arg3 (by decide)).trans <| (Wv12_of_ne m ρ c main_arg3 (by decide)).trans <| (Wv11_of_ne m ρ c main_arg3 (by decide)).trans <| (Wv10_of m ρ c main_arg3 (by decide)).trans <| (Wv9_of_ne m ρ c main_arg3 (by decide)).trans <| (Wv8_of m ρ c main_arg3 (by decide)).trans <| (Wv7_of_ne m ρ c main_arg3 (by decide)).trans <| (Wv6_of_ne m ρ c main_arg3 (by decide)).trans <| (Wv5_of m ρ c main_arg3 (by decide)).trans <| (Wv4_of_ne m ρ c main_arg3 (by decide)).trans <| (Wv3_of m ρ c main_arg3 (by decide)).trans <| ((Wv2_arr m ρ c 1).trans (((dat0 (Vw1 m ρ) c).arrAt_in 1 rfl _).trans (A_eq0 (Vw1 m ρ) c 1))).trans <| (Wv1_of m ρ c main_arg3 (by decide)).trans <| rfl
theorem Wv21_main_arg4 (c : Dev nD) : Wv21 m ρ c (Proc.devRef .tc main_arg4) = m ((c : Thread nD τ).loc main_arg4) :=
  (Wv21_of m ρ c main_arg4 (by decide)).trans <| (Wv20_of m ρ c main_arg4 (by decide)).trans <| (Wv19_of m ρ c main_arg4 (by decide)).trans <| (Wv18_of m ρ c main_arg4 (by decide)).trans <| (Wv17_of m ρ c main_arg4 (by decide)).trans <| (Wv16_of_ne m ρ c main_arg4 (by decide)).trans <| (Wv15_of m ρ c main_arg4 (by decide)).trans <| (Wv14_of_ne m ρ c main_arg4 (by decide)).trans <| (Wv13_of m ρ c main_arg4 (by decide)).trans <| (Wv12_of_ne m ρ c main_arg4 (by decide)).trans <| (Wv11_of_ne m ρ c main_arg4 (by decide)).trans <| (Wv10_of m ρ c main_arg4 (by decide)).trans <| (Wv9_of_ne m ρ c main_arg4 (by decide)).trans <| (Wv8_of m ρ c main_arg4 (by decide)).trans <| (Wv7_of_ne m ρ c main_arg4 (by decide)).trans <| (Wv6_of_ne m ρ c main_arg4 (by decide)).trans <| (Wv5_of m ρ c main_arg4 (by decide)).trans <| (Wv4_of_ne m ρ c main_arg4 (by decide)).trans <| (Wv3_of m ρ c main_arg4 (by decide)).trans <| (Wv2_of_ne m ρ c main_arg4 (by decide)).trans <| (Wv1_of m ρ c main_arg4 (by decide)).trans <| rfl
theorem Wv21_main_arg5 (c : Dev nD) : Wv21 m ρ c (Proc.devRef .tc main_arg5) = m ((c : Thread nD τ).loc main_arg5) :=
  (Wv21_of m ρ c main_arg5 (by decide)).trans <| (Wv20_of m ρ c main_arg5 (by decide)).trans <| (Wv19_of m ρ c main_arg5 (by decide)).trans <| (Wv18_of m ρ c main_arg5 (by decide)).trans <| (Wv17_of m ρ c main_arg5 (by decide)).trans <| (Wv16_of_ne m ρ c main_arg5 (by decide)).trans <| (Wv15_of m ρ c main_arg5 (by decide)).trans <| (Wv14_of_ne m ρ c main_arg5 (by decide)).trans <| (Wv13_of m ρ c main_arg5 (by decide)).trans <| (Wv12_of_ne m ρ c main_arg5 (by decide)).trans <| (Wv11_of_ne m ρ c main_arg5 (by decide)).trans <| (Wv10_of m ρ c main_arg5 (by decide)).trans <| (Wv9_of_ne m ρ c main_arg5 (by decide)).trans <| (Wv8_of m ρ c main_arg5 (by decide)).trans <| (Wv7_of_ne m ρ c main_arg5 (by decide)).trans <| (Wv6_of_ne m ρ c main_arg5 (by decide)).trans <| (Wv5_of m ρ c main_arg5 (by decide)).trans <| (Wv4_of_ne m ρ c main_arg5 (by decide)).trans <| (Wv3_of m ρ c main_arg5 (by decide)).trans <| (Wv2_of_ne m ρ c main_arg5 (by decide)).trans <| (Wv1_of m ρ c main_arg5 (by decide)).trans <| rfl
theorem Wv21_main_arg6 (c : Dev nD) : Wv21 m ρ c (Proc.devRef .tc main_arg6) = m ((c : Thread nD τ).loc main_arg6) :=
  (Wv21_of m ρ c main_arg6 (by decide)).trans <| (Wv20_of m ρ c main_arg6 (by decide)).trans <| (Wv19_of m ρ c main_arg6 (by decide)).trans <| (Wv18_of m ρ c main_arg6 (by decide)).trans <| (Wv17_of m ρ c main_arg6 (by decide)).trans <| (Wv16_of_ne m ρ c main_arg6 (by decide)).trans <| (Wv15_of m ρ c main_arg6 (by decide)).trans <| (Wv14_of_ne m ρ c main_arg6 (by decide)).trans <| (Wv13_of m ρ c main_arg6 (by decide)).trans <| (Wv12_of_ne m ρ c main_arg6 (by decide)).trans <| (Wv11_of_ne m ρ c main_arg6 (by decide)).trans <| (Wv10_of m ρ c main_arg6 (by decide)).trans <| (Wv9_of_ne m ρ c main_arg6 (by decide)).trans <| (Wv8_of m ρ c main_arg6 (by decide)).trans <| (Wv7_of_ne m ρ c main_arg6 (by decide)).trans <| (Wv6_of_ne m ρ c main_arg6 (by decide)).trans <| (Wv5_of m ρ c main_arg6 (by decide)).trans <| (Wv4_of_ne m ρ c main_arg6 (by decide)).trans <| (Wv3_of m ρ c main_arg6 (by decide)).trans <| (Wv2_of_ne m ρ c main_arg6 (by decide)).trans <| (Wv1_of m ρ c main_arg6 (by decide)).trans <| rfl
theorem Wv21_main_arg7 (c : Dev nD) : Wv21 m ρ c (Proc.devRef .tc main_arg7) = m ((c : Thread nD τ).loc main_arg7) :=
  (Wv21_of m ρ c main_arg7 (by decide)).trans <| (Wv20_of m ρ c main_arg7 (by decide)).trans <| (Wv19_of m ρ c main_arg7 (by decide)).trans <| (Wv18_of m ρ c main_arg7 (by decide)).trans <| (Wv17_of m ρ c main_arg7 (by decide)).trans <| (Wv16_of_ne m ρ c main_arg7 (by decide)).trans <| (Wv15_of m ρ c main_arg7 (by decide)).trans <| (Wv14_of_ne m ρ c main_arg7 (by decide)).trans <| (Wv13_of m ρ c main_arg7 (by decide)).trans <| (Wv12_of_ne m ρ c main_arg7 (by decide)).trans <| (Wv11_of_ne m ρ c main_arg7 (by decide)).trans <| (Wv10_of m ρ c main_arg7 (by decide)).trans <| (Wv9_of_ne m ρ c main_arg7 (by decide)).trans <| (Wv8_of m ρ c main_arg7 (by decide)).trans <| ((Wv7_arr m ρ c 1).trans (((dat3 (Vw6 m ρ) c).arrAt_in 1 rfl _).trans (A_eq3 (Vw6 m ρ) c 1))).trans <| (Wv6_of_ne m ρ c main_arg7 (by decide)).trans <| (Wv5_of m ρ c main_arg7 (by decide)).trans <| (Wv4_of_ne m ρ c main_arg7 (by decide)).trans <| (Wv3_of m ρ c main_arg7 (by decide)).trans <| (Wv2_of_ne m ρ c main_arg7 (by decide)).trans <| (Wv1_of m ρ c main_arg7 (by decide)).trans <| rfl
theorem Wv21_main_arg8 (c : Dev nD) : Wv21 m ρ c (Proc.devRef .tc main_arg8) = m ((c : Thread nD τ).loc main_arg8) :=
  (Wv21_of m ρ c main_arg8 (by decide)).trans <| (Wv20_of m ρ c main_arg8 (by decide)).trans <| (Wv19_of m ρ c main_arg8 (by decide)).trans <| (Wv18_of m ρ c main_arg8 (by decide)).trans <| (Wv17_of m ρ c main_arg8 (by decide)).trans <| (Wv16_of_ne m ρ c main_arg8 (by decide)).trans <| (Wv15_of m ρ c main_arg8 (by decide)).trans <| (Wv14_of_ne m ρ c main_arg8 (by decide)).trans <| (Wv13_of m ρ c main_arg8 (by decide)).trans <| (Wv12_of_ne m ρ c main_arg8 (by decide)).trans <| (Wv11_of_ne m ρ c main_arg8 (by decide)).trans <| (Wv10_of m ρ c main_arg8 (by decide)).trans <| (Wv9_of_ne m ρ c main_arg8 (by decide)).trans <| (Wv8_of m ρ c main_arg8 (by decide)).trans <| (Wv7_of_ne m ρ c main_arg8 (by decide)).trans <| (Wv6_of_ne m ρ c main_arg8 (by decide)).trans <| (Wv5_of m ρ c main_arg8 (by decide)).trans <| (Wv4_of_ne m ρ c main_arg8 (by decide)).trans <| (Wv3_of m ρ c main_arg8 (by decide)).trans <| (Wv2_of_ne m ρ c main_arg8 (by decide)).trans <| (Wv1_of m ρ c main_arg8 (by decide)).trans <| rfl
theorem Wv21_main_arg9 (c : Dev nD) : Wv21 m ρ c (Proc.devRef .tc main_arg9) = m ((c : Thread nD τ).loc main_arg9) :=
  (Wv21_of m ρ c main_arg9 (by decide)).trans <| (Wv20_of m ρ c main_arg9 (by decide)).trans <| (Wv19_of m ρ c main_arg9 (by decide)).trans <| (Wv18_of m ρ c main_arg9 (by decide)).trans <| (Wv17_of m ρ c main_arg9 (by decide)).trans <| (Wv16_of_ne m ρ c main_arg9 (by decide)).trans <| (Wv15_of m ρ c main_arg9 (by decide)).trans <| (Wv14_of_ne m ρ c main_arg9 (by decide)).trans <| (Wv13_of m ρ c main_arg9 (by decide)).trans <| (Wv12_of_ne m ρ c main_arg9 (by decide)).trans <| (Wv11_of_ne m ρ c main_arg9 (by decide)).trans <| (Wv10_of m ρ c main_arg9 (by decide)).trans <| (Wv9_of_ne m ρ c main_arg9 (by decide)).trans <| (Wv8_of m ρ c main_arg9 (by decide)).trans <| (Wv7_of_ne m ρ c main_arg9 (by decide)).trans <| (Wv6_of_ne m ρ c main_arg9 (by decide)).trans <| (Wv5_of m ρ c main_arg9 (by decide)).trans <| (Wv4_of_ne m ρ c main_arg9 (by decide)).trans <| (Wv3_of m ρ c main_arg9 (by decide)).trans <| (Wv2_of_ne m ρ c main_arg9 (by decide)).trans <| (Wv1_of m ρ c main_arg9 (by decide)).trans <| rfl
theorem Wv21_main_arg10 (c : Dev nD) : Wv21 m ρ c (Proc.devRef .tc main_arg10) = m ((c : Thread nD τ).loc main_arg10) :=
  (Wv21_of m ρ c main_arg10 (by decide)).trans <| (Wv20_of m ρ c main_arg10 (by decide)).trans <| (Wv19_of m ρ c main_arg10 (by decide)).trans <| (Wv18_of m ρ c main_arg10 (by decide)).trans <| (Wv17_of m ρ c main_arg10 (by decide)).trans <| (Wv16_of_ne m ρ c main_arg10 (by decide)).trans <| (Wv15_of m ρ c main_arg10 (by decide)).trans <| (Wv14_of_ne m ρ c main_arg10 (by decide)).trans <| (Wv13_of m ρ c main_arg10 (by decide)).trans <| (Wv12_of_ne m ρ c main_arg10 (by decide)).trans <| (Wv11_of_ne m ρ c main_arg10 (by decide)).trans <| (Wv10_of m ρ c main_arg10 (by decide)).trans <| (Wv9_of_ne m ρ c main_arg10 (by decide)).trans <| (Wv8_of m ρ c main_arg10 (by decide)).trans <| (Wv7_of_ne m ρ c main_arg10 (by decide)).trans <| (Wv6_of_ne m ρ c main_arg10 (by decide)).trans <| (Wv5_of m ρ c main_arg10 (by decide)).trans <| (Wv4_of_ne m ρ c main_arg10 (by decide)).trans <| (Wv3_of m ρ c main_arg10 (by decide)).trans <| (Wv2_of_ne m ρ c main_arg10 (by decide)).trans <| (Wv1_of m ρ c main_arg10 (by decide)).trans <| rfl
theorem Wv21_main_arg11 (c : Dev nD) : Wv21 m ρ c (Proc.devRef .tc main_arg11) = m ((c : Thread nD τ).loc main_arg11) :=
  (Wv21_of m ρ c main_arg11 (by decide)).trans <| (Wv20_of m ρ c main_arg11 (by decide)).trans <| (Wv19_of m ρ c main_arg11 (by decide)).trans <| (Wv18_of m ρ c main_arg11 (by decide)).trans <| (Wv17_of m ρ c main_arg11 (by decide)).trans <| (Wv16_of_ne m ρ c main_arg11 (by decide)).trans <| (Wv15_of m ρ c main_arg11 (by decide)).trans <| (Wv14_of_ne m ρ c main_arg11 (by decide)).trans <| (Wv13_of m ρ c main_arg11 (by decide)).trans <| ((Wv12_arr m ρ c 1).trans (((dat6 (Vw11 m ρ) c).arrAt_in 1 rfl _).trans (A_eq6 (Vw11 m ρ) c 1))).trans <| (Wv11_of_ne m ρ c main_arg11 (by decide)).trans <| (Wv10_of m ρ c main_arg11 (by decide)).trans <| (Wv9_of_ne m ρ c main_arg11 (by decide)).trans <| (Wv8_of m ρ c main_arg11 (by decide)).trans <| (Wv7_of_ne m ρ c main_arg11 (by decide)).trans <| (Wv6_of_ne m ρ c main_arg11 (by decide)).trans <| (Wv5_of m ρ c main_arg11 (by decide)).trans <| (Wv4_of_ne m ρ c main_arg11 (by decide)).trans <| (Wv3_of m ρ c main_arg11 (by decide)).trans <| (Wv2_of_ne m ρ c main_arg11 (by decide)).trans <| (Wv1_of m ρ c main_arg11 (by decide)).trans <| rfl
theorem Wv21_main_arg12 (c : Dev nD) : Wv21 m ρ c (Proc.devRef .tc main_arg12) = m ((c : Thread nD τ).loc main_arg12) :=
  (Wv21_of m ρ c main_arg12 (by decide)).trans <| (Wv20_of m ρ c main_arg12 (by decide)).trans <| (Wv19_of m ρ c main_arg12 (by decide)).trans <| (Wv18_of m ρ c main_arg12 (by decide)).trans <| (Wv17_of m ρ c main_arg12 (by decide)).trans <| (Wv16_of_ne m ρ c main_arg12 (by decide)).trans <| (Wv15_of m ρ c main_arg12 (by decide)).trans <| (Wv14_of_ne m ρ c main_arg12 (by decide)).trans <| (Wv13_of m ρ c main_arg12 (by decide)).trans <| (Wv12_of_ne m ρ c main_arg12 (by decide)).trans <| (Wv11_of_ne m ρ c main_arg12 (by decide)).trans <| (Wv10_of m ρ c main_arg12 (by decide)).trans <| (Wv9_of_ne m ρ c main_arg12 (by decide)).trans <| (Wv8_of m ρ c main_arg12 (by decide)).trans <| (Wv7_of_ne m ρ c main_arg12 (by decide)).trans <| (Wv6_of_ne m ρ c main_arg12 (by decide)).trans <| (Wv5_of m ρ c main_arg12 (by decide)).trans <| (Wv4_of_ne m ρ c main_arg12 (by decide)).trans <| (Wv3_of m ρ c main_arg12 (by decide)).trans <| (Wv2_of_ne m ρ c main_arg12 (by decide)).trans <| (Wv1_of m ρ c main_arg12 (by decide)).trans <| rfl
theorem Wv21_main_arg13 (c : Dev nD) : Wv21 m ρ c (Proc.devRef .tc main_arg13) = m ((c : Thread nD τ).loc main_arg13) :=
  (Wv21_of m ρ c main_arg13 (by decide)).trans <| (Wv20_of m ρ c main_arg13 (by decide)).trans <| (Wv19_of m ρ c main_arg13 (by decide)).trans <| (Wv18_of m ρ c main_arg13 (by decide)).trans <| (Wv17_of m ρ c main_arg13 (by decide)).trans <| (Wv16_of_ne m ρ c main_arg13 (by decide)).trans <| (Wv15_of m ρ c main_arg13 (by decide)).trans <| (Wv14_of_ne m ρ c main_arg13 (by decide)).trans <| (Wv13_of m ρ c main_arg13 (by decide)).trans <| (Wv12_of_ne m ρ c main_arg13 (by decide)).trans <| (Wv11_of_ne m ρ c main_arg13 (by decide)).trans <| (Wv10_of m ρ c main_arg13 (by decide)).trans <| (Wv9_of_ne m ρ c main_arg13 (by decide)).trans <| (Wv8_of m ρ c main_arg13 (by decide)).trans <| (Wv7_of_ne m ρ c main_arg13 (by decide)).trans <| (Wv6_of_ne m ρ c main_arg13 (by decide)).trans <| (Wv5_of m ρ c main_arg13 (by decide)).trans <| (Wv4_of_ne m ρ c main_arg13 (by decide)).trans <| (Wv3_of m ρ c main_arg13 (by decide)).trans <| (Wv2_of_ne m ρ c main_arg13 (by decide)).trans <| (Wv1_of m ρ c main_arg13 (by decide)).trans <| rfl
theorem Wv21_main_arg14 (c : Dev nD) : Wv21 m ρ c (Proc.devRef .tc main_arg14) = m ((c : Thread nD τ).loc main_arg14) :=
  (Wv21_of m ρ c main_arg14 (by decide)).trans <| (Wv20_of m ρ c main_arg14 (by decide)).trans <| (Wv19_of m ρ c main_arg14 (by decide)).trans <| (Wv18_of m ρ c main_arg14 (by decide)).trans <| (Wv17_of m ρ c main_arg14 (by decide)).trans <| (Wv16_of_ne m ρ c main_arg14 (by decide)).trans <| (Wv15_of m ρ c main_arg14 (by decide)).trans <| (Wv14_of_ne m ρ c main_arg14 (by decide)).trans <| (Wv13_of m ρ c main_arg14 (by decide)).trans <| (Wv12_of_ne m ρ c main_arg14 (by decide)).trans <| (Wv11_of_ne m ρ c main_arg14 (by decide)).trans <| (Wv10_of m ρ c main_arg14 (by decide)).trans <| (Wv9_of_ne m ρ c main_arg14 (by decide)).trans <| (Wv8_of m ρ c main_arg14 (by decide)).trans <| (Wv7_of_ne m ρ c main_arg14 (by decide)).trans <| (Wv6_of_ne m ρ c main_arg14 (by decide)).trans <| (Wv5_of m ρ c main_arg14 (by decide)).trans <| (Wv4_of_ne m ρ c main_arg14 (by decide)).trans <| (Wv3_of m ρ c main_arg14 (by decide)).trans <| (Wv2_of_ne m ρ c main_arg14 (by decide)).trans <| (Wv1_of m ρ c main_arg14 (by decide)).trans <| rfl

/-! ## The proof data family and what rides beside the buffers -/

/-- Every pipeline's proof data, each at its region's entry contents. -/
def pdats : (p : Fin 9) → (c : Dev nD) → Dat τ (Elt F) Unit ℕ (UR sig nD τ) ℕ (Pipeline.pin (pcfgs (F := F)) adm p) c
  | ⟨0, _⟩ => fun c => dat0 (Vw1 m ρ) c
  | ⟨1, _⟩ => fun c => dat1 (Vw3 m ρ) c
  | ⟨2, _⟩ => fun c => dat2 (Vw5 m ρ) c
  | ⟨3, _⟩ => fun c => dat3 (Vw6 m ρ) c
  | ⟨4, _⟩ => fun c => dat4 (Vw8 m ρ) c
  | ⟨5, _⟩ => fun c => dat5 (Vw10 m ρ) c
  | ⟨6, _⟩ => fun c => dat6 (Vw11 m ρ) c
  | ⟨7, _⟩ => fun c => dat7 (Vw13 m ρ) c
  | ⟨8, _⟩ => fun c => dat8 (Vw15 m ρ) c
abbrev Vr0 : Variants := Variants.none
abbrev Lx : GSem nD τ sig → Finset Unit := fun _ => ∅
abbrev lvx : GSem nD τ sig → Unit → ℕ := fun _ _ => 0
/-- The core's generator register at some state and its dues, at nothing. -/
abbrev Rst (c : Dev nD) : sProp 𝕄 := iprop((∃ r, prngReg c r) ∗ ∃ W, owes (c : Thread nD τ) (0 : CellTallies nD τ sig Unit) W)
/-- A host stretch as a segment over the unscoped references from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Vr0 Lx lvx :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rst
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tfin (c : Dev nD) : sProp 𝕄 := iprop(StableHlo.held (c : Thread nD τ) (Pipeline.ucRefs τ sig) (Wv21 m ρ c) ∗ ∃ r, prngReg c r)

end Cert.Kernel.Hand

end
-- ==== Proof.KRunReg0.lean ====
/-
  Region 0 as a segment of the run: entered with every unscoped buffer at the contents before it, left with them at
  the contents after it. Its arrays are split out of the unscoped buffers and put back at the exit contents; the
  generator register passes into the pipeline's invariant and out; nothing is owed; the kernel has no semaphore of its own.
-/
import proofs.«100384_j8693013807615_2_alg».proof.Proof.KRunFold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg0 : Pipeline.RegionSeg (pcfgs (F := F)) adm (pdats m ρ) () defs₀ Vr0 Lx lvx 0 where
  win := launch0.win.to₀
  block_pos := launch0.block_pos
  stage_whole := launch0.stage_whole
  K := PEmpty
  osem k := k.elim
  ho := Pipeline.OwnSemFacts.none _
  hbody c := (body_obligation0 (Vw1 m ρ) c).loose
  hwaits := Pipeline.hwaits_of_owed_zero _ _ _ _ Lx lvx 0 fun _ _ => rfl
  pre c := iprop(StableHlo.held (c : Thread nD τ) (Pipeline.ucRefs τ sig) (Wv1 m ρ c) ∗ Rst c)
  post c := iprop(StableHlo.held (c : Thread nD τ) (Pipeline.ucRefs τ sig) (Wv2 m ρ c) ∗ Rst c)
  X c := iprop(∃ r, prngReg c r)
  Y c := iprop(∃ r, prngReg c r)
  Z c := Pipeline.unscopedRest (Ix := Unit) (Name := ℕ) (U := UR sig nD τ) (Lvl := ℕ) spec0 c (Vw1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Vw1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Vw1 m ρ c) (Vw2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KRunReg1.lean ====
/-
  Region 1 as a segment of the run: entered with every unscoped buffer at the contents before it, left with them at
  the contents after it. Its arrays are split out of the unscoped buffers and put back at the exit contents; the
  generator register passes into the pipeline's invariant and out; nothing is owed; the kernel has no semaphore of its own.
-/
import proofs.«100384_j8693013807615_2_alg».proof.Proof.KRunFold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg1 : Pipeline.RegionSeg (pcfgs (F := F)) adm (pdats m ρ) () defs₀ Vr0 Lx lvx 1 where
  win := launch1.win.to₀
  block_pos := launch1.block_pos
  stage_whole := launch1.stage_whole
  K := PEmpty
  osem k := k.elim
  ho := Pipeline.OwnSemFacts.none _
  hbody c := (body_obligation1 (Vw3 m ρ) c).loose
  hwaits := Pipeline.hwaits_of_owed_zero _ _ _ _ Lx lvx 1 fun _ _ => rfl
  pre c := iprop(StableHlo.held (c : Thread nD τ) (Pipeline.ucRefs τ sig) (Wv3 m ρ c) ∗ Rst c)
  post c := iprop(StableHlo.held (c : Thread nD τ) (Pipeline.ucRefs τ sig) (Wv4 m ρ c) ∗ Rst c)
  X c := iprop(∃ r, prngReg c r)
  Y c := iprop(∃ r, prngReg c r)
  Z c := Pipeline.unscopedRest (Ix := Unit) (Name := ℕ) (U := UR sig nD τ) (Lvl := ℕ) spec1 c (Vw3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vw3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vw3 m ρ c) (Vw4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KRunReg2.lean ====
/-
  Region 2 as a segment of the run: entered with every unscoped buffer at the contents before it, left with them at
  the contents after it. Its arrays are split out of the unscoped buffers and put back at the exit contents; the
  generator register passes into the pipeline's invariant and out; nothing is owed; the kernel has no semaphore of its own.
-/
import proofs.«100384_j8693013807615_2_alg».proof.Proof.KRunFold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg2 : Pipeline.RegionSeg (pcfgs (F := F)) adm (pdats m ρ) () defs₀ Vr0 Lx lvx 2 where
  win := launch2.win.to₀
  block_pos := launch2.block_pos
  stage_whole := launch2.stage_whole
  K := PEmpty
  osem k := k.elim
  ho := Pipeline.OwnSemFacts.none _
  hbody c := (body_obligation2 (Vw5 m ρ) c).loose
  hwaits := Pipeline.hwaits_of_owed_zero _ _ _ _ Lx lvx 2 fun _ _ => rfl
  pre c := iprop(StableHlo.held (c : Thread nD τ) (Pipeline.ucRefs τ sig) (Wv5 m ρ c) ∗ Rst c)
  post c := iprop(StableHlo.held (c : Thread nD τ) (Pipeline.ucRefs τ sig) (Wv6 m ρ c) ∗ Rst c)
  X c := iprop(∃ r, prngReg c r)
  Y c := iprop(∃ r, prngReg c r)
  Z c := Pipeline.unscopedRest (Ix := Unit) (Name := ℕ) (U := UR sig nD τ) (Lvl := ℕ) spec2 c (Vw5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (Vw5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (Vw5 m ρ c) (Vw6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KRunReg3.lean ====
/-
  Region 3 as a segment of the run: entered with every unscoped buffer at the contents before it, left with them at
  the contents after it. Its arrays are split out of the unscoped buffers and put back at the exit contents; the
  generator register passes into the pipeline's invariant and out; nothing is owed; the kernel has no semaphore of its own.
-/
import proofs.«100384_j8693013807615_2_alg».proof.Proof.KRunFold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg3 : Pipeline.RegionSeg (pcfgs (F := F)) adm (pdats m ρ) () defs₀ Vr0 Lx lvx 3 where
  win := launch3.win.to₀
  block_pos := launch3.block_pos
  stage_whole := launch3.stage_whole
  K := PEmpty
  osem k := k.elim
  ho := Pipeline.OwnSemFacts.none _
  hbody c := (body_obligation3 (Vw6 m ρ) c).loose
  hwaits := Pipeline.hwaits_of_owed_zero _ _ _ _ Lx lvx 3 fun _ _ => rfl
  pre c := iprop(StableHlo.held (c : Thread nD τ) (Pipeline.ucRefs τ sig) (Wv6 m ρ c) ∗ Rst c)
  post c := iprop(StableHlo.held (c : Thread nD τ) (Pipeline.ucRefs τ sig) (Wv7 m ρ c) ∗ Rst c)
  X c := iprop(∃ r, prngReg c r)
  Y c := iprop(∃ r, prngReg c r)
  Z c := Pipeline.unscopedRest (Ix := Unit) (Name := ℕ) (U := UR sig nD τ) (Lvl := ℕ) spec3 c (Vw6 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (Vw6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (Vw6 m ρ c) (Vw7 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KRunReg4.lean ====
/-
  Region 4 as a segment of the run: entered with every unscoped buffer at the contents before it, left with them at
  the contents after it. Its arrays are split out of the unscoped buffers and put back at the exit contents; the
  generator register passes into the pipeline's invariant and out; nothing is owed; the kernel has no semaphore of its own.
-/
import proofs.«100384_j8693013807615_2_alg».proof.Proof.KRunFold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg4 : Pipeline.RegionSeg (pcfgs (F := F)) adm (pdats m ρ) () defs₀ Vr0 Lx lvx 4 where
  win := launch4.win.to₀
  block_pos := launch4.block_pos
  stage_whole := launch4.stage_whole
  K := PEmpty
  osem k := k.elim
  ho := Pipeline.OwnSemFacts.none _
  hbody c := (body_obligation4 (Vw8 m ρ) c).loose
  hwaits := Pipeline.hwaits_of_owed_zero _ _ _ _ Lx lvx 4 fun _ _ => rfl
  pre c := iprop(StableHlo.held (c : Thread nD τ) (Pipeline.ucRefs τ sig) (Wv8 m ρ c) ∗ Rst c)
  post c := iprop(StableHlo.held (c : Thread nD τ) (Pipeline.ucRefs τ sig) (Wv9 m ρ c) ∗ Rst c)
  X c := iprop(∃ r, prngReg c r)
  Y c := iprop(∃ r, prngReg c r)
  Z c := Pipeline.unscopedRest (Ix := Unit) (Name := ℕ) (U := UR sig nD τ) (Lvl := ℕ) spec4 c (Vw8 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (Vw8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (Vw8 m ρ c) (Vw9 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KRunReg5.lean ====
/-
  Region 5 as a segment of the run: entered with every unscoped buffer at the contents before it, left with them at
  the contents after it. Its arrays are split out of the unscoped buffers and put back at the exit contents; the
  generator register passes into the pipeline's invariant and out; nothing is owed; the kernel has no semaphore of its own.
-/
import proofs.«100384_j8693013807615_2_alg».proof.Proof.KRunFold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg5 : Pipeline.RegionSeg (pcfgs (F := F)) adm (pdats m ρ) () defs₀ Vr0 Lx lvx 5 where
  win := launch5.win.to₀
  block_pos := launch5.block_pos
  stage_whole := launch5.stage_whole
  K := PEmpty
  osem k := k.elim
  ho := Pipeline.OwnSemFacts.none _
  hbody c := (body_obligation5 (Vw10 m ρ) c).loose
  hwaits := Pipeline.hwaits_of_owed_zero _ _ _ _ Lx lvx 5 fun _ _ => rfl
  pre c := iprop(StableHlo.held (c : Thread nD τ) (Pipeline.ucRefs τ sig) (Wv10 m ρ c) ∗ Rst c)
  post c := iprop(StableHlo.held (c : Thread nD τ) (Pipeline.ucRefs τ sig) (Wv11 m ρ c) ∗ Rst c)
  X c := iprop(∃ r, prngReg c r)
  Y c := iprop(∃ r, prngReg c r)
  Z c := Pipeline.unscopedRest (Ix := Unit) (Name := ℕ) (U := UR sig nD τ) (Lvl := ℕ) spec5 c (Vw10 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (Vw10 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (Vw10 m ρ c) (Vw11 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KRunReg6.lean ====
/-
  Region 6 as a segment of the run: entered with every unscoped buffer at the contents before it, left with them at
  the contents after it. Its arrays are split out of the unscoped buffers and put back at the exit contents; the
  generator register passes into the pipeline's invariant and out; nothing is owed; the kernel has no semaphore of its own.
-/
import proofs.«100384_j8693013807615_2_alg».proof.Proof.KRunFold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg6 : Pipeline.RegionSeg (pcfgs (F := F)) adm (pdats m ρ) () defs₀ Vr0 Lx lvx 6 where
  win := launch6.win.to₀
  block_pos := launch6.block_pos
  stage_whole := launch6.stage_whole
  K := PEmpty
  osem k := k.elim
  ho := Pipeline.OwnSemFacts.none _
  hbody c := (body_obligation6 (Vw11 m ρ) c).loose
  hwaits := Pipeline.hwaits_of_owed_zero _ _ _ _ Lx lvx 6 fun _ _ => rfl
  pre c := iprop(StableHlo.held (c : Thread nD τ) (Pipeline.ucRefs τ sig) (Wv11 m ρ c) ∗ Rst c)
  post c := iprop(StableHlo.held (c : Thread nD τ) (Pipeline.ucRefs τ sig) (Wv12 m ρ c) ∗ Rst c)
  X c := iprop(∃ r, prngReg c r)
  Y c := iprop(∃ r, prngReg c r)
  Z c := Pipeline.unscopedRest (Ix := Unit) (Name := ℕ) (U := UR sig nD τ) (Lvl := ℕ) spec6 c (Vw11 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (Vw11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (Vw11 m ρ c) (Vw12 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KRunReg7.lean ====
/-
  Region 7 as a segment of the run: entered with every unscoped buffer at the contents before it, left with them at
  the contents after it. Its arrays are split out of the unscoped buffers and put back at the exit contents; the
  generator register passes into the pipeline's invariant and out; nothing is owed; the kernel has no semaphore of its own.
-/
import proofs.«100384_j8693013807615_2_alg».proof.Proof.KRunFold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg7 : Pipeline.RegionSeg (pcfgs (F := F)) adm (pdats m ρ) () defs₀ Vr0 Lx lvx 7 where
  win := launch7.win.to₀
  block_pos := launch7.block_pos
  stage_whole := launch7.stage_whole
  K := PEmpty
  osem k := k.elim
  ho := Pipeline.OwnSemFacts.none _
  hbody c := (body_obligation7 (Vw13 m ρ) c).loose
  hwaits := Pipeline.hwaits_of_owed_zero _ _ _ _ Lx lvx 7 fun _ _ => rfl
  pre c := iprop(StableHlo.held (c : Thread nD τ) (Pipeline.ucRefs τ sig) (Wv13 m ρ c) ∗ Rst c)
  post c := iprop(StableHlo.held (c : Thread nD τ) (Pipeline.ucRefs τ sig) (Wv14 m ρ c) ∗ Rst c)
  X c := iprop(∃ r, prngReg c r)
  Y c := iprop(∃ r, prngReg c r)
  Z c := Pipeline.unscopedRest (Ix := Unit) (Name := ℕ) (U := UR sig nD τ) (Lvl := ℕ) spec7 c (Vw13 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (Vw13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m ρ 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (Vw13 m ρ c) (Vw14 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KRunReg8.lean ====
/-
  Region 8 as a segment of the run: entered with every unscoped buffer at the contents before it, left with them at
  the contents after it. Its arrays are split out of the unscoped buffers and put back at the exit contents; the
  generator register passes into the pipeline's invariant and out; nothing is owed; the kernel has no semaphore of its own.
-/
import proofs.«100384_j8693013807615_2_alg».proof.Proof.KRunFold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg8 : Pipeline.RegionSeg (pcfgs (F := F)) adm (pdats m ρ) () defs₀ Vr0 Lx lvx 8 where
  win := launch8.win.to₀
  block_pos := launch8.block_pos
  stage_whole := launch8.stage_whole
  K := PEmpty
  osem k := k.elim
  ho := Pipeline.OwnSemFacts.none _
  hbody c := (body_obligation8 (Vw15 m ρ) c).loose
  hwaits := Pipeline.hwaits_of_owed_zero _ _ _ _ Lx lvx 8 fun _ _ => rfl
  pre c := iprop(StableHlo.held (c : Thread nD τ) (Pipeline.ucRefs τ sig) (Wv15 m ρ c) ∗ Rst c)
  post c := iprop(StableHlo.held (c : Thread nD τ) (Pipeline.ucRefs τ sig) (Wv16 m ρ c) ∗ Rst c)
  X c := iprop(∃ r, prngReg c r)
  Y c := iprop(∃ r, prngReg c r)
  Z c := Pipeline.unscopedRest (Ix := Unit) (Name := ℕ) (U := UR sig nD τ) (Lvl := ℕ) spec8 c (Vw15 m ρ c)
  hentry c := by
    rw [Pipeline.ownSems0_none]
    have hsplit := Pipeline.arrays_of_unscopedBufs (p := 8) (pcfgs (F := F)) adm (pdats m ρ) launch8.win launch8.arr_whole c
      ((pdats m ρ 8 c).share_full fun _ => rfl) (Vw15 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m ρ 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m ρ) ((pdats m ρ 8 c).share_full fun _ => rfl)
      (Vw15 m ρ c) (Vw16 m ρ c) ((pdats m ρ 8 c).arrAt · cfg8.N) (hF8 m ρ c) (hrest8 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KRun.lean ====
/-
  The run of the whole entry function: its twenty-one items (twelve stretches of host operations, nine kernel regions)
  as segments, and the launch over them. Every weakly fair execution from any memory with zero counters terminates,
  nothing faulting, with the two results at the last boundary's contents and every argument array as launched.
-/
import proofs.«100384_j8693013807615_2_alg».proof.Proof.KRunFold
import proofs.«100384_j8693013807615_2_alg».proof.Proof.KRunReg0
import proofs.«100384_j8693013807615_2_alg».proof.Proof.KRunReg1
import proofs.«100384_j8693013807615_2_alg».proof.Proof.KRunReg2
import proofs.«100384_j8693013807615_2_alg».proof.Proof.KRunReg3
import proofs.«100384_j8693013807615_2_alg».proof.Proof.KRunReg4
import proofs.«100384_j8693013807615_2_alg».proof.Proof.KRunReg5
import proofs.«100384_j8693013807615_2_alg».proof.Proof.KRunReg6
import proofs.«100384_j8693013807615_2_alg».proof.Proof.KRunReg7
import proofs.«100384_j8693013807615_2_alg».proof.Proof.KRunReg8
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev segs : List (Pipeline.Seg (pcfgs (F := F)) adm (pdats m ρ) () defs₀ Vr0 Lx lvx) :=
  [ .host (hseg hostOps0 hostOps0_sub hostOps0_fresh (Wv0 m ρ)),
    .region (reg0 m ρ),
    .host (hseg hostOps1 hostOps1_sub hostOps1_fresh (Wv2 m ρ)),
    .region (reg1 m ρ),
    .host (hseg hostOps2 hostOps2_sub hostOps2_fresh (Wv4 m ρ)),
    .region (reg2 m ρ),
    .region (reg3 m ρ),
    .host (hseg hostOps4 hostOps4_sub hostOps4_fresh (Wv7 m ρ)),
    .region (reg4 m ρ),
    .host (hseg hostOps5 hostOps5_sub hostOps5_fresh (Wv9 m ρ)),
    .region (reg5 m ρ),
    .region (reg6 m ρ),
    .host (hseg hostOps7 hostOps7_sub hostOps7_fresh (Wv12 m ρ)),
    .region (reg7 m ρ),
    .host (hseg hostOps8 hostOps8_sub hostOps8_fresh (Wv14 m ρ)),
    .region (reg8 m ρ),
    .host (hseg hostOps9 hostOps9_sub hostOps9_fresh (Wv16 m ρ)),
    .host (hseg hostOps9_1 hostOps9_1_sub hostOps9_1_fresh (Wv17 m ρ)),
    .host (hseg hostOps9_2 hostOps9_2_sub hostOps9_2_fresh (Wv18 m ρ)),
    .host (hseg hostOps9_3 hostOps9_3_sub hostOps9_3_fresh (Wv19 m ρ)),
    .host (hseg hostOps9_4 hostOps9_4_sub hostOps9_4_fresh (Wv20 m ρ)) ]

/-- The entry function is the run of its segments. -/
theorem main_run (c : Dev nD) : main (F := F) c = Pipeline.Seg.run (segs m ρ) := (main_chain c).trans (by chain_rfl)

set_option backward.isDefEq.respectTransparency.types false in
theorem run : θ_run defs (onTc (τ := τ) (main (F := F))) ⟨m, fun _ => 0, ρ⟩ (fun r => ∀ c : Dev nD,
      r.2.mem ((c.tc : Thread nD τ).loc main_v146) = Wv21 m ρ c (Proc.devRef .tc main_v146)
      ∧ r.2.mem ((c.tc : Thread nD τ).loc main_v151) = Wv21 m ρ c (Proc.devRef .tc main_v151)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ Vr0 Lx lvx m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wv0 m ρ c) ∗ Rst c)) (Tₙ := Tfin m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => sep_assoc'⟩)
    (hinit := by
      refine Pipeline.initEach Lx lvx fun c => ?_
      rw [show unscopedBufs c (fun b => m ((c : Thread nD τ).loc b)) = StableHlo.held (c : Thread nD τ) (Pipeline.ucRefs τ sig) (Wv0 m ρ c)
        from Pipeline.unscopedBufs_held c (Wv0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wv21 m ρ c b)
    (hfin := fun c s' => by
      iintro ⟨⟨Hh, -⟩, HSI⟩
      unfold StableHlo.held
      imodintro
      iapply (pointsTo_read_all (Pipeline.ucRefs τ sig) (fun b => (((c : Thread nD τ)).1, b)) (Wv21 m ρ c) s')
      isplitl [Hh] <;> iassumption)
    (hQ := fun s h c =>
      ⟨h c _ (mem_uc main_v146 (by decide)), h c _ (mem_uc main_v151 (by decide)),
       (h c _ (mem_uc main_arg0 (by decide))).trans (Wv21_main_arg0 m ρ c),
       (h c _ (mem_uc main_arg1 (by decide))).trans (Wv21_main_arg1 m ρ c),
       (h c _ (mem_uc main_arg2 (by decide))).trans (Wv21_main_arg2 m ρ c),
       (h c _ (mem_uc main_arg3 (by decide))).trans (Wv21_main_arg3 m ρ c),
       (h c _ (mem_uc main_arg4 (by decide))).trans (Wv21_main_arg4 m ρ c),
       (h c _ (mem_uc main_arg5 (by decide))).trans (Wv21_main_arg5 m ρ c),
       (h c _ (mem_uc main_arg6 (by decide))).trans (Wv21_main_arg6 m ρ c),
       (h c _ (mem_uc main_arg7 (by decide))).trans (Wv21_main_arg7 m ρ c),
       (h c _ (mem_uc main_arg8 (by decide))).trans (Wv21_main_arg8 m ρ c),
       (h c _ (mem_uc main_arg9 (by decide))).trans (Wv21_main_arg9 m ρ c),
       (h c _ (mem_uc main_arg10 (by decide))).trans (Wv21_main_arg10 m ρ c),
       (h c _ (mem_uc main_arg11 (by decide))).trans (Wv21_main_arg11 m ρ c),
       (h c _ (mem_uc main_arg12 (by decide))).trans (Wv21_main_arg12 m ρ c),
       (h c _ (mem_uc main_arg13 (by decide))).trans (Wv21_main_arg13 m ρ c),
       (h c _ (mem_uc main_arg14 (by decide))).trans (Wv21_main_arg14 m ρ c)⟩)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => (h c).2.2) (run m ρ)

end Cert.Kernel.Hand

end
-- ==== Proof.RefRunOps.lean ====
/- The host operations of the reference's @main, window by window, each call replaced by the callee's lines over the
   call's record; the references each window writes; and, operation by operation, which builder's
   buffers-inside-the-TensorCore fact applies. No argument is made here. -/
import proofs.«100384_j8693013807615_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The 62 operations of @main's window 0 (operations 1 … 62). -/
abbrev ops0 : List (HloOp τ sig (Elt F)) :=
  [ nullary main_v0 (iotaInDim S50000 32 0),
    unary main_arg1 main_v1 ((extractStridedSlice S1x800000 ![0, 0] · slices_S2x800000_S1x800000_0_0) : (⟨S2x800000, .i32⟩ : BufTy).Contents (Elt F) → (⟨S1x800000, .i32⟩ : BufTy).Contents (Elt F)),
    reshape main_v1 main_v2 rfl shapeCasts_S1x800000_S800000,
    binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    unary main_arg1 main_v4 ((extractStridedSlice S1x800000 ![1, 0] · slices_S2x800000_S1x800000_1_0) : (⟨S2x800000, .i32⟩ : BufTy).Contents (Elt F) → (⟨S1x800000, .i32⟩ : BufTy).Contents (Elt F)),
    reshape main_v4 main_v5 rfl shapeCasts_S1x800000_S800000,
    binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst (constant S_ .f32 0x3F800000#32),
    unary main_cst main_v7 (broadcastInDim S850000 ![] bcast_S_S850000 : (⟨S_, .f32⟩ : BufTy).Contents (Elt F) → (⟨S850000, .f32⟩ : BufTy).Contents (Elt F)),
    nullary main_cst_0 (constant S_ .f32 0x00000000#32),
    unary main_cst_0 main_v8 (broadcastInDim S50000 ![] bcast_S_S50000 : (⟨S_, .f32⟩ : BufTy).Contents (Elt F) → (⟨S50000, .f32⟩ : BufTy).Contents (Elt F)),
    unary main_v6 main_v9 (broadcastInDim S850000x1 ![0] bcast_S850000_S850000x1_0 : (⟨S850000, .i32⟩ : BufTy).Contents (Elt F) → (⟨S850000x1, .i32⟩ : BufTy).Contents (Elt F)),
    ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_1 (constant S_ .f32 0x3F800000#32),
    unary main_cst_1 main_v11 (broadcastInDim S50000 ![] bcast_S_S50000 : (⟨S_, .f32⟩ : BufTy).Contents (Elt F) → (⟨S50000, .f32⟩ : BufTy).Contents (Elt F)),
    binary main_v10 main_v11 main_v12 (maximumf : (⟨S50000, .f32⟩ : BufTy).Contents (Elt F) → (⟨S50000, .f32⟩ : BufTy).Contents (Elt F) → (⟨S50000, .f32⟩ : BufTy).Contents (Elt F)),
    unary main_v12 main_v13 (Host.rsqrt : (⟨S50000, .f32⟩ : BufTy).Contents (Elt F) → (⟨S50000, .f32⟩ : BufTy).Contents (Elt F)),
    nullary main_c (constantI S_ 32 0#32),
    unary main_c main_v14 (broadcastInDim S850000 ![] bcast_S_S850000 : (⟨S_, .i32⟩ : BufTy).Contents (Elt F) → (⟨S850000, .i32⟩ : BufTy).Contents (Elt F)),
    binary main_v3 main_v14 main_v15 (cmpi .slt : (⟨S850000, .i32⟩ : BufTy).Contents (Elt F) → (⟨S850000, .i32⟩ : BufTy).Contents (Elt F) → (⟨S850000, .i1⟩ : BufTy).Contents (Elt F)),
    nullary main_c_2 (constantI S_ 32 50000#32),
    unary main_c_2 main_v16 (broadcastInDim S850000 ![] bcast_S_S850000 : (⟨S_, .i32⟩ : BufTy).Contents (Elt F) → (⟨S850000, .i32⟩ : BufTy).Contents (Elt F)),
    binary main_v3 main_v16 main_v17 (addi : (⟨S850000, .i32⟩ : BufTy).Contents (Elt F) → (⟨S850000, .i32⟩ : BufTy).Contents (Elt F) → (⟨S850000, .i32⟩ : BufTy).Contents (Elt F)),
    ternary main_v15 main_v17 main_v3 main_v18 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v18 main_v19 (broadcastInDim S850000x1 ![0] bcast_S850000_S850000x1_0 : (⟨S850000, .i32⟩ : BufTy).Contents (Elt F) → (⟨S850000x1, .i32⟩ : BufTy).Contents (Elt F)),
    binary main_v13 main_v19 main_v20 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_3 (constantI S_ 32 0#32),
    unary main_c_3 main_v21 (broadcastInDim S850000 ![] bcast_S_S850000 : (⟨S_, .i32⟩ : BufTy).Contents (Elt F) → (⟨S850000, .i32⟩ : BufTy).Contents (Elt F)),
    binary main_v6 main_v21 main_v22 (cmpi .slt : (⟨S850000, .i32⟩ : BufTy).Contents (Elt F) → (⟨S850000, .i32⟩ : BufTy).Contents (Elt F) → (⟨S850000, .i1⟩ : BufTy).Contents (Elt F)),
    nullary main_c_4 (constantI S_ 32 50000#32),
    unary main_c_4 main_v23 (broadcastInDim S850000 ![] bcast_S_S850000 : (⟨S_, .i32⟩ : BufTy).Contents (Elt F) → (⟨S850000, .i32⟩ : BufTy).Contents (Elt F)),
    binary main_v6 main_v23 main_v24 (addi : (⟨S850000, .i32⟩ : BufTy).Contents (Elt F) → (⟨S850000, .i32⟩ : BufTy).Contents (Elt F) → (⟨S850000, .i32⟩ : BufTy).Contents (Elt F)),
    ternary main_v22 main_v24 main_v6 main_v25 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v25 main_v26 (broadcastInDim S850000x1 ![0] bcast_S850000_S850000x1_0 : (⟨S850000, .i32⟩ : BufTy).Contents (Elt F) → (⟨S850000x1, .i32⟩ : BufTy).Contents (Elt F)),
    binary main_v13 main_v26 main_v27 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v20 main_v27 main_v28 (mulf : (⟨S850000, .f32⟩ : BufTy).Contents (Elt F) → (⟨S850000, .f32⟩ : BufTy).Contents (Elt F) → (⟨S850000, .f32⟩ : BufTy).Contents (Elt F)),
    binary main_arg0 main_arg3 main_v29 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    nullary main_c_5 (constantI S_ 32 0#32),
    unary main_c_5 main_v30 (broadcastInDim S850000 ![] bcast_S_S850000 : (⟨S_, .i32⟩ : BufTy).Contents (Elt F) → (⟨S850000, .i32⟩ : BufTy).Contents (Elt F)),
    binary main_v3 main_v30 main_v31 (cmpi .slt : (⟨S850000, .i32⟩ : BufTy).Contents (Elt F) → (⟨S850000, .i32⟩ : BufTy).Contents (Elt F) → (⟨S850000, .i1⟩ : BufTy).Contents (Elt F)),
    nullary main_c_6 (constantI S_ 32 50000#32),
    unary main_c_6 main_v32 (broadcastInDim S850000 ![] bcast_S_S850000 : (⟨S_, .i32⟩ : BufTy).Contents (Elt F) → (⟨S850000, .i32⟩ : BufTy).Contents (Elt F)),
    binary main_v3 main_v32 main_v33 (addi : (⟨S850000, .i32⟩ : BufTy).Contents (Elt F) → (⟨S850000, .i32⟩ : BufTy).Contents (Elt F) → (⟨S850000, .i32⟩ : BufTy).Contents (Elt F)),
    ternary main_v31 main_v33 main_v3 main_v34 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v34 main_v35 (broadcastInDim S850000x1 ![0] bcast_S850000_S850000x1_0 : (⟨S850000, .i32⟩ : BufTy).Contents (Elt F) → (⟨S850000x1, .i32⟩ : BufTy).Contents (Elt F)),
    binary main_v29 main_v35 main_v36 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    unary main_v28 main_v37 (broadcastInDim S850000x1 ![0] bcast_S850000_S850000x1_0 : (⟨S850000, .f32⟩ : BufTy).Contents (Elt F) → (⟨S850000x1, .f32⟩ : BufTy).Contents (Elt F)),
    unary main_v37 main_v38 (broadcastInDim S850000x64 ![0, 1] bcast_S850000x1_S850000x64_0_1 : (⟨S850000x1, .f32⟩ : BufTy).Contents (Elt F) → (⟨S850000x64, .f32⟩ : BufTy).Contents (Elt F)),
    binary main_v36 main_v38 main_v39 (mulf : (⟨S850000x64, .f32⟩ : BufTy).Contents (Elt F) → (⟨S850000x64, .f32⟩ : BufTy).Contents (Elt F) → (⟨S850000x64, .f32⟩ : BufTy).Contents (Elt F)),
    nullary main_cst_7 (constant S_ .f32 0x00000000#32),
    unary main_cst_7 main_v40 (broadcastInDim S50000x64 ![] bcast_S_S50000x64 : (⟨S_, .f32⟩ : BufTy).Contents (Elt F) → (⟨S50000x64, .f32⟩ : BufTy).Contents (Elt F)),
    unary main_v6 main_v41 (broadcastInDim S850000x1 ![0] bcast_S850000_S850000x1_0 : (⟨S850000, .i32⟩ : BufTy).Contents (Elt F) → (⟨S850000x1, .i32⟩ : BufTy).Contents (Elt F)),
    ternary main_v40 main_v41 main_v39 main_v42 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)),
    unary main_arg4 main_v43 (broadcastInDim S1x64 ![1] bcast_S64_S1x64_1 : (⟨S64, .f32⟩ : BufTy).Contents (Elt F) → (⟨S1x64, .f32⟩ : BufTy).Contents (Elt F)),
    unary main_v43 main_v44 (broadcastInDim S50000x64 ![0, 1] bcast_S1x64_S50000x64_0_1 : (⟨S1x64, .f32⟩ : BufTy).Contents (Elt F) → (⟨S50000x64, .f32⟩ : BufTy).Contents (Elt F)),
    binary main_v42 main_v44 main_v45 (addf : (⟨S50000x64, .f32⟩ : BufTy).Contents (Elt F) → (⟨S50000x64, .f32⟩ : BufTy).Contents (Elt F) → (⟨S50000x64, .f32⟩ : BufTy).Contents (Elt F)),
    TRef.nullary main_call0.cst (constant S_ .f32 0x00000000#32),
    TRef.unary main_call0.cst main_call0.v0 (broadcastInDim S50000x64 ![] bcast_S_S50000x64),
    TRef.binary (.of main_v45) main_call0.v0 main_call0.v1 maximumf,
    nullary main_cst_8 (constant S_ .f32 0x00000000#32),
    binary main_v46 main_cst_8 main_v47 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    nullary main_cst_9 (constant S_ .f32 0x47435000#32) ]

/-- The 104 operations of @main's window 1 (operations 63 … 166). -/
abbrev ops1 : List (HloOp τ sig (Elt F)) :=
  [ unary main_cst_9 main_v48 (broadcastInDim S64 ![] bcast_S_S64 : (⟨S_, .f32⟩ : BufTy).Contents (Elt F) → (⟨S64, .f32⟩ : BufTy).Contents (Elt F)),
    binary main_v47 main_v48 main_v49 (Host.divf : (⟨S64, .f32⟩ : BufTy).Contents (Elt F) → (⟨S64, .f32⟩ : BufTy).Contents (Elt F) → (⟨S64, .f32⟩ : BufTy).Contents (Elt F)),
    nullary main_c_10 (constantI S_ 32 0#32),
    TRef.nullary main_call1.cst (constant S_ .f32 0x00000000#32),
    TRef.binary (.of main_v46) main_call1.cst main_call1.v0 (fun x v => Host.reduceAdd x v reducesTo_S50000x64_S64_d0 h_S_),
    TRef.unary main_call1.v0 main_call1.v1 (broadcastInDim S1x64 ![1] bcast_S64_S1x64_1),
    TRef.nullary main_call1.cst_0 (constant S_ .f32 0x47435000#32),
    TRef.unary main_call1.cst_0 main_call1.v2 (broadcastInDim S1x64 ![] bcast_S_S1x64),
    TRef.binary main_call1.v1 main_call1.v2 main_call1.v3 Host.divf,
    TRef.unary main_call1.v3 main_call1.v4 (broadcastInDim S50000x64 ![0, 1] bcast_S1x64_S50000x64_0_1),
    TRef.binary (.of main_v46) main_call1.v4 main_call1.v5 subf,
    TRef.binary main_call1.v5 main_call1.v5 main_call1.v6 mulf,
    TRef.unary (.of main_c_10) main_call1.v7 (sitofp .f32),
    TRef.nullary main_call1.cst_1 (constant S_ .f32 0x47435000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S50000x64_S64_d0 h_S_),
    TRef.unary main_call1.v8 main_call1.v10 (broadcastInDim S64 ![] bcast_S_S64),
    TRef.binary main_call1.v9 main_call1.v10 main_call1.v11 Host.divf,
    TRef.nullary main_call1.cst_3 (constant S_ .f32 0x00000000#32),
    TRef.binary main_call1.v8 main_call1.cst_3 main_call1.v12 (cmpf .ogt),
    TRef.nullary main_call1.cst_4 (constant S_ .f32 0x7FC00000#32),
    TRef.unary main_call1.cst_4 main_call1.call0.v0 id,
    TRef.unary main_call1.call0.v0 main_call1.call0.v1 (broadcastInDim S64 ![] bcast_S_S64),
    TRef.ternary main_call1.v12 main_call1.v11 main_call1.call0.v1 main_call1.call0.v2 (fun p a b => select (broadcastInDim S64 ![] bcast_S_S64 p) a b),
    unary main_v49 main_v51 (broadcastInDim S1x64 ![1] bcast_S64_S1x64_1 : (⟨S64, .f32⟩ : BufTy).Contents (Elt F) → (⟨S1x64, .f32⟩ : BufTy).Contents (Elt F)),
    unary main_v51 main_v52 (broadcastInDim S50000x64 ![0, 1] bcast_S1x64_S50000x64_0_1 : (⟨S1x64, .f32⟩ : BufTy).Contents (Elt F) → (⟨S50000x64, .f32⟩ : BufTy).Contents (Elt F)),
    binary main_v46 main_v52 main_v53 (subf : (⟨S50000x64, .f32⟩ : BufTy).Contents (Elt F) → (⟨S50000x64, .f32⟩ : BufTy).Contents (Elt F) → (⟨S50000x64, .f32⟩ : BufTy).Contents (Elt F)),
    nullary main_cst_11 (constant S_ .f32 0x3727C5AC#32),
    unary main_cst_11 main_v54 (broadcastInDim S64 ![] bcast_S_S64 : (⟨S_, .f32⟩ : BufTy).Contents (Elt F) → (⟨S64, .f32⟩ : BufTy).Contents (Elt F)),
    binary main_v50 main_v54 main_v55 (addf : (⟨S64, .f32⟩ : BufTy).Contents (Elt F) → (⟨S64, .f32⟩ : BufTy).Contents (Elt F) → (⟨S64, .f32⟩ : BufTy).Contents (Elt F)),
    unary main_v55 main_v56 (Host.rsqrt : (⟨S64, .f32⟩ : BufTy).Contents (Elt F) → (⟨S64, .f32⟩ : BufTy).Contents (Elt F)),
    unary main_v56 main_v57 (broadcastInDim S1x64 ![1] bcast_S64_S1x64_1 : (⟨S64, .f32⟩ : BufTy).Contents (Elt F) → (⟨S1x64, .f32⟩ : BufTy).Contents (Elt F)),
    unary main_v57 main_v58 (broadcastInDim S50000x64 ![0, 1] bcast_S1x64_S50000x64_0_1 : (⟨S1x64, .f32⟩ : BufTy).Contents (Elt F) → (⟨S50000x64, .f32⟩ : BufTy).Contents (Elt F)),
    binary main_v53 main_v58 main_v59 (mulf : (⟨S50000x64, .f32⟩ : BufTy).Contents (Elt F) → (⟨S50000x64, .f32⟩ : BufTy).Contents (Elt F) → (⟨S50000x64, .f32⟩ : BufTy).Contents (Elt F)),
    unary main_arg5 main_v60 (broadcastInDim S1x64 ![1] bcast_S64_S1x64_1 : (⟨S64, .f32⟩ : BufTy).Contents (Elt F) → (⟨S1x64, .f32⟩ : BufTy).Contents (Elt F)),
    unary main_v60 main_v61 (broadcastInDim S50000x64 ![0, 1] bcast_S1x64_S50000x64_0_1 : (⟨S1x64, .f32⟩ : BufTy).Contents (Elt F) → (⟨S50000x64, .f32⟩ : BufTy).Contents (Elt F)),
    binary main_v59 main_v61 main_v62 (mulf : (⟨S50000x64, .f32⟩ : BufTy).Contents (Elt F) → (⟨S50000x64, .f32⟩ : BufTy).Contents (Elt F) → (⟨S50000x64, .f32⟩ : BufTy).Contents (Elt F)),
    unary main_arg6 main_v63 (broadcastInDim S1x64 ![1] bcast_S64_S1x64_1 : (⟨S64, .f32⟩ : BufTy).Contents (Elt F) → (⟨S1x64, .f32⟩ : BufTy).Contents (Elt F)),
    unary main_v63 main_v64 (broadcastInDim S50000x64 ![0, 1] bcast_S1x64_S50000x64_0_1 : (⟨S1x64, .f32⟩ : BufTy).Contents (Elt F) → (⟨S50000x64, .f32⟩ : BufTy).Contents (Elt F)),
    binary main_v62 main_v64 main_v65 (addf : (⟨S50000x64, .f32⟩ : BufTy).Contents (Elt F) → (⟨S50000x64, .f32⟩ : BufTy).Contents (Elt F) → (⟨S50000x64, .f32⟩ : BufTy).Contents (Elt F)),
    binary main_v65 main_arg7 main_v66 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    nullary main_c_12 (constantI S_ 32 0#32),
    unary main_c_12 main_v67 (broadcastInDim S850000 ![] bcast_S_S850000 : (⟨S_, .i32⟩ : BufTy).Contents (Elt F) → (⟨S850000, .i32⟩ : BufTy).Contents (Elt F)),
    binary main_v3 main_v67 main_v68 (cmpi .slt : (⟨S850000, .i32⟩ : BufTy).Contents (Elt F) → (⟨S850000, .i32⟩ : BufTy).Contents (Elt F) → (⟨S850000, .i1⟩ : BufTy).Contents (Elt F)),
    nullary main_c_13 (constantI S_ 32 50000#32),
    unary main_c_13 main_v69 (broadcastInDim S850000 ![] bcast_S_S850000 : (⟨S_, .i32⟩ : BufTy).Contents (Elt F) → (⟨S850000, .i32⟩ : BufTy).Contents (Elt F)),
    binary main_v3 main_v69 main_v70 (addi : (⟨S850000, .i32⟩ : BufTy).Contents (Elt F) → (⟨S850000, .i32⟩ : BufTy).Contents (Elt F) → (⟨S850000, .i32⟩ : BufTy).Contents (Elt F)),
    ternary main_v68 main_v70 main_v3 main_v71 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v71 main_v72 (broadcastInDim S850000x1 ![0] bcast_S850000_S850000x1_0 : (⟨S850000, .i32⟩ : BufTy).Contents (Elt F) → (⟨S850000x1, .i32⟩ : BufTy).Contents (Elt F)),
    binary main_v66 main_v72 main_v73 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    unary main_v28 main_v74 (broadcastInDim S850000x1 ![0] bcast_S850000_S850000x1_0 : (⟨S850000, .f32⟩ : BufTy).Contents (Elt F) → (⟨S850000x1, .f32⟩ : BufTy).Contents (Elt F)),
    unary main_v74 main_v75 (broadcastInDim S850000x64 ![0, 1] bcast_S850000x1_S850000x64_0_1 : (⟨S850000x1, .f32⟩ : BufTy).Contents (Elt F) → (⟨S850000x64, .f32⟩ : BufTy).Contents (Elt F)),
    binary main_v73 main_v75 main_v76 (mulf : (⟨S850000x64, .f32⟩ : BufTy).Contents (Elt F) → (⟨S850000x64, .f32⟩ : BufTy).Contents (Elt F) → (⟨S850000x64, .f32⟩ : BufTy).Contents (Elt F)),
    nullary main_cst_14 (constant S_ .f32 0x00000000#32),
    unary main_cst_14 main_v77 (broadcastInDim S50000x64 ![] bcast_S_S50000x64 : (⟨S_, .f32⟩ : BufTy).Contents (Elt F) → (⟨S50000x64, .f32⟩ : BufTy).Contents (Elt F)),
    unary main_v6 main_v78 (broadcastInDim S850000x1 ![0] bcast_S850000_S850000x1_0 : (⟨S850000, .i32⟩ : BufTy).Contents (Elt F) → (⟨S850000x1, .i32⟩ : BufTy).Contents (Elt F)),
    ternary main_v77 main_v78 main_v76 main_v79 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)),
    unary main_arg8 main_v80 (broadcastInDim S1x64 ![1] bcast_S64_S1x64_1 : (⟨S64, .f32⟩ : BufTy).Contents (Elt F) → (⟨S1x64, .f32⟩ : BufTy).Contents (Elt F)),
    unary main_v80 main_v81 (broadcastInDim S50000x64 ![0, 1] bcast_S1x64_S50000x64_0_1 : (⟨S1x64, .f32⟩ : BufTy).Contents (Elt F) → (⟨S50000x64, .f32⟩ : BufTy).Contents (Elt F)),
    binary main_v79 main_v81 main_v82 (addf : (⟨S50000x64, .f32⟩ : BufTy).Contents (Elt F) → (⟨S50000x64, .f32⟩ : BufTy).Contents (Elt F) → (⟨S50000x64, .f32⟩ : BufTy).Contents (Elt F)),
    TRef.nullary main_call2.cst (constant S_ .f32 0x00000000#32),
    TRef.unary main_call2.cst main_call2.v0 (broadcastInDim S50000x64 ![] bcast_S_S50000x64),
    TRef.binary (.of main_v82) main_call2.v0 main_call2.v1 maximumf,
    nullary main_cst_15 (constant S_ .f32 0x00000000#32),
    binary main_v83 main_cst_15 main_v84 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    nullary main_cst_16 (constant S_ .f32 0x47435000#32),
    unary main_cst_16 main_v85 (broadcastInDim S64 ![] bcast_S_S64 : (⟨S_, .f32⟩ : BufTy).Contents (Elt F) → (⟨S64, .f32⟩ : BufTy).Contents (Elt F)),
    binary main_v84 main_v85 main_v86 (Host.divf : (⟨S64, .f32⟩ : BufTy).Contents (Elt F) → (⟨S64, .f32⟩ : BufTy).Contents (Elt F) → (⟨S64, .f32⟩ : BufTy).Contents (Elt F)),
    nullary main_c_17 (constantI S_ 32 0#32),
    TRef.nullary main_call3.cst (constant S_ .f32 0x00000000#32),
    TRef.binary (.of main_v83) main_call3.cst main_call3.v0 (fun x v => Host.reduceAdd x v reducesTo_S50000x64_S64_d0 h_S_),
    TRef.unary main_call3.v0 main_call3.v1 (broadcastInDim S1x64 ![1] bcast_S64_S1x64_1),
    TRef.nullary main_call3.cst_0 (constant S_ .f32 0x47435000#32),
    TRef.unary main_call3.cst_0 main_call3.v2 (broadcastInDim S1x64 ![] bcast_S_S1x64),
    TRef.binary main_call3.v1 main_call3.v2 main_call3.v3 Host.divf,
    TRef.unary main_call3.v3 main_call3.v4 (broadcastInDim S50000x64 ![0, 1] bcast_S1x64_S50000x64_0_1),
    TRef.binary (.of main_v83) main_call3.v4 main_call3.v5 subf,
    TRef.binary main_call3.v5 main_call3.v5 main_call3.v6 mulf,
    TRef.unary (.of main_c_17) main_call3.v7 (sitofp .f32),
    TRef.nullary main_call3.cst_1 (constant S_ .f32 0x47435000#32),
    TRef.binary main_call3.cst_1 main_call3.v7 main_call3.v8 subf,
    TRef.nullary main_call3.cst_2 (constant S_ .f32 0x00000000#32),
    TRef.binary main_call3.v6 main_call3.cst_2 main_call3.v9 (fun x v => Host.reduceAdd x v reducesTo_S50000x64_S64_d0 h_S_),
    TRef.unary main_call3.v8 main_call3.v10 (broadcastInDim S64 ![] bcast_S_S64),
    TRef.binary main_call3.v9 main_call3.v10 main_call3.v11 Host.divf,
    TRef.nullary main_call3.cst_3 (constant S_ .f32 0x00000000#32),
    TRef.binary main_call3.v8 main_call3.cst_3 main_call3.v12 (cmpf .ogt),
    TRef.nullary main_call3.cst_4 (constant S_ .f32 0x7FC00000#32),
    TRef.unary main_call3.cst_4 main_call3.call0.v0 id,
    TRef.unary main_call3.call0.v0 main_call3.call0.v1 (broadcastInDim S64 ![] bcast_S_S64),
    TRef.ternary main_call3.v12 main_call3.v11 main_call3.call0.v1 main_call3.call0.v2 (fun p a b => select (broadcastInDim S64 ![] bcast_S_S64 p) a b),
    unary main_v86 main_v88 (broadcastInDim S1x64 ![1] bcast_S64_S1x64_1 : (⟨S64, .f32⟩ : BufTy).Contents (Elt F) → (⟨S1x64, .f32⟩ : BufTy).Contents (Elt F)),
    unary main_v88 main_v89 (broadcastInDim S50000x64 ![0, 1] bcast_S1x64_S50000x64_0_1 : (⟨S1x64, .f32⟩ : BufTy).Contents (Elt F) → (⟨S50000x64, .f32⟩ : BufTy).Contents (Elt F)),
    binary main_v83 main_v89 main_v90 (subf : (⟨S50000x64, .f32⟩ : BufTy).Contents (Elt F) → (⟨S50000x64, .f32⟩ : BufTy).Contents (Elt F) → (⟨S50000x64, .f32⟩ : BufTy).Contents (Elt F)),
    nullary main_cst_18 (constant S_ .f32 0x3727C5AC#32),
    unary main_cst_18 main_v91 (broadcastInDim S64 ![] bcast_S_S64 : (⟨S_, .f32⟩ : BufTy).Contents (Elt F) → (⟨S64, .f32⟩ : BufTy).Contents (Elt F)),
    binary main_v87 main_v91 main_v92 (addf : (⟨S64, .f32⟩ : BufTy).Contents (Elt F) → (⟨S64, .f32⟩ : BufTy).Contents (Elt F) → (⟨S64, .f32⟩ : BufTy).Contents (Elt F)),
    unary main_v92 main_v93 (Host.rsqrt : (⟨S64, .f32⟩ : BufTy).Contents (Elt F) → (⟨S64, .f32⟩ : BufTy).Contents (Elt F)),
    unary main_v93 main_v94 (broadcastInDim S1x64 ![1] bcast_S64_S1x64_1 : (⟨S64, .f32⟩ : BufTy).Contents (Elt F) → (⟨S1x64, .f32⟩ : BufTy).Contents (Elt F)),
    unary main_v94 main_v95 (broadcastInDim S50000x64 ![0, 1] bcast_S1x64_S50000x64_0_1 : (⟨S1x64, .f32⟩ : BufTy).Contents (Elt F) → (⟨S50000x64, .f32⟩ : BufTy).Contents (Elt F)),
    binary main_v90 main_v95 main_v96 (mulf : (⟨S50000x64, .f32⟩ : BufTy).Contents (Elt F) → (⟨S50000x64, .f32⟩ : BufTy).Contents (Elt F) → (⟨S50000x64, .f32⟩ : BufTy).Contents (Elt F)),
    unary main_arg9 main_v97 (broadcastInDim S1x64 ![1] bcast_S64_S1x64_1 : (⟨S64, .f32⟩ : BufTy).Contents (Elt F) → (⟨S1x64, .f32⟩ : BufTy).Contents (Elt F)),
    unary main_v97 main_v98 (broadcastInDim S50000x64 ![0, 1] bcast_S1x64_S50000x64_0_1 : (⟨S1x64, .f32⟩ : BufTy).Contents (Elt F) → (⟨S50000x64, .f32⟩ : BufTy).Contents (Elt F)) ]

/-- The 83 operations of @main's window 2 (operations 167 … 249). -/
abbrev ops2 : List (HloOp τ sig (Elt F)) :=
  [ binary main_v96 main_v98 main_v99 (mulf : (⟨S50000x64, .f32⟩ : BufTy).Contents (Elt F) → (⟨S50000x64, .f32⟩ : BufTy).Contents (Elt F) → (⟨S50000x64, .f32⟩ : BufTy).Contents (Elt F)),
    unary main_arg10 main_v100 (broadcastInDim S1x64 ![1] bcast_S64_S1x64_1 : (⟨S64, .f32⟩ : BufTy).Contents (Elt F) → (⟨S1x64, .f32⟩ : BufTy).Contents (Elt F)),
    unary main_v100 main_v101 (broadcastInDim S50000x64 ![0, 1] bcast_S1x64_S50000x64_0_1 : (⟨S1x64, .f32⟩ : BufTy).Contents (Elt F) → (⟨S50000x64, .f32⟩ : BufTy).Contents (Elt F)),
    binary main_v99 main_v101 main_v102 (addf : (⟨S50000x64, .f32⟩ : BufTy).Contents (Elt F) → (⟨S50000x64, .f32⟩ : BufTy).Contents (Elt F) → (⟨S50000x64, .f32⟩ : BufTy).Contents (Elt F)),
    binary main_v102 main_arg11 main_v103 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    nullary main_c_19 (constantI S_ 32 0#32),
    unary main_c_19 main_v104 (broadcastInDim S850000 ![] bcast_S_S850000 : (⟨S_, .i32⟩ : BufTy).Contents (Elt F) → (⟨S850000, .i32⟩ : BufTy).Contents (Elt F)),
    binary main_v3 main_v104 main_v105 (cmpi .slt : (⟨S850000, .i32⟩ : BufTy).Contents (Elt F) → (⟨S850000, .i32⟩ : BufTy).Contents (Elt F) → (⟨S850000, .i1⟩ : BufTy).Contents (Elt F)),
    nullary main_c_20 (constantI S_ 32 50000#32),
    unary main_c_20 main_v106 (broadcastInDim S850000 ![] bcast_S_S850000 : (⟨S_, .i32⟩ : BufTy).Contents (Elt F) → (⟨S850000, .i32⟩ : BufTy).Contents (Elt F)),
    binary main_v3 main_v106 main_v107 (addi : (⟨S850000, .i32⟩ : BufTy).Contents (Elt F) → (⟨S850000, .i32⟩ : BufTy).Contents (Elt F) → (⟨S850000, .i32⟩ : BufTy).Contents (Elt F)),
    ternary main_v105 main_v107 main_v3 main_v108 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v108 main_v109 (broadcastInDim S850000x1 ![0] bcast_S850000_S850000x1_0 : (⟨S850000, .i32⟩ : BufTy).Contents (Elt F) → (⟨S850000x1, .i32⟩ : BufTy).Contents (Elt F)),
    binary main_v103 main_v109 main_v110 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    unary main_v28 main_v111 (broadcastInDim S850000x1 ![0] bcast_S850000_S850000x1_0 : (⟨S850000, .f32⟩ : BufTy).Contents (Elt F) → (⟨S850000x1, .f32⟩ : BufTy).Contents (Elt F)),
    unary main_v111 main_v112 (broadcastInDim S850000x64 ![0, 1] bcast_S850000x1_S850000x64_0_1 : (⟨S850000x1, .f32⟩ : BufTy).Contents (Elt F) → (⟨S850000x64, .f32⟩ : BufTy).Contents (Elt F)),
    binary main_v110 main_v112 main_v113 (mulf : (⟨S850000x64, .f32⟩ : BufTy).Contents (Elt F) → (⟨S850000x64, .f32⟩ : BufTy).Contents (Elt F) → (⟨S850000x64, .f32⟩ : BufTy).Contents (Elt F)),
    nullary main_cst_21 (constant S_ .f32 0x00000000#32),
    unary main_cst_21 main_v114 (broadcastInDim S50000x64 ![] bcast_S_S50000x64 : (⟨S_, .f32⟩ : BufTy).Contents (Elt F) → (⟨S50000x64, .f32⟩ : BufTy).Contents (Elt F)),
    unary main_v6 main_v115 (broadcastInDim S850000x1 ![0] bcast_S850000_S850000x1_0 : (⟨S850000, .i32⟩ : BufTy).Contents (Elt F) → (⟨S850000x1, .i32⟩ : BufTy).Contents (Elt F)),
    ternary main_v114 main_v115 main_v113 main_v116 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)),
    unary main_arg12 main_v117 (broadcastInDim S1x64 ![1] bcast_S64_S1x64_1 : (⟨S64, .f32⟩ : BufTy).Contents (Elt F) → (⟨S1x64, .f32⟩ : BufTy).Contents (Elt F)),
    unary main_v117 main_v118 (broadcastInDim S50000x64 ![0, 1] bcast_S1x64_S50000x64_0_1 : (⟨S1x64, .f32⟩ : BufTy).Contents (Elt F) → (⟨S50000x64, .f32⟩ : BufTy).Contents (Elt F)),
    binary main_v116 main_v118 main_v119 (addf : (⟨S50000x64, .f32⟩ : BufTy).Contents (Elt F) → (⟨S50000x64, .f32⟩ : BufTy).Contents (Elt F) → (⟨S50000x64, .f32⟩ : BufTy).Contents (Elt F)),
    TRef.nullary main_call4.cst (constant S_ .f32 0x00000000#32),
    TRef.unary main_call4.cst main_call4.v0 (broadcastInDim S50000x64 ![] bcast_S_S50000x64),
    TRef.binary (.of main_v119) main_call4.v0 main_call4.v1 maximumf,
    nullary main_cst_22 (constant S_ .f32 0x00000000#32),
    binary main_v120 main_cst_22 main_v121 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    nullary main_cst_23 (constant S_ .f32 0x47435000#32),
    unary main_cst_23 main_v122 (broadcastInDim S64 ![] bcast_S_S64 : (⟨S_, .f32⟩ : BufTy).Contents (Elt F) → (⟨S64, .f32⟩ : BufTy).Contents (Elt F)),
    binary main_v121 main_v122 main_v123 (Host.divf : (⟨S64, .f32⟩ : BufTy).Contents (Elt F) → (⟨S64, .f32⟩ : BufTy).Contents (Elt F) → (⟨S64, .f32⟩ : BufTy).Contents (Elt F)),
    nullary main_c_24 (constantI S_ 32 0#32),
    TRef.nullary main_call5.cst (constant S_ .f32 0x00000000#32),
    TRef.binary (.of main_v120) main_call5.cst main_call5.v0 (fun x v => Host.reduceAdd x v reducesTo_S50000x64_S64_d0 h_S_),
    TRef.unary main_call5.v0 main_call5.v1 (broadcastInDim S1x64 ![1] bcast_S64_S1x64_1),
    TRef.nullary main_call5.cst_0 (constant S_ .f32 0x47435000#32),
    TRef.unary main_call5.cst_0 main_call5.v2 (broadcastInDim S1x64 ![] bcast_S_S1x64),
    TRef.binary main_call5.v1 main_call5.v2 main_call5.v3 Host.divf,
    TRef.unary main_call5.v3 main_call5.v4 (broadcastInDim S50000x64 ![0, 1] bcast_S1x64_S50000x64_0_1),
    TRef.binary (.of main_v120) main_call5.v4 main_call5.v5 subf,
    TRef.binary main_call5.v5 main_call5.v5 main_call5.v6 mulf,
    TRef.unary (.of main_c_24) main_call5.v7 (sitofp .f32),
    TRef.nullary main_call5.cst_1 (constant S_ .f32 0x47435000#32),
    TRef.binary main_call5.cst_1 main_call5.v7 main_call5.v8 subf,
    TRef.nullary main_call5.cst_2 (constant S_ .f32 0x00000000#32),
    TRef.binary main_call5.v6 main_call5.cst_2 main_call5.v9 (fun x v => Host.reduceAdd x v reducesTo_S50000x64_S64_d0 h_S_),
    TRef.unary main_call5.v8 main_call5.v10 (broadcastInDim S64 ![] bcast_S_S64),
    TRef.binary main_call5.v9 main_call5.v10 main_call5.v11 Host.divf,
    TRef.nullary main_call5.cst_3 (constant S_ .f32 0x00000000#32),
    TRef.binary main_call5.v8 main_call5.cst_3 main_call5.v12 (cmpf .ogt),
    TRef.nullary main_call5.cst_4 (constant S_ .f32 0x7FC00000#32),
    TRef.unary main_call5.cst_4 main_call5.call0.v0 id,
    TRef.unary main_call5.call0.v0 main_call5.call0.v1 (broadcastInDim S64 ![] bcast_S_S64),
    TRef.ternary main_call5.v12 main_call5.v11 main_call5.call0.v1 main_call5.call0.v2 (fun p a b => select (broadcastInDim S64 ![] bcast_S_S64 p) a b),
    unary main_v123 main_v125 (broadcastInDim S1x64 ![1] bcast_S64_S1x64_1 : (⟨S64, .f32⟩ : BufTy).Contents (Elt F) → (⟨S1x64, .f32⟩ : BufTy).Contents (Elt F)),
    unary main_v125 main_v126 (broadcastInDim S50000x64 ![0, 1] bcast_S1x64_S50000x64_0_1 : (⟨S1x64, .f32⟩ : BufTy).Contents (Elt F) → (⟨S50000x64, .f32⟩ : BufTy).Contents (Elt F)),
    binary main_v120 main_v126 main_v127 (subf : (⟨S50000x64, .f32⟩ : BufTy).Contents (Elt F) → (⟨S50000x64, .f32⟩ : BufTy).Contents (Elt F) → (⟨S50000x64, .f32⟩ : BufTy).Contents (Elt F)),
    nullary main_cst_25 (constant S_ .f32 0x3727C5AC#32),
    unary main_cst_25 main_v128 (broadcastInDim S64 ![] bcast_S_S64 : (⟨S_, .f32⟩ : BufTy).Contents (Elt F) → (⟨S64, .f32⟩ : BufTy).Contents (Elt F)),
    binary main_v124 main_v128 main_v129 (addf : (⟨S64, .f32⟩ : BufTy).Contents (Elt F) → (⟨S64, .f32⟩ : BufTy).Contents (Elt F) → (⟨S64, .f32⟩ : BufTy).Contents (Elt F)),
    unary main_v129 main_v130 (Host.rsqrt : (⟨S64, .f32⟩ : BufTy).Contents (Elt F) → (⟨S64, .f32⟩ : BufTy).Contents (Elt F)),
    unary main_v130 main_v131 (broadcastInDim S1x64 ![1] bcast_S64_S1x64_1 : (⟨S64, .f32⟩ : BufTy).Contents (Elt F) → (⟨S1x64, .f32⟩ : BufTy).Contents (Elt F)),
    unary main_v131 main_v132 (broadcastInDim S50000x64 ![0, 1] bcast_S1x64_S50000x64_0_1 : (⟨S1x64, .f32⟩ : BufTy).Contents (Elt F) → (⟨S50000x64, .f32⟩ : BufTy).Contents (Elt F)),
    binary main_v127 main_v132 main_v133 (mulf : (⟨S50000x64, .f32⟩ : BufTy).Contents (Elt F) → (⟨S50000x64, .f32⟩ : BufTy).Contents (Elt F) → (⟨S50000x64, .f32⟩ : BufTy).Contents (Elt F)),
    unary main_arg13 main_v134 (broadcastInDim S1x64 ![1] bcast_S64_S1x64_1 : (⟨S64, .f32⟩ : BufTy).Contents (Elt F) → (⟨S1x64, .f32⟩ : BufTy).Contents (Elt F)),
    unary main_v134 main_v135 (broadcastInDim S50000x64 ![0, 1] bcast_S1x64_S50000x64_0_1 : (⟨S1x64, .f32⟩ : BufTy).Contents (Elt F) → (⟨S50000x64, .f32⟩ : BufTy).Contents (Elt F)),
    binary main_v133 main_v135 main_v136 (mulf : (⟨S50000x64, .f32⟩ : BufTy).Contents (Elt F) → (⟨S50000x64, .f32⟩ : BufTy).Contents (Elt F) → (⟨S50000x64, .f32⟩ : BufTy).Contents (Elt F)),
    unary main_arg14 main_v137 (broadcastInDim S1x64 ![1] bcast_S64_S1x64_1 : (⟨S64, .f32⟩ : BufTy).Contents (Elt F) → (⟨S1x64, .f32⟩ : BufTy).Contents (Elt F)),
    unary main_v137 main_v138 (broadcastInDim S50000x64 ![0, 1] bcast_S1x64_S50000x64_0_1 : (⟨S1x64, .f32⟩ : BufTy).Contents (Elt F) → (⟨S50000x64, .f32⟩ : BufTy).Contents (Elt F)),
    binary main_v136 main_v138 main_v139 (addf : (⟨S50000x64, .f32⟩ : BufTy).Contents (Elt F) → (⟨S50000x64, .f32⟩ : BufTy).Contents (Elt F) → (⟨S50000x64, .f32⟩ : BufTy).Contents (Elt F)),
    nullary main_cst_26 (constant S_ .f32 0x3F800000#32),
    unary main_cst_26 main_v140 (broadcastInDim S50000 ![] bcast_S_S50000 : (⟨S_, .f32⟩ : BufTy).Contents (Elt F) → (⟨S50000, .f32⟩ : BufTy).Contents (Elt F)),
    nullary main_cst_27 (constant S_ .f32 0x00000000#32),
    unary main_cst_27 main_v141 (broadcastInDim S256 ![] bcast_S_S256 : (⟨S_, .f32⟩ : BufTy).Contents (Elt F) → (⟨S256, .f32⟩ : BufTy).Contents (Elt F)),
    unary main_arg2 main_v142 (broadcastInDim S50000x1 ![0] bcast_S50000_S50000x1_0 : (⟨S50000, .i32⟩ : BufTy).Contents (Elt F) → (⟨S50000x1, .i32⟩ : BufTy).Contents (Elt F)),
    ternary main_v141 main_v142 main_v140 main_v143 ((fun x i u => Host.scatterAdd scatter_S256_S50000x1_S50000_n_0_0_1 x i u) : (⟨S256, .f32⟩ : BufTy).Contents (Elt F) → (⟨S50000x1, .i32⟩ : BufTy).Contents (Elt F) → (⟨S50000, .f32⟩ : BufTy).Contents (Elt F) → (⟨S256, .f32⟩ : BufTy).Contents (Elt F)),
    nullary main_cst_28 (constant S_ .f32 0x3F800000#32),
    unary main_cst_28 main_v144 (broadcastInDim S256 ![] bcast_S_S256 : (⟨S_, .f32⟩ : BufTy).Contents (Elt F) → (⟨S256, .f32⟩ : BufTy).Contents (Elt F)),
    binary main_v143 main_v144 main_v145 (maximumf : (⟨S256, .f32⟩ : BufTy).Contents (Elt F) → (⟨S256, .f32⟩ : BufTy).Contents (Elt F) → (⟨S256, .f32⟩ : BufTy).Contents (Elt F)),
    nullary main_cst_29 (constant S_ .f32 0x00000000#32),
    unary main_cst_29 main_v146 (broadcastInDim S256x64 ![] bcast_S_S256x64 : (⟨S_, .f32⟩ : BufTy).Contents (Elt F) → (⟨S256x64, .f32⟩ : BufTy).Contents (Elt F)),
    unary main_arg2 main_v147 (broadcastInDim S50000x1 ![0] bcast_S50000_S50000x1_0 : (⟨S50000, .i32⟩ : BufTy).Contents (Elt F) → (⟨S50000x1, .i32⟩ : BufTy).Contents (Elt F)) ]

/-- The 40 operations of @main's window 3 (operations 250 … 289). -/
abbrev ops3 : List (HloOp τ sig (Elt F)) :=
  [ ternary main_v146 main_v147 main_v65 main_v148 ((fun x i u => Host.scatterAdd scatter_S256x64_S50000x1_S50000x64_1_0_0_1 x i u) : (⟨S256x64, .f32⟩ : BufTy).Contents (Elt F) → (⟨S50000x1, .i32⟩ : BufTy).Contents (Elt F) → (⟨S50000x64, .f32⟩ : BufTy).Contents (Elt F) → (⟨S256x64, .f32⟩ : BufTy).Contents (Elt F)),
    unary main_v145 main_v149 (broadcastInDim S256x1 ![0] bcast_S256_S256x1_0 : (⟨S256, .f32⟩ : BufTy).Contents (Elt F) → (⟨S256x1, .f32⟩ : BufTy).Contents (Elt F)),
    unary main_v149 main_v150 (broadcastInDim S256x64 ![0, 1] bcast_S256x1_S256x64_0_1 : (⟨S256x1, .f32⟩ : BufTy).Contents (Elt F) → (⟨S256x64, .f32⟩ : BufTy).Contents (Elt F)),
    binary main_v148 main_v150 main_v151 (Host.divf : (⟨S256x64, .f32⟩ : BufTy).Contents (Elt F) → (⟨S256x64, .f32⟩ : BufTy).Contents (Elt F) → (⟨S256x64, .f32⟩ : BufTy).Contents (Elt F)),
    nullary main_cst_30 (constant S_ .f32 0x00000000#32),
    unary main_cst_30 main_v152 (broadcastInDim S256x64 ![] bcast_S_S256x64 : (⟨S_, .f32⟩ : BufTy).Contents (Elt F) → (⟨S256x64, .f32⟩ : BufTy).Contents (Elt F)),
    unary main_arg2 main_v153 (broadcastInDim S50000x1 ![0] bcast_S50000_S50000x1_0 : (⟨S50000, .i32⟩ : BufTy).Contents (Elt F) → (⟨S50000x1, .i32⟩ : BufTy).Contents (Elt F)),
    ternary main_v152 main_v153 main_v102 main_v154 ((fun x i u => Host.scatterAdd scatter_S256x64_S50000x1_S50000x64_1_0_0_1 x i u) : (⟨S256x64, .f32⟩ : BufTy).Contents (Elt F) → (⟨S50000x1, .i32⟩ : BufTy).Contents (Elt F) → (⟨S50000x64, .f32⟩ : BufTy).Contents (Elt F) → (⟨S256x64, .f32⟩ : BufTy).Contents (Elt F)),
    unary main_v145 main_v155 (broadcastInDim S256x1 ![0] bcast_S256_S256x1_0 : (⟨S256, .f32⟩ : BufTy).Contents (Elt F) → (⟨S256x1, .f32⟩ : BufTy).Contents (Elt F)),
    unary main_v155 main_v156 (broadcastInDim S256x64 ![0, 1] bcast_S256x1_S256x64_0_1 : (⟨S256x1, .f32⟩ : BufTy).Contents (Elt F) → (⟨S256x64, .f32⟩ : BufTy).Contents (Elt F)),
    binary main_v154 main_v156 main_v157 (Host.divf : (⟨S256x64, .f32⟩ : BufTy).Contents (Elt F) → (⟨S256x64, .f32⟩ : BufTy).Contents (Elt F) → (⟨S256x64, .f32⟩ : BufTy).Contents (Elt F)),
    nullary main_cst_31 (constant S_ .f32 0x00000000#32),
    unary main_cst_31 main_v158 (broadcastInDim S256x64 ![] bcast_S_S256x64 : (⟨S_, .f32⟩ : BufTy).Contents (Elt F) → (⟨S256x64, .f32⟩ : BufTy).Contents (Elt F)),
    unary main_arg2 main_v159 (broadcastInDim S50000x1 ![0] bcast_S50000_S50000x1_0 : (⟨S50000, .i32⟩ : BufTy).Contents (Elt F) → (⟨S50000x1, .i32⟩ : BufTy).Contents (Elt F)),
    ternary main_v158 main_v159 main_v139 main_v160 ((fun x i u => Host.scatterAdd scatter_S256x64_S50000x1_S50000x64_1_0_0_1 x i u) : (⟨S256x64, .f32⟩ : BufTy).Contents (Elt F) → (⟨S50000x1, .i32⟩ : BufTy).Contents (Elt F) → (⟨S50000x64, .f32⟩ : BufTy).Contents (Elt F) → (⟨S256x64, .f32⟩ : BufTy).Contents (Elt F)),
    unary main_v145 main_v161 (broadcastInDim S256x1 ![0] bcast_S256_S256x1_0 : (⟨S256, .f32⟩ : BufTy).Contents (Elt F) → (⟨S256x1, .f32⟩ : BufTy).Contents (Elt F)),
    unary main_v161 main_v162 (broadcastInDim S256x64 ![0, 1] bcast_S256x1_S256x64_0_1 : (⟨S256x1, .f32⟩ : BufTy).Contents (Elt F) → (⟨S256x64, .f32⟩ : BufTy).Contents (Elt F)),
    binary main_v160 main_v162 main_v163 (Host.divf : (⟨S256x64, .f32⟩ : BufTy).Contents (Elt F) → (⟨S256x64, .f32⟩ : BufTy).Contents (Elt F) → (⟨S256x64, .f32⟩ : BufTy).Contents (Elt F)),
    nary ![main_v65, main_v102, main_v139] main_v164 (fun u => concatenate S50000x192 1 [⟨S50000x64, u 0⟩, ⟨S50000x64, u 1⟩, ⟨S50000x64, u 2⟩] concatenates_S50000x64_S50000x64_S50000x64_S50000x192_d1),
    nary ![main_v151, main_v157, main_v163] main_v165 (fun u => concatenate S256x192 1 [⟨S256x64, u 0⟩, ⟨S256x64, u 1⟩, ⟨S256x64, u 2⟩] concatenates_S256x64_S256x64_S256x64_S256x192_d1),
    TRef.binary (.of main_v164) (.of main_v164) main_call6.v0 mulf,
    TRef.nullary main_call6.cst (constant S_ .f32 0x00000000#32),
    TRef.binary main_call6.v0 main_call6.cst main_call6.v1 (fun x v => Host.reduceAdd x v reducesTo_S50000x192_S50000_d1 h_S_),
    TRef.unary main_call6.v1 main_call6.v2 (broadcastInDim S50000x1 ![0] bcast_S50000_S50000x1_0),
    TRef.unary main_call6.v2 main_call6.v3 Host.sqrt,
    nullary main_cst_32 (constant S_ .f32 0x2B8CBCCC#32),
    unary main_cst_32 main_v167 (broadcastInDim S50000x1 ![] bcast_S_S50000x1 : (⟨S_, .f32⟩ : BufTy).Contents (Elt F) → (⟨S50000x1, .f32⟩ : BufTy).Contents (Elt F)),
    binary main_v166 main_v167 main_v168 (maximumf : (⟨S50000x1, .f32⟩ : BufTy).Contents (Elt F) → (⟨S50000x1, .f32⟩ : BufTy).Contents (Elt F) → (⟨S50000x1, .f32⟩ : BufTy).Contents (Elt F)),
    unary main_v168 main_v169 (broadcastInDim S50000x192 ![0, 1] bcast_S50000x1_S50000x192_0_1 : (⟨S50000x1, .f32⟩ : BufTy).Contents (Elt F) → (⟨S50000x192, .f32⟩ : BufTy).Contents (Elt F)),
    binary main_v164 main_v169 main_v170 (Host.divf : (⟨S50000x192, .f32⟩ : BufTy).Contents (Elt F) → (⟨S50000x192, .f32⟩ : BufTy).Contents (Elt F) → (⟨S50000x192, .f32⟩ : BufTy).Contents (Elt F)),
    TRef.binary (.of main_v165) (.of main_v165) main_call7.v0 mulf,
    TRef.nullary main_call7.cst (constant S_ .f32 0x00000000#32),
    TRef.binary main_call7.v0 main_call7.cst main_call7.v1 (fun x v => Host.reduceAdd x v reducesTo_S256x192_S256_d1 h_S_),
    TRef.unary main_call7.v1 main_call7.v2 (broadcastInDim S256x1 ![0] bcast_S256_S256x1_0),
    TRef.unary main_call7.v2 main_call7.v3 Host.sqrt,
    nullary main_cst_33 (constant S_ .f32 0x2B8CBCCC#32),
    unary main_cst_33 main_v172 (broadcastInDim S256x1 ![] bcast_S_S256x1 : (⟨S_, .f32⟩ : BufTy).Contents (Elt F) → (⟨S256x1, .f32⟩ : BufTy).Contents (Elt F)),
    binary main_v171 main_v172 main_v173 (maximumf : (⟨S256x1, .f32⟩ : BufTy).Contents (Elt F) → (⟨S256x1, .f32⟩ : BufTy).Contents (Elt F) → (⟨S256x1, .f32⟩ : BufTy).Contents (Elt F)),
    unary main_v173 main_v174 (broadcastInDim S256x192 ![0, 1] bcast_S256x1_S256x192_0_1 : (⟨S256x1, .f32⟩ : BufTy).Contents (Elt F) → (⟨S256x192, .f32⟩ : BufTy).Contents (Elt F)),
    binary main_v165 main_v174 main_v175 (Host.divf : (⟨S256x192, .f32⟩ : BufTy).Contents (Elt F) → (⟨S256x192, .f32⟩ : BufTy).Contents (Elt F) → (⟨S256x192, .f32⟩ : BufTy).Contents (Elt F)) ]

/-- @main's 289 operations, in order. -/
abbrev ops : List (HloOp τ sig (Elt F)) :=
  ops0 ++ (ops1 ++ (ops2 ++ ops3))

/-- The references window 0 writes. -/
abbrev W0 : List (Ref sig .tc) :=
  [main_v0, main_v1, main_v2, main_v3, main_v4, main_v5, main_v6, main_cst, main_v7, main_cst_0, main_v8, main_v9, main_v10, main_cst_1, main_v11, main_v12, main_v13, main_c, main_v14, main_v15, main_c_2, main_v16, main_v17, main_v18, main_v19, main_v20, main_c_3, main_v21, main_v22, main_c_4, main_v23, main_v24, main_v25, main_v26, main_v27, main_v28, main_v29, main_c_5, main_v30, main_v31, main_c_6, main_v32, main_v33, main_v34, main_v35, main_v36, main_v37, main_v38, main_v39, main_cst_7, main_v40, main_v41, main_v42, main_v43, main_v44, main_v45, main_call0.cst.ref, main_call0.v0.ref, main_call0.v1.ref, main_cst_8, main_v47, main_cst_9]

set_option maxRecDepth 8192 in
theorem ops0_sub : (ops0 : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., nullary_bufs_sub .., binary_bufs_sub .., nullary_bufs_sub ..⟩

/-- The references window 1 writes. -/
abbrev W1 : List (Ref sig .tc) :=
  [main_v48, main_v49, main_c_10, main_call1.cst.ref, main_call1.v0.ref, main_call1.v1.ref, main_call1.cst_0.ref, main_call1.v2.ref, main_call1.v3.ref, main_call1.v4.ref, main_call1.v5.ref, main_call1.v6.ref, main_call1.v7.ref, main_call1.cst_1.ref, main_call1.v8.ref, main_call1.cst_2.ref, main_call1.v9.ref, main_call1.v10.ref, main_call1.v11.ref, main_call1.cst_3.ref, main_call1.v12.ref, main_call1.cst_4.ref, main_call1.call0.v0.ref, main_call1.call0.v1.ref, main_call1.call0.v2.ref, main_v51, main_v52, main_v53, main_cst_11, main_v54, main_v55, main_v56, main_v57, main_v58, main_v59, main_v60, main_v61, main_v62, main_v63, main_v64, main_v65, main_v66, main_c_12, main_v67, main_v68, main_c_13, main_v69, main_v70, main_v71, main_v72, main_v73, main_v74, main_v75, main_v76, main_cst_14, main_v77, main_v78, main_v79, main_v80, main_v81, main_v82, main_call2.cst.ref, main_call2.v0.ref, main_call2.v1.ref, main_cst_15, main_v84, main_cst_16, main_v85, main_v86, main_c_17, main_call3.cst.ref, main_call3.v0.ref, main_call3.v1.ref, main_call3.cst_0.ref, main_call3.v2.ref, main_call3.v3.ref, main_call3.v4.ref, main_call3.v5.ref, main_call3.v6.ref, main_call3.v7.ref, main_call3.cst_1.ref, main_call3.v8.ref, main_call3.cst_2.ref, main_call3.v9.ref, main_call3.v10.ref, main_call3.v11.ref, main_call3.cst_3.ref, main_call3.v12.ref, main_call3.cst_4.ref, main_call3.call0.v0.ref, main_call3.call0.v1.ref, main_call3.call0.v2.ref, main_v88, main_v89, main_v90, main_cst_18, main_v91, main_v92, main_v93, main_v94, main_v95, main_v96, main_v97, main_v98]

set_option maxRecDepth 8192 in
theorem ops1_sub : (ops1 : List (HloOp τ sig (Elt F))).Forall fun op => op.bufs ⊆ tcRefs τ sig :=
  ⟨unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub ..⟩

/-- The references window 2 writes. -/
abbrev W2 : List (Ref sig .tc) :=
  [main_v99, main_v100, main_v101, main_v102, main_v103, main_c_19, main_v104, main_v105, main_c_20, main_v106, main_v107, main_v108, main_v109, main_v110, main_v111, main_v112, main_v113, main_cst_21, main_v114, main_v115, main_v116, main_v117, main_v118, main_v119, main_call4.cst.ref, main_call4.v0.ref, main_call4.v1.ref, main_cst_22, main_v121, main_cst_23, main_v122, main_v123, main_c_24, main_call5.cst.ref, main_call5.v0.ref, main_call5.v1.ref, main_call5.cst_0.ref, main_call5.v2.ref, main_call5.v3.ref, main_call5.v4.ref, main_call5.v5.ref, main_call5.v6.ref, main_call5.v7.ref, main_call5.cst_1.ref, main_call5.v8.ref, main_call5.cst_2.ref, main_call5.v9.ref, main_call5.v10.ref, main_call5.v11.ref, main_call5.cst_3.ref, main_call5.v12.ref, main_call5.cst_4.ref, main_call5.call0.v0.ref, main_call5.call0.v1.ref, main_call5.call0.v2.ref, main_v125, main_v126, main_v127, main_cst_25, main_v128, main_v129, main_v130, main_v131, main_v132, main_v133, main_v134, main_v135, main_v136, main_v137, main_v138, main_v139, main_cst_26, main_v140, main_cst_27, main_v141, main_v142, main_v143, main_cst_28, main_v144, main_v145, main_cst_29, main_v146, main_v147]

set_option maxRecDepth 8192 in
theorem ops2_sub : (ops2 : List (HloOp τ sig (Elt F))).Forall fun op => op.bufs ⊆ tcRefs τ sig :=
  ⟨binary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., unary_bufs_sub ..⟩

/-- The references window 3 writes. -/
abbrev W3 : List (Ref sig .tc) :=
  [main_v148, main_v149, main_v150, main_v151, main_cst_30, main_v152, main_v153, main_v154, main_v155, main_v156, main_v157, main_cst_31, main_v158, main_v159, main_v160, main_v161, main_v162, main_v163, main_v164, main_v165, main_call6.v0.ref, main_call6.cst.ref, main_call6.v1.ref, main_call6.v2.ref, main_call6.v3.ref, main_cst_32, main_v167, main_v168, main_v169, main_v170, main_call7.v0.ref, main_call7.cst.ref, main_call7.v1.ref, main_call7.v2.ref, main_call7.v3.ref, main_cst_33, main_v172, main_v173, main_v174, main_v175]

set_option maxRecDepth 8192 in
theorem ops3_sub : (ops3 : List (HloOp τ sig (Elt F))).Forall fun op => op.bufs ⊆ tcRefs τ sig :=
  ⟨ternary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., unary_bufs_sub .., ternary_bufs_sub .., unary_bufs_sub .., unary_bufs_sub .., binary_bufs_sub .., nary_bufs_sub .., nary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub ..⟩

end Cert.ReferenceIdeal.RefRun

end
-- ==== Proof.RefRun.lean ====
import proofs.«100384_j8693013807615_2_alg».proof.Proof.RefRunOps
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## @main is the straight line of its operations

Each window of @main is, by unfolding, the sequence of its operations: a call of a module-local function is that
function's body over the call's record, so its lines stand where the call stood. -/

set_option maxRecDepth 8192 in
theorem main_part0_eq (c : Dev nD) : main_part0 (F := F) c = seq ops0 := rfl
set_option maxRecDepth 8192 in
theorem main_part1_eq (c : Dev nD) : main_part1 (F := F) c = seq ops1 := rfl
set_option maxRecDepth 8192 in
theorem main_part2_eq (c : Dev nD) : main_part2 (F := F) c = seq ops2 := rfl
set_option maxRecDepth 8192 in
theorem main_part3_eq (c : Dev nD) : main_part3 (F := F) c = seq ops3 := rfl

set_option maxRecDepth 8192 in
/-- @main runs its four windows in order, so it is the sequence of the concatenated operations. -/
theorem main_eq (c : Dev nD) : main (F := F) c = seq ops := by
  simp only [ops, seq_append, ← main_part0_eq c, ← main_part1_eq c, ← main_part2_eq c, ← main_part3_eq c]
  rfl

theorem scopedRefs_eq : (Finset.univ.filter fun b : Ref sig .tc => b.isScoped) = ∅ := by decide
theorem scopedSems_eq : (Finset.univ.filter fun sm : SemLoc sig => sm.isScoped .tc) = ∅ := by decide

/-- Every operation reads and writes TensorCore buffers only. -/
theorem ops_sub : (ops : List (HloOp τ sig (Elt F))).Forall fun op => op.bufs ⊆ tcRefs τ sig :=
  List.forall_iff_forall_mem.mpr fun op h => by
    simp only [ops, List.mem_append] at h
    rcases h with h | h | h | h
    exacts [List.forall_iff_forall_mem.mp ops0_sub op h, List.forall_iff_forall_mem.mp ops1_sub op h,
      List.forall_iff_forall_mem.mp ops2_sub op h, List.forall_iff_forall_mem.mp ops3_sub op h]

/-- On every device, for any float values, from any memory with zero counters: every weakly fair execution of @main
    terminates, and every final state has each TensorCore buffer at the fold of the operations over the launch
    contents. -/
theorem run_all (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq scopedRefs_eq scopedSems_eq defs main (fun _ => ops) main_eq (fun _ => ops_sub) m ρ

end Cert.ReferenceIdeal.RefRun

end
-- ==== Proof.RefRunFrame.lean ====
import proofs.«100384_j8693013807615_2_alg».proof.Proof.RefRun

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## What the operations write

Each operation writes one buffer, its result's; a window's operations write the references listed for the window, and
none of them is an argument of @main. -/

set_option maxRecDepth 8192 in
theorem ops0_writes : (ops0 : List (HloOp τ sig (Elt F))).Forall fun op =>
    op.writes ⊆ (W0.map (Proc.devRef (τ := τ) .tc)).toFinset := by
  simp only [List.Forall, nullary_writes, unary_writes, binary_writes, ternary_writes, reshape_writes, nary_writes,
    Finset.singleton_subset_iff, List.mem_toFinset]
  and_intros <;> exact List.mem_map_of_mem (by decide)

set_option maxRecDepth 8192 in
theorem ops1_writes : (ops1 : List (HloOp τ sig (Elt F))).Forall fun op =>
    op.writes ⊆ (W1.map (Proc.devRef (τ := τ) .tc)).toFinset := by
  simp only [List.Forall, nullary_writes, unary_writes, binary_writes, ternary_writes, reshape_writes, nary_writes,
    Finset.singleton_subset_iff, List.mem_toFinset]
  and_intros <;> exact List.mem_map_of_mem (by decide)

set_option maxRecDepth 8192 in
theorem ops2_writes : (ops2 : List (HloOp τ sig (Elt F))).Forall fun op =>
    op.writes ⊆ (W2.map (Proc.devRef (τ := τ) .tc)).toFinset := by
  simp only [List.Forall, nullary_writes, unary_writes, binary_writes, ternary_writes, reshape_writes, nary_writes,
    Finset.singleton_subset_iff, List.mem_toFinset]
  and_intros <;> exact List.mem_map_of_mem (by decide)

set_option maxRecDepth 8192 in
theorem ops3_writes : (ops3 : List (HloOp τ sig (Elt F))).Forall fun op =>
    op.writes ⊆ (W3.map (Proc.devRef (τ := τ) .tc)).toFinset := by
  simp only [List.Forall, nullary_writes, unary_writes, binary_writes, ternary_writes, reshape_writes, nary_writes,
    Finset.singleton_subset_iff, List.mem_toFinset]
  and_intros <;> exact List.mem_map_of_mem (by decide)

/-- The fold over all of @main's operations is the windows' folds, one after the other. -/
theorem after_ops (V : Valuation τ sig (Elt F)) :
    after ops V = after ops3 (after ops2 (after ops1 (after ops0 V))) := by
  simp only [ops, after_append]

/-- A reference no window writes keeps its contents through @main. -/
theorem after_keep (V : Valuation τ sig (Elt F)) (r : Ref sig .tc)
    (h0 : r ∉ W0) (h1 : r ∉ W1) (h2 : r ∉ W2) (h3 : r ∉ W3) :
    after ops V (Proc.devRef .tc r) = V (Proc.devRef .tc r) := by
  rw [after_ops, after_of_writes_sub ops3 _ ops3_writes h3, after_of_writes_sub ops2 _ ops2_writes h2,
    after_of_writes_sub ops1 _ ops1_writes h1, after_of_writes_sub ops0 _ ops0_writes h0]

/-- On every device, for any float values, from any memory with zero counters: every weakly fair execution of @main
    terminates with each of its two results at the fold of the operations over the launch contents, and each of its
    fifteen arguments unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v170) = after ops (launchContents m c) (Proc.devRef .tc main_v170)
      ∧ r.2.mem ((c.tc : Thread nD τ).loc main_v175) = after ops (launchContents m c) (Proc.devRef .tc main_v175)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c => ⟨h c main_v170, h c main_v175,
      (h c main_arg0).trans (after_keep _ main_arg0 (by decide) (by decide) (by decide) (by decide)),
      (h c main_arg1).trans (after_keep _ main_arg1 (by decide) (by decide) (by decide) (by decide)),
      (h c main_arg2).trans (after_keep _ main_arg2 (by decide) (by decide) (by decide) (by decide)),
      (h c main_arg3).trans (after_keep _ main_arg3 (by decide) (by decide) (by decide) (by decide)),
      (h c main_arg4).trans (after_keep _ main_arg4 (by decide) (by decide) (by decide) (by decide)),
      (h c main_arg5).trans (after_keep _ main_arg5 (by decide) (by decide) (by decide) (by decide)),
      (h c main_arg6).trans (after_keep _ main_arg6 (by decide) (by decide) (by decide) (by decide)),
      (h c main_arg7).trans (after_keep _ main_arg7 (by decide) (by decide) (by decide) (by decide)),
      (h c main_arg8).trans (after_keep _ main_arg8 (by decide) (by decide) (by decide) (by decide)),
      (h c main_arg9).trans (after_keep _ main_arg9 (by decide) (by decide) (by decide) (by decide)),
      (h c main_arg10).trans (after_keep _ main_arg10 (by decide) (by decide) (by decide) (by decide)),
      (h c main_arg11).trans (after_keep _ main_arg11 (by decide) (by decide) (by decide) (by decide)),
      (h c main_arg12).trans (after_keep _ main_arg12 (by decide) (by decide) (by decide) (by decide)),
      (h c main_arg13).trans (after_keep _ main_arg13 (by decide) (by decide) (by decide) (by decide)),
      (h c main_arg14).trans (after_keep _ main_arg14 (by decide) (by decide) (by decide) (by decide))⟩)
    (run_all m ρ)

end Cert.ReferenceIdeal.RefRun

end
-- ==== Proof.RefRunSegs.lean ====
/- @main's host operations cut into 28 consecutive segments, each ending at the operation that writes a named
   stage of the reference, and the references each segment writes. No argument is made here. -/
import proofs.«100384_j8693013807615_2_alg».proof.Proof.RefRunOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Segment 1: the 7 operations ending at the one that writes `main_v6`. -/
abbrev s1 : List (HloOp τ sig (Elt F)) :=
  [ nullary main_v0 (iotaInDim S50000 32 0),
    unary main_arg1 main_v1 ((extractStridedSlice S1x800000 ![0, 0] · slices_S2x800000_S1x800000_0_0) : (⟨S2x800000, .i32⟩ : BufTy).Contents (Elt F) → (⟨S1x800000, .i32⟩ : BufTy).Contents (Elt F)),
    reshape main_v1 main_v2 rfl shapeCasts_S1x800000_S800000,
    binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    unary main_arg1 main_v4 ((extractStridedSlice S1x800000 ![1, 0] · slices_S2x800000_S1x800000_1_0) : (⟨S2x800000, .i32⟩ : BufTy).Contents (Elt F) → (⟨S1x800000, .i32⟩ : BufTy).Contents (Elt F)),
    reshape main_v4 main_v5 rfl shapeCasts_S1x800000_S800000,
    binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)) ]

/-- The references segment 1 writes. -/
abbrev Ws1 : List (Ref sig .tc) :=
  [main_v0, main_v1, main_v2, main_v3, main_v4, main_v5, main_v6]

/-- Segment 2: the 29 operations ending at the one that writes `main_v28`. -/
abbrev s2 : List (HloOp τ sig (Elt F)) :=
  [ nullary main_cst (constant S_ .f32 0x3F800000#32),
    unary main_cst main_v7 (broadcastInDim S850000 ![] bcast_S_S850000 : (⟨S_, .f32⟩ : BufTy).Contents (Elt F) → (⟨S850000, .f32⟩ : BufTy).Contents (Elt F)),
    nullary main_cst_0 (constant S_ .f32 0x00000000#32),
    unary main_cst_0 main_v8 (broadcastInDim S50000 ![] bcast_S_S50000 : (⟨S_, .f32⟩ : BufTy).Contents (Elt F) → (⟨S50000, .f32⟩ : BufTy).Contents (Elt F)),
    unary main_v6 main_v9 (broadcastInDim S850000x1 ![0] bcast_S850000_S850000x1_0 : (⟨S850000, .i32⟩ : BufTy).Contents (Elt F) → (⟨S850000x1, .i32⟩ : BufTy).Contents (Elt F)),
    ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_1 (constant S_ .f32 0x3F800000#32),
    unary main_cst_1 main_v11 (broadcastInDim S50000 ![] bcast_S_S50000 : (⟨S_, .f32⟩ : BufTy).Contents (Elt F) → (⟨S50000, .f32⟩ : BufTy).Contents (Elt F)),
    binary main_v10 main_v11 main_v12 (maximumf : (⟨S50000, .f32⟩ : BufTy).Contents (Elt F) → (⟨S50000, .f32⟩ : BufTy).Contents (Elt F) → (⟨S50000, .f32⟩ : BufTy).Contents (Elt F)),
    unary main_v12 main_v13 (Host.rsqrt : (⟨S50000, .f32⟩ : BufTy).Contents (Elt F) → (⟨S50000, .f32⟩ : BufTy).Contents (Elt F)),
    nullary main_c (constantI S_ 32 0#32),
    unary main_c main_v14 (broadcastInDim S850000 ![] bcast_S_S850000 : (⟨S_, .i32⟩ : BufTy).Contents (Elt F) → (⟨S850000, .i32⟩ : BufTy).Contents (Elt F)),
    binary main_v3 main_v14 main_v15 (cmpi .slt : (⟨S850000, .i32⟩ : BufTy).Contents (Elt F) → (⟨S850000, .i32⟩ : BufTy).Contents (Elt F) → (⟨S850000, .i1⟩ : BufTy).Contents (Elt F)),
    nullary main_c_2 (constantI S_ 32 50000#32),
    unary main_c_2 main_v16 (broadcastInDim S850000 ![] bcast_S_S850000 : (⟨S_, .i32⟩ : BufTy).Contents (Elt F) → (⟨S850000, .i32⟩ : BufTy).Contents (Elt F)),
    binary main_v3 main_v16 main_v17 (addi : (⟨S850000, .i32⟩ : BufTy).Contents (Elt F) → (⟨S850000, .i32⟩ : BufTy).Contents (Elt F) → (⟨S850000, .i32⟩ : BufTy).Contents (Elt F)),
    ternary main_v15 main_v17 main_v3 main_v18 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v18 main_v19 (broadcastInDim S850000x1 ![0] bcast_S850000_S850000x1_0 : (⟨S850000, .i32⟩ : BufTy).Contents (Elt F) → (⟨S850000x1, .i32⟩ : BufTy).Contents (Elt F)),
    binary main_v13 main_v19 main_v20 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_3 (constantI S_ 32 0#32),
    unary main_c_3 main_v21 (broadcastInDim S850000 ![] bcast_S_S850000 : (⟨S_, .i32⟩ : BufTy).Contents (Elt F) → (⟨S850000, .i32⟩ : BufTy).Contents (Elt F)),
    binary main_v6 main_v21 main_v22 (cmpi .slt : (⟨S850000, .i32⟩ : BufTy).Contents (Elt F) → (⟨S850000, .i32⟩ : BufTy).Contents (Elt F) → (⟨S850000, .i1⟩ : BufTy).Contents (Elt F)),
    nullary main_c_4 (constantI S_ 32 50000#32),
    unary main_c_4 main_v23 (broadcastInDim S850000 ![] bcast_S_S850000 : (⟨S_, .i32⟩ : BufTy).Contents (Elt F) → (⟨S850000, .i32⟩ : BufTy).Contents (Elt F)),
    binary main_v6 main_v23 main_v24 (addi : (⟨S850000, .i32⟩ : BufTy).Contents (Elt F) → (⟨S850000, .i32⟩ : BufTy).Contents (Elt F) → (⟨S850000, .i32⟩ : BufTy).Contents (Elt F)),
    ternary main_v22 main_v24 main_v6 main_v25 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v25 main_v26 (broadcastInDim S850000x1 ![0] bcast_S850000_S850000x1_0 : (⟨S850000, .i32⟩ : BufTy).Contents (Elt F) → (⟨S850000x1, .i32⟩ : BufTy).Contents (Elt F)),
    binary main_v13 main_v26 main_v27 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v20 main_v27 main_v28 (mulf : (⟨S850000, .f32⟩ : BufTy).Contents (Elt F) → (⟨S850000, .f32⟩ : BufTy).Contents (Elt F) → (⟨S850000, .f32⟩ : BufTy).Contents (Elt F)) ]

/-- The references segment 2 writes. -/
abbrev Ws2 : List (Ref sig .tc) :=
  [main_cst, main_v7, main_cst_0, main_v8, main_v9, main_v10, main_cst_1, main_v11, main_v12, main_v13, main_c, main_v14, main_v15, main_c_2, main_v16, main_v17, main_v18, main_v19, main_v20, main_c_3, main_v21, main_v22, main_c_4, main_v23, main_v24, main_v25, main_v26, main_v27, main_v28]

/-- Segment 3: the 1 operations ending at the one that writes `main_v29`. -/
abbrev s3 : List (HloOp τ sig (Elt F)) :=
  [ binary main_arg0 main_arg3 main_v29 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)) ]

/-- The references segment 3 writes. -/
abbrev Ws3 : List (Ref sig .tc) :=
  [main_v29]

/-- Segment 4: the 16 operations ending at the one that writes `main_v42`. -/
abbrev s4 : List (HloOp τ sig (Elt F)) :=
  [ nullary main_c_5 (constantI S_ 32 0#32),
    unary main_c_5 main_v30 (broadcastInDim S850000 ![] bcast_S_S850000 : (⟨S_, .i32⟩ : BufTy).Contents (Elt F) → (⟨S850000, .i32⟩ : BufTy).Contents (Elt F)),
    binary main_v3 main_v30 main_v31 (cmpi .slt : (⟨S850000, .i32⟩ : BufTy).Contents (Elt F) → (⟨S850000, .i32⟩ : BufTy).Contents (Elt F) → (⟨S850000, .i1⟩ : BufTy).Contents (Elt F)),
    nullary main_c_6 (constantI S_ 32 50000#32),
    unary main_c_6 main_v32 (broadcastInDim S850000 ![] bcast_S_S850000 : (⟨S_, .i32⟩ : BufTy).Contents (Elt F) → (⟨S850000, .i32⟩ : BufTy).Contents (Elt F)),
    binary main_v3 main_v32 main_v33 (addi : (⟨S850000, .i32⟩ : BufTy).Contents (Elt F) → (⟨S850000, .i32⟩ : BufTy).Contents (Elt F) → (⟨S850000, .i32⟩ : BufTy).Contents (Elt F)),
    ternary main_v31 main_v33 main_v3 main_v34 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v34 main_v35 (broadcastInDim S850000x1 ![0] bcast_S850000_S850000x1_0 : (⟨S850000, .i32⟩ : BufTy).Contents (Elt F) → (⟨S850000x1, .i32⟩ : BufTy).Contents (Elt F)),
    binary main_v29 main_v35 main_v36 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    unary main_v28 main_v37 (broadcastInDim S850000x1 ![0] bcast_S850000_S850000x1_0 : (⟨S850000, .f32⟩ : BufTy).Contents (Elt F) → (⟨S850000x1, .f32⟩ : BufTy).Contents (Elt F)),
    unary main_v37 main_v38 (broadcastInDim S850000x64 ![0, 1] bcast_S850000x1_S850000x64_0_1 : (⟨S850000x1, .f32⟩ : BufTy).Contents (Elt F) → (⟨S850000x64, .f32⟩ : BufTy).Contents (Elt F)),
    binary main_v36 main_v38 main_v39 (mulf : (⟨S850000x64, .f32⟩ : BufTy).Contents (Elt F) → (⟨S850000x64, .f32⟩ : BufTy).Contents (Elt F) → (⟨S850000x64, .f32⟩ : BufTy).Contents (Elt F)),
    nullary main_cst_7 (constant S_ .f32 0x00000000#32),
    unary main_cst_7 main_v40 (broadcastInDim S50000x64 ![] bcast_S_S50000x64 : (⟨S_, .f32⟩ : BufTy).Contents (Elt F) → (⟨S50000x64, .f32⟩ : BufTy).Contents (Elt F)),
    unary main_v6 main_v41 (broadcastInDim S850000x1 ![0] bcast_S850000_S850000x1_0 : (⟨S850000, .i32⟩ : BufTy).Contents (Elt F) → (⟨S850000x1, .i32⟩ : BufTy).Contents (Elt F)),
    ternary main_v40 main_v41 main_v39 main_v42 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)) ]

/-- The references segment 4 writes. -/
abbrev Ws4 : List (Ref sig .tc) :=
  [main_c_5, main_v30, main_v31, main_c_6, main_v32, main_v33, main_v34, main_v35, main_v36, main_v37, main_v38, main_v39, main_cst_7, main_v40, main_v41, main_v42]

/-- Segment 5: the 6 operations ending at the one that writes `main_v46`. -/
abbrev s5 : List (HloOp τ sig (Elt F)) :=
  [ unary main_arg4 main_v43 (broadcastInDim S1x64 ![1] bcast_S64_S1x64_1 : (⟨S64, .f32⟩ : BufTy).Contents (Elt F) → (⟨S1x64, .f32⟩ : BufTy).Contents (Elt F)),
    unary main_v43 main_v44 (broadcastInDim S50000x64 ![0, 1] bcast_S1x64_S50000x64_0_1 : (⟨S1x64, .f32⟩ : BufTy).Contents (Elt F) → (⟨S50000x64, .f32⟩ : BufTy).Contents (Elt F)),
    binary main_v42 main_v44 main_v45 (addf : (⟨S50000x64, .f32⟩ : BufTy).Contents (Elt F) → (⟨S50000x64, .f32⟩ : BufTy).Contents (Elt F) → (⟨S50000x64, .f32⟩ : BufTy).Contents (Elt F)),
    TRef.nullary main_call0.cst (constant S_ .f32 0x00000000#32),
    TRef.unary main_call0.cst main_call0.v0 (broadcastInDim S50000x64 ![] bcast_S_S50000x64),
    TRef.binary (.of main_v45) main_call0.v0 main_call0.v1 maximumf ]

/-- The references segment 5 writes. -/
abbrev Ws5 : List (Ref sig .tc) :=
  [main_v43, main_v44, main_v45, main_call0_cst, main_call0_v0, main_v46]

/-- Segment 6: the 5 operations ending at the one that writes `main_v49`. -/
abbrev s6 : List (HloOp τ sig (Elt F)) :=
  [ nullary main_cst_8 (constant S_ .f32 0x00000000#32),
    binary main_v46 main_cst_8 main_v47 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    nullary main_cst_9 (constant S_ .f32 0x47435000#32),
    unary main_cst_9 main_v48 (broadcastInDim S64 ![] bcast_S_S64 : (⟨S_, .f32⟩ : BufTy).Contents (Elt F) → (⟨S64, .f32⟩ : BufTy).Contents (Elt F)),
    binary main_v47 main_v48 main_v49 (Host.divf : (⟨S64, .f32⟩ : BufTy).Contents (Elt F) → (⟨S64, .f32⟩ : BufTy).Contents (Elt F) → (⟨S64, .f32⟩ : BufTy).Contents (Elt F)) ]

/-- The references segment 6 writes. -/
abbrev Ws6 : List (Ref sig .tc) :=
  [main_cst_8, main_v47, main_cst_9, main_v48, main_v49]

/-- Segment 7: the 23 operations ending at the one that writes `main_v50`. -/
abbrev s7 : List (HloOp τ sig (Elt F)) :=
  [ nullary main_c_10 (constantI S_ 32 0#32),
    TRef.nullary main_call1.cst (constant S_ .f32 0x00000000#32),
    TRef.binary (.of main_v46) main_call1.cst main_call1.v0 (fun x v => Host.reduceAdd x v reducesTo_S50000x64_S64_d0 h_S_),
    TRef.unary main_call1.v0 main_call1.v1 (broadcastInDim S1x64 ![1] bcast_S64_S1x64_1),
    TRef.nullary main_call1.cst_0 (constant S_ .f32 0x47435000#32),
    TRef.unary main_call1.cst_0 main_call1.v2 (broadcastInDim S1x64 ![] bcast_S_S1x64),
    TRef.binary main_call1.v1 main_call1.v2 main_call1.v3 Host.divf,
    TRef.unary main_call1.v3 main_call1.v4 (broadcastInDim S50000x64 ![0, 1] bcast_S1x64_S50000x64_0_1),
    TRef.binary (.of main_v46) main_call1.v4 main_call1.v5 subf,
    TRef.binary main_call1.v5 main_call1.v5 main_call1.v6 mulf,
    TRef.unary (.of main_c_10) main_call1.v7 (sitofp .f32),
    TRef.nullary main_call1.cst_1 (constant S_ .f32 0x47435000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S50000x64_S64_d0 h_S_),
    TRef.unary main_call1.v8 main_call1.v10 (broadcastInDim S64 ![] bcast_S_S64),
    TRef.binary main_call1.v9 main_call1.v10 main_call1.v11 Host.divf,
    TRef.nullary main_call1.cst_3 (constant S_ .f32 0x00000000#32),
    TRef.binary main_call1.v8 main_call1.cst_3 main_call1.v12 (cmpf .ogt),
    TRef.nullary main_call1.cst_4 (constant S_ .f32 0x7FC00000#32),
    TRef.unary main_call1.cst_4 main_call1.call0.v0 id,
    TRef.unary main_call1.call0.v0 main_call1.call0.v1 (broadcastInDim S64 ![] bcast_S_S64),
    TRef.ternary main_call1.v12 main_call1.v11 main_call1.call0.v1 main_call1.call0.v2 (fun p a b => select (broadcastInDim S64 ![] bcast_S_S64 p) a b) ]

/-- The references segment 7 writes. -/
abbrev Ws7 : List (Ref sig .tc) :=
  [main_c_10, main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v50]

/-- Segment 8: the 16 operations ending at the one that writes `main_v65`. -/
abbrev s8 : List (HloOp τ sig (Elt F)) :=
  [ unary main_v49 main_v51 (broadcastInDim S1x64 ![1] bcast_S64_S1x64_1 : (⟨S64, .f32⟩ : BufTy).Contents (Elt F) → (⟨S1x64, .f32⟩ : BufTy).Contents (Elt F)),
    unary main_v51 main_v52 (broadcastInDim S50000x64 ![0, 1] bcast_S1x64_S50000x64_0_1 : (⟨S1x64, .f32⟩ : BufTy).Contents (Elt F) → (⟨S50000x64, .f32⟩ : BufTy).Contents (Elt F)),
    binary main_v46 main_v52 main_v53 (subf : (⟨S50000x64, .f32⟩ : BufTy).Contents (Elt F) → (⟨S50000x64, .f32⟩ : BufTy).Contents (Elt F) → (⟨S50000x64, .f32⟩ : BufTy).Contents (Elt F)),
    nullary main_cst_11 (constant S_ .f32 0x3727C5AC#32),
    unary main_cst_11 main_v54 (broadcastInDim S64 ![] bcast_S_S64 : (⟨S_, .f32⟩ : BufTy).Contents (Elt F) → (⟨S64, .f32⟩ : BufTy).Contents (Elt F)),
    binary main_v50 main_v54 main_v55 (addf : (⟨S64, .f32⟩ : BufTy).Contents (Elt F) → (⟨S64, .f32⟩ : BufTy).Contents (Elt F) → (⟨S64, .f32⟩ : BufTy).Contents (Elt F)),
    unary main_v55 main_v56 (Host.rsqrt : (⟨S64, .f32⟩ : BufTy).Contents (Elt F) → (⟨S64, .f32⟩ : BufTy).Contents (Elt F)),
    unary main_v56 main_v57 (broadcastInDim S1x64 ![1] bcast_S64_S1x64_1 : (⟨S64, .f32⟩ : BufTy).Contents (Elt F) → (⟨S1x64, .f32⟩ : BufTy).Contents (Elt F)),
    unary main_v57 main_v58 (broadcastInDim S50000x64 ![0, 1] bcast_S1x64_S50000x64_0_1 : (⟨S1x64, .f32⟩ : BufTy).Contents (Elt F) → (⟨S50000x64, .f32⟩ : BufTy).Contents (Elt F)),
    binary main_v53 main_v58 main_v59 (mulf : (⟨S50000x64, .f32⟩ : BufTy).Contents (Elt F) → (⟨S50000x64, .f32⟩ : BufTy).Contents (Elt F) → (⟨S50000x64, .f32⟩ : BufTy).Contents (Elt F)),
    unary main_arg5 main_v60 (broadcastInDim S1x64 ![1] bcast_S64_S1x64_1 : (⟨S64, .f32⟩ : BufTy).Contents (Elt F) → (⟨S1x64, .f32⟩ : BufTy).Contents (Elt F)),
    unary main_v60 main_v61 (broadcastInDim S50000x64 ![0, 1] bcast_S1x64_S50000x64_0_1 : (⟨S1x64, .f32⟩ : BufTy).Contents (Elt F) → (⟨S50000x64, .f32⟩ : BufTy).Contents (Elt F)),
    binary main_v59 main_v61 main_v62 (mulf : (⟨S50000x64, .f32⟩ : BufTy).Contents (Elt F) → (⟨S50000x64, .f32⟩ : BufTy).Contents (Elt F) → (⟨S50000x64, .f32⟩ : BufTy).Contents (Elt F)),
    unary main_arg6 main_v63 (broadcastInDim S1x64 ![1] bcast_S64_S1x64_1 : (⟨S64, .f32⟩ : BufTy).Contents (Elt F) → (⟨S1x64, .f32⟩ : BufTy).Contents (Elt F)),
    unary main_v63 main_v64 (broadcastInDim S50000x64 ![0, 1] bcast_S1x64_S50000x64_0_1 : (⟨S1x64, .f32⟩ : BufTy).Contents (Elt F) → (⟨S50000x64, .f32⟩ : BufTy).Contents (Elt F)),
    binary main_v62 main_v64 main_v65 (addf : (⟨S50000x64, .f32⟩ : BufTy).Contents (Elt F) → (⟨S50000x64, .f32⟩ : BufTy).Contents (Elt F) → (⟨S50000x64, .f32⟩ : BufTy).Contents (Elt F)) ]

/-- The references segment 8 writes. -/
abbrev Ws8 : List (Ref sig .tc) :=
  [main_v51, main_v52, main_v53, main_cst_11, main_v54, main_v55, main_v56, main_v57, main_v58, main_v59, main_v60, main_v61, main_v62, main_v63, main_v64, main_v65]

/-- Segment 9: the 1 operations ending at the one that writes `main_v66`. -/
abbrev s9 : List (HloOp τ sig (Elt F)) :=
  [ binary main_v65 main_arg7 main_v66 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) ]

/-- The references segment 9 writes. -/
abbrev Ws9 : List (Ref sig .tc) :=
  [main_v66]

/-- Segment 10: the 16 operations ending at the one that writes `main_v79`. -/
abbrev s10 : List (HloOp τ sig (Elt F)) :=
  [ nullary main_c_12 (constantI S_ 32 0#32),
    unary main_c_12 main_v67 (broadcastInDim S850000 ![] bcast_S_S850000 : (⟨S_, .i32⟩ : BufTy).Contents (Elt F) → (⟨S850000, .i32⟩ : BufTy).Contents (Elt F)),
    binary main_v3 main_v67 main_v68 (cmpi .slt : (⟨S850000, .i32⟩ : BufTy).Contents (Elt F) → (⟨S850000, .i32⟩ : BufTy).Contents (Elt F) → (⟨S850000, .i1⟩ : BufTy).Contents (Elt F)),
    nullary main_c_13 (constantI S_ 32 50000#32),
    unary main_c_13 main_v69 (broadcastInDim S850000 ![] bcast_S_S850000 : (⟨S_, .i32⟩ : BufTy).Contents (Elt F) → (⟨S850000, .i32⟩ : BufTy).Contents (Elt F)),
    binary main_v3 main_v69 main_v70 (addi : (⟨S850000, .i32⟩ : BufTy).Contents (Elt F) → (⟨S850000, .i32⟩ : BufTy).Contents (Elt F) → (⟨S850000, .i32⟩ : BufTy).Contents (Elt F)),
    ternary main_v68 main_v70 main_v3 main_v71 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v71 main_v72 (broadcastInDim S850000x1 ![0] bcast_S850000_S850000x1_0 : (⟨S850000, .i32⟩ : BufTy).Contents (Elt F) → (⟨S850000x1, .i32⟩ : BufTy).Contents (Elt F)),
    binary main_v66 main_v72 main_v73 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    unary main_v28 main_v74 (broadcastInDim S850000x1 ![0] bcast_S850000_S850000x1_0 : (⟨S850000, .f32⟩ : BufTy).Contents (Elt F) → (⟨S850000x1, .f32⟩ : BufTy).Contents (Elt F)),
    unary main_v74 main_v75 (broadcastInDim S850000x64 ![0, 1] bcast_S850000x1_S850000x64_0_1 : (⟨S850000x1, .f32⟩ : BufTy).Contents (Elt F) → (⟨S850000x64, .f32⟩ : BufTy).Contents (Elt F)),
    binary main_v73 main_v75 main_v76 (mulf : (⟨S850000x64, .f32⟩ : BufTy).Contents (Elt F) → (⟨S850000x64, .f32⟩ : BufTy).Contents (Elt F) → (⟨S850000x64, .f32⟩ : BufTy).Contents (Elt F)),
    nullary main_cst_14 (constant S_ .f32 0x00000000#32),
    unary main_cst_14 main_v77 (broadcastInDim S50000x64 ![] bcast_S_S50000x64 : (⟨S_, .f32⟩ : BufTy).Contents (Elt F) → (⟨S50000x64, .f32⟩ : BufTy).Contents (Elt F)),
    unary main_v6 main_v78 (broadcastInDim S850000x1 ![0] bcast_S850000_S850000x1_0 : (⟨S850000, .i32⟩ : BufTy).Contents (Elt F) → (⟨S850000x1, .i32⟩ : BufTy).Contents (Elt F)),
    ternary main_v77 main_v78 main_v76 main_v79 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)) ]

/-- The references segment 10 writes. -/
abbrev Ws10 : List (Ref sig .tc) :=
  [main_c_12, main_v67, main_v68, main_c_13, main_v69, main_v70, main_v71, main_v72, main_v73, main_v74, main_v75, main_v76, main_cst_14, main_v77, main_v78, main_v79]

/-- Segment 11: the 6 operations ending at the one that writes `main_v83`. -/
abbrev s11 : List (HloOp τ sig (Elt F)) :=
  [ unary main_arg8 main_v80 (broadcastInDim S1x64 ![1] bcast_S64_S1x64_1 : (⟨S64, .f32⟩ : BufTy).Contents (Elt F) → (⟨S1x64, .f32⟩ : BufTy).Contents (Elt F)),
    unary main_v80 main_v81 (broadcastInDim S50000x64 ![0, 1] bcast_S1x64_S50000x64_0_1 : (⟨S1x64, .f32⟩ : BufTy).Contents (Elt F) → (⟨S50000x64, .f32⟩ : BufTy).Contents (Elt F)),
    binary main_v79 main_v81 main_v82 (addf : (⟨S50000x64, .f32⟩ : BufTy).Contents (Elt F) → (⟨S50000x64, .f32⟩ : BufTy).Contents (Elt F) → (⟨S50000x64, .f32⟩ : BufTy).Contents (Elt F)),
    TRef.nullary main_call2.cst (constant S_ .f32 0x00000000#32),
    TRef.unary main_call2.cst main_call2.v0 (broadcastInDim S50000x64 ![] bcast_S_S50000x64),
    TRef.binary (.of main_v82) main_call2.v0 main_call2.v1 maximumf ]

/-- The references segment 11 writes. -/
abbrev Ws11 : List (Ref sig .tc) :=
  [main_v80, main_v81, main_v82, main_call2_cst, main_call2_v0, main_v83]

/-- Segment 12: the 5 operations ending at the one that writes `main_v86`. -/
abbrev s12 : List (HloOp τ sig (Elt F)) :=
  [ nullary main_cst_15 (constant S_ .f32 0x00000000#32),
    binary main_v83 main_cst_15 main_v84 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    nullary main_cst_16 (constant S_ .f32 0x47435000#32),
    unary main_cst_16 main_v85 (broadcastInDim S64 ![] bcast_S_S64 : (⟨S_, .f32⟩ : BufTy).Contents (Elt F) → (⟨S64, .f32⟩ : BufTy).Contents (Elt F)),
    binary main_v84 main_v85 main_v86 (Host.divf : (⟨S64, .f32⟩ : BufTy).Contents (Elt F) → (⟨S64, .f32⟩ : BufTy).Contents (Elt F) → (⟨S64, .f32⟩ : BufTy).Contents (Elt F)) ]

/-- The references segment 12 writes. -/
abbrev Ws12 : List (Ref sig .tc) :=
  [main_cst_15, main_v84, main_cst_16, main_v85, main_v86]

/-- Segment 13: the 23 operations ending at the one that writes `main_v87`. -/
abbrev s13 : List (HloOp τ sig (Elt F)) :=
  [ nullary main_c_17 (constantI S_ 32 0#32),
    TRef.nullary main_call3.cst (constant S_ .f32 0x00000000#32),
    TRef.binary (.of main_v83) main_call3.cst main_call3.v0 (fun x v => Host.reduceAdd x v reducesTo_S50000x64_S64_d0 h_S_),
    TRef.unary main_call3.v0 main_call3.v1 (broadcastInDim S1x64 ![1] bcast_S64_S1x64_1),
    TRef.nullary main_call3.cst_0 (constant S_ .f32 0x47435000#32),
    TRef.unary main_call3.cst_0 main_call3.v2 (broadcastInDim S1x64 ![] bcast_S_S1x64),
    TRef.binary main_call3.v1 main_call3.v2 main_call3.v3 Host.divf,
    TRef.unary main_call3.v3 main_call3.v4 (broadcastInDim S50000x64 ![0, 1] bcast_S1x64_S50000x64_0_1),
    TRef.binary (.of main_v83) main_call3.v4 main_call3.v5 subf,
    TRef.binary main_call3.v5 main_call3.v5 main_call3.v6 mulf,
    TRef.unary (.of main_c_17) main_call3.v7 (sitofp .f32),
    TRef.nullary main_call3.cst_1 (constant S_ .f32 0x47435000#32),
    TRef.binary main_call3.cst_1 main_call3.v7 main_call3.v8 subf,
    TRef.nullary main_call3.cst_2 (constant S_ .f32 0x00000000#32),
    TRef.binary main_call3.v6 main_call3.cst_2 main_call3.v9 (fun x v => Host.reduceAdd x v reducesTo_S50000x64_S64_d0 h_S_),
    TRef.unary main_call3.v8 main_call3.v10 (broadcastInDim S64 ![] bcast_S_S64),
    TRef.binary main_call3.v9 main_call3.v10 main_call3.v11 Host.divf,
    TRef.nullary main_call3.cst_3 (constant S_ .f32 0x00000000#32),
    TRef.binary main_call3.v8 main_call3.cst_3 main_call3.v12 (cmpf .ogt),
    TRef.nullary main_call3.cst_4 (constant S_ .f32 0x7FC00000#32),
    TRef.unary main_call3.cst_4 main_call3.call0.v0 id,
    TRef.unary main_call3.call0.v0 main_call3.call0.v1 (broadcastInDim S64 ![] bcast_S_S64),
    TRef.ternary main_call3.v12 main_call3.v11 main_call3.call0.v1 main_call3.call0.v2 (fun p a b => select (broadcastInDim S64 ![] bcast_S_S64 p) a b) ]

/-- The references segment 13 writes. -/
abbrev Ws13 : List (Ref sig .tc) :=
  [main_c_17, main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_cst_3, main_call3_v12, main_call3_cst_4, main_call3_call0_v0, main_call3_call0_v1, main_v87]

/-- Segment 14: the 16 operations ending at the one that writes `main_v102`. -/
abbrev s14 : List (HloOp τ sig (Elt F)) :=
  [ unary main_v86 main_v88 (broadcastInDim S1x64 ![1] bcast_S64_S1x64_1 : (⟨S64, .f32⟩ : BufTy).Contents (Elt F) → (⟨S1x64, .f32⟩ : BufTy).Contents (Elt F)),
    unary main_v88 main_v89 (broadcastInDim S50000x64 ![0, 1] bcast_S1x64_S50000x64_0_1 : (⟨S1x64, .f32⟩ : BufTy).Contents (Elt F) → (⟨S50000x64, .f32⟩ : BufTy).Contents (Elt F)),
    binary main_v83 main_v89 main_v90 (subf : (⟨S50000x64, .f32⟩ : BufTy).Contents (Elt F) → (⟨S50000x64, .f32⟩ : BufTy).Contents (Elt F) → (⟨S50000x64, .f32⟩ : BufTy).Contents (Elt F)),
    nullary main_cst_18 (constant S_ .f32 0x3727C5AC#32),
    unary main_cst_18 main_v91 (broadcastInDim S64 ![] bcast_S_S64 : (⟨S_, .f32⟩ : BufTy).Contents (Elt F) → (⟨S64, .f32⟩ : BufTy).Contents (Elt F)),
    binary main_v87 main_v91 main_v92 (addf : (⟨S64, .f32⟩ : BufTy).Contents (Elt F) → (⟨S64, .f32⟩ : BufTy).Contents (Elt F) → (⟨S64, .f32⟩ : BufTy).Contents (Elt F)),
    unary main_v92 main_v93 (Host.rsqrt : (⟨S64, .f32⟩ : BufTy).Contents (Elt F) → (⟨S64, .f32⟩ : BufTy).Contents (Elt F)),
    unary main_v93 main_v94 (broadcastInDim S1x64 ![1] bcast_S64_S1x64_1 : (⟨S64, .f32⟩ : BufTy).Contents (Elt F) → (⟨S1x64, .f32⟩ : BufTy).Contents (Elt F)),
    unary main_v94 main_v95 (broadcastInDim S50000x64 ![0, 1] bcast_S1x64_S50000x64_0_1 : (⟨S1x64, .f32⟩ : BufTy).Contents (Elt F) → (⟨S50000x64, .f32⟩ : BufTy).Contents (Elt F)),
    binary main_v90 main_v95 main_v96 (mulf : (⟨S50000x64, .f32⟩ : BufTy).Contents (Elt F) → (⟨S50000x64, .f32⟩ : BufTy).Contents (Elt F) → (⟨S50000x64, .f32⟩ : BufTy).Contents (Elt F)),
    unary main_arg9 main_v97 (broadcastInDim S1x64 ![1] bcast_S64_S1x64_1 : (⟨S64, .f32⟩ : BufTy).Contents (Elt F) → (⟨S1x64, .f32⟩ : BufTy).Contents (Elt F)),
    unary main_v97 main_v98 (broadcastInDim S50000x64 ![0, 1] bcast_S1x64_S50000x64_0_1 : (⟨S1x64, .f32⟩ : BufTy).Contents (Elt F) → (⟨S50000x64, .f32⟩ : BufTy).Contents (Elt F)),
    binary main_v96 main_v98 main_v99 (mulf : (⟨S50000x64, .f32⟩ : BufTy).Contents (Elt F) → (⟨S50000x64, .f32⟩ : BufTy).Contents (Elt F) → (⟨S50000x64, .f32⟩ : BufTy).Contents (Elt F)),
    unary main_arg10 main_v100 (broadcastInDim S1x64 ![1] bcast_S64_S1x64_1 : (⟨S64, .f32⟩ : BufTy).Contents (Elt F) → (⟨S1x64, .f32⟩ : BufTy).Contents (Elt F)),
    unary main_v100 main_v101 (broadcastInDim S50000x64 ![0, 1] bcast_S1x64_S50000x64_0_1 : (⟨S1x64, .f32⟩ : BufTy).Contents (Elt F) → (⟨S50000x64, .f32⟩ : BufTy).Contents (Elt F)),
    binary main_v99 main_v101 main_v102 (addf : (⟨S50000x64, .f32⟩ : BufTy).Contents (Elt F) → (⟨S50000x64, .f32⟩ : BufTy).Contents (Elt F) → (⟨S50000x64, .f32⟩ : BufTy).Contents (Elt F)) ]

/-- The references segment 14 writes. -/
abbrev Ws14 : List (Ref sig .tc) :=
  [main_v88, main_v89, main_v90, main_cst_18, main_v91, main_v92, main_v93, main_v94, main_v95, main_v96, main_v97, main_v98, main_v99, main_v100, main_v101, main_v102]

/-- Segment 15: the 1 operations ending at the one that writes `main_v103`. -/
abbrev s15 : List (HloOp τ sig (Elt F)) :=
  [ binary main_v102 main_arg11 main_v103 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) ]

/-- The references segment 15 writes. -/
abbrev Ws15 : List (Ref sig .tc) :=
  [main_v103]

/-- Segment 16: the 16 operations ending at the one that writes `main_v116`. -/
abbrev s16 : List (HloOp τ sig (Elt F)) :=
  [ nullary main_c_19 (constantI S_ 32 0#32),
    unary main_c_19 main_v104 (broadcastInDim S850000 ![] bcast_S_S850000 : (⟨S_, .i32⟩ : BufTy).Contents (Elt F) → (⟨S850000, .i32⟩ : BufTy).Contents (Elt F)),
    binary main_v3 main_v104 main_v105 (cmpi .slt : (⟨S850000, .i32⟩ : BufTy).Contents (Elt F) → (⟨S850000, .i32⟩ : BufTy).Contents (Elt F) → (⟨S850000, .i1⟩ : BufTy).Contents (Elt F)),
    nullary main_c_20 (constantI S_ 32 50000#32),
    unary main_c_20 main_v106 (broadcastInDim S850000 ![] bcast_S_S850000 : (⟨S_, .i32⟩ : BufTy).Contents (Elt F) → (⟨S850000, .i32⟩ : BufTy).Contents (Elt F)),
    binary main_v3 main_v106 main_v107 (addi : (⟨S850000, .i32⟩ : BufTy).Contents (Elt F) → (⟨S850000, .i32⟩ : BufTy).Contents (Elt F) → (⟨S850000, .i32⟩ : BufTy).Contents (Elt F)),
    ternary main_v105 main_v107 main_v3 main_v108 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v108 main_v109 (broadcastInDim S850000x1 ![0] bcast_S850000_S850000x1_0 : (⟨S850000, .i32⟩ : BufTy).Contents (Elt F) → (⟨S850000x1, .i32⟩ : BufTy).Contents (Elt F)),
    binary main_v103 main_v109 main_v110 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    unary main_v28 main_v111 (broadcastInDim S850000x1 ![0] bcast_S850000_S850000x1_0 : (⟨S850000, .f32⟩ : BufTy).Contents (Elt F) → (⟨S850000x1, .f32⟩ : BufTy).Contents (Elt F)),
    unary main_v111 main_v112 (broadcastInDim S850000x64 ![0, 1] bcast_S850000x1_S850000x64_0_1 : (⟨S850000x1, .f32⟩ : BufTy).Contents (Elt F) → (⟨S850000x64, .f32⟩ : BufTy).Contents (Elt F)),
    binary main_v110 main_v112 main_v113 (mulf : (⟨S850000x64, .f32⟩ : BufTy).Contents (Elt F) → (⟨S850000x64, .f32⟩ : BufTy).Contents (Elt F) → (⟨S850000x64, .f32⟩ : BufTy).Contents (Elt F)),
    nullary main_cst_21 (constant S_ .f32 0x00000000#32),
    unary main_cst_21 main_v114 (broadcastInDim S50000x64 ![] bcast_S_S50000x64 : (⟨S_, .f32⟩ : BufTy).Contents (Elt F) → (⟨S50000x64, .f32⟩ : BufTy).Contents (Elt F)),
    unary main_v6 main_v115 (broadcastInDim S850000x1 ![0] bcast_S850000_S850000x1_0 : (⟨S850000, .i32⟩ : BufTy).Contents (Elt F) → (⟨S850000x1, .i32⟩ : BufTy).Contents (Elt F)),
    ternary main_v114 main_v115 main_v113 main_v116 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)) ]

/-- The references segment 16 writes. -/
abbrev Ws16 : List (Ref sig .tc) :=
  [main_c_19, main_v104, main_v105, main_c_20, main_v106, main_v107, main_v108, main_v109, main_v110, main_v111, main_v112, main_v113, main_cst_21, main_v114, main_v115, main_v116]

/-- Segment 17: the 6 operations ending at the one that writes `main_v120`. -/
abbrev s17 : List (HloOp τ sig (Elt F)) :=
  [ unary main_arg12 main_v117 (broadcastInDim S1x64 ![1] bcast_S64_S1x64_1 : (⟨S64, .f32⟩ : BufTy).Contents (Elt F) → (⟨S1x64, .f32⟩ : BufTy).Contents (Elt F)),
    unary main_v117 main_v118 (broadcastInDim S50000x64 ![0, 1] bcast_S1x64_S50000x64_0_1 : (⟨S1x64, .f32⟩ : BufTy).Contents (Elt F) → (⟨S50000x64, .f32⟩ : BufTy).Contents (Elt F)),
    binary main_v116 main_v118 main_v119 (addf : (⟨S50000x64, .f32⟩ : BufTy).Contents (Elt F) → (⟨S50000x64, .f32⟩ : BufTy).Contents (Elt F) → (⟨S50000x64, .f32⟩ : BufTy).Contents (Elt F)),
    TRef.nullary main_call4.cst (constant S_ .f32 0x00000000#32),
    TRef.unary main_call4.cst main_call4.v0 (broadcastInDim S50000x64 ![] bcast_S_S50000x64),
    TRef.binary (.of main_v119) main_call4.v0 main_call4.v1 maximumf ]

/-- The references segment 17 writes. -/
abbrev Ws17 : List (Ref sig .tc) :=
  [main_v117, main_v118, main_v119, main_call4_cst, main_call4_v0, main_v120]

/-- Segment 18: the 5 operations ending at the one that writes `main_v123`. -/
abbrev s18 : List (HloOp τ sig (Elt F)) :=
  [ nullary main_cst_22 (constant S_ .f32 0x00000000#32),
    binary main_v120 main_cst_22 main_v121 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    nullary main_cst_23 (constant S_ .f32 0x47435000#32),
    unary main_cst_23 main_v122 (broadcastInDim S64 ![] bcast_S_S64 : (⟨S_, .f32⟩ : BufTy).Contents (Elt F) → (⟨S64, .f32⟩ : BufTy).Contents (Elt F)),
    binary main_v121 main_v122 main_v123 (Host.divf : (⟨S64, .f32⟩ : BufTy).Contents (Elt F) → (⟨S64, .f32⟩ : BufTy).Contents (Elt F) → (⟨S64, .f32⟩ : BufTy).Contents (Elt F)) ]

/-- The references segment 18 writes. -/
abbrev Ws18 : List (Ref sig .tc) :=
  [main_cst_22, main_v121, main_cst_23, main_v122, main_v123]

/-- Segment 19: the 23 operations ending at the one that writes `main_v124`. -/
abbrev s19 : List (HloOp τ sig (Elt F)) :=
  [ nullary main_c_24 (constantI S_ 32 0#32),
    TRef.nullary main_call5.cst (constant S_ .f32 0x00000000#32),
    TRef.binary (.of main_v120) main_call5.cst main_call5.v0 (fun x v => Host.reduceAdd x v reducesTo_S50000x64_S64_d0 h_S_),
    TRef.unary main_call5.v0 main_call5.v1 (broadcastInDim S1x64 ![1] bcast_S64_S1x64_1),
    TRef.nullary main_call5.cst_0 (constant S_ .f32 0x47435000#32),
    TRef.unary main_call5.cst_0 main_call5.v2 (broadcastInDim S1x64 ![] bcast_S_S1x64),
    TRef.binary main_call5.v1 main_call5.v2 main_call5.v3 Host.divf,
    TRef.unary main_call5.v3 main_call5.v4 (broadcastInDim S50000x64 ![0, 1] bcast_S1x64_S50000x64_0_1),
    TRef.binary (.of main_v120) main_call5.v4 main_call5.v5 subf,
    TRef.binary main_call5.v5 main_call5.v5 main_call5.v6 mulf,
    TRef.unary (.of main_c_24) main_call5.v7 (sitofp .f32),
    TRef.nullary main_call5.cst_1 (constant S_ .f32 0x47435000#32),
    TRef.binary main_call5.cst_1 main_call5.v7 main_call5.v8 subf,
    TRef.nullary main_call5.cst_2 (constant S_ .f32 0x00000000#32),
    TRef.binary main_call5.v6 main_call5.cst_2 main_call5.v9 (fun x v => Host.reduceAdd x v reducesTo_S50000x64_S64_d0 h_S_),
    TRef.unary main_call5.v8 main_call5.v10 (broadcastInDim S64 ![] bcast_S_S64),
    TRef.binary main_call5.v9 main_call5.v10 main_call5.v11 Host.divf,
    TRef.nullary main_call5.cst_3 (constant S_ .f32 0x00000000#32),
    TRef.binary main_call5.v8 main_call5.cst_3 main_call5.v12 (cmpf .ogt),
    TRef.nullary main_call5.cst_4 (constant S_ .f32 0x7FC00000#32),
    TRef.unary main_call5.cst_4 main_call5.call0.v0 id,
    TRef.unary main_call5.call0.v0 main_call5.call0.v1 (broadcastInDim S64 ![] bcast_S_S64),
    TRef.ternary main_call5.v12 main_call5.v11 main_call5.call0.v1 main_call5.call0.v2 (fun p a b => select (broadcastInDim S64 ![] bcast_S_S64 p) a b) ]

/-- The references segment 19 writes. -/
abbrev Ws19 : List (Ref sig .tc) :=
  [main_c_24, main_call5_cst, main_call5_v0, main_call5_v1, main_call5_cst_0, main_call5_v2, main_call5_v3, main_call5_v4, main_call5_v5, main_call5_v6, main_call5_v7, main_call5_cst_1, main_call5_v8, main_call5_cst_2, main_call5_v9, main_call5_v10, main_call5_v11, main_call5_cst_3, main_call5_v12, main_call5_cst_4, main_call5_call0_v0, main_call5_call0_v1, main_v124]

/-- Segment 20: the 16 operations ending at the one that writes `main_v139`. -/
abbrev s20 : List (HloOp τ sig (Elt F)) :=
  [ unary main_v123 main_v125 (broadcastInDim S1x64 ![1] bcast_S64_S1x64_1 : (⟨S64, .f32⟩ : BufTy).Contents (Elt F) → (⟨S1x64, .f32⟩ : BufTy).Contents (Elt F)),
    unary main_v125 main_v126 (broadcastInDim S50000x64 ![0, 1] bcast_S1x64_S50000x64_0_1 : (⟨S1x64, .f32⟩ : BufTy).Contents (Elt F) → (⟨S50000x64, .f32⟩ : BufTy).Contents (Elt F)),
    binary main_v120 main_v126 main_v127 (subf : (⟨S50000x64, .f32⟩ : BufTy).Contents (Elt F) → (⟨S50000x64, .f32⟩ : BufTy).Contents (Elt F) → (⟨S50000x64, .f32⟩ : BufTy).Contents (Elt F)),
    nullary main_cst_25 (constant S_ .f32 0x3727C5AC#32),
    unary main_cst_25 main_v128 (broadcastInDim S64 ![] bcast_S_S64 : (⟨S_, .f32⟩ : BufTy).Contents (Elt F) → (⟨S64, .f32⟩ : BufTy).Contents (Elt F)),
    binary main_v124 main_v128 main_v129 (addf : (⟨S64, .f32⟩ : BufTy).Contents (Elt F) → (⟨S64, .f32⟩ : BufTy).Contents (Elt F) → (⟨S64, .f32⟩ : BufTy).Contents (Elt F)),
    unary main_v129 main_v130 (Host.rsqrt : (⟨S64, .f32⟩ : BufTy).Contents (Elt F) → (⟨S64, .f32⟩ : BufTy).Contents (Elt F)),
    unary main_v130 main_v131 (broadcastInDim S1x64 ![1] bcast_S64_S1x64_1 : (⟨S64, .f32⟩ : BufTy).Contents (Elt F) → (⟨S1x64, .f32⟩ : BufTy).Contents (Elt F)),
    unary main_v131 main_v132 (broadcastInDim S50000x64 ![0, 1] bcast_S1x64_S50000x64_0_1 : (⟨S1x64, .f32⟩ : BufTy).Contents (Elt F) → (⟨S50000x64, .f32⟩ : BufTy).Contents (Elt F)),
    binary main_v127 main_v132 main_v133 (mulf : (⟨S50000x64, .f32⟩ : BufTy).Contents (Elt F) → (⟨S50000x64, .f32⟩ : BufTy).Contents (Elt F) → (⟨S50000x64, .f32⟩ : BufTy).Contents (Elt F)),
    unary main_arg13 main_v134 (broadcastInDim S1x64 ![1] bcast_S64_S1x64_1 : (⟨S64, .f32⟩ : BufTy).Contents (Elt F) → (⟨S1x64, .f32⟩ : BufTy).Contents (Elt F)),
    unary main_v134 main_v135 (broadcastInDim S50000x64 ![0, 1] bcast_S1x64_S50000x64_0_1 : (⟨S1x64, .f32⟩ : BufTy).Contents (Elt F) → (⟨S50000x64, .f32⟩ : BufTy).Contents (Elt F)),
    binary main_v133 main_v135 main_v136 (mulf : (⟨S50000x64, .f32⟩ : BufTy).Contents (Elt F) → (⟨S50000x64, .f32⟩ : BufTy).Contents (Elt F) → (⟨S50000x64, .f32⟩ : BufTy).Contents (Elt F)),
    unary main_arg14 main_v137 (broadcastInDim S1x64 ![1] bcast_S64_S1x64_1 : (⟨S64, .f32⟩ : BufTy).Contents (Elt F) → (⟨S1x64, .f32⟩ : BufTy).Contents (Elt F)),
    unary main_v137 main_v138 (broadcastInDim S50000x64 ![0, 1] bcast_S1x64_S50000x64_0_1 : (⟨S1x64, .f32⟩ : BufTy).Contents (Elt F) → (⟨S50000x64, .f32⟩ : BufTy).Contents (Elt F)),
    binary main_v136 main_v138 main_v139 (addf : (⟨S50000x64, .f32⟩ : BufTy).Contents (Elt F) → (⟨S50000x64, .f32⟩ : BufTy).Contents (Elt F) → (⟨S50000x64, .f32⟩ : BufTy).Contents (Elt F)) ]

/-- The references segment 20 writes. -/
abbrev Ws20 : List (Ref sig .tc) :=
  [main_v125, main_v126, main_v127, main_cst_25, main_v128, main_v129, main_v130, main_v131, main_v132, main_v133, main_v134, main_v135, main_v136, main_v137, main_v138, main_v139]

/-- Segment 21: the 9 operations ending at the one that writes `main_v145`. -/
abbrev s21 : List (HloOp τ sig (Elt F)) :=
  [ nullary main_cst_26 (constant S_ .f32 0x3F800000#32),
    unary main_cst_26 main_v140 (broadcastInDim S50000 ![] bcast_S_S50000 : (⟨S_, .f32⟩ : BufTy).Contents (Elt F) → (⟨S50000, .f32⟩ : BufTy).Contents (Elt F)),
    nullary main_cst_27 (constant S_ .f32 0x00000000#32),
    unary main_cst_27 main_v141 (broadcastInDim S256 ![] bcast_S_S256 : (⟨S_, .f32⟩ : BufTy).Contents (Elt F) → (⟨S256, .f32⟩ : BufTy).Contents (Elt F)),
    unary main_arg2 main_v142 (broadcastInDim S50000x1 ![0] bcast_S50000_S50000x1_0 : (⟨S50000, .i32⟩ : BufTy).Contents (Elt F) → (⟨S50000x1, .i32⟩ : BufTy).Contents (Elt F)),
    ternary main_v141 main_v142 main_v140 main_v143 ((fun x i u => Host.scatterAdd scatter_S256_S50000x1_S50000_n_0_0_1 x i u) : (⟨S256, .f32⟩ : BufTy).Contents (Elt F) → (⟨S50000x1, .i32⟩ : BufTy).Contents (Elt F) → (⟨S50000, .f32⟩ : BufTy).Contents (Elt F) → (⟨S256, .f32⟩ : BufTy).Contents (Elt F)),
    nullary main_cst_28 (constant S_ .f32 0x3F800000#32),
    unary main_cst_28 main_v144 (broadcastInDim S256 ![] bcast_S_S256 : (⟨S_, .f32⟩ : BufTy).Contents (Elt F) → (⟨S256, .f32⟩ : BufTy).Contents (Elt F)),
    binary main_v143 main_v144 main_v145 (maximumf : (⟨S256, .f32⟩ : BufTy).Contents (Elt F) → (⟨S256, .f32⟩ : BufTy).Contents (Elt F) → (⟨S256, .f32⟩ : BufTy).Contents (Elt F)) ]

/-- The references segment 21 writes. -/
abbrev Ws21 : List (Ref sig .tc) :=
  [main_cst_26, main_v140, main_cst_27, main_v141, main_v142, main_v143, main_cst_28, main_v144, main_v145]

/-- Segment 22: the 7 operations ending at the one that writes `main_v151`. -/
abbrev s22 : List (HloOp τ sig (Elt F)) :=
  [ nullary main_cst_29 (constant S_ .f32 0x00000000#32),
    unary main_cst_29 main_v146 (broadcastInDim S256x64 ![] bcast_S_S256x64 : (⟨S_, .f32⟩ : BufTy).Contents (Elt F) → (⟨S256x64, .f32⟩ : BufTy).Contents (Elt F)),
    unary main_arg2 main_v147 (broadcastInDim S50000x1 ![0] bcast_S50000_S50000x1_0 : (⟨S50000, .i32⟩ : BufTy).Contents (Elt F) → (⟨S50000x1, .i32⟩ : BufTy).Contents (Elt F)),
    ternary main_v146 main_v147 main_v65 main_v148 ((fun x i u => Host.scatterAdd scatter_S256x64_S50000x1_S50000x64_1_0_0_1 x i u) : (⟨S256x64, .f32⟩ : BufTy).Contents (Elt F) → (⟨S50000x1, .i32⟩ : BufTy).Contents (Elt F) → (⟨S50000x64, .f32⟩ : BufTy).Contents (Elt F) → (⟨S256x64, .f32⟩ : BufTy).Contents (Elt F)),
    unary main_v145 main_v149 (broadcastInDim S256x1 ![0] bcast_S256_S256x1_0 : (⟨S256, .f32⟩ : BufTy).Contents (Elt F) → (⟨S256x1, .f32⟩ : BufTy).Contents (Elt F)),
    unary main_v149 main_v150 (broadcastInDim S256x64 ![0, 1] bcast_S256x1_S256x64_0_1 : (⟨S256x1, .f32⟩ : BufTy).Contents (Elt F) → (⟨S256x64, .f32⟩ : BufTy).Contents (Elt F)),
    binary main_v148 main_v150 main_v151 (Host.divf : (⟨S256x64, .f32⟩ : BufTy).Contents (Elt F) → (⟨S256x64, .f32⟩ : BufTy).Contents (Elt F) → (⟨S256x64, .f32⟩ : BufTy).Contents (Elt F)) ]

/-- The references segment 22 writes. -/
abbrev Ws22 : List (Ref sig .tc) :=
  [main_cst_29, main_v146, main_v147, main_v148, main_v149, main_v150, main_v151]

/-- Segment 23: the 7 operations ending at the one that writes `main_v157`. -/
abbrev s23 : List (HloOp τ sig (Elt F)) :=
  [ nullary main_cst_30 (constant S_ .f32 0x00000000#32),
    unary main_cst_30 main_v152 (broadcastInDim S256x64 ![] bcast_S_S256x64 : (⟨S_, .f32⟩ : BufTy).Contents (Elt F) → (⟨S256x64, .f32⟩ : BufTy).Contents (Elt F)),
    unary main_arg2 main_v153 (broadcastInDim S50000x1 ![0] bcast_S50000_S50000x1_0 : (⟨S50000, .i32⟩ : BufTy).Contents (Elt F) → (⟨S50000x1, .i32⟩ : BufTy).Contents (Elt F)),
    ternary main_v152 main_v153 main_v102 main_v154 ((fun x i u => Host.scatterAdd scatter_S256x64_S50000x1_S50000x64_1_0_0_1 x i u) : (⟨S256x64, .f32⟩ : BufTy).Contents (Elt F) → (⟨S50000x1, .i32⟩ : BufTy).Contents (Elt F) → (⟨S50000x64, .f32⟩ : BufTy).Contents (Elt F) → (⟨S256x64, .f32⟩ : BufTy).Contents (Elt F)),
    unary main_v145 main_v155 (broadcastInDim S256x1 ![0] bcast_S256_S256x1_0 : (⟨S256, .f32⟩ : BufTy).Contents (Elt F) → (⟨S256x1, .f32⟩ : BufTy).Contents (Elt F)),
    unary main_v155 main_v156 (broadcastInDim S256x64 ![0, 1] bcast_S256x1_S256x64_0_1 : (⟨S256x1, .f32⟩ : BufTy).Contents (Elt F) → (⟨S256x64, .f32⟩ : BufTy).Contents (Elt F)),
    binary main_v154 main_v156 main_v157 (Host.divf : (⟨S256x64, .f32⟩ : BufTy).Contents (Elt F) → (⟨S256x64, .f32⟩ : BufTy).Contents (Elt F) → (⟨S256x64, .f32⟩ : BufTy).Contents (Elt F)) ]

/-- The references segment 23 writes. -/
abbrev Ws23 : List (Ref sig .tc) :=
  [main_cst_30, main_v152, main_v153, main_v154, main_v155, main_v156, main_v157]

/-- Segment 24: the 7 operations ending at the one that writes `main_v163`. -/
abbrev s24 : List (HloOp τ sig (Elt F)) :=
  [ nullary main_cst_31 (constant S_ .f32 0x00000000#32),
    unary main_cst_31 main_v158 (broadcastInDim S256x64 ![] bcast_S_S256x64 : (⟨S_, .f32⟩ : BufTy).Contents (Elt F) → (⟨S256x64, .f32⟩ : BufTy).Contents (Elt F)),
    unary main_arg2 main_v159 (broadcastInDim S50000x1 ![0] bcast_S50000_S50000x1_0 : (⟨S50000, .i32⟩ : BufTy).Contents (Elt F) → (⟨S50000x1, .i32⟩ : BufTy).Contents (Elt F)),
    ternary main_v158 main_v159 main_v139 main_v160 ((fun x i u => Host.scatterAdd scatter_S256x64_S50000x1_S50000x64_1_0_0_1 x i u) : (⟨S256x64, .f32⟩ : BufTy).Contents (Elt F) → (⟨S50000x1, .i32⟩ : BufTy).Contents (Elt F) → (⟨S50000x64, .f32⟩ : BufTy).Contents (Elt F) → (⟨S256x64, .f32⟩ : BufTy).Contents (Elt F)),
    unary main_v145 main_v161 (broadcastInDim S256x1 ![0] bcast_S256_S256x1_0 : (⟨S256, .f32⟩ : BufTy).Contents (Elt F) → (⟨S256x1, .f32⟩ : BufTy).Contents (Elt F)),
    unary main_v161 main_v162 (broadcastInDim S256x64 ![0, 1] bcast_S256x1_S256x64_0_1 : (⟨S256x1, .f32⟩ : BufTy).Contents (Elt F) → (⟨S256x64, .f32⟩ : BufTy).Contents (Elt F)),
    binary main_v160 main_v162 main_v163 (Host.divf : (⟨S256x64, .f32⟩ : BufTy).Contents (Elt F) → (⟨S256x64, .f32⟩ : BufTy).Contents (Elt F) → (⟨S256x64, .f32⟩ : BufTy).Contents (Elt F)) ]

/-- The references segment 24 writes. -/
abbrev Ws24 : List (Ref sig .tc) :=
  [main_cst_31, main_v158, main_v159, main_v160, main_v161, main_v162, main_v163]

/-- Segment 25: the 1 operations ending at the one that writes `main_v164`. -/
abbrev s25 : List (HloOp τ sig (Elt F)) :=
  [ nary ![main_v65, main_v102, main_v139] main_v164 (fun u => concatenate S50000x192 1 [⟨S50000x64, u 0⟩, ⟨S50000x64, u 1⟩, ⟨S50000x64, u 2⟩] concatenates_S50000x64_S50000x64_S50000x64_S50000x192_d1) ]

/-- The references segment 25 writes. -/
abbrev Ws25 : List (Ref sig .tc) :=
  [main_v164]

/-- Segment 26: the 1 operations ending at the one that writes `main_v165`. -/
abbrev s26 : List (HloOp τ sig (Elt F)) :=
  [ nary ![main_v151, main_v157, main_v163] main_v165 (fun u => concatenate S256x192 1 [⟨S256x64, u 0⟩, ⟨S256x64, u 1⟩, ⟨S256x64, u 2⟩] concatenates_S256x64_S256x64_S256x64_S256x192_d1) ]

/-- The references segment 26 writes. -/
abbrev Ws26 : List (Ref sig .tc) :=
  [main_v165]

/-- Segment 27: the 10 operations ending at the one that writes `main_v170`. -/
abbrev s27 : List (HloOp τ sig (Elt F)) :=
  [ TRef.binary (.of main_v164) (.of main_v164) main_call6.v0 mulf,
    TRef.nullary main_call6.cst (constant S_ .f32 0x00000000#32),
    TRef.binary main_call6.v0 main_call6.cst main_call6.v1 (fun x v => Host.reduceAdd x v reducesTo_S50000x192_S50000_d1 h_S_),
    TRef.unary main_call6.v1 main_call6.v2 (broadcastInDim S50000x1 ![0] bcast_S50000_S50000x1_0),
    TRef.unary main_call6.v2 main_call6.v3 Host.sqrt,
    nullary main_cst_32 (constant S_ .f32 0x2B8CBCCC#32),
    unary main_cst_32 main_v167 (broadcastInDim S50000x1 ![] bcast_S_S50000x1 : (⟨S_, .f32⟩ : BufTy).Contents (Elt F) → (⟨S50000x1, .f32⟩ : BufTy).Contents (Elt F)),
    binary main_v166 main_v167 main_v168 (maximumf : (⟨S50000x1, .f32⟩ : BufTy).Contents (Elt F) → (⟨S50000x1, .f32⟩ : BufTy).Contents (Elt F) → (⟨S50000x1, .f32⟩ : BufTy).Contents (Elt F)),
    unary main_v168 main_v169 (broadcastInDim S50000x192 ![0, 1] bcast_S50000x1_S50000x192_0_1 : (⟨S50000x1, .f32⟩ : BufTy).Contents (Elt F) → (⟨S50000x192, .f32⟩ : BufTy).Contents (Elt F)),
    binary main_v164 main_v169 main_v170 (Host.divf : (⟨S50000x192, .f32⟩ : BufTy).Contents (Elt F) → (⟨S50000x192, .f32⟩ : BufTy).Contents (Elt F) → (⟨S50000x192, .f32⟩ : BufTy).Contents (Elt F)) ]

/-- The references segment 27 writes. -/
abbrev Ws27 : List (Ref sig .tc) :=
  [main_call6_v0, main_call6_cst, main_call6_v1, main_call6_v2, main_v166, main_cst_32, main_v167, main_v168, main_v169, main_v170]

/-- Segment 28: the 10 operations ending at the one that writes `main_v175`. -/
abbrev s28 : List (HloOp τ sig (Elt F)) :=
  [ TRef.binary (.of main_v165) (.of main_v165) main_call7.v0 mulf,
    TRef.nullary main_call7.cst (constant S_ .f32 0x00000000#32),
    TRef.binary main_call7.v0 main_call7.cst main_call7.v1 (fun x v => Host.reduceAdd x v reducesTo_S256x192_S256_d1 h_S_),
    TRef.unary main_call7.v1 main_call7.v2 (broadcastInDim S256x1 ![0] bcast_S256_S256x1_0),
    TRef.unary main_call7.v2 main_call7.v3 Host.sqrt,
    nullary main_cst_33 (constant S_ .f32 0x2B8CBCCC#32),
    unary main_cst_33 main_v172 (broadcastInDim S256x1 ![] bcast_S_S256x1 : (⟨S_, .f32⟩ : BufTy).Contents (Elt F) → (⟨S256x1, .f32⟩ : BufTy).Contents (Elt F)),
    binary main_v171 main_v172 main_v173 (maximumf : (⟨S256x1, .f32⟩ : BufTy).Contents (Elt F) → (⟨S256x1, .f32⟩ : BufTy).Contents (Elt F) → (⟨S256x1, .f32⟩ : BufTy).Contents (Elt F)),
    unary main_v173 main_v174 (broadcastInDim S256x192 ![0, 1] bcast_S256x1_S256x192_0_1 : (⟨S256x1, .f32⟩ : BufTy).Contents (Elt F) → (⟨S256x192, .f32⟩ : BufTy).Contents (Elt F)),
    binary main_v165 main_v174 main_v175 (Host.divf : (⟨S256x192, .f32⟩ : BufTy).Contents (Elt F) → (⟨S256x192, .f32⟩ : BufTy).Contents (Elt F) → (⟨S256x192, .f32⟩ : BufTy).Contents (Elt F)) ]

/-- The references segment 28 writes. -/
abbrev Ws28 : List (Ref sig .tc) :=
  [main_call7_v0, main_call7_cst, main_call7_v1, main_call7_v2, main_v171, main_cst_33, main_v172, main_v173, main_v174, main_v175]

end Cert.ReferenceIdeal.RefRun

end
-- ==== Proof.RefRunLocal.lean ====
import proofs.«100384_j8693013807615_2_alg».proof.Proof.RefRunSegs
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

/-! ## Reading one stretch of a straight line

A straight line of operations `pre ++ (s ++ post)`: a buffer that `post` does not write holds, at the end, what it held
after `s`; and a buffer that `s ++ post` does not write holds what it held after `pre`. So when every buffer is written
once, the value a stretch `s` computes is a function of the END values of the buffers it reads. -/

section Generic

variable {τ : Topo} {sig : RefSig} {Val : EltTy → Type}

/-- The operations of two lines write what the two lists of references hold. -/
theorem writes_append {l₁ l₂ : List (HloOp τ sig Val)} {W₁ W₂ : List (Ref sig .tc)}
    (h₁ : l₁.Forall fun op => op.writes ⊆ (W₁.map (Proc.devRef (τ := τ) .tc)).toFinset)
    (h₂ : l₂.Forall fun op => op.writes ⊆ (W₂.map (Proc.devRef (τ := τ) .tc)).toFinset) :
    (l₁ ++ l₂).Forall fun op => op.writes ⊆ ((W₁ ++ W₂).map (Proc.devRef (τ := τ) .tc)).toFinset := by
  rw [List.forall_iff_forall_mem] at h₁ h₂ ⊢
  intro op hop
  rcases List.mem_append.mp hop with h | h
  · refine (h₁ op h).trans fun b hb => ?_
    simp only [List.map_append, List.toFinset_append, Finset.mem_union]
    exact Or.inl hb
  · refine (h₂ op h).trans fun b hb => ?_
    simp only [List.map_append, List.toFinset_append, Finset.mem_union]
    exact Or.inr hb

/-- A buffer the rest of the line does not write holds at the end what it held after the line's beginning. -/
theorem after_pre {pre rest : List (HloOp τ sig Val)} {Wr : List (Ref sig .tc)}
    (hr : rest.Forall fun op => op.writes ⊆ (Wr.map (Proc.devRef (τ := τ) .tc)).toFinset)
    (V : Valuation τ sig Val) {x : Ref sig .tc} (hx : x ∉ Wr) :
    after (pre ++ rest) V (Proc.devRef .tc x) = after pre V (Proc.devRef .tc x) := by
  rw [after_append, after_of_writes_sub rest _ hr hx]

/-- A buffer the line's end does not write holds at the end what it held after the stretch before that end. -/
theorem after_mid {pre s post : List (HloOp τ sig Val)} {Wp : List (Ref sig .tc)}
    (hp : post.Forall fun op => op.writes ⊆ (Wp.map (Proc.devRef (τ := τ) .tc)).toFinset)
    (V : Valuation τ sig Val) {y : Ref sig .tc} (hy : y ∉ Wp) :
    after (pre ++ (s ++ post)) V (Proc.devRef .tc y) = after s (after pre V) (Proc.devRef .tc y) := by
  rw [after_append, after_append, after_of_writes_sub post _ hp hy]

end Generic

variable {F : FTy → Type} [FloatOps F]

/-! ## The segments' ends and beginnings

`postJ` is what follows segment `J`, `preJ` what precedes it: @main's operations are `preJ ++ (sJ ++ postJ)` for each `J`. -/

abbrev post28 : List (HloOp τ sig (Elt F)) := []
abbrev post27 : List (HloOp τ sig (Elt F)) := s28 ++ post28
abbrev post26 : List (HloOp τ sig (Elt F)) := s27 ++ post27
abbrev post25 : List (HloOp τ sig (Elt F)) := s26 ++ post26
abbrev post24 : List (HloOp τ sig (Elt F)) := s25 ++ post25
abbrev post23 : List (HloOp τ sig (Elt F)) := s24 ++ post24
abbrev post22 : List (HloOp τ sig (Elt F)) := s23 ++ post23
abbrev post21 : List (HloOp τ sig (Elt F)) := s22 ++ post22
abbrev post20 : List (HloOp τ sig (Elt F)) := s21 ++ post21
abbrev post19 : List (HloOp τ sig (Elt F)) := s20 ++ post20
abbrev post18 : List (HloOp τ sig (Elt F)) := s19 ++ post19
abbrev post17 : List (HloOp τ sig (Elt F)) := s18 ++ post18
abbrev post16 : List (HloOp τ sig (Elt F)) := s17 ++ post17
abbrev post15 : List (HloOp τ sig (Elt F)) := s16 ++ post16
abbrev post14 : List (HloOp τ sig (Elt F)) := s15 ++ post15
abbrev post13 : List (HloOp τ sig (Elt F)) := s14 ++ post14
abbrev post12 : List (HloOp τ sig (Elt F)) := s13 ++ post13
abbrev post11 : List (HloOp τ sig (Elt F)) := s12 ++ post12
abbrev post10 : List (HloOp τ sig (Elt F)) := s11 ++ post11
abbrev post9 : List (HloOp τ sig (Elt F)) := s10 ++ post10
abbrev post8 : List (HloOp τ sig (Elt F)) := s9 ++ post9
abbrev post7 : List (HloOp τ sig (Elt F)) := s8 ++ post8
abbrev post6 : List (HloOp τ sig (Elt F)) := s7 ++ post7
abbrev post5 : List (HloOp τ sig (Elt F)) := s6 ++ post6
abbrev post4 : List (HloOp τ sig (Elt F)) := s5 ++ post5
abbrev post3 : List (HloOp τ sig (Elt F)) := s4 ++ post4
abbrev post2 : List (HloOp τ sig (Elt F)) := s3 ++ post3
abbrev post1 : List (HloOp τ sig (Elt F)) := s2 ++ post2

abbrev pre1 : List (HloOp τ sig (Elt F)) := []
abbrev pre2 : List (HloOp τ sig (Elt F)) := pre1 ++ s1
abbrev pre3 : List (HloOp τ sig (Elt F)) := pre2 ++ s2
abbrev pre4 : List (HloOp τ sig (Elt F)) := pre3 ++ s3
abbrev pre5 : List (HloOp τ sig (Elt F)) := pre4 ++ s4
abbrev pre6 : List (HloOp τ sig (Elt F)) := pre5 ++ s5
abbrev pre7 : List (HloOp τ sig (Elt F)) := pre6 ++ s6
abbrev pre8 : List (HloOp τ sig (Elt F)) := pre7 ++ s7
abbrev pre9 : List (HloOp τ sig (Elt F)) := pre8 ++ s8
abbrev pre10 : List (HloOp τ sig (Elt F)) := pre9 ++ s9
abbrev pre11 : List (HloOp τ sig (Elt F)) := pre10 ++ s10
abbrev pre12 : List (HloOp τ sig (Elt F)) := pre11 ++ s11
abbrev pre13 : List (HloOp τ sig (Elt F)) := pre12 ++ s12
abbrev pre14 : List (HloOp τ sig (Elt F)) := pre13 ++ s13
abbrev pre15 : List (HloOp τ sig (Elt F)) := pre14 ++ s14
abbrev pre16 : List (HloOp τ sig (Elt F)) := pre15 ++ s15
abbrev pre17 : List (HloOp τ sig (Elt F)) := pre16 ++ s16
abbrev pre18 : List (HloOp τ sig (Elt F)) := pre17 ++ s17
abbrev pre19 : List (HloOp τ sig (Elt F)) := pre18 ++ s18
abbrev pre20 : List (HloOp τ sig (Elt F)) := pre19 ++ s19
abbrev pre21 : List (HloOp τ sig (Elt F)) := pre20 ++ s20
abbrev pre22 : List (HloOp τ sig (Elt F)) := pre21 ++ s21
abbrev pre23 : List (HloOp τ sig (Elt F)) := pre22 ++ s22
abbrev pre24 : List (HloOp τ sig (Elt F)) := pre23 ++ s23
abbrev pre25 : List (HloOp τ sig (Elt F)) := pre24 ++ s24
abbrev pre26 : List (HloOp τ sig (Elt F)) := pre25 ++ s25
abbrev pre27 : List (HloOp τ sig (Elt F)) := pre26 ++ s26
abbrev pre28 : List (HloOp τ sig (Elt F)) := pre27 ++ s27

/-- The references written after segment `J`. -/
abbrev Wpost28 : List (Ref sig .tc) := []
abbrev Wpost27 : List (Ref sig .tc) := Ws28 ++ Wpost28
abbrev Wpost26 : List (Ref sig .tc) := Ws27 ++ Wpost27
abbrev Wpost25 : List (Ref sig .tc) := Ws26 ++ Wpost26
abbrev Wpost24 : List (Ref sig .tc) := Ws25 ++ Wpost25
abbrev Wpost23 : List (Ref sig .tc) := Ws24 ++ Wpost24
abbrev Wpost22 : List (Ref sig .tc) := Ws23 ++ Wpost23
abbrev Wpost21 : List (Ref sig .tc) := Ws22 ++ Wpost22
abbrev Wpost20 : List (Ref sig .tc) := Ws21 ++ Wpost21
abbrev Wpost19 : List (Ref sig .tc) := Ws20 ++ Wpost20
abbrev Wpost18 : List (Ref sig .tc) := Ws19 ++ Wpost19
abbrev Wpost17 : List (Ref sig .tc) := Ws18 ++ Wpost18
abbrev Wpost16 : List (Ref sig .tc) := Ws17 ++ Wpost17
abbrev Wpost15 : List (Ref sig .tc) := Ws16 ++ Wpost16
abbrev Wpost14 : List (Ref sig .tc) := Ws15 ++ Wpost15
abbrev Wpost13 : List (Ref sig .tc) := Ws14 ++ Wpost14
abbrev Wpost12 : List (Ref sig .tc) := Ws13 ++ Wpost13
abbrev Wpost11 : List (Ref sig .tc) := Ws12 ++ Wpost12
abbrev Wpost10 : List (Ref sig .tc) := Ws11 ++ Wpost11
abbrev Wpost9 : List (Ref sig .tc) := Ws10 ++ Wpost10
abbrev Wpost8 : List (Ref sig .tc) := Ws9 ++ Wpost9
abbrev Wpost7 : List (Ref sig .tc) := Ws8 ++ Wpost8
abbrev Wpost6 : List (Ref sig .tc) := Ws7 ++ Wpost7
abbrev Wpost5 : List (Ref sig .tc) := Ws6 ++ Wpost6
abbrev Wpost4 : List (Ref sig .tc) := Ws5 ++ Wpost5
abbrev Wpost3 : List (Ref sig .tc) := Ws4 ++ Wpost4
abbrev Wpost2 : List (Ref sig .tc) := Ws3 ++ Wpost3
abbrev Wpost1 : List (Ref sig .tc) := Ws2 ++ Wpost2

set_option maxRecDepth 16384 in
/-- @main's operations are the segments one after the other. -/
theorem split1 : (ops : List (HloOp τ sig (Elt F))) = pre1 ++ (s1 ++ post1) := rfl
theorem split2 : (ops : List (HloOp τ sig (Elt F))) = pre2 ++ (s2 ++ post2) :=
  split1.trans (List.append_assoc _ _ _).symm
theorem split3 : (ops : List (HloOp τ sig (Elt F))) = pre3 ++ (s3 ++ post3) :=
  split2.trans (List.append_assoc _ _ _).symm
theorem split4 : (ops : List (HloOp τ sig (Elt F))) = pre4 ++ (s4 ++ post4) :=
  split3.trans (List.append_assoc _ _ _).symm
theorem split5 : (ops : List (HloOp τ sig (Elt F))) = pre5 ++ (s5 ++ post5) :=
  split4.trans (List.append_assoc _ _ _).symm
theorem split6 : (ops : List (HloOp τ sig (Elt F))) = pre6 ++ (s6 ++ post6) :=
  split5.trans (List.append_assoc _ _ _).symm
theorem split7 : (ops : List (HloOp τ sig (Elt F))) = pre7 ++ (s7 ++ post7) :=
  split6.trans (List.append_assoc _ _ _).symm
theorem split8 : (ops : List (HloOp τ sig (Elt F))) = pre8 ++ (s8 ++ post8) :=
  split7.trans (List.append_assoc _ _ _).symm
theorem split9 : (ops : List (HloOp τ sig (Elt F))) = pre9 ++ (s9 ++ post9) :=
  split8.trans (List.append_assoc _ _ _).symm
theorem split10 : (ops : List (HloOp τ sig (Elt F))) = pre10 ++ (s10 ++ post10) :=
  split9.trans (List.append_assoc _ _ _).symm
theorem split11 : (ops : List (HloOp τ sig (Elt F))) = pre11 ++ (s11 ++ post11) :=
  split10.trans (List.append_assoc _ _ _).symm
theorem split12 : (ops : List (HloOp τ sig (Elt F))) = pre12 ++ (s12 ++ post12) :=
  split11.trans (List.append_assoc _ _ _).symm
theorem split13 : (ops : List (HloOp τ sig (Elt F))) = pre13 ++ (s13 ++ post13) :=
  split12.trans (List.append_assoc _ _ _).symm
theorem split14 : (ops : List (HloOp τ sig (Elt F))) = pre14 ++ (s14 ++ post14) :=
  split13.trans (List.append_assoc _ _ _).symm
theorem split15 : (ops : List (HloOp τ sig (Elt F))) = pre15 ++ (s15 ++ post15) :=
  split14.trans (List.append_assoc _ _ _).symm
theorem split16 : (ops : List (HloOp τ sig (Elt F))) = pre16 ++ (s16 ++ post16) :=
  split15.trans (List.append_assoc _ _ _).symm
theorem split17 : (ops : List (HloOp τ sig (Elt F))) = pre17 ++ (s17 ++ post17) :=
  split16.trans (List.append_assoc _ _ _).symm
theorem split18 : (ops : List (HloOp τ sig (Elt F))) = pre18 ++ (s18 ++ post18) :=
  split17.trans (List.append_assoc _ _ _).symm
theorem split19 : (ops : List (HloOp τ sig (Elt F))) = pre19 ++ (s19 ++ post19) :=
  split18.trans (List.append_assoc _ _ _).symm
theorem split20 : (ops : List (HloOp τ sig (Elt F))) = pre20 ++ (s20 ++ post20) :=
  split19.trans (List.append_assoc _ _ _).symm
theorem split21 : (ops : List (HloOp τ sig (Elt F))) = pre21 ++ (s21 ++ post21) :=
  split20.trans (List.append_assoc _ _ _).symm
theorem split22 : (ops : List (HloOp τ sig (Elt F))) = pre22 ++ (s22 ++ post22) :=
  split21.trans (List.append_assoc _ _ _).symm
theorem split23 : (ops : List (HloOp τ sig (Elt F))) = pre23 ++ (s23 ++ post23) :=
  split22.trans (List.append_assoc _ _ _).symm
theorem split24 : (ops : List (HloOp τ sig (Elt F))) = pre24 ++ (s24 ++ post24) :=
  split23.trans (List.append_assoc _ _ _).symm
theorem split25 : (ops : List (HloOp τ sig (Elt F))) = pre25 ++ (s25 ++ post25) :=
  split24.trans (List.append_assoc _ _ _).symm
theorem split26 : (ops : List (HloOp τ sig (Elt F))) = pre26 ++ (s26 ++ post26) :=
  split25.trans (List.append_assoc _ _ _).symm
theorem split27 : (ops : List (HloOp τ sig (Elt F))) = pre27 ++ (s27 ++ post27) :=
  split26.trans (List.append_assoc _ _ _).symm
theorem split28 : (ops : List (HloOp τ sig (Elt F))) = pre28 ++ (s28 ++ post28) :=
  split27.trans (List.append_assoc _ _ _).symm

/-! Each segment's operations write the references listed for it. -/

set_option maxRecDepth 8192 in
theorem s1_writes : (s1 : List (HloOp τ sig (Elt F))).Forall fun op =>
    op.writes ⊆ (Ws1.map (Proc.devRef (τ := τ) .tc)).toFinset := by
  simp only [List.Forall, nullary_writes, unary_writes, binary_writes, ternary_writes, reshape_writes, nary_writes,
    Finset.singleton_subset_iff, List.mem_toFinset]
  and_intros <;> exact List.mem_map_of_mem (by decide)
set_option maxRecDepth 8192 in
theorem s2_writes : (s2 : List (HloOp τ sig (Elt F))).Forall fun op =>
    op.writes ⊆ (Ws2.map (Proc.devRef (τ := τ) .tc)).toFinset := by
  simp only [List.Forall, nullary_writes, unary_writes, binary_writes, ternary_writes, reshape_writes, nary_writes,
    Finset.singleton_subset_iff, List.mem_toFinset]
  and_intros <;> exact List.mem_map_of_mem (by decide)
set_option maxRecDepth 8192 in
theorem s3_writes : (s3 : List (HloOp τ sig (Elt F))).Forall fun op =>
    op.writes ⊆ (Ws3.map (Proc.devRef (τ := τ) .tc)).toFinset := by
  simp only [List.Forall, nullary_writes, unary_writes, binary_writes, ternary_writes, reshape_writes, nary_writes,
    Finset.singleton_subset_iff, List.mem_toFinset]
  and_intros <;> exact List.mem_map_of_mem (by decide)
set_option maxRecDepth 8192 in
theorem s4_writes : (s4 : List (HloOp τ sig (Elt F))).Forall fun op =>
    op.writes ⊆ (Ws4.map (Proc.devRef (τ := τ) .tc)).toFinset := by
  simp only [List.Forall, nullary_writes, unary_writes, binary_writes, ternary_writes, reshape_writes, nary_writes,
    Finset.singleton_subset_iff, List.mem_toFinset]
  and_intros <;> exact List.mem_map_of_mem (by decide)
set_option maxRecDepth 8192 in
theorem s5_writes : (s5 : List (HloOp τ sig (Elt F))).Forall fun op =>
    op.writes ⊆ (Ws5.map (Proc.devRef (τ := τ) .tc)).toFinset := by
  simp only [List.Forall, nullary_writes, unary_writes, binary_writes, ternary_writes, reshape_writes, nary_writes,
    Finset.singleton_subset_iff, List.mem_toFinset]
  and_intros <;> exact List.mem_map_of_mem (by decide)
set_option maxRecDepth 8192 in
theorem s6_writes : (s6 : List (HloOp τ sig (Elt F))).Forall fun op =>
    op.writes ⊆ (Ws6.map (Proc.devRef (τ := τ) .tc)).toFinset := by
  simp only [List.Forall, nullary_writes, unary_writes, binary_writes, ternary_writes, reshape_writes, nary_writes,
    Finset.singleton_subset_iff, List.mem_toFinset]
  and_intros <;> exact List.mem_map_of_mem (by decide)
set_option maxRecDepth 8192 in
theorem s7_writes : (s7 : List (HloOp τ sig (Elt F))).Forall fun op =>
    op.writes ⊆ (Ws7.map (Proc.devRef (τ := τ) .tc)).toFinset := by
  simp only [List.Forall, nullary_writes, unary_writes, binary_writes, ternary_writes, reshape_writes, nary_writes,
    Finset.singleton_subset_iff, List.mem_toFinset]
  and_intros <;> exact List.mem_map_of_mem (by decide)
set_option maxRecDepth 8192 in
theorem s8_writes : (s8 : List (HloOp τ sig (Elt F))).Forall fun op =>
    op.writes ⊆ (Ws8.map (Proc.devRef (τ := τ) .tc)).toFinset := by
  simp only [List.Forall, nullary_writes, unary_writes, binary_writes, ternary_writes, reshape_writes, nary_writes,
    Finset.singleton_subset_iff, List.mem_toFinset]
  and_intros <;> exact List.mem_map_of_mem (by decide)
set_option maxRecDepth 8192 in
theorem s9_writes : (s9 : List (HloOp τ sig (Elt F))).Forall fun op =>
    op.writes ⊆ (Ws9.map (Proc.devRef (τ := τ) .tc)).toFinset := by
  simp only [List.Forall, nullary_writes, unary_writes, binary_writes, ternary_writes, reshape_writes, nary_writes,
    Finset.singleton_subset_iff, List.mem_toFinset]
  and_intros <;> exact List.mem_map_of_mem (by decide)
set_option maxRecDepth 8192 in
theorem s10_writes : (s10 : List (HloOp τ sig (Elt F))).Forall fun op =>
    op.writes ⊆ (Ws10.map (Proc.devRef (τ := τ) .tc)).toFinset := by
  simp only [List.Forall, nullary_writes, unary_writes, binary_writes, ternary_writes, reshape_writes, nary_writes,
    Finset.singleton_subset_iff, List.mem_toFinset]
  and_intros <;> exact List.mem_map_of_mem (by decide)
set_option maxRecDepth 8192 in
theorem s11_writes : (s11 : List (HloOp τ sig (Elt F))).Forall fun op =>
    op.writes ⊆ (Ws11.map (Proc.devRef (τ := τ) .tc)).toFinset := by
  simp only [List.Forall, nullary_writes, unary_writes, binary_writes, ternary_writes, reshape_writes, nary_writes,
    Finset.singleton_subset_iff, List.mem_toFinset]
  and_intros <;> exact List.mem_map_of_mem (by decide)
set_option maxRecDepth 8192 in
theorem s12_writes : (s12 : List (HloOp τ sig (Elt F))).Forall fun op =>
    op.writes ⊆ (Ws12.map (Proc.devRef (τ := τ) .tc)).toFinset := by
  simp only [List.Forall, nullary_writes, unary_writes, binary_writes, ternary_writes, reshape_writes, nary_writes,
    Finset.singleton_subset_iff, List.mem_toFinset]
  and_intros <;> exact List.mem_map_of_mem (by decide)
set_option maxRecDepth 8192 in
theorem s13_writes : (s13 : List (HloOp τ sig (Elt F))).Forall fun op =>
    op.writes ⊆ (Ws13.map (Proc.devRef (τ := τ) .tc)).toFinset := by
  simp only [List.Forall, nullary_writes, unary_writes, binary_writes, ternary_writes, reshape_writes, nary_writes,
    Finset.singleton_subset_iff, List.mem_toFinset]
  and_intros <;> exact List.mem_map_of_mem (by decide)
set_option maxRecDepth 8192 in
theorem s14_writes : (s14 : List (HloOp τ sig (Elt F))).Forall fun op =>
    op.writes ⊆ (Ws14.map (Proc.devRef (τ := τ) .tc)).toFinset := by
  simp only [List.Forall, nullary_writes, unary_writes, binary_writes, ternary_writes, reshape_writes, nary_writes,
    Finset.singleton_subset_iff, List.mem_toFinset]
  and_intros <;> exact List.mem_map_of_mem (by decide)
set_option maxRecDepth 8192 in
theorem s15_writes : (s15 : List (HloOp τ sig (Elt F))).Forall fun op =>
    op.writes ⊆ (Ws15.map (Proc.devRef (τ := τ) .tc)).toFinset := by
  simp only [List.Forall, nullary_writes, unary_writes, binary_writes, ternary_writes, reshape_writes, nary_writes,
    Finset.singleton_subset_iff, List.mem_toFinset]
  and_intros <;> exact List.mem_map_of_mem (by decide)
set_option maxRecDepth 8192 in
theorem s16_writes : (s16 : List (HloOp τ sig (Elt F))).Forall fun op =>
    op.writes ⊆ (Ws16.map (Proc.devRef (τ := τ) .tc)).toFinset := by
  simp only [List.Forall, nullary_writes, unary_writes, binary_writes, ternary_writes, reshape_writes, nary_writes,
    Finset.singleton_subset_iff, List.mem_toFinset]
  and_intros <;> exact List.mem_map_of_mem (by decide)
set_option maxRecDepth 8192 in
theorem s17_writes : (s17 : List (HloOp τ sig (Elt F))).Forall fun op =>
    op.writes ⊆ (Ws17.map (Proc.devRef (τ := τ) .tc)).toFinset := by
  simp only [List.Forall, nullary_writes, unary_writes, binary_writes, ternary_writes, reshape_writes, nary_writes,
    Finset.singleton_subset_iff, List.mem_toFinset]
  and_intros <;> exact List.mem_map_of_mem (by decide)
set_option maxRecDepth 8192 in
theorem s18_writes : (s18 : List (HloOp τ sig (Elt F))).Forall fun op =>
    op.writes ⊆ (Ws18.map (Proc.devRef (τ := τ) .tc)).toFinset := by
  simp only [List.Forall, nullary_writes, unary_writes, binary_writes, ternary_writes, reshape_writes, nary_writes,
    Finset.singleton_subset_iff, List.mem_toFinset]
  and_intros <;> exact List.mem_map_of_mem (by decide)
set_option maxRecDepth 8192 in
theorem s19_writes : (s19 : List (HloOp τ sig (Elt F))).Forall fun op =>
    op.writes ⊆ (Ws19.map (Proc.devRef (τ := τ) .tc)).toFinset := by
  simp only [List.Forall, nullary_writes, unary_writes, binary_writes, ternary_writes, reshape_writes, nary_writes,
    Finset.singleton_subset_iff, List.mem_toFinset]
  and_intros <;> exact List.mem_map_of_mem (by decide)
set_option maxRecDepth 8192 in
theorem s20_writes : (s20 : List (HloOp τ sig (Elt F))).Forall fun op =>
    op.writes ⊆ (Ws20.map (Proc.devRef (τ := τ) .tc)).toFinset := by
  simp only [List.Forall, nullary_writes, unary_writes, binary_writes, ternary_writes, reshape_writes, nary_writes,
    Finset.singleton_subset_iff, List.mem_toFinset]
  and_intros <;> exact List.mem_map_of_mem (by decide)
set_option maxRecDepth 8192 in
theorem s21_writes : (s21 : List (HloOp τ sig (Elt F))).Forall fun op =>
    op.writes ⊆ (Ws21.map (Proc.devRef (τ := τ) .tc)).toFinset := by
  simp only [List.Forall, nullary_writes, unary_writes, binary_writes, ternary_writes, reshape_writes, nary_writes,
    Finset.singleton_subset_iff, List.mem_toFinset]
  and_intros <;> exact List.mem_map_of_mem (by decide)
set_option maxRecDepth 8192 in
theorem s22_writes : (s22 : List (HloOp τ sig (Elt F))).Forall fun op =>
    op.writes ⊆ (Ws22.map (Proc.devRef (τ := τ) .tc)).toFinset := by
  simp only [List.Forall, nullary_writes, unary_writes, binary_writes, ternary_writes, reshape_writes, nary_writes,
    Finset.singleton_subset_iff, List.mem_toFinset]
  and_intros <;> exact List.mem_map_of_mem (by decide)
set_option maxRecDepth 8192 in
theorem s23_writes : (s23 : List (HloOp τ sig (Elt F))).Forall fun op =>
    op.writes ⊆ (Ws23.map (Proc.devRef (τ := τ) .tc)).toFinset := by
  simp only [List.Forall, nullary_writes, unary_writes, binary_writes, ternary_writes, reshape_writes, nary_writes,
    Finset.singleton_subset_iff, List.mem_toFinset]
  and_intros <;> exact List.mem_map_of_mem (by decide)
set_option maxRecDepth 8192 in
theorem s24_writes : (s24 : List (HloOp τ sig (Elt F))).Forall fun op =>
    op.writes ⊆ (Ws24.map (Proc.devRef (τ := τ) .tc)).toFinset := by
  simp only [List.Forall, nullary_writes, unary_writes, binary_writes, ternary_writes, reshape_writes, nary_writes,
    Finset.singleton_subset_iff, List.mem_toFinset]
  and_intros <;> exact List.mem_map_of_mem (by decide)
set_option maxRecDepth 8192 in
theorem s25_writes : (s25 : List (HloOp τ sig (Elt F))).Forall fun op =>
    op.writes ⊆ (Ws25.map (Proc.devRef (τ := τ) .tc)).toFinset := by
  simp only [List.Forall, nullary_writes, unary_writes, binary_writes, ternary_writes, reshape_writes, nary_writes,
    Finset.singleton_subset_iff, List.mem_toFinset]
  and_intros <;> exact List.mem_map_of_mem (by decide)
set_option maxRecDepth 8192 in
theorem s26_writes : (s26 : List (HloOp τ sig (Elt F))).Forall fun op =>
    op.writes ⊆ (Ws26.map (Proc.devRef (τ := τ) .tc)).toFinset := by
  simp only [List.Forall, nullary_writes, unary_writes, binary_writes, ternary_writes, reshape_writes, nary_writes,
    Finset.singleton_subset_iff, List.mem_toFinset]
  and_intros <;> exact List.mem_map_of_mem (by decide)
set_option maxRecDepth 8192 in
theorem s27_writes : (s27 : List (HloOp τ sig (Elt F))).Forall fun op =>
    op.writes ⊆ (Ws27.map (Proc.devRef (τ := τ) .tc)).toFinset := by
  simp only [List.Forall, nullary_writes, unary_writes, binary_writes, ternary_writes, reshape_writes, nary_writes,
    Finset.singleton_subset_iff, List.mem_toFinset]
  and_intros <;> exact List.mem_map_of_mem (by decide)
set_option maxRecDepth 8192 in
theorem s28_writes : (s28 : List (HloOp τ sig (Elt F))).Forall fun op =>
    op.writes ⊆ (Ws28.map (Proc.devRef (τ := τ) .tc)).toFinset := by
  simp only [List.Forall, nullary_writes, unary_writes, binary_writes, ternary_writes, reshape_writes, nary_writes,
    Finset.singleton_subset_iff, List.mem_toFinset]
  and_intros <;> exact List.mem_map_of_mem (by decide)

/-! What follows a segment writes the references listed after it. -/

theorem hpost28 : (post28 : List (HloOp τ sig (Elt F))).Forall fun op =>
    op.writes ⊆ (Wpost28.map (Proc.devRef (τ := τ) .tc)).toFinset := trivial
theorem hpost27 : (post27 : List (HloOp τ sig (Elt F))).Forall fun op =>
    op.writes ⊆ (Wpost27.map (Proc.devRef (τ := τ) .tc)).toFinset := writes_append s28_writes hpost28
theorem hpost26 : (post26 : List (HloOp τ sig (Elt F))).Forall fun op =>
    op.writes ⊆ (Wpost26.map (Proc.devRef (τ := τ) .tc)).toFinset := writes_append s27_writes hpost27
theorem hpost25 : (post25 : List (HloOp τ sig (Elt F))).Forall fun op =>
    op.writes ⊆ (Wpost25.map (Proc.devRef (τ := τ) .tc)).toFinset := writes_append s26_writes hpost26
theorem hpost24 : (post24 : List (HloOp τ sig (Elt F))).Forall fun op =>
    op.writes ⊆ (Wpost24.map (Proc.devRef (τ := τ) .tc)).toFinset := writes_append s25_writes hpost25
theorem hpost23 : (post23 : List (HloOp τ sig (Elt F))).Forall fun op =>
    op.writes ⊆ (Wpost23.map (Proc.devRef (τ := τ) .tc)).toFinset := writes_append s24_writes hpost24
theorem hpost22 : (post22 : List (HloOp τ sig (Elt F))).Forall fun op =>
    op.writes ⊆ (Wpost22.map (Proc.devRef (τ := τ) .tc)).toFinset := writes_append s23_writes hpost23
theorem hpost21 : (post21 : List (HloOp τ sig (Elt F))).Forall fun op =>
    op.writes ⊆ (Wpost21.map (Proc.devRef (τ := τ) .tc)).toFinset := writes_append s22_writes hpost22
theorem hpost20 : (post20 : List (HloOp τ sig (Elt F))).Forall fun op =>
    op.writes ⊆ (Wpost20.map (Proc.devRef (τ := τ) .tc)).toFinset := writes_append s21_writes hpost21
theorem hpost19 : (post19 : List (HloOp τ sig (Elt F))).Forall fun op =>
    op.writes ⊆ (Wpost19.map (Proc.devRef (τ := τ) .tc)).toFinset := writes_append s20_writes hpost20
theorem hpost18 : (post18 : List (HloOp τ sig (Elt F))).Forall fun op =>
    op.writes ⊆ (Wpost18.map (Proc.devRef (τ := τ) .tc)).toFinset := writes_append s19_writes hpost19
theorem hpost17 : (post17 : List (HloOp τ sig (Elt F))).Forall fun op =>
    op.writes ⊆ (Wpost17.map (Proc.devRef (τ := τ) .tc)).toFinset := writes_append s18_writes hpost18
theorem hpost16 : (post16 : List (HloOp τ sig (Elt F))).Forall fun op =>
    op.writes ⊆ (Wpost16.map (Proc.devRef (τ := τ) .tc)).toFinset := writes_append s17_writes hpost17
theorem hpost15 : (post15 : List (HloOp τ sig (Elt F))).Forall fun op =>
    op.writes ⊆ (Wpost15.map (Proc.devRef (τ := τ) .tc)).toFinset := writes_append s16_writes hpost16
theorem hpost14 : (post14 : List (HloOp τ sig (Elt F))).Forall fun op =>
    op.writes ⊆ (Wpost14.map (Proc.devRef (τ := τ) .tc)).toFinset := writes_append s15_writes hpost15
theorem hpost13 : (post13 : List (HloOp τ sig (Elt F))).Forall fun op =>
    op.writes ⊆ (Wpost13.map (Proc.devRef (τ := τ) .tc)).toFinset := writes_append s14_writes hpost14
theorem hpost12 : (post12 : List (HloOp τ sig (Elt F))).Forall fun op =>
    op.writes ⊆ (Wpost12.map (Proc.devRef (τ := τ) .tc)).toFinset := writes_append s13_writes hpost13
theorem hpost11 : (post11 : List (HloOp τ sig (Elt F))).Forall fun op =>
    op.writes ⊆ (Wpost11.map (Proc.devRef (τ := τ) .tc)).toFinset := writes_append s12_writes hpost12
theorem hpost10 : (post10 : List (HloOp τ sig (Elt F))).Forall fun op =>
    op.writes ⊆ (Wpost10.map (Proc.devRef (τ := τ) .tc)).toFinset := writes_append s11_writes hpost11
theorem hpost9 : (post9 : List (HloOp τ sig (Elt F))).Forall fun op =>
    op.writes ⊆ (Wpost9.map (Proc.devRef (τ := τ) .tc)).toFinset := writes_append s10_writes hpost10
theorem hpost8 : (post8 : List (HloOp τ sig (Elt F))).Forall fun op =>
    op.writes ⊆ (Wpost8.map (Proc.devRef (τ := τ) .tc)).toFinset := writes_append s9_writes hpost9
theorem hpost7 : (post7 : List (HloOp τ sig (Elt F))).Forall fun op =>
    op.writes ⊆ (Wpost7.map (Proc.devRef (τ := τ) .tc)).toFinset := writes_append s8_writes hpost8
theorem hpost6 : (post6 : List (HloOp τ sig (Elt F))).Forall fun op =>
    op.writes ⊆ (Wpost6.map (Proc.devRef (τ := τ) .tc)).toFinset := writes_append s7_writes hpost7
theorem hpost5 : (post5 : List (HloOp τ sig (Elt F))).Forall fun op =>
    op.writes ⊆ (Wpost5.map (Proc.devRef (τ := τ) .tc)).toFinset := writes_append s6_writes hpost6
theorem hpost4 : (post4 : List (HloOp τ sig (Elt F))).Forall fun op =>
    op.writes ⊆ (Wpost4.map (Proc.devRef (τ := τ) .tc)).toFinset := writes_append s5_writes hpost5
theorem hpost3 : (post3 : List (HloOp τ sig (Elt F))).Forall fun op =>
    op.writes ⊆ (Wpost3.map (Proc.devRef (τ := τ) .tc)).toFinset := writes_append s4_writes hpost4
theorem hpost2 : (post2 : List (HloOp τ sig (Elt F))).Forall fun op =>
    op.writes ⊆ (Wpost2.map (Proc.devRef (τ := τ) .tc)).toFinset := writes_append s3_writes hpost3
theorem hpost1 : (post1 : List (HloOp τ sig (Elt F))).Forall fun op =>
    op.writes ⊆ (Wpost1.map (Proc.devRef (τ := τ) .tc)).toFinset := writes_append s2_writes hpost2

end Cert.ReferenceIdeal.RefRun

end
-- ==== Proof.RefRunDefs.lean ====
import proofs.«100384_j8693013807615_2_alg».proof.Proof.Gen.ReferenceIdeal

noncomputable section

namespace Cert.ReferenceIdeal.RefRun

open Cert.ReferenceIdeal Cert.ReferenceIdeal.Gen Idealize.ShloMosaic Idealize.SL.Sem

variable {F : FTy → Type} [FloatOps F]

/-! ## The reference's stages, as pure functions

The reference is a three-layer graph convolution over 50000 nodes and 800000 edges, a self-loop added at every node
(850000 edges in all), followed by a mean over each of 256 graphs and a row normalization. Each stage below is the
composed value of one stretch of the reference's operations, as a function of the values that stretch reads. The
gathers and scatter-additions over the 850000 edges stay applications of `Host.gather` / `Host.scatterAdd`. -/

/-- The contents of an array of shape `S` and element type `e`. -/
abbrev Ten (F : FTy → Type) (S : Shape) (e : EltTy) : Type := (⟨S, e⟩ : BufTy).Contents (Elt F)

/-- The scalar `0.0`. -/
def zeroF : Ten F S_ .f32 := constant S_ .f32 0x00000000#32
/-- The scalar `1.0`. -/
def oneF : Ten F S_ .f32 := constant S_ .f32 0x3F800000#32
/-- The scalar `50000.0`, the number of nodes. -/
def nodesF : Ten F S_ .f32 := constant S_ .f32 0x47435000#32

/-- Row `0` of the edge list (the sources) followed by the self-loops' `0 … 49999`. -/
def edgeSrc (e : Ten F S2x800000 .i32) : Ten F S850000 .i32 :=
  concatenate S850000 0
    [⟨S800000, fun i => shapeCast S800000 (extractStridedSlice S1x800000 ![0, 0] e slices_S2x800000_S1x800000_0_0) shapeCasts_S1x800000_S800000 i⟩,
     ⟨S50000, iotaInDim S50000 32 0⟩] concatenates_S800000_S50000_S850000_d0

/-- Row `1` of the edge list (the destinations) followed by the self-loops' `0 … 49999`. -/
def edgeDst (e : Ten F S2x800000 .i32) : Ten F S850000 .i32 :=
  concatenate S850000 0
    [⟨S800000, fun i => shapeCast S800000 (extractStridedSlice S1x800000 ![1, 0] e slices_S2x800000_S1x800000_1_0) shapeCasts_S1x800000_S800000 i⟩,
     ⟨S50000, iotaInDim S50000 32 0⟩] concatenates_S800000_S50000_S850000_d0

/-- An index vector as the column a gather reads: a negative index counts from the end (`+ 50000`). -/
def wrapIdx (a : Ten F S850000 .i32) : Ten F S850000x1 .i32 :=
  broadcastInDim S850000x1 ![0] bcast_S850000_S850000x1_0
    (select (cmpi .slt a (broadcastInDim S850000 ![] bcast_S_S850000 (constantI S_ 32 0#32)))
      (addi a (broadcastInDim S850000 ![] bcast_S_S850000 (constantI S_ 32 50000#32))) a)

/-- An index vector as the column a scatter-addition reads. -/
def idxCol (a : Ten F S850000 .i32) : Ten F S850000x1 .i32 :=
  broadcastInDim S850000x1 ![0] bcast_S850000_S850000x1_0 a

/-- `1 / sqrt (max (in-degree) 1)` per node: the in-degree is the scatter-addition of ones at the destinations. -/
def invSqrtDeg (dst : Ten F S850000 .i32) : Ten F S50000 .f32 :=
  Host.rsqrt (maximumf
    (Host.scatterAdd scatter_S50000_S850000x1_S850000_n_0_0_1 (broadcastInDim S50000 ![] bcast_S_S50000 zeroF) (idxCol dst)
      (broadcastInDim S850000 ![] bcast_S_S850000 oneF))
    (broadcastInDim S50000 ![] bcast_S_S50000 oneF))

/-- The weight of each edge: the product of `invSqrtDeg` at its source and at its destination. -/
def edgeWeight (src dst : Ten F S850000 .i32) : Ten F S850000 .f32 :=
  mulf (Host.gather gather_S50000_S850000x1_S850000_n_0_n_n_0_1_1 (invSqrtDeg dst) (wrapIdx src))
    (Host.gather gather_S50000_S850000x1_S850000_n_0_n_n_0_1_1 (invSqrtDeg dst) (wrapIdx dst))

/-- The first layer's product of the node features with its weight matrix. -/
def dense1 (x : Ten F S50000x128 .f32) (w : Ten F S128x64 .f32) : Ten F S50000x64 .f32 :=
  Host.dotGeneral dot_S50000x128_S128x64_S50000x64_1_0_0_1_n_n none x w

/-- A later layer's product of the node features with its weight matrix. -/
def dense2 (x : Ten F S50000x64 .f32) (w : Ten F S64x64 .f32) : Ten F S50000x64 .f32 :=
  Host.dotGeneral dot_S50000x64_S64x64_S50000x64_1_0_0_1_n_n none x w

/-- The aggregate: each edge carries its source's row times the edge's weight, added into its destination's row. -/
def aggregate (src dst : Ten F S850000 .i32) (ew : Ten F S850000 .f32) (h : Ten F S50000x64 .f32) : Ten F S50000x64 .f32 :=
  Host.scatterAdd scatter_S50000x64_S850000x1_S850000x64_1_0_0_1 (broadcastInDim S50000x64 ![] bcast_S_S50000x64 zeroF) (idxCol dst)
    (mulf (Host.gather gather_S50000x64_S850000x1_S850000x64_1_0_n_n_0_1_164 h (wrapIdx src))
      (broadcastInDim S850000x64 ![0, 1] bcast_S850000x1_S850000x64_0_1 (broadcastInDim S850000x1 ![0] bcast_S850000_S850000x1_0 ew)))

/-- A vector of 64 as every row of a 50000 × 64 array. -/
def rows (b : Ten F S64 .f32) : Ten F S50000x64 .f32 :=
  broadcastInDim S50000x64 ![0, 1] bcast_S1x64_S50000x64_0_1 (broadcastInDim S1x64 ![1] bcast_S64_S1x64_1 b)

/-- The bias added to every row, then the rectifier `max · 0`. -/
def biasRelu (a : Ten F S50000x64 .f32) (b : Ten F S64 .f32) : Ten F S50000x64 .f32 :=
  maximumf (addf a (rows b)) (broadcastInDim S50000x64 ![] bcast_S_S50000x64 zeroF)

/-- The sum of each column over the 50000 nodes. -/
def colSum (x : Ten F S50000x64 .f32) : Ten F S64 .f32 :=
  Host.reduceAdd x zeroF reducesTo_S50000x64_S64_d0 h_S_

/-- The mean of each column over the 50000 nodes. -/
def colMean (x : Ten F S50000x64 .f32) : Ten F S64 .f32 :=
  Host.divf (colSum x) (broadcastInDim S64 ![] bcast_S_S64 nodesF)

/-- The divisor of the variance: the number of nodes less the `0` degrees of freedom, as a float. -/
def varDivisor : Ten F S_ .f32 := subf nodesF (sitofp .f32 (constantI S_ 32 0#32))

/-- The column means as the variance computes them (the sum as a row, divided, then as every row), subtracted. -/
def centered (x : Ten F S50000x64 .f32) : Ten F S50000x64 .f32 :=
  subf x (broadcastInDim S50000x64 ![0, 1] bcast_S1x64_S50000x64_0_1
    (Host.divf (broadcastInDim S1x64 ![1] bcast_S64_S1x64_1 (colSum x)) (broadcastInDim S1x64 ![] bcast_S_S1x64 nodesF)))

/-- The variance of each column over the nodes: the mean square of the centered values where the divisor is
    positive, a NaN otherwise. -/
def colVar (x : Ten F S50000x64 .f32) : Ten F S64 .f32 :=
  select (broadcastInDim S64 ![] bcast_S_S64 (cmpf (F := F) .ogt varDivisor zeroF))
    (Host.divf (colSum (mulf (centered x) (centered x))) (broadcastInDim S64 ![] bcast_S_S64 varDivisor))
    (broadcastInDim S64 ![] bcast_S_S64 (constant S_ .f32 0x7FC00000#32))

/-- The batch normalization of a layer's rectified values by their column mean and variance, scaled and shifted. -/
def normalize (x : Ten F S50000x64 .f32) (mean var gamma beta : Ten F S64 .f32) : Ten F S50000x64 .f32 :=
  addf (mulf (mulf (subf x (rows mean))
      (rows (Host.rsqrt (addf var (broadcastInDim S64 ![] bcast_S_S64 (constant S_ .f32 0x3727C5AC#32))))))
    (rows gamma)) (rows beta)

/-- The number of nodes of each of the 256 graphs, at least one. -/
def segCount (batch : Ten F S50000 .i32) : Ten F S256 .f32 :=
  maximumf
    (Host.scatterAdd scatter_S256_S50000x1_S50000_n_0_0_1 (broadcastInDim S256 ![] bcast_S_S256 zeroF)
      (broadcastInDim S50000x1 ![0] bcast_S50000_S50000x1_0 batch) (broadcastInDim S50000 ![] bcast_S_S50000 oneF))
    (broadcastInDim S256 ![] bcast_S_S256 oneF)

/-- The mean of a layer's rows over each graph: the rows added into their graph's row, divided by the graph's count. -/
def segMean (batch : Ten F S50000 .i32) (cnt : Ten F S256 .f32) (x : Ten F S50000x64 .f32) : Ten F S256x64 .f32 :=
  Host.divf
    (Host.scatterAdd scatter_S256x64_S50000x1_S50000x64_1_0_0_1 (broadcastInDim S256x64 ![] bcast_S_S256x64 zeroF)
      (broadcastInDim S50000x1 ![0] bcast_S50000_S50000x1_0 batch) x)
    (broadcastInDim S256x64 ![0, 1] bcast_S256x1_S256x64_0_1 (broadcastInDim S256x1 ![0] bcast_S256_S256x1_0 cnt))

/-- The three layers' node values side by side. -/
def catNodes (a b c : Ten F S50000x64 .f32) : Ten F S50000x192 .f32 :=
  concatenate S50000x192 1 [⟨S50000x64, a⟩, ⟨S50000x64, b⟩, ⟨S50000x64, c⟩] concatenates_S50000x64_S50000x64_S50000x64_S50000x192_d1

/-- The three layers' graph means side by side. -/
def catGraphs (a b c : Ten F S256x64 .f32) : Ten F S256x192 .f32 :=
  concatenate S256x192 1 [⟨S256x64, a⟩, ⟨S256x64, b⟩, ⟨S256x64, c⟩] concatenates_S256x64_S256x64_S256x64_S256x192_d1

/-- Each node's row divided by its Euclidean norm, the norm at least `1e-12`. -/
def rowNormNodes (x : Ten F S50000x192 .f32) : Ten F S50000x192 .f32 :=
  Host.divf x (broadcastInDim S50000x192 ![0, 1] bcast_S50000x1_S50000x192_0_1
    (maximumf
      (Host.sqrt (broadcastInDim S50000x1 ![0] bcast_S50000_S50000x1_0 (Host.reduceAdd (mulf x x) zeroF reducesTo_S50000x192_S50000_d1 h_S_)))
      (broadcastInDim S50000x1 ![] bcast_S_S50000x1 (constant S_ .f32 0x2B8CBCCC#32))))

/-- Each graph's row divided by its Euclidean norm, the norm at least `1e-12`. -/
def rowNormGraphs (x : Ten F S256x192 .f32) : Ten F S256x192 .f32 :=
  Host.divf x (broadcastInDim S256x192 ![0, 1] bcast_S256x1_S256x192_0_1
    (maximumf
      (Host.sqrt (broadcastInDim S256x1 ![0] bcast_S256_S256x1_0 (Host.reduceAdd (mulf x x) zeroF reducesTo_S256x192_S256_d1 h_S_)))
      (broadcastInDim S256x1 ![] bcast_S_S256x1 (constant S_ .f32 0x2B8CBCCC#32))))

end Cert.ReferenceIdeal.RefRun

end
-- ==== Proof.RefRunStages.lean ====
import proofs.«100384_j8693013807615_2_alg».proof.Proof.RefRunSegs
import proofs.«100384_j8693013807615_2_alg».proof.Proof.RefRunDefs

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## What each segment computes

From any contents `W`, a segment's last buffer holds the stage's function of the contents of the buffers the segment
reads: the fold over the segment's operations is unrolled, each operation's result read at its own buffer and every other
buffer left as it was, and the composed term is the stage's definition unfolded. -/

set_option maxRecDepth 8192 in
/-- Segment 1 computes the sources. -/
theorem seg1_v3 (W : Valuation τ sig (Elt F)) :
    after s1 W (Proc.devRef .tc main_v3) = edgeSrc (W (Proc.devRef .tc main_arg1)) := by
  simp only [s1]
  after_results_simp <;> rfl

set_option maxRecDepth 8192 in
/-- Segment 1 computes the destinations. -/
theorem seg1_v6 (W : Valuation τ sig (Elt F)) :
    after s1 W (Proc.devRef .tc main_v6) = edgeDst (W (Proc.devRef .tc main_arg1)) := by
  simp only [s1]
  after_results_simp <;> rfl

set_option maxRecDepth 8192 in
/-- Segment 2 computes the edges' weights. -/
theorem seg2_v28 (W : Valuation τ sig (Elt F)) :
    after s2 W (Proc.devRef .tc main_v28) = edgeWeight (W (Proc.devRef .tc main_v3)) (W (Proc.devRef .tc main_v6)) := by
  simp only [s2]
  after_results_simp <;> rfl

set_option maxRecDepth 8192 in
/-- Segment 3 computes layer 1's product. -/
theorem seg3_v29 (W : Valuation τ sig (Elt F)) :
    after s3 W (Proc.devRef .tc main_v29) = dense1 (W (Proc.devRef .tc main_arg0)) (W (Proc.devRef .tc main_arg3)) := by
  simp only [s3]
  after_results_simp <;> rfl

set_option maxRecDepth 8192 in
/-- Segment 4 computes layer 1's aggregate. -/
theorem seg4_v42 (W : Valuation τ sig (Elt F)) :
    after s4 W (Proc.devRef .tc main_v42) = aggregate (W (Proc.devRef .tc main_v3)) (W (Proc.devRef .tc main_v6)) (W (Proc.devRef .tc main_v28)) (W (Proc.devRef .tc main_v29)) := by
  simp only [s4]
  after_results_simp <;> rfl

set_option maxRecDepth 8192 in
/-- Segment 5 computes layer 1's rectified values. -/
theorem seg5_v46 (W : Valuation τ sig (Elt F)) :
    after s5 W (Proc.devRef .tc main_v46) = biasRelu (W (Proc.devRef .tc main_v42)) (W (Proc.devRef .tc main_arg4)) := by
  simp only [s5]
  after_results_simp <;> rfl

set_option maxRecDepth 8192 in
/-- Segment 6 computes layer 1's column means. -/
theorem seg6_v49 (W : Valuation τ sig (Elt F)) :
    after s6 W (Proc.devRef .tc main_v49) = colMean (W (Proc.devRef .tc main_v46)) := by
  simp only [s6]
  after_results_simp <;> rfl

set_option maxRecDepth 8192 in
/-- Segment 7 computes layer 1's column variances. -/
theorem seg7_v50 (W : Valuation τ sig (Elt F)) :
    after s7 W (Proc.devRef .tc main_v50) = colVar (W (Proc.devRef .tc main_v46)) := by
  simp only [s7]
  after_results_simp <;> rfl

set_option maxRecDepth 8192 in
/-- Segment 8 computes layer 1's output. -/
theorem seg8_v65 (W : Valuation τ sig (Elt F)) :
    after s8 W (Proc.devRef .tc main_v65) = normalize (W (Proc.devRef .tc main_v46)) (W (Proc.devRef .tc main_v49)) (W (Proc.devRef .tc main_v50)) (W (Proc.devRef .tc main_arg5)) (W (Proc.devRef .tc main_arg6)) := by
  simp only [s8]
  after_results_simp <;> rfl

set_option maxRecDepth 8192 in
/-- Segment 9 computes layer 2's product. -/
theorem seg9_v66 (W : Valuation τ sig (Elt F)) :
    after s9 W (Proc.devRef .tc main_v66) = dense2 (W (Proc.devRef .tc main_v65)) (W (Proc.devRef .tc main_arg7)) := by
  simp only [s9]
  after_results_simp <;> rfl

set_option maxRecDepth 8192 in
/-- Segment 10 computes layer 2's aggregate. -/
theorem seg10_v79 (W : Valuation τ sig (Elt F)) :
    after s10 W (Proc.devRef .tc main_v79) = aggregate (W (Proc.devRef .tc main_v3)) (W (Proc.devRef .tc main_v6)) (W (Proc.devRef .tc main_v28)) (W (Proc.devRef .tc main_v66)) := by
  simp only [s10]
  after_results_simp <;> rfl

set_option maxRecDepth 8192 in
/-- Segment 11 computes layer 2's rectified values. -/
theorem seg11_v83 (W : Valuation τ sig (Elt F)) :
    after s11 W (Proc.devRef .tc main_v83) = biasRelu (W (Proc.devRef .tc main_v79)) (W (Proc.devRef .tc main_arg8)) := by
  simp only [s11]
  after_results_simp <;> rfl

set_option maxRecDepth 8192 in
/-- Segment 12 computes layer 2's column means. -/
theorem seg12_v86 (W : Valuation τ sig (Elt F)) :
    after s12 W (Proc.devRef .tc main_v86) = colMean (W (Proc.devRef .tc main_v83)) := by
  simp only [s12]
  after_results_simp <;> rfl

set_option maxRecDepth 8192 in
/-- Segment 13 computes layer 2's column variances. -/
theorem seg13_v87 (W : Valuation τ sig (Elt F)) :
    after s13 W (Proc.devRef .tc main_v87) = colVar (W (Proc.devRef .tc main_v83)) := by
  simp only [s13]
  after_results_simp <;> rfl

set_option maxRecDepth 8192 in
/-- Segment 14 computes layer 2's output. -/
theorem seg14_v102 (W : Valuation τ sig (Elt F)) :
    after s14 W (Proc.devRef .tc main_v102) = normalize (W (Proc.devRef .tc main_v83)) (W (Proc.devRef .tc main_v86)) (W (Proc.devRef .tc main_v87)) (W (Proc.devRef .tc main_arg9)) (W (Proc.devRef .tc main_arg10)) := by
  simp only [s14]
  after_results_simp <;> rfl

set_option maxRecDepth 8192 in
/-- Segment 15 computes layer 3's product. -/
theorem seg15_v103 (W : Valuation τ sig (Elt F)) :
    after s15 W (Proc.devRef .tc main_v103) = dense2 (W (Proc.devRef .tc main_v102)) (W (Proc.devRef .tc main_arg11)) := by
  simp only [s15]
  after_results_simp <;> rfl

set_option maxRecDepth 8192 in
/-- Segment 16 computes layer 3's aggregate. -/
theorem seg16_v116 (W : Valuation τ sig (Elt F)) :
    after s16 W (Proc.devRef .tc main_v116) = aggregate (W (Proc.devRef .tc main_v3)) (W (Proc.devRef .tc main_v6)) (W (Proc.devRef .tc main_v28)) (W (Proc.devRef .tc main_v103)) := by
  simp only [s16]
  after_results_simp <;> rfl

set_option maxRecDepth 8192 in
/-- Segment 17 computes layer 3's rectified values. -/
theorem seg17_v120 (W : Valuation τ sig (Elt F)) :
    after s17 W (Proc.devRef .tc main_v120) = biasRelu (W (Proc.devRef .tc main_v116)) (W (Proc.devRef .tc main_arg12)) := by
  simp only [s17]
  after_results_simp <;> rfl

set_option maxRecDepth 8192 in
/-- Segment 18 computes layer 3's column means. -/
theorem seg18_v123 (W : Valuation τ sig (Elt F)) :
    after s18 W (Proc.devRef .tc main_v123) = colMean (W (Proc.devRef .tc main_v120)) := by
  simp only [s18]
  after_results_simp <;> rfl

set_option maxRecDepth 8192 in
/-- Segment 19 computes layer 3's column variances. -/
theorem seg19_v124 (W : Valuation τ sig (Elt F)) :
    after s19 W (Proc.devRef .tc main_v124) = colVar (W (Proc.devRef .tc main_v120)) := by
  simp only [s19]
  after_results_simp <;> rfl

set_option maxRecDepth 8192 in
/-- Segment 20 computes layer 3's output. -/
theorem seg20_v139 (W : Valuation τ sig (Elt F)) :
    after s20 W (Proc.devRef .tc main_v139) = normalize (W (Proc.devRef .tc main_v120)) (W (Proc.devRef .tc main_v123)) (W (Proc.devRef .tc main_v124)) (W (Proc.devRef .tc main_arg13)) (W (Proc.devRef .tc main_arg14)) := by
  simp only [s20]
  after_results_simp <;> rfl

set_option maxRecDepth 8192 in
/-- Segment 21 computes the graphs' node counts. -/
theorem seg21_v145 (W : Valuation τ sig (Elt F)) :
    after s21 W (Proc.devRef .tc main_v145) = segCount (W (Proc.devRef .tc main_arg2)) := by
  simp only [s21]
  after_results_simp <;> rfl

set_option maxRecDepth 8192 in
/-- Segment 22 computes layer 1's graph means. -/
theorem seg22_v151 (W : Valuation τ sig (Elt F)) :
    after s22 W (Proc.devRef .tc main_v151) = segMean (W (Proc.devRef .tc main_arg2)) (W (Proc.devRef .tc main_v145)) (W (Proc.devRef .tc main_v65)) := by
  simp only [s22]
  after_results_simp <;> rfl

set_option maxRecDepth 8192 in
/-- Segment 23 computes layer 2's graph means. -/
theorem seg23_v157 (W : Valuation τ sig (Elt F)) :
    after s23 W (Proc.devRef .tc main_v157) = segMean (W (Proc.devRef .tc main_arg2)) (W (Proc.devRef .tc main_v145)) (W (Proc.devRef .tc main_v102)) := by
  simp only [s23]
  after_results_simp <;> rfl

set_option maxRecDepth 8192 in
/-- Segment 24 computes layer 3's graph means. -/
theorem seg24_v163 (W : Valuation τ sig (Elt F)) :
    after s24 W (Proc.devRef .tc main_v163) = segMean (W (Proc.devRef .tc main_arg2)) (W (Proc.devRef .tc main_v145)) (W (Proc.devRef .tc main_v139)) := by
  simp only [s24]
  after_results_simp <;> rfl

set_option maxRecDepth 8192 in
/-- Segment 25 computes the node values side by side. -/
theorem seg25_v164 (W : Valuation τ sig (Elt F)) :
    after s25 W (Proc.devRef .tc main_v164) = catNodes (W (Proc.devRef .tc main_v65)) (W (Proc.devRef .tc main_v102)) (W (Proc.devRef .tc main_v139)) := by
  simp only [s25]
  after_results_simp <;> rfl

set_option maxRecDepth 8192 in
/-- Segment 26 computes the graph means side by side. -/
theorem seg26_v165 (W : Valuation τ sig (Elt F)) :
    after s26 W (Proc.devRef .tc main_v165) = catGraphs (W (Proc.devRef .tc main_v151)) (W (Proc.devRef .tc main_v157)) (W (Proc.devRef .tc main_v163)) := by
  simp only [s26]
  after_results_simp <;> rfl

set_option maxRecDepth 8192 in
/-- Segment 27 computes the first result. -/
theorem seg27_v170 (W : Valuation τ sig (Elt F)) :
    after s27 W (Proc.devRef .tc main_v170) = rowNormNodes (W (Proc.devRef .tc main_v164)) := by
  simp only [s27]
  after_results_simp <;> rfl

set_option maxRecDepth 8192 in
/-- Segment 28 computes the second result. -/
theorem seg28_v175 (W : Valuation τ sig (Elt F)) :
    after s28 W (Proc.devRef .tc main_v175) = rowNormGraphs (W (Proc.devRef .tc main_v165)) := by
  simp only [s28]
  after_results_simp <;> rfl

end Cert.ReferenceIdeal.RefRun

end
-- ==== Proof.RefRunRead.lean ====
import proofs.«100384_j8693013807615_2_alg».proof.Proof.RefRunLocal
import proofs.«100384_j8693013807615_2_alg».proof.Proof.RefRunStages
import proofs.«100384_j8693013807615_2_alg».proof.Proof.RefRunFrame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## Each stage at the end of @main, from the end values of what it reads

Every buffer is written once. So at the end of @main a stage's buffer holds what its segment computed, no later
operation writing it; and the buffers the segment read held, when it ran, what they hold at the end, no operation from
the segment on writing them. The stage is therefore its function of the END values of the buffers it reads. -/

abbrev post0 : List (HloOp τ sig (Elt F)) := s1 ++ post1
abbrev Wpost0 : List (Ref sig .tc) := Ws1 ++ Wpost1
theorem hpost0 : (post0 : List (HloOp τ sig (Elt F))).Forall fun op =>
    op.writes ⊆ (Wpost0.map (Proc.devRef (τ := τ) .tc)).toFinset := writes_append s1_writes hpost1

/-- At the end of @main: the sources. -/
theorem at_v3 (V : Valuation τ sig (Elt F)) :
    after ops V (Proc.devRef .tc main_v3)
      = edgeSrc (after ops V (Proc.devRef .tc main_arg1)) := by
  rw [split1, after_mid hpost1 V (y := main_v3) (by decide),
    after_pre (pre := pre1) hpost0 V (x := main_arg1) (by decide)]
  exact seg1_v3 _

/-- At the end of @main: the destinations. -/
theorem at_v6 (V : Valuation τ sig (Elt F)) :
    after ops V (Proc.devRef .tc main_v6)
      = edgeDst (after ops V (Proc.devRef .tc main_arg1)) := by
  rw [split1, after_mid hpost1 V (y := main_v6) (by decide),
    after_pre (pre := pre1) hpost0 V (x := main_arg1) (by decide)]
  exact seg1_v6 _

/-- At the end of @main: the edges' weights. -/
theorem at_v28 (V : Valuation τ sig (Elt F)) :
    after ops V (Proc.devRef .tc main_v28)
      = edgeWeight (after ops V (Proc.devRef .tc main_v3)) (after ops V (Proc.devRef .tc main_v6)) := by
  rw [split2, after_mid hpost2 V (y := main_v28) (by decide),
    after_pre (pre := pre2) hpost1 V (x := main_v3) (by decide),
    after_pre (pre := pre2) hpost1 V (x := main_v6) (by decide)]
  exact seg2_v28 _

/-- At the end of @main: layer 1's product. -/
theorem at_v29 (V : Valuation τ sig (Elt F)) :
    after ops V (Proc.devRef .tc main_v29)
      = dense1 (after ops V (Proc.devRef .tc main_arg0)) (after ops V (Proc.devRef .tc main_arg3)) := by
  rw [split3, after_mid hpost3 V (y := main_v29) (by decide),
    after_pre (pre := pre3) hpost2 V (x := main_arg0) (by decide),
    after_pre (pre := pre3) hpost2 V (x := main_arg3) (by decide)]
  exact seg3_v29 _

/-- At the end of @main: layer 1's aggregate. -/
theorem at_v42 (V : Valuation τ sig (Elt F)) :
    after ops V (Proc.devRef .tc main_v42)
      = aggregate (after ops V (Proc.devRef .tc main_v3)) (after ops V (Proc.devRef .tc main_v6)) (after ops V (Proc.devRef .tc main_v28)) (after ops V (Proc.devRef .tc main_v29)) := by
  rw [split4, after_mid hpost4 V (y := main_v42) (by decide),
    after_pre (pre := pre4) hpost3 V (x := main_v3) (by decide),
    after_pre (pre := pre4) hpost3 V (x := main_v6) (by decide),
    after_pre (pre := pre4) hpost3 V (x := main_v28) (by decide),
    after_pre (pre := pre4) hpost3 V (x := main_v29) (by decide)]
  exact seg4_v42 _

/-- At the end of @main: layer 1's rectified values. -/
theorem at_v46 (V : Valuation τ sig (Elt F)) :
    after ops V (Proc.devRef .tc main_v46)
      = biasRelu (after ops V (Proc.devRef .tc main_v42)) (after ops V (Proc.devRef .tc main_arg4)) := by
  rw [split5, after_mid hpost5 V (y := main_v46) (by decide),
    after_pre (pre := pre5) hpost4 V (x := main_v42) (by decide),
    after_pre (pre := pre5) hpost4 V (x := main_arg4) (by decide)]
  exact seg5_v46 _

/-- At the end of @main: layer 1's column means. -/
theorem at_v49 (V : Valuation τ sig (Elt F)) :
    after ops V (Proc.devRef .tc main_v49)
      = colMean (after ops V (Proc.devRef .tc main_v46)) := by
  rw [split6, after_mid hpost6 V (y := main_v49) (by decide),
    after_pre (pre := pre6) hpost5 V (x := main_v46) (by decide)]
  exact seg6_v49 _

/-- At the end of @main: layer 1's column variances. -/
theorem at_v50 (V : Valuation τ sig (Elt F)) :
    after ops V (Proc.devRef .tc main_v50)
      = colVar (after ops V (Proc.devRef .tc main_v46)) := by
  rw [split7, after_mid hpost7 V (y := main_v50) (by decide),
    after_pre (pre := pre7) hpost6 V (x := main_v46) (by decide)]
  exact seg7_v50 _

/-- At the end of @main: layer 1's output. -/
theorem at_v65 (V : Valuation τ sig (Elt F)) :
    after ops V (Proc.devRef .tc main_v65)
      = normalize (after ops V (Proc.devRef .tc main_v46)) (after ops V (Proc.devRef .tc main_v49)) (after ops V (Proc.devRef .tc main_v50)) (after ops V (Proc.devRef .tc main_arg5)) (after ops V (Proc.devRef .tc main_arg6)) := by
  rw [split8, after_mid hpost8 V (y := main_v65) (by decide),
    after_pre (pre := pre8) hpost7 V (x := main_v46) (by decide),
    after_pre (pre := pre8) hpost7 V (x := main_v49) (by decide),
    after_pre (pre := pre8) hpost7 V (x := main_v50) (by decide),
    after_pre (pre := pre8) hpost7 V (x := main_arg5) (by decide),
    after_pre (pre := pre8) hpost7 V (x := main_arg6) (by decide)]
  exact seg8_v65 _

/-- At the end of @main: layer 2's product. -/
theorem at_v66 (V : Valuation τ sig (Elt F)) :
    after ops V (Proc.devRef .tc main_v66)
      = dense2 (after ops V (Proc.devRef .tc main_v65)) (after ops V (Proc.devRef .tc main_arg7)) := by
  rw [split9, after_mid hpost9 V (y := main_v66) (by decide),
    after_pre (pre := pre9) hpost8 V (x := main_v65) (by decide),
    after_pre (pre := pre9) hpost8 V (x := main_arg7) (by decide)]
  exact seg9_v66 _

/-- At the end of @main: layer 2's aggregate. -/
theorem at_v79 (V : Valuation τ sig (Elt F)) :
    after ops V (Proc.devRef .tc main_v79)
      = aggregate (after ops V (Proc.devRef .tc main_v3)) (after ops V (Proc.devRef .tc main_v6)) (after ops V (Proc.devRef .tc main_v28)) (after ops V (Proc.devRef .tc main_v66)) := by
  rw [split10, after_mid hpost10 V (y := main_v79) (by decide),
    after_pre (pre := pre10) hpost9 V (x := main_v3) (by decide),
    after_pre (pre := pre10) hpost9 V (x := main_v6) (by decide),
    after_pre (pre := pre10) hpost9 V (x := main_v28) (by decide),
    after_pre (pre := pre10) hpost9 V (x := main_v66) (by decide)]
  exact seg10_v79 _

/-- At the end of @main: layer 2's rectified values. -/
theorem at_v83 (V : Valuation τ sig (Elt F)) :
    after ops V (Proc.devRef .tc main_v83)
      = biasRelu (after ops V (Proc.devRef .tc main_v79)) (after ops V (Proc.devRef .tc main_arg8)) := by
  rw [split11, after_mid hpost11 V (y := main_v83) (by decide),
    after_pre (pre := pre11) hpost10 V (x := main_v79) (by decide),
    after_pre (pre := pre11) hpost10 V (x := main_arg8) (by decide)]
  exact seg11_v83 _

/-- At the end of @main: layer 2's column means. -/
theorem at_v86 (V : Valuation τ sig (Elt F)) :
    after ops V (Proc.devRef .tc main_v86)
      = colMean (after ops V (Proc.devRef .tc main_v83)) := by
  rw [split12, after_mid hpost12 V (y := main_v86) (by decide),
    after_pre (pre := pre12) hpost11 V (x := main_v83) (by decide)]
  exact seg12_v86 _

/-- At the end of @main: layer 2's column variances. -/
theorem at_v87 (V : Valuation τ sig (Elt F)) :
    after ops V (Proc.devRef .tc main_v87)
      = colVar (after ops V (Proc.devRef .tc main_v83)) := by
  rw [split13, after_mid hpost13 V (y := main_v87) (by decide),
    after_pre (pre := pre13) hpost12 V (x := main_v83) (by decide)]
  exact seg13_v87 _

/-- At the end of @main: layer 2's output. -/
theorem at_v102 (V : Valuation τ sig (Elt F)) :
    after ops V (Proc.devRef .tc main_v102)
      = normalize (after ops V (Proc.devRef .tc main_v83)) (after ops V (Proc.devRef .tc main_v86)) (after ops V (Proc.devRef .tc main_v87)) (after ops V (Proc.devRef .tc main_arg9)) (after ops V (Proc.devRef .tc main_arg10)) := by
  rw [split14, after_mid hpost14 V (y := main_v102) (by decide),
    after_pre (pre := pre14) hpost13 V (x := main_v83) (by decide),
    after_pre (pre := pre14) hpost13 V (x := main_v86) (by decide),
    after_pre (pre := pre14) hpost13 V (x := main_v87) (by decide),
    after_pre (pre := pre14) hpost13 V (x := main_arg9) (by decide),
    after_pre (pre := pre14) hpost13 V (x := main_arg10) (by decide)]
  exact seg14_v102 _

/-- At the end of @main: layer 3's product. -/
theorem at_v103 (V : Valuation τ sig (Elt F)) :
    after ops V (Proc.devRef .tc main_v103)
      = dense2 (after ops V (Proc.devRef .tc main_v102)) (after ops V (Proc.devRef .tc main_arg11)) := by
  rw [split15, after_mid hpost15 V (y := main_v103) (by decide),
    after_pre (pre := pre15) hpost14 V (x := main_v102) (by decide),
    after_pre (pre := pre15) hpost14 V (x := main_arg11) (by decide)]
  exact seg15_v103 _

/-- At the end of @main: layer 3's aggregate. -/
theorem at_v116 (V : Valuation τ sig (Elt F)) :
    after ops V (Proc.devRef .tc main_v116)
      = aggregate (after ops V (Proc.devRef .tc main_v3)) (after ops V (Proc.devRef .tc main_v6)) (after ops V (Proc.devRef .tc main_v28)) (after ops V (Proc.devRef .tc main_v103)) := by
  rw [split16, after_mid hpost16 V (y := main_v116) (by decide),
    after_pre (pre := pre16) hpost15 V (x := main_v3) (by decide),
    after_pre (pre := pre16) hpost15 V (x := main_v6) (by decide),
    after_pre (pre := pre16) hpost15 V (x := main_v28) (by decide),
    after_pre (pre := pre16) hpost15 V (x := main_v103) (by decide)]
  exact seg16_v116 _

/-- At the end of @main: layer 3's rectified values. -/
theorem at_v120 (V : Valuation τ sig (Elt F)) :
    after ops V (Proc.devRef .tc main_v120)
      = biasRelu (after ops V (Proc.devRef .tc main_v116)) (after ops V (Proc.devRef .tc main_arg12)) := by
  rw [split17, after_mid hpost17 V (y := main_v120) (by decide),
    after_pre (pre := pre17) hpost16 V (x := main_v116) (by decide),
    after_pre (pre := pre17) hpost16 V (x := main_arg12) (by decide)]
  exact seg17_v120 _

/-- At the end of @main: layer 3's column means. -/
theorem at_v123 (V : Valuation τ sig (Elt F)) :
    after ops V (Proc.devRef .tc main_v123)
      = colMean (after ops V (Proc.devRef .tc main_v120)) := by
  rw [split18, after_mid hpost18 V (y := main_v123) (by decide),
    after_pre (pre := pre18) hpost17 V (x := main_v120) (by decide)]
  exact seg18_v123 _

/-- At the end of @main: layer 3's column variances. -/
theorem at_v124 (V : Valuation τ sig (Elt F)) :
    after ops V (Proc.devRef .tc main_v124)
      = colVar (after ops V (Proc.devRef .tc main_v120)) := by
  rw [split19, after_mid hpost19 V (y := main_v124) (by decide),
    after_pre (pre := pre19) hpost18 V (x := main_v120) (by decide)]
  exact seg19_v124 _

/-- At the end of @main: layer 3's output. -/
theorem at_v139 (V : Valuation τ sig (Elt F)) :
    after ops V (Proc.devRef .tc main_v139)
      = normalize (after ops V (Proc.devRef .tc main_v120)) (after ops V (Proc.devRef .tc main_v123)) (after ops V (Proc.devRef .tc main_v124)) (after ops V (Proc.devRef .tc main_arg13)) (after ops V (Proc.devRef .tc main_arg14)) := by
  rw [split20, after_mid hpost20 V (y := main_v139) (by decide),
    after_pre (pre := pre20) hpost19 V (x := main_v120) (by decide),
    after_pre (pre := pre20) hpost19 V (x := main_v123) (by decide),
    after_pre (pre := pre20) hpost19 V (x := main_v124) (by decide),
    after_pre (pre := pre20) hpost19 V (x := main_arg13) (by decide),
    after_pre (pre := pre20) hpost19 V (x := main_arg14) (by decide)]
  exact seg20_v139 _

/-- At the end of @main: the graphs' node counts. -/
theorem at_v145 (V : Valuation τ sig (Elt F)) :
    after ops V (Proc.devRef .tc main_v145)
      = segCount (after ops V (Proc.devRef .tc main_arg2)) := by
  rw [split21, after_mid hpost21 V (y := main_v145) (by decide),
    after_pre (pre := pre21) hpost20 V (x := main_arg2) (by decide)]
  exact seg21_v145 _

/-- At the end of @main: layer 1's graph means. -/
theorem at_v151 (V : Valuation τ sig (Elt F)) :
    after ops V (Proc.devRef .tc main_v151)
      = segMean (after ops V (Proc.devRef .tc main_arg2)) (after ops V (Proc.devRef .tc main_v145)) (after ops V (Proc.devRef .tc main_v65)) := by
  rw [split22, after_mid hpost22 V (y := main_v151) (by decide),
    after_pre (pre := pre22) hpost21 V (x := main_arg2) (by decide),
    after_pre (pre := pre22) hpost21 V (x := main_v145) (by decide),
    after_pre (pre := pre22) hpost21 V (x := main_v65) (by decide)]
  exact seg22_v151 _

/-- At the end of @main: layer 2's graph means. -/
theorem at_v157 (V : Valuation τ sig (Elt F)) :
    after ops V (Proc.devRef .tc main_v157)
      = segMean (after ops V (Proc.devRef .tc main_arg2)) (after ops V (Proc.devRef .tc main_v145)) (after ops V (Proc.devRef .tc main_v102)) := by
  rw [split23, after_mid hpost23 V (y := main_v157) (by decide),
    after_pre (pre := pre23) hpost22 V (x := main_arg2) (by decide),
    after_pre (pre := pre23) hpost22 V (x := main_v145) (by decide),
    after_pre (pre := pre23) hpost22 V (x := main_v102) (by decide)]
  exact seg23_v157 _

/-- At the end of @main: layer 3's graph means. -/
theorem at_v163 (V : Valuation τ sig (Elt F)) :
    after ops V (Proc.devRef .tc main_v163)
      = segMean (after ops V (Proc.devRef .tc main_arg2)) (after ops V (Proc.devRef .tc main_v145)) (after ops V (Proc.devRef .tc main_v139)) := by
  rw [split24, after_mid hpost24 V (y := main_v163) (by decide),
    after_pre (pre := pre24) hpost23 V (x := main_arg2) (by decide),
    after_pre (pre := pre24) hpost23 V (x := main_v145) (by decide),
    after_pre (pre := pre24) hpost23 V (x := main_v139) (by decide)]
  exact seg24_v163 _

/-- At the end of @main: the node values side by side. -/
theorem at_v164 (V : Valuation τ sig (Elt F)) :
    after ops V (Proc.devRef .tc main_v164)
      = catNodes (after ops V (Proc.devRef .tc main_v65)) (after ops V (Proc.devRef .tc main_v102)) (after ops V (Proc.devRef .tc main_v139)) := by
  rw [split25, after_mid hpost25 V (y := main_v164) (by decide),
    after_pre (pre := pre25) hpost24 V (x := main_v65) (by decide),
    after_pre (pre := pre25) hpost24 V (x := main_v102) (by decide),
    after_pre (pre := pre25) hpost24 V (x := main_v139) (by decide)]
  exact seg25_v164 _

/-- At the end of @main: the graph means side by side. -/
theorem at_v165 (V : Valuation τ sig (Elt F)) :
    after ops V (Proc.devRef .tc main_v165)
      = catGraphs (after ops V (Proc.devRef .tc main_v151)) (after ops V (Proc.devRef .tc main_v157)) (after ops V (Proc.devRef .tc main_v163)) := by
  rw [split26, after_mid hpost26 V (y := main_v165) (by decide),
    after_pre (pre := pre26) hpost25 V (x := main_v151) (by decide),
    after_pre (pre := pre26) hpost25 V (x := main_v157) (by decide),
    after_pre (pre := pre26) hpost25 V (x := main_v163) (by decide)]
  exact seg26_v165 _

/-- At the end of @main: the first result. -/
theorem at_v170 (V : Valuation τ sig (Elt F)) :
    after ops V (Proc.devRef .tc main_v170)
      = rowNormNodes (after ops V (Proc.devRef .tc main_v164)) := by
  rw [split27, after_mid hpost27 V (y := main_v170) (by decide),
    after_pre (pre := pre27) hpost26 V (x := main_v164) (by decide)]
  exact seg27_v170 _

/-- At the end of @main: the second result. -/
theorem at_v175 (V : Valuation τ sig (Elt F)) :
    after ops V (Proc.devRef .tc main_v175)
      = rowNormGraphs (after ops V (Proc.devRef .tc main_v165)) := by
  rw [split28, after_mid hpost28 V (y := main_v175) (by decide),
    after_pre (pre := pre28) hpost27 V (x := main_v165) (by decide)]
  exact seg28_v175 _

/-! ## The arguments at the end of @main: unchanged -/

theorem at_arg0 (V : Valuation τ sig (Elt F)) :
    after ops V (Proc.devRef .tc main_arg0) = V (Proc.devRef .tc main_arg0) :=
  after_keep V main_arg0 (by decide) (by decide) (by decide) (by decide)

theorem at_arg1 (V : Valuation τ sig (Elt F)) :
    after ops V (Proc.devRef .tc main_arg1) = V (Proc.devRef .tc main_arg1) :=
  after_keep V main_arg1 (by decide) (by decide) (by decide) (by decide)

theorem at_arg2 (V : Valuation τ sig (Elt F)) :
    after ops V (Proc.devRef .tc main_arg2) = V (Proc.devRef .tc main_arg2) :=
  after_keep V main_arg2 (by decide) (by decide) (by decide) (by decide)

theorem at_arg3 (V : Valuation τ sig (Elt F)) :
    after ops V (Proc.devRef .tc main_arg3) = V (Proc.devRef .tc main_arg3) :=
  after_keep V main_arg3 (by decide) (by decide) (by decide) (by decide)

theorem at_arg4 (V : Valuation τ sig (Elt F)) :
    after ops V (Proc.devRef .tc main_arg4) = V (Proc.devRef .tc main_arg4) :=
  after_keep V main_arg4 (by decide) (by decide) (by decide) (by decide)

theorem at_arg5 (V : Valuation τ sig (Elt F)) :
    after ops V (Proc.devRef .tc main_arg5) = V (Proc.devRef .tc main_arg5) :=
  after_keep V main_arg5 (by decide) (by decide) (by decide) (by decide)

theorem at_arg6 (V : Valuation τ sig (Elt F)) :
    after ops V (Proc.devRef .tc main_arg6) = V (Proc.devRef .tc main_arg6) :=
  after_keep V main_arg6 (by decide) (by decide) (by decide) (by decide)

theorem at_arg7 (V : Valuation τ sig (Elt F)) :
    after ops V (Proc.devRef .tc main_arg7) = V (Proc.devRef .tc main_arg7) :=
  after_keep V main_arg7 (by decide) (by decide) (by decide) (by decide)

theorem at_arg8 (V : Valuation τ sig (Elt F)) :
    after ops V (Proc.devRef .tc main_arg8) = V (Proc.devRef .tc main_arg8) :=
  after_keep V main_arg8 (by decide) (by decide) (by decide) (by decide)

theorem at_arg9 (V : Valuation τ sig (Elt F)) :
    after ops V (Proc.devRef .tc main_arg9) = V (Proc.devRef .tc main_arg9) :=
  after_keep V main_arg9 (by decide) (by decide) (by decide) (by decide)

theorem at_arg10 (V : Valuation τ sig (Elt F)) :
    after ops V (Proc.devRef .tc main_arg10) = V (Proc.devRef .tc main_arg10) :=
  after_keep V main_arg10 (by decide) (by decide) (by decide) (by decide)

theorem at_arg11 (V : Valuation τ sig (Elt F)) :
    after ops V (Proc.devRef .tc main_arg11) = V (Proc.devRef .tc main_arg11) :=
  after_keep V main_arg11 (by decide) (by decide) (by decide) (by decide)

theorem at_arg12 (V : Valuation τ sig (Elt F)) :
    after ops V (Proc.devRef .tc main_arg12) = V (Proc.devRef .tc main_arg12) :=
  after_keep V main_arg12 (by decide) (by decide) (by decide) (by decide)

theorem at_arg13 (V : Valuation τ sig (Elt F)) :
    after ops V (Proc.devRef .tc main_arg13) = V (Proc.devRef .tc main_arg13) :=
  after_keep V main_arg13 (by decide) (by decide) (by decide) (by decide)

theorem at_arg14 (V : Valuation τ sig (Elt F)) :
    after ops V (Proc.devRef .tc main_arg14) = V (Proc.devRef .tc main_arg14) :=
  after_keep V main_arg14 (by decide) (by decide) (by decide) (by decide)

end Cert.ReferenceIdeal.RefRun

end
-- ==== Proof.Spec.lean ====
/-
  The shared pieces of the graph convolution as pure array functions, spelled with the operations both programs apply:
  the index wrap of a gather, the normalized aggregation over the edges (gather the source rows, scale each by its edge
  weight, add into the destination rows), the per-column mean, the reshapes between a vector and a one-row matrix, the
  graph pooling and the row normalization at the end.
-/
import proofs.«100384_j8693013807615_2_alg».proof.Proof.Gen.KernelIdeal

noncomputable section

namespace Cert.Spec

open Cert.KernelIdeal Cert.KernelIdeal.Facts₀ Idealize.ShloMosaic

variable {F : FTy → Type} [FloatOps F]

/-- A negative index counts from the end: add the extent when the word reads negative. -/
def wrapIdx (v : (⟨S850000, .i32⟩ : BufTy).Contents (Elt F)) : (⟨S850000, .i32⟩ : BufTy).Contents (Elt F) :=
  select (cmpi .slt v (broadcastInDim S850000 ![] bcast_S_S850000 (constantI S_ 32 0#32)))
    (addi v (broadcastInDim S850000 ![] bcast_S_S850000 (constantI S_ 32 50000#32))) v

/-- An index vector as a one-column index matrix. -/
def colIdx (v : (⟨S850000, .i32⟩ : BufTy).Contents (Elt F)) : (⟨S850000x1, .i32⟩ : BufTy).Contents (Elt F) :=
  broadcastInDim S850000x1 ![0] bcast_S850000_S850000x1_0 v

/-- The aggregation over the edges: row dst(e) of the result collects row src(e) of h scaled by the edge weight nw(e). -/
def agg (src dst : (⟨S850000, .i32⟩ : BufTy).Contents (Elt F)) (nw : (⟨S850000, .f32⟩ : BufTy).Contents (Elt F))
    (h : (⟨S50000x64, .f32⟩ : BufTy).Contents (Elt F)) : (⟨S50000x64, .f32⟩ : BufTy).Contents (Elt F) :=
  Host.scatterAdd scatter_S50000x64_S850000x1_S850000x64_1_0_0_1
    (broadcastInDim S50000x64 ![] bcast_S_S50000x64 (constant S_ .f32 0x00000000#32))
    (colIdx dst)
    (mulf (Host.gather gather_S50000x64_S850000x1_S850000x64_1_0_n_n_0_1_164 h (colIdx (wrapIdx src)))
      (broadcastInDim S850000x64 ![0, 1] bcast_S850000x1_S850000x64_0_1
        (broadcastInDim S850000x1 ![0] bcast_S850000_S850000x1_0 nw)))

/-- A vector of 64 entries laid out as a one-row matrix, and back. -/
def rowOf (x : (⟨S64, .f32⟩ : BufTy).Contents (Elt F)) : (⟨S1x64, .f32⟩ : BufTy).Contents (Elt F) :=
  fun i => shapeCast S1x64 x shapeCasts_S64_S1x64 i
def vecOf (x : (⟨S1x64, .f32⟩ : BufTy).Contents (Elt F)) : (⟨S64, .f32⟩ : BufTy).Contents (Elt F) :=
  fun i => shapeCast S64 x shapeCasts_S1x64_S64 i

/-- A column total divided by the number of rows, 50000. -/
def perRow (s : (⟨S64, .f32⟩ : BufTy).Contents (Elt F)) : (⟨S64, .f32⟩ : BufTy).Contents (Elt F) :=
  Host.divf s (broadcastInDim S64 ![] bcast_S_S64 (constant S_ .f32 0x47435000#32))

/-- The variance as the mean of squares minus the squared mean. -/
def varOfSums (s ss : (⟨S64, .f32⟩ : BufTy).Contents (Elt F)) : (⟨S64, .f32⟩ : BufTy).Contents (Elt F) :=
  subf (perRow ss) (mulf (perRow s) (perRow s))

end Cert.Spec

end
-- ==== Proof.SpecShared.lean ====
/-
  More of what the two programs share, as pure array functions: the edge list's two rows with the self-loops appended,
  the edges' weights from the in-degrees, the mean of a layer's rows over each graph, the two concatenations and the
  two row normalizations at the end.
-/
import proofs.«100384_j8693013807615_2_alg».proof.Proof.Spec

noncomputable section

namespace Cert.Spec

open Cert.KernelIdeal Cert.KernelIdeal.Facts₀ Idealize.ShloMosaic

variable {F : FTy → Type} [FloatOps F]

/-- Row `0` of the edge list (the sources) followed by the self-loops' `0 … 49999`. -/
def edgeSrc (e : (⟨S2x800000, .i32⟩ : BufTy).Contents (Elt F)) : (⟨S850000, .i32⟩ : BufTy).Contents (Elt F) :=
  concatenate S850000 0
    [⟨S800000, fun i => shapeCast S800000 (extractStridedSlice S1x800000 ![0, 0] e slices_S2x800000_S1x800000_0_0) shapeCasts_S1x800000_S800000 i⟩,
     ⟨S50000, iotaInDim S50000 32 0⟩] concatenates_S800000_S50000_S850000_d0

/-- Row `1` of the edge list (the destinations) followed by the self-loops' `0 … 49999`. -/
def edgeDst (e : (⟨S2x800000, .i32⟩ : BufTy).Contents (Elt F)) : (⟨S850000, .i32⟩ : BufTy).Contents (Elt F) :=
  concatenate S850000 0
    [⟨S800000, fun i => shapeCast S800000 (extractStridedSlice S1x800000 ![1, 0] e slices_S2x800000_S1x800000_1_0) shapeCasts_S1x800000_S800000 i⟩,
     ⟨S50000, iotaInDim S50000 32 0⟩] concatenates_S800000_S50000_S850000_d0

/-- `1 / sqrt (max (in-degree) 1)` per node: the in-degree is the scatter-addition of ones at the destinations. -/
def invSqrtDeg (dst : (⟨S850000, .i32⟩ : BufTy).Contents (Elt F)) : (⟨S50000, .f32⟩ : BufTy).Contents (Elt F) :=
  Host.rsqrt (maximumf
    (Host.scatterAdd scatter_S50000_S850000x1_S850000_n_0_0_1
      (broadcastInDim S50000 ![] bcast_S_S50000 (constant S_ .f32 0x00000000#32)) (colIdx dst)
      (broadcastInDim S850000 ![] bcast_S_S850000 (constant S_ .f32 0x3F800000#32)))
    (broadcastInDim S50000 ![] bcast_S_S50000 (constant S_ .f32 0x3F800000#32)))

/-- The weight of each edge: the product of `invSqrtDeg` at its source and at its destination. -/
def edgeWeight (src dst : (⟨S850000, .i32⟩ : BufTy).Contents (Elt F)) : (⟨S850000, .f32⟩ : BufTy).Contents (Elt F) :=
  mulf (Host.gather gather_S50000_S850000x1_S850000_n_0_n_n_0_1_1 (invSqrtDeg dst) (colIdx (wrapIdx src)))
    (Host.gather gather_S50000_S850000x1_S850000_n_0_n_n_0_1_1 (invSqrtDeg dst) (colIdx (wrapIdx dst)))

/-- The number of nodes of each of the 256 graphs, at least one. -/
def segCount (batch : (⟨S50000, .i32⟩ : BufTy).Contents (Elt F)) : (⟨S256, .f32⟩ : BufTy).Contents (Elt F) :=
  maximumf
    (Host.scatterAdd scatter_S256_S50000x1_S50000_n_0_0_1
      (broadcastInDim S256 ![] bcast_S_S256 (constant S_ .f32 0x00000000#32))
      (broadcastInDim S50000x1 ![0] bcast_S50000_S50000x1_0 batch)
      (broadcastInDim S50000 ![] bcast_S_S50000 (constant S_ .f32 0x3F800000#32)))
    (broadcastInDim S256 ![] bcast_S_S256 (constant S_ .f32 0x3F800000#32))

/-- The mean of a layer's rows over each graph: the rows added into their graph's row, divided by the graph's count. -/
def segMean (batch : (⟨S50000, .i32⟩ : BufTy).Contents (Elt F)) (cnt : (⟨S256, .f32⟩ : BufTy).Contents (Elt F))
    (x : (⟨S50000x64, .f32⟩ : BufTy).Contents (Elt F)) : (⟨S256x64, .f32⟩ : BufTy).Contents (Elt F) :=
  Host.divf
    (Host.scatterAdd scatter_S256x64_S50000x1_S50000x64_1_0_0_1
      (broadcastInDim S256x64 ![] bcast_S_S256x64 (constant S_ .f32 0x00000000#32))
      (broadcastInDim S50000x1 ![0] bcast_S50000_S50000x1_0 batch) x)
    (broadcastInDim S256x64 ![0, 1] bcast_S256x1_S256x64_0_1 (broadcastInDim S256x1 ![0] bcast_S256_S256x1_0 cnt))

/-- The three layers' node values side by side. -/
def catNodes (a b c : (⟨S50000x64, .f32⟩ : BufTy).Contents (Elt F)) : (⟨S50000x192, .f32⟩ : BufTy).Contents (Elt F) :=
  concatenate S50000x192 1 [⟨S50000x64, a⟩, ⟨S50000x64, b⟩, ⟨S50000x64, c⟩] concatenates_S50000x64_S50000x64_S50000x64_S50000x192_d1

/-- The three layers' graph means side by side. -/
def catGraphs (a b c : (⟨S256x64, .f32⟩ : BufTy).Contents (Elt F)) : (⟨S256x192, .f32⟩ : BufTy).Contents (Elt F) :=
  concatenate S256x192 1 [⟨S256x64, a⟩, ⟨S256x64, b⟩, ⟨S256x64, c⟩] concatenates_S256x64_S256x64_S256x64_S256x192_d1

/-- Each node's row divided by its Euclidean norm, the norm at least `1e-12`. -/
def rowNormNodes (x : (⟨S50000x192, .f32⟩ : BufTy).Contents (Elt F)) : (⟨S50000x192, .f32⟩ : BufTy).Contents (Elt F) :=
  Host.divf x (broadcastInDim S50000x192 ![0, 1] bcast_S50000x1_S50000x192_0_1
    (maximumf
      (Host.sqrt (broadcastInDim S50000x1 ![0] bcast_S50000_S50000x1_0
        (Host.reduceAdd (mulf x x) (constant S_ .f32 0x00000000#32) reducesTo_S50000x192_S50000_d1 h_S_)))
      (broadcastInDim S50000x1 ![] bcast_S_S50000x1 (constant S_ .f32 0x2B8CBCCC#32))))

/-- Each graph's row divided by its Euclidean norm, the norm at least `1e-12`. -/
def rowNormGraphs (x : (⟨S256x192, .f32⟩ : BufTy).Contents (Elt F)) : (⟨S256x192, .f32⟩ : BufTy).Contents (Elt F) :=
  Host.divf x (broadcastInDim S256x192 ![0, 1] bcast_S256x1_S256x192_0_1
    (maximumf
      (Host.sqrt (broadcastInDim S256x1 ![0] bcast_S256_S256x1_0
        (Host.reduceAdd (mulf x x) (constant S_ .f32 0x00000000#32) reducesTo_S256x192_S256_d1 h_S_)))
      (broadcastInDim S256x1 ![] bcast_S_S256x1 (constant S_ .f32 0x2B8CBCCC#32))))

end Cert.Spec

end
-- ==== Proof.RefRunSpec.lean ====
import proofs.«100384_j8693013807615_2_alg».proof.Proof.RefRunRead
import proofs.«100384_j8693013807615_2_alg».proof.Proof.SpecShared

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The reference's stages are the shared functions

The two printed programs state the same shapes (the same literals), the same dimension records (the same data) and the
same side conditions (proofs), each under its own names; so a stage of the reference spelled with the reference's names
is, by unfolding the names, the shared function spelled with the other program's. -/

theorem edgeSrc_eq (e : Ten F S2x800000 .i32) : edgeSrc e = Cert.Spec.edgeSrc e := rfl
theorem edgeDst_eq (e : Ten F S2x800000 .i32) : edgeDst e = Cert.Spec.edgeDst e := rfl
theorem wrapIdx_eq (a : Ten F S850000 .i32) : wrapIdx a = Cert.Spec.colIdx (Cert.Spec.wrapIdx a) := rfl
theorem idxCol_eq (a : Ten F S850000 .i32) : idxCol a = Cert.Spec.colIdx a := rfl
theorem invSqrtDeg_eq (dst : Ten F S850000 .i32) : invSqrtDeg dst = Cert.Spec.invSqrtDeg dst := rfl
theorem edgeWeight_eq (src dst : Ten F S850000 .i32) : edgeWeight src dst = Cert.Spec.edgeWeight src dst := rfl
theorem aggregate_eq (src dst : Ten F S850000 .i32) (ew : Ten F S850000 .f32) (h : Ten F S50000x64 .f32) :
    aggregate src dst ew h = Cert.Spec.agg src dst ew h := rfl
theorem colMean_eq (x : Ten F S50000x64 .f32) : colMean x = Cert.Spec.perRow (colSum x) := rfl
theorem segCount_eq (batch : Ten F S50000 .i32) : segCount batch = Cert.Spec.segCount batch := rfl
theorem segMean_eq (batch : Ten F S50000 .i32) (cnt : Ten F S256 .f32) (x : Ten F S50000x64 .f32) :
    segMean batch cnt x = Cert.Spec.segMean batch cnt x := rfl
theorem catNodes_eq (a b c : Ten F S50000x64 .f32) : catNodes a b c = Cert.Spec.catNodes a b c := rfl
theorem catGraphs_eq (a b c : Ten F S256x64 .f32) : catGraphs a b c = Cert.Spec.catGraphs a b c := rfl
theorem rowNormNodes_eq (x : Ten F S50000x192 .f32) : rowNormNodes x = Cert.Spec.rowNormNodes x := rfl
theorem rowNormGraphs_eq (x : Ten F S256x192 .f32) : rowNormGraphs x = Cert.Spec.rowNormGraphs x := rfl

/-! ## The shared stages at the end of @main, spelled with the shared functions -/

theorem spec_v3 (V : Valuation τ sig (Elt F)) :
    after ops V (Proc.devRef .tc main_v3)
      = Cert.Spec.edgeSrc (after ops V (Proc.devRef .tc main_arg1)) :=
  (at_v3 V).trans (edgeSrc_eq _)

theorem spec_v6 (V : Valuation τ sig (Elt F)) :
    after ops V (Proc.devRef .tc main_v6)
      = Cert.Spec.edgeDst (after ops V (Proc.devRef .tc main_arg1)) :=
  (at_v6 V).trans (edgeDst_eq _)

theorem spec_v28 (V : Valuation τ sig (Elt F)) :
    after ops V (Proc.devRef .tc main_v28)
      = Cert.Spec.edgeWeight (after ops V (Proc.devRef .tc main_v3)) (after ops V (Proc.devRef .tc main_v6)) :=
  (at_v28 V).trans (edgeWeight_eq _ _)

theorem spec_v42 (V : Valuation τ sig (Elt F)) :
    after ops V (Proc.devRef .tc main_v42)
      = Cert.Spec.agg (after ops V (Proc.devRef .tc main_v3)) (after ops V (Proc.devRef .tc main_v6)) (after ops V (Proc.devRef .tc main_v28)) (after ops V (Proc.devRef .tc main_v29)) :=
  (at_v42 V).trans (aggregate_eq _ _ _ _)

theorem spec_v79 (V : Valuation τ sig (Elt F)) :
    after ops V (Proc.devRef .tc main_v79)
      = Cert.Spec.agg (after ops V (Proc.devRef .tc main_v3)) (after ops V (Proc.devRef .tc main_v6)) (after ops V (Proc.devRef .tc main_v28)) (after ops V (Proc.devRef .tc main_v66)) :=
  (at_v79 V).trans (aggregate_eq _ _ _ _)

theorem spec_v116 (V : Valuation τ sig (Elt F)) :
    after ops V (Proc.devRef .tc main_v116)
      = Cert.Spec.agg (after ops V (Proc.devRef .tc main_v3)) (after ops V (Proc.devRef .tc main_v6)) (after ops V (Proc.devRef .tc main_v28)) (after ops V (Proc.devRef .tc main_v103)) :=
  (at_v116 V).trans (aggregate_eq _ _ _ _)

theorem spec_v49 (V : Valuation τ sig (Elt F)) :
    after ops V (Proc.devRef .tc main_v49)
      = Cert.Spec.perRow (colSum (after ops V (Proc.devRef .tc main_v46))) :=
  (at_v49 V).trans (colMean_eq _)

theorem spec_v86 (V : Valuation τ sig (Elt F)) :
    after ops V (Proc.devRef .tc main_v86)
      = Cert.Spec.perRow (colSum (after ops V (Proc.devRef .tc main_v83))) :=
  (at_v86 V).trans (colMean_eq _)

theorem spec_v123 (V : Valuation τ sig (Elt F)) :
    after ops V (Proc.devRef .tc main_v123)
      = Cert.Spec.perRow (colSum (after ops V (Proc.devRef .tc main_v120))) :=
  (at_v123 V).trans (colMean_eq _)

theorem spec_v145 (V : Valuation τ sig (Elt F)) :
    after ops V (Proc.devRef .tc main_v145)
      = Cert.Spec.segCount (after ops V (Proc.devRef .tc main_arg2)) :=
  (at_v145 V).trans (segCount_eq _)

theorem spec_v151 (V : Valuation τ sig (Elt F)) :
    after ops V (Proc.devRef .tc main_v151)
      = Cert.Spec.segMean (after ops V (Proc.devRef .tc main_arg2)) (after ops V (Proc.devRef .tc main_v145)) (after ops V (Proc.devRef .tc main_v65)) :=
  (at_v151 V).trans (segMean_eq _ _ _)

theorem spec_v157 (V : Valuation τ sig (Elt F)) :
    after ops V (Proc.devRef .tc main_v157)
      = Cert.Spec.segMean (after ops V (Proc.devRef .tc main_arg2)) (after ops V (Proc.devRef .tc main_v145)) (after ops V (Proc.devRef .tc main_v102)) :=
  (at_v157 V).trans (segMean_eq _ _ _)

theorem spec_v163 (V : Valuation τ sig (Elt F)) :
    after ops V (Proc.devRef .tc main_v163)
      = Cert.Spec.segMean (after ops V (Proc.devRef .tc main_arg2)) (after ops V (Proc.devRef .tc main_v145)) (after ops V (Proc.devRef .tc main_v139)) :=
  (at_v163 V).trans (segMean_eq _ _ _)

theorem spec_v164 (V : Valuation τ sig (Elt F)) :
    after ops V (Proc.devRef .tc main_v164)
      = Cert.Spec.catNodes (after ops V (Proc.devRef .tc main_v65)) (after ops V (Proc.devRef .tc main_v102)) (after ops V (Proc.devRef .tc main_v139)) :=
  (at_v164 V).trans (catNodes_eq _ _ _)

theorem spec_v165 (V : Valuation τ sig (Elt F)) :
    after ops V (Proc.devRef .tc main_v165)
      = Cert.Spec.catGraphs (after ops V (Proc.devRef .tc main_v151)) (after ops V (Proc.devRef .tc main_v157)) (after ops V (Proc.devRef .tc main_v163)) :=
  (at_v165 V).trans (catGraphs_eq _ _ _)

theorem spec_v170 (V : Valuation τ sig (Elt F)) :
    after ops V (Proc.devRef .tc main_v170)
      = Cert.Spec.rowNormNodes (after ops V (Proc.devRef .tc main_v164)) :=
  (at_v170 V).trans (rowNormNodes_eq _)

theorem spec_v175 (V : Valuation τ sig (Elt F)) :
    after ops V (Proc.devRef .tc main_v175)
      = Cert.Spec.rowNormGraphs (after ops V (Proc.devRef .tc main_v165)) :=
  (at_v175 V).trans (rowNormGraphs_eq _)

end Cert.ReferenceIdeal.RefRun

end
-- ==== Proof.RefRunOut.lean ====
import proofs.«100384_j8693013807615_2_alg».proof.Proof.RefRunSpec

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The reference's values as functions of @main's arguments

`x` the node features, `e` the edge list, `batch` each node's graph; per layer the weight matrix `w`, the bias `b`, the
normalization's scale `g` and shift `be`. The shared pieces are `Cert.Spec`'s; the product, the bias and rectifier, the
mean's sum, the variance and the normalization are the reference's own. -/

/-- A layer's rectified values from its product `xw`: aggregated over the edges, biased, rectified. -/
def layerAct (e : Ten F S2x800000 .i32) (xw : Ten F S50000x64 .f32) (b : Ten F S64 .f32) : Ten F S50000x64 .f32 :=
  biasRelu (Cert.Spec.agg (Cert.Spec.edgeSrc e) (Cert.Spec.edgeDst e)
    (Cert.Spec.edgeWeight (Cert.Spec.edgeSrc e) (Cert.Spec.edgeDst e)) xw) b

/-- A layer's output from its product: the rectified values normalized by their column mean and variance. -/
def layerOut (e : Ten F S2x800000 .i32) (xw : Ten F S50000x64 .f32) (b g be : Ten F S64 .f32) : Ten F S50000x64 .f32 :=
  normalize (layerAct e xw b) (Cert.Spec.perRow (colSum (layerAct e xw b))) (colVar (layerAct e xw b)) g be

/-- The first layer's output. -/
def h1 (x : Ten F S50000x128 .f32) (e : Ten F S2x800000 .i32) (w1 : Ten F S128x64 .f32) (b1 g1 be1 : Ten F S64 .f32) :
    Ten F S50000x64 .f32 :=
  layerOut e (dense1 x w1) b1 g1 be1

/-- The second layer's output. -/
def h2 (x : Ten F S50000x128 .f32) (e : Ten F S2x800000 .i32) (w1 : Ten F S128x64 .f32) (b1 g1 be1 : Ten F S64 .f32)
    (w2 : Ten F S64x64 .f32) (b2 g2 be2 : Ten F S64 .f32) : Ten F S50000x64 .f32 :=
  layerOut e (dense2 (h1 x e w1 b1 g1 be1) w2) b2 g2 be2

/-- The third layer's output. -/
def h3 (x : Ten F S50000x128 .f32) (e : Ten F S2x800000 .i32) (w1 : Ten F S128x64 .f32) (b1 g1 be1 : Ten F S64 .f32)
    (w2 : Ten F S64x64 .f32) (b2 g2 be2 : Ten F S64 .f32) (w3 : Ten F S64x64 .f32) (b3 g3 be3 : Ten F S64 .f32) :
    Ten F S50000x64 .f32 :=
  layerOut e (dense2 (h2 x e w1 b1 g1 be1 w2 b2 g2 be2) w3) b3 g3 be3

/-- @main's first result: the three layers' node values side by side, each row normalized. -/
def out0 (x : Ten F S50000x128 .f32) (e : Ten F S2x800000 .i32) (w1 : Ten F S128x64 .f32) (b1 g1 be1 : Ten F S64 .f32)
    (w2 : Ten F S64x64 .f32) (b2 g2 be2 : Ten F S64 .f32) (w3 : Ten F S64x64 .f32) (b3 g3 be3 : Ten F S64 .f32) :
    Ten F S50000x192 .f32 :=
  Cert.Spec.rowNormNodes (Cert.Spec.catNodes (h1 x e w1 b1 g1 be1) (h2 x e w1 b1 g1 be1 w2 b2 g2 be2)
    (h3 x e w1 b1 g1 be1 w2 b2 g2 be2 w3 b3 g3 be3))

/-- @main's second result: the three layers' means over each graph side by side, each row normalized. -/
def out1 (x : Ten F S50000x128 .f32) (e : Ten F S2x800000 .i32) (batch : Ten F S50000 .i32) (w1 : Ten F S128x64 .f32)
    (b1 g1 be1 : Ten F S64 .f32) (w2 : Ten F S64x64 .f32) (b2 g2 be2 : Ten F S64 .f32) (w3 : Ten F S64x64 .f32)
    (b3 g3 be3 : Ten F S64 .f32) : Ten F S256x192 .f32 :=
  Cert.Spec.rowNormGraphs (Cert.Spec.catGraphs
    (Cert.Spec.segMean batch (Cert.Spec.segCount batch) (h1 x e w1 b1 g1 be1))
    (Cert.Spec.segMean batch (Cert.Spec.segCount batch) (h2 x e w1 b1 g1 be1 w2 b2 g2 be2))
    (Cert.Spec.segMean batch (Cert.Spec.segCount batch) (h3 x e w1 b1 g1 be1 w2 b2 g2 be2 w3 b3 g3 be3)))

/-! ## The stages read back from the arguments

Each end value is rewritten by its stage's equation, the stages it reads by theirs, down to the arguments. -/

theorem read_v3 (V : Valuation τ sig (Elt F)) :
    after ops V (Proc.devRef .tc main_v3) = Cert.Spec.edgeSrc (V (Proc.devRef .tc main_arg1)) := by
  rw [spec_v3, at_arg1]

theorem read_v6 (V : Valuation τ sig (Elt F)) :
    after ops V (Proc.devRef .tc main_v6) = Cert.Spec.edgeDst (V (Proc.devRef .tc main_arg1)) := by
  rw [spec_v6, at_arg1]

theorem read_v28 (V : Valuation τ sig (Elt F)) :
    after ops V (Proc.devRef .tc main_v28)
      = Cert.Spec.edgeWeight (Cert.Spec.edgeSrc (V (Proc.devRef .tc main_arg1))) (Cert.Spec.edgeDst (V (Proc.devRef .tc main_arg1))) := by
  rw [spec_v28, read_v3, read_v6]

theorem read_v46 (V : Valuation τ sig (Elt F)) :
    after ops V (Proc.devRef .tc main_v46) = layerAct (V (Proc.devRef .tc main_arg1)) (dense1 (V (Proc.devRef .tc main_arg0)) (V (Proc.devRef .tc main_arg3))) (V (Proc.devRef .tc main_arg4)) := by
  rw [layerAct, at_v46, spec_v42, at_v29, read_v28, read_v3, read_v6, at_arg0, at_arg3, at_arg4]

theorem read_v65 (V : Valuation τ sig (Elt F)) :
    after ops V (Proc.devRef .tc main_v65) = h1 (V (Proc.devRef .tc main_arg0)) (V (Proc.devRef .tc main_arg1)) (V (Proc.devRef .tc main_arg3)) (V (Proc.devRef .tc main_arg4)) (V (Proc.devRef .tc main_arg5)) (V (Proc.devRef .tc main_arg6)) := by
  rw [h1, layerOut, at_v65, spec_v49, at_v50, read_v46, at_arg5, at_arg6]

theorem read_v83 (V : Valuation τ sig (Elt F)) :
    after ops V (Proc.devRef .tc main_v83)
      = layerAct (V (Proc.devRef .tc main_arg1)) (dense2 (h1 (V (Proc.devRef .tc main_arg0)) (V (Proc.devRef .tc main_arg1)) (V (Proc.devRef .tc main_arg3)) (V (Proc.devRef .tc main_arg4)) (V (Proc.devRef .tc main_arg5)) (V (Proc.devRef .tc main_arg6))) (V (Proc.devRef .tc main_arg7))) (V (Proc.devRef .tc main_arg8)) := by
  rw [layerAct, at_v83, spec_v79, at_v66, read_v65, read_v28, read_v3, read_v6, at_arg7, at_arg8]

theorem read_v102 (V : Valuation τ sig (Elt F)) :
    after ops V (Proc.devRef .tc main_v102)
      = h2 (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  rw [h2, layerOut, at_v102, spec_v86, at_v87, read_v83, at_arg9, at_arg10]

theorem read_v120 (V : Valuation τ sig (Elt F)) :
    after ops V (Proc.devRef .tc main_v120)
      = layerAct (V (Proc.devRef .tc main_arg1)) (dense2 (h2 (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10))) (V (Proc.devRef .tc main_arg11))) (V (Proc.devRef .tc main_arg12)) := by
  rw [layerAct, at_v120, spec_v116, at_v103, read_v102, read_v28, read_v3, read_v6, at_arg11, at_arg12]

theorem read_v139 (V : Valuation τ sig (Elt F)) :
    after ops V (Proc.devRef .tc main_v139)
      = h3 (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) := by
  rw [h3, layerOut, at_v139, spec_v123, at_v124, read_v120, at_arg13, at_arg14]

/-- @main's first result, from its arguments. -/
theorem read_v170 (V : Valuation τ sig (Elt F)) :
    after ops V (Proc.devRef .tc main_v170)
      = out0 (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) := by
  rw [out0, spec_v170, spec_v164, read_v65, read_v102, read_v139]

/-- @main's second result, from its arguments. -/
theorem read_v175 (V : Valuation τ sig (Elt F)) :
    after ops V (Proc.devRef .tc main_v175)
      = out1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) := by
  rw [out1, spec_v175, spec_v165, spec_v151, spec_v157, spec_v163, spec_v145, read_v65, read_v102, read_v139, at_arg2]

/-! ## The run, read back -/

/-- On every device, for any float values, from any memory with zero counters: every weakly fair execution of @main
    terminates with its two results at `out0` and `out1` of the arguments' launch contents, the arguments unchanged. -/
theorem run_out (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v170)
        = out0 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_v175)
        = out1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c => ⟨(h c).1.trans (read_v170 (launchContents m c)),
      (h c).2.1.trans (read_v175 (launchContents m c)), (h c).2.2⟩) (run m ρ)

end Cert.ReferenceIdeal.RefRun

end
-- ==== Proof.KStage.lean ====
/-
  What each stretch of host operations between two kernel regions leaves in the buffers the next region reads, as a
  function of the buffers before the stretch.
-/
import proofs.«100384_j8693013807615_2_alg».proof.Proof.Gen.KernelIdeal.Launch
import proofs.«100384_j8693013807615_2_alg».proof.Proof.Spec
import Idealize.ShloMosaic.Lib.StableHlo.Run

noncomputable section

namespace Cert.KernelIdeal.Hand

open Cert.KernelIdeal Cert.KernelIdeal.Gen
open Idealize.ShloMosaic Idealize.ShloMosaic.TcCoe Idealize.SL.Sem Idealize.ShloMosaic.StableHlo

variable {F : FTy → Type} [FloatOps F]

set_option maxHeartbeats 4000000 in
theorem read_agg1 (V : Valuation τ sig (Elt F)) :
    StableHlo.after hostOps1 V (Proc.devRef .tc main_v42)
      = Cert.Spec.agg (V (Proc.devRef .tc main_v3)) (V (Proc.devRef .tc main_v6)) (V (Proc.devRef .tc main_v28)) (V (Proc.devRef .tc main_v29)) := by
  after_results_simp
  rfl

set_option maxHeartbeats 4000000 in
theorem read_bias1 (V : Valuation τ sig (Elt F)) :
    StableHlo.after hostOps1 V (Proc.devRef .tc main_v43) = Cert.Spec.rowOf (V (Proc.devRef .tc main_arg4)) := by
  after_results_simp
  rfl

set_option maxHeartbeats 4000000 in
theorem read_mean2 (V : Valuation τ sig (Elt F)) :
    StableHlo.after hostOps2 V (Proc.devRef .tc main_v53)
      = Cert.Spec.rowOf (Cert.Spec.perRow (Cert.Spec.vecOf (V (Proc.devRef .tc main_v44_1)))) := by
  after_results_simp
  rfl

set_option maxHeartbeats 4000000 in
theorem read_var2 (V : Valuation τ sig (Elt F)) :
    StableHlo.after hostOps2 V (Proc.devRef .tc main_v54)
      = Cert.Spec.rowOf (Cert.Spec.varOfSums (Cert.Spec.vecOf (V (Proc.devRef .tc main_v44_1))) (Cert.Spec.vecOf (V (Proc.devRef .tc main_v44_2)))) := by
  after_results_simp
  rfl

set_option maxHeartbeats 4000000 in
theorem read_gain2 (V : Valuation τ sig (Elt F)) :
    StableHlo.after hostOps2 V (Proc.devRef .tc main_v55) = Cert.Spec.rowOf (V (Proc.devRef .tc main_arg5)) := by
  after_results_simp
  rfl

end Cert.KernelIdeal.Hand

end
-- ==== Proof.KStage2.lean ====
/-
  The host stretches of layers 1 and 2 of the kernel program read as functions of the buffers before them.
-/
import proofs.«100384_j8693013807615_2_alg».proof.Proof.Gen.KernelIdeal.Launch
import proofs.«100384_j8693013807615_2_alg».proof.Proof.Spec
import Idealize.ShloMosaic.Lib.StableHlo.Run

noncomputable section

namespace Cert.KernelIdeal.Hand

open Cert.KernelIdeal Cert.KernelIdeal.Gen
open Idealize.ShloMosaic Idealize.ShloMosaic.TcCoe Idealize.SL.Sem Idealize.ShloMosaic.StableHlo

variable {F : FTy → Type} [FloatOps F]

set_option maxHeartbeats 4000000 in
theorem read_v56 (V : Valuation τ sig (Elt F)) :
    StableHlo.after hostOps2 V (Proc.devRef .tc main_v56) = Cert.Spec.rowOf (V (Proc.devRef .tc main_arg6)) := by
  after_results_simp
  rfl

set_option maxHeartbeats 4000000 in
theorem read_v71 (V : Valuation τ sig (Elt F)) :
    StableHlo.after hostOps4 V (Proc.devRef .tc main_v71) = Cert.Spec.agg (V (Proc.devRef .tc main_v3)) (V (Proc.devRef .tc main_v6)) (V (Proc.devRef .tc main_v28)) (V (Proc.devRef .tc main_v58)) := by
  after_results_simp
  rfl

set_option maxHeartbeats 4000000 in
theorem read_v72 (V : Valuation τ sig (Elt F)) :
    StableHlo.after hostOps4 V (Proc.devRef .tc main_v72) = Cert.Spec.rowOf (V (Proc.devRef .tc main_arg8)) := by
  after_results_simp
  rfl

set_option maxHeartbeats 4000000 in
theorem read_v82 (V : Valuation τ sig (Elt F)) :
    StableHlo.after hostOps5 V (Proc.devRef .tc main_v82) = Cert.Spec.rowOf (Cert.Spec.perRow (Cert.Spec.vecOf (V (Proc.devRef .tc main_v73_1)))) := by
  after_results_simp
  rfl

set_option maxHeartbeats 4000000 in
theorem read_v83 (V : Valuation τ sig (Elt F)) :
    StableHlo.after hostOps5 V (Proc.devRef .tc main_v83) = Cert.Spec.rowOf (Cert.Spec.varOfSums (Cert.Spec.vecOf (V (Proc.devRef .tc main_v73_1))) (Cert.Spec.vecOf (V (Proc.devRef .tc main_v73_2)))) := by
  after_results_simp
  rfl

set_option maxHeartbeats 4000000 in
theorem read_v84 (V : Valuation τ sig (Elt F)) :
    StableHlo.after hostOps5 V (Proc.devRef .tc main_v84) = Cert.Spec.rowOf (V (Proc.devRef .tc main_arg9)) := by
  after_results_simp
  rfl

set_option maxHeartbeats 4000000 in
theorem read_v85 (V : Valuation τ sig (Elt F)) :
    StableHlo.after hostOps5 V (Proc.devRef .tc main_v85) = Cert.Spec.rowOf (V (Proc.devRef .tc main_arg10)) := by
  after_results_simp
  rfl

set_option maxHeartbeats 4000000 in
theorem read_v100 (V : Valuation τ sig (Elt F)) :
    StableHlo.after hostOps7 V (Proc.devRef .tc main_v100) = Cert.Spec.agg (V (Proc.devRef .tc main_v3)) (V (Proc.devRef .tc main_v6)) (V (Proc.devRef .tc main_v28)) (V (Proc.devRef .tc main_v87)) := by
  after_results_simp
  rfl

set_option maxHeartbeats 4000000 in
theorem read_v101 (V : Valuation τ sig (Elt F)) :
    StableHlo.after hostOps7 V (Proc.devRef .tc main_v101) = Cert.Spec.rowOf (V (Proc.devRef .tc main_arg12)) := by
  after_results_simp
  rfl

set_option maxHeartbeats 4000000 in
theorem read_v111 (V : Valuation τ sig (Elt F)) :
    StableHlo.after hostOps8 V (Proc.devRef .tc main_v111) = Cert.Spec.rowOf (Cert.Spec.perRow (Cert.Spec.vecOf (V (Proc.devRef .tc main_v102_1)))) := by
  after_results_simp
  rfl

set_option maxHeartbeats 4000000 in
theorem read_v112 (V : Valuation τ sig (Elt F)) :
    StableHlo.after hostOps8 V (Proc.devRef .tc main_v112) = Cert.Spec.rowOf (Cert.Spec.varOfSums (Cert.Spec.vecOf (V (Proc.devRef .tc main_v102_1))) (Cert.Spec.vecOf (V (Proc.devRef .tc main_v102_2)))) := by
  after_results_simp
  rfl

set_option maxHeartbeats 4000000 in
theorem read_v113 (V : Valuation τ sig (Elt F)) :
    StableHlo.after hostOps8 V (Proc.devRef .tc main_v113) = Cert.Spec.rowOf (V (Proc.devRef .tc main_arg13)) := by
  after_results_simp
  rfl

set_option maxHeartbeats 4000000 in
theorem read_v114 (V : Valuation τ sig (Elt F)) :
    StableHlo.after hostOps8 V (Proc.devRef .tc main_v114) = Cert.Spec.rowOf (V (Proc.devRef .tc main_arg14)) := by
  after_results_simp
  rfl

end Cert.KernelIdeal.Hand

end
-- ==== Proof.ValueSpec.lean ====
/-
  The two whole-array functions the dense-transform and normalization regions compute, on the extended reals, entry by
  entry over literal shapes: the product of a [50000, K] array by a [K, 64] array (K = 128 and K = 64), and the
  normalization (z - mean) * rsqrt (variance + eps) * gain + offset of a [50000, 64] array by four [1, 64] rows.
-/
import Idealize.ShloMosaic.PureOps.Ideal
import Idealize.ShloMosaic.Lib.ValueIdx

noncomputable section

open scoped BigOperators

namespace Cert.KernelIdeal.Hand

open Idealize.ShloMosaic Idealize.ShloMosaic.ValueIdx

/-- The product of a [50000, 128] by a [128, 64] array of extended reals: entry (p, n) is the sum over k of
    x (p, k) * w (k, n). -/
def mmOut (x : (⟨2, ![50000, 128]⟩ : Shape).Idx → EReal) (w : (⟨2, ![128, 64]⟩ : Shape).Idx → EReal) :
    (⟨2, ![50000, 64]⟩ : Shape).Idx → EReal :=
  fun i => ∑ k : Fin 128, x (ix2 (i 0) k) * w (ix2 k (i 1))

theorem mmOut_apply (x : (⟨2, ![50000, 128]⟩ : Shape).Idx → EReal) (w : (⟨2, ![128, 64]⟩ : Shape).Idx → EReal)
    (p : Fin 50000) (n : Fin 64) : mmOut x w (ix2 p n) = ∑ k : Fin 128, x (ix2 p k) * w (ix2 k n) := rfl

/-- The product of a [50000, 64] by a [64, 64] array of extended reals: entry (p, n) is the sum over k of
    x (p, k) * w (k, n). -/
def mmOut64 (x : (⟨2, ![50000, 64]⟩ : Shape).Idx → EReal) (w : (⟨2, ![64, 64]⟩ : Shape).Idx → EReal) :
    (⟨2, ![50000, 64]⟩ : Shape).Idx → EReal :=
  fun i => ∑ k : Fin 64, x (ix2 (i 0) k) * w (ix2 k (i 1))

theorem mmOut64_apply (x : (⟨2, ![50000, 64]⟩ : Shape).Idx → EReal) (w : (⟨2, ![64, 64]⟩ : Shape).Idx → EReal)
    (p : Fin 50000) (n : Fin 64) : mmOut64 x w (ix2 p n) = ∑ k : Fin 64, x (ix2 p k) * w (ix2 k n) := rfl

/-- The normalization of a [50000, 64] array by four [1, 64] rows: entry (p, q) is
    (z (p, q) - mean (0, q)) * rsqrt (variance (0, q) + eps) * gain (0, q) + offset (0, q), eps the f32 word 0x3727C5AC. -/
def bnOut (z : (⟨2, ![50000, 64]⟩ : Shape).Idx → EReal) (mu var g be : (⟨2, ![1, 64]⟩ : Shape).Idx → EReal) :
    (⟨2, ![50000, 64]⟩ : Shape).Idx → EReal :=
  fun i => (z (ix2 (i 0) (i 1)) - mu (ix2 (0 : Fin 1) (i 1))) * Ideal.rsqrt (var (ix2 (0 : Fin 1) (i 1)) + Ideal.ofBits .f32 0x3727C5AC#32)
    * g (ix2 (0 : Fin 1) (i 1)) + be (ix2 (0 : Fin 1) (i 1))

theorem bnOut_apply (z : (⟨2, ![50000, 64]⟩ : Shape).Idx → EReal) (mu var g be : (⟨2, ![1, 64]⟩ : Shape).Idx → EReal)
    (p : Fin 50000) (q : Fin 64) :
    bnOut z mu var g be (ix2 p q) = (z (ix2 p q) - mu (ix2 (0 : Fin 1) q)) * Ideal.rsqrt (var (ix2 (0 : Fin 1) q) + Ideal.ofBits .f32 0x3727C5AC#32)
      * g (ix2 (0 : Fin 1) q) + be (ix2 (0 : Fin 1) q) := rfl

end Cert.KernelIdeal.Hand

end
-- ==== Proof.ValueA0.lean ====
/-
  The dense-transform region 0, its VALUE at the ideal values: after the region the output array [50000, 64] holds the
  product of the activations [50000, 128] by the weights [128, 64] as the region finds them, entry (p, n) the sum over
  k of x (p, k) * w (k, n) on the extended reals. The body's stored value at an entry of its block (the two roundings
  are the identity, the product accumulates into zero); each input block read off its array (row block t of the
  activations, the whole weights); what point t writes back as block t of the product; the 25 row blocks cover the
  array.
-/
import proofs.«100384_j8693013807615_2_alg».proof.Proof.RegionA0
import proofs.«100384_j8693013807615_2_alg».proof.Proof.ValueSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

/-- The body's stored value at entry (p, n) of its block: the two roundings are the identity on extended reals and the
    product accumulates into zero, so it is the sum over the contracted coordinate of the blocks' products. -/
theorem pay0_apply (x0 : Vec Ideal S2000x128 .f32) (x1 : Vec Ideal S128x64 .f32) (p : Fin 2000) (n : Fin 64) :
    k0_pay1 x0 x1 (ix2 p n) = ∑ k : Fin 128, x0 (ix2 p k) * x1 (ix2 k n) := by
  unfold k0_pay1
  refine (Ideal.matmul_constant_zero_apply dot_S2000x128_S128x64_S2000x64_1_0_0_1_n_n none _ _ (ix2 p n)).trans ?_
  rw [← Equiv.sum_comp (contrEquiv1 dot_S2000x128_S128x64_S2000x64_1_0_0_1_n_n 128 rfl rfl).symm]
  refine Finset.sum_congr rfl fun k _ => ?_
  have c2 := contrEquiv1_symm_val dot_S2000x128_S128x64_S2000x64_1_0_0_1_n_n 128 rfl rfl k
  have l2 : dot_S2000x128_S128x64_S2000x64_1_0_0_1_n_n.lhsIdx (ix2 p n) ((contrEquiv1 _ 128 rfl rfl).symm k) = ix2 p k := by
    funext ax; apply Fin.ext
    match ax with
    | ⟨0, _⟩ => simp [DotDims.lhsIdx, dot_S2000x128_S128x64_S2000x64_1_0_0_1_n_n]; rfl
    | ⟨1, _⟩ => simp [DotDims.lhsIdx, dot_S2000x128_S128x64_S2000x64_1_0_0_1_n_n]; exact c2
  have r2 : dot_S2000x128_S128x64_S2000x64_1_0_0_1_n_n.rhsIdx (ix2 p n) ((contrEquiv1 _ 128 rfl rfl).symm k) = ix2 k n := by
    funext ax; apply Fin.ext
    match ax with
    | ⟨0, _⟩ => simp [DotDims.rhsIdx, dot_S2000x128_S128x64_S2000x64_1_0_0_1_n_n]; exact c2
    | ⟨1, _⟩ => simp [DotDims.rhsIdx, dot_S2000x128_S128x64_S2000x64_1_0_0_1_n_n]; rfl
  rw [truncf_apply, truncf_apply, l2, r2]

theorem hz0 : (![0, 0] : Fin 2 → Nat) = fun _ => 0 := funext fun a => by fin_cases a <;> rfl

/-- The printed index maps over the grid: the activations' and the output's row block moves with the point, the
    weights' block never moves. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

section Blocks
variable {F : FTy → Type} [FloatOps F]
variable (V : (c : Dev nD) → (b : Ref sig .tc) → Buf (Elt F) ((c : Thread nD τ).loc b))

/-- Entry (p, k) of the activations' block at point t is entry (2000 t + p, k) of the array. -/
theorem iblk0_0_apply (c : Dev nD) (t : Fin cfg0.N) (p : Fin 2000) (k : Fin 128) (hp : 2000 * t.val + p.val < 50000) :
    iblk0 V c 0 t (ix2 p k) = (V c (Pipeline.arrRef spec0 0) : S50000x128.Idx → Elt F .f32) (ix2 ⟨2000 * t.val + p.val, hp⟩ k) := by
  unfold iblk0
  rw [View.read_apply]
  show V c (Pipeline.arrRef spec0 0) (((cfg0.win 0).blk t).view.emb (ix2 p k)) = V c (Pipeline.arrRef spec0 0) _
  refine congrArg (V c (Pipeline.arrRef spec0 0)) ?_
  funext a; apply Fin.ext
  obtain ⟨e0, e1, -⟩ := idx_facts0 t
  match a with
  | ⟨0, _⟩ => show win0_0.index t (0 : Fin 2) * 2000 + 1 * p.val = 2000 * t.val + p.val; omega
  | ⟨1, _⟩ => show win0_0.index t (1 : Fin 2) * 128 + 1 * k.val = k.val; omega

/-- The weights' block at every point is the whole array. -/
theorem iblk0_1_apply (c : Dev nD) (t : Fin cfg0.N) (k : Fin 128) (n : Fin 64) :
    iblk0 V c 1 t (ix2 k n) = (V c (Pipeline.arrRef spec0 1) : S128x64.Idx → Elt F .f32) (ix2 k n) := by
  unfold iblk0
  rw [View.read_apply]
  show V c (Pipeline.arrRef spec0 1) (((cfg0.win 1).blk t).view.emb (ix2 k n)) = V c (Pipeline.arrRef spec0 1) _
  refine congrArg (V c (Pipeline.arrRef spec0 1)) ?_
  funext a; apply Fin.ext
  obtain ⟨-, -, e2, e3, -⟩ := idx_facts0 t
  match a with
  | ⟨0, _⟩ => show win0_1.index t (0 : Fin 2) * 128 + 1 * k.val = k.val; omega
  | ⟨1, _⟩ => show win0_1.index t (1 : Fin 2) * 64 + 1 * n.val = n.val; omega

end Blocks

/-- What point t writes back is block t of the product of the two arrays the region finds. -/
theorem flushed0_eq (V : (c : Dev nD) → (b : Ref sig .tc) → Buf (Elt Ideal) ((c : Thread nD τ).loc b)) (c : Dev nD) (t : Fin cfg0.N) :
    (dat0 (F := Ideal) V c).flushed 2 t = ((cfg0.win 2).blk t).view.read (Elt Ideal)
      (mmOut (V c (Pipeline.arrRef spec0 0)) (V c (Pipeline.arrRef spec0 1))) := by
  show (cfg0.win 2).cut (grid0.coords t) ((dat0 (F := Ideal) V c).after 2 t) = _
  rw [after0_2]
  unfold out0_2
  rw [View.canon_unit_zero hz0]
  simp only [View.ld_unit_zero (S := S2000x128) hz0, View.ld_unit_zero (S := S128x64) hz0]
  funext j
  obtain ⟨p, n, rfl⟩ : ∃ (p : Fin 2000) (n : Fin 64), j = ix2 p n := ⟨j 0, j 1, eq_ix2 j⟩
  have ht : t.val < 25 := t.isLt
  have hp : 2000 * t.val + p.val < 50000 := by have := p.isLt; omega
  obtain ⟨-, -, -, -, e4, e5⟩ := idx_facts0 t
  have he : ((cfg0.win 2).blk t).view.emb (ix2 p n) = (ix2 ⟨2000 * t.val + p.val, hp⟩ n : S50000x64.Idx) := by
    funext a; apply Fin.ext
    match a with
    | ⟨0, _⟩ => show win0_2.index t (0 : Fin 2) * 2000 + 1 * p.val = 2000 * t.val + p.val; omega
    | ⟨1, _⟩ => show win0_2.index t (1 : Fin 2) * 64 + 1 * n.val = n.val; omega
  show k0_pay1 (iblk0 V c 0 t) (iblk0 V c 1 t) (ix2 p n)
    = mmOut (V c (Pipeline.arrRef spec0 0)) (V c (Pipeline.arrRef spec0 1)) (((cfg0.win 2).blk t).view.emb (ix2 p n))
  rw [he, mmOut_apply]
  refine (pay0_apply _ _ p n).trans (Finset.sum_congr rfl fun k _ => ?_)
  rw [iblk0_0_apply V c t p k hp, iblk0_1_apply V c t k n]

/-- An index of the output array is in point t's block iff each coordinate is in the block's range on its axis. -/
theorem mem_blk0 (t : Fin cfg0.N) (i : S50000x64.Idx) :
    i ∈ ((cfg0.win 2).blk t).view.set ↔ ∀ a : Fin 2, win0_2.index t a * S2000x64.size a ≤ (i a).val ∧ (i a).val < win0_2.index t a * S2000x64.size a + S2000x64.size a := by
  show i ∈ ((View.whole main_v29).slice (win0_2.rect t)).set ↔ _
  rw [View.set_slice_whole, Rect.mem_set_unit]
  exact Iff.rfl

/-- The 25 row blocks cover the output array: row r is in block r / 2000. -/
theorem cover0 (i : S50000x64.Idx) : ∃ t : Fin cfg0.N, (cfg0.win 2).flush t = true ∧ i ∈ ((cfg0.win 2).blk t).view.set := by
  have hi0 : (i 0).val < 50000 := (i 0).isLt
  have hi1 : (i 1).val < 64 := (i 1).isLt
  have hN : cfg0.N = 25 := N_0
  refine ⟨⟨(i 0).val / 2000, by rw [hN]; omega⟩, flush0_2 _, ?_⟩
  rw [mem_blk0]
  obtain ⟨-, -, -, -, e4, e5⟩ := idx_facts0 ⟨(i 0).val / 2000, by rw [hN]; omega⟩
  intro a
  match a with
  | ⟨0, _⟩ =>
    show win0_2.index _ (0 : Fin 2) * 2000 ≤ (i 0).val ∧ (i 0).val < win0_2.index _ (0 : Fin 2) * 2000 + 2000
    rw [e4]; show (i 0).val / 2000 * 2000 ≤ (i 0).val ∧ (i 0).val < (i 0).val / 2000 * 2000 + 2000; omega
  | ⟨1, _⟩ =>
    show win0_2.index _ (1 : Fin 2) * 64 ≤ (i 1).val ∧ (i 1).val < win0_2.index _ (1 : Fin 2) * 64 + 64
    rw [e5]; omega

/-- THE OUTPUT ARRAY after the region: the product of the activations by the weights, as the region finds them. -/
theorem arr0_out (V : (c : Dev nD) → (b : Ref sig .tc) → Buf (Elt Ideal) ((c : Thread nD τ).loc b)) (c : Dev nD) :
    (dat0 (F := Ideal) V c).arrAt 2 cfg0.N = mmOut (V c (Pipeline.arrRef spec0 0)) (V c (Pipeline.arrRef spec0 1)) :=
  (dat0 (F := Ideal) V c).arrAt_eq_of_cover 2 (mmOut (V c (Pipeline.arrRef spec0 0)) (V c (Pipeline.arrRef spec0 1)))
    (fun t _ => flushed0_eq V c t) cover0

end Cert.KernelIdeal.Hand

end
-- ==== Proof.ValueA2.lean ====
/-
  The normalization region 2, its VALUE at the ideal values: after the region the output array [50000, 64] holds, at
  entry (p, q), (z (p, q) - mean (0, q)) * rsqrt (variance (0, q) + eps) * gain (0, q) + offset (0, q) of the five arrays
  the region finds, on the extended reals. The body's stored value at an entry of its block (the casts are the identity,
  each [1, 64] row is laid along the 2000 rows); each input block read off its array (row block t of z, the four whole
  rows); what point t writes back as block t of that function; the 25 row blocks cover the array.
-/
import proofs.«100384_j8693013807615_2_alg».proof.Proof.RegionA2
import proofs.«100384_j8693013807615_2_alg».proof.Proof.ValueSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

/-- The body's stored value at entry (p, q) of its block. -/
theorem pay2_apply (v0 : Vec Ideal S1x64 .f32) (v5 : Vec Ideal S2000x64 .f32) (v7 v13 v17 : Vec Ideal S1x64 .f32) (p : Fin 2000) (q : Fin 64) :
    k2_pay1 v0 v5 v7 v13 v17 (ix2 p q)
      = (v5 (ix2 p q) - v7 (ix2 (0 : Fin 1) q)) * Ideal.rsqrt (v0 (ix2 (0 : Fin 1) q) + Ideal.ofBits .f32 0x3727C5AC#32)
        * v13 (ix2 (0 : Fin 1) q) + v17 (ix2 (0 : Fin 1) q) := by
  unfold k2_pay1
  simp only [shapeCast_self]
  rw [addf_apply, mulf_apply, mulf_apply, subf_apply,
    broadcastTo_1b_ab_apply, broadcastTo_1b_ab_apply, broadcastTo_1b_ab_apply, broadcastTo_1b_ab_apply]
  rfl

/-- The same with the five entries it reads named. -/
theorem pay2_apply_of (v0 : Vec Ideal S1x64 .f32) (v5 : Vec Ideal S2000x64 .f32) (v7 v13 v17 : Vec Ideal S1x64 .f32) (p : Fin 2000) (q : Fin 64)
    (a0 a1 a2 a3 a4 : EReal) (h5 : v5 (ix2 p q) = a0) (h7 : v7 (ix2 (0 : Fin 1) q) = a1) (h0 : v0 (ix2 (0 : Fin 1) q) = a2)
    (h13 : v13 (ix2 (0 : Fin 1) q) = a3) (h17 : v17 (ix2 (0 : Fin 1) q) = a4) :
    k2_pay1 v0 v5 v7 v13 v17 (ix2 p q) = (a0 - a1) * Ideal.rsqrt (a2 + Ideal.ofBits .f32 0x3727C5AC#32) * a3 + a4 := by
  rw [pay2_apply, h5, h7, h0, h13, h17]

theorem hz2 : (![0, 0] : Fin 2 → Nat) = fun _ => 0 := funext fun a => by fin_cases a <;> rfl

/-- The printed index maps over the grid: z's and the output's row block moves with the point, the four rows' blocks
    never move. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

section Blocks
variable {F : FTy → Type} [FloatOps F]
variable (V : (c : Dev nD) → (b : Ref sig .tc) → Buf (Elt F) ((c : Thread nD τ).loc b))

/-- Entry (p, q) of z's block at point t is entry (2000 t + p, q) of the array. -/
theorem iblk2_0_apply (c : Dev nD) (t : Fin cfg2.N) (p : Fin 2000) (q : Fin 64) (hp : 2000 * t.val + p.val < 50000) :
    iblk2 V c 0 t (ix2 p q) = (V c (Pipeline.arrRef spec2 0) : S50000x64.Idx → Elt F .f32) (ix2 ⟨2000 * t.val + p.val, hp⟩ q) := by
  unfold iblk2
  rw [View.read_apply]
  show V c (Pipeline.arrRef spec2 0) (((cfg2.win 0).blk t).view.emb (ix2 p q)) = V c (Pipeline.arrRef spec2 0) _
  refine congrArg (V c (Pipeline.arrRef spec2 0)) ?_
  funext a; apply Fin.ext
  obtain ⟨e0, e1, -⟩ := idx_facts2 t
  match a with
  | ⟨0, _⟩ => show win2_0.index t (0 : Fin 2) * 2000 + 1 * p.val = 2000 * t.val + p.val; omega
  | ⟨1, _⟩ => show win2_0.index t (1 : Fin 2) * 64 + 1 * q.val = q.val; omega

/-- The mean row's block at every point is the whole row. -/
theorem iblk2_1_apply (c : Dev nD) (t : Fin cfg2.N) (q : Fin 64) :
    iblk2 V c 1 t (ix2 (0 : Fin 1) q) = (V c (Pipeline.arrRef spec2 1) : S1x64.Idx → Elt F .f32) (ix2 (0 : Fin 1) q) := by
  unfold iblk2
  rw [View.read_apply]
  show V c (Pipeline.arrRef spec2 1) (((cfg2.win 1).blk t).view.emb (ix2 (0 : Fin 1) q)) = V c (Pipeline.arrRef spec2 1) _
  refine congrArg (V c (Pipeline.arrRef spec2 1)) ?_
  funext a; apply Fin.ext
  obtain ⟨-, -, e1_0, e1_1, e2_0, e2_1, e3_0, e3_1, e4_0, e4_1, -⟩ := idx_facts2 t
  match a with
  | ⟨0, _⟩ => show win2_1.index t (0 : Fin 2) * 1 + 1 * (0 : Fin 1).val = (0 : Fin 1).val; omega
  | ⟨1, _⟩ => show win2_1.index t (1 : Fin 2) * 64 + 1 * q.val = q.val; omega

/-- The variance row's block at every point is the whole row. -/
theorem iblk2_2_apply (c : Dev nD) (t : Fin cfg2.N) (q : Fin 64) :
    iblk2 V c 2 t (ix2 (0 : Fin 1) q) = (V c (Pipeline.arrRef spec2 2) : S1x64.Idx → Elt F .f32) (ix2 (0 : Fin 1) q) := by
  unfold iblk2
  rw [View.read_apply]
  show V c (Pipeline.arrRef spec2 2) (((cfg2.win 2).blk t).view.emb (ix2 (0 : Fin 1) q)) = V c (Pipeline.arrRef spec2 2) _
  refine congrArg (V c (Pipeline.arrRef spec2 2)) ?_
  funext a; apply Fin.ext
  obtain ⟨-, -, e1_0, e1_1, e2_0, e2_1, e3_0, e3_1, e4_0, e4_1, -⟩ := idx_facts2 t
  match a with
  | ⟨0, _⟩ => show win2_2.index t (0 : Fin 2) * 1 + 1 * (0 : Fin 1).val = (0 : Fin 1).val; omega
  | ⟨1, _⟩ => show win2_2.index t (1 : Fin 2) * 64 + 1 * q.val = q.val; omega

/-- The gain row's block at every point is the whole row. -/
theorem iblk2_3_apply (c : Dev nD) (t : Fin cfg2.N) (q : Fin 64) :
    iblk2 V c 3 t (ix2 (0 : Fin 1) q) = (V c (Pipeline.arrRef spec2 3) : S1x64.Idx → Elt F .f32) (ix2 (0 : Fin 1) q) := by
  unfold iblk2
  rw [View.read_apply]
  show V c (Pipeline.arrRef spec2 3) (((cfg2.win 3).blk t).view.emb (ix2 (0 : Fin 1) q)) = V c (Pipeline.arrRef spec2 3) _
  refine congrArg (V c (Pipeline.arrRef spec2 3)) ?_
  funext a; apply Fin.ext
  obtain ⟨-, -, e1_0, e1_1, e2_0, e2_1, e3_0, e3_1, e4_0, e4_1, -⟩ := idx_facts2 t
  match a with
  | ⟨0, _⟩ => show win2_3.index t (0 : Fin 2) * 1 + 1 * (0 : Fin 1).val = (0 : Fin 1).val; omega
  | ⟨1, _⟩ => show win2_3.index t (1 : Fin 2) * 64 + 1 * q.val = q.val; omega

/-- The offset row's block at every point is the whole row. -/
theorem iblk2_4_apply (c : Dev nD) (t : Fin cfg2.N) (q : Fin 64) :
    iblk2 V c 4 t (ix2 (0 : Fin 1) q) = (V c (Pipeline.arrRef spec2 4) : S1x64.Idx → Elt F .f32) (ix2 (0 : Fin 1) q) := by
  unfold iblk2
  rw [View.read_apply]
  show V c (Pipeline.arrRef spec2 4) (((cfg2.win 4).blk t).view.emb (ix2 (0 : Fin 1) q)) = V c (Pipeline.arrRef spec2 4) _
  refine congrArg (V c (Pipeline.arrRef spec2 4)) ?_
  funext a; apply Fin.ext
  obtain ⟨-, -, e1_0, e1_1, e2_0, e2_1, e3_0, e3_1, e4_0, e4_1, -⟩ := idx_facts2 t
  match a with
  | ⟨0, _⟩ => show win2_4.index t (0 : Fin 2) * 1 + 1 * (0 : Fin 1).val = (0 : Fin 1).val; omega
  | ⟨1, _⟩ => show win2_4.index t (1 : Fin 2) * 64 + 1 * q.val = q.val; omega

end Blocks

set_option maxHeartbeats 2000000 in
/-- What point t writes back is block t of the normalization of the five arrays the region finds. -/
theorem flushed2_eq (V : (c : Dev nD) → (b : Ref sig .tc) → Buf (Elt Ideal) ((c : Thread nD τ).loc b)) (c : Dev nD) (t : Fin cfg2.N) :
    (dat2 (F := Ideal) V c).flushed 5 t = ((cfg2.win 5).blk t).view.read (Elt Ideal)
      (bnOut (V c (Pipeline.arrRef spec2 0)) (V c (Pipeline.arrRef spec2 1)) (V c (Pipeline.arrRef spec2 2))
        (V c (Pipeline.arrRef spec2 3)) (V c (Pipeline.arrRef spec2 4))) := by
  show (cfg2.win 5).cut (grid2.coords t) ((dat2 (F := Ideal) V c).after 5 t) = _
  rw [after2_5]
  unfold out2_5
  rw [View.canon_unit_zero hz2]
  simp only [View.ld_unit_zero (S := S2000x64) hz2, View.ld_unit_zero (S := S1x64) hz2]
  funext j
  obtain ⟨p, q, rfl⟩ : ∃ (p : Fin 2000) (q : Fin 64), j = ix2 p q := ⟨j 0, j 1, eq_ix2 j⟩
  have ht : t.val < 25 := t.isLt
  have hp : 2000 * t.val + p.val < 50000 := by have := p.isLt; omega
  obtain ⟨-, -, -, -, -, -, -, -, -, -, e5_0, e5_1⟩ := idx_facts2 t
  have he : ((cfg2.win 5).blk t).view.emb (ix2 p q) = (ix2 ⟨2000 * t.val + p.val, hp⟩ q : S50000x64.Idx) := by
    funext a; apply Fin.ext
    match a with
    | ⟨0, _⟩ => show win2_5.index t (0 : Fin 2) * 2000 + 1 * p.val = 2000 * t.val + p.val; omega
    | ⟨1, _⟩ => show win2_5.index t (1 : Fin 2) * 64 + 1 * q.val = q.val; omega
  show k2_pay1 (iblk2 V c 2 t) (iblk2 V c 0 t) (iblk2 V c 1 t) (iblk2 V c 3 t) (iblk2 V c 4 t) (ix2 p q)
    = bnOut (V c (Pipeline.arrRef spec2 0)) (V c (Pipeline.arrRef spec2 1)) (V c (Pipeline.arrRef spec2 2))
        (V c (Pipeline.arrRef spec2 3)) (V c (Pipeline.arrRef spec2 4)) (((cfg2.win 5).blk t).view.emb (ix2 p q))
  refine Eq.trans ?_ (congrArg (bnOut (V c (Pipeline.arrRef spec2 0)) (V c (Pipeline.arrRef spec2 1)) (V c (Pipeline.arrRef spec2 2))
        (V c (Pipeline.arrRef spec2 3)) (V c (Pipeline.arrRef spec2 4))) he.symm)
  refine Eq.trans ?_ (bnOut_apply _ _ _ _ _ ⟨2000 * t.val + p.val, hp⟩ q).symm
  exact pay2_apply_of _ _ _ _ _ p q _ _ _ _ _ (iblk2_0_apply V c t p q hp) (iblk2_1_apply V c t q) (iblk2_2_apply V c t q)
    (iblk2_3_apply V c t q) (iblk2_4_apply V c t q)

/-- An index of the output array is in point t's block iff each coordinate is in the block's range on its axis. -/
theorem mem_blk2 (t : Fin cfg2.N) (i : S50000x64.Idx) :
    i ∈ ((cfg2.win 5).blk t).view.set ↔ ∀ a : Fin 2, win2_5.index t a * S2000x64.size a ≤ (i a).val ∧ (i a).val < win2_5.index t a * S2000x64.size a + S2000x64.size a := by
  show i ∈ ((View.whole main_v57).slice (win2_5.rect t)).set ↔ _
  rw [View.set_slice_whole, Rect.mem_set_unit]
  exact Iff.rfl

/-- The 25 row blocks cover the output array: row r is in block r / 2000. -/
theorem cover2 (i : S50000x64.Idx) : ∃ t : Fin cfg2.N, (cfg2.win 5).flush t = true ∧ i ∈ ((cfg2.win 5).blk t).view.set := by
  have hi0 : (i 0).val < 50000 := (i 0).isLt
  have hi1 : (i 1).val < 64 := (i 1).isLt
  have hN : cfg2.N = 25 := N_2
  refine ⟨⟨(i 0).val / 2000, by rw [hN]; omega⟩, flush2_5 _, ?_⟩
  rw [mem_blk2]
  obtain ⟨-, -, -, -, -, -, -, -, -, -, e5_0, e5_1⟩ := idx_facts2 ⟨(i 0).val / 2000, by rw [hN]; omega⟩
  intro a
  match a with
  | ⟨0, _⟩ =>
    show win2_5.index _ (0 : Fin 2) * 2000 ≤ (i 0).val ∧ (i 0).val < win2_5.index _ (0 : Fin 2) * 2000 + 2000
    rw [e5_0]; show (i 0).val / 2000 * 2000 ≤ (i 0).val ∧ (i 0).val < (i 0).val / 2000 * 2000 + 2000; omega
  | ⟨1, _⟩ =>
    show win2_5.index _ (1 : Fin 2) * 64 ≤ (i 1).val ∧ (i 1).val < win2_5.index _ (1 : Fin 2) * 64 + 64
    rw [e5_1]; omega

/-- THE OUTPUT ARRAY after the region: the normalization of z by the mean, variance, gain and offset rows, as the
    region finds them. -/
theorem arr2_out (V : (c : Dev nD) → (b : Ref sig .tc) → Buf (Elt Ideal) ((c : Thread nD τ).loc b)) (c : Dev nD) :
    (dat2 (F := Ideal) V c).arrAt 5 cfg2.N = bnOut (V c (Pipeline.arrRef spec2 0)) (V c (Pipeline.arrRef spec2 1))
      (V c (Pipeline.arrRef spec2 2)) (V c (Pipeline.arrRef spec2 3)) (V c (Pipeline.arrRef spec2 4)) :=
  (dat2 (F := Ideal) V c).arrAt_eq_of_cover 5 (bnOut (V c (Pipeline.arrRef spec2 0)) (V c (Pipeline.arrRef spec2 1))
      (V c (Pipeline.arrRef spec2 2)) (V c (Pipeline.arrRef spec2 3)) (V c (Pipeline.arrRef spec2 4)))
    (fun t _ => flushed2_eq V c t) cover2

end Cert.KernelIdeal.Hand

end
-- ==== Proof.ValueA3.lean ====
/-
  The dense-transform region 3, its VALUE at the ideal values: after the region the output array [50000, 64] holds the
  product of the activations [50000, 64] by the weights [64, 64] as the region finds them, entry (p, n) the sum over
  k of x (p, k) * w (k, n) on the extended reals. The body's stored value at an entry of its block (the two roundings
  are the identity, the product accumulates into zero); each input block read off its array (row block t of the
  activations, the whole weights); what point t writes back as block t of the product; the 25 row blocks cover the
  array.
-/
import proofs.«100384_j8693013807615_2_alg».proof.Proof.RegionA3
import proofs.«100384_j8693013807615_2_alg».proof.Proof.ValueSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

/-- The body's stored value at entry (p, n) of its block: the two roundings are the identity on extended reals and the
    product accumulates into zero, so it is the sum over the contracted coordinate of the blocks' products. -/
theorem pay3_apply (x0 : Vec Ideal S2000x64 .f32) (x1 : Vec Ideal S64x64 .f32) (p : Fin 2000) (n : Fin 64) :
    k3_pay1 x0 x1 (ix2 p n) = ∑ k : Fin 64, x0 (ix2 p k) * x1 (ix2 k n) := by
  unfold k3_pay1
  refine (Ideal.matmul_constant_zero_apply dot_S2000x64_S64x64_S2000x64_1_0_0_1_n_n none _ _ (ix2 p n)).trans ?_
  rw [← Equiv.sum_comp (contrEquiv1 dot_S2000x64_S64x64_S2000x64_1_0_0_1_n_n 64 rfl rfl).symm]
  refine Finset.sum_congr rfl fun k _ => ?_
  have c2 := contrEquiv1_symm_val dot_S2000x64_S64x64_S2000x64_1_0_0_1_n_n 64 rfl rfl k
  have l2 : dot_S2000x64_S64x64_S2000x64_1_0_0_1_n_n.lhsIdx (ix2 p n) ((contrEquiv1 _ 64 rfl rfl).symm k) = ix2 p k := by
    funext ax; apply Fin.ext
    match ax with
    | ⟨0, _⟩ => simp [DotDims.lhsIdx, dot_S2000x64_S64x64_S2000x64_1_0_0_1_n_n]; rfl
    | ⟨1, _⟩ => simp [DotDims.lhsIdx, dot_S2000x64_S64x64_S2000x64_1_0_0_1_n_n]; exact c2
  have r2 : dot_S2000x64_S64x64_S2000x64_1_0_0_1_n_n.rhsIdx (ix2 p n) ((contrEquiv1 _ 64 rfl rfl).symm k) = ix2 k n := by
    funext ax; apply Fin.ext
    match ax with
    | ⟨0, _⟩ => simp [DotDims.rhsIdx, dot_S2000x64_S64x64_S2000x64_1_0_0_1_n_n]; exact c2
    | ⟨1, _⟩ => simp [DotDims.rhsIdx, dot_S2000x64_S64x64_S2000x64_1_0_0_1_n_n]; rfl
  rw [truncf_apply, truncf_apply, l2, r2, shapeCast_self]

theorem hz3 : (![0, 0] : Fin 2 → Nat) = fun _ => 0 := funext fun a => by fin_cases a <;> rfl

/-- The printed index maps over the grid: the activations' and the output's row block moves with the point, the
    weights' block never moves. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

section Blocks
variable {F : FTy → Type} [FloatOps F]
variable (V : (c : Dev nD) → (b : Ref sig .tc) → Buf (Elt F) ((c : Thread nD τ).loc b))

/-- Entry (p, k) of the activations' block at point t is entry (2000 t + p, k) of the array. -/
theorem iblk3_0_apply (c : Dev nD) (t : Fin cfg3.N) (p : Fin 2000) (k : Fin 64) (hp : 2000 * t.val + p.val < 50000) :
    iblk3 V c 0 t (ix2 p k) = (V c (Pipeline.arrRef spec3 0) : S50000x64.Idx → Elt F .f32) (ix2 ⟨2000 * t.val + p.val, hp⟩ k) := by
  unfold iblk3
  rw [View.read_apply]
  show V c (Pipeline.arrRef spec3 0) (((cfg3.win 0).blk t).view.emb (ix2 p k)) = V c (Pipeline.arrRef spec3 0) _
  refine congrArg (V c (Pipeline.arrRef spec3 0)) ?_
  funext a; apply Fin.ext
  obtain ⟨e0, e1, -⟩ := idx_facts3 t
  match a with
  | ⟨0, _⟩ => show win3_0.index t (0 : Fin 2) * 2000 + 1 * p.val = 2000 * t.val + p.val; omega
  | ⟨1, _⟩ => show win3_0.index t (1 : Fin 2) * 64 + 1 * k.val = k.val; omega

/-- The weights' block at every point is the whole array. -/
theorem iblk3_1_apply (c : Dev nD) (t : Fin cfg3.N) (k : Fin 64) (n : Fin 64) :
    iblk3 V c 1 t (ix2 k n) = (V c (Pipeline.arrRef spec3 1) : S64x64.Idx → Elt F .f32) (ix2 k n) := by
  unfold iblk3
  rw [View.read_apply]
  show V c (Pipeline.arrRef spec3 1) (((cfg3.win 1).blk t).view.emb (ix2 k n)) = V c (Pipeline.arrRef spec3 1) _
  refine congrArg (V c (Pipeline.arrRef spec3 1)) ?_
  funext a; apply Fin.ext
  obtain ⟨-, -, e2, e3, -⟩ := idx_facts3 t
  match a with
  | ⟨0, _⟩ => show win3_1.index t (0 : Fin 2) * 64 + 1 * k.val = k.val; omega
  | ⟨1, _⟩ => show win3_1.index t (1 : Fin 2) * 64 + 1 * n.val = n.val; omega

end Blocks

/-- What point t writes back is block t of the product of the two arrays the region finds. -/
theorem flushed3_eq (V : (c : Dev nD) → (b : Ref sig .tc) → Buf (Elt Ideal) ((c : Thread nD τ).loc b)) (c : Dev nD) (t : Fin cfg3.N) :
    (dat3 (F := Ideal) V c).flushed 2 t = ((cfg3.win 2).blk t).view.read (Elt Ideal)
      (mmOut64 (V c (Pipeline.arrRef spec3 0)) (V c (Pipeline.arrRef spec3 1))) := by
  show (cfg3.win 2).cut (grid3.coords t) ((dat3 (F := Ideal) V c).after 2 t) = _
  rw [after3_2]
  unfold out3_2
  rw [View.canon_unit_zero hz3]
  simp only [View.ld_unit_zero (S := S2000x64) hz3, View.ld_unit_zero (S := S64x64) hz3]
  funext j
  obtain ⟨p, n, rfl⟩ : ∃ (p : Fin 2000) (n : Fin 64), j = ix2 p n := ⟨j 0, j 1, eq_ix2 j⟩
  have ht : t.val < 25 := t.isLt
  have hp : 2000 * t.val + p.val < 50000 := by have := p.isLt; omega
  obtain ⟨-, -, -, -, e4, e5⟩ := idx_facts3 t
  have he : ((cfg3.win 2).blk t).view.emb (ix2 p n) = (ix2 ⟨2000 * t.val + p.val, hp⟩ n : S50000x64.Idx) := by
    funext a; apply Fin.ext
    match a with
    | ⟨0, _⟩ => show win3_2.index t (0 : Fin 2) * 2000 + 1 * p.val = 2000 * t.val + p.val; omega
    | ⟨1, _⟩ => show win3_2.index t (1 : Fin 2) * 64 + 1 * n.val = n.val; omega
  show k3_pay1 (iblk3 V c 0 t) (iblk3 V c 1 t) (ix2 p n)
    = mmOut64 (V c (Pipeline.arrRef spec3 0)) (V c (Pipeline.arrRef spec3 1)) (((cfg3.win 2).blk t).view.emb (ix2 p n))
  rw [he, mmOut64_apply]
  refine (pay3_apply _ _ p n).trans (Finset.sum_congr rfl fun k _ => ?_)
  rw [iblk3_0_apply V c t p k hp, iblk3_1_apply V c t k n]

/-- An index of the output array is in point t's block iff each coordinate is in the block's range on its axis. -/
theorem mem_blk3 (t : Fin cfg3.N) (i : S50000x64.Idx) :
    i ∈ ((cfg3.win 2).blk t).view.set ↔ ∀ a : Fin 2, win3_2.index t a * S2000x64.size a ≤ (i a).val ∧ (i a).val < win3_2.index t a * S2000x64.size a + S2000x64.size a := by
  show i ∈ ((View.whole main_v58).slice (win3_2.rect t)).set ↔ _
  rw [View.set_slice_whole, Rect.mem_set_unit]
  exact Iff.rfl

/-- The 25 row blocks cover the output array: row r is in block r / 2000. -/
theorem cover3 (i : S50000x64.Idx) : ∃ t : Fin cfg3.N, (cfg3.win 2).flush t = true ∧ i ∈ ((cfg3.win 2).blk t).view.set := by
  have hi0 : (i 0).val < 50000 := (i 0).isLt
  have hi1 : (i 1).val < 64 := (i 1).isLt
  have hN : cfg3.N = 25 := N_3
  refine ⟨⟨(i 0).val / 2000, by rw [hN]; omega⟩, flush3_2 _, ?_⟩
  rw [mem_blk3]
  obtain ⟨-, -, -, -, e4, e5⟩ := idx_facts3 ⟨(i 0).val / 2000, by rw [hN]; omega⟩
  intro a
  match a with
  | ⟨0, _⟩ =>
    show win3_2.index _ (0 : Fin 2) * 2000 ≤ (i 0).val ∧ (i 0).val < win3_2.index _ (0 : Fin 2) * 2000 + 2000
    rw [e4]; show (i 0).val / 2000 * 2000 ≤ (i 0).val ∧ (i 0).val < (i 0).val / 2000 * 2000 + 2000; omega
  | ⟨1, _⟩ =>
    show win3_2.index _ (1 : Fin 2) * 64 ≤ (i 1).val ∧ (i 1).val < win3_2.index _ (1 : Fin 2) * 64 + 64
    rw [e5]; omega

/-- THE OUTPUT ARRAY after the region: the product of the activations by the weights, as the region finds them. -/
theorem arr3_out (V : (c : Dev nD) → (b : Ref sig .tc) → Buf (Elt Ideal) ((c : Thread nD τ).loc b)) (c : Dev nD) :
    (dat3 (F := Ideal) V c).arrAt 2 cfg3.N = mmOut64 (V c (Pipeline.arrRef spec3 0)) (V c (Pipeline.arrRef spec3 1)) :=
  (dat3 (F := Ideal) V c).arrAt_eq_of_cover 2 (mmOut64 (V c (Pipeline.arrRef spec3 0)) (V c (Pipeline.arrRef spec3 1)))
    (fun t _ => flushed3_eq V c t) cover3

end Cert.KernelIdeal.Hand

end
-- ==== Proof.ValueA5.lean ====
/-
  The normalization region 5, its VALUE at the ideal values: after the region the output array [50000, 64] holds, at
  entry (p, q), (z (p, q) - mean (0, q)) * rsqrt (variance (0, q) + eps) * gain (0, q) + offset (0, q) of the five arrays
  the region finds, on the extended reals. The body's stored value at an entry of its block (the casts are the identity,
  each [1, 64] row is laid along the 2000 rows); each input block read off its array (row block t of z, the four whole
  rows); what point t writes back as block t of that function; the 25 row blocks cover the array.
-/
import proofs.«100384_j8693013807615_2_alg».proof.Proof.RegionA5
import proofs.«100384_j8693013807615_2_alg».proof.Proof.ValueSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

/-- The body's stored value at entry (p, q) of its block. -/
theorem pay5_apply (v0 : Vec Ideal S1x64 .f32) (v5 : Vec Ideal S2000x64 .f32) (v7 v13 v17 : Vec Ideal S1x64 .f32) (p : Fin 2000) (q : Fin 64) :
    k5_pay1 v0 v5 v7 v13 v17 (ix2 p q)
      = (v5 (ix2 p q) - v7 (ix2 (0 : Fin 1) q)) * Ideal.rsqrt (v0 (ix2 (0 : Fin 1) q) + Ideal.ofBits .f32 0x3727C5AC#32)
        * v13 (ix2 (0 : Fin 1) q) + v17 (ix2 (0 : Fin 1) q) := by
  unfold k5_pay1
  simp only [shapeCast_self]
  rw [addf_apply, mulf_apply, mulf_apply, subf_apply,
    broadcastTo_1b_ab_apply, broadcastTo_1b_ab_apply, broadcastTo_1b_ab_apply, broadcastTo_1b_ab_apply]
  rfl

/-- The same with the five entries it reads named. -/
theorem pay5_apply_of (v0 : Vec Ideal S1x64 .f32) (v5 : Vec Ideal S2000x64 .f32) (v7 v13 v17 : Vec Ideal S1x64 .f32) (p : Fin 2000) (q : Fin 64)
    (a0 a1 a2 a3 a4 : EReal) (h5 : v5 (ix2 p q) = a0) (h7 : v7 (ix2 (0 : Fin 1) q) = a1) (h0 : v0 (ix2 (0 : Fin 1) q) = a2)
    (h13 : v13 (ix2 (0 : Fin 1) q) = a3) (h17 : v17 (ix2 (0 : Fin 1) q) = a4) :
    k5_pay1 v0 v5 v7 v13 v17 (ix2 p q) = (a0 - a1) * Ideal.rsqrt (a2 + Ideal.ofBits .f32 0x3727C5AC#32) * a3 + a4 := by
  rw [pay5_apply, h5, h7, h0, h13, h17]

theorem hz5 : (![0, 0] : Fin 2 → Nat) = fun _ => 0 := funext fun a => by fin_cases a <;> rfl

/-- The printed index maps over the grid: z's and the output's row block moves with the point, the four rows' blocks
    never move. -/
theorem idx_facts5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

section Blocks
variable {F : FTy → Type} [FloatOps F]
variable (V : (c : Dev nD) → (b : Ref sig .tc) → Buf (Elt F) ((c : Thread nD τ).loc b))

/-- Entry (p, q) of z's block at point t is entry (2000 t + p, q) of the array. -/
theorem iblk5_0_apply (c : Dev nD) (t : Fin cfg5.N) (p : Fin 2000) (q : Fin 64) (hp : 2000 * t.val + p.val < 50000) :
    iblk5 V c 0 t (ix2 p q) = (V c (Pipeline.arrRef spec5 0) : S50000x64.Idx → Elt F .f32) (ix2 ⟨2000 * t.val + p.val, hp⟩ q) := by
  unfold iblk5
  rw [View.read_apply]
  show V c (Pipeline.arrRef spec5 0) (((cfg5.win 0).blk t).view.emb (ix2 p q)) = V c (Pipeline.arrRef spec5 0) _
  refine congrArg (V c (Pipeline.arrRef spec5 0)) ?_
  funext a; apply Fin.ext
  obtain ⟨e0, e1, -⟩ := idx_facts5 t
  match a with
  | ⟨0, _⟩ => show win5_0.index t (0 : Fin 2) * 2000 + 1 * p.val = 2000 * t.val + p.val; omega
  | ⟨1, _⟩ => show win5_0.index t (1 : Fin 2) * 64 + 1 * q.val = q.val; omega

/-- The mean row's block at every point is the whole row. -/
theorem iblk5_1_apply (c : Dev nD) (t : Fin cfg5.N) (q : Fin 64) :
    iblk5 V c 1 t (ix2 (0 : Fin 1) q) = (V c (Pipeline.arrRef spec5 1) : S1x64.Idx → Elt F .f32) (ix2 (0 : Fin 1) q) := by
  unfold iblk5
  rw [View.read_apply]
  show V c (Pipeline.arrRef spec5 1) (((cfg5.win 1).blk t).view.emb (ix2 (0 : Fin 1) q)) = V c (Pipeline.arrRef spec5 1) _
  refine congrArg (V c (Pipeline.arrRef spec5 1)) ?_
  funext a; apply Fin.ext
  obtain ⟨-, -, e1_0, e1_1, e2_0, e2_1, e3_0, e3_1, e4_0, e4_1, -⟩ := idx_facts5 t
  match a with
  | ⟨0, _⟩ => show win5_1.index t (0 : Fin 2) * 1 + 1 * (0 : Fin 1).val = (0 : Fin 1).val; omega
  | ⟨1, _⟩ => show win5_1.index t (1 : Fin 2) * 64 + 1 * q.val = q.val; omega

/-- The variance row's block at every point is the whole row. -/
theorem iblk5_2_apply (c : Dev nD) (t : Fin cfg5.N) (q : Fin 64) :
    iblk5 V c 2 t (ix2 (0 : Fin 1) q) = (V c (Pipeline.arrRef spec5 2) : S1x64.Idx → Elt F .f32) (ix2 (0 : Fin 1) q) := by
  unfold iblk5
  rw [View.read_apply]
  show V c (Pipeline.arrRef spec5 2) (((cfg5.win 2).blk t).view.emb (ix2 (0 : Fin 1) q)) = V c (Pipeline.arrRef spec5 2) _
  refine congrArg (V c (Pipeline.arrRef spec5 2)) ?_
  funext a; apply Fin.ext
  obtain ⟨-, -, e1_0, e1_1, e2_0, e2_1, e3_0, e3_1, e4_0, e4_1, -⟩ := idx_facts5 t
  match a with
  | ⟨0, _⟩ => show win5_2.index t (0 : Fin 2) * 1 + 1 * (0 : Fin 1).val = (0 : Fin 1).val; omega
  | ⟨1, _⟩ => show win5_2.index t (1 : Fin 2) * 64 + 1 * q.val = q.val; omega

/-- The gain row's block at every point is the whole row. -/
theorem iblk5_3_apply (c : Dev nD) (t : Fin cfg5.N) (q : Fin 64) :
    iblk5 V c 3 t (ix2 (0 : Fin 1) q) = (V c (Pipeline.arrRef spec5 3) : S1x64.Idx → Elt F .f32) (ix2 (0 : Fin 1) q) := by
  unfold iblk5
  rw [View.read_apply]
  show V c (Pipeline.arrRef spec5 3) (((cfg5.win 3).blk t).view.emb (ix2 (0 : Fin 1) q)) = V c (Pipeline.arrRef spec5 3) _
  refine congrArg (V c (Pipeline.arrRef spec5 3)) ?_
  funext a; apply Fin.ext
  obtain ⟨-, -, e1_0, e1_1, e2_0, e2_1, e3_0, e3_1, e4_0, e4_1, -⟩ := idx_facts5 t
  match a with
  | ⟨0, _⟩ => show win5_3.index t (0 : Fin 2) * 1 + 1 * (0 : Fin 1).val = (0 : Fin 1).val; omega
  | ⟨1, _⟩ => show win5_3.index t (1 : Fin 2) * 64 + 1 * q.val = q.val; omega

/-- The offset row's block at every point is the whole row. -/
theorem iblk5_4_apply (c : Dev nD) (t : Fin cfg5.N) (q : Fin 64) :
    iblk5 V c 4 t (ix2 (0 : Fin 1) q) = (V c (Pipeline.arrRef spec5 4) : S1x64.Idx → Elt F .f32) (ix2 (0 : Fin 1) q) := by
  unfold iblk5
  rw [View.read_apply]
  show V c (Pipeline.arrRef spec5 4) (((cfg5.win 4).blk t).view.emb (ix2 (0 : Fin 1) q)) = V c (Pipeline.arrRef spec5 4) _
  refine congrArg (V c (Pipeline.arrRef spec5 4)) ?_
  funext a; apply Fin.ext
  obtain ⟨-, -, e1_0, e1_1, e2_0, e2_1, e3_0, e3_1, e4_0, e4_1, -⟩ := idx_facts5 t
  match a with
  | ⟨0, _⟩ => show win5_4.index t (0 : Fin 2) * 1 + 1 * (0 : Fin 1).val = (0 : Fin 1).val; omega
  | ⟨1, _⟩ => show win5_4.index t (1 : Fin 2) * 64 + 1 * q.val = q.val; omega

end Blocks

set_option maxHeartbeats 2000000 in
/-- What point t writes back is block t of the normalization of the five arrays the region finds. -/
theorem flushed5_eq (V : (c : Dev nD) → (b : Ref sig .tc) → Buf (Elt Ideal) ((c : Thread nD τ).loc b)) (c : Dev nD) (t : Fin cfg5.N) :
    (dat5 (F := Ideal) V c).flushed 5 t = ((cfg5.win 5).blk t).view.read (Elt Ideal)
      (bnOut (V c (Pipeline.arrRef spec5 0)) (V c (Pipeline.arrRef spec5 1)) (V c (Pipeline.arrRef spec5 2))
        (V c (Pipeline.arrRef spec5 3)) (V c (Pipeline.arrRef spec5 4))) := by
  show (cfg5.win 5).cut (grid5.coords t) ((dat5 (F := Ideal) V c).after 5 t) = _
  rw [after5_5]
  unfold out5_5
  rw [View.canon_unit_zero hz5]
  simp only [View.ld_unit_zero (S := S2000x64) hz5, View.ld_unit_zero (S := S1x64) hz5]
  funext j
  obtain ⟨p, q, rfl⟩ : ∃ (p : Fin 2000) (q : Fin 64), j = ix2 p q := ⟨j 0, j 1, eq_ix2 j⟩
  have ht : t.val < 25 := t.isLt
  have hp : 2000 * t.val + p.val < 50000 := by have := p.isLt; omega
  obtain ⟨-, -, -, -, -, -, -, -, -, -, e5_0, e5_1⟩ := idx_facts5 t
  have he : ((cfg5.win 5).blk t).view.emb (ix2 p q) = (ix2 ⟨2000 * t.val + p.val, hp⟩ q : S50000x64.Idx) := by
    funext a; apply Fin.ext
    match a with
    | ⟨0, _⟩ => show win5_5.index t (0 : Fin 2) * 2000 + 1 * p.val = 2000 * t.val + p.val; omega
    | ⟨1, _⟩ => show win5_5.index t (1 : Fin 2) * 64 + 1 * q.val = q.val; omega
  show k5_pay1 (iblk5 V c 2 t) (iblk5 V c 0 t) (iblk5 V c 1 t) (iblk5 V c 3 t) (iblk5 V c 4 t) (ix2 p q)
    = bnOut (V c (Pipeline.arrRef spec5 0)) (V c (Pipeline.arrRef spec5 1)) (V c (Pipeline.arrRef spec5 2))
        (V c (Pipeline.arrRef spec5 3)) (V c (Pipeline.arrRef spec5 4)) (((cfg5.win 5).blk t).view.emb (ix2 p q))
  refine Eq.trans ?_ (congrArg (bnOut (V c (Pipeline.arrRef spec5 0)) (V c (Pipeline.arrRef spec5 1)) (V c (Pipeline.arrRef spec5 2))
        (V c (Pipeline.arrRef spec5 3)) (V c (Pipeline.arrRef spec5 4))) he.symm)
  refine Eq.trans ?_ (bnOut_apply _ _ _ _ _ ⟨2000 * t.val + p.val, hp⟩ q).symm
  exact pay5_apply_of _ _ _ _ _ p q _ _ _ _ _ (iblk5_0_apply V c t p q hp) (iblk5_1_apply V c t q) (iblk5_2_apply V c t q)
    (iblk5_3_apply V c t q) (iblk5_4_apply V c t q)

/-- An index of the output array is in point t's block iff each coordinate is in the block's range on its axis. -/
theorem mem_blk5 (t : Fin cfg5.N) (i : S50000x64.Idx) :
    i ∈ ((cfg5.win 5).blk t).view.set ↔ ∀ a : Fin 2, win5_5.index t a * S2000x64.size a ≤ (i a).val ∧ (i a).val < win5_5.index t a * S2000x64.size a + S2000x64.size a := by
  show i ∈ ((View.whole main_v86).slice (win5_5.rect t)).set ↔ _
  rw [View.set_slice_whole, Rect.mem_set_unit]
  exact Iff.rfl

/-- The 25 row blocks cover the output array: row r is in block r / 2000. -/
theorem cover5 (i : S50000x64.Idx) : ∃ t : Fin cfg5.N, (cfg5.win 5).flush t = true ∧ i ∈ ((cfg5.win 5).blk t).view.set := by
  have hi0 : (i 0).val < 50000 := (i 0).isLt
  have hi1 : (i 1).val < 64 := (i 1).isLt
  have hN : cfg5.N = 25 := N_5
  refine ⟨⟨(i 0).val / 2000, by rw [hN]; omega⟩, flush5_5 _, ?_⟩
  rw [mem_blk5]
  obtain ⟨-, -, -, -, -, -, -, -, -, -, e5_0, e5_1⟩ := idx_facts5 ⟨(i 0).val / 2000, by rw [hN]; omega⟩
  intro a
  match a with
  | ⟨0, _⟩ =>
    show win5_5.index _ (0 : Fin 2) * 2000 ≤ (i 0).val ∧ (i 0).val < win5_5.index _ (0 : Fin 2) * 2000 + 2000
    rw [e5_0]; show (i 0).val / 2000 * 2000 ≤ (i 0).val ∧ (i 0).val < (i 0).val / 2000 * 2000 + 2000; omega
  | ⟨1, _⟩ =>
    show win5_5.index _ (1 : Fin 2) * 64 ≤ (i 1).val ∧ (i 1).val < win5_5.index _ (1 : Fin 2) * 64 + 64
    rw [e5_1]; omega

/-- THE OUTPUT ARRAY after the region: the normalization of z by the mean, variance, gain and offset rows, as the
    region finds them. -/
theorem arr5_out (V : (c : Dev nD) → (b : Ref sig .tc) → Buf (Elt Ideal) ((c : Thread nD τ).loc b)) (c : Dev nD) :
    (dat5 (F := Ideal) V c).arrAt 5 cfg5.N = bnOut (V c (Pipeline.arrRef spec5 0)) (V c (Pipeline.arrRef spec5 1))
      (V c (Pipeline.arrRef spec5 2)) (V c (Pipeline.arrRef spec5 3)) (V c (Pipeline.arrRef spec5 4)) :=
  (dat5 (F := Ideal) V c).arrAt_eq_of_cover 5 (bnOut (V c (Pipeline.arrRef spec5 0)) (V c (Pipeline.arrRef spec5 1))
      (V c (Pipeline.arrRef spec5 2)) (V c (Pipeline.arrRef spec5 3)) (V c (Pipeline.arrRef spec5 4)))
    (fun t _ => flushed5_eq V c t) cover5

end Cert.KernelIdeal.Hand

end
-- ==== Proof.ValueA6.lean ====
/-
  The dense-transform region 6, its VALUE at the ideal values: after the region the output array [50000, 64] holds the
  product of the activations [50000, 64] by the weights [64, 64] as the region finds them, entry (p, n) the sum over
  k of x (p, k) * w (k, n) on the extended reals. The body's stored value at an entry of its block (the two roundings
  are the identity, the product accumulates into zero); each input block read off its array (row block t of the
  activations, the whole weights); what point t writes back as block t of the product; the 25 row blocks cover the
  array.
-/
import proofs.«100384_j8693013807615_2_alg».proof.Proof.RegionA6
import proofs.«100384_j8693013807615_2_alg».proof.Proof.ValueSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

/-- The body's stored value at entry (p, n) of its block: the two roundings are the identity on extended reals and the
    product accumulates into zero, so it is the sum over the contracted coordinate of the blocks' products. -/
theorem pay6_apply (x0 : Vec Ideal S2000x64 .f32) (x1 : Vec Ideal S64x64 .f32) (p : Fin 2000) (n : Fin 64) :
    k6_pay1 x0 x1 (ix2 p n) = ∑ k : Fin 64, x0 (ix2 p k) * x1 (ix2 k n) := by
  unfold k6_pay1
  refine (Ideal.matmul_constant_zero_apply dot_S2000x64_S64x64_S2000x64_1_0_0_1_n_n none _ _ (ix2 p n)).trans ?_
  rw [← Equiv.sum_comp (contrEquiv1 dot_S2000x64_S64x64_S2000x64_1_0_0_1_n_n 64 rfl rfl).symm]
  refine Finset.sum_congr rfl fun k _ => ?_
  have c2 := contrEquiv1_symm_val dot_S2000x64_S64x64_S2000x64_1_0_0_1_n_n 64 rfl rfl k
  have l2 : dot_S2000x64_S64x64_S2000x64_1_0_0_1_n_n.lhsIdx (ix2 p n) ((contrEquiv1 _ 64 rfl rfl).symm k) = ix2 p k := by
    funext ax; apply Fin.ext
    match ax with
    | ⟨0, _⟩ => simp [DotDims.lhsIdx, dot_S2000x64_S64x64_S2000x64_1_0_0_1_n_n]; rfl
    | ⟨1, _⟩ => simp [DotDims.lhsIdx, dot_S2000x64_S64x64_S2000x64_1_0_0_1_n_n]; exact c2
  have r2 : dot_S2000x64_S64x64_S2000x64_1_0_0_1_n_n.rhsIdx (ix2 p n) ((contrEquiv1 _ 64 rfl rfl).symm k) = ix2 k n := by
    funext ax; apply Fin.ext
    match ax with
    | ⟨0, _⟩ => simp [DotDims.rhsIdx, dot_S2000x64_S64x64_S2000x64_1_0_0_1_n_n]; exact c2
    | ⟨1, _⟩ => simp [DotDims.rhsIdx, dot_S2000x64_S64x64_S2000x64_1_0_0_1_n_n]; rfl
  rw [truncf_apply, truncf_apply, l2, r2, shapeCast_self]

theorem hz6 : (![0, 0] : Fin 2 → Nat) = fun _ => 0 := funext fun a => by fin_cases a <;> rfl

/-- The printed index maps over the grid: the activations' and the output's row block moves with the point, the
    weights' block never moves. -/
theorem idx_facts6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

section Blocks
variable {F : FTy → Type} [FloatOps F]
variable (V : (c : Dev nD) → (b : Ref sig .tc) → Buf (Elt F) ((c : Thread nD τ).loc b))

/-- Entry (p, k) of the activations' block at point t is entry (2000 t + p, k) of the array. -/
theorem iblk6_0_apply (c : Dev nD) (t : Fin cfg6.N) (p : Fin 2000) (k : Fin 64) (hp : 2000 * t.val + p.val < 50000) :
    iblk6 V c 0 t (ix2 p k) = (V c (Pipeline.arrRef spec6 0) : S50000x64.Idx → Elt F .f32) (ix2 ⟨2000 * t.val + p.val, hp⟩ k) := by
  unfold iblk6
  rw [View.read_apply]
  show V c (Pipeline.arrRef spec6 0) (((cfg6.win 0).blk t).view.emb (ix2 p k)) = V c (Pipeline.arrRef spec6 0) _
  refine congrArg (V c (Pipeline.arrRef spec6 0)) ?_
  funext a; apply Fin.ext
  obtain ⟨e0, e1, -⟩ := idx_facts6 t
  match a with
  | ⟨0, _⟩ => show win6_0.index t (0 : Fin 2) * 2000 + 1 * p.val = 2000 * t.val + p.val; omega
  | ⟨1, _⟩ => show win6_0.index t (1 : Fin 2) * 64 + 1 * k.val = k.val; omega

/-- The weights' block at every point is the whole array. -/
theorem iblk6_1_apply (c : Dev nD) (t : Fin cfg6.N) (k : Fin 64) (n : Fin 64) :
    iblk6 V c 1 t (ix2 k n) = (V c (Pipeline.arrRef spec6 1) : S64x64.Idx → Elt F .f32) (ix2 k n) := by
  unfold iblk6
  rw [View.read_apply]
  show V c (Pipeline.arrRef spec6 1) (((cfg6.win 1).blk t).view.emb (ix2 k n)) = V c (Pipeline.arrRef spec6 1) _
  refine congrArg (V c (Pipeline.arrRef spec6 1)) ?_
  funext a; apply Fin.ext
  obtain ⟨-, -, e2, e3, -⟩ := idx_facts6 t
  match a with
  | ⟨0, _⟩ => show win6_1.index t (0 : Fin 2) * 64 + 1 * k.val = k.val; omega
  | ⟨1, _⟩ => show win6_1.index t (1 : Fin 2) * 64 + 1 * n.val = n.val; omega

end Blocks

/-- What point t writes back is block t of the product of the two arrays the region finds. -/
theorem flushed6_eq (V : (c : Dev nD) → (b : Ref sig .tc) → Buf (Elt Ideal) ((c : Thread nD τ).loc b)) (c : Dev nD) (t : Fin cfg6.N) :
    (dat6 (F := Ideal) V c).flushed 2 t = ((cfg6.win 2).blk t).view.read (Elt Ideal)
      (mmOut64 (V c (Pipeline.arrRef spec6 0)) (V c (Pipeline.arrRef spec6 1))) := by
  show (cfg6.win 2).cut (grid6.coords t) ((dat6 (F := Ideal) V c).after 2 t) = _
  rw [after6_2]
  unfold out6_2
  rw [View.canon_unit_zero hz6]
  simp only [View.ld_unit_zero (S := S2000x64) hz6, View.ld_unit_zero (S := S64x64) hz6]
  funext j
  obtain ⟨p, n, rfl⟩ : ∃ (p : Fin 2000) (n : Fin 64), j = ix2 p n := ⟨j 0, j 1, eq_ix2 j⟩
  have ht : t.val < 25 := t.isLt
  have hp : 2000 * t.val + p.val < 50000 := by have := p.isLt; omega
  obtain ⟨-, -, -, -, e4, e5⟩ := idx_facts6 t
  have he : ((cfg6.win 2).blk t).view.emb (ix2 p n) = (ix2 ⟨2000 * t.val + p.val, hp⟩ n : S50000x64.Idx) := by
    funext a; apply Fin.ext
    match a with
    | ⟨0, _⟩ => show win6_2.index t (0 : Fin 2) * 2000 + 1 * p.val = 2000 * t.val + p.val; omega
    | ⟨1, _⟩ => show win6_2.index t (1 : Fin 2) * 64 + 1 * n.val = n.val; omega
  show k6_pay1 (iblk6 V c 0 t) (iblk6 V c 1 t) (ix2 p n)
    = mmOut64 (V c (Pipeline.arrRef spec6 0)) (V c (Pipeline.arrRef spec6 1)) (((cfg6.win 2).blk t).view.emb (ix2 p n))
  rw [he, mmOut64_apply]
  refine (pay6_apply _ _ p n).trans (Finset.sum_congr rfl fun k _ => ?_)
  rw [iblk6_0_apply V c t p k hp, iblk6_1_apply V c t k n]

/-- An index of the output array is in point t's block iff each coordinate is in the block's range on its axis. -/
theorem mem_blk6 (t : Fin cfg6.N) (i : S50000x64.Idx) :
    i ∈ ((cfg6.win 2).blk t).view.set ↔ ∀ a : Fin 2, win6_2.index t a * S2000x64.size a ≤ (i a).val ∧ (i a).val < win6_2.index t a * S2000x64.size a + S2000x64.size a := by
  show i ∈ ((View.whole main_v87).slice (win6_2.rect t)).set ↔ _
  rw [View.set_slice_whole, Rect.mem_set_unit]
  exact Iff.rfl

/-- The 25 row blocks cover the output array: row r is in block r / 2000. -/
theorem cover6 (i : S50000x64.Idx) : ∃ t : Fin cfg6.N, (cfg6.win 2).flush t = true ∧ i ∈ ((cfg6.win 2).blk t).view.set := by
  have hi0 : (i 0).val < 50000 := (i 0).isLt
  have hi1 : (i 1).val < 64 := (i 1).isLt
  have hN : cfg6.N = 25 := N_6
  refine ⟨⟨(i 0).val / 2000, by rw [hN]; omega⟩, flush6_2 _, ?_⟩
  rw [mem_blk6]
  obtain ⟨-, -, -, -, e4, e5⟩ := idx_facts6 ⟨(i 0).val / 2000, by rw [hN]; omega⟩
  intro a
  match a with
  | ⟨0, _⟩ =>
    show win6_2.index _ (0 : Fin 2) * 2000 ≤ (i 0).val ∧ (i 0).val < win6_2.index _ (0 : Fin 2) * 2000 + 2000
    rw [e4]; show (i 0).val / 2000 * 2000 ≤ (i 0).val ∧ (i 0).val < (i 0).val / 2000 * 2000 + 2000; omega
  | ⟨1, _⟩ =>
    show win6_2.index _ (1 : Fin 2) * 64 ≤ (i 1).val ∧ (i 1).val < win6_2.index _ (1 : Fin 2) * 64 + 64
    rw [e5]; omega

/-- THE OUTPUT ARRAY after the region: the product of the activations by the weights, as the region finds them. -/
theorem arr6_out (V : (c : Dev nD) → (b : Ref sig .tc) → Buf (Elt Ideal) ((c : Thread nD τ).loc b)) (c : Dev nD) :
    (dat6 (F := Ideal) V c).arrAt 2 cfg6.N = mmOut64 (V c (Pipeline.arrRef spec6 0)) (V c (Pipeline.arrRef spec6 1)) :=
  (dat6 (F := Ideal) V c).arrAt_eq_of_cover 2 (mmOut64 (V c (Pipeline.arrRef spec6 0)) (V c (Pipeline.arrRef spec6 1)))
    (fun t _ => flushed6_eq V c t) cover6

end Cert.KernelIdeal.Hand

end
-- ==== Proof.ValueA8.lean ====
/-
  The normalization region 8, its VALUE at the ideal values: after the region the output array [50000, 64] holds, at
  entry (p, q), (z (p, q) - mean (0, q)) * rsqrt (variance (0, q) + eps) * gain (0, q) + offset (0, q) of the five arrays
  the region finds, on the extended reals. The body's stored value at an entry of its block (the casts are the identity,
  each [1, 64] row is laid along the 2000 rows); each input block read off its array (row block t of z, the four whole
  rows); what point t writes back as block t of that function; the 25 row blocks cover the array.
-/
import proofs.«100384_j8693013807615_2_alg».proof.Proof.RegionA8
import proofs.«100384_j8693013807615_2_alg».proof.Proof.ValueSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

/-- The body's stored value at entry (p, q) of its block. -/
theorem pay8_apply (v0 : Vec Ideal S1x64 .f32) (v5 : Vec Ideal S2000x64 .f32) (v7 v13 v17 : Vec Ideal S1x64 .f32) (p : Fin 2000) (q : Fin 64) :
    k8_pay1 v0 v5 v7 v13 v17 (ix2 p q)
      = (v5 (ix2 p q) - v7 (ix2 (0 : Fin 1) q)) * Ideal.rsqrt (v0 (ix2 (0 : Fin 1) q) + Ideal.ofBits .f32 0x3727C5AC#32)
        * v13 (ix2 (0 : Fin 1) q) + v17 (ix2 (0 : Fin 1) q) := by
  unfold k8_pay1
  simp only [shapeCast_self]
  rw [addf_apply, mulf_apply, mulf_apply, subf_apply,
    broadcastTo_1b_ab_apply, broadcastTo_1b_ab_apply, broadcastTo_1b_ab_apply, broadcastTo_1b_ab_apply]
  rfl

/-- The same with the five entries it reads named. -/
theorem pay8_apply_of (v0 : Vec Ideal S1x64 .f32) (v5 : Vec Ideal S2000x64 .f32) (v7 v13 v17 : Vec Ideal S1x64 .f32) (p : Fin 2000) (q : Fin 64)
    (a0 a1 a2 a3 a4 : EReal) (h5 : v5 (ix2 p q) = a0) (h7 : v7 (ix2 (0 : Fin 1) q) = a1) (h0 : v0 (ix2 (0 : Fin 1) q) = a2)
    (h13 : v13 (ix2 (0 : Fin 1) q) = a3) (h17 : v17 (ix2 (0 : Fin 1) q) = a4) :
    k8_pay1 v0 v5 v7 v13 v17 (ix2 p q) = (a0 - a1) * Ideal.rsqrt (a2 + Ideal.ofBits .f32 0x3727C5AC#32) * a3 + a4 := by
  rw [pay8_apply, h5, h7, h0, h13, h17]

theorem hz8 : (![0, 0] : Fin 2 → Nat) = fun _ => 0 := funext fun a => by fin_cases a <;> rfl

/-- The printed index maps over the grid: z's and the output's row block moves with the point, the four rows' blocks
    never move. -/
theorem idx_facts8 : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_5.index t (0 : Fin 2) = t.val ∧ win8_5.index t (1 : Fin 2) = 0 :=
  (by decide +kernel : ∀ t : Fin grid8.N, _)

section Blocks
variable {F : FTy → Type} [FloatOps F]
variable (V : (c : Dev nD) → (b : Ref sig .tc) → Buf (Elt F) ((c : Thread nD τ).loc b))

/-- Entry (p, q) of z's block at point t is entry (2000 t + p, q) of the array. -/
theorem iblk8_0_apply (c : Dev nD) (t : Fin cfg8.N) (p : Fin 2000) (q : Fin 64) (hp : 2000 * t.val + p.val < 50000) :
    iblk8 V c 0 t (ix2 p q) = (V c (Pipeline.arrRef spec8 0) : S50000x64.Idx → Elt F .f32) (ix2 ⟨2000 * t.val + p.val, hp⟩ q) := by
  unfold iblk8
  rw [View.read_apply]
  show V c (Pipeline.arrRef spec8 0) (((cfg8.win 0).blk t).view.emb (ix2 p q)) = V c (Pipeline.arrRef spec8 0) _
  refine congrArg (V c (Pipeline.arrRef spec8 0)) ?_
  funext a; apply Fin.ext
  obtain ⟨e0, e1, -⟩ := idx_facts8 t
  match a with
  | ⟨0, _⟩ => show win8_0.index t (0 : Fin 2) * 2000 + 1 * p.val = 2000 * t.val + p.val; omega
  | ⟨1, _⟩ => show win8_0.index t (1 : Fin 2) * 64 + 1 * q.val = q.val; omega

/-- The mean row's block at every point is the whole row. -/
theorem iblk8_1_apply (c : Dev nD) (t : Fin cfg8.N) (q : Fin 64) :
    iblk8 V c 1 t (ix2 (0 : Fin 1) q) = (V c (Pipeline.arrRef spec8 1) : S1x64.Idx → Elt F .f32) (ix2 (0 : Fin 1) q) := by
  unfold iblk8
  rw [View.read_apply]
  show V c (Pipeline.arrRef spec8 1) (((cfg8.win 1).blk t).view.emb (ix2 (0 : Fin 1) q)) = V c (Pipeline.arrRef spec8 1) _
  refine congrArg (V c (Pipeline.arrRef spec8 1)) ?_
  funext a; apply Fin.ext
  obtain ⟨-, -, e1_0, e1_1, e2_0, e2_1, e3_0, e3_1, e4_0, e4_1, -⟩ := idx_facts8 t
  match a with
  | ⟨0, _⟩ => show win8_1.index t (0 : Fin 2) * 1 + 1 * (0 : Fin 1).val = (0 : Fin 1).val; omega
  | ⟨1, _⟩ => show win8_1.index t (1 : Fin 2) * 64 + 1 * q.val = q.val; omega

/-- The variance row's block at every point is the whole row. -/
theorem iblk8_2_apply (c : Dev nD) (t : Fin cfg8.N) (q : Fin 64) :
    iblk8 V c 2 t (ix2 (0 : Fin 1) q) = (V c (Pipeline.arrRef spec8 2) : S1x64.Idx → Elt F .f32) (ix2 (0 : Fin 1) q) := by
  unfold iblk8
  rw [View.read_apply]
  show V c (Pipeline.arrRef spec8 2) (((cfg8.win 2).blk t).view.emb (ix2 (0 : Fin 1) q)) = V c (Pipeline.arrRef spec8 2) _
  refine congrArg (V c (Pipeline.arrRef spec8 2)) ?_
  funext a; apply Fin.ext
  obtain ⟨-, -, e1_0, e1_1, e2_0, e2_1, e3_0, e3_1, e4_0, e4_1, -⟩ := idx_facts8 t
  match a with
  | ⟨0, _⟩ => show win8_2.index t (0 : Fin 2) * 1 + 1 * (0 : Fin 1).val = (0 : Fin 1).val; omega
  | ⟨1, _⟩ => show win8_2.index t (1 : Fin 2) * 64 + 1 * q.val = q.val; omega

/-- The gain row's block at every point is the whole row. -/
theorem iblk8_3_apply (c : Dev nD) (t : Fin cfg8.N) (q : Fin 64) :
    iblk8 V c 3 t (ix2 (0 : Fin 1) q) = (V c (Pipeline.arrRef spec8 3) : S1x64.Idx → Elt F .f32) (ix2 (0 : Fin 1) q) := by
  unfold iblk8
  rw [View.read_apply]
  show V c (Pipeline.arrRef spec8 3) (((cfg8.win 3).blk t).view.emb (ix2 (0 : Fin 1) q)) = V c (Pipeline.arrRef spec8 3) _
  refine congrArg (V c (Pipeline.arrRef spec8 3)) ?_
  funext a; apply Fin.ext
  obtain ⟨-, -, e1_0, e1_1, e2_0, e2_1, e3_0, e3_1, e4_0, e4_1, -⟩ := idx_facts8 t
  match a with
  | ⟨0, _⟩ => show win8_3.index t (0 : Fin 2) * 1 + 1 * (0 : Fin 1).val = (0 : Fin 1).val; omega
  | ⟨1, _⟩ => show win8_3.index t (1 : Fin 2) * 64 + 1 * q.val = q.val; omega

/-- The offset row's block at every point is the whole row. -/
theorem iblk8_4_apply (c : Dev nD) (t : Fin cfg8.N) (q : Fin 64) :
    iblk8 V c 4 t (ix2 (0 : Fin 1) q) = (V c (Pipeline.arrRef spec8 4) : S1x64.Idx → Elt F .f32) (ix2 (0 : Fin 1) q) := by
  unfold iblk8
  rw [View.read_apply]
  show V c (Pipeline.arrRef spec8 4) (((cfg8.win 4).blk t).view.emb (ix2 (0 : Fin 1) q)) = V c (Pipeline.arrRef spec8 4) _
  refine congrArg (V c (Pipeline.arrRef spec8 4)) ?_
  funext a; apply Fin.ext
  obtain ⟨-, -, e1_0, e1_1, e2_0, e2_1, e3_0, e3_1, e4_0, e4_1, -⟩ := idx_facts8 t
  match a with
  | ⟨0, _⟩ => show win8_4.index t (0 : Fin 2) * 1 + 1 * (0 : Fin 1).val = (0 : Fin 1).val; omega
  | ⟨1, _⟩ => show win8_4.index t (1 : Fin 2) * 64 + 1 * q.val = q.val; omega

end Blocks

set_option maxHeartbeats 2000000 in
/-- What point t writes back is block t of the normalization of the five arrays the region finds. -/
theorem flushed8_eq (V : (c : Dev nD) → (b : Ref sig .tc) → Buf (Elt Ideal) ((c : Thread nD τ).loc b)) (c : Dev nD) (t : Fin cfg8.N) :
    (dat8 (F := Ideal) V c).flushed 5 t = ((cfg8.win 5).blk t).view.read (Elt Ideal)
      (bnOut (V c (Pipeline.arrRef spec8 0)) (V c (Pipeline.arrRef spec8 1)) (V c (Pipeline.arrRef spec8 2))
        (V c (Pipeline.arrRef spec8 3)) (V c (Pipeline.arrRef spec8 4))) := by
  show (cfg8.win 5).cut (grid8.coords t) ((dat8 (F := Ideal) V c).after 5 t) = _
  rw [after8_5]
  unfold out8_5
  rw [View.canon_unit_zero hz8]
  simp only [View.ld_unit_zero (S := S2000x64) hz8, View.ld_unit_zero (S := S1x64) hz8]
  funext j
  obtain ⟨p, q, rfl⟩ : ∃ (p : Fin 2000) (q : Fin 64), j = ix2 p q := ⟨j 0, j 1, eq_ix2 j⟩
  have ht : t.val < 25 := t.isLt
  have hp : 2000 * t.val + p.val < 50000 := by have := p.isLt; omega
  obtain ⟨-, -, -, -, -, -, -, -, -, -, e5_0, e5_1⟩ := idx_facts8 t
  have he : ((cfg8.win 5).blk t).view.emb (ix2 p q) = (ix2 ⟨2000 * t.val + p.val, hp⟩ q : S50000x64.Idx) := by
    funext a; apply Fin.ext
    match a with
    | ⟨0, _⟩ => show win8_5.index t (0 : Fin 2) * 2000 + 1 * p.val = 2000 * t.val + p.val; omega
    | ⟨1, _⟩ => show win8_5.index t (1 : Fin 2) * 64 + 1 * q.val = q.val; omega
  show k8_pay1 (iblk8 V c 2 t) (iblk8 V c 0 t) (iblk8 V c 1 t) (iblk8 V c 3 t) (iblk8 V c 4 t) (ix2 p q)
    = bnOut (V c (Pipeline.arrRef spec8 0)) (V c (Pipeline.arrRef spec8 1)) (V c (Pipeline.arrRef spec8 2))
        (V c (Pipeline.arrRef spec8 3)) (V c (Pipeline.arrRef spec8 4)) (((cfg8.win 5).blk t).view.emb (ix2 p q))
  refine Eq.trans ?_ (congrArg (bnOut (V c (Pipeline.arrRef spec8 0)) (V c (Pipeline.arrRef spec8 1)) (V c (Pipeline.arrRef spec8 2))
        (V c (Pipeline.arrRef spec8 3)) (V c (Pipeline.arrRef spec8 4))) he.symm)
  refine Eq.trans ?_ (bnOut_apply _ _ _ _ _ ⟨2000 * t.val + p.val, hp⟩ q).symm
  exact pay8_apply_of _ _ _ _ _ p q _ _ _ _ _ (iblk8_0_apply V c t p q hp) (iblk8_1_apply V c t q) (iblk8_2_apply V c t q)
    (iblk8_3_apply V c t q) (iblk8_4_apply V c t q)

/-- An index of the output array is in point t's block iff each coordinate is in the block's range on its axis. -/
theorem mem_blk8 (t : Fin cfg8.N) (i : S50000x64.Idx) :
    i ∈ ((cfg8.win 5).blk t).view.set ↔ ∀ a : Fin 2, win8_5.index t a * S2000x64.size a ≤ (i a).val ∧ (i a).val < win8_5.index t a * S2000x64.size a + S2000x64.size a := by
  show i ∈ ((View.whole main_v115).slice (win8_5.rect t)).set ↔ _
  rw [View.set_slice_whole, Rect.mem_set_unit]
  exact Iff.rfl

/-- The 25 row blocks cover the output array: row r is in block r / 2000. -/
theorem cover8 (i : S50000x64.Idx) : ∃ t : Fin cfg8.N, (cfg8.win 5).flush t = true ∧ i ∈ ((cfg8.win 5).blk t).view.set := by
  have hi0 : (i 0).val < 50000 := (i 0).isLt
  have hi1 : (i 1).val < 64 := (i 1).isLt
  have hN : cfg8.N = 25 := N_8
  refine ⟨⟨(i 0).val / 2000, by rw [hN]; omega⟩, flush8_5 _, ?_⟩
  rw [mem_blk8]
  obtain ⟨-, -, -, -, -, -, -, -, -, -, e5_0, e5_1⟩ := idx_facts8 ⟨(i 0).val / 2000, by rw [hN]; omega⟩
  intro a
  match a with
  | ⟨0, _⟩ =>
    show win8_5.index _ (0 : Fin 2) * 2000 ≤ (i 0).val ∧ (i 0).val < win8_5.index _ (0 : Fin 2) * 2000 + 2000
    rw [e5_0]; show (i 0).val / 2000 * 2000 ≤ (i 0).val ∧ (i 0).val < (i 0).val / 2000 * 2000 + 2000; omega
  | ⟨1, _⟩ =>
    show win8_5.index _ (1 : Fin 2) * 64 ≤ (i 1).val ∧ (i 1).val < win8_5.index _ (1 : Fin 2) * 64 + 64
    rw [e5_1]; omega

/-- THE OUTPUT ARRAY after the region: the normalization of z by the mean, variance, gain and offset rows, as the
    region finds them. -/
theorem arr8_out (V : (c : Dev nD) → (b : Ref sig .tc) → Buf (Elt Ideal) ((c : Thread nD τ).loc b)) (c : Dev nD) :
    (dat8 (F := Ideal) V c).arrAt 5 cfg8.N = bnOut (V c (Pipeline.arrRef spec8 0)) (V c (Pipeline.arrRef spec8 1))
      (V c (Pipeline.arrRef spec8 2)) (V c (Pipeline.arrRef spec8 3)) (V c (Pipeline.arrRef spec8 4)) :=
  (dat8 (F := Ideal) V c).arrAt_eq_of_cover 5 (bnOut (V c (Pipeline.arrRef spec8 0)) (V c (Pipeline.arrRef spec8 1))
      (V c (Pipeline.arrRef spec8 2)) (V c (Pipeline.arrRef spec8 3)) (V c (Pipeline.arrRef spec8 4)))
    (fun t _ => flushed8_eq V c t) cover8

end Cert.KernelIdeal.Hand

end
-- ==== Proof.RegionStats1Value.lean ====
/- The VALUES of the bias + rectifier + running-statistics region (pipeline 1): each case's found pieces read
   back as the kernel's named payloads — the rectified block is `k1_pay3` of the point's two input blocks; the
   column sums are `k1_pay4` of them over the zero row at the first point and over the running row afterwards;
   the sums of squares likewise with `k1_pay5` — and so the contents after each point as a recursion on the point. -/
import proofs.«100384_j8693013807615_2_alg».proof.Proof.RegionStats1
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz : (![0, 0] : Fin 2 → Nat) = fun _ => 0 := funext fun a => by fin_cases a <;> rfl

/-- The first point's value of output 2 (the rectified block): its one covering store's payload on the whole input buffers. -/
theorem out1_A_2_eq (c : Dev nD) (i : grid1.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (hc0 : cond1_0 i) (x0 : Vec F S2000x64 .f32) (x1 : Vec F S1x64 .f32) :
    out1_A_2 c i arg1 harg1 arg2 harg2 arg3 harg3 arg4 harg4 arg5 harg5 hc0 x0 x1 = k1_pay3 x0 x1 := by
  unfold out1_A_2
  rw [View.read_writes_eq_canon _ _ _ (cover1_A_2 c i arg1 harg1 arg2 harg2 arg3 harg3 arg4 harg4 arg5 harg5 hc0 x0 x1)]
  unfold kernelRun1_A
  dsimp only
  rw [View.canon_unit_zero hz]
  simp only [View.readAt_eq_ld, harg1.read_unread, harg2.read_unread, harg3.read_unread, harg4.read_unread, harg5.read_unread, View.ld_unit_zero (S := S2000x64) hz, View.ld_unit_zero (S := S1x64) hz]

/-- A later point's value of output 2 (the rectified block): the same payload. -/
theorem out1_B_2_eq (c : Dev nD) (i : grid1.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i) (x0 : Vec F S2000x64 .f32) (x1 : Vec F S1x64 .f32) (xo3 : Vec F S1x64 .f32) (xo4 : Vec F S1x64 .f32) :
    out1_B_2 c i arg1 harg1 arg2 harg2 arg3 harg3 arg4 harg4 arg5 harg5 hc0 x0 x1 xo3 xo4 = k1_pay3 x0 x1 := by
  unfold out1_B_2
  rw [View.read_writes_eq_canon _ _ _ (cover1_B_2 c i arg1 harg1 arg2 harg2 arg3 harg3 arg4 harg4 arg5 harg5 hc0 x0 x1 xo3 xo4)]
  unfold kernelRun1_B
  dsimp only
  rw [View.canon_unit_zero hz]
  simp only [View.readAt_eq_ld, harg1.read_unread, harg2.read_unread, harg3.read_unread, harg4.read_unread, harg5.read_unread, View.ld_unit_zero (S := S2000x64) hz, View.ld_unit_zero (S := S1x64) hz]

/-- The first point's value of output 3 (the column sums): the accumulator is zeroed, read back, and the point's column sums added to it. -/
theorem out1_A_3_eq (c : Dev nD) (i : grid1.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (hc0 : cond1_0 i) (x0 : Vec F S2000x64 .f32) (x1 : Vec F S1x64 .f32) :
    out1_A_3 c i arg1 harg1 arg2 harg2 arg3 harg3 arg4 harg4 arg5 harg5 hc0 x0 x1 = k1_pay4 x0 x1 k1_pay1 := by
  unfold out1_A_3
  rw [View.read_writes_eq_canon _ _ _ (cover1_A_3 c i arg1 harg1 arg2 harg2 arg3 harg3 arg4 harg4 arg5 harg5 hc0 x0 x1)]
  unfold kernelRun1_A
  dsimp only
  sl_unfold_words
  rw [View.canon_cons_unit_zero (S := S1x64) hz, View.readCov_unit_zero (S := S1x64) _ hz]
  simp only [View.readAt_eq_ld, harg1.read_unread, harg2.read_unread, harg3.read_unread, harg4.read_unread, harg5.read_unread, View.ld_unit_zero (S := S2000x64) hz, View.ld_unit_zero (S := S1x64) hz]

/-- A later point's value of output 3 (the column sums): the point's column sums added to the running contents. -/
theorem out1_B_3_eq (c : Dev nD) (i : grid1.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i) (x0 : Vec F S2000x64 .f32) (x1 : Vec F S1x64 .f32) (xo3 : Vec F S1x64 .f32) (xo4 : Vec F S1x64 .f32) :
    out1_B_3 c i arg1 harg1 arg2 harg2 arg3 harg3 arg4 harg4 arg5 harg5 hc0 x0 x1 xo3 xo4 = k1_pay4 x0 x1 xo3 := by
  unfold out1_B_3
  rw [View.read_writes_eq_canon _ _ _ (cover1_B_3 c i arg1 harg1 arg2 harg2 arg3 harg3 arg4 harg4 arg5 harg5 hc0 x0 x1 xo3 xo4)]
  unfold kernelRun1_B
  dsimp only
  rw [View.canon_unit_zero hz]
  simp only [View.readAt_eq_ld, harg1.read_unread, harg2.read_unread, harg3.read_unread, harg4.read_unread, harg5.read_unread, View.ld_unit_zero (S := S2000x64) hz, View.ld_unit_zero (S := S1x64) hz]

/-- The first point's value of output 4 (the column sums of squares): the accumulator is zeroed, read back, and the point's column sums added to it. -/
theorem out1_A_4_eq (c : Dev nD) (i : grid1.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (hc0 : cond1_0 i) (x0 : Vec F S2000x64 .f32) (x1 : Vec F S1x64 .f32) :
    out1_A_4 c i arg1 harg1 arg2 harg2 arg3 harg3 arg4 harg4 arg5 harg5 hc0 x0 x1 = k1_pay5 x0 x1 k1_pay2 := by
  unfold out1_A_4
  rw [View.read_writes_eq_canon _ _ _ (cover1_A_4 c i arg1 harg1 arg2 harg2 arg3 harg3 arg4 harg4 arg5 harg5 hc0 x0 x1)]
  unfold kernelRun1_A
  dsimp only
  sl_unfold_words
  rw [View.canon_cons_unit_zero (S := S1x64) hz, View.readCov_unit_zero (S := S1x64) _ hz]
  simp only [View.readAt_eq_ld, harg1.read_unread, harg2.read_unread, harg3.read_unread, harg4.read_unread, harg5.read_unread, View.ld_unit_zero (S := S2000x64) hz, View.ld_unit_zero (S := S1x64) hz]

/-- A later point's value of output 4 (the column sums of squares): the point's column sums added to the running contents. -/
theorem out1_B_4_eq (c : Dev nD) (i : grid1.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i) (x0 : Vec F S2000x64 .f32) (x1 : Vec F S1x64 .f32) (xo3 : Vec F S1x64 .f32) (xo4 : Vec F S1x64 .f32) :
    out1_B_4 c i arg1 harg1 arg2 harg2 arg3 harg3 arg4 harg4 arg5 harg5 hc0 x0 x1 xo3 xo4 = k1_pay5 x0 x1 xo4 := by
  unfold out1_B_4
  rw [View.read_writes_eq_canon _ _ _ (cover1_B_4 c i arg1 harg1 arg2 harg2 arg3 harg3 arg4 harg4 arg5 harg5 hc0 x0 x1 xo3 xo4)]
  unfold kernelRun1_B
  dsimp only
  rw [View.canon_unit_zero hz]
  simp only [View.readAt_eq_ld, harg1.read_unread, harg2.read_unread, harg3.read_unread, harg4.read_unread, harg5.read_unread, View.ld_unit_zero (S := S2000x64) hz, View.ld_unit_zero (S := S1x64) hz]

section Region
variable (V : (c : Dev nD) → (b : Ref sig .tc) → Buf (Elt F) ((c : Thread nD τ).loc b))

/-- After the FIRST point: the rectified block of the point's inputs; the two statistics rows accumulated from zero. -/
theorem outsAt1_zero (c : Dev nD) (h : 0 < cfg1.N) :
    outsAt1 V c 0 h = (k1_pay3 (iblk1 V c 0 ⟨0, h⟩) (iblk1 V c 1 ⟨0, h⟩),
      k1_pay4 (iblk1 V c 0 ⟨0, h⟩) (iblk1 V c 1 ⟨0, h⟩) k1_pay1,
      k1_pay5 (iblk1 V c 0 ⟨0, h⟩) (iblk1 V c 1 ⟨0, h⟩) k1_pay2) := by
  rw [show outsAt1 V c 0 h = outsAt1 V c (⟨0, h⟩ : Fin cfg1.N).val (⟨0, h⟩ : Fin cfg1.N).isLt from rfl,
    outsAt1_A V c ⟨0, h⟩ rfl, out1_A_2_eq, out1_A_3_eq, out1_A_4_eq]

/-- After a LATER point: the rectified block of the point's inputs; each statistics row accumulated over what the
    point before left. -/
theorem outsAt1_succ (c : Dev nD) (n : ℕ) (h : n + 1 < cfg1.N) :
    outsAt1 V c (n + 1) h = (k1_pay3 (iblk1 V c 0 ⟨n + 1, h⟩) (iblk1 V c 1 ⟨n + 1, h⟩),
      k1_pay4 (iblk1 V c 0 ⟨n + 1, h⟩) (iblk1 V c 1 ⟨n + 1, h⟩) (outsAt1 V c n (Nat.lt_of_succ_lt h)).2.1,
      k1_pay5 (iblk1 V c 0 ⟨n + 1, h⟩) (iblk1 V c 1 ⟨n + 1, h⟩) (outsAt1 V c n (Nat.lt_of_succ_lt h)).2.2) := by
  have hN : cfg1.N = 25 := N_1
  have hB : ¬(⟨n + 1, h⟩ : Fin cfg1.N).val % 25 = 0 := by dsimp only; omega
  rw [show outsAt1 V c (n + 1) h = outsAt1 V c (⟨n + 1, h⟩ : Fin cfg1.N).val (⟨n + 1, h⟩ : Fin cfg1.N).isLt from rfl,
    outsAt1_B V c ⟨n + 1, h⟩ hB, out1_B_2_eq, out1_B_3_eq, out1_B_4_eq]
  rfl

/-- What the body leaves in the rectified block's buffer at any point. -/
theorem after1_2_eq (c : Dev nD) (t : Fin cfg1.N) :
    (dat1 V c).after 2 t = k1_pay3 (iblk1 V c 0 t) (iblk1 V c 1 t) := by
  rw [after1_2]
  obtain ⟨n, hn⟩ := t
  cases n with
  | zero => rw [outsAt1_zero]
  | succ n => rw [outsAt1_succ]

end Region

end Cert.KernelIdeal.Hand

end
-- ==== Proof.LibSumBlocks.lean ====
/-
  Summing a function over `Fin (a * b)` block by block.

  The numbers below `a * b` are exactly the numbers `k * b + j` with `k < a` and `j < b`, each written in one way
  (`k` is the quotient by `b`, `j` the remainder). So a sum over all of them, in a commutative monoid, is the sum
  over the `a` blocks of `b` consecutive numbers of each block's own sum. Only commutativity and associativity of
  the addition are used: nothing is cancelled or distributed, so the statements hold in any additive commutative
  monoid, the extended reals included.
-/
import Mathlib.Algebra.BigOperators.Fin
import Mathlib.Data.Fintype.BigOperators
import Mathlib.Logic.Equiv.Fin.Basic

open scoped BigOperators

namespace Cert.LibSumBlocks

/-- The `j`-th number of the `k`-th block of `b` consecutive numbers lies below `a * b` when `k < a` and `j < b`. -/
theorem block_index_lt {a b : ℕ} (k : Fin a) (j : Fin b) : k.val * b + j.val < a * b :=
  calc k.val * b + j.val < k.val * b + b := Nat.add_lt_add_left j.isLt _
    _ = (k.val + 1) * b := (Nat.succ_mul _ _).symm
    _ ≤ a * b := Nat.mul_le_mul_right _ k.isLt

/-- A sum over `Fin (a * b)` is the sum, over the `a` blocks of `b` consecutive indices, of the sums over each
    block: `∑ i, f i = ∑ k < a, ∑ j < b, f (k * b + j)`, in any additive commutative monoid. -/
theorem sum_blocks {M : Type*} [AddCommMonoid M] (a b : ℕ) (f : Fin (a * b) → M) :
    ∑ i : Fin (a * b), f i = ∑ k : Fin a, ∑ j : Fin b, f ⟨k.val * b + j.val, block_index_lt k j⟩ := by
  rw [← Equiv.sum_comp finProdFinEquiv f, Fintype.sum_prod_type]
  refine Finset.sum_congr rfl fun k _ => Finset.sum_congr rfl fun j _ => congrArg f (Fin.ext ?_)
  show j.val + b * k.val = k.val * b + j.val
  rw [Nat.mul_comm, Nat.add_comm]

/-- The same with the blocks' sums listed in the other nesting: the sum, over the position `j` inside a block, of
    the sum over the blocks. -/
theorem sum_blocks_comm {M : Type*} [AddCommMonoid M] (a b : ℕ) (f : Fin (a * b) → M) :
    ∑ i : Fin (a * b), f i = ∑ j : Fin b, ∑ k : Fin a, f ⟨k.val * b + j.val, block_index_lt k j⟩ :=
  (sum_blocks a b f).trans Finset.sum_comm

/-- `4096 = 4 * 1024`: a sum over 4096 indices, accumulated from zero one block of 1024 at a time — the blocks
    starting at 0, 1024, 2048 and 3072 — is the whole sum. -/
theorem sum_four_blocks {M : Type*} [AddCommMonoid M] (f : Fin 4096 → M) :
    ((((0 + ∑ j : Fin 1024, f ⟨j.val, by have := j.isLt; omega⟩)
          + ∑ j : Fin 1024, f ⟨1024 + j.val, by have := j.isLt; omega⟩)
        + ∑ j : Fin 1024, f ⟨2048 + j.val, by have := j.isLt; omega⟩)
      + ∑ j : Fin 1024, f ⟨3072 + j.val, by have := j.isLt; omega⟩)
    = ∑ i : Fin 4096, f i := by
  rw [zero_add]
  refine Eq.symm ((sum_blocks 4 1024 f).trans ?_)
  rw [Fin.sum_univ_four]
  refine congrArg₂ (· + ·) (congrArg₂ (· + ·) (congrArg₂ (· + ·) ?_ ?_) ?_) ?_
  · exact Finset.sum_congr rfl fun j _ => congrArg f (Fin.ext (by show 0 * 1024 + j.val = j.val; omega))
  · exact Finset.sum_congr rfl fun j _ => congrArg f (Fin.ext (by show 1 * 1024 + j.val = 1024 + j.val; omega))
  · exact Finset.sum_congr rfl fun j _ => congrArg f (Fin.ext (by show 2 * 1024 + j.val = 2048 + j.val; omega))
  · exact Finset.sum_congr rfl fun j _ => congrArg f (Fin.ext (by show 3 * 1024 + j.val = 3072 + j.val; omega))

end Cert.LibSumBlocks
-- ==== Proof.RegionStatsIdealLib.lean ====
/- Shape-level facts for the bias + rectifier + running-statistics regions, read at the ideal values: a one-axis
   sum of a [2000,64] block over its rows stored as a [1,64] row; the rectified aggregate and a [50000,64] array's
   column sums as closed forms; and the split of a column's sum over 50000 rows into the 25 row blocks of 2000 that
   the grid's points add one after another. -/
import proofs.«100384_j8693013807615_2_alg».proof.Proof.Gen.KernelIdeal
import proofs.«100384_j8693013807615_2_alg».proof.Proof.LibSumBlocks
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx
open scoped BigOperators

/-- A one-axis sum of a [2000,64] block over its rows, stored as a [1,64] row: the column's sum. -/
theorem colsum_apply (g : Vec Ideal S2000x64 .f32) (hφ : FKind.Formats .f32) (hacc : (0x00000000#32 : BitVec 32) = 0x00000000#32) (q : Fin 64) :
    shapeCast S1x64 (multiReduction (F := Ideal) .add [0] S64 g 0x00000000#32 reduces_S2000x64_S64 hφ hacc) shapeCasts_S64_S1x64 (ix2 0 q)
      = ∑ r : Fin 2000, g (ix2 r q) := by
  refine (shapeCast_addUnit_apply ![64] _ shapeCasts_S64_S1x64 (ix2 0 q)).trans ?_
  refine (Ideal.multiReduction_add_single g 0x00000000#32 reduces_S2000x64_S64 hφ hacc _).trans ?_
  refine Finset.sum_congr rfl fun r _ => congrArg g ?_
  funext a; match a with | ⟨0, _⟩ => rfl | ⟨1, _⟩ => rfl

/-- The rectified aggregate: entry (p, q) of the aggregate plus entry q of the bias row, clamped below at zero. -/
def reluOut (a : S50000x64.Idx → EReal) (b : S1x64.Idx → EReal) : S50000x64.Idx → EReal :=
  fun i => max (a i + b (ix2 0 ⟨(i 1).val, idx2_lt1 i⟩)) 0

/-- The column sums of a [50000,64] array, as a [1,64] row. -/
def colSums (g : S50000x64.Idx → EReal) : S1x64.Idx → EReal :=
  fun j => ∑ p : Fin 50000, g (ix2 p ⟨(j 1).val, idx2_lt1 j⟩)

/-- Point `s`'s addend to column `q` of a running row: the sum of `g` over the point's 2000 rows (zero past the grid). -/
def blockSum (g : S50000x64.Idx → EReal) (q : Fin 64) (s : ℕ) : EReal :=
  if hs : s < 25 then ∑ r : Fin 2000, g (ix2 (⟨s * 2000 + r.val, Cert.LibSumBlocks.block_index_lt (a := 25) ⟨s, hs⟩ r⟩ : Fin 50000) q) else 0

/-- The blocks' sums add up to the whole column's. -/
theorem sum_blockSum (g : S50000x64.Idx → EReal) (q : Fin 64) :
    ∑ s ∈ Finset.range 25, blockSum g q s = ∑ p : Fin 50000, g (ix2 p q) := by
  rw [← Fin.sum_univ_eq_sum_range (fun s => blockSum g q s) 25]
  refine Eq.symm ((Cert.LibSumBlocks.sum_blocks 25 2000 (fun p : Fin (25 * 2000) => g (ix2 (p : Fin 50000) q))).trans ?_)
  refine Finset.sum_congr rfl fun s _ => ?_
  unfold blockSum
  rw [dif_pos s.isLt]

end Cert.KernelIdeal.Hand

end
-- ==== Proof.RegionStats1Closed.lean ====
/- The CLOSED FORMS, at the ideal values, of what the bias + rectifier + running-statistics region (pipeline 1)
   leaves in its three output arrays, as functions of the two arrays it reads as the region finds them: the rectified
   aggregate; its column sums over all 50000 rows; the column sums of its squares. The payloads are read at an index;
   each point's block is placed in its array by the windows' index maps (decided over the grid); the two running rows
   are, after point `n`, the sums of the first `n + 1` row blocks' column sums (induction on the point), and the 25
   blocks' sums are the whole column's. -/
import proofs.«100384_j8693013807615_2_alg».proof.Proof.RegionStats1Value
import proofs.«100384_j8693013807615_2_alg».proof.Proof.RegionStatsIdealLib
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx
open scoped BigOperators

/-! ## The payloads read at an index, at the ideal values -/

/-- The rectified value: the block's entry plus the bias row's entry of that column, clamped below at zero. -/
theorem k1_pay3_apply (x : Vec Ideal S2000x64 .f32) (b : Vec Ideal S1x64 .f32) (r : Fin 2000) (q : Fin 64) :
    k1_pay3 x b (ix2 r q) = max (x (ix2 r q) + b (ix2 0 q)) 0 := by
  unfold k1_pay3
  simp only [shapeCast_self]
  show max (x (ix2 r q) + broadcastTo S2000x64 b broadcasts_S1x64_S2000x64 (ix2 r q)) (Ideal.ofBits .f32 0x00000000#32) = _
  rw [Ideal.ofBits_zero_f32, broadcastTo_apply b broadcasts_S1x64_S2000x64 (ix2 r q) (ix2 0 q)
    (fun a => match a with | ⟨0, _⟩ => rfl | ⟨1, _⟩ => rfl)]

/-- The column sums' new row: the running row plus the rectified block's column sums. -/
theorem k1_pay4_apply (x : Vec Ideal S2000x64 .f32) (b : Vec Ideal S1x64 .f32) (xo : Vec Ideal S1x64 .f32) (q : Fin 64) :
    k1_pay4 x b xo (ix2 0 q) = xo (ix2 0 q) + ∑ r : Fin 2000, k1_pay3 x b (ix2 r q) := by
  unfold k1_pay4
  simp only [shapeCast_self]
  show xo (ix2 0 q) + _ = _
  rw [colsum_apply]

/-- The sums of squares' new row: the running row plus the column sums of the rectified block's squares. -/
theorem k1_pay5_apply (x : Vec Ideal S2000x64 .f32) (b : Vec Ideal S1x64 .f32) (xo : Vec Ideal S1x64 .f32) (q : Fin 64) :
    k1_pay5 x b xo (ix2 0 q) = xo (ix2 0 q) + ∑ r : Fin 2000, k1_pay3 x b (ix2 r q) * k1_pay3 x b (ix2 r q) := by
  unfold k1_pay5
  simp only [shapeCast_self]
  show xo (ix2 0 q) + _ = _
  rw [colsum_apply]
  rfl

/-- The rows the reset stores are zero. -/
theorem k1_pay1_apply (j : S1x64.Idx) : k1_pay1 (F := Ideal) j = 0 := by
  unfold k1_pay1
  show Ideal.ofBits .f32 0x00000000#32 = 0
  exact Ideal.ofBits_zero_f32
theorem k1_pay2_apply (j : S1x64.Idx) : k1_pay2 (F := Ideal) j = 0 := by
  unfold k1_pay2
  show Ideal.ofBits .f32 0x00000000#32 = 0
  exact Ideal.ofBits_zero_f32

/-! ## The windows' index maps, decided over the grid -/

/-- The aggregate's and the rectified block's row-block index is the point; the bias and the two statistics rows
    stay at block (0, 0). -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

section Region
variable {F : FTy → Type} [FloatOps F]
variable (V : (c : Dev nD) → (b : Ref sig .tc) → Buf (Elt F) ((c : Thread nD τ).loc b))

/-- The aggregate's block at point `t` is rows `2000 t … 2000 t + 1999` of the array. -/
theorem iblk1_0_apply (c : Dev nD) (t : Fin cfg1.N) (r : Fin 2000) (q : Fin 64) (k : S50000x64.Idx)
    (hk0 : (k 0).val = 2000 * t.val + r.val) (hk1 : (k 1).val = q.val) :
    (iblk1 V c 0 t : Vec F S2000x64 .f32) (ix2 r q) = (V c main_v42 : S50000x64.Idx → Elt F .f32) k := by
  obtain ⟨e0, e1, -⟩ := idx_facts1 t
  unfold iblk1
  rw [View.read_apply]
  show V c main_v42 _ = V c main_v42 _
  congr 1
  funext a
  apply Fin.ext
  match a with
  | ⟨0, _⟩ => show win1_0.index t 0 * 2000 + 1 * r.val = (k 0).val; rw [e0, hk0]; omega
  | ⟨1, _⟩ => show win1_0.index t 1 * 64 + 1 * q.val = (k 1).val; rw [e1, hk1]; omega

/-- The bias's block at every point is the whole row. -/
theorem iblk1_1_apply (c : Dev nD) (t : Fin cfg1.N) (q : Fin 64) :
    (iblk1 V c 1 t : Vec F S1x64 .f32) (ix2 0 q) = (V c main_v43 : S1x64.Idx → Elt F .f32) (ix2 0 q) := by
  obtain ⟨-, -, e0, e1, -⟩ := idx_facts1 t
  unfold iblk1
  rw [View.read_apply]
  show V c main_v43 _ = V c main_v43 _
  congr 1
  funext a
  apply Fin.ext
  match a with
  | ⟨0, _⟩ => show win1_1.index t 0 * 1 + 1 * 0 = 0; rw [e0]
  | ⟨1, _⟩ => show win1_1.index t 1 * 64 + 1 * q.val = q.val; rw [e1]; omega

end Region

/-! ## The closed forms at the ideal values -/

section Ideal
variable (V : (c : Dev nD) → (b : Ref sig .tc) → Buf (Elt Ideal) ((c : Thread nD τ).loc b))

/-- The aggregate and the bias row as the region finds them. -/
abbrev aIn1 (c : Dev nD) : S50000x64.Idx → EReal := V c main_v42
abbrev bIn1 (c : Dev nD) : S1x64.Idx → EReal := V c main_v43

/-- What point `t` computes at row `r`, column `q` of its block is the rectified aggregate at row `2000 t + r`. -/
theorem relu_block1 (c : Dev nD) (t : Fin cfg1.N) (r : Fin 2000) (q : Fin 64) (k : S50000x64.Idx)
    (hk0 : (k 0).val = 2000 * t.val + r.val) (hk1 : (k 1).val = q.val) :
    k1_pay3 (iblk1 V c 0 t) (iblk1 V c 1 t) (ix2 r q) = reluOut (aIn1 V c) (bIn1 V c) k := by
  rw [k1_pay3_apply, iblk1_0_apply V c t r q k hk0 hk1, iblk1_1_apply V c t q]
  unfold reluOut
  have e : (⟨(k 1).val, idx2_lt1 k⟩ : Fin 64) = q := Fin.ext hk1
  rw [e]

/-- THE COLUMN SUMS after point `n`: the sum over the points so far of each point's block sum of the rectified aggregate. -/
theorem stats1_3_at (c : Dev nD) : ∀ (n : ℕ) (h : n < cfg1.N) (q : Fin 64),
    ((outsAt1 V c n h).2.1 : Vec Ideal S1x64 .f32) (ix2 0 q) = ∑ s ∈ Finset.range (n + 1), blockSum (reluOut (aIn1 V c) (bIn1 V c)) q s
  | 0, h, q => by
    rw [outsAt1_zero]
    show k1_pay4 _ _ k1_pay1 (ix2 0 q) = _
    rw [k1_pay4_apply, k1_pay1_apply, zero_add, Finset.sum_range_one]
    unfold blockSum
    rw [dif_pos (by decide)]
    exact Finset.sum_congr rfl fun r _ => relu_block1 V c ⟨0, h⟩ r q (ix2 ⟨0 * 2000 + r.val, _⟩ q) (by show 0 * 2000 + r.val = 2000 * 0 + r.val; omega) rfl
  | n + 1, h, q => by
    have hN : n + 1 < 25 := lt_of_lt_of_eq h (show cfg1.N = 25 from N_1)
    rw [outsAt1_succ]
    show k1_pay4 _ _ (outsAt1 V c n _).2.1 (ix2 0 q) = _
    rw [k1_pay4_apply, stats1_3_at c n _ q, Finset.sum_range_succ _ (n + 1)]
    congr 1
    unfold blockSum
    rw [dif_pos hN]
    exact Finset.sum_congr rfl fun r _ => relu_block1 V c ⟨n + 1, h⟩ r q (ix2 ⟨(n + 1) * 2000 + r.val, _⟩ q) (by show (n + 1) * 2000 + r.val = 2000 * (n + 1) + r.val; omega) rfl

/-- THE COLUMN SUMS OF SQUARES after point `n`, likewise. -/
theorem stats1_4_at (c : Dev nD) : ∀ (n : ℕ) (h : n < cfg1.N) (q : Fin 64),
    ((outsAt1 V c n h).2.2 : Vec Ideal S1x64 .f32) (ix2 0 q)
      = ∑ s ∈ Finset.range (n + 1), blockSum (fun i => reluOut (aIn1 V c) (bIn1 V c) i * reluOut (aIn1 V c) (bIn1 V c) i) q s
  | 0, h, q => by
    rw [outsAt1_zero]
    show k1_pay5 _ _ k1_pay2 (ix2 0 q) = _
    rw [k1_pay5_apply, k1_pay2_apply, zero_add, Finset.sum_range_one]
    unfold blockSum
    rw [dif_pos (by decide)]
    refine Finset.sum_congr rfl fun r _ => ?_
    rw [relu_block1 V c ⟨0, h⟩ r q (ix2 ⟨0 * 2000 + r.val, _⟩ q) (by show 0 * 2000 + r.val = 2000 * 0 + r.val; omega) rfl]
  | n + 1, h, q => by
    have hN : n + 1 < 25 := lt_of_lt_of_eq h (show cfg1.N = 25 from N_1)
    rw [outsAt1_succ]
    show k1_pay5 _ _ (outsAt1 V c n _).2.2 (ix2 0 q) = _
    rw [k1_pay5_apply, stats1_4_at c n _ q, Finset.sum_range_succ _ (n + 1)]
    congr 1
    unfold blockSum
    rw [dif_pos hN]
    refine Finset.sum_congr rfl fun r _ => ?_
    rw [relu_block1 V c ⟨n + 1, h⟩ r q (ix2 ⟨(n + 1) * 2000 + r.val, _⟩ q) (by show (n + 1) * 2000 + r.val = 2000 * (n + 1) + r.val; omega) rfl]

end Ideal

section IdealFinal
variable (V : (c : Dev nD) → (b : Ref sig .tc) → Buf (Elt Ideal) ((c : Thread nD τ).loc b))

/-! ## The rectified block array -/

/-- `relu_block1` at an index of the block given whole. -/
theorem relu_block1' (c : Dev nD) (t : Fin cfg1.N) (j : S2000x64.Idx) (k : S50000x64.Idx)
    (hk0 : (k 0).val = 2000 * t.val + (j 0).val) (hk1 : (k 1).val = (j 1).val) :
    k1_pay3 (iblk1 V c 0 t) (iblk1 V c 1 t) j = reluOut (aIn1 V c) (bIn1 V c) k :=
  (congrArg (k1_pay3 (iblk1 V c 0 t) (iblk1 V c 1 t)) (eq_ix2 j)).trans (relu_block1 V c t (j 0) (j 1) k hk0 hk1)

/-- What point `t` writes back of the rectified block is block `t` of the rectified aggregate. -/
theorem flushed1_2_eq (c : Dev nD) (t : Fin cfg1.N) :
    (dat1 V c).flushed 2 t = ((cfg1.win 2).blk t).view.read (Elt Ideal) (reluOut (aIn1 V c) (bIn1 V c)) := by
  show (cfg1.win 2).cut (grid1.coords t) ((dat1 V c).after 2 t) = _
  rw [after1_2_eq]
  obtain ⟨-, -, -, -, e0, e1, -⟩ := idx_facts1 t
  funext j
  show k1_pay3 (iblk1 V c 0 t) (iblk1 V c 1 t) j = reluOut (aIn1 V c) (bIn1 V c) (((cfg1.win 2).blk t).view.emb j)
  refine relu_block1' V c t j _ ?_ ?_
  · show win1_2.index t (0 : Fin 2) * 2000 + 1 * (j 0).val = 2000 * t.val + (j 0).val; rw [e0]; omega
  · show win1_2.index t (1 : Fin 2) * 64 + 1 * (j 1).val = (j 1).val; rw [e1]; omega

/-- An index of the array is in point `t`'s block iff each coordinate is in the block's range on its axis. -/
theorem mem_blk1_2 (t : Fin cfg1.N) (i : S50000x64.Idx) :
    i ∈ ((cfg1.win 2).blk t).view.set ↔ ∀ a : Fin 2, win1_2.index t a * S2000x64.size a ≤ (i a).val ∧ (i a).val < win1_2.index t a * S2000x64.size a + S2000x64.size a := by
  show i ∈ ((View.whole main_v44_0).slice (win1_2.rect t)).set ↔ _
  rw [View.set_slice_whole, Rect.mem_set_unit]
  exact Iff.rfl

/-- THE RECTIFIED ARRAY after the region: the rectified aggregate, every row block written by its point. -/
theorem final1_2 (c : Dev nD) : (dat1 V c).arrAt 2 cfg1.N = reluOut (aIn1 V c) (bIn1 V c) :=
  (dat1 V c).arrAt_eq_of_cover 2 (reluOut (aIn1 V c) (bIn1 V c)) (fun t _ => flushed1_2_eq V c t) fun i => by
    have hi0 : ((i : S50000x64.Idx) 0).val < 50000 := idx2_lt0 (i : S50000x64.Idx)
    have hi1 : ((i : S50000x64.Idx) 1).val < 64 := idx2_lt1 (i : S50000x64.Idx)
    have hN : cfg1.N = 25 := N_1
    refine ⟨⟨((i : S50000x64.Idx) 0).val / 2000, by rw [hN]; omega⟩, flush1_2 _, ?_⟩
    rw [mem_blk1_2]
    obtain ⟨-, -, -, -, e0, e1, -⟩ := idx_facts1 ⟨((i : S50000x64.Idx) 0).val / 2000, by rw [hN]; omega⟩
    intro a
    match a with
    | ⟨0, _⟩ => show win1_2.index _ (0 : Fin 2) * 2000 ≤ ((i : S50000x64.Idx) 0).val ∧ ((i : S50000x64.Idx) 0).val < win1_2.index _ (0 : Fin 2) * 2000 + 2000
                rw [e0]; dsimp only; omega
    | ⟨1, _⟩ => show win1_2.index _ (1 : Fin 2) * 64 ≤ ((i : S50000x64.Idx) 1).val ∧ ((i : S50000x64.Idx) 1).val < win1_2.index _ (1 : Fin 2) * 64 + 64
                rw [e1]; omega

/-! ## The two statistics rows -/

/-- The last point, the one after which the statistics rows are written back. -/
abbrev tLast1 : Fin cfg1.N := ⟨24, by rw [show cfg1.N = 25 from N_1]; decide⟩

/-- After the last point the column sums' buffer holds the column sums of the rectified aggregate. -/
theorem stats1_3_last (c : Dev nD) :
    ((outsAt1 V c tLast1.val tLast1.isLt).2.1 : Vec Ideal S1x64 .f32) = colSums (reluOut (aIn1 V c) (bIn1 V c)) := by
  funext j
  obtain ⟨q, rfl⟩ : ∃ q : Fin 64, j = ix2 (0 : Fin 1) q := ⟨⟨(j 1).val, idx2_lt1 j⟩, by
    funext a
    match a with
    | ⟨0, _⟩ => exact Fin.ext (by have h : (j 0).val < 1 := idx2_lt0 j; show (j 0).val = 0; omega)
    | ⟨1, _⟩ => rfl⟩
  refine (stats1_3_at V c 24 tLast1.isLt q).trans ?_
  exact sum_blockSum _ q

/-- … and the sums of squares' buffer the column sums of its squares. -/
theorem stats1_4_last (c : Dev nD) :
    ((outsAt1 V c tLast1.val tLast1.isLt).2.2 : Vec Ideal S1x64 .f32)
      = colSums (fun i => reluOut (aIn1 V c) (bIn1 V c) i * reluOut (aIn1 V c) (bIn1 V c) i) := by
  funext j
  obtain ⟨q, rfl⟩ : ∃ q : Fin 64, j = ix2 (0 : Fin 1) q := ⟨⟨(j 1).val, idx2_lt1 j⟩, by
    funext a
    match a with
    | ⟨0, _⟩ => exact Fin.ext (by have h : (j 0).val < 1 := idx2_lt0 j; show (j 0).val = 0; omega)
    | ⟨1, _⟩ => rfl⟩
  refine (stats1_4_at V c 24 tLast1.isLt q).trans ?_
  exact sum_blockSum _ q

/-- The one write-back of the column sums, after the last point, writes that row: its block is the whole [1,64] array. -/
theorem flushed1_3_eq (c : Dev nD) (t : Fin cfg1.N) (hf : (cfg1.win 3).flush t = true) :
    (dat1 V c).flushed 3 t = ((cfg1.win 3).blk t).view.read (Elt Ideal) (colSums (reluOut (aIn1 V c) (bIn1 V c))) := by
  have hN : cfg1.N = 25 := N_1
  have h24 : t.val = 24 := by have := (flush1_3 t).mp hf; have := t.isLt; omega
  obtain rfl : t = tLast1 := Fin.ext h24
  show (cfg1.win 3).cut (grid1.coords tLast1) ((dat1 V c).after 3 tLast1) = _
  rw [after1_3, stats1_3_last]
  obtain ⟨-, -, -, -, -, -, e0, e1, -⟩ := idx_facts1 tLast1
  have hz' : (fun a => win1_3.index tLast1 a * main_v44_1.ty.shape.size a) = fun _ => 0 := funext fun a => by
    match a with
    | ⟨0, _⟩ => show win1_3.index tLast1 (0 : Fin 2) * 1 = 0; rw [e0]
    | ⟨1, _⟩ => show win1_3.index tLast1 (1 : Fin 2) * 64 = 0; rw [e1]
  exact (Memref.read_access_unit_zero (Elt Ideal) main_v44_1 hz' (fun a => by rw [congrFun hz' a]; simp) (colSums (reluOut (aIn1 V c) (bIn1 V c)))).symm

theorem flushed1_4_eq (c : Dev nD) (t : Fin cfg1.N) (hf : (cfg1.win 4).flush t = true) :
    (dat1 V c).flushed 4 t = ((cfg1.win 4).blk t).view.read (Elt Ideal) (colSums (fun i => reluOut (aIn1 V c) (bIn1 V c) i * reluOut (aIn1 V c) (bIn1 V c) i)) := by
  have hN : cfg1.N = 25 := N_1
  have h24 : t.val = 24 := by have := (flush1_4 t).mp hf; have := t.isLt; omega
  obtain rfl : t = tLast1 := Fin.ext h24
  show (cfg1.win 4).cut (grid1.coords tLast1) ((dat1 V c).after 4 tLast1) = _
  rw [after1_4, stats1_4_last]
  obtain ⟨-, -, -, -, -, -, -, -, e0, e1⟩ := idx_facts1 tLast1
  have hz' : (fun a => win1_4.index tLast1 a * main_v44_2.ty.shape.size a) = fun _ => 0 := funext fun a => by
    match a with
    | ⟨0, _⟩ => show win1_4.index tLast1 (0 : Fin 2) * 1 = 0; rw [e0]
    | ⟨1, _⟩ => show win1_4.index tLast1 (1 : Fin 2) * 64 = 0; rw [e1]
  exact (Memref.read_access_unit_zero (Elt Ideal) main_v44_2 hz' (fun a => by rw [congrFun hz' a]; simp) _).symm

/-- Every index of a statistics row is in the last point's block (the block is the whole row). -/
theorem cover1_3 (i : S1x64.Idx) : ∃ t : Fin cfg1.N, (cfg1.win 3).flush t = true ∧ i ∈ ((cfg1.win 3).blk t).view.set := by
  refine ⟨tLast1, (flush1_3 tLast1).mpr rfl, ?_⟩
  obtain ⟨-, -, -, -, -, -, e0, e1, -⟩ := idx_facts1 tLast1
  show i ∈ ((View.whole main_v44_1).slice (win1_3.rect tLast1)).set
  rw [View.set_slice_whole, Rect.mem_set_unit]
  intro a
  have h0 : (i 0).val < 1 := idx2_lt0 i
  have h1 : (i 1).val < 64 := idx2_lt1 i
  match a with
  | ⟨0, _⟩ => show win1_3.index tLast1 (0 : Fin 2) * 1 ≤ (i 0).val ∧ (i 0).val < win1_3.index tLast1 (0 : Fin 2) * 1 + 1; rw [e0]; omega
  | ⟨1, _⟩ => show win1_3.index tLast1 (1 : Fin 2) * 64 ≤ (i 1).val ∧ (i 1).val < win1_3.index tLast1 (1 : Fin 2) * 64 + 64; rw [e1]; omega

theorem cover1_4 (i : S1x64.Idx) : ∃ t : Fin cfg1.N, (cfg1.win 4).flush t = true ∧ i ∈ ((cfg1.win 4).blk t).view.set := by
  refine ⟨tLast1, (flush1_4 tLast1).mpr rfl, ?_⟩
  obtain ⟨-, -, -, -, -, -, -, -, e0, e1⟩ := idx_facts1 tLast1
  show i ∈ ((View.whole main_v44_2).slice (win1_4.rect tLast1)).set
  rw [View.set_slice_whole, Rect.mem_set_unit]
  intro a
  have h0 : (i 0).val < 1 := idx2_lt0 i
  have h1 : (i 1).val < 64 := idx2_lt1 i
  match a with
  | ⟨0, _⟩ => show win1_4.index tLast1 (0 : Fin 2) * 1 ≤ (i 0).val ∧ (i 0).val < win1_4.index tLast1 (0 : Fin 2) * 1 + 1; rw [e0]; omega
  | ⟨1, _⟩ => show win1_4.index tLast1 (1 : Fin 2) * 64 ≤ (i 1).val ∧ (i 1).val < win1_4.index tLast1 (1 : Fin 2) * 64 + 64; rw [e1]; omega

/-- THE COLUMN SUMS' ARRAY after the region: entry q is the sum over all 50000 rows of the rectified aggregate's column q. -/
theorem final1_3 (c : Dev nD) : (dat1 V c).arrAt 3 cfg1.N = colSums (reluOut (aIn1 V c) (bIn1 V c)) :=
  (dat1 V c).arrAt_eq_of_cover 3 (colSums (reluOut (aIn1 V c) (bIn1 V c))) (flushed1_3_eq V c) (fun i => cover1_3 i)

/-- THE SUMS OF SQUARES' ARRAY after the region: entry q is the sum over all rows of the squares of that column. -/
theorem final1_4 (c : Dev nD) : (dat1 V c).arrAt 4 cfg1.N = colSums (fun i => reluOut (aIn1 V c) (bIn1 V c) i * reluOut (aIn1 V c) (bIn1 V c) i) :=
  (dat1 V c).arrAt_eq_of_cover 4 _ (flushed1_4_eq V c) (fun i => cover1_4 i)

end IdealFinal

end Cert.KernelIdeal.Hand

end
-- ==== Proof.RegionStats4Value.lean ====
/- The VALUES of the bias + rectifier + running-statistics region (pipeline 4): each case's found pieces read
   back as the kernel's named payloads — the rectified block is `k4_pay3` of the point's two input blocks; the
   column sums are `k4_pay4` of them over the zero row at the first point and over the running row afterwards;
   the sums of squares likewise with `k4_pay5` — and so the contents after each point as a recursion on the point. -/
import proofs.«100384_j8693013807615_2_alg».proof.Proof.RegionStats4
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz4 : (![0, 0] : Fin 2 → Nat) = fun _ => 0 := funext fun a => by fin_cases a <;> rfl

/-- The first point's value of output 2 (the rectified block): its one covering store's payload on the whole input buffers. -/
theorem out4_A_2_eq (c : Dev nD) (i : grid4.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (hc0 : cond4_0 i) (x0 : Vec F S2000x64 .f32) (x1 : Vec F S1x64 .f32) :
    out4_A_2 c i arg1 harg1 arg2 harg2 arg3 harg3 arg4 harg4 arg5 harg5 hc0 x0 x1 = k4_pay3 x0 x1 := by
  unfold out4_A_2
  rw [View.read_writes_eq_canon _ _ _ (cover4_A_2 c i arg1 harg1 arg2 harg2 arg3 harg3 arg4 harg4 arg5 harg5 hc0 x0 x1)]
  unfold kernelRun4_A
  dsimp only
  rw [View.canon_unit_zero hz4]
  simp only [View.readAt_eq_ld, harg1.read_unread, harg2.read_unread, harg3.read_unread, harg4.read_unread, harg5.read_unread, View.ld_unit_zero (S := S2000x64) hz4, View.ld_unit_zero (S := S1x64) hz4]

/-- A later point's value of output 2 (the rectified block): the same payload. -/
theorem out4_B_2_eq (c : Dev nD) (i : grid4.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (hc0 : ¬cond4_0 i) (x0 : Vec F S2000x64 .f32) (x1 : Vec F S1x64 .f32) (xo3 : Vec F S1x64 .f32) (xo4 : Vec F S1x64 .f32) :
    out4_B_2 c i arg1 harg1 arg2 harg2 arg3 harg3 arg4 harg4 arg5 harg5 hc0 x0 x1 xo3 xo4 = k4_pay3 x0 x1 := by
  unfold out4_B_2
  rw [View.read_writes_eq_canon _ _ _ (cover4_B_2 c i arg1 harg1 arg2 harg2 arg3 harg3 arg4 harg4 arg5 harg5 hc0 x0 x1 xo3 xo4)]
  unfold kernelRun4_B
  dsimp only
  rw [View.canon_unit_zero hz4]
  simp only [View.readAt_eq_ld, harg1.read_unread, harg2.read_unread, harg3.read_unread, harg4.read_unread, harg5.read_unread, View.ld_unit_zero (S := S2000x64) hz4, View.ld_unit_zero (S := S1x64) hz4]

/-- The first point's value of output 3 (the column sums): the accumulator is zeroed, read back, and the point's column sums added to it. -/
theorem out4_A_3_eq (c : Dev nD) (i : grid4.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (hc0 : cond4_0 i) (x0 : Vec F S2000x64 .f32) (x1 : Vec F S1x64 .f32) :
    out4_A_3 c i arg1 harg1 arg2 harg2 arg3 harg3 arg4 harg4 arg5 harg5 hc0 x0 x1 = k4_pay4 x0 x1 k4_pay1 := by
  unfold out4_A_3
  rw [View.read_writes_eq_canon _ _ _ (cover4_A_3 c i arg1 harg1 arg2 harg2 arg3 harg3 arg4 harg4 arg5 harg5 hc0 x0 x1)]
  unfold kernelRun4_A
  dsimp only
  sl_unfold_words
  rw [View.canon_cons_unit_zero (S := S1x64) hz4, View.readCov_unit_zero (S := S1x64) _ hz4]
  simp only [View.readAt_eq_ld, harg1.read_unread, harg2.read_unread, harg3.read_unread, harg4.read_unread, harg5.read_unread, View.ld_unit_zero (S := S2000x64) hz4, View.ld_unit_zero (S := S1x64) hz4]

/-- A later point's value of output 3 (the column sums): the point's column sums added to the running contents. -/
theorem out4_B_3_eq (c : Dev nD) (i : grid4.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (hc0 : ¬cond4_0 i) (x0 : Vec F S2000x64 .f32) (x1 : Vec F S1x64 .f32) (xo3 : Vec F S1x64 .f32) (xo4 : Vec F S1x64 .f32) :
    out4_B_3 c i arg1 harg1 arg2 harg2 arg3 harg3 arg4 harg4 arg5 harg5 hc0 x0 x1 xo3 xo4 = k4_pay4 x0 x1 xo3 := by
  unfold out4_B_3
  rw [View.read_writes_eq_canon _ _ _ (cover4_B_3 c i arg1 harg1 arg2 harg2 arg3 harg3 arg4 harg4 arg5 harg5 hc0 x0 x1 xo3 xo4)]
  unfold kernelRun4_B
  dsimp only
  rw [View.canon_unit_zero hz4]
  simp only [View.readAt_eq_ld, harg1.read_unread, harg2.read_unread, harg3.read_unread, harg4.read_unread, harg5.read_unread, View.ld_unit_zero (S := S2000x64) hz4, View.ld_unit_zero (S := S1x64) hz4]

/-- The first point's value of output 4 (the column sums of squares): the accumulator is zeroed, read back, and the point's column sums added to it. -/
theorem out4_A_4_eq (c : Dev nD) (i : grid4.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (hc0 : cond4_0 i) (x0 : Vec F S2000x64 .f32) (x1 : Vec F S1x64 .f32) :
    out4_A_4 c i arg1 harg1 arg2 harg2 arg3 harg3 arg4 harg4 arg5 harg5 hc0 x0 x1 = k4_pay5 x0 x1 k4_pay2 := by
  unfold out4_A_4
  rw [View.read_writes_eq_canon _ _ _ (cover4_A_4 c i arg1 harg1 arg2 harg2 arg3 harg3 arg4 harg4 arg5 harg5 hc0 x0 x1)]
  unfold kernelRun4_A
  dsimp only
  sl_unfold_words
  rw [View.canon_cons_unit_zero (S := S1x64) hz4, View.readCov_unit_zero (S := S1x64) _ hz4]
  simp only [View.readAt_eq_ld, harg1.read_unread, harg2.read_unread, harg3.read_unread, harg4.read_unread, harg5.read_unread, View.ld_unit_zero (S := S2000x64) hz4, View.ld_unit_zero (S := S1x64) hz4]

/-- A later point's value of output 4 (the column sums of squares): the point's column sums added to the running contents. -/
theorem out4_B_4_eq (c : Dev nD) (i : grid4.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (hc0 : ¬cond4_0 i) (x0 : Vec F S2000x64 .f32) (x1 : Vec F S1x64 .f32) (xo3 : Vec F S1x64 .f32) (xo4 : Vec F S1x64 .f32) :
    out4_B_4 c i arg1 harg1 arg2 harg2 arg3 harg3 arg4 harg4 arg5 harg5 hc0 x0 x1 xo3 xo4 = k4_pay5 x0 x1 xo4 := by
  unfold out4_B_4
  rw [View.read_writes_eq_canon _ _ _ (cover4_B_4 c i arg1 harg1 arg2 harg2 arg3 harg3 arg4 harg4 arg5 harg5 hc0 x0 x1 xo3 xo4)]
  unfold kernelRun4_B
  dsimp only
  rw [View.canon_unit_zero hz4]
  simp only [View.readAt_eq_ld, harg1.read_unread, harg2.read_unread, harg3.read_unread, harg4.read_unread, harg5.read_unread, View.ld_unit_zero (S := S2000x64) hz4, View.ld_unit_zero (S := S1x64) hz4]

section Region
variable (V : (c : Dev nD) → (b : Ref sig .tc) → Buf (Elt F) ((c : Thread nD τ).loc b))

/-- After the FIRST point: the rectified block of the point's inputs; the two statistics rows accumulated from zero. -/
theorem outsAt4_zero (c : Dev nD) (h : 0 < cfg4.N) :
    outsAt4 V c 0 h = (k4_pay3 (iblk4 V c 0 ⟨0, h⟩) (iblk4 V c 1 ⟨0, h⟩),
      k4_pay4 (iblk4 V c 0 ⟨0, h⟩) (iblk4 V c 1 ⟨0, h⟩) k4_pay1,
      k4_pay5 (iblk4 V c 0 ⟨0, h⟩) (iblk4 V c 1 ⟨0, h⟩) k4_pay2) := by
  rw [show outsAt4 V c 0 h = outsAt4 V c (⟨0, h⟩ : Fin cfg4.N).val (⟨0, h⟩ : Fin cfg4.N).isLt from rfl,
    outsAt4_A V c ⟨0, h⟩ rfl, out4_A_2_eq, out4_A_3_eq, out4_A_4_eq]

/-- After a LATER point: the rectified block of the point's inputs; each statistics row accumulated over what the
    point before left. -/
theorem outsAt4_succ (c : Dev nD) (n : ℕ) (h : n + 1 < cfg4.N) :
    outsAt4 V c (n + 1) h = (k4_pay3 (iblk4 V c 0 ⟨n + 1, h⟩) (iblk4 V c 1 ⟨n + 1, h⟩),
      k4_pay4 (iblk4 V c 0 ⟨n + 1, h⟩) (iblk4 V c 1 ⟨n + 1, h⟩) (outsAt4 V c n (Nat.lt_of_succ_lt h)).2.1,
      k4_pay5 (iblk4 V c 0 ⟨n + 1, h⟩) (iblk4 V c 1 ⟨n + 1, h⟩) (outsAt4 V c n (Nat.lt_of_succ_lt h)).2.2) := by
  have hN : cfg4.N = 25 := N_4
  have hB : ¬(⟨n + 1, h⟩ : Fin cfg4.N).val % 25 = 0 := by dsimp only; omega
  rw [show outsAt4 V c (n + 1) h = outsAt4 V c (⟨n + 1, h⟩ : Fin cfg4.N).val (⟨n + 1, h⟩ : Fin cfg4.N).isLt from rfl,
    outsAt4_B V c ⟨n + 1, h⟩ hB, out4_B_2_eq, out4_B_3_eq, out4_B_4_eq]
  rfl

/-- What the body leaves in the rectified block's buffer at any point. -/
theorem after4_2_eq (c : Dev nD) (t : Fin cfg4.N) :
    (dat4 V c).after 2 t = k4_pay3 (iblk4 V c 0 t) (iblk4 V c 1 t) := by
  rw [after4_2]
  obtain ⟨n, hn⟩ := t
  cases n with
  | zero => rw [outsAt4_zero]
  | succ n => rw [outsAt4_succ]

end Region

end Cert.KernelIdeal.Hand

end
-- ==== Proof.RegionStats4Closed.lean ====
/- The CLOSED FORMS, at the ideal values, of what the bias + rectifier + running-statistics region (pipeline 4)
   leaves in its three output arrays, as functions of the two arrays it reads as the region finds them: the rectified
   aggregate; its column sums over all 50000 rows; the column sums of its squares. The payloads are read at an index;
   each point's block is placed in its array by the windows' index maps (decided over the grid); the two running rows
   are, after point `n`, the sums of the first `n + 1` row blocks' column sums (induction on the point), and the 25
   blocks' sums are the whole column's. -/
import proofs.«100384_j8693013807615_2_alg».proof.Proof.RegionStats4Value
import proofs.«100384_j8693013807615_2_alg».proof.Proof.RegionStatsIdealLib
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx
open scoped BigOperators

/-! ## The payloads read at an index, at the ideal values -/

/-- The rectified value: the block's entry plus the bias row's entry of that column, clamped below at zero. -/
theorem k4_pay3_apply (x : Vec Ideal S2000x64 .f32) (b : Vec Ideal S1x64 .f32) (r : Fin 2000) (q : Fin 64) :
    k4_pay3 x b (ix2 r q) = max (x (ix2 r q) + b (ix2 0 q)) 0 := by
  unfold k4_pay3
  simp only [shapeCast_self]
  show max (x (ix2 r q) + broadcastTo S2000x64 b broadcasts_S1x64_S2000x64 (ix2 r q)) (Ideal.ofBits .f32 0x00000000#32) = _
  rw [Ideal.ofBits_zero_f32, broadcastTo_apply b broadcasts_S1x64_S2000x64 (ix2 r q) (ix2 0 q)
    (fun a => match a with | ⟨0, _⟩ => rfl | ⟨1, _⟩ => rfl)]

/-- The column sums' new row: the running row plus the rectified block's column sums. -/
theorem k4_pay4_apply (x : Vec Ideal S2000x64 .f32) (b : Vec Ideal S1x64 .f32) (xo : Vec Ideal S1x64 .f32) (q : Fin 64) :
    k4_pay4 x b xo (ix2 0 q) = xo (ix2 0 q) + ∑ r : Fin 2000, k4_pay3 x b (ix2 r q) := by
  unfold k4_pay4
  simp only [shapeCast_self]
  show xo (ix2 0 q) + _ = _
  rw [colsum_apply]

/-- The sums of squares' new row: the running row plus the column sums of the rectified block's squares. -/
theorem k4_pay5_apply (x : Vec Ideal S2000x64 .f32) (b : Vec Ideal S1x64 .f32) (xo : Vec Ideal S1x64 .f32) (q : Fin 64) :
    k4_pay5 x b xo (ix2 0 q) = xo (ix2 0 q) + ∑ r : Fin 2000, k4_pay3 x b (ix2 r q) * k4_pay3 x b (ix2 r q) := by
  unfold k4_pay5
  simp only [shapeCast_self]
  show xo (ix2 0 q) + _ = _
  rw [colsum_apply]
  rfl

/-- The rows the reset stores are zero. -/
theorem k4_pay1_apply (j : S1x64.Idx) : k4_pay1 (F := Ideal) j = 0 := by
  unfold k4_pay1
  show Ideal.ofBits .f32 0x00000000#32 = 0
  exact Ideal.ofBits_zero_f32
theorem k4_pay2_apply (j : S1x64.Idx) : k4_pay2 (F := Ideal) j = 0 := by
  unfold k4_pay2
  show Ideal.ofBits .f32 0x00000000#32 = 0
  exact Ideal.ofBits_zero_f32

/-! ## The windows' index maps, decided over the grid -/

/-- The aggregate's and the rectified block's row-block index is the point; the bias and the two statistics rows
    stay at block (0, 0). -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0 :=
  (by decide +kernel : ∀ t : Fin grid4.N, _)

section Region
variable {F : FTy → Type} [FloatOps F]
variable (V : (c : Dev nD) → (b : Ref sig .tc) → Buf (Elt F) ((c : Thread nD τ).loc b))

/-- The aggregate's block at point `t` is rows `2000 t … 2000 t + 1999` of the array. -/
theorem iblk4_0_apply (c : Dev nD) (t : Fin cfg4.N) (r : Fin 2000) (q : Fin 64) (k : S50000x64.Idx)
    (hk0 : (k 0).val = 2000 * t.val + r.val) (hk1 : (k 1).val = q.val) :
    (iblk4 V c 0 t : Vec F S2000x64 .f32) (ix2 r q) = (V c main_v71 : S50000x64.Idx → Elt F .f32) k := by
  obtain ⟨e0, e1, -⟩ := idx_facts4 t
  unfold iblk4
  rw [View.read_apply]
  show V c main_v71 _ = V c main_v71 _
  congr 1
  funext a
  apply Fin.ext
  match a with
  | ⟨0, _⟩ => show win4_0.index t 0 * 2000 + 1 * r.val = (k 0).val; rw [e0, hk0]; omega
  | ⟨1, _⟩ => show win4_0.index t 1 * 64 + 1 * q.val = (k 1).val; rw [e1, hk1]; omega

/-- The bias's block at every point is the whole row. -/
theorem iblk4_1_apply (c : Dev nD) (t : Fin cfg4.N) (q : Fin 64) :
    (iblk4 V c 1 t : Vec F S1x64 .f32) (ix2 0 q) = (V c main_v72 : S1x64.Idx → Elt F .f32) (ix2 0 q) := by
  obtain ⟨-, -, e0, e1, -⟩ := idx_facts4 t
  unfold iblk4
  rw [View.read_apply]
  show V c main_v72 _ = V c main_v72 _
  congr 1
  funext a
  apply Fin.ext
  match a with
  | ⟨0, _⟩ => show win4_1.index t 0 * 1 + 1 * 0 = 0; rw [e0]
  | ⟨1, _⟩ => show win4_1.index t 1 * 64 + 1 * q.val = q.val; rw [e1]; omega

end Region

/-! ## The closed forms at the ideal values -/

section Ideal
variable (V : (c : Dev nD) → (b : Ref sig .tc) → Buf (Elt Ideal) ((c : Thread nD τ).loc b))

/-- The aggregate and the bias row as the region finds them. -/
abbrev aIn4 (c : Dev nD) : S50000x64.Idx → EReal := V c main_v71
abbrev bIn4 (c : Dev nD) : S1x64.Idx → EReal := V c main_v72

/-- What point `t` computes at row `r`, column `q` of its block is the rectified aggregate at row `2000 t + r`. -/
theorem relu_block4 (c : Dev nD) (t : Fin cfg4.N) (r : Fin 2000) (q : Fin 64) (k : S50000x64.Idx)
    (hk0 : (k 0).val = 2000 * t.val + r.val) (hk1 : (k 1).val = q.val) :
    k4_pay3 (iblk4 V c 0 t) (iblk4 V c 1 t) (ix2 r q) = reluOut (aIn4 V c) (bIn4 V c) k := by
  rw [k4_pay3_apply, iblk4_0_apply V c t r q k hk0 hk1, iblk4_1_apply V c t q]
  unfold reluOut
  have e : (⟨(k 1).val, idx2_lt1 k⟩ : Fin 64) = q := Fin.ext hk1
  rw [e]

/-- THE COLUMN SUMS after point `n`: the sum over the points so far of each point's block sum of the rectified aggregate. -/
theorem stats4_3_at (c : Dev nD) : ∀ (n : ℕ) (h : n < cfg4.N) (q : Fin 64),
    ((outsAt4 V c n h).2.1 : Vec Ideal S1x64 .f32) (ix2 0 q) = ∑ s ∈ Finset.range (n + 1), blockSum (reluOut (aIn4 V c) (bIn4 V c)) q s
  | 0, h, q => by
    rw [outsAt4_zero]
    show k4_pay4 _ _ k4_pay1 (ix2 0 q) = _
    rw [k4_pay4_apply, k4_pay1_apply, zero_add, Finset.sum_range_one]
    unfold blockSum
    rw [dif_pos (by decide)]
    exact Finset.sum_congr rfl fun r _ => relu_block4 V c ⟨0, h⟩ r q (ix2 ⟨0 * 2000 + r.val, _⟩ q) (by show 0 * 2000 + r.val = 2000 * 0 + r.val; omega) rfl
  | n + 1, h, q => by
    have hN : n + 1 < 25 := lt_of_lt_of_eq h (show cfg4.N = 25 from N_4)
    rw [outsAt4_succ]
    show k4_pay4 _ _ (outsAt4 V c n _).2.1 (ix2 0 q) = _
    rw [k4_pay4_apply, stats4_3_at c n _ q, Finset.sum_range_succ _ (n + 1)]
    congr 1
    unfold blockSum
    rw [dif_pos hN]
    exact Finset.sum_congr rfl fun r _ => relu_block4 V c ⟨n + 1, h⟩ r q (ix2 ⟨(n + 1) * 2000 + r.val, _⟩ q) (by show (n + 1) * 2000 + r.val = 2000 * (n + 1) + r.val; omega) rfl

/-- THE COLUMN SUMS OF SQUARES after point `n`, likewise. -/
theorem stats4_4_at (c : Dev nD) : ∀ (n : ℕ) (h : n < cfg4.N) (q : Fin 64),
    ((outsAt4 V c n h).2.2 : Vec Ideal S1x64 .f32) (ix2 0 q)
      = ∑ s ∈ Finset.range (n + 1), blockSum (fun i => reluOut (aIn4 V c) (bIn4 V c) i * reluOut (aIn4 V c) (bIn4 V c) i) q s
  | 0, h, q => by
    rw [outsAt4_zero]
    show k4_pay5 _ _ k4_pay2 (ix2 0 q) = _
    rw [k4_pay5_apply, k4_pay2_apply, zero_add, Finset.sum_range_one]
    unfold blockSum
    rw [dif_pos (by decide)]
    refine Finset.sum_congr rfl fun r _ => ?_
    rw [relu_block4 V c ⟨0, h⟩ r q (ix2 ⟨0 * 2000 + r.val, _⟩ q) (by show 0 * 2000 + r.val = 2000 * 0 + r.val; omega) rfl]
  | n + 1, h, q => by
    have hN : n + 1 < 25 := lt_of_lt_of_eq h (show cfg4.N = 25 from N_4)
    rw [outsAt4_succ]
    show k4_pay5 _ _ (outsAt4 V c n _).2.2 (ix2 0 q) = _
    rw [k4_pay5_apply, stats4_4_at c n _ q, Finset.sum_range_succ _ (n + 1)]
    congr 1
    unfold blockSum
    rw [dif_pos hN]
    refine Finset.sum_congr rfl fun r _ => ?_
    rw [relu_block4 V c ⟨n + 1, h⟩ r q (ix2 ⟨(n + 1) * 2000 + r.val, _⟩ q) (by show (n + 1) * 2000 + r.val = 2000 * (n + 1) + r.val; omega) rfl]

end Ideal

section IdealFinal
variable (V : (c : Dev nD) → (b : Ref sig .tc) → Buf (Elt Ideal) ((c : Thread nD τ).loc b))

/-! ## The rectified block array -/

/-- `relu_block4` at an index of the block given whole. -/
theorem relu_block4' (c : Dev nD) (t : Fin cfg4.N) (j : S2000x64.Idx) (k : S50000x64.Idx)
    (hk0 : (k 0).val = 2000 * t.val + (j 0).val) (hk1 : (k 1).val = (j 1).val) :
    k4_pay3 (iblk4 V c 0 t) (iblk4 V c 1 t) j = reluOut (aIn4 V c) (bIn4 V c) k :=
  (congrArg (k4_pay3 (iblk4 V c 0 t) (iblk4 V c 1 t)) (eq_ix2 j)).trans (relu_block4 V c t (j 0) (j 1) k hk0 hk1)

/-- What point `t` writes back of the rectified block is block `t` of the rectified aggregate. -/
theorem flushed4_2_eq (c : Dev nD) (t : Fin cfg4.N) :
    (dat4 V c).flushed 2 t = ((cfg4.win 2).blk t).view.read (Elt Ideal) (reluOut (aIn4 V c) (bIn4 V c)) := by
  show (cfg4.win 2).cut (grid4.coords t) ((dat4 V c).after 2 t) = _
  rw [after4_2_eq]
  obtain ⟨-, -, -, -, e0, e1, -⟩ := idx_facts4 t
  funext j
  show k4_pay3 (iblk4 V c 0 t) (iblk4 V c 1 t) j = reluOut (aIn4 V c) (bIn4 V c) (((cfg4.win 2).blk t).view.emb j)
  refine relu_block4' V c t j _ ?_ ?_
  · show win4_2.index t (0 : Fin 2) * 2000 + 1 * (j 0).val = 2000 * t.val + (j 0).val; rw [e0]; omega
  · show win4_2.index t (1 : Fin 2) * 64 + 1 * (j 1).val = (j 1).val; rw [e1]; omega

/-- An index of the array is in point `t`'s block iff each coordinate is in the block's range on its axis. -/
theorem mem_blk4_2 (t : Fin cfg4.N) (i : S50000x64.Idx) :
    i ∈ ((cfg4.win 2).blk t).view.set ↔ ∀ a : Fin 2, win4_2.index t a * S2000x64.size a ≤ (i a).val ∧ (i a).val < win4_2.index t a * S2000x64.size a + S2000x64.size a := by
  show i ∈ ((View.whole main_v73_0).slice (win4_2.rect t)).set ↔ _
  rw [View.set_slice_whole, Rect.mem_set_unit]
  exact Iff.rfl

/-- THE RECTIFIED ARRAY after the region: the rectified aggregate, every row block written by its point. -/
theorem final4_2 (c : Dev nD) : (dat4 V c).arrAt 2 cfg4.N = reluOut (aIn4 V c) (bIn4 V c) :=
  (dat4 V c).arrAt_eq_of_cover 2 (reluOut (aIn4 V c) (bIn4 V c)) (fun t _ => flushed4_2_eq V c t) fun i => by
    have hi0 : ((i : S50000x64.Idx) 0).val < 50000 := idx2_lt0 (i : S50000x64.Idx)
    have hi1 : ((i : S50000x64.Idx) 1).val < 64 := idx2_lt1 (i : S50000x64.Idx)
    have hN : cfg4.N = 25 := N_4
    refine ⟨⟨((i : S50000x64.Idx) 0).val / 2000, by rw [hN]; omega⟩, flush4_2 _, ?_⟩
    rw [mem_blk4_2]
    obtain ⟨-, -, -, -, e0, e1, -⟩ := idx_facts4 ⟨((i : S50000x64.Idx) 0).val / 2000, by rw [hN]; omega⟩
    intro a
    match a with
    | ⟨0, _⟩ => show win4_2.index _ (0 : Fin 2) * 2000 ≤ ((i : S50000x64.Idx) 0).val ∧ ((i : S50000x64.Idx) 0).val < win4_2.index _ (0 : Fin 2) * 2000 + 2000
                rw [e0]; dsimp only; omega
    | ⟨1, _⟩ => show win4_2.index _ (1 : Fin 2) * 64 ≤ ((i : S50000x64.Idx) 1).val ∧ ((i : S50000x64.Idx) 1).val < win4_2.index _ (1 : Fin 2) * 64 + 64
                rw [e1]; omega

/-! ## The two statistics rows -/

/-- The last point, the one after which the statistics rows are written back. -/
abbrev tLast4 : Fin cfg4.N := ⟨24, by rw [show cfg4.N = 25 from N_4]; decide⟩

/-- After the last point the column sums' buffer holds the column sums of the rectified aggregate. -/
theorem stats4_3_last (c : Dev nD) :
    ((outsAt4 V c tLast4.val tLast4.isLt).2.1 : Vec Ideal S1x64 .f32) = colSums (reluOut (aIn4 V c) (bIn4 V c)) := by
  funext j
  obtain ⟨q, rfl⟩ : ∃ q : Fin 64, j = ix2 (0 : Fin 1) q := ⟨⟨(j 1).val, idx2_lt1 j⟩, by
    funext a
    match a with
    | ⟨0, _⟩ => exact Fin.ext (by have h : (j 0).val < 1 := idx2_lt0 j; show (j 0).val = 0; omega)
    | ⟨1, _⟩ => rfl⟩
  refine (stats4_3_at V c 24 tLast4.isLt q).trans ?_
  exact sum_blockSum _ q

/-- … and the sums of squares' buffer the column sums of its squares. -/
theorem stats4_4_last (c : Dev nD) :
    ((outsAt4 V c tLast4.val tLast4.isLt).2.2 : Vec Ideal S1x64 .f32)
      = colSums (fun i => reluOut (aIn4 V c) (bIn4 V c) i * reluOut (aIn4 V c) (bIn4 V c) i) := by
  funext j
  obtain ⟨q, rfl⟩ : ∃ q : Fin 64, j = ix2 (0 : Fin 1) q := ⟨⟨(j 1).val, idx2_lt1 j⟩, by
    funext a
    match a with
    | ⟨0, _⟩ => exact Fin.ext (by have h : (j 0).val < 1 := idx2_lt0 j; show (j 0).val = 0; omega)
    | ⟨1, _⟩ => rfl⟩
  refine (stats4_4_at V c 24 tLast4.isLt q).trans ?_
  exact sum_blockSum _ q

/-- The one write-back of the column sums, after the last point, writes that row: its block is the whole [1,64] array. -/
theorem flushed4_3_eq (c : Dev nD) (t : Fin cfg4.N) (hf : (cfg4.win 3).flush t = true) :
    (dat4 V c).flushed 3 t = ((cfg4.win 3).blk t).view.read (Elt Ideal) (colSums (reluOut (aIn4 V c) (bIn4 V c))) := by
  have hN : cfg4.N = 25 := N_4
  have h24 : t.val = 24 := by have := (flush4_3 t).mp hf; have := t.isLt; omega
  obtain rfl : t = tLast4 := Fin.ext h24
  show (cfg4.win 3).cut (grid4.coords tLast4) ((dat4 V c).after 3 tLast4) = _
  rw [after4_3, stats4_3_last]
  obtain ⟨-, -, -, -, -, -, e0, e1, -⟩ := idx_facts4 tLast4
  have hz' : (fun a => win4_3.index tLast4 a * main_v73_1.ty.shape.size a) = fun _ => 0 := funext fun a => by
    match a with
    | ⟨0, _⟩ => show win4_3.index tLast4 (0 : Fin 2) * 1 = 0; rw [e0]
    | ⟨1, _⟩ => show win4_3.index tLast4 (1 : Fin 2) * 64 = 0; rw [e1]
  exact (Memref.read_access_unit_zero (Elt Ideal) main_v73_1 hz' (fun a => by rw [congrFun hz' a]; simp) (colSums (reluOut (aIn4 V c) (bIn4 V c)))).symm

theorem flushed4_4_eq (c : Dev nD) (t : Fin cfg4.N) (hf : (cfg4.win 4).flush t = true) :
    (dat4 V c).flushed 4 t = ((cfg4.win 4).blk t).view.read (Elt Ideal) (colSums (fun i => reluOut (aIn4 V c) (bIn4 V c) i * reluOut (aIn4 V c) (bIn4 V c) i)) := by
  have hN : cfg4.N = 25 := N_4
  have h24 : t.val = 24 := by have := (flush4_4 t).mp hf; have := t.isLt; omega
  obtain rfl : t = tLast4 := Fin.ext h24
  show (cfg4.win 4).cut (grid4.coords tLast4) ((dat4 V c).after 4 tLast4) = _
  rw [after4_4, stats4_4_last]
  obtain ⟨-, -, -, -, -, -, -, -, e0, e1⟩ := idx_facts4 tLast4
  have hz' : (fun a => win4_4.index tLast4 a * main_v73_2.ty.shape.size a) = fun _ => 0 := funext fun a => by
    match a with
    | ⟨0, _⟩ => show win4_4.index tLast4 (0 : Fin 2) * 1 = 0; rw [e0]
    | ⟨1, _⟩ => show win4_4.index tLast4 (1 : Fin 2) * 64 = 0; rw [e1]
  exact (Memref.read_access_unit_zero (Elt Ideal) main_v73_2 hz' (fun a => by rw [congrFun hz' a]; simp) _).symm

/-- Every index of a statistics row is in the last point's block (the block is the whole row). -/
theorem cover4_3 (i : S1x64.Idx) : ∃ t : Fin cfg4.N, (cfg4.win 3).flush t = true ∧ i ∈ ((cfg4.win 3).blk t).view.set := by
  refine ⟨tLast4, (flush4_3 tLast4).mpr rfl, ?_⟩
  obtain ⟨-, -, -, -, -, -, e0, e1, -⟩ := idx_facts4 tLast4
  show i ∈ ((View.whole main_v73_1).slice (win4_3.rect tLast4)).set
  rw [View.set_slice_whole, Rect.mem_set_unit]
  intro a
  have h0 : (i 0).val < 1 := idx2_lt0 i
  have h1 : (i 1).val < 64 := idx2_lt1 i
  match a with
  | ⟨0, _⟩ => show win4_3.index tLast4 (0 : Fin 2) * 1 ≤ (i 0).val ∧ (i 0).val < win4_3.index tLast4 (0 : Fin 2) * 1 + 1; rw [e0]; omega
  | ⟨1, _⟩ => show win4_3.index tLast4 (1 : Fin 2) * 64 ≤ (i 1).val ∧ (i 1).val < win4_3.index tLast4 (1 : Fin 2) * 64 + 64; rw [e1]; omega

theorem cover4_4 (i : S1x64.Idx) : ∃ t : Fin cfg4.N, (cfg4.win 4).flush t = true ∧ i ∈ ((cfg4.win 4).blk t).view.set := by
  refine ⟨tLast4, (flush4_4 tLast4).mpr rfl, ?_⟩
  obtain ⟨-, -, -, -, -, -, -, -, e0, e1⟩ := idx_facts4 tLast4
  show i ∈ ((View.whole main_v73_2).slice (win4_4.rect tLast4)).set
  rw [View.set_slice_whole, Rect.mem_set_unit]
  intro a
  have h0 : (i 0).val < 1 := idx2_lt0 i
  have h1 : (i 1).val < 64 := idx2_lt1 i
  match a with
  | ⟨0, _⟩ => show win4_4.index tLast4 (0 : Fin 2) * 1 ≤ (i 0).val ∧ (i 0).val < win4_4.index tLast4 (0 : Fin 2) * 1 + 1; rw [e0]; omega
  | ⟨1, _⟩ => show win4_4.index tLast4 (1 : Fin 2) * 64 ≤ (i 1).val ∧ (i 1).val < win4_4.index tLast4 (1 : Fin 2) * 64 + 64; rw [e1]; omega

/-- THE COLUMN SUMS' ARRAY after the region: entry q is the sum over all 50000 rows of the rectified aggregate's column q. -/
theorem final4_3 (c : Dev nD) : (dat4 V c).arrAt 3 cfg4.N = colSums (reluOut (aIn4 V c) (bIn4 V c)) :=
  (dat4 V c).arrAt_eq_of_cover 3 (colSums (reluOut (aIn4 V c) (bIn4 V c))) (flushed4_3_eq V c) (fun i => cover4_3 i)

/-- THE SUMS OF SQUARES' ARRAY after the region: entry q is the sum over all rows of the squares of that column. -/
theorem final4_4 (c : Dev nD) : (dat4 V c).arrAt 4 cfg4.N = colSums (fun i => reluOut (aIn4 V c) (bIn4 V c) i * reluOut (aIn4 V c) (bIn4 V c) i) :=
  (dat4 V c).arrAt_eq_of_cover 4 _ (flushed4_4_eq V c) (fun i => cover4_4 i)

end IdealFinal

end Cert.KernelIdeal.Hand

end
-- ==== Proof.RegionStats7Value.lean ====
/- The VALUES of the bias + rectifier + running-statistics region (pipeline 7): each case's found pieces read
   back as the kernel's named payloads — the rectified block is `k7_pay3` of the point's two input blocks; the
   column sums are `k7_pay4` of them over the zero row at the first point and over the running row afterwards;
   the sums of squares likewise with `k7_pay5` — and so the contents after each point as a recursion on the point. -/
import proofs.«100384_j8693013807615_2_alg».proof.Proof.RegionStats7
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz7 : (![0, 0] : Fin 2 → Nat) = fun _ => 0 := funext fun a => by fin_cases a <;> rfl

/-- The first point's value of output 2 (the rectified block): its one covering store's payload on the whole input buffers. -/
theorem out7_A_2_eq (c : Dev nD) (i : grid7.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (hc0 : cond7_0 i) (x0 : Vec F S2000x64 .f32) (x1 : Vec F S1x64 .f32) :
    out7_A_2 c i arg1 harg1 arg2 harg2 arg3 harg3 arg4 harg4 arg5 harg5 hc0 x0 x1 = k7_pay3 x0 x1 := by
  unfold out7_A_2
  rw [View.read_writes_eq_canon _ _ _ (cover7_A_2 c i arg1 harg1 arg2 harg2 arg3 harg3 arg4 harg4 arg5 harg5 hc0 x0 x1)]
  unfold kernelRun7_A
  dsimp only
  rw [View.canon_unit_zero hz7]
  simp only [View.readAt_eq_ld, harg1.read_unread, harg2.read_unread, harg3.read_unread, harg4.read_unread, harg5.read_unread, View.ld_unit_zero (S := S2000x64) hz7, View.ld_unit_zero (S := S1x64) hz7]

/-- A later point's value of output 2 (the rectified block): the same payload. -/
theorem out7_B_2_eq (c : Dev nD) (i : grid7.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (hc0 : ¬cond7_0 i) (x0 : Vec F S2000x64 .f32) (x1 : Vec F S1x64 .f32) (xo3 : Vec F S1x64 .f32) (xo4 : Vec F S1x64 .f32) :
    out7_B_2 c i arg1 harg1 arg2 harg2 arg3 harg3 arg4 harg4 arg5 harg5 hc0 x0 x1 xo3 xo4 = k7_pay3 x0 x1 := by
  unfold out7_B_2
  rw [View.read_writes_eq_canon _ _ _ (cover7_B_2 c i arg1 harg1 arg2 harg2 arg3 harg3 arg4 harg4 arg5 harg5 hc0 x0 x1 xo3 xo4)]
  unfold kernelRun7_B
  dsimp only
  rw [View.canon_unit_zero hz7]
  simp only [View.readAt_eq_ld, harg1.read_unread, harg2.read_unread, harg3.read_unread, harg4.read_unread, harg5.read_unread, View.ld_unit_zero (S := S2000x64) hz7, View.ld_unit_zero (S := S1x64) hz7]

/-- The first point's value of output 3 (the column sums): the accumulator is zeroed, read back, and the point's column sums added to it. -/
theorem out7_A_3_eq (c : Dev nD) (i : grid7.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (hc0 : cond7_0 i) (x0 : Vec F S2000x64 .f32) (x1 : Vec F S1x64 .f32) :
    out7_A_3 c i arg1 harg1 arg2 harg2 arg3 harg3 arg4 harg4 arg5 harg5 hc0 x0 x1 = k7_pay4 x0 x1 k7_pay1 := by
  unfold out7_A_3
  rw [View.read_writes_eq_canon _ _ _ (cover7_A_3 c i arg1 harg1 arg2 harg2 arg3 harg3 arg4 harg4 arg5 harg5 hc0 x0 x1)]
  unfold kernelRun7_A
  dsimp only
  sl_unfold_words
  rw [View.canon_cons_unit_zero (S := S1x64) hz7, View.readCov_unit_zero (S := S1x64) _ hz7]
  simp only [View.readAt_eq_ld, harg1.read_unread, harg2.read_unread, harg3.read_unread, harg4.read_unread, harg5.read_unread, View.ld_unit_zero (S := S2000x64) hz7, View.ld_unit_zero (S := S1x64) hz7]

/-- A later point's value of output 3 (the column sums): the point's column sums added to the running contents. -/
theorem out7_B_3_eq (c : Dev nD) (i : grid7.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (hc0 : ¬cond7_0 i) (x0 : Vec F S2000x64 .f32) (x1 : Vec F S1x64 .f32) (xo3 : Vec F S1x64 .f32) (xo4 : Vec F S1x64 .f32) :
    out7_B_3 c i arg1 harg1 arg2 harg2 arg3 harg3 arg4 harg4 arg5 harg5 hc0 x0 x1 xo3 xo4 = k7_pay4 x0 x1 xo3 := by
  unfold out7_B_3
  rw [View.read_writes_eq_canon _ _ _ (cover7_B_3 c i arg1 harg1 arg2 harg2 arg3 harg3 arg4 harg4 arg5 harg5 hc0 x0 x1 xo3 xo4)]
  unfold kernelRun7_B
  dsimp only
  rw [View.canon_unit_zero hz7]
  simp only [View.readAt_eq_ld, harg1.read_unread, harg2.read_unread, harg3.read_unread, harg4.read_unread, harg5.read_unread, View.ld_unit_zero (S := S2000x64) hz7, View.ld_unit_zero (S := S1x64) hz7]

/-- The first point's value of output 4 (the column sums of squares): the accumulator is zeroed, read back, and the point's column sums added to it. -/
theorem out7_A_4_eq (c : Dev nD) (i : grid7.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (hc0 : cond7_0 i) (x0 : Vec F S2000x64 .f32) (x1 : Vec F S1x64 .f32) :
    out7_A_4 c i arg1 harg1 arg2 harg2 arg3 harg3 arg4 harg4 arg5 harg5 hc0 x0 x1 = k7_pay5 x0 x1 k7_pay2 := by
  unfold out7_A_4
  rw [View.read_writes_eq_canon _ _ _ (cover7_A_4 c i arg1 harg1 arg2 harg2 arg3 harg3 arg4 harg4 arg5 harg5 hc0 x0 x1)]
  unfold kernelRun7_A
  dsimp only
  sl_unfold_words
  rw [View.canon_cons_unit_zero (S := S1x64) hz7, View.readCov_unit_zero (S := S1x64) _ hz7]
  simp only [View.readAt_eq_ld, harg1.read_unread, harg2.read_unread, harg3.read_unread, harg4.read_unread, harg5.read_unread, View.ld_unit_zero (S := S2000x64) hz7, View.ld_unit_zero (S := S1x64) hz7]

/-- A later point's value of output 4 (the column sums of squares): the point's column sums added to the running contents. -/
theorem out7_B_4_eq (c : Dev nD) (i : grid7.Coords) (arg1 : Memref sig .tc .vmem S2000x64 .f32) (harg1 : arg1.IsWhole) (arg2 : Memref sig .tc .vmem S1x64 .f32) (harg2 : arg2.IsWhole) (arg3 : Memref sig .tc .vmem S2000x64 .f32) (harg3 : arg3.IsWhole) (arg4 : Memref sig .tc .vmem S1x64 .f32) (harg4 : arg4.IsWhole) (arg5 : Memref sig .tc .vmem S1x64 .f32) (harg5 : arg5.IsWhole) (hc0 : ¬cond7_0 i) (x0 : Vec F S2000x64 .f32) (x1 : Vec F S1x64 .f32) (xo3 : Vec F S1x64 .f32) (xo4 : Vec F S1x64 .f32) :
    out7_B_4 c i arg1 harg1 arg2 harg2 arg3 harg3 arg4 harg4 arg5 harg5 hc0 x0 x1 xo3 xo4 = k7_pay5 x0 x1 xo4 := by
  unfold out7_B_4
  rw [View.read_writes_eq_canon _ _ _ (cover7_B_4 c i arg1 harg1 arg2 harg2 arg3 harg3 arg4 harg4 arg5 harg5 hc0 x0 x1 xo3 xo4)]
  unfold kernelRun7_B
  dsimp only
  rw [View.canon_unit_zero hz7]
  simp only [View.readAt_eq_ld, harg1.read_unread, harg2.read_unread, harg3.read_unread, harg4.read_unread, harg5.read_unread, View.ld_unit_zero (S := S2000x64) hz7, View.ld_unit_zero (S := S1x64) hz7]

section Region
variable (V : (c : Dev nD) → (b : Ref sig .tc) → Buf (Elt F) ((c : Thread nD τ).loc b))

/-- After the FIRST point: the rectified block of the point's inputs; the two statistics rows accumulated from zero. -/
theorem outsAt7_zero (c : Dev nD) (h : 0 < cfg7.N) :
    outsAt7 V c 0 h = (k7_pay3 (iblk7 V c 0 ⟨0, h⟩) (iblk7 V c 1 ⟨0, h⟩),
      k7_pay4 (iblk7 V c 0 ⟨0, h⟩) (iblk7 V c 1 ⟨0, h⟩) k7_pay1,
      k7_pay5 (iblk7 V c 0 ⟨0, h⟩) (iblk7 V c 1 ⟨0, h⟩) k7_pay2) := by
  rw [show outsAt7 V c 0 h = outsAt7 V c (⟨0, h⟩ : Fin cfg7.N).val (⟨0, h⟩ : Fin cfg7.N).isLt from rfl,
    outsAt7_A V c ⟨0, h⟩ rfl, out7_A_2_eq, out7_A_3_eq, out7_A_4_eq]

/-- After a LATER point: the rectified block of the point's inputs; each statistics row accumulated over what the
    point before left. -/
theorem outsAt7_succ (c : Dev nD) (n : ℕ) (h : n + 1 < cfg7.N) :
    outsAt7 V c (n + 1) h = (k7_pay3 (iblk7 V c 0 ⟨n + 1, h⟩) (iblk7 V c 1 ⟨n + 1, h⟩),
      k7_pay4 (iblk7 V c 0 ⟨n + 1, h⟩) (iblk7 V c 1 ⟨n + 1, h⟩) (outsAt7 V c n (Nat.lt_of_succ_lt h)).2.1,
      k7_pay5 (iblk7 V c 0 ⟨n + 1, h⟩) (iblk7 V c 1 ⟨n + 1, h⟩) (outsAt7 V c n (Nat.lt_of_succ_lt h)).2.2) := by
  have hN : cfg7.N = 25 := N_7
  have hB : ¬(⟨n + 1, h⟩ : Fin cfg7.N).val % 25 = 0 := by dsimp only; omega
  rw [show outsAt7 V c (n + 1) h = outsAt7 V c (⟨n + 1, h⟩ : Fin cfg7.N).val (⟨n + 1, h⟩ : Fin cfg7.N).isLt from rfl,
    outsAt7_B V c ⟨n + 1, h⟩ hB, out7_B_2_eq, out7_B_3_eq, out7_B_4_eq]
  rfl

/-- What the body leaves in the rectified block's buffer at any point. -/
theorem after7_2_eq (c : Dev nD) (t : Fin cfg7.N) :
    (dat7 V c).after 2 t = k7_pay3 (iblk7 V c 0 t) (iblk7 V c 1 t) := by
  rw [after7_2]
  obtain ⟨n, hn⟩ := t
  cases n with
  | zero => rw [outsAt7_zero]
  | succ n => rw [outsAt7_succ]

end Region

end Cert.KernelIdeal.Hand

end
-- ==== Proof.RegionStats7Closed.lean ====
/- The CLOSED FORMS, at the ideal values, of what the bias + rectifier + running-statistics region (pipeline 7)
   leaves in its three output arrays, as functions of the two arrays it reads as the region finds them: the rectified
   aggregate; its column sums over all 50000 rows; the column sums of its squares. The payloads are read at an index;
   each point's block is placed in its array by the windows' index maps (decided over the grid); the two running rows
   are, after point `n`, the sums of the first `n + 1` row blocks' column sums (induction on the point), and the 25
   blocks' sums are the whole column's. -/
import proofs.«100384_j8693013807615_2_alg».proof.Proof.RegionStats7Value
import proofs.«100384_j8693013807615_2_alg».proof.Proof.RegionStatsIdealLib
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx
open scoped BigOperators

/-! ## The payloads read at an index, at the ideal values -/

/-- The rectified value: the block's entry plus the bias row's entry of that column, clamped below at zero. -/
theorem k7_pay3_apply (x : Vec Ideal S2000x64 .f32) (b : Vec Ideal S1x64 .f32) (r : Fin 2000) (q : Fin 64) :
    k7_pay3 x b (ix2 r q) = max (x (ix2 r q) + b (ix2 0 q)) 0 := by
  unfold k7_pay3
  simp only [shapeCast_self]
  show max (x (ix2 r q) + broadcastTo S2000x64 b broadcasts_S1x64_S2000x64 (ix2 r q)) (Ideal.ofBits .f32 0x00000000#32) = _
  rw [Ideal.ofBits_zero_f32, broadcastTo_apply b broadcasts_S1x64_S2000x64 (ix2 r q) (ix2 0 q)
    (fun a => match a with | ⟨0, _⟩ => rfl | ⟨1, _⟩ => rfl)]

/-- The column sums' new row: the running row plus the rectified block's column sums. -/
theorem k7_pay4_apply (x : Vec Ideal S2000x64 .f32) (b : Vec Ideal S1x64 .f32) (xo : Vec Ideal S1x64 .f32) (q : Fin 64) :
    k7_pay4 x b xo (ix2 0 q) = xo (ix2 0 q) + ∑ r : Fin 2000, k7_pay3 x b (ix2 r q) := by
  unfold k7_pay4
  simp only [shapeCast_self]
  show xo (ix2 0 q) + _ = _
  rw [colsum_apply]

/-- The sums of squares' new row: the running row plus the column sums of the rectified block's squares. -/
theorem k7_pay5_apply (x : Vec Ideal S2000x64 .f32) (b : Vec Ideal S1x64 .f32) (xo : Vec Ideal S1x64 .f32) (q : Fin 64) :
    k7_pay5 x b xo (ix2 0 q) = xo (ix2 0 q) + ∑ r : Fin 2000, k7_pay3 x b (ix2 r q) * k7_pay3 x b (ix2 r q) := by
  unfold k7_pay5
  simp only [shapeCast_self]
  show xo (ix2 0 q) + _ = _
  rw [colsum_apply]
  rfl

/-- The rows the reset stores are zero. -/
theorem k7_pay1_apply (j : S1x64.Idx) : k7_pay1 (F := Ideal) j = 0 := by
  unfold k7_pay1
  show Ideal.ofBits .f32 0x00000000#32 = 0
  exact Ideal.ofBits_zero_f32
theorem k7_pay2_apply (j : S1x64.Idx) : k7_pay2 (F := Ideal) j = 0 := by
  unfold k7_pay2
  show Ideal.ofBits .f32 0x00000000#32 = 0
  exact Ideal.ofBits_zero_f32

/-! ## The windows' index maps, decided over the grid -/

/-- The aggregate's and the rectified block's row-block index is the point; the bias and the two statistics rows
    stay at block (0, 0). -/
theorem idx_facts7 : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = t.val ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0 :=
  (by decide +kernel : ∀ t : Fin grid7.N, _)

section Region
variable {F : FTy → Type} [FloatOps F]
variable (V : (c : Dev nD) → (b : Ref sig .tc) → Buf (Elt F) ((c : Thread nD τ).loc b))

/-- The aggregate's block at point `t` is rows `2000 t … 2000 t + 1999` of the array. -/
theorem iblk7_0_apply (c : Dev nD) (t : Fin cfg7.N) (r : Fin 2000) (q : Fin 64) (k : S50000x64.Idx)
    (hk0 : (k 0).val = 2000 * t.val + r.val) (hk1 : (k 1).val = q.val) :
    (iblk7 V c 0 t : Vec F S2000x64 .f32) (ix2 r q) = (V c main_v100 : S50000x64.Idx → Elt F .f32) k := by
  obtain ⟨e0, e1, -⟩ := idx_facts7 t
  unfold iblk7
  rw [View.read_apply]
  show V c main_v100 _ = V c main_v100 _
  congr 1
  funext a
  apply Fin.ext
  match a with
  | ⟨0, _⟩ => show win7_0.index t 0 * 2000 + 1 * r.val = (k 0).val; rw [e0, hk0]; omega
  | ⟨1, _⟩ => show win7_0.index t 1 * 64 + 1 * q.val = (k 1).val; rw [e1, hk1]; omega

/-- The bias's block at every point is the whole row. -/
theorem iblk7_1_apply (c : Dev nD) (t : Fin cfg7.N) (q : Fin 64) :
    (iblk7 V c 1 t : Vec F S1x64 .f32) (ix2 0 q) = (V c main_v101 : S1x64.Idx → Elt F .f32) (ix2 0 q) := by
  obtain ⟨-, -, e0, e1, -⟩ := idx_facts7 t
  unfold iblk7
  rw [View.read_apply]
  show V c main_v101 _ = V c main_v101 _
  congr 1
  funext a
  apply Fin.ext
  match a with
  | ⟨0, _⟩ => show win7_1.index t 0 * 1 + 1 * 0 = 0; rw [e0]
  | ⟨1, _⟩ => show win7_1.index t 1 * 64 + 1 * q.val = q.val; rw [e1]; omega

end Region

/-! ## The closed forms at the ideal values -/

section Ideal
variable (V : (c : Dev nD) → (b : Ref sig .tc) → Buf (Elt Ideal) ((c : Thread nD τ).loc b))

/-- The aggregate and the bias row as the region finds them. -/
abbrev aIn7 (c : Dev nD) : S50000x64.Idx → EReal := V c main_v100
abbrev bIn7 (c : Dev nD) : S1x64.Idx → EReal := V c main_v101

/-- What point `t` computes at row `r`, column `q` of its block is the rectified aggregate at row `2000 t + r`. -/
theorem relu_block7 (c : Dev nD) (t : Fin cfg7.N) (r : Fin 2000) (q : Fin 64) (k : S50000x64.Idx)
    (hk0 : (k 0).val = 2000 * t.val + r.val) (hk1 : (k 1).val = q.val) :
    k7_pay3 (iblk7 V c 0 t) (iblk7 V c 1 t) (ix2 r q) = reluOut (aIn7 V c) (bIn7 V c) k := by
  rw [k7_pay3_apply, iblk7_0_apply V c t r q k hk0 hk1, iblk7_1_apply V c t q]
  unfold reluOut
  have e : (⟨(k 1).val, idx2_lt1 k⟩ : Fin 64) = q := Fin.ext hk1
  rw [e]

/-- THE COLUMN SUMS after point `n`: the sum over the points so far of each point's block sum of the rectified aggregate. -/
theorem stats7_3_at (c : Dev nD) : ∀ (n : ℕ) (h : n < cfg7.N) (q : Fin 64),
    ((outsAt7 V c n h).2.1 : Vec Ideal S1x64 .f32) (ix2 0 q) = ∑ s ∈ Finset.range (n + 1), blockSum (reluOut (aIn7 V c) (bIn7 V c)) q s
  | 0, h, q => by
    rw [outsAt7_zero]
    show k7_pay4 _ _ k7_pay1 (ix2 0 q) = _
    rw [k7_pay4_apply, k7_pay1_apply, zero_add, Finset.sum_range_one]
    unfold blockSum
    rw [dif_pos (by decide)]
    exact Finset.sum_congr rfl fun r _ => relu_block7 V c ⟨0, h⟩ r q (ix2 ⟨0 * 2000 + r.val, _⟩ q) (by show 0 * 2000 + r.val = 2000 * 0 + r.val; omega) rfl
  | n + 1, h, q => by
    have hN : n + 1 < 25 := lt_of_lt_of_eq h (show cfg7.N = 25 from N_7)
    rw [outsAt7_succ]
    show k7_pay4 _ _ (outsAt7 V c n _).2.1 (ix2 0 q) = _
    rw [k7_pay4_apply, stats7_3_at c n _ q, Finset.sum_range_succ _ (n + 1)]
    congr 1
    unfold blockSum
    rw [dif_pos hN]
    exact Finset.sum_congr rfl fun r _ => relu_block7 V c ⟨n + 1, h⟩ r q (ix2 ⟨(n + 1) * 2000 + r.val, _⟩ q) (by show (n + 1) * 2000 + r.val = 2000 * (n + 1) + r.val; omega) rfl

/-- THE COLUMN SUMS OF SQUARES after point `n`, likewise. -/
theorem stats7_4_at (c : Dev nD) : ∀ (n : ℕ) (h : n < cfg7.N) (q : Fin 64),
    ((outsAt7 V c n h).2.2 : Vec Ideal S1x64 .f32) (ix2 0 q)
      = ∑ s ∈ Finset.range (n + 1), blockSum (fun i => reluOut (aIn7 V c) (bIn7 V c) i * reluOut (aIn7 V c) (bIn7 V c) i) q s
  | 0, h, q => by
    rw [outsAt7_zero]
    show k7_pay5 _ _ k7_pay2 (ix2 0 q) = _
    rw [k7_pay5_apply, k7_pay2_apply, zero_add, Finset.sum_range_one]
    unfold blockSum
    rw [dif_pos (by decide)]
    refine Finset.sum_congr rfl fun r _ => ?_
    rw [relu_block7 V c ⟨0, h⟩ r q (ix2 ⟨0 * 2000 + r.val, _⟩ q) (by show 0 * 2000 + r.val = 2000 * 0 + r.val; omega) rfl]
  | n + 1, h, q => by
    have hN : n + 1 < 25 := lt_of_lt_of_eq h (show cfg7.N = 25 from N_7)
    rw [outsAt7_succ]
    show k7_pay5 _ _ (outsAt7 V c n _).2.2 (ix2 0 q) = _
    rw [k7_pay5_apply, stats7_4_at c n _ q, Finset.sum_range_succ _ (n + 1)]
    congr 1
    unfold blockSum
    rw [dif_pos hN]
    refine Finset.sum_congr rfl fun r _ => ?_
    rw [relu_block7 V c ⟨n + 1, h⟩ r q (ix2 ⟨(n + 1) * 2000 + r.val, _⟩ q) (by show (n + 1) * 2000 + r.val = 2000 * (n + 1) + r.val; omega) rfl]

end Ideal

section IdealFinal
variable (V : (c : Dev nD) → (b : Ref sig .tc) → Buf (Elt Ideal) ((c : Thread nD τ).loc b))

/-! ## The rectified block array -/

/-- `relu_block7` at an index of the block given whole. -/
theorem relu_block7' (c : Dev nD) (t : Fin cfg7.N) (j : S2000x64.Idx) (k : S50000x64.Idx)
    (hk0 : (k 0).val = 2000 * t.val + (j 0).val) (hk1 : (k 1).val = (j 1).val) :
    k7_pay3 (iblk7 V c 0 t) (iblk7 V c 1 t) j = reluOut (aIn7 V c) (bIn7 V c) k :=
  (congrArg (k7_pay3 (iblk7 V c 0 t) (iblk7 V c 1 t)) (eq_ix2 j)).trans (relu_block7 V c t (j 0) (j 1) k hk0 hk1)

/-- What point `t` writes back of the rectified block is block `t` of the rectified aggregate. -/
theorem flushed7_2_eq (c : Dev nD) (t : Fin cfg7.N) :
    (dat7 V c).flushed 2 t = ((cfg7.win 2).blk t).view.read (Elt Ideal) (reluOut (aIn7 V c) (bIn7 V c)) := by
  show (cfg7.win 2).cut (grid7.coords t) ((dat7 V c).after 2 t) = _
  rw [after7_2_eq]
  obtain ⟨-, -, -, -, e0, e1, -⟩ := idx_facts7 t
  funext j
  show k7_pay3 (iblk7 V c 0 t) (iblk7 V c 1 t) j = reluOut (aIn7 V c) (bIn7 V c) (((cfg7.win 2).blk t).view.emb j)
  refine relu_block7' V c t j _ ?_ ?_
  · show win7_2.index t (0 : Fin 2) * 2000 + 1 * (j 0).val = 2000 * t.val + (j 0).val; rw [e0]; omega
  · show win7_2.index t (1 : Fin 2) * 64 + 1 * (j 1).val = (j 1).val; rw [e1]; omega

/-- An index of the array is in point `t`'s block iff each coordinate is in the block's range on its axis. -/
theorem mem_blk7_2 (t : Fin cfg7.N) (i : S50000x64.Idx) :
    i ∈ ((cfg7.win 2).blk t).view.set ↔ ∀ a : Fin 2, win7_2.index t a * S2000x64.size a ≤ (i a).val ∧ (i a).val < win7_2.index t a * S2000x64.size a + S2000x64.size a := by
  show i ∈ ((View.whole main_v102_0).slice (win7_2.rect t)).set ↔ _
  rw [View.set_slice_whole, Rect.mem_set_unit]
  exact Iff.rfl

/-- THE RECTIFIED ARRAY after the region: the rectified aggregate, every row block written by its point. -/
theorem final7_2 (c : Dev nD) : (dat7 V c).arrAt 2 cfg7.N = reluOut (aIn7 V c) (bIn7 V c) :=
  (dat7 V c).arrAt_eq_of_cover 2 (reluOut (aIn7 V c) (bIn7 V c)) (fun t _ => flushed7_2_eq V c t) fun i => by
    have hi0 : ((i : S50000x64.Idx) 0).val < 50000 := idx2_lt0 (i : S50000x64.Idx)
    have hi1 : ((i : S50000x64.Idx) 1).val < 64 := idx2_lt1 (i : S50000x64.Idx)
    have hN : cfg7.N = 25 := N_7
    refine ⟨⟨((i : S50000x64.Idx) 0).val / 2000, by rw [hN]; omega⟩, flush7_2 _, ?_⟩
    rw [mem_blk7_2]
    obtain ⟨-, -, -, -, e0, e1, -⟩ := idx_facts7 ⟨((i : S50000x64.Idx) 0).val / 2000, by rw [hN]; omega⟩
    intro a
    match a with
    | ⟨0, _⟩ => show win7_2.index _ (0 : Fin 2) * 2000 ≤ ((i : S50000x64.Idx) 0).val ∧ ((i : S50000x64.Idx) 0).val < win7_2.index _ (0 : Fin 2) * 2000 + 2000
                rw [e0]; dsimp only; omega
    | ⟨1, _⟩ => show win7_2.index _ (1 : Fin 2) * 64 ≤ ((i : S50000x64.Idx) 1).val ∧ ((i : S50000x64.Idx) 1).val < win7_2.index _ (1 : Fin 2) * 64 + 64
                rw [e1]; omega

/-! ## The two statistics rows -/

/-- The last point, the one after which the statistics rows are written back. -/
abbrev tLast7 : Fin cfg7.N := ⟨24, by rw [show cfg7.N = 25 from N_7]; decide⟩

/-- After the last point the column sums' buffer holds the column sums of the rectified aggregate. -/
theorem stats7_3_last (c : Dev nD) :
    ((outsAt7 V c tLast7.val tLast7.isLt).2.1 : Vec Ideal S1x64 .f32) = colSums (reluOut (aIn7 V c) (bIn7 V c)) := by
  funext j
  obtain ⟨q, rfl⟩ : ∃ q : Fin 64, j = ix2 (0 : Fin 1) q := ⟨⟨(j 1).val, idx2_lt1 j⟩, by
    funext a
    match a with
    | ⟨0, _⟩ => exact Fin.ext (by have h : (j 0).val < 1 := idx2_lt0 j; show (j 0).val = 0; omega)
    | ⟨1, _⟩ => rfl⟩
  refine (stats7_3_at V c 24 tLast7.isLt q).trans ?_
  exact sum_blockSum _ q

/-- … and the sums of squares' buffer the column sums of its squares. -/
theorem stats7_4_last (c : Dev nD) :
    ((outsAt7 V c tLast7.val tLast7.isLt).2.2 : Vec Ideal S1x64 .f32)
      = colSums (fun i => reluOut (aIn7 V c) (bIn7 V c) i * reluOut (aIn7 V c) (bIn7 V c) i) := by
  funext j
  obtain ⟨q, rfl⟩ : ∃ q : Fin 64, j = ix2 (0 : Fin 1) q := ⟨⟨(j 1).val, idx2_lt1 j⟩, by
    funext a
    match a with
    | ⟨0, _⟩ => exact Fin.ext (by have h : (j 0).val < 1 := idx2_lt0 j; show (j 0).val = 0; omega)
    | ⟨1, _⟩ => rfl⟩
  refine (stats7_4_at V c 24 tLast7.isLt q).trans ?_
  exact sum_blockSum _ q

/-- The one write-back of the column sums, after the last point, writes that row: its block is the whole [1,64] array. -/
theorem flushed7_3_eq (c : Dev nD) (t : Fin cfg7.N) (hf : (cfg7.win 3).flush t = true) :
    (dat7 V c).flushed 3 t = ((cfg7.win 3).blk t).view.read (Elt Ideal) (colSums (reluOut (aIn7 V c) (bIn7 V c))) := by
  have hN : cfg7.N = 25 := N_7
  have h24 : t.val = 24 := by have := (flush7_3 t).mp hf; have := t.isLt; omega
  obtain rfl : t = tLast7 := Fin.ext h24
  show (cfg7.win 3).cut (grid7.coords tLast7) ((dat7 V c).after 3 tLast7) = _
  rw [after7_3, stats7_3_last]
  obtain ⟨-, -, -, -, -, -, e0, e1, -⟩ := idx_facts7 tLast7
  have hz' : (fun a => win7_3.index tLast7 a * main_v102_1.ty.shape.size a) = fun _ => 0 := funext fun a => by
    match a with
    | ⟨0, _⟩ => show win7_3.index tLast7 (0 : Fin 2) * 1 = 0; rw [e0]
    | ⟨1, _⟩ => show win7_3.index tLast7 (1 : Fin 2) * 64 = 0; rw [e1]
  exact (Memref.read_access_unit_zero (Elt Ideal) main_v102_1 hz' (fun a => by rw [congrFun hz' a]; simp) (colSums (reluOut (aIn7 V c) (bIn7 V c)))).symm

theorem flushed7_4_eq (c : Dev nD) (t : Fin cfg7.N) (hf : (cfg7.win 4).flush t = true) :
    (dat7 V c).flushed 4 t = ((cfg7.win 4).blk t).view.read (Elt Ideal) (colSums (fun i => reluOut (aIn7 V c) (bIn7 V c) i * reluOut (aIn7 V c) (bIn7 V c) i)) := by
  have hN : cfg7.N = 25 := N_7
  have h24 : t.val = 24 := by have := (flush7_4 t).mp hf; have := t.isLt; omega
  obtain rfl : t = tLast7 := Fin.ext h24
  show (cfg7.win 4).cut (grid7.coords tLast7) ((dat7 V c).after 4 tLast7) = _
  rw [after7_4, stats7_4_last]
  obtain ⟨-, -, -, -, -, -, -, -, e0, e1⟩ := idx_facts7 tLast7
  have hz' : (fun a => win7_4.index tLast7 a * main_v102_2.ty.shape.size a) = fun _ => 0 := funext fun a => by
    match a with
    | ⟨0, _⟩ => show win7_4.index tLast7 (0 : Fin 2) * 1 = 0; rw [e0]
    | ⟨1, _⟩ => show win7_4.index tLast7 (1 : Fin 2) * 64 = 0; rw [e1]
  exact (Memref.read_access_unit_zero (Elt Ideal) main_v102_2 hz' (fun a => by rw [congrFun hz' a]; simp) _).symm

/-- Every index of a statistics row is in the last point's block (the block is the whole row). -/
theorem cover7_3 (i : S1x64.Idx) : ∃ t : Fin cfg7.N, (cfg7.win 3).flush t = true ∧ i ∈ ((cfg7.win 3).blk t).view.set := by
  refine ⟨tLast7, (flush7_3 tLast7).mpr rfl, ?_⟩
  obtain ⟨-, -, -, -, -, -, e0, e1, -⟩ := idx_facts7 tLast7
  show i ∈ ((View.whole main_v102_1).slice (win7_3.rect tLast7)).set
  rw [View.set_slice_whole, Rect.mem_set_unit]
  intro a
  have h0 : (i 0).val < 1 := idx2_lt0 i
  have h1 : (i 1).val < 64 := idx2_lt1 i
  match a with
  | ⟨0, _⟩ => show win7_3.index tLast7 (0 : Fin 2) * 1 ≤ (i 0).val ∧ (i 0).val < win7_3.index tLast7 (0 : Fin 2) * 1 + 1; rw [e0]; omega
  | ⟨1, _⟩ => show win7_3.index tLast7 (1 : Fin 2) * 64 ≤ (i 1).val ∧ (i 1).val < win7_3.index tLast7 (1 : Fin 2) * 64 + 64; rw [e1]; omega

theorem cover7_4 (i : S1x64.Idx) : ∃ t : Fin cfg7.N, (cfg7.win 4).flush t = true ∧ i ∈ ((cfg7.win 4).blk t).view.set := by
  refine ⟨tLast7, (flush7_4 tLast7).mpr rfl, ?_⟩
  obtain ⟨-, -, -, -, -, -, -, -, e0, e1⟩ := idx_facts7 tLast7
  show i ∈ ((View.whole main_v102_2).slice (win7_4.rect tLast7)).set
  rw [View.set_slice_whole, Rect.mem_set_unit]
  intro a
  have h0 : (i 0).val < 1 := idx2_lt0 i
  have h1 : (i 1).val < 64 := idx2_lt1 i
  match a with
  | ⟨0, _⟩ => show win7_4.index tLast7 (0 : Fin 2) * 1 ≤ (i 0).val ∧ (i 0).val < win7_4.index tLast7 (0 : Fin 2) * 1 + 1; rw [e0]; omega
  | ⟨1, _⟩ => show win7_4.index tLast7 (1 : Fin 2) * 64 ≤ (i 1).val ∧ (i 1).val < win7_4.index tLast7 (1 : Fin 2) * 64 + 64; rw [e1]; omega

/-- THE COLUMN SUMS' ARRAY after the region: entry q is the sum over all 50000 rows of the rectified aggregate's column q. -/
theorem final7_3 (c : Dev nD) : (dat7 V c).arrAt 3 cfg7.N = colSums (reluOut (aIn7 V c) (bIn7 V c)) :=
  (dat7 V c).arrAt_eq_of_cover 3 (colSums (reluOut (aIn7 V c) (bIn7 V c))) (flushed7_3_eq V c) (fun i => cover7_3 i)

/-- THE SUMS OF SQUARES' ARRAY after the region: entry q is the sum over all rows of the squares of that column. -/
theorem final7_4 (c : Dev nD) : (dat7 V c).arrAt 4 cfg7.N = colSums (fun i => reluOut (aIn7 V c) (bIn7 V c) i * reluOut (aIn7 V c) (bIn7 V c) i) :=
  (dat7 V c).arrAt_eq_of_cover 4 _ (flushed7_4_eq V c) (fun i => cover7_4 i)

end IdealFinal

end Cert.KernelIdeal.Hand

end
-- ==== Proof.KChain.lean ====
/-
  The kernel program buffer by buffer: for each of the three layers the product, its aggregation over the edges, the
  rectified sum with its two column totals, the mean and variance rows, and the normalized output, each as a pure
  function of the argument arrays and of the three edge vectors the first host stretch computes.
-/
import proofs.«100384_j8693013807615_2_alg».proof.Proof.RunFold
import proofs.«100384_j8693013807615_2_alg».proof.Proof.KStage
import proofs.«100384_j8693013807615_2_alg».proof.Proof.KStage2
import proofs.«100384_j8693013807615_2_alg».proof.Proof.ValueA0
import proofs.«100384_j8693013807615_2_alg».proof.Proof.ValueA2
import proofs.«100384_j8693013807615_2_alg».proof.Proof.ValueA3
import proofs.«100384_j8693013807615_2_alg».proof.Proof.ValueA5
import proofs.«100384_j8693013807615_2_alg».proof.Proof.ValueA6
import proofs.«100384_j8693013807615_2_alg».proof.Proof.ValueA8
import proofs.«100384_j8693013807615_2_alg».proof.Proof.RegionStats1Closed
import proofs.«100384_j8693013807615_2_alg».proof.Proof.RegionStats4Closed
import proofs.«100384_j8693013807615_2_alg».proof.Proof.RegionStats7Closed

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-! ## Buffers no item in between writes -/

theorem keep_main_arg0_0_1 (c : Dev nD) : Wv1 m ρ c (Proc.devRef .tc main_arg0) = Wv0 m ρ c (Proc.devRef .tc main_arg0) :=
  (Wv1_of m ρ c main_arg0 (by decide)).trans <| rfl

theorem keep_main_arg3_0_1 (c : Dev nD) : Wv1 m ρ c (Proc.devRef .tc main_arg3) = Wv0 m ρ c (Proc.devRef .tc main_arg3) :=
  (Wv1_of m ρ c main_arg3 (by decide)).trans <| rfl

theorem keep_main_v3_1_2 (c : Dev nD) : Wv2 m ρ c (Proc.devRef .tc main_v3) = Wv1 m ρ c (Proc.devRef .tc main_v3) :=
  (Wv2_of_ne m ρ c main_v3 (by decide)).trans <| rfl

theorem keep_main_v6_1_2 (c : Dev nD) : Wv2 m ρ c (Proc.devRef .tc main_v6) = Wv1 m ρ c (Proc.devRef .tc main_v6) :=
  (Wv2_of_ne m ρ c main_v6 (by decide)).trans <| rfl

theorem keep_main_v28_1_2 (c : Dev nD) : Wv2 m ρ c (Proc.devRef .tc main_v28) = Wv1 m ρ c (Proc.devRef .tc main_v28) :=
  (Wv2_of_ne m ρ c main_v28 (by decide)).trans <| rfl

theorem keep_main_arg4_0_2 (c : Dev nD) : Wv2 m ρ c (Proc.devRef .tc main_arg4) = Wv0 m ρ c (Proc.devRef .tc main_arg4) :=
  (Wv2_of_ne m ρ c main_arg4 (by decide)).trans <| (Wv1_of m ρ c main_arg4 (by decide)).trans <| rfl

theorem keep_main_arg5_0_4 (c : Dev nD) : Wv4 m ρ c (Proc.devRef .tc main_arg5) = Wv0 m ρ c (Proc.devRef .tc main_arg5) :=
  (Wv4_of_ne m ρ c main_arg5 (by decide)).trans <| (Wv3_of m ρ c main_arg5 (by decide)).trans <| (Wv2_of_ne m ρ c main_arg5 (by decide)).trans <| (Wv1_of m ρ c main_arg5 (by decide)).trans <| rfl

theorem keep_main_arg6_0_4 (c : Dev nD) : Wv4 m ρ c (Proc.devRef .tc main_arg6) = Wv0 m ρ c (Proc.devRef .tc main_arg6) :=
  (Wv4_of_ne m ρ c main_arg6 (by decide)).trans <| (Wv3_of m ρ c main_arg6 (by decide)).trans <| (Wv2_of_ne m ρ c main_arg6 (by decide)).trans <| (Wv1_of m ρ c main_arg6 (by decide)).trans <| rfl

theorem keep_main_v44_0_4_5 (c : Dev nD) : Wv5 m ρ c (Proc.devRef .tc main_v44_0) = Wv4 m ρ c (Proc.devRef .tc main_v44_0) :=
  (Wv5_of m ρ c main_v44_0 (by decide)).trans <| rfl

theorem keep_main_arg7_0_6 (c : Dev nD) : Wv6 m ρ c (Proc.devRef .tc main_arg7) = Wv0 m ρ c (Proc.devRef .tc main_arg7) :=
  (Wv6_of_ne m ρ c main_arg7 (by decide)).trans <| (Wv5_of m ρ c main_arg7 (by decide)).trans <| (Wv4_of_ne m ρ c main_arg7 (by decide)).trans <| (Wv3_of m ρ c main_arg7 (by decide)).trans <| (Wv2_of_ne m ρ c main_arg7 (by decide)).trans <| (Wv1_of m ρ c main_arg7 (by decide)).trans <| rfl

theorem keep_main_v3_1_7 (c : Dev nD) : Wv7 m ρ c (Proc.devRef .tc main_v3) = Wv1 m ρ c (Proc.devRef .tc main_v3) :=
  (Wv7_of_ne m ρ c main_v3 (by decide)).trans <| (Wv6_of_ne m ρ c main_v3 (by decide)).trans <| (Wv5_of m ρ c main_v3 (by decide)).trans <| (Wv4_of_ne m ρ c main_v3 (by decide)).trans <| (Wv3_of m ρ c main_v3 (by decide)).trans <| (Wv2_of_ne m ρ c main_v3 (by decide)).trans <| rfl

theorem keep_main_v6_1_7 (c : Dev nD) : Wv7 m ρ c (Proc.devRef .tc main_v6) = Wv1 m ρ c (Proc.devRef .tc main_v6) :=
  (Wv7_of_ne m ρ c main_v6 (by decide)).trans <| (Wv6_of_ne m ρ c main_v6 (by decide)).trans <| (Wv5_of m ρ c main_v6 (by decide)).trans <| (Wv4_of_ne m ρ c main_v6 (by decide)).trans <| (Wv3_of m ρ c main_v6 (by decide)).trans <| (Wv2_of_ne m ρ c main_v6 (by decide)).trans <| rfl

theorem keep_main_v28_1_7 (c : Dev nD) : Wv7 m ρ c (Proc.devRef .tc main_v28) = Wv1 m ρ c (Proc.devRef .tc main_v28) :=
  (Wv7_of_ne m ρ c main_v28 (by decide)).trans <| (Wv6_of_ne m ρ c main_v28 (by decide)).trans <| (Wv5_of m ρ c main_v28 (by decide)).trans <| (Wv4_of_ne m ρ c main_v28 (by decide)).trans <| (Wv3_of m ρ c main_v28 (by decide)).trans <| (Wv2_of_ne m ρ c main_v28 (by decide)).trans <| rfl

theorem keep_main_arg8_0_7 (c : Dev nD) : Wv7 m ρ c (Proc.devRef .tc main_arg8) = Wv0 m ρ c (Proc.devRef .tc main_arg8) :=
  (Wv7_of_ne m ρ c main_arg8 (by decide)).trans <| (Wv6_of_ne m ρ c main_arg8 (by decide)).trans <| (Wv5_of m ρ c main_arg8 (by decide)).trans <| (Wv4_of_ne m ρ c main_arg8 (by decide)).trans <| (Wv3_of m ρ c main_arg8 (by decide)).trans <| (Wv2_of_ne m ρ c main_arg8 (by decide)).trans <| (Wv1_of m ρ c main_arg8 (by decide)).trans <| rfl

theorem keep_main_arg9_0_9 (c : Dev nD) : Wv9 m ρ c (Proc.devRef .tc main_arg9) = Wv0 m ρ c (Proc.devRef .tc main_arg9) :=
  (Wv9_of_ne m ρ c main_arg9 (by decide)).trans <| (Wv8_of m ρ c main_arg9 (by decide)).trans <| (Wv7_of_ne m ρ c main_arg9 (by decide)).trans <| (Wv6_of_ne m ρ c main_arg9 (by decide)).trans <| (Wv5_of m ρ c main_arg9 (by decide)).trans <| (Wv4_of_ne m ρ c main_arg9 (by decide)).trans <| (Wv3_of m ρ c main_arg9 (by decide)).trans <| (Wv2_of_ne m ρ c main_arg9 (by decide)).trans <| (Wv1_of m ρ c main_arg9 (by decide)).trans <| rfl

theorem keep_main_arg10_0_9 (c : Dev nD) : Wv9 m ρ c (Proc.devRef .tc main_arg10) = Wv0 m ρ c (Proc.devRef .tc main_arg10) :=
  (Wv9_of_ne m ρ c main_arg10 (by decide)).trans <| (Wv8_of m ρ c main_arg10 (by decide)).trans <| (Wv7_of_ne m ρ c main_arg10 (by decide)).trans <| (Wv6_of_ne m ρ c main_arg10 (by decide)).trans <| (Wv5_of m ρ c main_arg10 (by decide)).trans <| (Wv4_of_ne m ρ c main_arg10 (by decide)).trans <| (Wv3_of m ρ c main_arg10 (by decide)).trans <| (Wv2_of_ne m ρ c main_arg10 (by decide)).trans <| (Wv1_of m ρ c main_arg10 (by decide)).trans <| rfl

theorem keep_main_v73_0_9_10 (c : Dev nD) : Wv10 m ρ c (Proc.devRef .tc main_v73_0) = Wv9 m ρ c (Proc.devRef .tc main_v73_0) :=
  (Wv10_of m ρ c main_v73_0 (by decide)).trans <| rfl

theorem keep_main_arg11_0_11 (c : Dev nD) : Wv11 m ρ c (Proc.devRef .tc main_arg11) = Wv0 m ρ c (Proc.devRef .tc main_arg11) :=
  (Wv11_of_ne m ρ c main_arg11 (by decide)).trans <| (Wv10_of m ρ c main_arg11 (by decide)).trans <| (Wv9_of_ne m ρ c main_arg11 (by decide)).trans <| (Wv8_of m ρ c main_arg11 (by decide)).trans <| (Wv7_of_ne m ρ c main_arg11 (by decide)).trans <| (Wv6_of_ne m ρ c main_arg11 (by decide)).trans <| (Wv5_of m ρ c main_arg11 (by decide)).trans <| (Wv4_of_ne m ρ c main_arg11 (by decide)).trans <| (Wv3_of m ρ c main_arg11 (by decide)).trans <| (Wv2_of_ne m ρ c main_arg11 (by decide)).trans <| (Wv1_of m ρ c main_arg11 (by decide)).trans <| rfl

theorem keep_main_v3_1_12 (c : Dev nD) : Wv12 m ρ c (Proc.devRef .tc main_v3) = Wv1 m ρ c (Proc.devRef .tc main_v3) :=
  (Wv12_of_ne m ρ c main_v3 (by decide)).trans <| (Wv11_of_ne m ρ c main_v3 (by decide)).trans <| (Wv10_of m ρ c main_v3 (by decide)).trans <| (Wv9_of_ne m ρ c main_v3 (by decide)).trans <| (Wv8_of m ρ c main_v3 (by decide)).trans <| (Wv7_of_ne m ρ c main_v3 (by decide)).trans <| (Wv6_of_ne m ρ c main_v3 (by decide)).trans <| (Wv5_of m ρ c main_v3 (by decide)).trans <| (Wv4_of_ne m ρ c main_v3 (by decide)).trans <| (Wv3_of m ρ c main_v3 (by decide)).trans <| (Wv2_of_ne m ρ c main_v3 (by decide)).trans <| rfl

theorem keep_main_v6_1_12 (c : Dev nD) : Wv12 m ρ c (Proc.devRef .tc main_v6) = Wv1 m ρ c (Proc.devRef .tc main_v6) :=
  (Wv12_of_ne m ρ c main_v6 (by decide)).trans <| (Wv11_of_ne m ρ c main_v6 (by decide)).trans <| (Wv10_of m ρ c main_v6 (by decide)).trans <| (Wv9_of_ne m ρ c main_v6 (by decide)).trans <| (Wv8_of m ρ c main_v6 (by decide)).trans <| (Wv7_of_ne m ρ c main_v6 (by decide)).trans <| (Wv6_of_ne m ρ c main_v6 (by decide)).trans <| (Wv5_of m ρ c main_v6 (by decide)).trans <| (Wv4_of_ne m ρ c main_v6 (by decide)).trans <| (Wv3_of m ρ c main_v6 (by decide)).trans <| (Wv2_of_ne m ρ c main_v6 (by decide)).trans <| rfl

theorem keep_main_v28_1_12 (c : Dev nD) : Wv12 m ρ c (Proc.devRef .tc main_v28) = Wv1 m ρ c (Proc.devRef .tc main_v28) :=
  (Wv12_of_ne m ρ c main_v28 (by decide)).trans <| (Wv11_of_ne m ρ c main_v28 (by decide)).trans <| (Wv10_of m ρ c main_v28 (by decide)).trans <| (Wv9_of_ne m ρ c main_v28 (by decide)).trans <| (Wv8_of m ρ c main_v28 (by decide)).trans <| (Wv7_of_ne m ρ c main_v28 (by decide)).trans <| (Wv6_of_ne m ρ c main_v28 (by decide)).trans <| (Wv5_of m ρ c main_v28 (by decide)).trans <| (Wv4_of_ne m ρ c main_v28 (by decide)).trans <| (Wv3_of m ρ c main_v28 (by decide)).trans <| (Wv2_of_ne m ρ c main_v28 (by decide)).trans <| rfl

theorem keep_main_arg12_0_12 (c : Dev nD) : Wv12 m ρ c (Proc.devRef .tc main_arg12) = Wv0 m ρ c (Proc.devRef .tc main_arg12) :=
  (Wv12_of_ne m ρ c main_arg12 (by decide)).trans <| (Wv11_of_ne m ρ c main_arg12 (by decide)).trans <| (Wv10_of m ρ c main_arg12 (by decide)).trans <| (Wv9_of_ne m ρ c main_arg12 (by decide)).trans <| (Wv8_of m ρ c main_arg12 (by decide)).trans <| (Wv7_of_ne m ρ c main_arg12 (by decide)).trans <| (Wv6_of_ne m ρ c main_arg12 (by decide)).trans <| (Wv5_of m ρ c main_arg12 (by decide)).trans <| (Wv4_of_ne m ρ c main_arg12 (by decide)).trans <| (Wv3_of m ρ c main_arg12 (by decide)).trans <| (Wv2_of_ne m ρ c main_arg12 (by decide)).trans <| (Wv1_of m ρ c main_arg12 (by decide)).trans <| rfl

theorem keep_main_arg13_0_14 (c : Dev nD) : Wv14 m ρ c (Proc.devRef .tc main_arg13) = Wv0 m ρ c (Proc.devRef .tc main_arg13) :=
  (Wv14_of_ne m ρ c main_arg13 (by decide)).trans <| (Wv13_of m ρ c main_arg13 (by decide)).trans <| (Wv12_of_ne m ρ c main_arg13 (by decide)).trans <| (Wv11_of_ne m ρ c main_arg13 (by decide)).trans <| (Wv10_of m ρ c main_arg13 (by decide)).trans <| (Wv9_of_ne m ρ c main_arg13 (by decide)).trans <| (Wv8_of m ρ c main_arg13 (by decide)).trans <| (Wv7_of_ne m ρ c main_arg13 (by decide)).trans <| (Wv6_of_ne m ρ c main_arg13 (by decide)).trans <| (Wv5_of m ρ c main_arg13 (by decide)).trans <| (Wv4_of_ne m ρ c main_arg13 (by decide)).trans <| (Wv3_of m ρ c main_arg13 (by decide)).trans <| (Wv2_of_ne m ρ c main_arg13 (by decide)).trans <| (Wv1_of m ρ c main_arg13 (by decide)).trans <| rfl

theorem keep_main_arg14_0_14 (c : Dev nD) : Wv14 m ρ c (Proc.devRef .tc main_arg14) = Wv0 m ρ c (Proc.devRef .tc main_arg14) :=
  (Wv14_of_ne m ρ c main_arg14 (by decide)).trans <| (Wv13_of m ρ c main_arg14 (by decide)).trans <| (Wv12_of_ne m ρ c main_arg14 (by decide)).trans <| (Wv11_of_ne m ρ c main_arg14 (by decide)).trans <| (Wv10_of m ρ c main_arg14 (by decide)).trans <| (Wv9_of_ne m ρ c main_arg14 (by decide)).trans <| (Wv8_of m ρ c main_arg14 (by decide)).trans <| (Wv7_of_ne m ρ c main_arg14 (by decide)).trans <| (Wv6_of_ne m ρ c main_arg14 (by decide)).trans <| (Wv5_of m ρ c main_arg14 (by decide)).trans <| (Wv4_of_ne m ρ c main_arg14 (by decide)).trans <| (Wv3_of m ρ c main_arg14 (by decide)).trans <| (Wv2_of_ne m ρ c main_arg14 (by decide)).trans <| (Wv1_of m ρ c main_arg14 (by decide)).trans <| rfl

theorem keep_main_v102_0_14_15 (c : Dev nD) : Wv15 m ρ c (Proc.devRef .tc main_v102_0) = Wv14 m ρ c (Proc.devRef .tc main_v102_0) :=
  (Wv15_of m ρ c main_v102_0 (by decide)).trans <| rfl

theorem keep_main_v57_6_16 (c : Dev nD) : Wv16 m ρ c (Proc.devRef .tc main_v57) = Wv6 m ρ c (Proc.devRef .tc main_v57) :=
  (Wv16_of_ne m ρ c main_v57 (by decide)).trans <| (Wv15_of m ρ c main_v57 (by decide)).trans <| (Wv14_of_ne m ρ c main_v57 (by decide)).trans <| (Wv13_of m ρ c main_v57 (by decide)).trans <| (Wv12_of_ne m ρ c main_v57 (by decide)).trans <| (Wv11_of_ne m ρ c main_v57 (by decide)).trans <| (Wv10_of m ρ c main_v57 (by decide)).trans <| (Wv9_of_ne m ρ c main_v57 (by decide)).trans <| (Wv8_of m ρ c main_v57 (by decide)).trans <| ((Wv7_arr m ρ c 0).trans (((dat3 (Vw6 m ρ) c).arrAt_in 0 rfl _).trans (A_eq3 (Vw6 m ρ) c 0))).trans <| rfl

theorem keep_main_v86_11_16 (c : Dev nD) : Wv16 m ρ c (Proc.devRef .tc main_v86) = Wv11 m ρ c (Proc.devRef .tc main_v86) :=
  (Wv16_of_ne m ρ c main_v86 (by decide)).trans <| (Wv15_of m ρ c main_v86 (by decide)).trans <| (Wv14_of_ne m ρ c main_v86 (by decide)).trans <| (Wv13_of m ρ c main_v86 (by decide)).trans <| ((Wv12_arr m ρ c 0).trans (((dat6 (Vw11 m ρ) c).arrAt_in 0 rfl _).trans (A_eq6 (Vw11 m ρ) c 0))).trans <| rfl

theorem keep_main_arg2_0_16 (c : Dev nD) : Wv16 m ρ c (Proc.devRef .tc main_arg2) = Wv0 m ρ c (Proc.devRef .tc main_arg2) :=
  (Wv16_of_ne m ρ c main_arg2 (by decide)).trans <| (Wv15_of m ρ c main_arg2 (by decide)).trans <| (Wv14_of_ne m ρ c main_arg2 (by decide)).trans <| (Wv13_of m ρ c main_arg2 (by decide)).trans <| (Wv12_of_ne m ρ c main_arg2 (by decide)).trans <| (Wv11_of_ne m ρ c main_arg2 (by decide)).trans <| (Wv10_of m ρ c main_arg2 (by decide)).trans <| (Wv9_of_ne m ρ c main_arg2 (by decide)).trans <| (Wv8_of m ρ c main_arg2 (by decide)).trans <| (Wv7_of_ne m ρ c main_arg2 (by decide)).trans <| (Wv6_of_ne m ρ c main_arg2 (by decide)).trans <| (Wv5_of m ρ c main_arg2 (by decide)).trans <| (Wv4_of_ne m ρ c main_arg2 (by decide)).trans <| (Wv3_of m ρ c main_arg2 (by decide)).trans <| (Wv2_of_ne m ρ c main_arg2 (by decide)).trans <| (Wv1_of m ρ c main_arg2 (by decide)).trans <| rfl

/-! ## Layer 0 -/

/-- The product of layer 0. -/
def kH0 (m : (ℓ : Loc nD τ sig) → Buf (Elt Ideal) ℓ) (ρ : Dev nD → PrngReg) (c : Dev nD) : S50000x64.Idx → EReal := mmOut (m ((c : Thread nD τ).loc main_arg0)) (m ((c : Thread nD τ).loc main_arg3))
/-- The rectified aggregate of layer 0. -/
def kR0 (m : (ℓ : Loc nD τ sig) → Buf (Elt Ideal) ℓ) (ρ : Dev nD → PrngReg) (c : Dev nD) : S50000x64.Idx → EReal :=
  reluOut (Cert.Spec.agg (F := Ideal) (Wv1 m ρ c (Proc.devRef .tc main_v3)) (Wv1 m ρ c (Proc.devRef .tc main_v6)) (Wv1 m ρ c (Proc.devRef .tc main_v28)) (kH0 m ρ c)) (Cert.Spec.rowOf (F := Ideal) (m ((c : Thread nD τ).loc main_arg4)))
/-- The normalized output of layer 0. -/
def kZ0 (m : (ℓ : Loc nD τ sig) → Buf (Elt Ideal) ℓ) (ρ : Dev nD → PrngReg) (c : Dev nD) : S50000x64.Idx → EReal :=
  bnOut (kR0 m ρ c) (Cert.Spec.rowOf (F := Ideal) (Cert.Spec.perRow (F := Ideal) (Cert.Spec.vecOf (F := Ideal) (colSums (kR0 m ρ c)))))
    (Cert.Spec.rowOf (F := Ideal) (Cert.Spec.varOfSums (F := Ideal) (Cert.Spec.vecOf (F := Ideal) (colSums (kR0 m ρ c))) (Cert.Spec.vecOf (F := Ideal) (colSums (fun i => kR0 m ρ c i * kR0 m ρ c i)))))
    (Cert.Spec.rowOf (F := Ideal) (m ((c : Thread nD τ).loc main_arg5))) (Cert.Spec.rowOf (F := Ideal) (m ((c : Thread nD τ).loc main_arg6)))

theorem k_h0 (c : Dev nD) : Wv2 m ρ c (Proc.devRef .tc main_v29) = kH0 m ρ c := by
  refine (Wv2_arr m ρ c 2).trans ((arr0_out (Vw1 m ρ) c).trans ?_)
  have e0 : Vw1 m ρ c (Pipeline.arrRef spec0 0) = (m ((c : Thread nD τ).loc main_arg0)) := keep_main_arg0_0_1 m ρ c
  have e1 : Vw1 m ρ c (Pipeline.arrRef spec0 1) = (m ((c : Thread nD τ).loc main_arg3)) := keep_main_arg3_0_1 m ρ c
  rw [e0, e1]; rfl

theorem k_a0 (c : Dev nD) : Wv3 m ρ c (Proc.devRef .tc main_v42) = Cert.Spec.agg (F := Ideal) (Wv1 m ρ c (Proc.devRef .tc main_v3)) (Wv1 m ρ c (Proc.devRef .tc main_v6)) (Wv1 m ρ c (Proc.devRef .tc main_v28)) (kH0 m ρ c) := by
  refine (read_agg1 (Wv2 m ρ c)).trans ?_
  rw [keep_main_v3_1_2 m ρ c, keep_main_v6_1_2 m ρ c, keep_main_v28_1_2 m ρ c, k_h0 m ρ c]

theorem k_b0 (c : Dev nD) : Wv3 m ρ c (Proc.devRef .tc main_v43) = Cert.Spec.rowOf (F := Ideal) (m ((c : Thread nD τ).loc main_arg4)) := by
  refine (read_bias1 (Wv2 m ρ c)).trans ?_
  rw [keep_main_arg4_0_2 m ρ c]

theorem k_r0 (c : Dev nD) : Wv4 m ρ c (Proc.devRef .tc main_v44_0) = kR0 m ρ c := by
  refine (Wv4_arr m ρ c 2).trans ((final1_2 (Vw3 m ρ) c).trans ?_)
  have ea : aIn1 (Vw3 m ρ) c = Cert.Spec.agg (F := Ideal) (Wv1 m ρ c (Proc.devRef .tc main_v3)) (Wv1 m ρ c (Proc.devRef .tc main_v6)) (Wv1 m ρ c (Proc.devRef .tc main_v28)) (kH0 m ρ c) := k_a0 m ρ c
  have eb : bIn1 (Vw3 m ρ) c = Cert.Spec.rowOf (F := Ideal) (m ((c : Thread nD τ).loc main_arg4)) := k_b0 m ρ c
  rw [ea, eb]; rfl

theorem k_s0 (c : Dev nD) : Wv4 m ρ c (Proc.devRef .tc main_v44_1) = colSums (kR0 m ρ c) := by
  refine (Wv4_arr m ρ c 3).trans ((final1_3 (Vw3 m ρ) c).trans ?_)
  have ea : aIn1 (Vw3 m ρ) c = Cert.Spec.agg (F := Ideal) (Wv1 m ρ c (Proc.devRef .tc main_v3)) (Wv1 m ρ c (Proc.devRef .tc main_v6)) (Wv1 m ρ c (Proc.devRef .tc main_v28)) (kH0 m ρ c) := k_a0 m ρ c
  have eb : bIn1 (Vw3 m ρ) c = Cert.Spec.rowOf (F := Ideal) (m ((c : Thread nD τ).loc main_arg4)) := k_b0 m ρ c
  rw [ea, eb]; rfl

theorem k_ss0 (c : Dev nD) : Wv4 m ρ c (Proc.devRef .tc main_v44_2) = colSums (fun i => kR0 m ρ c i * kR0 m ρ c i) := by
  refine (Wv4_arr m ρ c 4).trans ((final1_4 (Vw3 m ρ) c).trans ?_)
  have ea : aIn1 (Vw3 m ρ) c = Cert.Spec.agg (F := Ideal) (Wv1 m ρ c (Proc.devRef .tc main_v3)) (Wv1 m ρ c (Proc.devRef .tc main_v6)) (Wv1 m ρ c (Proc.devRef .tc main_v28)) (kH0 m ρ c) := k_a0 m ρ c
  have eb : bIn1 (Vw3 m ρ) c = Cert.Spec.rowOf (F := Ideal) (m ((c : Thread nD τ).loc main_arg4)) := k_b0 m ρ c
  rw [ea, eb]; rfl

theorem k_mu0 (c : Dev nD) : Wv5 m ρ c (Proc.devRef .tc main_v53) = Cert.Spec.rowOf (F := Ideal) (Cert.Spec.perRow (F := Ideal) (Cert.Spec.vecOf (F := Ideal) (colSums (kR0 m ρ c)))) := by
  refine (read_mean2 (Wv4 m ρ c)).trans ?_
  rw [k_s0 m ρ c]

theorem k_var0 (c : Dev nD) : Wv5 m ρ c (Proc.devRef .tc main_v54)
    = Cert.Spec.rowOf (F := Ideal) (Cert.Spec.varOfSums (F := Ideal) (Cert.Spec.vecOf (F := Ideal) (colSums (kR0 m ρ c))) (Cert.Spec.vecOf (F := Ideal) (colSums (fun i => kR0 m ρ c i * kR0 m ρ c i)))) := by
  refine (read_var2 (Wv4 m ρ c)).trans ?_
  rw [k_s0 m ρ c, k_ss0 m ρ c]

theorem k_g0 (c : Dev nD) : Wv5 m ρ c (Proc.devRef .tc main_v55) = Cert.Spec.rowOf (F := Ideal) (m ((c : Thread nD τ).loc main_arg5)) := by
  refine (read_gain2 (Wv4 m ρ c)).trans ?_
  rw [keep_main_arg5_0_4 m ρ c]

theorem k_be0 (c : Dev nD) : Wv5 m ρ c (Proc.devRef .tc main_v56) = Cert.Spec.rowOf (F := Ideal) (m ((c : Thread nD τ).loc main_arg6)) := by
  refine (read_v56 (Wv4 m ρ c)).trans ?_
  rw [keep_main_arg6_0_4 m ρ c]

set_option maxHeartbeats 2000000 in
theorem k_z0 (c : Dev nD) : Wv6 m ρ c (Proc.devRef .tc main_v57) = kZ0 m ρ c := by
  refine (Wv6_arr m ρ c 5).trans ((arr2_out (Vw5 m ρ) c).trans ?_)
  have e0 : Vw5 m ρ c (Pipeline.arrRef spec2 0) = kR0 m ρ c := (keep_main_v44_0_4_5 m ρ c).trans (k_r0 m ρ c)
  have e1 : Vw5 m ρ c (Pipeline.arrRef spec2 1) = _ := k_mu0 m ρ c
  have e2 : Vw5 m ρ c (Pipeline.arrRef spec2 2) = _ := k_var0 m ρ c
  have e3 : Vw5 m ρ c (Pipeline.arrRef spec2 3) = _ := k_g0 m ρ c
  have e4 : Vw5 m ρ c (Pipeline.arrRef spec2 4) = _ := k_be0 m ρ c
  rw [e0, e1, e2, e3, e4]; rfl

/-! ## Layer 1 -/

/-- The product of layer 1. -/
def kH1 (m : (ℓ : Loc nD τ sig) → Buf (Elt Ideal) ℓ) (ρ : Dev nD → PrngReg) (c : Dev nD) : S50000x64.Idx → EReal := mmOut64 (kZ0 m ρ c) (m ((c : Thread nD τ).loc main_arg7))
/-- The rectified aggregate of layer 1. -/
def kR1 (m : (ℓ : Loc nD τ sig) → Buf (Elt Ideal) ℓ) (ρ : Dev nD → PrngReg) (c : Dev nD) : S50000x64.Idx → EReal :=
  reluOut (Cert.Spec.agg (F := Ideal) (Wv1 m ρ c (Proc.devRef .tc main_v3)) (Wv1 m ρ c (Proc.devRef .tc main_v6)) (Wv1 m ρ c (Proc.devRef .tc main_v28)) (kH1 m ρ c)) (Cert.Spec.rowOf (F := Ideal) (m ((c : Thread nD τ).loc main_arg8)))
/-- The normalized output of layer 1. -/
def kZ1 (m : (ℓ : Loc nD τ sig) → Buf (Elt Ideal) ℓ) (ρ : Dev nD → PrngReg) (c : Dev nD) : S50000x64.Idx → EReal :=
  bnOut (kR1 m ρ c) (Cert.Spec.rowOf (F := Ideal) (Cert.Spec.perRow (F := Ideal) (Cert.Spec.vecOf (F := Ideal) (colSums (kR1 m ρ c)))))
    (Cert.Spec.rowOf (F := Ideal) (Cert.Spec.varOfSums (F := Ideal) (Cert.Spec.vecOf (F := Ideal) (colSums (kR1 m ρ c))) (Cert.Spec.vecOf (F := Ideal) (colSums (fun i => kR1 m ρ c i * kR1 m ρ c i)))))
    (Cert.Spec.rowOf (F := Ideal) (m ((c : Thread nD τ).loc main_arg9))) (Cert.Spec.rowOf (F := Ideal) (m ((c : Thread nD τ).loc main_arg10)))

theorem k_h1 (c : Dev nD) : Wv7 m ρ c (Proc.devRef .tc main_v58) = kH1 m ρ c := by
  refine (Wv7_arr m ρ c 2).trans ((arr3_out (Vw6 m ρ) c).trans ?_)
  have e0 : Vw6 m ρ c (Pipeline.arrRef spec3 0) = kZ0 m ρ c := k_z0 m ρ c
  have e1 : Vw6 m ρ c (Pipeline.arrRef spec3 1) = (m ((c : Thread nD τ).loc main_arg7)) := keep_main_arg7_0_6 m ρ c
  rw [e0, e1]; rfl

theorem k_a1 (c : Dev nD) : Wv8 m ρ c (Proc.devRef .tc main_v71) = Cert.Spec.agg (F := Ideal) (Wv1 m ρ c (Proc.devRef .tc main_v3)) (Wv1 m ρ c (Proc.devRef .tc main_v6)) (Wv1 m ρ c (Proc.devRef .tc main_v28)) (kH1 m ρ c) := by
  refine (read_v71 (Wv7 m ρ c)).trans ?_
  rw [keep_main_v3_1_7 m ρ c, keep_main_v6_1_7 m ρ c, keep_main_v28_1_7 m ρ c, k_h1 m ρ c]

theorem k_b1 (c : Dev nD) : Wv8 m ρ c (Proc.devRef .tc main_v72) = Cert.Spec.rowOf (F := Ideal) (m ((c : Thread nD τ).loc main_arg8)) := by
  refine (read_v72 (Wv7 m ρ c)).trans ?_
  rw [keep_main_arg8_0_7 m ρ c]

theorem k_r1 (c : Dev nD) : Wv9 m ρ c (Proc.devRef .tc main_v73_0) = kR1 m ρ c := by
  refine (Wv9_arr m ρ c 2).trans ((final4_2 (Vw8 m ρ) c).trans ?_)
  have ea : aIn4 (Vw8 m ρ) c = Cert.Spec.agg (F := Ideal) (Wv1 m ρ c (Proc.devRef .tc main_v3)) (Wv1 m ρ c (Proc.devRef .tc main_v6)) (Wv1 m ρ c (Proc.devRef .tc main_v28)) (kH1 m ρ c) := k_a1 m ρ c
  have eb : bIn4 (Vw8 m ρ) c = Cert.Spec.rowOf (F := Ideal) (m ((c : Thread nD τ).loc main_arg8)) := k_b1 m ρ c
  rw [ea, eb]; rfl

theorem k_s1 (c : Dev nD) : Wv9 m ρ c (Proc.devRef .tc main_v73_1) = colSums (kR1 m ρ c) := by
  refine (Wv9_arr m ρ c 3).trans ((final4_3 (Vw8 m ρ) c).trans ?_)
  have ea : aIn4 (Vw8 m ρ) c = Cert.Spec.agg (F := Ideal) (Wv1 m ρ c (Proc.devRef .tc main_v3)) (Wv1 m ρ c (Proc.devRef .tc main_v6)) (Wv1 m ρ c (Proc.devRef .tc main_v28)) (kH1 m ρ c) := k_a1 m ρ c
  have eb : bIn4 (Vw8 m ρ) c = Cert.Spec.rowOf (F := Ideal) (m ((c : Thread nD τ).loc main_arg8)) := k_b1 m ρ c
  rw [ea, eb]; rfl

theorem k_ss1 (c : Dev nD) : Wv9 m ρ c (Proc.devRef .tc main_v73_2) = colSums (fun i => kR1 m ρ c i * kR1 m ρ c i) := by
  refine (Wv9_arr m ρ c 4).trans ((final4_4 (Vw8 m ρ) c).trans ?_)
  have ea : aIn4 (Vw8 m ρ) c = Cert.Spec.agg (F := Ideal) (Wv1 m ρ c (Proc.devRef .tc main_v3)) (Wv1 m ρ c (Proc.devRef .tc main_v6)) (Wv1 m ρ c (Proc.devRef .tc main_v28)) (kH1 m ρ c) := k_a1 m ρ c
  have eb : bIn4 (Vw8 m ρ) c = Cert.Spec.rowOf (F := Ideal) (m ((c : Thread nD τ).loc main_arg8)) := k_b1 m ρ c
  rw [ea, eb]; rfl

theorem k_mu1 (c : Dev nD) : Wv10 m ρ c (Proc.devRef .tc main_v82) = Cert.Spec.rowOf (F := Ideal) (Cert.Spec.perRow (F := Ideal) (Cert.Spec.vecOf (F := Ideal) (colSums (kR1 m ρ c)))) := by
  refine (read_v82 (Wv9 m ρ c)).trans ?_
  rw [k_s1 m ρ c]

theorem k_var1 (c : Dev nD) : Wv10 m ρ c (Proc.devRef .tc main_v83)
    = Cert.Spec.rowOf (F := Ideal) (Cert.Spec.varOfSums (F := Ideal) (Cert.Spec.vecOf (F := Ideal) (colSums (kR1 m ρ c))) (Cert.Spec.vecOf (F := Ideal) (colSums (fun i => kR1 m ρ c i * kR1 m ρ c i)))) := by
  refine (read_v83 (Wv9 m ρ c)).trans ?_
  rw [k_s1 m ρ c, k_ss1 m ρ c]

theorem k_g1 (c : Dev nD) : Wv10 m ρ c (Proc.devRef .tc main_v84) = Cert.Spec.rowOf (F := Ideal) (m ((c : Thread nD τ).loc main_arg9)) := by
  refine (read_v84 (Wv9 m ρ c)).trans ?_
  rw [keep_main_arg9_0_9 m ρ c]

theorem k_be1 (c : Dev nD) : Wv10 m ρ c (Proc.devRef .tc main_v85) = Cert.Spec.rowOf (F := Ideal) (m ((c : Thread nD τ).loc main_arg10)) := by
  refine (read_v85 (Wv9 m ρ c)).trans ?_
  rw [keep_main_arg10_0_9 m ρ c]

set_option maxHeartbeats 2000000 in
theorem k_z1 (c : Dev nD) : Wv11 m ρ c (Proc.devRef .tc main_v86) = kZ1 m ρ c := by
  refine (Wv11_arr m ρ c 5).trans ((arr5_out (Vw10 m ρ) c).trans ?_)
  have e0 : Vw10 m ρ c (Pipeline.arrRef spec5 0) = kR1 m ρ c := (keep_main_v73_0_9_10 m ρ c).trans (k_r1 m ρ c)
  have e1 : Vw10 m ρ c (Pipeline.arrRef spec5 1) = _ := k_mu1 m ρ c
  have e2 : Vw10 m ρ c (Pipeline.arrRef spec5 2) = _ := k_var1 m ρ c
  have e3 : Vw10 m ρ c (Pipeline.arrRef spec5 3) = _ := k_g1 m ρ c
  have e4 : Vw10 m ρ c (Pipeline.arrRef spec5 4) = _ := k_be1 m ρ c
  rw [e0, e1, e2, e3, e4]; rfl

/-! ## Layer 2 -/

/-- The product of layer 2. -/
def kH2 (m : (ℓ : Loc nD τ sig) → Buf (Elt Ideal) ℓ) (ρ : Dev nD → PrngReg) (c : Dev nD) : S50000x64.Idx → EReal := mmOut64 (kZ1 m ρ c) (m ((c : Thread nD τ).loc main_arg11))
/-- The rectified aggregate of layer 2. -/
def kR2 (m : (ℓ : Loc nD τ sig) → Buf (Elt Ideal) ℓ) (ρ : Dev nD → PrngReg) (c : Dev nD) : S50000x64.Idx → EReal :=
  reluOut (Cert.Spec.agg (F := Ideal) (Wv1 m ρ c (Proc.devRef .tc main_v3)) (Wv1 m ρ c (Proc.devRef .tc main_v6)) (Wv1 m ρ c (Proc.devRef .tc main_v28)) (kH2 m ρ c)) (Cert.Spec.rowOf (F := Ideal) (m ((c : Thread nD τ).loc main_arg12)))
/-- The normalized output of layer 2. -/
def kZ2 (m : (ℓ : Loc nD τ sig) → Buf (Elt Ideal) ℓ) (ρ : Dev nD → PrngReg) (c : Dev nD) : S50000x64.Idx → EReal :=
  bnOut (kR2 m ρ c) (Cert.Spec.rowOf (F := Ideal) (Cert.Spec.perRow (F := Ideal) (Cert.Spec.vecOf (F := Ideal) (colSums (kR2 m ρ c)))))
    (Cert.Spec.rowOf (F := Ideal) (Cert.Spec.varOfSums (F := Ideal) (Cert.Spec.vecOf (F := Ideal) (colSums (kR2 m ρ c))) (Cert.Spec.vecOf (F := Ideal) (colSums (fun i => kR2 m ρ c i * kR2 m ρ c i)))))
    (Cert.Spec.rowOf (F := Ideal) (m ((c : Thread nD τ).loc main_arg13))) (Cert.Spec.rowOf (F := Ideal) (m ((c : Thread nD τ).loc main_arg14)))

theorem k_h2 (c : Dev nD) : Wv12 m ρ c (Proc.devRef .tc main_v87) = kH2 m ρ c := by
  refine (Wv12_arr m ρ c 2).trans ((arr6_out (Vw11 m ρ) c).trans ?_)
  have e0 : Vw11 m ρ c (Pipeline.arrRef spec6 0) = kZ1 m ρ c := k_z1 m ρ c
  have e1 : Vw11 m ρ c (Pipeline.arrRef spec6 1) = (m ((c : Thread nD τ).loc main_arg11)) := keep_main_arg11_0_11 m ρ c
  rw [e0, e1]; rfl

theorem k_a2 (c : Dev nD) : Wv13 m ρ c (Proc.devRef .tc main_v100) = Cert.Spec.agg (F := Ideal) (Wv1 m ρ c (Proc.devRef .tc main_v3)) (Wv1 m ρ c (Proc.devRef .tc main_v6)) (Wv1 m ρ c (Proc.devRef .tc main_v28)) (kH2 m ρ c) := by
  refine (read_v100 (Wv12 m ρ c)).trans ?_
  rw [keep_main_v3_1_12 m ρ c, keep_main_v6_1_12 m ρ c, keep_main_v28_1_12 m ρ c, k_h2 m ρ c]

theorem k_b2 (c : Dev nD) : Wv13 m ρ c (Proc.devRef .tc main_v101) = Cert.Spec.rowOf (F := Ideal) (m ((c : Thread nD τ).loc main_arg12)) := by
  refine (read_v101 (Wv12 m ρ c)).trans ?_
  rw [keep_main_arg12_0_12 m ρ c]

theorem k_r2 (c : Dev nD) : Wv14 m ρ c (Proc.devRef .tc main_v102_0) = kR2 m ρ c := by
  refine (Wv14_arr m ρ c 2).trans ((final7_2 (Vw13 m ρ) c).trans ?_)
  have ea : aIn7 (Vw13 m ρ) c = Cert.Spec.agg (F := Ideal) (Wv1 m ρ c (Proc.devRef .tc main_v3)) (Wv1 m ρ c (Proc.devRef .tc main_v6)) (Wv1 m ρ c (Proc.devRef .tc main_v28)) (kH2 m ρ c) := k_a2 m ρ c
  have eb : bIn7 (Vw13 m ρ) c = Cert.Spec.rowOf (F := Ideal) (m ((c : Thread nD τ).loc main_arg12)) := k_b2 m ρ c
  rw [ea, eb]; rfl

theorem k_s2 (c : Dev nD) : Wv14 m ρ c (Proc.devRef .tc main_v102_1) = colSums (kR2 m ρ c) := by
  refine (Wv14_arr m ρ c 3).trans ((final7_3 (Vw13 m ρ) c).trans ?_)
  have ea : aIn7 (Vw13 m ρ) c = Cert.Spec.agg (F := Ideal) (Wv1 m ρ c (Proc.devRef .tc main_v3)) (Wv1 m ρ c (Proc.devRef .tc main_v6)) (Wv1 m ρ c (Proc.devRef .tc main_v28)) (kH2 m ρ c) := k_a2 m ρ c
  have eb : bIn7 (Vw13 m ρ) c = Cert.Spec.rowOf (F := Ideal) (m ((c : Thread nD τ).loc main_arg12)) := k_b2 m ρ c
  rw [ea, eb]; rfl

theorem k_ss2 (c : Dev nD) : Wv14 m ρ c (Proc.devRef .tc main_v102_2) = colSums (fun i => kR2 m ρ c i * kR2 m ρ c i) := by
  refine (Wv14_arr m ρ c 4).trans ((final7_4 (Vw13 m ρ) c).trans ?_)
  have ea : aIn7 (Vw13 m ρ) c = Cert.Spec.agg (F := Ideal) (Wv1 m ρ c (Proc.devRef .tc main_v3)) (Wv1 m ρ c (Proc.devRef .tc main_v6)) (Wv1 m ρ c (Proc.devRef .tc main_v28)) (kH2 m ρ c) := k_a2 m ρ c
  have eb : bIn7 (Vw13 m ρ) c = Cert.Spec.rowOf (F := Ideal) (m ((c : Thread nD τ).loc main_arg12)) := k_b2 m ρ c
  rw [ea, eb]; rfl

theorem k_mu2 (c : Dev nD) : Wv15 m ρ c (Proc.devRef .tc main_v111) = Cert.Spec.rowOf (F := Ideal) (Cert.Spec.perRow (F := Ideal) (Cert.Spec.vecOf (F := Ideal) (colSums (kR2 m ρ c)))) := by
  refine (read_v111 (Wv14 m ρ c)).trans ?_
  rw [k_s2 m ρ c]

theorem k_var2 (c : Dev nD) : Wv15 m ρ c (Proc.devRef .tc main_v112)
    = Cert.Spec.rowOf (F := Ideal) (Cert.Spec.varOfSums (F := Ideal) (Cert.Spec.vecOf (F := Ideal) (colSums (kR2 m ρ c))) (Cert.Spec.vecOf (F := Ideal) (colSums (fun i => kR2 m ρ c i * kR2 m ρ c i)))) := by
  refine (read_v112 (Wv14 m ρ c)).trans ?_
  rw [k_s2 m ρ c, k_ss2 m ρ c]

theorem k_g2 (c : Dev nD) : Wv15 m ρ c (Proc.devRef .tc main_v113) = Cert.Spec.rowOf (F := Ideal) (m ((c : Thread nD τ).loc main_arg13)) := by
  refine (read_v113 (Wv14 m ρ c)).trans ?_
  rw [keep_main_arg13_0_14 m ρ c]

theorem k_be2 (c : Dev nD) : Wv15 m ρ c (Proc.devRef .tc main_v114) = Cert.Spec.rowOf (F := Ideal) (m ((c : Thread nD τ).loc main_arg14)) := by
  refine (read_v114 (Wv14 m ρ c)).trans ?_
  rw [keep_main_arg14_0_14 m ρ c]

set_option maxHeartbeats 2000000 in
theorem k_z2 (c : Dev nD) : Wv16 m ρ c (Proc.devRef .tc main_v115) = kZ2 m ρ c := by
  refine (Wv16_arr m ρ c 5).trans ((arr8_out (Vw15 m ρ) c).trans ?_)
  have e0 : Vw15 m ρ c (Pipeline.arrRef spec8 0) = kR2 m ρ c := (keep_main_v102_0_14_15 m ρ c).trans (k_r2 m ρ c)
  have e1 : Vw15 m ρ c (Pipeline.arrRef spec8 1) = _ := k_mu2 m ρ c
  have e2 : Vw15 m ρ c (Pipeline.arrRef spec8 2) = _ := k_var2 m ρ c
  have e3 : Vw15 m ρ c (Pipeline.arrRef spec8 3) = _ := k_g2 m ρ c
  have e4 : Vw15 m ρ c (Pipeline.arrRef spec8 4) = _ := k_be2 m ρ c
  rw [e0, e1, e2, e3, e4]; rfl

/-! ## The three layer outputs at the last region's exit -/

theorem k_out0 (c : Dev nD) : Wv16 m ρ c (Proc.devRef .tc main_v57) = kZ0 m ρ c := (keep_main_v57_6_16 m ρ c).trans (k_z0 m ρ c)
theorem k_out1 (c : Dev nD) : Wv16 m ρ c (Proc.devRef .tc main_v86) = kZ1 m ρ c := (keep_main_v86_11_16 m ρ c).trans (k_z1 m ρ c)
theorem k_out2 (c : Dev nD) : Wv16 m ρ c (Proc.devRef .tc main_v115) = kZ2 m ρ c := k_z2 m ρ c
theorem k_batch (c : Dev nD) : Wv16 m ρ c (Proc.devRef .tc main_arg2) = (m ((c : Thread nD τ).loc main_arg2)) := keep_main_arg2_0_16 m ρ c
theorem k_edges (c : Dev nD) : Wv0 m ρ c (Proc.devRef .tc main_arg1) = (m ((c : Thread nD τ).loc main_arg1)) := rfl

end Cert.KernelIdeal.Hand

end
-- ==== Proof.KStageHead.lean ====
/-
  What the first stretch of host operations leaves in the buffers the regions read, as functions of the edge list: the
  sources' and the destinations' rows with the self-loops appended, and the edges' weights from the in-degrees.
-/
import proofs.«100384_j8693013807615_2_alg».proof.Proof.Gen.KernelIdeal.Launch
import proofs.«100384_j8693013807615_2_alg».proof.Proof.Spec
import proofs.«100384_j8693013807615_2_alg».proof.Proof.SpecShared
import Idealize.ShloMosaic.Lib.StableHlo.Run

noncomputable section

namespace Cert.KernelIdeal.Hand

open Cert.KernelIdeal Cert.KernelIdeal.Gen
open Idealize.ShloMosaic Idealize.ShloMosaic.TcCoe Idealize.SL.Sem Idealize.ShloMosaic.StableHlo

variable {F : FTy → Type} [FloatOps F]

set_option maxHeartbeats 4000000 in
/-- The first stretch leaves the sources' row of the edge list, the self-loops appended, in its buffer. -/
theorem read_src0 (V : Valuation τ sig (Elt F)) :
    StableHlo.after hostOps0 V (Proc.devRef .tc main_v3) = Cert.Spec.edgeSrc (V (Proc.devRef .tc main_arg1)) := by
  after_results_simp
  repeat (first
    | rw [nullary_result] | rw [unary_result] | rw [binary_result] | rw [ternary_result] | rw [reshape_result] | rw [nary_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide)
    | (rw [nary_result_ne]; rotate_left; decide))
  rfl

set_option maxHeartbeats 4000000 in
/-- The first stretch leaves the destinations' row of the edge list, the self-loops appended, in its buffer. -/
theorem read_dst0 (V : Valuation τ sig (Elt F)) :
    StableHlo.after hostOps0 V (Proc.devRef .tc main_v6) = Cert.Spec.edgeDst (V (Proc.devRef .tc main_arg1)) := by
  after_results_simp
  repeat (first
    | rw [nullary_result] | rw [unary_result] | rw [binary_result] | rw [ternary_result] | rw [reshape_result] | rw [nary_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide)
    | (rw [nary_result_ne]; rotate_left; decide))
  rfl

set_option maxHeartbeats 4000000 in
/-- The first stretch leaves the edges' weights in their buffer. -/
theorem read_weight0 (V : Valuation τ sig (Elt F)) :
    StableHlo.after hostOps0 V (Proc.devRef .tc main_v28)
      = Cert.Spec.edgeWeight (Cert.Spec.edgeSrc (V (Proc.devRef .tc main_arg1))) (Cert.Spec.edgeDst (V (Proc.devRef .tc main_arg1))) := by
  after_results_simp
  repeat (first
    | rw [nullary_result] | rw [unary_result] | rw [binary_result] | rw [ternary_result] | rw [reshape_result] | rw [nary_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide)
    | (rw [nary_result_ne]; rotate_left; decide))
  rfl

end Cert.KernelIdeal.Hand

end
-- ==== Proof.KStageTailC.lean ====
/-
  What the last five stretches of host operations leave in the two result buffers, as functions of the graph labels
  and of the three layers' arrays before them: the layers' node values side by side, each row divided by its Euclidean
  norm; the layers' per-graph means side by side, each row divided by its Euclidean norm. One lemma per stretch (the
  two normalizations each as the inlined call followed by the division), then the two compositions.
-/
import proofs.«100384_j8693013807615_2_alg».proof.Proof.Gen.KernelIdeal.Launch
import proofs.«100384_j8693013807615_2_alg».proof.Proof.Spec
import proofs.«100384_j8693013807615_2_alg».proof.Proof.SpecShared
import Idealize.ShloMosaic.Lib.StableHlo.Run

noncomputable section

namespace Cert.KernelIdeal.Hand

open Cert.KernelIdeal Cert.KernelIdeal.Gen
open Idealize.ShloMosaic Idealize.ShloMosaic.TcCoe Idealize.SL.Sem Idealize.ShloMosaic.StableHlo

variable {F : FTy → Type} [FloatOps F]

set_option maxHeartbeats 4000000 in
/-- The last stretch of the main function lays the three layers' node values side by side. -/
theorem read_catNodes9 (V : Valuation τ sig (Elt F)) :
    StableHlo.after hostOps9 V (Proc.devRef .tc main_v140)
      = Cert.Spec.catNodes (V (Proc.devRef .tc main_v57)) (V (Proc.devRef .tc main_v86)) (V (Proc.devRef .tc main_v115)) := by
  after_results_simp
  repeat (first
    | rw [nullary_result] | rw [unary_result] | rw [binary_result] | rw [ternary_result] | rw [reshape_result] | rw [nary_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide)
    | (rw [nary_result_ne]; rotate_left; decide))
  rfl

set_option maxHeartbeats 4000000 in
/-- and the three layers' graph means side by side. -/
theorem read_catGraphs9 (V : Valuation τ sig (Elt F)) :
    StableHlo.after hostOps9 V (Proc.devRef .tc main_v141)
      = Cert.Spec.catGraphs
          (Cert.Spec.segMean (V (Proc.devRef .tc main_arg2)) (Cert.Spec.segCount (V (Proc.devRef .tc main_arg2))) (V (Proc.devRef .tc main_v57)))
          (Cert.Spec.segMean (V (Proc.devRef .tc main_arg2)) (Cert.Spec.segCount (V (Proc.devRef .tc main_arg2))) (V (Proc.devRef .tc main_v86)))
          (Cert.Spec.segMean (V (Proc.devRef .tc main_arg2)) (Cert.Spec.segCount (V (Proc.devRef .tc main_arg2))) (V (Proc.devRef .tc main_v115))) := by
  after_results_simp
  repeat (first
    | rw [nullary_result] | rw [unary_result] | rw [binary_result] | rw [ternary_result] | rw [reshape_result] | rw [nary_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide)
    | (rw [nary_result_ne]; rotate_left; decide))
  rfl

set_option maxHeartbeats 4000000 in
/-- The nodes' normalization (the inlined call, then the division): each row of the array it finds divided by its
    Euclidean norm, the norm at least 1e-12. -/
theorem read_rowNormNodes (W : Valuation τ sig (Elt F)) :
    StableHlo.after hostOps9_2 (StableHlo.after hostOps9_1 W) (Proc.devRef .tc main_v146)
      = Cert.Spec.rowNormNodes (W (Proc.devRef .tc main_v140)) := by
  after_results_simp
  repeat (first
    | rw [nullary_result] | rw [unary_result] | rw [binary_result] | rw [ternary_result] | rw [reshape_result] | rw [nary_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide)
    | (rw [nary_result_ne]; rotate_left; decide))
  rfl

set_option maxHeartbeats 4000000 in
/-- The nodes' normalization leaves the graphs' array as it finds it. -/
theorem keep_graphs9_12 (W : Valuation τ sig (Elt F)) :
    StableHlo.after hostOps9_2 (StableHlo.after hostOps9_1 W) (Proc.devRef .tc main_v141) = W (Proc.devRef .tc main_v141) := by
  after_results_simp

set_option maxHeartbeats 4000000 in
/-- The graphs' normalization: each row of the array it finds divided by its Euclidean norm, the norm at least 1e-12. -/
theorem read_rowNormGraphs (W : Valuation τ sig (Elt F)) :
    StableHlo.after hostOps9_4 (StableHlo.after hostOps9_3 W) (Proc.devRef .tc main_v151)
      = Cert.Spec.rowNormGraphs (W (Proc.devRef .tc main_v141)) := by
  after_results_simp
  repeat (first
    | rw [nullary_result] | rw [unary_result] | rw [binary_result] | rw [ternary_result] | rw [reshape_result] | rw [nary_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide)
    | (rw [nary_result_ne]; rotate_left; decide))
  rfl

/-- THE NODES' OUTPUT after the last five stretches, from the three layers' arrays before them. -/
theorem read_nodes_out (V : Valuation τ sig (Elt F)) :
    StableHlo.after hostOps9_2 (StableHlo.after hostOps9_1 (StableHlo.after hostOps9 V)) (Proc.devRef .tc main_v146)
      = Cert.Spec.rowNormNodes (Cert.Spec.catNodes (V (Proc.devRef .tc main_v57)) (V (Proc.devRef .tc main_v86)) (V (Proc.devRef .tc main_v115))) := by
  rw [read_rowNormNodes, read_catNodes9]

/-- THE GRAPHS' OUTPUT after the last five stretches, from the graph labels and the three layers' arrays before them. -/
theorem read_graphs_out (V : Valuation τ sig (Elt F)) :
    StableHlo.after hostOps9_4 (StableHlo.after hostOps9_3 (StableHlo.after hostOps9_2 (StableHlo.after hostOps9_1 (StableHlo.after hostOps9 V))))
        (Proc.devRef .tc main_v151)
      = Cert.Spec.rowNormGraphs (Cert.Spec.catGraphs
          (Cert.Spec.segMean (V (Proc.devRef .tc main_arg2)) (Cert.Spec.segCount (V (Proc.devRef .tc main_arg2))) (V (Proc.devRef .tc main_v57)))
          (Cert.Spec.segMean (V (Proc.devRef .tc main_arg2)) (Cert.Spec.segCount (V (Proc.devRef .tc main_arg2))) (V (Proc.devRef .tc main_v86)))
          (Cert.Spec.segMean (V (Proc.devRef .tc main_arg2)) (Cert.Spec.segCount (V (Proc.devRef .tc main_arg2))) (V (Proc.devRef .tc main_v115)))) := by
  rw [read_rowNormGraphs, keep_graphs9_12, read_catGraphs9]

end Cert.KernelIdeal.Hand

end
-- ==== Proof.LibBroadcastInDim.lean ====
/-
  A broadcast along named axes (stablehlo.broadcast_in_dim), read at an index, for the three layouts a row statistic
  meets on the host: a scalar repeated over any shape; a vector [a] laid out as a column [a, 1]; a column [a, 1]
  repeated across the b columns of an [a, b] matrix. For any extents and any element type.
-/
import Idealize.ShloMosaic.Lib.Pipeline.Value
import Idealize.ShloMosaic.Lib.ValueIdx

noncomputable section

namespace Cert.Lib.BroadcastInDim

open Idealize.ShloMosaic Idealize.ShloMosaic.ValueIdx

variable {α : Type}

/-- A scalar (a rank-0 array) broadcast to any shape: every element is the scalar. -/
theorem scalar_apply {t : Shape} (dims : Fin 0 → Fin t.rank) (h : (⟨0, ![]⟩ : Shape).BroadcastsInDim t dims)
    (x : (⟨0, ![]⟩ : Shape).Idx → α) (j : t.Idx) :
    broadcastInDim t dims h x j = x ix0 :=
  broadcastInDim_apply dims h x j ix0 (fun a => a.elim0)

/-- A vector laid out as a column, [a] → [a, 1] along axis 0: row p of the column is element p of the vector. -/
theorem vecAsCol_apply {a : Nat} (h : (⟨1, ![a]⟩ : Shape).BroadcastsInDim ⟨2, ![a, 1]⟩ (![0] : Fin 1 → Fin 2))
    (v : (⟨1, ![a]⟩ : Shape).Idx → α) (p : Fin a) :
    broadcastInDim ⟨2, ![a, 1]⟩ ![0] h v (ix2 p (0 : Fin 1)) = v (ix1 p) :=
  broadcastInDim_apply _ h v (ix2 p (0 : Fin 1)) (ix1 p) (fun d => match d with
    | ⟨0, _⟩ => by
        show p.val = if a = 1 then 0 else p.val
        split_ifs with ha
        · subst ha; have := p.isLt; omega
        · rfl)

/-- A column repeated across the columns of a matrix, [a, 1] → [a, b] along axes 0 and 1: entry (p, q) is the
    column's row p. -/
theorem colAcross_apply {a b : Nat}
    (h : (⟨2, ![a, 1]⟩ : Shape).BroadcastsInDim ⟨2, ![a, b]⟩ (![0, 1] : Fin 2 → Fin 2))
    (col : (⟨2, ![a, 1]⟩ : Shape).Idx → α) (p : Fin a) (q : Fin b) :
    broadcastInDim ⟨2, ![a, b]⟩ ![0, 1] h col (ix2 p q) = col (ix2 p (0 : Fin 1)) :=
  broadcastInDim_apply _ h col (ix2 p q) (ix2 p (0 : Fin 1)) (fun d => match d with
    | ⟨0, _⟩ => by
        show p.val = if a = 1 then 0 else p.val
        split_ifs with ha
        · subst ha; have := p.isLt; omega
        · rfl
    | ⟨1, _⟩ => by show 0 = if (1 : Nat) = 1 then 0 else q.val; rw [if_pos rfl])

end Cert.Lib.BroadcastInDim

end
-- ==== Proof.RefRunAt.lean ====
import proofs.«100384_j8693013807615_2_alg».proof.Proof.RefRunDefs
import proofs.«100384_j8693013807615_2_alg».proof.Proof.LibBroadcastInDim
import Idealize.ShloMosaic.PureOps.Ideal.Laws
import Idealize.ShloMosaic.Lib.ValueIdx
import Idealize.ShloMosaic.Lib.Pipeline.Value

noncomputable section

namespace Cert.ReferenceIdeal.RefRun

open Cert.ReferenceIdeal Cert.ReferenceIdeal.Gen Idealize.ShloMosaic Idealize.ShloMosaic.ValueIdx Idealize.SL.Sem
open scoped BigOperators

/-! ## Broadcasts read at an index -/

section Broadcasts

variable {α : Type}

/-- A vector laid out as one row, [b] → [1, b] along axis 1: entry (0, q) of the row is element q of the vector. -/
theorem vecAsRow_apply {b : Nat} (h : (⟨1, ![b]⟩ : Shape).BroadcastsInDim ⟨2, ![1, b]⟩ (![1] : Fin 1 → Fin 2))
    (v : (⟨1, ![b]⟩ : Shape).Idx → α) (r : Fin 1) (q : Fin b) :
    broadcastInDim ⟨2, ![1, b]⟩ ![1] h v (ix2 r q) = v (ix1 q) :=
  broadcastInDim_apply _ h v (ix2 r q) (ix1 q) (fun d => match d with
    | ⟨0, _⟩ => by
        show q.val = if b = 1 then 0 else q.val
        split_ifs with hb
        · subst hb; have := q.isLt; omega
        · rfl)

/-- A row repeated down the rows of a matrix, [1, b] → [a, b] along axes 0 and 1: entry (p, q) is the row's entry q. -/
theorem rowDown_apply {a b : Nat}
    (h : (⟨2, ![1, b]⟩ : Shape).BroadcastsInDim ⟨2, ![a, b]⟩ (![0, 1] : Fin 2 → Fin 2))
    (row : (⟨2, ![1, b]⟩ : Shape).Idx → α) (p : Fin a) (q : Fin b) :
    broadcastInDim ⟨2, ![a, b]⟩ ![0, 1] h row (ix2 p q) = row (ix2 (0 : Fin 1) q) :=
  broadcastInDim_apply _ h row (ix2 p q) (ix2 (0 : Fin 1) q) (fun d => match d with
    | ⟨0, _⟩ => by show 0 = if (1 : Nat) = 1 then 0 else p.val; rw [if_pos rfl]
    | ⟨1, _⟩ => by
        show q.val = if b = 1 then 0 else q.val
        split_ifs with hb
        · subst hb; have := q.isLt; omega
        · rfl)

end Broadcasts

variable {F : FTy → Type} [FloatOps F]

/-- A vector of 64 as every row, read at (p, q): the vector at q. -/
theorem rows_apply (b : Ten F S64 .f32) (p : Fin 50000) (q : Fin 64) : rows b (ix2 p q) = b (ix1 q) := by
  unfold rows
  rw [rowDown_apply, vecAsRow_apply]

/-! ## The literals -/

/-- The word `0x47435000` is the real 50000. -/
theorem ofBits_nodes : Ideal.ofBits .f32 0x47435000#32 = ((50000 : ℝ) : EReal) := by
  simp [Ideal.ofBits, Ideal.ieee, -EReal.coe_mul]; norm_num

theorem zeroF_apply (i : S_.Idx) : zeroF (F := Ideal) i = 0 := Ideal.ofBits_zero_f32
theorem nodesF_apply (i : S_.Idx) : nodesF (F := Ideal) i = ((50000 : ℝ) : EReal) := ofBits_nodes

/-! ## The layer's stages read at an index, at the ideal values -/

/-- The bias and rectifier at (p, q). -/
theorem biasRelu_apply (a : Ten Ideal S50000x64 .f32) (b : Ten Ideal S64 .f32) (p : Fin 50000) (q : Fin 64) :
    biasRelu a b (ix2 p q) = max (a (ix2 p q) + b (ix1 q)) 0 := by
  unfold biasRelu
  rw [maximumf_apply, addf_apply, rows_apply, Cert.Lib.BroadcastInDim.scalar_apply, zeroF_apply]

/-- A column's sum at q. -/
theorem colSum_apply (x : Ten Ideal S50000x64 .f32) (q : Fin 64) :
    colSum x (ix1 q) = ∑ p : Fin 50000, x (ix2 p q) := by
  unfold colSum
  simp only [Host.reduceAdd, Ideal.hostReduceAdd_def]
  rw [Ideal.hostReduceAdd_single reducesTo_S50000x64_S64_d0 (by decide), zeroF_apply, zero_add]
  refine Finset.sum_congr rfl fun k _ => ?_
  exact congrArg x (funext fun a => Fin.ext (by match a with | ⟨0, _⟩ => rfl | ⟨1, _⟩ => rfl))

/-- A column's mean at q. -/
theorem colMean_apply (x : Ten Ideal S50000x64 .f32) (q : Fin 64) :
    colMean x (ix1 q) = Ideal.div (∑ p : Fin 50000, x (ix2 p q)) ((50000 : ℝ) : EReal) := by
  unfold colMean
  show Ideal.div (colSum x (ix1 q)) (broadcastInDim S64 ![] bcast_S_S64 (nodesF (F := Ideal)) (ix1 q)) = _
  rw [colSum_apply, Cert.Lib.BroadcastInDim.scalar_apply, nodesF_apply]

/-! ### The products -/

/-- The first layer's dimension numbers: rows × contraction times contraction × columns, 128 contracted. -/
abbrev D1 : DotDims S50000x128 S128x64 S50000x64 := dot_S50000x128_S128x64_S50000x64_1_0_0_1_n_n
/-- A later layer's dimension numbers: 64 contracted. -/
abbrev D2 : DotDims S50000x64 S64x64 S50000x64 := dot_S50000x64_S64x64_S50000x64_1_0_0_1_n_n

theorem lhs1_0 (i : S50000x64.Idx) (k : D1.contr.Idx) : (D1.lhsIdx i k 0).val = (i 0).val := by
  unfold DotDims.lhsIdx
  rw [dif_neg (show ¬(0 : Fin S50000x128.rank) ∈ D1.lhsBatch by decide),
    dif_pos (show (0 : Fin S50000x128.rank) ∈ D1.lhsNonContracting by decide)]
  rfl
theorem lhs1_1 (i : S50000x64.Idx) (k : D1.contr.Idx) : (D1.lhsIdx i k 1).val = (k ⟨0, by decide⟩).val :=
  D1.lhsIdx_val_of_single rfl i k
theorem rhs1_0 (i : S50000x64.Idx) (k : D1.contr.Idx) : (D1.rhsIdx i k 0).val = (k ⟨0, by decide⟩).val :=
  D1.rhsIdx_val_of_single rfl i k
theorem rhs1_1 (i : S50000x64.Idx) (k : D1.contr.Idx) : (D1.rhsIdx i k 1).val = (i 1).val := by
  unfold DotDims.rhsIdx
  rw [dif_neg (show ¬(1 : Fin S128x64.rank) ∈ D1.rhsBatch by decide),
    dif_pos (show (1 : Fin S128x64.rank) ∈ D1.rhsNonContracting by decide)]
  rfl

/-- The first layer's product at (p, n): the sum over the 128 features of row p of the features times column n of
    the weights. -/
theorem dense1_apply (x : Ten Ideal S50000x128 .f32) (w : Ten Ideal S128x64 .f32) (p : Fin 50000) (n : Fin 64) :
    dense1 x w (ix2 p n) = ∑ k : Fin 128, x (ix2 p k) * w (ix2 k n) := by
  unfold dense1
  simp only [Host.dotGeneral]
  rw [Ideal.dotGeneral_apply, ← Equiv.sum_comp (ValueIdx.contrEquiv1 D1 128 rfl rfl).symm]
  refine Finset.sum_congr rfl fun k _ => ?_
  have hk := ValueIdx.contrEquiv1_symm_val D1 128 rfl rfl k
  have el : D1.lhsIdx (ix2 p n) ((ValueIdx.contrEquiv1 D1 128 rfl rfl).symm k) = ix2 p k := funext fun a => Fin.ext (by
    match a with
    | ⟨0, _⟩ => exact lhs1_0 _ _
    | ⟨1, _⟩ => exact (lhs1_1 _ _).trans hk)
  have er : D1.rhsIdx (ix2 p n) ((ValueIdx.contrEquiv1 D1 128 rfl rfl).symm k) = ix2 k n := funext fun a => Fin.ext (by
    match a with
    | ⟨0, _⟩ => exact (rhs1_0 _ _).trans hk
    | ⟨1, _⟩ => exact rhs1_1 _ _)
  rw [el, er]

theorem lhs2_0 (i : S50000x64.Idx) (k : D2.contr.Idx) : (D2.lhsIdx i k 0).val = (i 0).val := by
  unfold DotDims.lhsIdx
  rw [dif_neg (show ¬(0 : Fin S50000x64.rank) ∈ D2.lhsBatch by decide),
    dif_pos (show (0 : Fin S50000x64.rank) ∈ D2.lhsNonContracting by decide)]
  rfl
theorem lhs2_1 (i : S50000x64.Idx) (k : D2.contr.Idx) : (D2.lhsIdx i k 1).val = (k ⟨0, by decide⟩).val :=
  D2.lhsIdx_val_of_single rfl i k
theorem rhs2_0 (i : S50000x64.Idx) (k : D2.contr.Idx) : (D2.rhsIdx i k 0).val = (k ⟨0, by decide⟩).val :=
  D2.rhsIdx_val_of_single rfl i k
theorem rhs2_1 (i : S50000x64.Idx) (k : D2.contr.Idx) : (D2.rhsIdx i k 1).val = (i 1).val := by
  unfold DotDims.rhsIdx
  rw [dif_neg (show ¬(1 : Fin S64x64.rank) ∈ D2.rhsBatch by decide),
    dif_pos (show (1 : Fin S64x64.rank) ∈ D2.rhsNonContracting by decide)]
  rfl

/-- A later layer's product at (p, n): the sum over the 64 features. -/
theorem dense2_apply (x : Ten Ideal S50000x64 .f32) (w : Ten Ideal S64x64 .f32) (p : Fin 50000) (n : Fin 64) :
    dense2 x w (ix2 p n) = ∑ k : Fin 64, x (ix2 p k) * w (ix2 k n) := by
  unfold dense2
  simp only [Host.dotGeneral]
  rw [Ideal.dotGeneral_apply, ← Equiv.sum_comp (ValueIdx.contrEquiv1 D2 64 rfl rfl).symm]
  refine Finset.sum_congr rfl fun k _ => ?_
  have hk := ValueIdx.contrEquiv1_symm_val D2 64 rfl rfl k
  have el : D2.lhsIdx (ix2 p n) ((ValueIdx.contrEquiv1 D2 64 rfl rfl).symm k) = ix2 p k := funext fun a => Fin.ext (by
    match a with
    | ⟨0, _⟩ => exact lhs2_0 _ _
    | ⟨1, _⟩ => exact (lhs2_1 _ _).trans hk)
  have er : D2.rhsIdx (ix2 p n) ((ValueIdx.contrEquiv1 D2 64 rfl rfl).symm k) = ix2 k n := funext fun a => Fin.ext (by
    match a with
    | ⟨0, _⟩ => exact (rhs2_0 _ _).trans hk
    | ⟨1, _⟩ => exact rhs2_1 _ _)
  rw [el, er]

end Cert.ReferenceIdeal.RefRun

end
-- ==== Proof.RefRunAt2.lean ====
import proofs.«100384_j8693013807615_2_alg».proof.Proof.RefRunAt

noncomputable section

namespace Cert.ReferenceIdeal.RefRun

open Cert.ReferenceIdeal Cert.ReferenceIdeal.Gen Idealize.ShloMosaic Idealize.ShloMosaic.ValueIdx Idealize.SL.Sem
open scoped BigOperators

/-! ## The variance and the normalization read at an index, at the ideal values -/

/-- The variance's divisor is the real 50000: the number of nodes less the integer `0` read as a float. -/
theorem varDivisor_apply (i : S_.Idx) : varDivisor (F := Ideal) i = ((50000 : ℝ) : EReal) := by
  unfold varDivisor
  rw [subf_apply, nodesF_apply, sitofp_apply]
  show ((50000 : ℝ) : EReal) - (((0#32 : BitVec 32).toInt : ℝ) : EReal) = _
  simp

/-- The centered value at (p, q): the value less its column's mean. -/
theorem centered_apply (x : Ten Ideal S50000x64 .f32) (p : Fin 50000) (q : Fin 64) :
    centered x (ix2 p q) = x (ix2 p q) - colMean x (ix1 q) := by
  unfold centered
  rw [subf_apply, rowDown_apply, colMean_apply]
  show x (ix2 p q) - Ideal.div (broadcastInDim S1x64 ![1] bcast_S64_S1x64_1 (colSum x) (ix2 (0 : Fin 1) q))
      (broadcastInDim S1x64 ![] bcast_S_S1x64 (nodesF (F := Ideal)) (ix2 (0 : Fin 1) q)) = _
  rw [vecAsRow_apply, colSum_apply, Cert.Lib.BroadcastInDim.scalar_apply, nodesF_apply]

/-- The variance of column q: the mean square of the centered values (the divisor 50000 is positive, so the
    selection takes the quotient). -/
theorem colVar_apply (x : Ten Ideal S50000x64 .f32) (q : Fin 64) :
    colVar x (ix1 q)
      = Ideal.div (∑ p : Fin 50000, (x (ix2 p q) - colMean x (ix1 q)) * (x (ix2 p q) - colMean x (ix1 q)))
          ((50000 : ℝ) : EReal) := by
  have hpos : (0 : EReal) < ((50000 : ℝ) : EReal) := by exact_mod_cast (by norm_num : (0 : ℝ) < 50000)
  have hc : FloatOps.cmpf (F := Ideal) (φ := .f32) .ogt ((50000 : ℝ) : EReal) 0 = 1#1 := by
    show BitVec.ofBool (decide ((0 : EReal) < ((50000 : ℝ) : EReal))) = 1#1
    rw [decide_eq_true hpos]; rfl
  unfold colVar
  rw [select_apply, Cert.Lib.BroadcastInDim.scalar_apply, cmpf_apply, varDivisor_apply, zeroF_apply, hc, select_one]
  show Ideal.div (colSum (mulf (centered x) (centered x)) (ix1 q))
      (broadcastInDim S64 ![] bcast_S_S64 (varDivisor (F := Ideal)) (ix1 q)) = _
  rw [colSum_apply, Cert.Lib.BroadcastInDim.scalar_apply, varDivisor_apply]
  have hs : (∑ p : Fin 50000, mulf (centered x) (centered x) (ix2 p q))
      = ∑ p : Fin 50000, (x (ix2 p q) - colMean x (ix1 q)) * (x (ix2 p q) - colMean x (ix1 q)) :=
    Finset.sum_congr rfl fun p _ => by rw [mulf_apply, centered_apply]
  rw [hs]

/-- The normalization at (p, q). -/
theorem normalize_apply (z : Ten Ideal S50000x64 .f32) (mu var g be : Ten Ideal S64 .f32) (p : Fin 50000) (q : Fin 64) :
    normalize z mu var g be (ix2 p q)
      = (z (ix2 p q) - mu (ix1 q)) * Ideal.rsqrt (var (ix1 q) + Ideal.ofBits .f32 0x3727C5AC#32) * g (ix1 q)
          + be (ix1 q) := by
  unfold normalize
  rw [addf_apply, mulf_apply, mulf_apply, subf_apply, rows_apply, rows_apply, rows_apply, rows_apply]
  rfl

end Cert.ReferenceIdeal.RefRun

end
-- ==== Proof.SpecAt.lean ====
/-
  The small shared pieces read at an index on the extended reals: a vector laid out as a one-row matrix and back, the
  division of a column total by the number of rows, the variance from the two column totals.
-/
import proofs.«100384_j8693013807615_2_alg».proof.Proof.Spec
import proofs.«100384_j8693013807615_2_alg».proof.Proof.LibBroadcastInDim
import Idealize.ShloMosaic.Lib.ValueIdx
import Idealize.ShloMosaic.Lib.ValueLayout
import Idealize.ShloMosaic.PureOps.Ideal.Laws

noncomputable section

namespace Cert.Spec

open Cert.KernelIdeal Cert.KernelIdeal.Facts₀ Idealize.ShloMosaic Idealize.ShloMosaic.ValueIdx

theorem rowOf_apply (x : (⟨S64, .f32⟩ : BufTy).Contents (Elt Ideal)) (u : Fin 1) (q : Fin 64) :
    rowOf (F := Ideal) x (ix2 u q) = x (ix1 q) :=
  shapeCast_a_1a_apply (a := 64) x shapeCasts_S64_S1x64 u q

theorem vecOf_apply (x : (⟨S1x64, .f32⟩ : BufTy).Contents (Elt Ideal)) (q : Fin 64) :
    vecOf (F := Ideal) x (ix1 q) = x (ix2 (0 : Fin 1) q) :=
  shapeCast_1a_a_apply (a := 64) x shapeCasts_S1x64_S64 q

theorem perRow_apply (s : (⟨S64, .f32⟩ : BufTy).Contents (Elt Ideal)) (q : Fin 64) :
    perRow (F := Ideal) s (ix1 q) = Ideal.div (s (ix1 q)) (Ideal.ofBits .f32 0x47435000#32) := by
  unfold perRow
  show Ideal.div (s (ix1 q)) (broadcastInDim S64 ![] bcast_S_S64 (constant (F := Ideal) S_ .f32 0x47435000#32) (ix1 q)) = _
  rw [Cert.Lib.BroadcastInDim.scalar_apply]
  rfl

theorem varOfSums_apply (s ss : (⟨S64, .f32⟩ : BufTy).Contents (Elt Ideal)) (q : Fin 64) :
    varOfSums (F := Ideal) s ss (ix1 q)
      = Ideal.div (ss (ix1 q)) (Ideal.ofBits .f32 0x47435000#32)
        - Ideal.div (s (ix1 q)) (Ideal.ofBits .f32 0x47435000#32) * Ideal.div (s (ix1 q)) (Ideal.ofBits .f32 0x47435000#32) := by
  unfold varOfSums
  show perRow ss (ix1 q) - perRow s (ix1 q) * perRow s (ix1 q) = _
  rw [perRow_apply, perRow_apply]

end Cert.Spec

end
-- ==== Proof.LibERealBridge.lean ====
/-
  The float operations of the extended-real ("ideal") instance, at real arguments, are the real operations.

  An extended real is -∞, +∞ or a real. The instance's exp, tanh and quotient are defined by cases on that, and the sums,
  products and maxima are those of the extended reals; at reals every one of them is the real operation, carried into the
  extended reals by the inclusion. These are the lemmas that move a formula whose inputs are all real from the extended reals
  down to the reals, one operation at a time: the exponential, the hyperbolic tangent, a quotient with a nonzero denominator,
  a finite sum, a finite sum of products, a maximum (of two, and of a nonempty finite family folded from -∞), an absolute
  value written as a maximum with the negation, and the remark that an extended real that is neither infinity is a real.
-/
import Idealize.ShloMosaic.PureOps.Ideal

namespace LibERealBridge

open Idealize.ShloMosaic
open scoped BigOperators

/-- The instance's exponential at a real is the real exponential. -/
theorem exp_coe (r : ℝ) : Ideal.exp (r : EReal) = ((Real.exp r : ℝ) : EReal) := Ideal.exp_coe r

/-- The instance's hyperbolic tangent at a real is the real hyperbolic tangent. -/
theorem tanh_coe (r : ℝ) : Ideal.tanh (r : EReal) = ((Real.tanh r : ℝ) : EReal) := Ideal.tanh_coe r

/-- The instance's quotient of two reals, the second not zero, is the real quotient. -/
theorem div_coe_coe (x y : ℝ) (hy : y ≠ 0) : Ideal.div (x : EReal) (y : EReal) = ((x / y : ℝ) : EReal) := by
  rw [Ideal.div_coe hy, ← EReal.coe_mul, mul_one_div]

/-- The inclusion of the reals carries a finite sum to the sum of the inclusions. -/
theorem coe_finset_sum {ι : Type*} (t : Finset ι) (f : ι → ℝ) :
    ((∑ i ∈ t, f i : ℝ) : EReal) = ∑ i ∈ t, (f i : EReal) := by
  classical
  induction t using Finset.induction_on with
  | empty => simp
  | insert a s ha ih => rw [Finset.sum_insert ha, Finset.sum_insert ha, EReal.coe_add, ih]

/-- A finite sum of products of reals, taken in the extended reals, is the real sum of the real products. -/
theorem sum_mul_coe {ι : Type*} (t : Finset ι) (f g : ι → ℝ) :
    (∑ i ∈ t, ((f i : ℝ) : EReal) * ((g i : ℝ) : EReal)) = ((∑ i ∈ t, f i * g i : ℝ) : EReal) := by
  rw [coe_finset_sum]
  exact Finset.sum_congr rfl fun i _ => (EReal.coe_mul (f i) (g i)).symm

/-- A finite sum of products of reals, taken in the extended reals, is a real. -/
theorem sum_exists_real {ι : Type*} (t : Finset ι) (f g : ι → ℝ) :
    ∃ r : ℝ, (∑ i ∈ t, ((f i : ℝ) : EReal) * ((g i : ℝ) : EReal)) = (r : EReal) :=
  ⟨∑ i ∈ t, f i * g i, sum_mul_coe t f g⟩

/-- The maximum of two reals, taken in the extended reals, is the real maximum. -/
theorem max_coe (x y : ℝ) : max (x : EReal) (y : EReal) = ((max x y : ℝ) : EReal) := by
  rcases le_total x y with h | h
  · rw [max_eq_right h, max_eq_right (EReal.coe_le_coe_iff.mpr h)]
  · rw [max_eq_left h, max_eq_left (EReal.coe_le_coe_iff.mpr h)]

/-- The maximum of a real and its negation, taken in the extended reals, is the real absolute value. -/
theorem abs_coe (x : ℝ) : max (x : EReal) (-(x : EReal)) = ((|x| : ℝ) : EReal) := by
  rw [← EReal.coe_neg, max_coe, abs_eq_max_neg]

/-- The maximum of a nonempty finite family of reals, folded in the extended reals from -∞, is the real maximum of the
    family. -/
theorem fold_max_coe {n : ℕ} (f : Fin (n + 1) → ℝ) :
    Finset.univ.fold max (⊥ : EReal) (fun i => (f i : EReal))
      = ((Finset.univ.sup' Finset.univ_nonempty f : ℝ) : EReal) := by
  apply le_antisymm
  · rw [Finset.fold_max_le]
    exact ⟨bot_le, fun i hi => EReal.coe_le_coe_iff.mpr (Finset.le_sup' f hi)⟩
  · obtain ⟨i, hi, h⟩ := Finset.exists_mem_eq_sup' Finset.univ_nonempty f
    rw [h, Finset.le_fold_max]
    exact Or.inr ⟨i, hi, le_rfl⟩

/-- An extended real that is neither infinity is a real. -/
theorem exists_real_of_ne (x : EReal) (h1 : x ≠ ⊤) (h2 : x ≠ ⊥) : ∃ r : ℝ, x = (r : EReal) :=
  ⟨x.toReal, (EReal.coe_toReal h1 h2).symm⟩

end LibERealBridge
-- ==== Proof.LibVariance.lean ====
/-
  The two ways of writing a variance agree on real data.

  For numbers u₁ … u_N with mean μ = (Σ uₙ)/N, the mean of the squared deviations (Σ (uₙ − μ)²)/N equals the mean of
  the squares minus the squared mean, (Σ uₙ²)/N − μ²: expanding the square gives Σ uₙ² − 2μ Σ uₙ + N μ², and
  Σ uₙ = N μ. In the extended reals the expansion needs every uₙ to be a real (∞ − ∞ has no meaning there), so the
  statement assumes that, moves each operation down to the reals, and proves the identity there.
-/
import proofs.«100384_j8693013807615_2_alg».proof.Proof.LibERealBridge
import Mathlib.Tactic.FieldSimp
import Mathlib.Tactic.Ring

open scoped BigOperators

namespace Cert.Alg

open Idealize.ShloMosaic LibERealBridge

/-- On the reals: with c the number of terms, the mean of the squared deviations from the mean is the mean of the
    squares minus the squared mean. -/
theorem real_variance {ι : Type*} [Fintype ι] (v : ι → ℝ) (c : ℝ) (hc : c = (Fintype.card ι : ℝ)) (hc0 : c ≠ 0) :
    (∑ n, (v n - (∑ i, v i) / c) * (v n - (∑ i, v i) / c)) / c
      = (∑ n, v n * v n) / c - ((∑ i, v i) / c) * ((∑ i, v i) / c) := by
  have h1 : ∀ m : ℝ, ∑ n, (v n - m) * (v n - m) = (∑ n, v n * v n) - 2 * m * (∑ n, v n) + c * (m * m) := by
    intro m
    have h : ∀ n, (v n - m) * (v n - m) = v n * v n - 2 * m * v n + m * m := fun n => by ring
    rw [Finset.sum_congr rfl fun n _ => h n, Finset.sum_add_distrib, Finset.sum_sub_distrib, ← Finset.mul_sum,
      Finset.sum_const, Finset.card_univ, nsmul_eq_mul, hc]
  rw [h1]
  field_simp
  ring

/-- On the extended reals, for a family of reals uₙ indexed by a finite type with c elements (c ≠ 0), and with the
    quotient of the float instance: the mean of (uₙ − μ)², μ the mean, is the mean of uₙ² minus μ². -/
theorem variance_identity {ι : Type*} [Fintype ι] (u : ι → EReal) (hu : ∀ n, ∃ r : ℝ, u n = (r : EReal))
    (c : ℝ) (hc : c = (Fintype.card ι : ℝ)) (hc0 : c ≠ 0) :
    Ideal.div (∑ n, (u n - Ideal.div (∑ i, u i) (c : EReal)) * (u n - Ideal.div (∑ i, u i) (c : EReal))) (c : EReal)
      = Ideal.div (∑ n, u n * u n) (c : EReal)
          - Ideal.div (∑ i, u i) (c : EReal) * Ideal.div (∑ i, u i) (c : EReal) := by
  choose v hv using hu
  obtain rfl : u = fun n => (v n : EReal) := funext hv
  have hS : (∑ i, ((v i : ℝ) : EReal)) = ((∑ i, v i : ℝ) : EReal) := (coe_finset_sum _ _).symm
  have hQ : (∑ n, ((v n : ℝ) : EReal) * ((v n : ℝ) : EReal)) = ((∑ n, v n * v n : ℝ) : EReal) := sum_mul_coe _ _ _
  have hD : ∀ m : ℝ, (∑ n, (((v n : ℝ) : EReal) - (m : EReal)) * (((v n : ℝ) : EReal) - (m : EReal)))
      = ((∑ n, (v n - m) * (v n - m) : ℝ) : EReal) := by
    intro m
    rw [coe_finset_sum]
    exact Finset.sum_congr rfl fun n _ => by rw [← EReal.coe_sub, ← EReal.coe_mul]
  rw [hS, hQ, div_coe_coe _ _ hc0, hD, div_coe_coe _ _ hc0, div_coe_coe _ _ hc0, ← EReal.coe_mul, ← EReal.coe_sub,
    real_variance v c hc hc0]

end Cert.Alg
-- ==== Proof.LibIsReal.lean ====
/-
  Extended reals that are real numbers, and the operations that keep them so.

  An extended real is -∞, +∞ or a real. A float computation whose inputs are all real and whose operations are sums,
  differences, products, maxima, finite sums, the logistic function, a quotient by a nonzero real, or the reciprocal
  square root of a positive real, has a real result: at reals each of these is the real operation. The predicate
  below names "is a real", and the lemmas are its closure under those operations; they are what lets a formula be
  moved from the extended reals, where distributivity and cancellation fail at the infinities, down to the reals.
-/
import proofs.«100384_j8693013807615_2_alg».proof.Proof.LibERealBridge

open scoped BigOperators

namespace Cert.Alg

open Idealize.ShloMosaic LibERealBridge

/-- The extended real x is (the inclusion of) a real number. -/
def IsReal (x : EReal) : Prop := ∃ r : ℝ, x = (r : EReal)

namespace IsReal

/-- The inclusion of a real is a real. -/
theorem coe (r : ℝ) : IsReal (r : EReal) := ⟨r, rfl⟩

/-- Zero is a real. -/
theorem zero : IsReal 0 := ⟨0, rfl⟩

/-- One is a real. -/
theorem one : IsReal 1 := ⟨1, rfl⟩

/-- Anything equal to a real is a real. -/
theorem of_eq {x : EReal} {r : ℝ} (h : x = (r : EReal)) : IsReal x := ⟨r, h⟩

/-- A real is not +∞. -/
theorem ne_top {x : EReal} (hx : IsReal x) : x ≠ ⊤ := by
  obtain ⟨a, rfl⟩ := hx; exact EReal.coe_ne_top a

/-- A real is not -∞. -/
theorem ne_bot {x : EReal} (hx : IsReal x) : x ≠ ⊥ := by
  obtain ⟨a, rfl⟩ := hx; exact EReal.coe_ne_bot a

/-- An extended real that is neither infinity is a real. -/
theorem of_ne {x : EReal} (h1 : x ≠ ⊤) (h2 : x ≠ ⊥) : IsReal x := exists_real_of_ne x h1 h2

/-- A real is the inclusion of its real part. -/
theorem coe_toReal {x : EReal} (hx : IsReal x) : ((x.toReal : ℝ) : EReal) = x :=
  EReal.coe_toReal hx.ne_top hx.ne_bot

/-- The sum of two reals is a real. -/
theorem add {x y : EReal} (hx : IsReal x) (hy : IsReal y) : IsReal (x + y) := by
  obtain ⟨a, rfl⟩ := hx; obtain ⟨b, rfl⟩ := hy; exact ⟨a + b, (EReal.coe_add a b).symm⟩

/-- The negation of a real is a real. -/
theorem neg {x : EReal} (hx : IsReal x) : IsReal (-x) := by
  obtain ⟨a, rfl⟩ := hx; exact ⟨-a, (EReal.coe_neg a).symm⟩

/-- The difference of two reals is a real. -/
theorem sub {x y : EReal} (hx : IsReal x) (hy : IsReal y) : IsReal (x - y) := by
  obtain ⟨a, rfl⟩ := hx; obtain ⟨b, rfl⟩ := hy; exact ⟨a - b, (EReal.coe_sub a b).symm⟩

/-- The product of two reals is a real. -/
theorem mul {x y : EReal} (hx : IsReal x) (hy : IsReal y) : IsReal (x * y) := by
  obtain ⟨a, rfl⟩ := hx; obtain ⟨b, rfl⟩ := hy; exact ⟨a * b, (EReal.coe_mul a b).symm⟩

/-- The maximum of two reals is a real. -/
theorem max {x y : EReal} (hx : IsReal x) (hy : IsReal y) : IsReal (max x y) := by
  obtain ⟨a, rfl⟩ := hx; obtain ⟨b, rfl⟩ := hy; exact ⟨_, max_coe a b⟩

/-- A finite sum of reals is a real. -/
theorem sum {ι : Type*} (t : Finset ι) (f : ι → EReal) (h : ∀ i ∈ t, IsReal (f i)) : IsReal (∑ i ∈ t, f i) := by
  classical
  induction t using Finset.induction_on with
  | empty => rw [Finset.sum_empty]; exact zero
  | insert a s ha ih =>
    rw [Finset.sum_insert ha]
    exact add (h a (Finset.mem_insert_self a s)) (ih fun i hi => h i (Finset.mem_insert_of_mem hi))

/-- A sum of reals over a finite type is a real. -/
theorem sum_univ {ι : Type*} [Fintype ι] (f : ι → EReal) (h : ∀ i, IsReal (f i)) : IsReal (∑ i, f i) :=
  sum Finset.univ f fun i _ => h i

/-- The logistic function 1 / (1 + e^(-x)) of a real is a real. -/
theorem logistic {x : EReal} (hx : IsReal x) : IsReal (Ideal.logistic x) := by
  obtain ⟨a, rfl⟩ := hx; exact ⟨_, Ideal.logistic_coe a⟩

/-- The exponential of a real is a real. -/
theorem exp {x : EReal} (hx : IsReal x) : IsReal (Ideal.exp x) := by
  obtain ⟨a, rfl⟩ := hx; exact ⟨_, Ideal.exp_coe a⟩

/-- The quotient of a real by a nonzero real is a real. -/
theorem div_coe {x : EReal} (hx : IsReal x) {c : ℝ} (hc : c ≠ 0) : IsReal (Ideal.div x (c : EReal)) := by
  obtain ⟨a, rfl⟩ := hx; exact ⟨a / c, div_coe_coe a c hc⟩

/-- The quotient of a real by a real that is not zero is a real. -/
theorem div {x y : EReal} (hx : IsReal x) (hy : IsReal y) (hy0 : y ≠ 0) : IsReal (Ideal.div x y) := by
  obtain ⟨b, rfl⟩ := hy
  exact div_coe hx (fun hb => hy0 (by rw [hb]; rfl))

/-- The reciprocal square root of a positive real is a real. -/
theorem rsqrt_pos {x : EReal} (hx : IsReal x) (h0 : 0 < x) : IsReal (Ideal.rsqrt x) := by
  obtain ⟨a, rfl⟩ := hx
  have ha : 0 < a := by exact_mod_cast h0
  refine ⟨(Real.sqrt a)⁻¹, ?_⟩
  rw [Ideal.rsqrt_coe, if_neg (not_lt.mpr ha.le), if_neg ha.ne']

/-- The sum of two reals, the first nonnegative and the second positive, is positive. -/
theorem add_pos_of_nonneg_of_pos {x y : EReal} (hx : 0 ≤ x) (hy : 0 < y) : 0 < x + y := by
  calc (0 : EReal) < y := hy
    _ = 0 + y := (zero_add y).symm
    _ ≤ x + y := add_le_add hx le_rfl

end IsReal

end Cert.Alg
-- ==== Proof.LibBatchNormLaw.lean ====
/-
  The two spellings of a batch normalisation agree on real data.

  For a column u of N real numbers, with mean μ = (Σ u)/N, a positive ε, a gain g and an offset b:

    one program forms  s = g · (E[u²] − μ² + ε)^(-1/2)  and returns  u·s + (b − μ·s);
    the other forms the variance as E[(u − μ)²] and returns  ((u − μ) · (Var + ε)^(-1/2)) · g + b.

  The two variances agree (the expansion of the square, valid because every entry is a real: the library's
  variance identity), the variance is a nonnegative real, so Var + ε is a positive real and its reciprocal square root a
  real; and then the two affine forms are the same polynomial in reals. On the extended reals none of these steps
  is available at an infinite entry, which is why the statement assumes real data.
-/
import proofs.«100384_j8693013807615_2_alg».proof.Proof.LibVariance
import proofs.«100384_j8693013807615_2_alg».proof.Proof.LibIsReal
import Mathlib.Tactic.Ring

open scoped BigOperators

noncomputable section

namespace Cert.Lgnn.Alg

open Idealize.ShloMosaic Cert.Alg LibERealBridge

variable {ι : Type*} [Fintype ι]

/-- The column's mean with divisor d. -/
def mean (u : ι → EReal) (d : EReal) : EReal := Ideal.div (∑ i, u i) d

/-- Scale-and-shift spelling: the variance as the mean of squares minus the squared mean. -/
def normScaleShift (u : ι → EReal) (d eps g b : EReal) (n : ι) : EReal :=
  u n * (g * Ideal.rsqrt ((Ideal.div (∑ i, u i * u i) d - mean u d * mean u d) + eps))
    + (b - mean u d * (g * Ideal.rsqrt ((Ideal.div (∑ i, u i * u i) d - mean u d * mean u d) + eps)))

/-- Centre-then-scale spelling: the variance as the mean of the squared deviations. -/
def normCentred (u : ι → EReal) (d eps g b : EReal) (n : ι) : EReal :=
  ((u n - mean u d) * Ideal.rsqrt (Ideal.div (∑ i, (u i - mean u d) * (u i - mean u d)) d + eps)) * g + b

/-- The mean of the squared deviations of real data, with a positive real divisor, is a nonnegative real. -/
theorem var_real_nonneg (u : ι → EReal) (hu : ∀ n, IsReal (u n)) (c : ℝ) (hc0 : 0 < c) :
    IsReal (Ideal.div (∑ n, (u n - mean u c) * (u n - mean u c)) (c : EReal))
      ∧ 0 ≤ Ideal.div (∑ n, (u n - mean u c) * (u n - mean u c)) (c : EReal) := by
  have hu' : ∀ n, ∃ r : ℝ, u n = (r : EReal) := hu
  choose v hv using hu'
  obtain rfl : u = fun n => (v n : EReal) := funext hv
  unfold mean
  have hS : (∑ i, ((v i : ℝ) : EReal)) = ((∑ i, v i : ℝ) : EReal) := (coe_finset_sum _ _).symm
  rw [hS, div_coe_coe _ _ hc0.ne']
  have hD : (∑ n, (((v n : ℝ) : EReal) - (((∑ i, v i) / c : ℝ) : EReal)) * (((v n : ℝ) : EReal) - (((∑ i, v i) / c : ℝ) : EReal)))
      = ((∑ n, (v n - (∑ i, v i) / c) * (v n - (∑ i, v i) / c) : ℝ) : EReal) := by
    rw [coe_finset_sum]
    exact Finset.sum_congr rfl fun n _ => by rw [← EReal.coe_sub, ← EReal.coe_mul]
  rw [hD, div_coe_coe _ _ hc0.ne']
  exact ⟨⟨_, rfl⟩, EReal.coe_nonneg.mpr (div_nonneg (Finset.sum_nonneg fun n _ => mul_self_nonneg _) hc0.le)⟩

/-- On real data, with the divisor the number of entries, a positive real ε and real gain and offset, the two
    spellings return the same number at every entry. -/
theorem norm_agree (u : ι → EReal) (hu : ∀ n, IsReal (u n)) (c : ℝ) (hc : c = (Fintype.card ι : ℝ)) (hc0 : 0 < c)
    (eps g b : EReal) (heps : IsReal eps) (heps0 : 0 < eps) (hg : IsReal g) (hb : IsReal b) (n : ι) :
    normScaleShift u (c : EReal) eps g b n = normCentred u (c : EReal) eps g b n := by
  have hvar := variance_identity u hu c hc hc0.ne'
  obtain ⟨hvr, hv0⟩ := var_real_nonneg u hu c hc0
  unfold normScaleShift normCentred
  unfold mean at hvr hv0 ⊢
  rw [← hvar]
  have hrs : IsReal (Ideal.rsqrt (Ideal.div (∑ n, (u n - Ideal.div (∑ i, u i) (c : EReal)) * (u n - Ideal.div (∑ i, u i) (c : EReal))) (c : EReal) + eps)) :=
    IsReal.rsqrt_pos (hvr.add heps) (IsReal.add_pos_of_nonneg_of_pos hv0 heps0)
  have hμ : IsReal (Ideal.div (∑ i, u i) (c : EReal)) := IsReal.div_coe (IsReal.sum_univ u hu) hc0.ne'
  obtain ⟨r, hr⟩ := hrs
  obtain ⟨a, ha⟩ := hu n
  obtain ⟨μ, hm⟩ := hμ
  obtain ⟨γ, hγ⟩ := hg
  obtain ⟨β, hβ⟩ := hb
  rw [hr, ha, hm, hγ, hβ]
  simp only [← EReal.coe_mul, ← EReal.coe_sub, ← EReal.coe_add]
  exact congrArg (fun t : ℝ => (t : EReal)) (by ring)

end Cert.Lgnn.Alg

end
-- ==== Proof.LayerBridge.lean ====
import proofs.«100384_j8693013807615_2_alg».proof.Proof.RefRunOut
import proofs.«100384_j8693013807615_2_alg».proof.Proof.RefRunAt
import proofs.«100384_j8693013807615_2_alg».proof.Proof.RefRunAt2
import proofs.«100384_j8693013807615_2_alg».proof.Proof.SpecAt
import proofs.«100384_j8693013807615_2_alg».proof.Proof.ValueSpec
import proofs.«100384_j8693013807615_2_alg».proof.Proof.RegionStatsIdealLib
import proofs.«100384_j8693013807615_2_alg».proof.Proof.LibVariance
import proofs.«100384_j8693013807615_2_alg».proof.Proof.LibBatchNormLaw
import proofs.«100384_j8693013807615_2_alg».proof.Proof.LibIsReal

noncomputable section

namespace Cert.ReferenceIdeal.RefRun

open Cert.ReferenceIdeal Cert.ReferenceIdeal.Gen Idealize.ShloMosaic Idealize.ShloMosaic.ValueIdx Idealize.SL.Sem
open Cert.Alg
open scoped BigOperators

/-! ## The layer's two spellings agree, at the ideal values

One program normalizes the rectified values by the variance written as the mean of the squared deviations from the
mean; the other by the mean of the squares minus the squared mean, both from the column's totals over the 50000 nodes.
On real data the two are the same number. -/

/-- The first layer's product is the sum over the 128 features, entry by entry. -/
theorem dense1_eq (x : Ten Ideal S50000x128 .f32) (w : Ten Ideal S128x64 .f32) :
    dense1 x w = Cert.KernelIdeal.Hand.mmOut x w := by
  funext i
  obtain ⟨p, n, rfl⟩ : ∃ (p : Fin 50000) (n : Fin 64), i = ix2 p n := ⟨i 0, i 1, eq_ix2 i⟩
  rw [dense1_apply]
  rfl

/-- A later layer's product is the sum over the 64 features, entry by entry. -/
theorem dense2_eq (x : Ten Ideal S50000x64 .f32) (w : Ten Ideal S64x64 .f32) :
    dense2 x w = Cert.KernelIdeal.Hand.mmOut64 x w := by
  funext i
  obtain ⟨p, n, rfl⟩ : ∃ (p : Fin 50000) (n : Fin 64), i = ix2 p n := ⟨i 0, i 1, eq_ix2 i⟩
  rw [dense2_apply]
  rfl

/-- The rectified values: the bias as a row added to every row, clamped below at zero. -/
theorem reluOut_eq (a : Ten Ideal S50000x64 .f32) (b : Ten Ideal S64 .f32) :
    Cert.KernelIdeal.Hand.reluOut a (Cert.Spec.rowOf (F := Ideal) b) = biasRelu a b := by
  funext i
  obtain ⟨p, q, rfl⟩ : ∃ (p : Fin 50000) (q : Fin 64), i = ix2 p q := ⟨i 0, i 1, eq_ix2 i⟩
  rw [biasRelu_apply]
  show max (a (ix2 p q) + Cert.Spec.rowOf (F := Ideal) b (ix2 (0 : Fin 1) q)) 0 = _
  rw [Cert.Spec.rowOf_apply]

/-- A column's total, as the row of totals read at that column. -/
theorem colSums_apply (g : Ten Ideal S50000x64 .f32) (q : Fin 64) :
    Cert.KernelIdeal.Hand.colSums g (ix2 (0 : Fin 1) q) = ∑ p : Fin 50000, g (ix2 p q) := rfl

/-- The rectified values are real when the aggregate and the bias are. -/
theorem biasRelu_real (a : Ten Ideal S50000x64 .f32) (b : Ten Ideal S64 .f32) (ha : ∀ i, IsReal (a i))
    (hb : ∀ i, IsReal (b i)) (i : S50000x64.Idx) : IsReal (biasRelu a b i) := by
  obtain ⟨p, q, rfl⟩ : ∃ (p : Fin 50000) (q : Fin 64), i = ix2 p q := ⟨i 0, i 1, eq_ix2 i⟩
  rw [biasRelu_apply]
  exact IsReal.max (IsReal.add (ha _) (hb _)) IsReal.zero

/-- The two spellings of the normalization agree on real values `Z`: with the mean and the variance read from the
    two column totals (the mean of the squares less the squared mean), or with the variance the mean of the squared
    deviations. -/
theorem norm_forms_eq (Z : Ten Ideal S50000x64 .f32) (hZ : ∀ i, IsReal (Z i)) (g be : Ten Ideal S64 .f32) :
    Cert.KernelIdeal.Hand.bnOut Z
        (Cert.Spec.rowOf (F := Ideal) (Cert.Spec.perRow (F := Ideal) (Cert.Spec.vecOf (F := Ideal) (Cert.KernelIdeal.Hand.colSums Z))))
        (Cert.Spec.rowOf (F := Ideal) (Cert.Spec.varOfSums (F := Ideal) (Cert.Spec.vecOf (F := Ideal) (Cert.KernelIdeal.Hand.colSums Z))
          (Cert.Spec.vecOf (F := Ideal) (Cert.KernelIdeal.Hand.colSums (fun i => Z i * Z i)))))
        (Cert.Spec.rowOf (F := Ideal) g) (Cert.Spec.rowOf (F := Ideal) be)
      = normalize Z (Cert.Spec.perRow (F := Ideal) (colSum Z)) (colVar Z) g be := by
  funext i
  obtain ⟨p, q, rfl⟩ : ∃ (p : Fin 50000) (q : Fin 64), i = ix2 p q := ⟨i 0, i 1, eq_ix2 i⟩
  have hmean : Cert.Spec.perRow (F := Ideal) (Cert.Spec.vecOf (F := Ideal) (Cert.KernelIdeal.Hand.colSums Z)) (ix1 q)
      = Ideal.div (∑ p : Fin 50000, Z (ix2 p q)) ((50000 : ℝ) : EReal) := by
    rw [Cert.Spec.perRow_apply, Cert.Spec.vecOf_apply, colSums_apply, ofBits_nodes]
  have hmean' : Cert.Spec.perRow (F := Ideal) (colSum Z) (ix1 q)
      = Ideal.div (∑ p : Fin 50000, Z (ix2 p q)) ((50000 : ℝ) : EReal) := by
    rw [Cert.Spec.perRow_apply, colSum_apply, ofBits_nodes]
  have hvar : Cert.Spec.varOfSums (F := Ideal) (Cert.Spec.vecOf (F := Ideal) (Cert.KernelIdeal.Hand.colSums Z))
        (Cert.Spec.vecOf (F := Ideal) (Cert.KernelIdeal.Hand.colSums (fun i => Z i * Z i))) (ix1 q)
      = Ideal.div (∑ p : Fin 50000, Z (ix2 p q) * Z (ix2 p q)) ((50000 : ℝ) : EReal)
        - Ideal.div (∑ p : Fin 50000, Z (ix2 p q)) ((50000 : ℝ) : EReal)
          * Ideal.div (∑ p : Fin 50000, Z (ix2 p q)) ((50000 : ℝ) : EReal) := by
    rw [Cert.Spec.varOfSums_apply, Cert.Spec.vecOf_apply, Cert.Spec.vecOf_apply, colSums_apply, colSums_apply, ofBits_nodes]
  have hvar' : colVar Z (ix1 q)
      = Ideal.div (∑ p : Fin 50000, Z (ix2 p q) * Z (ix2 p q)) ((50000 : ℝ) : EReal)
        - Ideal.div (∑ p : Fin 50000, Z (ix2 p q)) ((50000 : ℝ) : EReal)
          * Ideal.div (∑ p : Fin 50000, Z (ix2 p q)) ((50000 : ℝ) : EReal) := by
    rw [colVar_apply, colMean_apply]
    exact Cert.Alg.variance_identity (fun p : Fin 50000 => Z (ix2 p q)) (fun p => hZ _) 50000
      (by rw [Fintype.card_fin]; norm_num) (by norm_num)
  rw [Cert.KernelIdeal.Hand.bnOut_apply, normalize_apply, Cert.Spec.rowOf_apply, Cert.Spec.rowOf_apply,
    Cert.Spec.rowOf_apply, Cert.Spec.rowOf_apply, hmean, hmean', hvar, hvar']

/-- The layer law: from a real aggregate `a` and a real bias `b`, the normalization of the rectified values in the
    spelling with the two column totals is the reference's layer output from that aggregate. -/
theorem layer_law (a : Ten Ideal S50000x64 .f32) (b g be : Ten Ideal S64 .f32) (ha : ∀ i, IsReal (a i))
    (hb : ∀ i, IsReal (b i)) :
    Cert.KernelIdeal.Hand.bnOut (Cert.KernelIdeal.Hand.reluOut a (Cert.Spec.rowOf (F := Ideal) b))
        (Cert.Spec.rowOf (F := Ideal) (Cert.Spec.perRow (F := Ideal) (Cert.Spec.vecOf (F := Ideal)
          (Cert.KernelIdeal.Hand.colSums (Cert.KernelIdeal.Hand.reluOut a (Cert.Spec.rowOf (F := Ideal) b))))))
        (Cert.Spec.rowOf (F := Ideal) (Cert.Spec.varOfSums (F := Ideal)
          (Cert.Spec.vecOf (F := Ideal) (Cert.KernelIdeal.Hand.colSums (Cert.KernelIdeal.Hand.reluOut a (Cert.Spec.rowOf (F := Ideal) b))))
          (Cert.Spec.vecOf (F := Ideal) (Cert.KernelIdeal.Hand.colSums (fun i =>
            Cert.KernelIdeal.Hand.reluOut a (Cert.Spec.rowOf (F := Ideal) b) i * Cert.KernelIdeal.Hand.reluOut a (Cert.Spec.rowOf (F := Ideal) b) i)))))
        (Cert.Spec.rowOf (F := Ideal) g) (Cert.Spec.rowOf (F := Ideal) be)
      = normalize (biasRelu a b) (Cert.Spec.perRow (F := Ideal) (colSum (biasRelu a b))) (colVar (biasRelu a b)) g be := by
  rw [reluOut_eq]
  exact norm_forms_eq (biasRelu a b) (biasRelu_real a b ha hb) g be

end Cert.ReferenceIdeal.RefRun

end
-- ==== Proof.LayerLaw.lean ====
/-
  The normalisation of a column of real numbers, in its two spellings, and the realness of each layer's arrays.

  A column u of N = 50000 real numbers has mean μ = (Σ u)/N. Its variance can be written as the mean of the squares
  minus the squared mean, (Σ u²)/N − μ², or as the mean of the squared deviations, (Σ (u − μ)²)/N; on real data the two
  agree (expand the square). The variance is a nonnegative real, so adding a positive real ε gives a positive real,
  whose reciprocal square root is a real; hence the normalised entry (u − μ)·(Var + ε)^(-1/2)·g + b is a real whenever
  the gain g and offset b are. The float words that appear are evaluated once: the divisor word denotes 50000, the ε word
  denotes the positive dyadic 10995116 / 2^40, and the zero word denotes 0. A product of real matrices, and the maximum of
  a real with zero, are real entry by entry; together these say every array a layer forms from real inputs is real.
-/
import proofs.«100384_j8693013807615_2_alg».proof.Proof.LibIsReal
import proofs.«100384_j8693013807615_2_alg».proof.Proof.LibVariance
import proofs.«100384_j8693013807615_2_alg».proof.Proof.LibBatchNormLaw
import proofs.«100384_j8693013807615_2_alg».proof.Proof.ValueSpec
import proofs.«100384_j8693013807615_2_alg».proof.Proof.RegionStatsIdealLib
import Idealize.ShloMosaic.PureOps.Ideal.Laws

set_option maxRecDepth 16384

noncomputable section

open scoped BigOperators

namespace Cert.KernelIdeal.Hand

open Idealize.ShloMosaic Idealize.ShloMosaic.ValueIdx Cert.Alg

/-- The divisor word. -/
local notation "CW" => Ideal.ofBits FTy.f32 0x47435000#32
/-- The ε word. -/
local notation "EPSW" => Ideal.ofBits FTy.f32 0x3727C5AC#32

/-! ## The float words -/

/-- The divisor word denotes the real 50000 = 2^15 · (1 + 4411392 / 2^23). -/
theorem c50000 : Ideal.ofBits .f32 0x47435000#32 = ((50000 : ℝ) : EReal) := by
  simp [Ideal.ofBits, Ideal.ieee, -EReal.coe_mul]; norm_num

/-- The ε word denotes the dyadic (2^23 + 2606508) · 2^(-40). -/
theorem eps_eq : Ideal.ofBits .f32 0x3727C5AC#32 = ((10995116 / 2 ^ 40 : ℝ) : EReal) := by
  simp [Ideal.ofBits, Ideal.ieee, -EReal.coe_mul]; norm_num

/-- The ε word denotes a real. -/
theorem eps_real : IsReal (Ideal.ofBits .f32 0x3727C5AC#32) := ⟨_, eps_eq⟩

/-- The ε word denotes a positive number. -/
theorem eps_pos : 0 < Ideal.ofBits .f32 0x3727C5AC#32 := by
  rw [eps_eq]; exact EReal.coe_pos.mpr (by norm_num)

/-- The zero word denotes 0. -/
theorem zero_word : Ideal.ofBits .f32 0x00000000#32 = 0 := Ideal.ofBits_zero_f32

/-! ## One column -/

/-- On a column of 50000 reals the normalised entry is the same whether the variance is formed as the mean of the
    squares minus the squared mean or as the mean of the squared deviations. -/
theorem norm_forms_agree (u : Fin 50000 → EReal) (hu : ∀ n, IsReal (u n)) (g b : EReal) (hg : IsReal g) (hb : IsReal b)
    (n : Fin 50000) :
    (u n - Ideal.div (∑ i, u i) CW)
        * Ideal.rsqrt ((Ideal.div (∑ i, u i * u i) CW - Ideal.div (∑ i, u i) CW * Ideal.div (∑ i, u i) CW) + EPSW) * g + b
      = (u n - Ideal.div (∑ i, u i) CW)
        * Ideal.rsqrt (Ideal.div (∑ i, (u i - Ideal.div (∑ j, u j) CW) * (u i - Ideal.div (∑ j, u j) CW)) CW + EPSW) * g + b := by
  rw [c50000, ← variance_identity u hu 50000 (by simp) (by norm_num)]

/-- On a column of 50000 reals, with real gain and offset, the normalised entry is a real. -/
theorem norm_real (u : Fin 50000 → EReal) (hu : ∀ n, IsReal (u n)) (g b : EReal) (hg : IsReal g) (hb : IsReal b)
    (n : Fin 50000) :
    IsReal ((u n - Ideal.div (∑ i, u i) CW)
        * Ideal.rsqrt (Ideal.div (∑ i, (u i - Ideal.div (∑ j, u j) CW) * (u i - Ideal.div (∑ j, u j) CW)) CW + EPSW) * g + b) := by
  rw [c50000]
  obtain ⟨hvr, hv0⟩ := Cert.Lgnn.Alg.var_real_nonneg u hu 50000 (by norm_num)
  unfold Cert.Lgnn.Alg.mean at hvr hv0
  have hμ : IsReal (Ideal.div (∑ i, u i) ((50000 : ℝ) : EReal)) := IsReal.div_coe (IsReal.sum_univ u hu) (by norm_num)
  exact ((((hu n).sub hμ).mul
    (IsReal.rsqrt_pos (hvr.add eps_real) (IsReal.add_pos_of_nonneg_of_pos hv0 eps_pos))).mul hg).add hb

/-- The same entry with the variance in its other spelling is a real too. -/
theorem norm_real' (u : Fin 50000 → EReal) (hu : ∀ n, IsReal (u n)) (g b : EReal) (hg : IsReal g) (hb : IsReal b)
    (n : Fin 50000) :
    IsReal ((u n - Ideal.div (∑ i, u i) CW)
        * Ideal.rsqrt ((Ideal.div (∑ i, u i * u i) CW - Ideal.div (∑ i, u i) CW * Ideal.div (∑ i, u i) CW) + EPSW) * g + b) := by
  rw [norm_forms_agree u hu g b hg hb n]; exact norm_real u hu g b hg hb n

/-! ## The arrays -/

/-- The product of a real [50000, 128] array by a real [128, 64] array is real entry by entry. -/
theorem mmOut_real (x : (⟨2, ![50000, 128]⟩ : Shape).Idx → EReal) (w : (⟨2, ![128, 64]⟩ : Shape).Idx → EReal)
    (hx : ∀ i, IsReal (x i)) (hw : ∀ i, IsReal (w i)) : ∀ i, IsReal (mmOut x w i) := by
  intro i
  show IsReal (∑ k : Fin 128, x (ix2 (i 0) k) * w (ix2 k (i 1)))
  exact IsReal.sum_univ _ fun k => (hx _).mul (hw _)

/-- The product of a real [50000, 64] array by a real [64, 64] array is real entry by entry. -/
theorem mmOut64_real (x : (⟨2, ![50000, 64]⟩ : Shape).Idx → EReal) (w : (⟨2, ![64, 64]⟩ : Shape).Idx → EReal)
    (hx : ∀ i, IsReal (x i)) (hw : ∀ i, IsReal (w i)) : ∀ i, IsReal (mmOut64 x w i) := by
  intro i
  show IsReal (∑ k : Fin 64, x (ix2 (i 0) k) * w (ix2 k (i 1)))
  exact IsReal.sum_univ _ fun k => (hx _).mul (hw _)

/-- A real array plus a real row, clamped below at zero, is real entry by entry. -/
theorem reluOut_real (a : S50000x64.Idx → EReal) (b : S1x64.Idx → EReal) (ha : ∀ i, IsReal (a i)) (hb : ∀ j, IsReal (b j)) :
    ∀ i, IsReal (reluOut a b i) := by
  intro i
  show IsReal (max (a i + b (ix2 0 ⟨(i 1).val, idx2_lt1 i⟩)) 0)
  exact IsReal.max ((ha i).add (hb _)) IsReal.zero

/-- Entry (0, q) of the column sums is the sum of column q over the 50000 rows. -/
theorem colSums_at (f : S50000x64.Idx → EReal) (q : Fin 64) :
    colSums f (ix2 (0 : Fin 1) q) = ∑ p : Fin 50000, f (ix2 p q) := rfl

/-- The column sums of a real array are real. -/
theorem colSums_real (f : S50000x64.Idx → EReal) (hf : ∀ i, IsReal (f i)) : ∀ j, IsReal (colSums f j) := by
  intro j
  show IsReal (∑ p : Fin 50000, f (ix2 p ⟨(j 1).val, idx2_lt1 j⟩))
  exact IsReal.sum_univ _ fun p => hf _

/-- The normalisation of a real [50000, 64] array by its own column means and variances (the variance as the mean of
    the squares minus the squared mean, both with the divisor word), with real gain and offset rows, is real entry by
    entry. -/
theorem bn_real (r : (⟨2, ![50000, 64]⟩ : Shape).Idx → EReal) (hr : ∀ i, IsReal (r i))
    (mu var g be : (⟨2, ![1, 64]⟩ : Shape).Idx → EReal)
    (hmu : ∀ q : Fin 64, mu (ix2 (0 : Fin 1) q) = Ideal.div (colSums r (ix2 (0 : Fin 1) q)) CW)
    (hvar : ∀ q : Fin 64, var (ix2 (0 : Fin 1) q)
      = Ideal.div (colSums (fun i => r i * r i) (ix2 (0 : Fin 1) q)) CW - mu (ix2 (0 : Fin 1) q) * mu (ix2 (0 : Fin 1) q))
    (hg : ∀ j, IsReal (g j)) (hbe : ∀ j, IsReal (be j)) :
    ∀ i, IsReal (bnOut r mu var g be i) := by
  intro i
  obtain ⟨p, q, rfl⟩ : ∃ p q, i = ix2 p q := ⟨i 0, i 1, eq_ix2 i⟩
  rw [bnOut_apply, hvar q, hmu q, colSums_at, colSums_at]
  exact norm_real' (fun p' : Fin 50000 => r (ix2 p' q)) (fun _ => hr _) _ _ (hg _) (hbe _) p

/-- The same normalisation equals the one whose variance row is the mean of the squared deviations. -/
theorem bn_forms_agree (r : (⟨2, ![50000, 64]⟩ : Shape).Idx → EReal) (hr : ∀ i, IsReal (r i))
    (mu var var' g be : (⟨2, ![1, 64]⟩ : Shape).Idx → EReal)
    (hmu : ∀ q : Fin 64, mu (ix2 (0 : Fin 1) q) = Ideal.div (colSums r (ix2 (0 : Fin 1) q)) CW)
    (hvar : ∀ q : Fin 64, var (ix2 (0 : Fin 1) q)
      = Ideal.div (colSums (fun i => r i * r i) (ix2 (0 : Fin 1) q)) CW - mu (ix2 (0 : Fin 1) q) * mu (ix2 (0 : Fin 1) q))
    (hvar' : ∀ q : Fin 64, var' (ix2 (0 : Fin 1) q)
      = Ideal.div (∑ p : Fin 50000, (r (ix2 p q) - mu (ix2 (0 : Fin 1) q)) * (r (ix2 p q) - mu (ix2 (0 : Fin 1) q))) CW)
    (hg : ∀ j, IsReal (g j)) (hbe : ∀ j, IsReal (be j)) (p : Fin 50000) (q : Fin 64) :
    bnOut r mu var g be (ix2 p q) = bnOut r mu var' g be (ix2 p q) := by
  rw [bnOut_apply, bnOut_apply, hvar q, hvar' q, hmu q, colSums_at, colSums_at]
  exact norm_forms_agree (fun p' : Fin 50000 => r (ix2 p' q)) (fun _ => hr _) _ _ (hg _) (hbe _) p

end Cert.KernelIdeal.Hand

end
-- ==== Proof.LibGatherRows.lean ====
/-
  A row gather read at an index.

  `x[idx]` for a matrix `x : [N, C]` and indices `idx : [E]` (as `[E, 1]`): row `e` of the result is the row of `x`
  at the index `idx e`, read as a signed integer and clamped into `[0, N − 1]`; columns go to columns.
-/
import Idealize.ShloMosaic.PureOps.Ideal
import Idealize.ShloMosaic.Lib.ValueIdx

noncomputable section

namespace Idealize.ShloMosaic.GatherRows

open Idealize.ShloMosaic Idealize.ShloMosaic.ValueIdx

variable {α : Type}

/-- The dimension numbers of a row gather. -/
abbrev rowsDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row an index word selects: read signed, clamped into `[0, N − 1]`. -/
def clampRow (N : Nat) (hN : 0 < N) {w : Nat} (v : BitVec w) : Fin N := ⟨min v.toInt.toNat (N - 1), by omega⟩

/-- THE GATHER READ AT `(e, q)`: entry `q` of the row of `x` that index `e` selects. -/
theorem rows_gather_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (q : Fin C) :
    Host.gather (rowsDims N E C wf) x idx (ix2 e q) = x (ix2 (clampRow N hN (idx (ix2 e 0))) q) := by
  unfold Host.gather
  congr 1
  funext a
  refine Fin.ext ?_
  match a with
  | ⟨0, _⟩ =>
    show (rowsDims N E C wf).start (ix2 e q) idx 0 + (rowsDims N E C wf).batchCoord (ix2 e q) 0
      + (rowsDims N E C wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N E C wf).startIndexMap from List.mem_singleton.mpr rfl)]
    have hsi : (rowsDims N E C wf).siIdx (ix2 e q) ⟨List.idxOf (0 : Fin 2) (rowsDims N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowsDims N E C wf).start (ix2 e q) idx 1 + (rowsDims N E C wf).batchCoord (ix2 e q) 1
      + (rowsDims N E C wf).offCoord (ix2 e q) 1 = q.val
    rw [GatherDims.batchCoord_eq_zero _ _ _ List.not_mem_nil]
    have hs : (rowsDims N E C wf).start (ix2 e q) idx 1 = 0 := by
      unfold GatherDims.start
      rw [dif_neg (fun h => by simp at h)]
    have ho : (rowsDims N E C wf).offCoord (ix2 e q) 1 = q.val := by
      unfold GatherDims.offCoord
      rw [dif_pos ((GatherDims.mem_sKept _ _).mpr ⟨by simp, List.not_mem_nil⟩)]
      rfl
    rw [hs, ho]
    omega

end Idealize.ShloMosaic.GatherRows

end
-- ==== Proof.LibScatterRows.lean ====
/-
  Scatters read at an index.

  A scatter walks the update indices in row-major order; each update lands on one element of the operand (or on
  none, when its start index falls outside) and is combined there with what the element holds. When the
  combination is the addition of a commutative monoid the order of the walk does not matter: every element ends
  at its initial value plus the sum of the updates that land on it.
-/
import Idealize.ShloMosaic.PureOps.Ideal
import Idealize.ShloMosaic.Lib.ValueIdx

noncomputable section

namespace Idealize.ShloMosaic.ScatterRows

open Idealize.ShloMosaic Idealize.ShloMosaic.ValueIdx

variable {α : Type} [AddCommMonoid α]

/-- One step of the walk, started from any contents `r`: after the updates of the list `l`, element `i` holds
    `r i` plus the sum, over the list, of the updates landing on `i`. -/
theorem foldl_scatter_apply {s si u : Shape} {w : Nat} (d : ScatterDims s si u) (idx : IVec si w) (upd : u.Idx → α)
    (l : List (Fin u.numel)) (r : s.Idx → α) (i : s.Idx) :
    (l.foldl (fun r n =>
        match d.resultIdx? (u.rowMajor.symm n) idx with
        | some i0 => fun i' => if i' = i0 then r i0 + upd (u.rowMajor.symm n) else r i'
        | none => r) r) i
      = r i + (l.map fun n => if d.resultIdx? (u.rowMajor.symm n) idx = some i then upd (u.rowMajor.symm n) else 0).sum := by
  induction l generalizing r with
  | nil => simp
  | cons n l ih =>
    rw [List.foldl_cons, ih, List.map_cons, List.sum_cons]
    cases h : d.resultIdx? (u.rowMajor.symm n) idx with
    | none => simp
    | some i0 =>
      by_cases hi : i = i0
      · subst hi
        simp [add_assoc]
      · have hne : ¬ (some i0 = some i) := fun h' => hi (Option.some.inj h').symm
        simp [hi, hne]

/-- A scatter whose combination is the addition of a commutative monoid, read at `i`: the operand's element plus
    the sum of the updates that land on it. -/
theorem scatter_add_apply {s si u : Shape} {w : Nat} (d : ScatterDims s si u) (f : α → α → α) (hf : ∀ a b, f a b = a + b)
    (x : s.Idx → α) (idx : IVec si w) (upd : u.Idx → α) (i : s.Idx) :
    Host.scatter d f x idx upd i = x i + ∑ j : u.Idx, if d.resultIdx? j idx = some i then upd j else 0 := by
  obtain rfl : f = (· + ·) := funext fun a => funext fun b => hf a b
  refine (foldl_scatter_apply d idx upd (List.finRange u.numel) x i).trans ?_
  rw [← Fin.sum_univ_def]
  congr 1
  exact Equiv.sum_comp u.rowMajor.symm (fun j => if d.resultIdx? j idx = some i then upd j else 0)

/-! ## Counting: scalar updates scattered into a flat array

`x.at[idx].add(v)` for a flat array `x : [N]`, indices `idx : [E]` (as `[E, 1]`) and updates `v : [E]`: update `e`
lands on element `idx e`, read as a signed integer, when that is inside `[0, N)`, and is dropped otherwise. -/

section Count

/-- Those dimension numbers. -/
abbrev countDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : Nat} (wf : ScatterDims.WF ⟨1, ![N]⟩ ⟨2, ![E, 1]⟩ ⟨1, ![E]⟩ [] [0] [0] 1)

theorem countDims_start (j : (⟨1, ![E]⟩ : Shape).Idx) (idx : IVec ⟨2, ![E, 1]⟩ w) (a : Fin 1) :
    (countDims N E wf).start j idx a = (idx (ix2 (j 0) 0)).toInt := by
  obtain rfl : a = 0 := Subsingleton.elim _ _
  unfold ScatterDims.start
  rw [dif_pos (show (0 : Fin 1) ∈ (countDims N E wf).scatterDimsToOperandDims from List.mem_singleton.mpr rfl)]
  have hsi : (countDims N E wf).siIdx j ⟨List.idxOf (0 : Fin 1) (countDims N E wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

theorem countDims_window (j : (⟨1, ![E]⟩ : Shape).Idx) (a : Fin 1) : (countDims N E wf).window j a = 0 := by
  obtain rfl : a = 0 := Subsingleton.elim _ _
  unfold ScatterDims.window
  rw [dif_neg (fun h => by
    have h' := (List.mem_filter.1 h).2
    simp at h')]

/-- Update `e` lands on element `p` exactly when its index, read signed, is `p`. -/
theorem countDims_resultIdx?_eq_some (j : (⟨1, ![E]⟩ : Shape).Idx) (idx : IVec ⟨2, ![E, 1]⟩ w) (p : Fin N) :
    (countDims N E wf).resultIdx? j idx = some (ix1 p) ↔ (idx (ix2 (j 0) 0)).toInt = (p.val : ℤ) := by
  unfold ScatterDims.resultIdx?
  constructor
  · intro h
    split at h
    · next hc =>
      have hv : ((countDims N E wf).start j idx 0 + (countDims N E wf).window j 0).toNat = p.val :=
        congrArg Fin.val (congrFun (Option.some.inj h) 0)
      have h0 := (hc 0).1
      rw [countDims_start, countDims_window] at hv h0
      omega
    · exact absurd h (by simp)
  · intro h
    have hc : ∀ a, 0 ≤ (countDims N E wf).start j idx a + (countDims N E wf).window j a ∧
        (countDims N E wf).start j idx a + (countDims N E wf).window j a < (⟨1, ![N]⟩ : Shape).size a := by
      intro a
      obtain rfl : a = 0 := Subsingleton.elim _ _
      rw [countDims_start, countDims_window, h]
      have := p.isLt
      constructor
      · omega
      · show (p.val : ℤ) + 0 < (N : ℤ)
        omega
    rw [dif_pos hc]
    congr 1
    funext a
    obtain rfl : a = 0 := Subsingleton.elim _ _
    refine Fin.ext ?_
    show ((countDims N E wf).start j idx 0 + (countDims N E wf).window j 0).toNat = p.val
    rw [countDims_start, countDims_window, h]
    omega

end Count

/-- The flat index set as its one coordinate. -/
def idxEquiv1 {n : Nat} : (⟨1, ![n]⟩ : Shape).Idx ≃ Fin n where
  toFun j := j 0
  invFun e := ix1 e
  left_inv j := (eq_ix1 j).symm
  right_inv _ := rfl

theorem sum_idx1 {M : Type} [AddCommMonoid M] {n : Nat} (f : (⟨1, ![n]⟩ : Shape).Idx → M) :
    ∑ j, f j = ∑ e : Fin n, f (ix1 e) :=
  (Equiv.sum_comp (idxEquiv1 (n := n)).symm f).symm

/-- THE COUNT READ AT `p`: the operand's element plus the sum of the updates whose index, read signed, is `p`. -/
theorem count_scatter_apply {N E w : Nat} (wf : ScatterDims.WF ⟨1, ![N]⟩ ⟨2, ![E, 1]⟩ ⟨1, ![E]⟩ [] [0] [0] 1)
    (f : α → α → α) (hf : ∀ a b, f a b = a + b) (x : (⟨1, ![N]⟩ : Shape).Idx → α) (idx : IVec ⟨2, ![E, 1]⟩ w)
    (upd : (⟨1, ![E]⟩ : Shape).Idx → α) (p : Fin N) :
    Host.scatter (countDims N E wf) f x idx upd (ix1 p)
      = x (ix1 p) + ∑ e : Fin E, if (idx (ix2 e 0)).toInt = (p.val : ℤ) then upd (ix1 e) else 0 := by
  rw [scatter_add_apply _ f hf, sum_idx1]
  congr 1
  refine Finset.sum_congr rfl fun e _ => ?_
  simp only [countDims_resultIdx?_eq_some]
  rfl

/-! ## Rows: row updates scattered into a matrix

`x.at[idx].add(v)` for a matrix `x : [N, C]`, indices `idx : [E]` (as `[E, 1]`) and updates `v : [E, C]`: row `e`
of the updates lands on row `idx e`, read as a signed integer, when that is inside `[0, N)`, and is dropped
otherwise; columns go to columns. -/

section Rows

/-- Those dimension numbers. -/
abbrev rowsDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)

theorem rowsDims_start0 (j : (⟨2, ![E, C]⟩ : Shape).Idx) (idx : IVec ⟨2, ![E, 1]⟩ w) :
    (rowsDims N E C wf).start j idx 0 = (idx (ix2 (j 0) 0)).toInt := by
  unfold ScatterDims.start
  rw [dif_pos (show (0 : Fin 2) ∈ (rowsDims N E C wf).scatterDimsToOperandDims from List.mem_singleton.mpr rfl)]
  have hsi : (rowsDims N E C wf).siIdx j ⟨List.idxOf (0 : Fin 2) (rowsDims N E C wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

theorem rowsDims_start1 (j : (⟨2, ![E, C]⟩ : Shape).Idx) (idx : IVec ⟨2, ![E, 1]⟩ w) :
    (rowsDims N E C wf).start j idx 1 = 0 := by
  unfold ScatterDims.start
  rw [dif_neg (fun h => by simp at h)]

theorem rowsDims_window0 (j : (⟨2, ![E, C]⟩ : Shape).Idx) : (rowsDims N E C wf).window j 0 = 0 := by
  unfold ScatterDims.window
  rw [dif_neg (fun h => by
    have h' := (List.mem_filter.1 h).2
    simp at h')]

theorem rowsDims_window1 (j : (⟨2, ![E, C]⟩ : Shape).Idx) : (rowsDims N E C wf).window j 1 = (j 1).val := by
  unfold ScatterDims.window
  rw [dif_pos (show (1 : Fin 2) ∈ (rowsDims N E C wf).sKept from
    List.mem_filter.2 ⟨List.mem_finRange _, by simp⟩)]
  rfl

/-- Entry `(e, c)` of the updates lands on entry `(p, q)` exactly when row `e`'s index, read signed, is `p` and
    `c = q`. -/
theorem rowsDims_resultIdx?_eq_some (j : (⟨2, ![E, C]⟩ : Shape).Idx) (idx : IVec ⟨2, ![E, 1]⟩ w) (p : Fin N) (q : Fin C) :
    (rowsDims N E C wf).resultIdx? j idx = some (ix2 p q)
      ↔ (idx (ix2 (j 0) 0)).toInt = (p.val : ℤ) ∧ (j 1).val = q.val := by
  unfold ScatterDims.resultIdx?
  constructor
  · intro h
    split at h
    · next hc =>
      have hv0 : ((rowsDims N E C wf).start j idx 0 + (rowsDims N E C wf).window j 0).toNat = p.val :=
        congrArg Fin.val (congrFun (Option.some.inj h) 0)
      have hv1 : ((rowsDims N E C wf).start j idx 1 + (rowsDims N E C wf).window j 1).toNat = q.val :=
        congrArg Fin.val (congrFun (Option.some.inj h) 1)
      have h0 := (hc 0).1
      rw [rowsDims_start0, rowsDims_window0] at hv0 h0
      rw [rowsDims_start1, rowsDims_window1] at hv1
      constructor <;> omega
    · exact absurd h (by simp)
  · rintro ⟨h, hq⟩
    have hc : ∀ a, 0 ≤ (rowsDims N E C wf).start j idx a + (rowsDims N E C wf).window j a ∧
        (rowsDims N E C wf).start j idx a + (rowsDims N E C wf).window j a < (⟨2, ![N, C]⟩ : Shape).size a := by
      intro a
      match a with
      | ⟨0, _⟩ =>
        show 0 ≤ (rowsDims N E C wf).start j idx 0 + (rowsDims N E C wf).window j 0 ∧
          (rowsDims N E C wf).start j idx 0 + (rowsDims N E C wf).window j 0 < (N : ℤ)
        rw [rowsDims_start0, rowsDims_window0, h]
        have := p.isLt
        constructor <;> omega
      | ⟨1, _⟩ =>
        show 0 ≤ (rowsDims N E C wf).start j idx 1 + (rowsDims N E C wf).window j 1 ∧
          (rowsDims N E C wf).start j idx 1 + (rowsDims N E C wf).window j 1 < (C : ℤ)
        rw [rowsDims_start1, rowsDims_window1, hq]
        have := q.isLt
        constructor <;> omega
    rw [dif_pos hc]
    congr 1
    funext a
    refine Fin.ext ?_
    match a with
    | ⟨0, _⟩ =>
      show ((rowsDims N E C wf).start j idx 0 + (rowsDims N E C wf).window j 0).toNat = p.val
      rw [rowsDims_start0, rowsDims_window0, h]
      omega
    | ⟨1, _⟩ =>
      show ((rowsDims N E C wf).start j idx 1 + (rowsDims N E C wf).window j 1).toNat = q.val
      rw [rowsDims_start1, rowsDims_window1, hq]
      omega

/-- THE ACCUMULATED ROWS READ AT `(p, q)`, on the extended reals: the operand's entry plus the sum, over the rows
    `e` of the updates whose index is `p`, of the update's entry `(e, q)`. -/
theorem rows_scatterAdd_apply (x : (⟨2, ![N, C]⟩ : Shape).Idx → EReal) (idx : IVec ⟨2, ![E, 1]⟩ w)
    (upd : (⟨2, ![E, C]⟩ : Shape).Idx → EReal) (p : Fin N) (q : Fin C) :
    Ideal.hostScatterAdd (rowsDims N E C wf) x idx upd (ix2 p q)
      = x (ix2 p q) + ∑ e : Fin E, if (idx (ix2 e 0)).toInt = (p.val : ℤ) then upd (ix2 e q) else 0 := by
  unfold Ideal.hostScatterAdd
  congr 1
  rw [Finset.sum_filter, sum_idx2]
  refine Finset.sum_congr rfl fun e _ => ?_
  simp only [rowsDims_resultIdx?_eq_some]
  by_cases he : (idx (ix2 e 0)).toInt = (p.val : ℤ)
  · have : ∀ c : Fin C, ((idx (ix2 ((ix2 e c : (⟨2, ![E, C]⟩ : Shape).Idx) 0) 0)).toInt = (p.val : ℤ)
        ∧ ((ix2 e c : (⟨2, ![E, C]⟩ : Shape).Idx) 1).val = q.val) ↔ c = q := fun c =>
      ⟨fun h => Fin.ext h.2, fun h => ⟨he, congrArg Fin.val h⟩⟩
    simp only [this, Finset.sum_ite_eq', Finset.mem_univ, if_true, he]
  · have : ∀ c : Fin C, ¬ ((idx (ix2 ((ix2 e c : (⟨2, ![E, C]⟩ : Shape).Idx) 0) 0)).toInt = (p.val : ℤ)
        ∧ ((ix2 e c : (⟨2, ![E, C]⟩ : Shape).Idx) 1).val = q.val) := fun c h => he h.1
    simp only [this, if_false, Finset.sum_const_zero, he]

end Rows

end Idealize.ShloMosaic.ScatterRows

end
-- ==== Proof.LibSparseReal.lean ====
/-
  Gathers and accumulating scatters keep real data real.

  A row gather x[idx] copies, for each index, one row of x (the index read signed and clamped into range): its entries
  are entries of x. An accumulating row scatter returns, at (p, q), the operand's entry plus the finite sum of the
  update entries (e, q) whose index is p. So if every entry of the inputs is a real, so is every entry of the result;
  and a neighbourhood sum — gather the rows at the sources, accumulate them at the destinations into zeros — of a real
  matrix is a real matrix, whatever the index words are.
-/
import proofs.«100384_j8693013807615_2_alg».proof.Proof.LibGatherRows
import proofs.«100384_j8693013807615_2_alg».proof.Proof.LibScatterRows
import proofs.«100384_j8693013807615_2_alg».proof.Proof.LibIsReal
import Idealize.ShloMosaic.Lib.ValueIdx

noncomputable section

namespace Cert.Lgnn.Sparse

open Idealize.ShloMosaic Idealize.ShloMosaic.ValueIdx Cert.Alg

variable {N E C w : Nat}

/-- A row gather of a real matrix is real, entry by entry. -/
theorem gather_isReal (hN : 0 < N)
    (d : GatherDims ⟨2, ![N, C]⟩ ⟨2, ![E, 1]⟩ ⟨2, ![E, C]⟩)
    (wf : GatherDims.WF ⟨2, ![N, C]⟩ ⟨2, ![E, 1]⟩ ⟨2, ![E, C]⟩ [1] [0] [] [0] [] 1 ![1, C])
    (hd : d = GatherRows.rowsDims N E C wf)
    (x : FVec Ideal ⟨2, ![N, C]⟩ .f32) (idx : IVec ⟨2, ![E, 1]⟩ w) (hx : ∀ i, IsReal (x i))
    (i : (⟨2, ![E, C]⟩ : Shape).Idx) : IsReal (Host.gather d x idx i) := by
  subst hd
  obtain ⟨e, q, rfl⟩ : ∃ (e : Fin E) (q : Fin C), i = ix2 e q := ⟨i 0, i 1, eq_ix2 i⟩
  rw [GatherRows.rows_gather_apply hN wf x idx e q]
  exact hx _

/-- An accumulating row scatter of real updates into a real operand is real, entry by entry. -/
theorem scatterAdd_isReal
    (d : ScatterDims ⟨2, ![N, C]⟩ ⟨2, ![E, 1]⟩ ⟨2, ![E, C]⟩)
    (wf : ScatterDims.WF ⟨2, ![N, C]⟩ ⟨2, ![E, 1]⟩ ⟨2, ![E, C]⟩ [1] [0] [0] 1)
    (hd : d = ScatterRows.rowsDims N E C wf)
    (x : FVec Ideal ⟨2, ![N, C]⟩ .f32) (idx : IVec ⟨2, ![E, 1]⟩ w) (upd : FVec Ideal ⟨2, ![E, C]⟩ .f32)
    (hx : ∀ i, IsReal (x i)) (hu : ∀ i, IsReal (upd i))
    (i : (⟨2, ![N, C]⟩ : Shape).Idx) : IsReal (Host.scatterAdd d x idx upd i) := by
  subst hd
  obtain ⟨p, q, rfl⟩ : ∃ (p : Fin N) (q : Fin C), i = ix2 p q := ⟨i 0, i 1, eq_ix2 i⟩
  change IsReal (Ideal.hostScatterAdd (ScatterRows.rowsDims N E C wf) x idx upd (ix2 p q))
  rw [ScatterRows.rows_scatterAdd_apply wf x idx upd p q]
  refine (hx _).add (IsReal.sum_univ _ fun e => ?_)
  split_ifs
  · exact hu _
  · exact IsReal.zero

end Cert.Lgnn.Sparse

end
-- ==== Proof.LibFlatSegments.lean ====
/-
  A flat array gathered and scattered by one column of index words, read at an index.

  `x[idx]` for a flat array `x : [N]` and indices `idx : [E]` (as `[E, 1]`): element `e` of the result is the element
  of `x` at the index `idx e`, read as a signed integer and clamped into `[0, N − 1]` — the same clamp a row gather of
  an `[N, C]` matrix applies, so a flat gather and a row gather by one index column select the same positions.
  `x.at[idx].add(v)` for flat `x : [N]`, `v : [E]` on the extended reals: element `p` ends at its initial value plus
  the sum of the updates whose index word, read signed, is `p` — the same landing condition a row scatter uses.
-/
import proofs.«100384_j8693013807615_2_alg».proof.Proof.LibScatterRows
import proofs.«100384_j8693013807615_2_alg».proof.Proof.LibGatherRows

noncomputable section

namespace Cert.LibFlatSegments

open Idealize.ShloMosaic Idealize.ShloMosaic.ValueIdx

variable {α : Type}

/-- The dimension numbers of a flat gather by a column of indices. -/
abbrev flatDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE FLAT GATHER READ AT `e`: the element of `x` that index `e` selects. -/
theorem flat_gather_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (flatDims N E wf) x idx (ix1 e) = x (ix1 (GatherRows.clampRow N hN (idx (ix2 e 0)))) := by
  unfold Host.gather
  congr 1
  funext a
  refine Fin.ext ?_
  match a with
  | ⟨0, _⟩ =>
    show (flatDims N E wf).start (ix1 e) idx 0 + (flatDims N E wf).batchCoord (ix1 e) 0
      + (flatDims N E wf).offCoord (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (flatDims N E wf).startIndexMap from List.mem_singleton.mpr rfl)]
    have hsi : (flatDims N E wf).siIdx (ix1 e) ⟨List.idxOf (0 : Fin 1) (flatDims N E wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl

/-- THE FLAT SEGMENT SUM READ AT `p`, on the extended reals: the operand's element plus the sum of the updates whose
    index word, read signed, is `p`. -/
theorem flat_scatterAdd_apply {N E w : Nat} (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal) (p : Fin N) :
    Ideal.hostScatterAdd (ScatterRows.countDims N E wf) x idx upd (ix1 p)
      = x (ix1 p) + ∑ e : Fin E, if (idx (ix2 e 0)).toInt = (p.val : ℤ) then upd (ix1 e) else 0 := by
  unfold Ideal.hostScatterAdd
  congr 1
  rw [Finset.sum_filter, ScatterRows.sum_idx1]
  refine Finset.sum_congr rfl fun e _ => ?_
  simp only [ScatterRows.countDims_resultIdx?_eq_some]
  rfl

end Cert.LibFlatSegments

end
-- ==== Proof.AggReal.lean ====
/-
  The edge aggregation keeps real data real.

  The in-degree of a node is a finite sum of ones added to zero, so it is a real; its maximum with one is a real that
  is at least one, hence positive, and the reciprocal square root of a positive real is a real. An edge's weight is
  the product of two such reals, each read at a clamped position of the per-node array. The aggregation adds, into
  zeros, rows of a real matrix each scaled by a real weight: every entry of the result is a finite sum of products of
  reals. None of this depends on what the index words are: a gather clamps them, a scatter drops those out of range.

  The general statements are for any extents; the extents of this program are instantiated at the end.
-/
import proofs.«100384_j8693013807615_2_alg».proof.Proof.SpecShared
import proofs.«100384_j8693013807615_2_alg».proof.Proof.LibIsReal
import proofs.«100384_j8693013807615_2_alg».proof.Proof.LibSparseReal
import proofs.«100384_j8693013807615_2_alg».proof.Proof.LibFlatSegments
import proofs.«100384_j8693013807615_2_alg».proof.Proof.LibBroadcastInDim
import Idealize.ShloMosaic.Lib.IdealHost

open scoped BigOperators

noncomputable section

namespace Cert.Alg.AggReal

open Idealize.ShloMosaic Idealize.ShloMosaic.ValueIdx Cert.Alg

/-- The zero word broadcast to any shape reads the real zero everywhere. -/
theorem zeros_apply {t : Shape} (dims : Fin 0 → Fin t.rank) (h : (⟨0, ![]⟩ : Shape).BroadcastsInDim t dims) (j : t.Idx) :
    broadcastInDim t dims h (constant (F := Ideal) ⟨0, ![]⟩ .f32 0x00000000#32) j = 0 := by
  rw [Cert.Lib.BroadcastInDim.scalar_apply dims h _ j, constant_apply]
  exact Ideal.ofBits_zero_f32

/-- The word of one broadcast to any shape reads the real one everywhere. -/
theorem ones_apply {t : Shape} (dims : Fin 0 → Fin t.rank) (h : (⟨0, ![]⟩ : Shape).BroadcastsInDim t dims) (j : t.Idx) :
    broadcastInDim t dims h (constant (F := Ideal) ⟨0, ![]⟩ .f32 0x3F800000#32) j = 1 := by
  rw [Cert.Lib.BroadcastInDim.scalar_apply dims h _ j, constant_apply]
  exact Ideal.ofBits_one_f32

/-- The product of two real arrays is real, element by element. -/
theorem mulf_isReal {s : Shape} (a b : FVec Ideal s .f32) (i : s.Idx) (ha : IsReal (a i)) (hb : IsReal (b i)) :
    IsReal (mulf a b i) := by
  rw [mulf_apply]; exact ha.mul hb

/-- The reciprocal square root of the maximum of a real and one is a real: the maximum is at least one, so positive. -/
theorem rsqrt_max_one_isReal {s : Shape} (x o : FVec Ideal s .f32) (i : s.Idx) (hx : IsReal (x i)) (ho : o i = 1) :
    IsReal (Host.rsqrt (maximumf x o) i) := by
  show IsReal (Ideal.rsqrt (maximumf x o i))
  rw [maximumf_apply, ho]
  exact IsReal.rsqrt_pos (hx.max IsReal.one) (lt_max_of_lt_right zero_lt_one)

variable {N E w : Nat}

/-- A flat add-scatter of real updates into a real array is real, element by element: each element is the operand's
    plus a finite sum of updates. -/
theorem flat_scatterAdd_isReal
    (d : ScatterDims ⟨1, ![N]⟩ ⟨2, ![E, 1]⟩ ⟨1, ![E]⟩)
    (wf : ScatterDims.WF ⟨1, ![N]⟩ ⟨2, ![E, 1]⟩ ⟨1, ![E]⟩ [] [0] [0] 1)
    (hd : d = ScatterRows.countDims N E wf)
    (x : FVec Ideal ⟨1, ![N]⟩ .f32) (idx : IVec ⟨2, ![E, 1]⟩ w) (upd : FVec Ideal ⟨1, ![E]⟩ .f32)
    (hx : ∀ i, IsReal (x i)) (hu : ∀ i, IsReal (upd i))
    (i : (⟨1, ![N]⟩ : Shape).Idx) : IsReal (Host.scatterAdd d x idx upd i) := by
  subst hd
  obtain ⟨p, rfl⟩ : ∃ p : Fin N, i = ix1 p := ⟨i 0, eq_ix1 i⟩
  change IsReal (Ideal.hostScatterAdd (ScatterRows.countDims N E wf) x idx upd (ix1 p))
  rw [Cert.LibFlatSegments.flat_scatterAdd_apply wf x idx upd p]
  refine (hx _).add (IsReal.sum_univ _ fun e => ?_)
  split_ifs
  · exact hu _
  · exact IsReal.zero

/-- A flat gather of a real array is real, element by element: each element is one of the array's. -/
theorem flat_gather_isReal (hN : 0 < N)
    (d : GatherDims ⟨1, ![N]⟩ ⟨2, ![E, 1]⟩ ⟨1, ![E]⟩)
    (wf : GatherDims.WF ⟨1, ![N]⟩ ⟨2, ![E, 1]⟩ ⟨1, ![E]⟩ [] [0] [] [0] [] 1 ![1])
    (hd : d = Cert.LibFlatSegments.flatDims N E wf)
    (x : FVec Ideal ⟨1, ![N]⟩ .f32) (idx : IVec ⟨2, ![E, 1]⟩ w) (hx : ∀ i, IsReal (x i))
    (i : (⟨1, ![E]⟩ : Shape).Idx) : IsReal (Host.gather d x idx i) := by
  subst hd
  obtain ⟨e, rfl⟩ : ∃ e : Fin E, i = ix1 e := ⟨i 0, eq_ix1 i⟩
  rw [Cert.LibFlatSegments.flat_gather_apply hN wf x idx e]
  exact hx _

/-- A real array laid out as a column and repeated across the columns of a matrix is a real matrix. -/
theorem colAcross_isReal {a b : Nat}
    (h1 : (⟨1, ![a]⟩ : Shape).BroadcastsInDim ⟨2, ![a, 1]⟩ (![0] : Fin 1 → Fin 2))
    (h2 : (⟨2, ![a, 1]⟩ : Shape).BroadcastsInDim ⟨2, ![a, b]⟩ (![0, 1] : Fin 2 → Fin 2))
    (v : FVec Ideal ⟨1, ![a]⟩ .f32) (hv : ∀ i, IsReal (v i)) (j : (⟨2, ![a, b]⟩ : Shape).Idx) :
    IsReal (broadcastInDim ⟨2, ![a, b]⟩ ![0, 1] h2 (broadcastInDim ⟨2, ![a, 1]⟩ ![0] h1 v) j) := by
  obtain ⟨p, q, rfl⟩ : ∃ (p : Fin a) (q : Fin b), j = ix2 p q := ⟨j 0, j 1, eq_ix2 j⟩
  rw [Cert.Lib.BroadcastInDim.colAcross_apply h2 _ p q, Cert.Lib.BroadcastInDim.vecAsCol_apply h1 v p]
  exact hv _

end Cert.Alg.AggReal

namespace Cert.Spec

open Cert.KernelIdeal Cert.KernelIdeal.Facts₀ Idealize.ShloMosaic Idealize.ShloMosaic.ValueIdx Cert.Alg Cert.Alg.AggReal

/-- Every node's 1 / sqrt (max (in-degree) 1) is a real. -/
theorem invSqrtDeg_real (dst : (⟨S850000, .i32⟩ : BufTy).Contents (Elt Ideal)) :
    ∀ p, IsReal (invSqrtDeg (F := Ideal) dst p) := by
  intro p
  have hdeg : IsReal (Host.scatterAdd scatter_S50000_S850000x1_S850000_n_0_0_1
      (broadcastInDim S50000 ![] bcast_S_S50000 (constant (F := Ideal) S_ .f32 0x00000000#32)) (colIdx dst)
      (broadcastInDim S850000 ![] bcast_S_S850000 (constant (F := Ideal) S_ .f32 0x3F800000#32)) p) :=
    flat_scatterAdd_isReal (N := 50000) (E := 850000) scatter_S50000_S850000x1_S850000_n_0_0_1
      scatter_S50000_S850000x1_S850000_n_0_0_1_wf rfl _ _ _
      (fun i => by rw [zeros_apply]; exact IsReal.zero) (fun i => by rw [ones_apply]; exact IsReal.one) p
  unfold invSqrtDeg
  exact rsqrt_max_one_isReal _ _ p hdeg (ones_apply _ _ p)

/-- Every edge's weight is a real. -/
theorem edgeWeight_real (src dst : (⟨S850000, .i32⟩ : BufTy).Contents (Elt Ideal)) :
    ∀ e, IsReal (edgeWeight (F := Ideal) src dst e) := by
  intro e
  have hg : ∀ (idx : (⟨S850000x1, .i32⟩ : BufTy).Contents (Elt Ideal)),
      IsReal (Host.gather gather_S50000_S850000x1_S850000_n_0_n_n_0_1_1 (invSqrtDeg (F := Ideal) dst) idx e) := fun idx =>
    flat_gather_isReal (N := 50000) (E := 850000) (by norm_num) gather_S50000_S850000x1_S850000_n_0_n_n_0_1_1
      gather_S50000_S850000x1_S850000_n_0_n_n_0_1_1_wf rfl _ idx (invSqrtDeg_real dst) e
  unfold edgeWeight
  exact mulf_isReal _ _ e (hg _) (hg _)

/-- The aggregation of a real matrix with real weights is a real matrix. -/
theorem agg_real (src dst : (⟨S850000, .i32⟩ : BufTy).Contents (Elt Ideal))
    (nw : (⟨S850000, .f32⟩ : BufTy).Contents (Elt Ideal)) (h : (⟨S50000x64, .f32⟩ : BufTy).Contents (Elt Ideal))
    (hnw : ∀ e, IsReal (nw e)) (hh : ∀ i, IsReal (h i)) : ∀ i, IsReal (agg (F := Ideal) src dst nw h i) := by
  intro i
  unfold agg
  refine Cert.Lgnn.Sparse.scatterAdd_isReal (N := 50000) (E := 850000) (C := 64)
    scatter_S50000x64_S850000x1_S850000x64_1_0_0_1 scatter_S50000x64_S850000x1_S850000x64_1_0_0_1_wf rfl _ _ _
    (fun j => by rw [zeros_apply]; exact IsReal.zero) (fun j => ?_) i
  refine mulf_isReal _ _ j ?_ ?_
  · exact Cert.Lgnn.Sparse.gather_isReal (N := 50000) (E := 850000) (C := 64) (by norm_num)
      gather_S50000x64_S850000x1_S850000x64_1_0_n_n_0_1_164 gather_S50000x64_S850000x1_S850000x64_1_0_n_n_0_1_164_wf rfl
      h _ hh j
  · exact colAcross_isReal bcast_S850000_S850000x1_0 bcast_S850000x1_S850000x64_0_1 nw hnw j

end Cert.Spec

end
-- ==== Proof.KLayerReal.lean ====
/-
  A layer keeps real data real.

  A matrix product of real matrices has real entries (finite sums of products). Adding a real bias row and clamping
  below at zero keeps entries real. The normalization that follows subtracts each column's mean, multiplies by the
  reciprocal square root of the column's variance plus a small positive constant, scales and shifts. For a column of
  reals the variance written as the mean of squares minus the squared mean equals the mean of the squared deviations,
  which is a nonnegative real; adding a positive real gives a positive real, whose reciprocal square root is a real;
  and then every entry is a polynomial in reals.
-/
import proofs.«100384_j8693013807615_2_alg».proof.Proof.AggReal
import proofs.«100384_j8693013807615_2_alg».proof.Proof.ValueSpec
import proofs.«100384_j8693013807615_2_alg».proof.Proof.RegionStatsIdealLib
import proofs.«100384_j8693013807615_2_alg».proof.Proof.SpecAt
import proofs.«100384_j8693013807615_2_alg».proof.Proof.LibIsReal
import proofs.«100384_j8693013807615_2_alg».proof.Proof.LibBatchNormLaw

open scoped BigOperators

noncomputable section

namespace Cert.KernelIdeal.Hand

open Cert.KernelIdeal Idealize.ShloMosaic Idealize.ShloMosaic.ValueIdx Cert.Alg

/-- The word 0x47435000 is the real 50000, the number of rows. -/
theorem ofBits_rows : Ideal.ofBits .f32 0x47435000#32 = ((50000 : ℝ) : EReal) := by
  simp [Ideal.ofBits, Ideal.ieee, -EReal.coe_mul]; norm_num

/-- The word 0x3727C5AC is the real 10995116 · 2⁻⁴⁰ (the float nearest 10⁻⁵). -/
theorem ofBits_eps : Ideal.ofBits .f32 0x3727C5AC#32 = (((10995116 : ℝ) * (2 : ℝ) ^ (-40 : ℤ) : ℝ) : EReal) := by
  simp [Ideal.ofBits, Ideal.ieee, -EReal.coe_mul]

/-- That constant is a real … -/
theorem eps_isReal : IsReal (Ideal.ofBits .f32 0x3727C5AC#32) := ⟨_, ofBits_eps⟩

/-- … and positive. -/
theorem eps_word_pos : 0 < Ideal.ofBits .f32 0x3727C5AC#32 := by
  rw [ofBits_eps]
  exact EReal.coe_pos.mpr (by positivity)

/-- The column sums read at a column: the sum of the column's entries. -/
theorem colSums_apply (g : S50000x64.Idx → EReal) (q : Fin 64) :
    colSums g (ix2 (0 : Fin 1) q) = ∑ p : Fin 50000, g (ix2 p q) := rfl

/-- A product of a real [50000, 128] matrix by a real [128, 64] matrix is real. -/
theorem mmOut_isReal (x : (⟨2, ![50000, 128]⟩ : Shape).Idx → EReal) (w : (⟨2, ![128, 64]⟩ : Shape).Idx → EReal)
    (hx : ∀ i, IsReal (x i)) (hw : ∀ i, IsReal (w i)) : ∀ i, IsReal (mmOut x w i) := fun i => by
  unfold mmOut
  exact IsReal.sum_univ _ fun k => (hx _).mul (hw _)

/-- A product of a real [50000, 64] matrix by a real [64, 64] matrix is real. -/
theorem mmOut64_isReal (x : (⟨2, ![50000, 64]⟩ : Shape).Idx → EReal) (w : (⟨2, ![64, 64]⟩ : Shape).Idx → EReal)
    (hx : ∀ i, IsReal (x i)) (hw : ∀ i, IsReal (w i)) : ∀ i, IsReal (mmOut64 x w i) := fun i => by
  unfold mmOut64
  exact IsReal.sum_univ _ fun k => (hx _).mul (hw _)

/-- A real vector laid out as a one-row matrix is real. -/
theorem rowOf_real (b : (⟨S64, .f32⟩ : BufTy).Contents (Elt Ideal)) (hb : ∀ i, IsReal (b i)) :
    ∀ i, IsReal (Cert.Spec.rowOf (F := Ideal) b i) := fun i => by
  obtain ⟨u, q, rfl⟩ : ∃ (u : Fin 1) (q : Fin 64), i = ix2 u q := ⟨i 0, i 1, eq_ix2 i⟩
  rw [Cert.Spec.rowOf_apply]
  exact hb _

/-- A real matrix plus a real bias row, clamped below at zero, is real. -/
theorem reluOut_isReal (a : S50000x64.Idx → EReal) (b : S1x64.Idx → EReal)
    (ha : ∀ i, IsReal (a i)) (hb : ∀ i, IsReal (b i)) : ∀ i, IsReal (reluOut a b i) := fun i => by
  unfold reluOut
  exact ((ha i).add (hb _)).max IsReal.zero

/-- The variance of a real column, written as the mean of squares minus the squared mean with divisor 50000, is a
    nonnegative real: it is the mean of the squared deviations. -/
theorem colVar_real_nonneg (u : Fin 50000 → EReal) (hu : ∀ n, IsReal (u n)) :
    IsReal (Ideal.div (∑ n, u n * u n) ((50000 : ℝ) : EReal)
        - Ideal.div (∑ n, u n) ((50000 : ℝ) : EReal) * Ideal.div (∑ n, u n) ((50000 : ℝ) : EReal))
      ∧ 0 ≤ Ideal.div (∑ n, u n * u n) ((50000 : ℝ) : EReal)
        - Ideal.div (∑ n, u n) ((50000 : ℝ) : EReal) * Ideal.div (∑ n, u n) ((50000 : ℝ) : EReal) := by
  have hc : (50000 : ℝ) = (Fintype.card (Fin 50000) : ℝ) := by rw [Fintype.card_fin]; norm_num
  have h1 := Cert.Lgnn.Alg.var_real_nonneg u hu 50000 (by norm_num)
  unfold Cert.Lgnn.Alg.mean at h1
  rw [variance_identity u hu 50000 hc (by norm_num)] at h1
  exact h1

/-- The normalization of a real matrix by its own column statistics, with real gain and offset, is real. -/
theorem bnOfStats_real (R : S50000x64.Idx → EReal) (hR : ∀ i, IsReal (R i))
    (g be : (⟨S64, .f32⟩ : BufTy).Contents (Elt Ideal)) (hg : ∀ i, IsReal (g i)) (hbe : ∀ i, IsReal (be i)) :
    ∀ i, IsReal (bnOut R
      (Cert.Spec.rowOf (F := Ideal) (Cert.Spec.perRow (F := Ideal) (Cert.Spec.vecOf (F := Ideal) (colSums R))))
      (Cert.Spec.rowOf (F := Ideal) (Cert.Spec.varOfSums (F := Ideal) (Cert.Spec.vecOf (F := Ideal) (colSums R)) (Cert.Spec.vecOf (F := Ideal) (colSums (fun i => R i * R i)))))
      (Cert.Spec.rowOf (F := Ideal) g) (Cert.Spec.rowOf (F := Ideal) be) i) := fun i => by
  obtain ⟨p, q, rfl⟩ : ∃ (p : Fin 50000) (q : Fin 64), i = ix2 p q := ⟨i 0, i 1, eq_ix2 i⟩
  simp only [bnOut_apply, Cert.Spec.rowOf_apply, Cert.Spec.perRow_apply, Cert.Spec.varOfSums_apply,
    Cert.Spec.vecOf_apply, colSums_apply, ofBits_rows]
  obtain ⟨hvr, hv0⟩ := colVar_real_nonneg (fun n => R (ix2 n q)) (fun n => hR _)
  have hrs := IsReal.rsqrt_pos (hvr.add eps_isReal) (IsReal.add_pos_of_nonneg_of_pos hv0 eps_word_pos)
  have hμ : IsReal (Ideal.div (∑ n : Fin 50000, R (ix2 n q)) ((50000 : ℝ) : EReal)) :=
    IsReal.div_coe (IsReal.sum_univ _ fun n => hR _) (by norm_num)
  exact ((((hR _).sub hμ).mul hrs).mul (hg _)).add (hbe _)

/-- A whole layer after the product: bias, clamp at zero, normalization by the column statistics. Real inputs give
    real outputs. -/
theorem kLayer_real (a : S50000x64.Idx → EReal) (b g be : (⟨S64, .f32⟩ : BufTy).Contents (Elt Ideal))
    (ha : ∀ i, IsReal (a i)) (hb : ∀ i, IsReal (b i)) (hg : ∀ i, IsReal (g i)) (hbe : ∀ i, IsReal (be i)) :
    ∀ i, IsReal (bnOut (reluOut a (Cert.Spec.rowOf (F := Ideal) b))
      (Cert.Spec.rowOf (F := Ideal) (Cert.Spec.perRow (F := Ideal) (Cert.Spec.vecOf (F := Ideal) (colSums (reluOut a (Cert.Spec.rowOf (F := Ideal) b))))))
      (Cert.Spec.rowOf (F := Ideal) (Cert.Spec.varOfSums (F := Ideal) (Cert.Spec.vecOf (F := Ideal) (colSums (reluOut a (Cert.Spec.rowOf (F := Ideal) b))))
        (Cert.Spec.vecOf (F := Ideal) (colSums (fun i => reluOut a (Cert.Spec.rowOf (F := Ideal) b) i * reluOut a (Cert.Spec.rowOf (F := Ideal) b) i)))))
      (Cert.Spec.rowOf (F := Ideal) g) (Cert.Spec.rowOf (F := Ideal) be) i) :=
  bnOfStats_real _ (reluOut_isReal a _ ha (rowOf_real b hb)) g be hg hbe

end Cert.KernelIdeal.Hand

end
-- ==== Proof.LibFiniteEntry.lean ====
/-
  A float entry below +∞ in absolute value is a real number.

  On the extended reals the absolute value is max(x, −x). If it compares strictly below the word that denotes +∞, then
  x is neither +∞ (else max(x, −x) = +∞) nor −∞ (else −x = +∞), so x is a real. This is the element fact behind every
  precondition of the form "all entries of the array are finite", for an array of any shape.
-/
import proofs.«100384_j8693013807615_2_alg».proof.Proof.LibIsReal
import Idealize.ShloMosaic.PureOps.Ideal
import Idealize.ShloMosaic.Lib.ValueIdx
import Idealize.ShloMosaic.Lib.Pipeline.Value

noncomputable section

namespace Cert.Lgnn.Finite

open Idealize.ShloMosaic Idealize.ShloMosaic.ValueIdx Cert.Alg

/-- The +∞ word denotes +∞. -/
theorem inf_word : Ideal.ofBits .f32 0x7F800000#32 = ⊤ := by simp [Ideal.ofBits, Ideal.ieee]

/-- An entry whose absolute value compares below the +∞ word is a real. -/
theorem real_of_abs_lt_inf {s : Shape} (x : FVec Ideal s .f32) (hb : (⟨0, ![]⟩ : Shape).BroadcastsInDim s ![]) (i : s.Idx)
    (h : cmpf .olt (Host.absf x) (broadcastInDim s ![] hb (constant (F := Ideal) ⟨0, ![]⟩ .f32 0x7F800000#32)) i = 1#1) :
    IsReal (x i) := by
  rw [cmpf_apply, broadcastInDim_apply _ hb _ i ix0 fun ax => ax.elim0] at h
  change Ideal.cmp .olt (max (x i) (-(x i))) (Ideal.ofBits .f32 0x7F800000#32) = 1#1 at h
  rw [inf_word] at h
  have hlt : max (x i) (-(x i)) < ⊤ := by
    unfold Ideal.cmp at h
    by_contra hn
    simp [hn] at h
  obtain ⟨h1, h2⟩ := max_lt_iff.mp hlt
  refine IsReal.of_ne (ne_of_lt h1) fun hbot => ?_
  rw [hbot] at h2
  exact absurd h2 (by simp)

end Cert.Lgnn.Finite

end
-- ==== Proof.PreReal.lean ====
/-
  Every float input of the launch is a real number.

  The precondition says that, on every device, the conjunction over the thirteen float arguments of
  "all entries are below +∞ in absolute value" is true. A conjunction of truth values is true only if each of them is,
  a reduction by "and" over all axes is true only if every entry is, and an extended real whose absolute value
  max(x, −x) is strictly below +∞ is neither infinity, hence a real. So every entry of every float argument is a real.
-/
import proofs.«100384_j8693013807615_2_alg».proof.Defs
import proofs.«100384_j8693013807615_2_alg».proof.Proof.Gen.Pre_finite_inputs
import proofs.«100384_j8693013807615_2_alg».proof.Proof.LibFiniteEntry
import Idealize.ShloMosaic.Lib.ReduceAll

noncomputable section

namespace Cert.KernelIdeal.Hand

open Idealize.ShloMosaic Idealize.ShloMosaic.ValueIdx Idealize.SL.Sem Cert.Alg

/-- The rank-0 shape has exactly one index. -/
instance subsingleton_scalar_idx : Subsingleton Cert.Pre_finite_inputs.S_.Idx :=
  ⟨fun a b => funext fun d => d.elim0⟩

/-- If "all entries of x are below +∞ in absolute value" reduces to true, every entry of x is a real. -/
theorem all_real {s : Shape} {axes : List (Fin s.rank)} (x : FVec Ideal s .f32)
    (hb : Cert.Pre_finite_inputs.S_.BroadcastsInDim s ![]) (hr : s.ReducesTo axes Cert.Pre_finite_inputs.S_)
    (hu : 0 < Cert.Pre_finite_inputs.S_.numel)
    (h : Host.reduce IntOp.andi
        (cmpf .olt (Host.absf x)
          (broadcastInDim s ![] hb (constant (F := Ideal) Cert.Pre_finite_inputs.S_ .f32 0x7F800000#32)))
        (constantI Cert.Pre_finite_inputs.S_ 1 1#1) hr hu ix0 = 1#1) (i : s.Idx) : IsReal (x i) :=
  Cert.Lgnn.Finite.real_of_abs_lt_inf x hb i (Host.reduce_andi_all _ _ hr hu ix0 h i)

/-- Under the precondition, on every device, every entry of each of the thirteen float arguments is a real. -/
theorem pre_real (m : (ℓ : Loc Cert.KernelIdeal.nD Cert.KernelIdeal.τ Cert.KernelIdeal.sig) → Buf (Elt Ideal) ℓ)
    (h : @Cert.Pre_KernelIdeal Cert.Pre_finite_inputs.Gen.facts m) (c : Dev Cert.KernelIdeal.nD) :
    (∀ i, IsReal (m ((c.tc : Thread Cert.KernelIdeal.nD Cert.KernelIdeal.τ).loc Cert.KernelIdeal.main_arg0) i))
    ∧ (∀ i, IsReal (m ((c.tc : Thread Cert.KernelIdeal.nD Cert.KernelIdeal.τ).loc Cert.KernelIdeal.main_arg3) i))
    ∧ (∀ i, IsReal (m ((c.tc : Thread Cert.KernelIdeal.nD Cert.KernelIdeal.τ).loc Cert.KernelIdeal.main_arg4) i))
    ∧ (∀ i, IsReal (m ((c.tc : Thread Cert.KernelIdeal.nD Cert.KernelIdeal.τ).loc Cert.KernelIdeal.main_arg5) i))
    ∧ (∀ i, IsReal (m ((c.tc : Thread Cert.KernelIdeal.nD Cert.KernelIdeal.τ).loc Cert.KernelIdeal.main_arg6) i))
    ∧ (∀ i, IsReal (m ((c.tc : Thread Cert.KernelIdeal.nD Cert.KernelIdeal.τ).loc Cert.KernelIdeal.main_arg7) i))
    ∧ (∀ i, IsReal (m ((c.tc : Thread Cert.KernelIdeal.nD Cert.KernelIdeal.τ).loc Cert.KernelIdeal.main_arg8) i))
    ∧ (∀ i, IsReal (m ((c.tc : Thread Cert.KernelIdeal.nD Cert.KernelIdeal.τ).loc Cert.KernelIdeal.main_arg9) i))
    ∧ (∀ i, IsReal (m ((c.tc : Thread Cert.KernelIdeal.nD Cert.KernelIdeal.τ).loc Cert.KernelIdeal.main_arg10) i))
    ∧ (∀ i, IsReal (m ((c.tc : Thread Cert.KernelIdeal.nD Cert.KernelIdeal.τ).loc Cert.KernelIdeal.main_arg11) i))
    ∧ (∀ i, IsReal (m ((c.tc : Thread Cert.KernelIdeal.nD Cert.KernelIdeal.τ).loc Cert.KernelIdeal.main_arg12) i))
    ∧ (∀ i, IsReal (m ((c.tc : Thread Cert.KernelIdeal.nD Cert.KernelIdeal.τ).loc Cert.KernelIdeal.main_arg13) i))
    ∧ (∀ i, IsReal (m ((c.tc : Thread Cert.KernelIdeal.nD Cert.KernelIdeal.τ).loc Cert.KernelIdeal.main_arg14) i)) := by
  have h0 := congrFun (h c) ix0
  dsimp only [Cert.Pre_finite_inputs.fn, Cert.Pre_finite_inputs.fn_part1, Cert.Pre_finite_inputs.fn_part2,
    Cert.Pre_finite_inputs.fn_part3] at h0
  obtain ⟨h0, h14⟩ := IntOp.andi_eq_one.1 h0
  obtain ⟨h0, h13⟩ := IntOp.andi_eq_one.1 h0
  obtain ⟨h0, h12⟩ := IntOp.andi_eq_one.1 h0
  obtain ⟨h0, h11⟩ := IntOp.andi_eq_one.1 h0
  obtain ⟨h0, h10⟩ := IntOp.andi_eq_one.1 h0
  obtain ⟨h0, h9⟩ := IntOp.andi_eq_one.1 h0
  obtain ⟨h0, h8⟩ := IntOp.andi_eq_one.1 h0
  obtain ⟨h0, h7⟩ := IntOp.andi_eq_one.1 h0
  obtain ⟨h0, h6⟩ := IntOp.andi_eq_one.1 h0
  obtain ⟨h0, h5⟩ := IntOp.andi_eq_one.1 h0
  obtain ⟨h0, h4⟩ := IntOp.andi_eq_one.1 h0
  obtain ⟨h0, h3⟩ := IntOp.andi_eq_one.1 h0
  exact ⟨all_real _ _ _ _ h0, all_real _ _ _ _ h3, all_real _ _ _ _ h4, all_real _ _ _ _ h5, all_real _ _ _ _ h6, all_real _ _ _ _ h7, all_real _ _ _ _ h8, all_real _ _ _ _ h9, all_real _ _ _ _ h10, all_real _ _ _ _ h11, all_real _ _ _ _ h12, all_real _ _ _ _ h13, all_real _ _ _ _ h14⟩

end Cert.KernelIdeal.Hand

end
-- ==== Proof.Algebraic.lean ====
/-
  The two programs compute the same two results on the extended reals.
  Kernel side: the last boundary's contents of the two result buffers are the row-normalized concatenation of the three
  layer outputs, and of their per-graph means. Each layer output is the normalization of the rectified, biased edge
  aggregate of the layer's product, with the variance taken as the mean of squares minus the squared mean. Reference
  side: the same with the variance as the mean of the squared deviations. For real entries the two variances agree, and
  under the precondition every entry stays real through the three layers: products and sums of reals, the edge weights
  (reciprocal square roots of degrees that are at least one), and a normalization whose variance plus epsilon is positive.
-/
import proofs.«100384_j8693013807615_2_alg».proof.Defs
import proofs.«100384_j8693013807615_2_alg».proof.Proof.Run
import proofs.«100384_j8693013807615_2_alg».proof.Proof.KChain
import proofs.«100384_j8693013807615_2_alg».proof.Proof.KStageHead
import proofs.«100384_j8693013807615_2_alg».proof.Proof.KStageTailC
import proofs.«100384_j8693013807615_2_alg».proof.Proof.RefRunOut
import proofs.«100384_j8693013807615_2_alg».proof.Proof.LayerBridge
import proofs.«100384_j8693013807615_2_alg».proof.Proof.LayerLaw
import proofs.«100384_j8693013807615_2_alg».proof.Proof.KLayerReal
import proofs.«100384_j8693013807615_2_alg».proof.Proof.AggReal
import proofs.«100384_j8693013807615_2_alg».proof.Proof.PreReal

set_option maxRecDepth 16384

noncomputable section

namespace Cert.KernelIdeal.Hand

open Cert.KernelIdeal Cert.KernelIdeal.Gen
open Idealize.ShloMosaic Idealize.ShloMosaic.TcCoe Idealize.SL.Sem
open Cert.Alg
open Cert.ReferenceIdeal.RefRun (h1 h2 h3 out0 out1 layerOut layerAct layer_law dense1_eq dense2_eq)

variable (m : (ℓ : Loc nD τ sig) → Buf (Elt Ideal) ℓ) (ρ : Dev nD → PrngReg)

/-! ## The edge vectors and the two results of the kernel program -/

theorem k_src (c : Dev nD) : Wv1 m ρ c (Proc.devRef .tc main_v3) = Cert.Spec.edgeSrc (F := Ideal) (m ((c : Thread nD τ).loc main_arg1)) :=
  read_src0 (Wv0 m ρ c)
theorem k_dst (c : Dev nD) : Wv1 m ρ c (Proc.devRef .tc main_v6) = Cert.Spec.edgeDst (F := Ideal) (m ((c : Thread nD τ).loc main_arg1)) :=
  read_dst0 (Wv0 m ρ c)
theorem k_nw (c : Dev nD) : Wv1 m ρ c (Proc.devRef .tc main_v28)
    = Cert.Spec.edgeWeight (F := Ideal) (Cert.Spec.edgeSrc (m ((c : Thread nD τ).loc main_arg1))) (Cert.Spec.edgeDst (m ((c : Thread nD τ).loc main_arg1))) :=
  read_weight0 (Wv0 m ρ c)

theorem keep_main_v146_19_21 (c : Dev nD) : Wv21 m ρ c (Proc.devRef .tc main_v146) = Wv19 m ρ c (Proc.devRef .tc main_v146) :=
  (Wv21_of m ρ c main_v146 (by decide)).trans <| (Wv20_of m ρ c main_v146 (by decide)).trans <| rfl

theorem k_res0 (c : Dev nD) : Wv21 m ρ c (Proc.devRef .tc main_v146)
    = Cert.Spec.rowNormNodes (F := Ideal) (Cert.Spec.catNodes (kZ0 m ρ c) (kZ1 m ρ c) (kZ2 m ρ c)) := by
  refine (keep_main_v146_19_21 m ρ c).trans ?_
  refine (read_nodes_out (Wv16 m ρ c)).trans ?_
  rw [k_out0 m ρ c, k_out1 m ρ c, k_out2 m ρ c]

theorem k_res1 (c : Dev nD) : Wv21 m ρ c (Proc.devRef .tc main_v151)
    = Cert.Spec.rowNormGraphs (F := Ideal) (Cert.Spec.catGraphs
        (Cert.Spec.segMean (m ((c : Thread nD τ).loc main_arg2)) (Cert.Spec.segCount (m ((c : Thread nD τ).loc main_arg2))) (kZ0 m ρ c))
        (Cert.Spec.segMean (m ((c : Thread nD τ).loc main_arg2)) (Cert.Spec.segCount (m ((c : Thread nD τ).loc main_arg2))) (kZ1 m ρ c))
        (Cert.Spec.segMean (m ((c : Thread nD τ).loc main_arg2)) (Cert.Spec.segCount (m ((c : Thread nD τ).loc main_arg2))) (kZ2 m ρ c))) := by
  refine (read_graphs_out (Wv16 m ρ c)).trans ?_
  rw [k_out0 m ρ c, k_out1 m ρ c, k_out2 m ρ c, k_batch m ρ c]

/-! ## Layer by layer: the kernel's output is the reference's, and stays real -/

section Layers

variable (hpre : @Cert.Pre_KernelIdeal Cert.Pre_finite_inputs.Gen.facts m) (c : Dev nD)
include hpre

theorem kA0_real : ∀ i, IsReal (Cert.Spec.agg (F := Ideal) (Cert.Spec.edgeSrc (m ((c : Thread nD τ).loc main_arg1))) (Cert.Spec.edgeDst (m ((c : Thread nD τ).loc main_arg1)))
    (Cert.Spec.edgeWeight (Cert.Spec.edgeSrc (m ((c : Thread nD τ).loc main_arg1))) (Cert.Spec.edgeDst (m ((c : Thread nD τ).loc main_arg1)))) (mmOut (m ((c : Thread nD τ).loc main_arg0)) (m ((c : Thread nD τ).loc main_arg3))) i) :=
  Cert.Spec.agg_real _ _ _ _ (Cert.Spec.edgeWeight_real _ _) (mmOut_real _ _ (pre_real m hpre c).1 (pre_real m hpre c).2.1)

theorem kZ0_eq : kZ0 m ρ c = h1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  unfold kZ0 kR0 kH0 h1 layerOut layerAct
  rw [k_src m ρ c, k_dst m ρ c, k_nw m ρ c, dense1_eq]
  exact layer_law _ _ _ _ (kA0_real m hpre c) (pre_real m hpre c).2.2.1

theorem kZ0_real : ∀ i, IsReal (kZ0 m ρ c i) := by
  unfold kZ0 kR0 kH0
  rw [k_src m ρ c, k_dst m ρ c, k_nw m ρ c]
  exact kLayer_real _ _ _ _ (kA0_real m hpre c) (pre_real m hpre c).2.2.1 (pre_real m hpre c).2.2.2.1 (pre_real m hpre c).2.2.2.2.1

theorem kA1_real : ∀ i, IsReal (Cert.Spec.agg (F := Ideal) (Cert.Spec.edgeSrc (m ((c : Thread nD τ).loc main_arg1))) (Cert.Spec.edgeDst (m ((c : Thread nD τ).loc main_arg1)))
    (Cert.Spec.edgeWeight (Cert.Spec.edgeSrc (m ((c : Thread nD τ).loc main_arg1))) (Cert.Spec.edgeDst (m ((c : Thread nD τ).loc main_arg1)))) (mmOut64 (kZ0 m ρ c) (m ((c : Thread nD τ).loc main_arg7))) i) :=
  Cert.Spec.agg_real _ _ _ _ (Cert.Spec.edgeWeight_real _ _) (mmOut64_real _ _ (kZ0_real m ρ hpre c) (pre_real m hpre c).2.2.2.2.2.1)

theorem kZ1_eq : kZ1 m ρ c = h2 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  unfold kZ1 kR1 kH1 h2 layerOut layerAct
  rw [k_src m ρ c, k_dst m ρ c, k_nw m ρ c, dense2_eq, ← kZ0_eq m ρ hpre c]
  exact layer_law _ _ _ _ (kA1_real m ρ hpre c) (pre_real m hpre c).2.2.2.2.2.2.1

theorem kZ1_real : ∀ i, IsReal (kZ1 m ρ c i) := by
  unfold kZ1 kR1 kH1
  rw [k_src m ρ c, k_dst m ρ c, k_nw m ρ c]
  exact kLayer_real _ _ _ _ (kA1_real m ρ hpre c) (pre_real m hpre c).2.2.2.2.2.2.1 (pre_real m hpre c).2.2.2.2.2.2.2.1 (pre_real m hpre c).2.2.2.2.2.2.2.2.1

theorem kA2_real : ∀ i, IsReal (Cert.Spec.agg (F := Ideal) (Cert.Spec.edgeSrc (m ((c : Thread nD τ).loc main_arg1))) (Cert.Spec.edgeDst (m ((c : Thread nD τ).loc main_arg1)))
    (Cert.Spec.edgeWeight (Cert.Spec.edgeSrc (m ((c : Thread nD τ).loc main_arg1))) (Cert.Spec.edgeDst (m ((c : Thread nD τ).loc main_arg1)))) (mmOut64 (kZ1 m ρ c) (m ((c : Thread nD τ).loc main_arg11))) i) :=
  Cert.Spec.agg_real _ _ _ _ (Cert.Spec.edgeWeight_real _ _) (mmOut64_real _ _ (kZ1_real m ρ hpre c) (pre_real m hpre c).2.2.2.2.2.2.2.2.2.1)

theorem kZ2_eq : kZ2 m ρ c = h3 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  unfold kZ2 kR2 kH2 h3 layerOut layerAct
  rw [k_src m ρ c, k_dst m ρ c, k_nw m ρ c, dense2_eq, ← kZ1_eq m ρ hpre c]
  exact layer_law _ _ _ _ (kA2_real m ρ hpre c) (pre_real m hpre c).2.2.2.2.2.2.2.2.2.2.1

/-- The first result. -/
theorem res0_eq : Wv21 m ρ c (Proc.devRef .tc main_v146) = out0 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  rw [k_res0 m ρ c, kZ0_eq m ρ hpre c, kZ1_eq m ρ hpre c, kZ2_eq m ρ hpre c]
  rfl

/-- The second result. -/
theorem res1_eq : Wv21 m ρ c (Proc.devRef .tc main_v151) = out1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  rw [k_res1 m ρ c, kZ0_eq m ρ hpre c, kZ1_eq m ρ hpre c, kZ2_eq m ρ hpre c]
  rfl

end Layers

end Cert.KernelIdeal.Hand

end
-- ==== Proof.lean ====
/-
  The certificate's five claims for the three-layer graph convolution.
  The kernel program is nine kernel regions (per layer: a dense transform, bias + rectifier with the column sums and
  sums of squares accumulated over the row blocks, the normalization) among stretches of host operations (the edge
  aggregation, the statistics' arithmetic, the graph pooling and the final row normalization). Its run is assembled
  once, for any float instance, from one segment per item (Proof/Run.lean for the idealized program, Proof/KRun.lean for
  the word-level one): every execution terminates, faults nowhere and leaves the fifteen argument arrays unchanged.
  The reference is a host program; its run is Proof/RefRunFrame.lean, and Proof/RefRunOut.lean reads its two results as
  functions of the arguments. The idealization rewrote nothing, so the preservation claim has no conjunct. The two
  idealized programs' results agree by Proof/Algebraic.lean: layer by layer the kernel's normalization (variance as the
  mean of squares minus the squared mean) is the reference's (mean of squared deviations) on real entries, and the
  precondition keeps every entry real.
-/
import proofs.«100384_j8693013807615_2_alg».proof.Defs
import proofs.«100384_j8693013807615_2_alg».proof.Proof.Gen.Kernel
import proofs.«100384_j8693013807615_2_alg».proof.Proof.Gen.KernelIdeal
import proofs.«100384_j8693013807615_2_alg».proof.Proof.Gen.ReferenceIdeal
import proofs.«100384_j8693013807615_2_alg».proof.Proof.Gen.Pre_finite_inputs
import proofs.«100384_j8693013807615_2_alg».proof.Proof.Run
import proofs.«100384_j8693013807615_2_alg».proof.Proof.KRun
import proofs.«100384_j8693013807615_2_alg».proof.Proof.RefRunFrame
import proofs.«100384_j8693013807615_2_alg».proof.Proof.RefRunOut
import proofs.«100384_j8693013807615_2_alg».proof.Proof.Algebraic
import Idealize.ShloMosaic.Adequacy
import Idealize.ShloMosaic.Init

noncomputable section

namespace Cert.Proof

open Idealize.ShloMosaic Idealize.SL.Sem

theorem frame_k : @Cert.frame_Kernel Cert.Kernel.Gen.facts Cert.Pre_finite_inputs.Gen.facts :=
  fun m ρ _ => Cert.Kernel.Hand.frame (F := Bits) m ρ

theorem frame_ki : @Cert.frame_KernelIdeal Cert.KernelIdeal.Gen.facts Cert.Pre_finite_inputs.Gen.facts :=
  fun m ρ _ => Cert.KernelIdeal.Hand.frame (F := Ideal) m ρ

theorem frame_ri : @Cert.frame_ReferenceIdeal Cert.ReferenceIdeal.Gen.facts Cert.Pre_finite_inputs.Gen.facts :=
  fun m ρ _ => (θ_run Cert.ReferenceIdeal.defs _ _).mono (fun _ h c => (h c).2.2)
    (Cert.ReferenceIdeal.RefRun.run (F := Ideal) m ρ)

theorem algebraic : @Cert.algebraic_KernelIdeal_ReferenceIdeal Cert.KernelIdeal.Gen.facts Cert.ReferenceIdeal.Gen.facts Cert.Pre_finite_inputs.Gen.facts := by
  intro m ρ m' ρ' hpre hagree
  refine ⟨fun c => Cert.KernelIdeal.Hand.Wv21 m ρ c (Proc.devRef .tc Cert.KernelIdeal.main_v146),
    fun c => Cert.KernelIdeal.Hand.Wv21 m ρ c (Proc.devRef .tc Cert.KernelIdeal.main_v151),
    Cert.KernelIdeal.Hand.run (F := Ideal) m ρ, ?_⟩
  refine (θ_run Cert.ReferenceIdeal.defs _ _).mono (fun _ h c => ⟨(h c).1.trans ?_, (h c).2.1.trans ?_, (h c).2.2⟩)
    (Cert.ReferenceIdeal.RefRun.run_out (F := Ideal) m' ρ')
  · obtain ⟨a0, a1, a2, a3, a4, a5, a6, a7, a8, a9, a10, a11, a12, a13, a14⟩ := hagree c
    rw [a0, a1, a3, a4, a5, a6, a7, a8, a9, a10, a11, a12, a13, a14]
    exact (Cert.KernelIdeal.Hand.res0_eq m ρ hpre c).symm
  · obtain ⟨a0, a1, a2, a3, a4, a5, a6, a7, a8, a9, a10, a11, a12, a13, a14⟩ := hagree c
    rw [a0, a1, a2, a3, a4, a5, a6, a7, a8, a9, a10, a11, a12, a13, a14]
    exact (Cert.KernelIdeal.Hand.res1_eq m ρ hpre c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
